-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x32 : Shape := ⟨2, ![80000, 32]⟩
abbrev S2x1280000 : Shape := ⟨2, ![2, 1280000]⟩
abbrev S1280000x16 : Shape := ⟨2, ![1280000, 16]⟩
abbrev S32x64 : Shape := ⟨2, ![32, 64]⟩
abbrev S64 : Shape := ⟨1, ![64]⟩
abbrev S16x64 : Shape := ⟨2, ![16, 64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S4 : Shape := ⟨1, ![4]⟩
abbrev S_ : Shape := ⟨0, ![]⟩

class Facts : Prop where
  bcast_S_S80000x32 : S_.BroadcastsInDim S80000x32 (![] : Fin 0 → Fin S80000x32.rank)
  reducesTo_S80000x32_S_d0_1 : S80000x32.ReducesTo [0, 1] S_
  h_S_ : 0 < S_.numel
  bcast_S_S1280000x16 : S_.BroadcastsInDim S1280000x16 (![] : Fin 0 → Fin S1280000x16.rank)
  reducesTo_S1280000x16_S_d0_1 : S1280000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg15 : FVec F S4x64 .f32) (main_v63 : IVec S_ 1) (main_v67 : IVec S_ 1) : IVec S_ 1 :=
  let main_v68 : IVec S_ 1 := andi main_v63 main_v67
  let main_v69 : FVec F S4x64 .f32 := Host.absf main_arg15
  let main_cst_26 : FVec F S_ .f32 := constant S_ .f32 0x7F800000#32
  let main_v70 : FVec F S4x64 .f32 := broadcastInDim S4x64 ![] bcast_S_S4x64 main_cst_26
  let main_v71 : IVec S4x64 1 := cmpf .olt main_v69 main_v70
  let main_c_27 : IVec S_ 1 := constantI S_ 1 1#1
  let main_v72 : IVec S_ 1 := (fun x v => Host.reduce IntOp.andi x v reducesTo_S4x64_S_d0_1 h_S_) main_v71 main_c_27
  let main_v73 : IVec S_ 1 := andi main_v68 main_v72
  main_v73

def fn_part3 {F : FTy → Type} [FloatOps F] (main_arg12 : FVec F S4x64 .f32) (main_arg13 : FVec F S4 .f32) (main_arg14 : FVec F S4x64 .f32) (main_arg15 : FVec F S4x64 .f32) (main_v48 : IVec S_ 1) (main_v49 : FVec F S4x128x64 .f32) (main_v50 : FVec F S4x128x64 .f32) : IVec S_ 1 :=
  let main_v51 : IVec S4x128x64 1 := cmpf .olt main_v49 main_v50
  let main_c_19 : IVec S_ 1 := constantI S_ 1 1#1
  let main_v52 : IVec S_ 1 := (fun x v => Host.reduce IntOp.andi x v reducesTo_S4x128x64_S_d0_1_2 h_S_) main_v51 main_c_19
  let main_v53 : IVec S_ 1 := andi main_v48 main_v52
  let main_v54 : FVec F S4x64 .f32 := Host.absf main_arg12
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x64 .f32 := Host.absf main_arg14
  let main_cst_24 : FVec F S_ .f32 := constant S_ .f32 0x7F800000#32
  let main_v65 : FVec F S4x64 .f32 := broadcastInDim S4x64 ![] bcast_S_S4x64 main_cst_24
  let main_v66 : IVec S4x64 1 := cmpf .olt main_v64 main_v65
  let main_c_25 : IVec S_ 1 := constantI S_ 1 1#1
  let main_v67 : IVec S_ 1 := (fun x v => Host.reduce IntOp.andi x v reducesTo_S4x64_S_d0_1 h_S_) main_v66 main_c_25
  fn_part4 (F := F) main_arg15 main_v63 main_v67

def fn_part2 {F : FTy → Type} [FloatOps F] (main_arg8 : FVec F S4x128 .f32) (main_arg9 : FVec F S4x128 .f32) (main_arg10 : FVec F S4x128 .f32) (main_arg11 : FVec F S4x128x64 .f32) (main_arg12 : FVec F S4x64 .f32) (main_arg13 : FVec F S4 .f32) (main_arg14 : FVec F S4x64 .f32) (main_arg15 : FVec F S4x64 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg10
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128x64 .f32 := Host.absf main_arg11
  let main_cst_18 : FVec F S_ .f32 := constant S_ .f32 0x7F800000#32
  let main_v50 : FVec F S4x128x64 .f32 := broadcastInDim S4x128x64 ![] bcast_S_S4x128x64 main_cst_18
  fn_part3 (F := F) main_arg12 main_arg13 main_arg14 main_arg15 main_v48 main_v49 main_v50

def fn_part1 {F : FTy → Type} [FloatOps F] (main_arg5 : FVec F S16x64 .f32) (main_arg6 : FVec F S64 .f32) (main_arg7 : FVec F S4x64x128 .f32) (main_arg8 : FVec F S4x128 .f32) (main_arg9 : FVec F S4x128 .f32) (main_arg10 : FVec F S4x128 .f32) (main_arg11 : FVec F S4x128x64 .f32) (main_arg12 : FVec F S4x64 .f32) (main_arg13 : FVec F S4 .f32) (main_arg14 : FVec F S4x64 .f32) (main_arg15 : FVec F S4x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64x128 .f32 := Host.absf main_arg7
  let main_cst_10 : FVec F S_ .f32 := constant S_ .f32 0x7F800000#32
  let main_v30 : FVec F S4x64x128 .f32 := broadcastInDim S4x64x128 ![] bcast_S_S4x64x128 main_cst_10
  let main_v31 : IVec S4x64x128 1 := cmpf .olt main_v29 main_v30
  let main_c_11 : IVec S_ 1 := constantI S_ 1 1#1
  let main_v32 : IVec S_ 1 := (fun x v => Host.reduce IntOp.andi x v reducesTo_S4x64x128_S_d0_1_2 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S80000x32 .f32) (main_arg1 : IVec S2x1280000 32) (main_arg2 : FVec F S1280000x16 .f32) (main_arg3 : FVec F S32x64 .f32) (main_arg4 : FVec F S64 .f32) (main_arg5 : FVec F S16x64 .f32) (main_arg6 : FVec F S64 .f32) (main_arg7 : FVec F S4x64x128 .f32) (main_arg8 : FVec F S4x128 .f32) (main_arg9 : FVec F S4x128 .f32) (main_arg10 : FVec F S4x128 .f32) (main_arg11 : FVec F S4x128x64 .f32) (main_arg12 : FVec F S4x64 .f32) (main_arg13 : FVec F S4 .f32) (main_arg14 : FVec F S4x64 .f32) (main_arg15 : FVec F S4x64 .f32) : IVec S_ 1 :=
  let main_v0 : FVec F S80000x32 .f32 := Host.absf main_arg0
  let main_cst : FVec F S_ .f32 := constant S_ .f32 0x7F800000#32
  let main_v1 : FVec F S80000x32 .f32 := broadcastInDim S80000x32 ![] bcast_S_S80000x32 main_cst
  let main_v2 : IVec S80000x32 1 := cmpf .olt main_v0 main_v1
  let main_c : IVec S_ 1 := constantI S_ 1 1#1
  let main_v3 : IVec S_ 1 := (fun x v => Host.reduce IntOp.andi x v reducesTo_S80000x32_S_d0_1 h_S_) main_v2 main_c
  let main_v4 : FVec F S1280000x16 .f32 := Host.absf main_arg2
  let main_cst_0 : FVec F S_ .f32 := constant S_ .f32 0x7F800000#32
  let main_v5 : FVec F S1280000x16 .f32 := broadcastInDim S1280000x16 ![] bcast_S_S1280000x16 main_cst_0
  let main_v6 : IVec S1280000x16 1 := cmpf .olt main_v4 main_v5
  let main_c_1 : IVec S_ 1 := constantI S_ 1 1#1
  let main_v7 : IVec S_ 1 := (fun x v => Host.reduce IntOp.andi x v reducesTo_S1280000x16_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S80000x32 : Shape := ⟨2, ![80000, 32]⟩
abbrev S2x1280000 : Shape := ⟨2, ![2, 1280000]⟩
abbrev S1280000x16 : Shape := ⟨2, ![1280000, 16]⟩
abbrev S32x64 : Shape := ⟨2, ![32, 64]⟩
abbrev S64 : Shape := ⟨1, ![64]⟩
abbrev S16x64 : Shape := ⟨2, ![16, 64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S4 : Shape := ⟨1, ![4]⟩
abbrev S80000x64 : Shape := ⟨2, ![80000, 64]⟩
abbrev S8000x32 : Shape := ⟨2, ![8000, 32]⟩
abbrev S8000x64 : Shape := ⟨2, ![8000, 64]⟩
abbrev S1x64 : Shape := ⟨2, ![1, 64]⟩
abbrev S1280000x64 : Shape := ⟨2, ![1280000, 64]⟩
abbrev S8000x16 : Shape := ⟨2, ![8000, 16]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1 : Shape := ⟨1, ![1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S80000x128 : Shape := ⟨2, ![80000, 128]⟩
abbrev S8000x128 : Shape := ⟨2, ![8000, 128]⟩
abbrev S1x128x64 : Shape := ⟨3, ![1, 128, 64]⟩
abbrev S128x64 : Shape := ⟨2, ![128, 64]⟩
abbrev S8000 : Shape := ⟨1, ![8000]⟩
abbrev S8000x1 : Shape := ⟨2, ![8000, 1]⟩

abbrev nBuf : Space → Nat
  | .hbm => 234
  | .vmem => 124
  | .smem => 0
  | _ => 0

abbrev hbmTy0_0 (i : Nat) : BufTy := match i % 128 with
  | 0 => ⟨S80000x32, .f32⟩
  | 1 => ⟨S2x1280000, .i32⟩
  | 2 => ⟨S1280000x16, .f32⟩
  | 3 => ⟨S32x64, .f32⟩
  | 4 => ⟨S64, .f32⟩
  | 5 => ⟨S16x64, .f32⟩
  | 6 => ⟨S64, .f32⟩
  | 7 => ⟨S4x64x128, .f32⟩
  | 8 => ⟨S4x128, .f32⟩
  | 9 => ⟨S4x128, .f32⟩
  | 10 => ⟨S4x128, .f32⟩
  | 11 => ⟨S4x128x64, .f32⟩
  | 12 => ⟨S4x64, .f32⟩
  | 13 => ⟨S4, .f32⟩
  | 14 => ⟨S4x64, .f32⟩
  | 15 => ⟨S4x64, .f32⟩
  | 16 => ⟨S80000x64, .f32⟩
  | 17 => ⟨S1280000x64, .f32⟩
  | 18 => ⟨S1x1280000, .i32⟩
  | 19 => ⟨S1280000, .i32⟩
  | 20 => ⟨S1x1280000, .i32⟩
  | 21 => ⟨S1280000, .i32⟩
  | 22 => ⟨S_, .i32⟩
  | 23 => ⟨S1280000, .i32⟩
  | 24 => ⟨S1280000, .i1⟩
  | 25 => ⟨S_, .i32⟩
  | 26 => ⟨S1280000, .i32⟩
  | 27 => ⟨S1280000, .i32⟩
  | 28 => ⟨S1280000, .i32⟩
  | 29 => ⟨S1280000x1, .i32⟩
  | 30 => ⟨S1280000x64, .f32⟩
  | 31 => ⟨S1280000x64, .f32⟩
  | 32 => ⟨S_, .f32⟩
  | 33 => ⟨S80000x64, .f32⟩
  | 34 => ⟨S1280000x1, .i32⟩
  | 35 => ⟨S80000x64, .f32⟩
  | 36 => ⟨S1, .f32⟩
  | 37 => ⟨S_, .f32⟩
  | 38 => ⟨S_, .f32⟩
  | 39 => ⟨S_, .f32⟩
  | 40 => ⟨S80000x64, .f32⟩
  | 41 => ⟨S80000x64, .f32⟩
  | 42 => ⟨S80000x64, .f32⟩
  | 43 => ⟨S1x64x128, .f32⟩
  | 44 => ⟨S64x128, .f32⟩
  | 45 => ⟨S1x128, .f32⟩
  | 46 => ⟨S128, .f32⟩
  | 47 => ⟨S80000x128, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S128, .f32⟩
  | 60 => ⟨S1x128, .f32⟩
  | 61 => ⟨S1x128, .f32⟩
  | 62 => ⟨S128, .f32⟩
  | 63 => ⟨S1x128, .f32⟩
  | 64 => ⟨S1x128x64, .f32⟩
  | 65 => ⟨S128x64, .f32⟩
  | 66 => ⟨S1x64, .f32⟩
  | 67 => ⟨S64, .f32⟩
  | 68 => ⟨S1x64, .f32⟩
  | 69 => ⟨S64, .f32⟩
  | 70 => ⟨S1x64, .f32⟩
  | 71 => ⟨S1x64, .f32⟩
  | 72 => ⟨S64, .f32⟩
  | 73 => ⟨S1x64, .f32⟩
  | 74 => ⟨S80000x64, .f32⟩
  | 75 => ⟨S_, .i32⟩
  | 76 => ⟨S1280000, .i32⟩
  | 77 => ⟨S1280000, .i1⟩
  | 78 => ⟨S_, .i32⟩
  | 79 => ⟨S1280000, .i32⟩
  | 80 => ⟨S1280000, .i32⟩
  | 81 => ⟨S1280000, .i32⟩
  | 82 => ⟨S1280000x1, .i32⟩
  | 83 => ⟨S1280000x64, .f32⟩
  | 84 => ⟨S1280000x64, .f32⟩
  | 85 => ⟨S_, .f32⟩
  | 86 => ⟨S80000x64, .f32⟩
  | 87 => ⟨S1280000x1, .i32⟩
  | 88 => ⟨S80000x64, .f32⟩
  | 89 => ⟨S1, .f32⟩
  | 90 => ⟨S_, .f32⟩
  | 91 => ⟨S_, .f32⟩
  | 92 => ⟨S_, .f32⟩
  | 93 => ⟨S80000x64, .f32⟩
  | 94 => ⟨S80000x64, .f32⟩
  | 95 => ⟨S80000x64, .f32⟩
  | 96 => ⟨S1x64x128, .f32⟩
  | 97 => ⟨S64x128, .f32⟩
  | 98 => ⟨S1x128, .f32⟩
  | 99 => ⟨S128, .f32⟩
  | 100 => ⟨S80000x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S128, .f32⟩
  | 113 => ⟨S1x128, .f32⟩
  | 114 => ⟨S1x128, .f32⟩
  | 115 => ⟨S128, .f32⟩
  | 116 => ⟨S1x128, .f32⟩
  | 117 => ⟨S1x128x64, .f32⟩
  | 118 => ⟨S128x64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S1x64, .f32⟩
  | 125 => ⟨S64, .f32⟩
  | 126 => ⟨S1x64, .f32⟩
  | 127 => ⟨S80000x64, .f32⟩
  | _ => ⟨S80000x32, .f32⟩

abbrev hbmTy0_1 (i : Nat) : BufTy := match i % 128 with
  | 0 => ⟨S_, .i32⟩
  | 1 => ⟨S1280000, .i32⟩
  | 2 => ⟨S1280000, .i1⟩
  | 3 => ⟨S_, .i32⟩
  | 4 => ⟨S1280000, .i32⟩
  | 5 => ⟨S1280000, .i32⟩
  | 6 => ⟨S1280000, .i32⟩
  | 7 => ⟨S1280000x1, .i32⟩
  | 8 => ⟨S1280000x64, .f32⟩
  | 9 => ⟨S1280000x64, .f32⟩
  | 10 => ⟨S_, .f32⟩
  | 11 => ⟨S80000x64, .f32⟩
  | 12 => ⟨S1280000x1, .i32⟩
  | 13 => ⟨S80000x64, .f32⟩
  | 14 => ⟨S1, .f32⟩
  | 15 => ⟨S_, .f32⟩
  | 16 => ⟨S_, .f32⟩
  | 17 => ⟨S_, .f32⟩
  | 18 => ⟨S80000x64, .f32⟩
  | 19 => ⟨S80000x64, .f32⟩
  | 20 => ⟨S80000x64, .f32⟩
  | 21 => ⟨S1x64x128, .f32⟩
  | 22 => ⟨S64x128, .f32⟩
  | 23 => ⟨S1x128, .f32⟩
  | 24 => ⟨S128, .f32⟩
  | 25 => ⟨S80000x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S128, .f32⟩
  | 38 => ⟨S1x128, .f32⟩
  | 39 => ⟨S1x128, .f32⟩
  | 40 => ⟨S128, .f32⟩
  | 41 => ⟨S1x128, .f32⟩
  | 42 => ⟨S1x128x64, .f32⟩
  | 43 => ⟨S128x64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S1x64, .f32⟩
  | 50 => ⟨S64, .f32⟩
  | 51 => ⟨S1x64, .f32⟩
  | 52 => ⟨S80000x64, .f32⟩
  | 53 => ⟨S_, .i32⟩
  | 54 => ⟨S1280000, .i32⟩
  | 55 => ⟨S1280000, .i1⟩
  | 56 => ⟨S_, .i32⟩
  | 57 => ⟨S1280000, .i32⟩
  | 58 => ⟨S1280000, .i32⟩
  | 59 => ⟨S1280000, .i32⟩
  | 60 => ⟨S1280000x1, .i32⟩
  | 61 => ⟨S1280000x64, .f32⟩
  | 62 => ⟨S1280000x64, .f32⟩
  | 63 => ⟨S_, .f32⟩
  | 64 => ⟨S80000x64, .f32⟩
  | 65 => ⟨S1280000x1, .i32⟩
  | 66 => ⟨S80000x64, .f32⟩
  | 67 => ⟨S1, .f32⟩
  | 68 => ⟨S_, .f32⟩
  | 69 => ⟨S_, .f32⟩
  | 70 => ⟨S_, .f32⟩
  | 71 => ⟨S80000x64, .f32⟩
  | 72 => ⟨S80000x64, .f32⟩
  | 73 => ⟨S80000x64, .f32⟩
  | 74 => ⟨S1x64x128, .f32⟩
  | 75 => ⟨S64x128, .f32⟩
  | 76 => ⟨S1x128, .f32⟩
  | 77 => ⟨S128, .f32⟩
  | 78 => ⟨S80000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S1x128x64, .f32⟩
  | 96 => ⟨S128x64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S1x64, .f32⟩
  | 103 => ⟨S64, .f32⟩
  | 104 => ⟨S1x64, .f32⟩
  | 105 => ⟨S80000x64, .f32⟩
  | _ => ⟨S80000x32, .f32⟩

abbrev hbmTy (i : Nat) : BufTy := match i / 128 with
  | 0 => hbmTy0_0 i
  | 1 => hbmTy0_1 i
  | _ => ⟨S80000x32, .f32⟩

abbrev bufTy : (tb : Table) → Fin (tcTables nBuf tb) → BufTy
  | .hbm, ⟨i, _⟩ => hbmTy i
  | .local _ .vmem, ⟨0, _⟩ => ⟨S8000x32, .f32⟩
  | .local _ .vmem, ⟨1, _⟩ => ⟨S8000x32, .f32⟩
  | .local _ .vmem, ⟨2, _⟩ => ⟨S32x64, .f32⟩
  | .local _ .vmem, ⟨3, _⟩ => ⟨S64, .f32⟩
  | .local _ .vmem, ⟨4, _⟩ => ⟨S8000x64, .f32⟩
  | .local _ .vmem, ⟨5, _⟩ => ⟨S8000x64, .f32⟩
  | .local _ .vmem, ⟨6, _⟩ => ⟨S8000x16, .f32⟩
  | .local _ .vmem, ⟨7, _⟩ => ⟨S8000x16, .f32⟩
  | .local _ .vmem, ⟨8, _⟩ => ⟨S16x64, .f32⟩
  | .local _ .vmem, ⟨9, _⟩ => ⟨S64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S64x128, .f32⟩
  | .local _ .vmem, ⟨21, _⟩ => ⟨S128, .f32⟩
  | .local _ .vmem, ⟨22, _⟩ => ⟨S8000x128, .f32⟩
  | .local _ .vmem, ⟨23, _⟩ => ⟨S8000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S8000x128, .f32⟩
  | .local _ .vmem, ⟨29, _⟩ => ⟨S8000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x64, .f32⟩
  | .local _ .vmem, ⟨35, _⟩ => ⟨S64, .f32⟩
  | .local _ .vmem, ⟨36, _⟩ => ⟨S1x64, .f32⟩
  | .local _ .vmem, ⟨37, _⟩ => ⟨S1x64, .f32⟩
  | .local _ .vmem, ⟨38, _⟩ => ⟨S8000x64, .f32⟩
  | .local _ .vmem, ⟨39, _⟩ => ⟨S8000x64, .f32⟩
  | .local _ .vmem, ⟨40, _⟩ => ⟨S8000x64, .f32⟩
  | .local _ .vmem, ⟨41, _⟩ => ⟨S8000x64, .f32⟩
  | .local _ .vmem, ⟨42, _⟩ => ⟨S8000x64, .f32⟩
  | .local _ .vmem, ⟨43, _⟩ => ⟨S8000x64, .f32⟩
  | .local _ .vmem, ⟨44, _⟩ => ⟨S8000x64, .f32⟩
  | .local _ .vmem, ⟨45, _⟩ => ⟨S8000x64, .f32⟩
  | .local _ .vmem, ⟨46, _⟩ => ⟨S8000x64, .f32⟩
  | .local _ .vmem, ⟨47, _⟩ => ⟨S8000x64, .f32⟩
  | .local _ .vmem, ⟨48, _⟩ => ⟨S64x128, .f32⟩
  | .local _ .vmem, ⟨49, _⟩ => ⟨S128, .f32⟩
  | .local _ .vmem, ⟨50, _⟩ => ⟨S8000x128, .f32⟩
  | .local _ .vmem, ⟨51, _⟩ => ⟨S8000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S8000x128, .f32⟩
  | .local _ .vmem, ⟨57, _⟩ => ⟨S8000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S128x64, .f32⟩
  | .local _ .vmem, ⟨63, _⟩ => ⟨S64, .f32⟩
  | .local _ .vmem, ⟨64, _⟩ => ⟨S1x64, .f32⟩
  | .local _ .vmem, ⟨65, _⟩ => ⟨S1x64, .f32⟩
  | .local _ .vmem, ⟨66, _⟩ => ⟨S8000x64, .f32⟩
  | .local _ .vmem, ⟨67, _⟩ => ⟨S8000x64, .f32⟩
  | .local _ .vmem, ⟨68, _⟩ => ⟨S8000x64, .f32⟩
  | .local _ .vmem, ⟨69, _⟩ => ⟨S8000x64, .f32⟩
  | .local _ .vmem, ⟨70, _⟩ => ⟨S8000x64, .f32⟩
  | .local _ .vmem, ⟨71, _⟩ => ⟨S8000x64, .f32⟩
  | .local _ .vmem, ⟨72, _⟩ => ⟨S8000x64, .f32⟩
  | .local _ .vmem, ⟨73, _⟩ => ⟨S8000x64, .f32⟩
  | .local _ .vmem, ⟨74, _⟩ => ⟨S8000x64, .f32⟩
  | .local _ .vmem, ⟨75, _⟩ => ⟨S8000x64, .f32⟩
  | .local _ .vmem, ⟨76, _⟩ => ⟨S64x128, .f32⟩
  | .local _ .vmem, ⟨77, _⟩ => ⟨S128, .f32⟩
  | .local _ .vmem, ⟨78, _⟩ => ⟨S8000x128, .f32⟩
  | .local _ .vmem, ⟨79, _⟩ => ⟨S8000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S8000x128, .f32⟩
  | .local _ .vmem, ⟨85, _⟩ => ⟨S8000x128, .f32⟩
  | .local _ .vmem, ⟨86, _⟩ => ⟨S1x128, .f32⟩
  | .local _ .vmem, ⟨87, _⟩ => ⟨S1x128, .f32⟩
  | .local _ .vmem, ⟨88, _⟩ => ⟨S1x128, .f32⟩
  | .local _ .vmem, ⟨89, _⟩ => ⟨S1x128, .f32⟩
  | .local _ .vmem, ⟨90, _⟩ => ⟨S128x64, .f32⟩
  | .local _ .vmem, ⟨91, _⟩ => ⟨S64, .f32⟩
  | .local _ .vmem, ⟨92, _⟩ => ⟨S1x64, .f32⟩
  | .local _ .vmem, ⟨93, _⟩ => ⟨S1x64, .f32⟩
  | .local _ .vmem, ⟨94, _⟩ => ⟨S8000x64, .f32⟩
  | .local _ .vmem, ⟨95, _⟩ => ⟨S8000x64, .f32⟩
  | .local _ .vmem, ⟨96, _⟩ => ⟨S8000x64, .f32⟩
  | .local _ .vmem, ⟨97, _⟩ => ⟨S8000x64, .f32⟩
  | .local _ .vmem, ⟨98, _⟩ => ⟨S8000x64, .f32⟩
  | .local _ .vmem, ⟨99, _⟩ => ⟨S8000x64, .f32⟩
  | .local _ .vmem, ⟨100, _⟩ => ⟨S8000x64, .f32⟩
  | .local _ .vmem, ⟨101, _⟩ => ⟨S8000x64, .f32⟩
  | .local _ .vmem, ⟨102, _⟩ => ⟨S8000x64, .f32⟩
  | .local _ .vmem, ⟨103, _⟩ => ⟨S8000x64, .f32⟩
  | .local _ .vmem, ⟨104, _⟩ => ⟨S64x128, .f32⟩
  | .local _ .vmem, ⟨105, _⟩ => ⟨S128, .f32⟩
  | .local _ .vmem, ⟨106, _⟩ => ⟨S8000x128, .f32⟩
  | .local _ .vmem, ⟨107, _⟩ => ⟨S8000x128, .f32⟩
  | .local _ .vmem, ⟨108, _⟩ => ⟨S1x128, .f32⟩
  | .local _ .vmem, ⟨109, _⟩ => ⟨S1x128, .f32⟩
  | .local _ .vmem, ⟨110, _⟩ => ⟨S1x128, .f32⟩
  | .local _ .vmem, ⟨111, _⟩ => ⟨S1x128, .f32⟩
  | .local _ .vmem, ⟨112, _⟩ => ⟨S8000x128, .f32⟩
  | .local _ .vmem, ⟨113, _⟩ => ⟨S8000x128, .f32⟩
  | .local _ .vmem, ⟨114, _⟩ => ⟨S1x128, .f32⟩
  | .local _ .vmem, ⟨115, _⟩ => ⟨S1x128, .f32⟩
  | .local _ .vmem, ⟨116, _⟩ => ⟨S1x128, .f32⟩
  | .local _ .vmem, ⟨117, _⟩ => ⟨S1x128, .f32⟩
  | .local _ .vmem, ⟨118, _⟩ => ⟨S128x64, .f32⟩
  | .local _ .vmem, ⟨119, _⟩ => ⟨S64, .f32⟩
  | .local _ .vmem, ⟨120, _⟩ => ⟨S1x64, .f32⟩
  | .local _ .vmem, ⟨121, _⟩ => ⟨S1x64, .f32⟩
  | .local _ .vmem, ⟨122, _⟩ => ⟨S8000x64, .f32⟩
  | .local _ .vmem, ⟨123, _⟩ => ⟨S8000x64, .f32⟩
  | _, _ => ⟨S80000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_4 : Ref sig .tc := ⟨.hbm, 75, rfl⟩
abbrev main_v51 : Ref sig .tc := ⟨.hbm, 76, rfl⟩
abbrev main_v52 : Ref sig .tc := ⟨.hbm, 77, rfl⟩
abbrev main_c_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_6 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72_0 : Ref sig .tc := ⟨.hbm, 100, rfl⟩
abbrev main_v72_1 : Ref sig .tc := ⟨.hbm, 101, rfl⟩
abbrev main_v72_2 : Ref sig .tc := ⟨.hbm, 102, rfl⟩
abbrev main_cst_8 : Ref sig .tc := ⟨.hbm, 103, rfl⟩
abbrev main_v73 : Ref sig .tc := ⟨.hbm, 104, rfl⟩
abbrev main_v74 : Ref sig .tc := ⟨.hbm, 105, rfl⟩
abbrev main_cst_9 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_10 : Ref sig .tc := ⟨.hbm, 128, rfl⟩
abbrev main_v96 : Ref sig .tc := ⟨.hbm, 129, rfl⟩
abbrev main_v97 : Ref sig .tc := ⟨.hbm, 130, rfl⟩
abbrev main_c_11 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_12 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_13 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117_0 : Ref sig .tc := ⟨.hbm, 153, rfl⟩
abbrev main_v117_1 : Ref sig .tc := ⟨.hbm, 154, rfl⟩
abbrev main_v117_2 : Ref sig .tc := ⟨.hbm, 155, rfl⟩
abbrev main_cst_14 : Ref sig .tc := ⟨.hbm, 156, rfl⟩
abbrev main_v118 : Ref sig .tc := ⟨.hbm, 157, rfl⟩
abbrev main_v119 : Ref sig .tc := ⟨.hbm, 158, rfl⟩
abbrev main_cst_15 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_c_16 : Ref sig .tc := ⟨.hbm, 181, rfl⟩
abbrev main_v141 : Ref sig .tc := ⟨.hbm, 182, rfl⟩
abbrev main_v142 : Ref sig .tc := ⟨.hbm, 183, rfl⟩
abbrev main_c_17 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_18 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_19 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162_0 : Ref sig .tc := ⟨.hbm, 206, rfl⟩
abbrev main_v162_1 : Ref sig .tc := ⟨.hbm, 207, rfl⟩
abbrev main_v162_2 : Ref sig .tc := ⟨.hbm, 208, rfl⟩
abbrev main_cst_20 : Ref sig .tc := ⟨.hbm, 209, rfl⟩
abbrev main_v163 : Ref sig .tc := ⟨.hbm, 210, rfl⟩
abbrev main_v164 : Ref sig .tc := ⟨.hbm, 211, rfl⟩
abbrev main_cst_21 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_scratch0 : Ref sig .tc := ⟨.vmem, 26, rfl⟩
abbrev cc3_scratch1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg8_0 : Ref sig .tc := ⟨.vmem, 37, rfl⟩
abbrev cc4_stg9_0 : Ref sig .tc := ⟨.vmem, 38, rfl⟩
abbrev cc4_stg9_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg5_0 : Ref sig .tc := ⟨.vmem, 53, rfl⟩
abbrev cc6_scratch0 : Ref sig .tc := ⟨.vmem, 54, rfl⟩
abbrev cc6_scratch1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg6_0 : Ref sig .tc := ⟨.vmem, 63, rfl⟩
abbrev cc7_stg7_0 : Ref sig .tc := ⟨.vmem, 64, rfl⟩
abbrev cc7_stg8_0 : Ref sig .tc := ⟨.vmem, 65, rfl⟩
abbrev cc7_stg9_0 : Ref sig .tc := ⟨.vmem, 66, rfl⟩
abbrev cc7_stg9_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg2_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg3_1 : Ref sig .tc := ⟨.vmem, 79, rfl⟩
abbrev cc9_stg4_0 : Ref sig .tc := ⟨.vmem, 80, rfl⟩
abbrev cc9_stg5_0 : Ref sig .tc := ⟨.vmem, 81, rfl⟩
abbrev cc9_scratch0 : Ref sig .tc := ⟨.vmem, 82, rfl⟩
abbrev cc9_scratch1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg3_0 : Ref sig .tc := ⟨.vmem, 88, rfl⟩
abbrev cc10_stg4_0 : Ref sig .tc := ⟨.vmem, 89, rfl⟩
abbrev cc10_stg5_0 : Ref sig .tc := ⟨.vmem, 90, rfl⟩
abbrev cc10_stg6_0 : Ref sig .tc := ⟨.vmem, 91, rfl⟩
abbrev cc10_stg7_0 : Ref sig .tc := ⟨.vmem, 92, rfl⟩
abbrev cc10_stg8_0 : Ref sig .tc := ⟨.vmem, 93, rfl⟩
abbrev cc10_stg9_0 : Ref sig .tc := ⟨.vmem, 94, rfl⟩
abbrev cc10_stg9_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg1_1 : Ref sig .tc := ⟨.vmem, 99, rfl⟩
abbrev cc11_stg2_0 : Ref sig .tc := ⟨.vmem, 100, rfl⟩
abbrev cc11_stg2_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg2_0 : Ref sig .tc := ⟨.vmem, 105, rfl⟩
abbrev cc12_stg3_0 : Ref sig .tc := ⟨.vmem, 106, rfl⟩
abbrev cc12_stg3_1 : Ref sig .tc := ⟨.vmem, 107, rfl⟩
abbrev cc12_stg4_0 : Ref sig .tc := ⟨.vmem, 108, rfl⟩
abbrev cc12_stg5_0 : Ref sig .tc := ⟨.vmem, 109, rfl⟩
abbrev cc12_scratch0 : Ref sig .tc := ⟨.vmem, 110, rfl⟩
abbrev cc12_scratch1 : Ref sig .tc := ⟨.vmem, 111, rfl⟩
abbrev cc13_stg0_0 : Ref sig .tc := ⟨.vmem, 112, rfl⟩
abbrev cc13_stg0_1 : Ref sig .tc := ⟨.vmem, 113, rfl⟩
abbrev cc13_stg1_0 : Ref sig .tc := ⟨.vmem, 114, rfl⟩
abbrev cc13_stg2_0 : Ref sig .tc := ⟨.vmem, 115, rfl⟩
abbrev cc13_stg3_0 : Ref sig .tc := ⟨.vmem, 116, rfl⟩
abbrev cc13_stg4_0 : Ref sig .tc := ⟨.vmem, 117, rfl⟩
abbrev cc13_stg5_0 : Ref sig .tc := ⟨.vmem, 118, rfl⟩
abbrev cc13_stg6_0 : Ref sig .tc := ⟨.vmem, 119, rfl⟩
abbrev cc13_stg7_0 : Ref sig .tc := ⟨.vmem, 120, rfl⟩
abbrev cc13_stg8_0 : Ref sig .tc := ⟨.vmem, 121, rfl⟩
abbrev cc13_stg9_0 : Ref sig .tc := ⟨.vmem, 122, rfl⟩
abbrev cc13_stg9_1 : Ref sig .tc := ⟨.vmem, 123, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem5_0 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem6_0 : DmaSem sig := 33
abbrev cc4_sem7_0 : DmaSem sig := 34
abbrev cc4_sem8_0 : DmaSem sig := 35
abbrev cc4_sem9_0 : DmaSem sig := 36
abbrev cc4_sem9_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49
abbrev cc6_sem4_0 : DmaSem sig := 50
abbrev cc6_sem5_0 : DmaSem sig := 51
abbrev cc7_sem0_0 : DmaSem sig := 52
abbrev cc7_sem0_1 : DmaSem sig := 53
abbrev cc7_sem1_0 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem6_0 : DmaSem sig := 59
abbrev cc7_sem7_0 : DmaSem sig := 60
abbrev cc7_sem8_0 : DmaSem sig := 61
abbrev cc7_sem9_0 : DmaSem sig := 62
abbrev cc7_sem9_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem3_1 : DmaSem sig := 75
abbrev cc9_sem4_0 : DmaSem sig := 76
abbrev cc9_sem5_0 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem7_0 : DmaSem sig := 86
abbrev cc10_sem8_0 : DmaSem sig := 87
abbrev cc10_sem9_0 : DmaSem sig := 88
abbrev cc10_sem9_1 : DmaSem sig := 89
abbrev cc11_sem0_0 : DmaSem sig := 90
abbrev cc11_sem0_1 : DmaSem sig := 91
abbrev cc11_sem1_0 : DmaSem sig := 92
abbrev cc11_sem1_1 : DmaSem sig := 93
abbrev cc11_sem2_0 : DmaSem sig := 94
abbrev cc11_sem2_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem3_0 : DmaSem sig := 100
abbrev cc12_sem3_1 : DmaSem sig := 101
abbrev cc12_sem4_0 : DmaSem sig := 102
abbrev cc12_sem5_0 : DmaSem sig := 103
abbrev cc13_sem0_0 : DmaSem sig := 104
abbrev cc13_sem0_1 : DmaSem sig := 105
abbrev cc13_sem1_0 : DmaSem sig := 106
abbrev cc13_sem2_0 : DmaSem sig := 107
abbrev cc13_sem3_0 : DmaSem sig := 108
abbrev cc13_sem4_0 : DmaSem sig := 109
abbrev cc13_sem5_0 : DmaSem sig := 110
abbrev cc13_sem6_0 : DmaSem sig := 111
abbrev cc13_sem7_0 : DmaSem sig := 112
abbrev cc13_sem8_0 : DmaSem sig := 113
abbrev cc13_sem9_0 : DmaSem sig := 114
abbrev cc13_sem9_1 : DmaSem sig := 115

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S8000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S8000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S8000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S8000x64 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![160], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S8000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S8000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x64 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 2 → Memref sig .tc .vmem S8000x64 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![160], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S8000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S8000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S8000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S64 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1x64 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev stage13_8 : Fin 1 → Memref sig .tc .vmem S1x64 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 2 → Memref sig .tc .vmem S8000x64 .f32 := fun | 0 => Memref.whole cc13_stg9_0 | 1 => Memref.whole cc13_stg9_1 | ⟨_ + 2, h⟩ => absurd h (Nat.not_lt.2 (Nat.le_add_left _ _))
abbrev sem13_9 : Fin 2 → DmaSem sig := fun | 0 => cc13_sem9_0 | 1 => cc13_sem9_1 | ⟨_ + 2, h⟩ => absurd h (Nat.not_lt.2 (Nat.le_add_left _ _))
abbrev reads13_9 : Fin grid13.rank → Bool := ![true]

class Facts₀ : Prop where
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  inb_S8000x16_S8000x16_0_0 : ∀ a, (![0, 0] : Fin 2 → Nat) a + S8000x16.size a ≤ S8000x16.size a
  h_S8000x16 : 0 < S8000x16.numel
  inb_S16x64_S16x64_0_0 : ∀ a, (![0, 0] : Fin 2 → Nat) a + S16x64.size a ≤ S16x64.size a
  h_S16x64 : 0 < S16x64.numel
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  shapeCasts_S8000x64_S8000x64 : S8000x64.ShapeCasts S8000x64
  bcast_S_S80000x64 : S_.BroadcastsInDim S80000x64 (![] : Fin 0 → Fin S80000x64.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  reduces_S8000x128_S128 : S8000x128.Reduces [0] S128
  bcast_S_S1x128 : S_.BroadcastsInDim S1x128 (![] : Fin 0 → Fin S1x128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  shapeCasts_S8000x128_S8000x128 : S8000x128.ShapeCasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64_S64 : S64.ShapeCasts S64
  reduces_S8000x64_S8000 : S8000x64.Reduces [1] S8000
  shapeCasts_S8000_S8000x1 : S8000.ShapeCasts S8000x1
  broadcasts_S8000x1_S8000x64 : S8000x1.Broadcasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  dot_S8000x32_S32x64_S8000x64_1_0_0_1_n_n_wf : DotDims.WF S8000x32 S32x64 S8000x64 [1] [0] [0] [1] [] []
  dot_S8000x16_S16x64_S8000x64_1_0_0_1_n_n_wf : DotDims.WF S8000x16 S16x64 S8000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S80000x32.size a
  hwx0_0 : ∀ i : grid0.Coords, EltTy.bits .f32 = 32 ∨ (Rect.block (s := S80000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S80000x64.size a
  hwx0_3 : ∀ i : grid0.Coords, EltTy.bits .f32 = 32 ∨ (Rect.block (s := S80000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S1280000x16.size a
  hwx1_0 : ∀ i : grid1.Coords, EltTy.bits .f32 = 32 ∨ (Rect.block (s := S1280000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S1280000x64.size a
  hwx1_3 : ∀ i : grid1.Coords, EltTy.bits .f32 = 32 ∨ (Rect.block (s := S1280000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1280000x64.size a
  hwx2_0 : ∀ i : grid2.Coords, EltTy.bits .f32 = 32 ∨ (Rect.block (s := S1280000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1280000x64.size a
  hwx2_1 : ∀ i : grid2.Coords, EltTy.bits .f32 = 32 ∨ (Rect.block (s := S1280000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1280000x64.size a
  hwx2_2 : ∀ i : grid2.Coords, EltTy.bits .f32 = 32 ∨ (Rect.block (s := S1280000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S80000x64.size a
  hwx3_0 : ∀ i : grid3.Coords, EltTy.bits .f32 = 32 ∨ (Rect.block (s := S80000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x128.size a ≤ S80000x128.size a
  hwx3_3 : ∀ i : grid3.Coords, EltTy.bits .f32 = 32 ∨ (Rect.block (s := S80000x128) S8000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S80000x128.size a
  hwx4_0 : ∀ i : grid4.Coords, EltTy.bits .f32 = 32 ∨ (Rect.block (s := S80000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8000x64.size a ≤ S80000x64.size a
  hwx4_9 : ∀ i : grid4.Coords, EltTy.bits .f32 = 32 ∨ (Rect.block (s := S80000x64) S8000x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S1280000x64.size a
  hwx5_0 : ∀ i : grid5.Coords, EltTy.bits .f32 = 32 ∨ (Rect.block (s := S1280000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S1280000x64.size a
  hwx5_1 : ∀ i : grid5.Coords, EltTy.bits .f32 = 32 ∨ (Rect.block (s := S1280000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S1280000x64.size a
  hwx5_2 : ∀ i : grid5.Coords, EltTy.bits .f32 = 32 ∨ (Rect.block (s := S1280000x64) S8000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x64.size a ≤ S80000x64.size a
  hwx6_0 : ∀ i : grid6.Coords, EltTy.bits .f32 = 32 ∨ (Rect.block (s := S80000x64) S8000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x128.size a ≤ S80000x128.size a
  hwx6_3 : ∀ i : grid6.Coords, EltTy.bits .f32 = 32 ∨ (Rect.block (s := S80000x128) S8000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S80000x128.size a
  hwx7_0 : ∀ i : grid7.Coords, EltTy.bits .f32 = 32 ∨ (Rect.block (s := S80000x128) S8000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x64.size a ≤ S128x64.size a
  hwx7_5 : ∀ i : grid7.Coords, EltTy.bits .f32 = 32 ∨ (Rect.block (s := S128x64) S128x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64.size a ≤ S64.size a
  hwx7_6 : ∀ i : grid7.Coords, EltTy.bits .f32 = 32 ∨ (Rect.block (s := S64) S64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S8000x64.size a ≤ S80000x64.size a
  hwx7_9 : ∀ i : grid7.Coords, EltTy.bits .f32 = 32 ∨ (Rect.block (s := S80000x64) S8000x64.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x64.size a ≤ S1280000x64.size a
  hwx8_0 : ∀ i : grid8.Coords, EltTy.bits .f32 = 32 ∨ (Rect.block (s := S1280000x64) S8000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x64.size a ≤ S1280000x64.size a
  hwx8_1 : ∀ i : grid8.Coords, EltTy.bits .f32 = 32 ∨ (Rect.block (s := S1280000x64) S8000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8000x64.size a ≤ S1280000x64.size a
  hwx8_2 : ∀ i : grid8.Coords, EltTy.bits .f32 = 32 ∨ (Rect.block (s := S1280000x64) S8000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x64.size a ≤ S80000x64.size a
  hwx9_0 : ∀ i : grid9.Coords, EltTy.bits .f32 = 32 ∨ (Rect.block (s := S80000x64) S8000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x128.size a ≤ S64x128.size a
  hwx9_1 : ∀ i : grid9.Coords, EltTy.bits .f32 = 32 ∨ (Rect.block (s := S64x128) S64x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S8000x128.size a ≤ S80000x128.size a
  hwx9_3 : ∀ i : grid9.Coords, EltTy.bits .f32 = 32 ∨ (Rect.block (s := S80000x128) S8000x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x128.size a ≤ S80000x128.size a
  hwx10_0 : ∀ i : grid10.Coords, EltTy.bits .f32 = 32 ∨ (Rect.block (s := S80000x128) S8000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x64.size a ≤ S128x64.size a
  hwx10_5 : ∀ i : grid10.Coords, EltTy.bits .f32 = 32 ∨ (Rect.block (s := S128x64) S128x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S64.size a ≤ S64.size a
  hwx10_6 : ∀ i : grid10.Coords, EltTy.bits .f32 = 32 ∨ (Rect.block (s := S64) S64.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x64.size a ≤ S1x64.size a
  hwx10_7 : ∀ i : grid10.Coords, EltTy.bits .f32 = 32 ∨ (Rect.block (s := S1x64) S1x64.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x64.size a ≤ S1x64.size a
  hwx10_8 : ∀ i : grid10.Coords, EltTy.bits .f32 = 32 ∨ (Rect.block (s := S1x64) S1x64.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S8000x64.size a ≤ S80000x64.size a
  hwx10_9 : ∀ i : grid10.Coords, EltTy.bits .f32 = 32 ∨ (Rect.block (s := S80000x64) S8000x64.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S8000x64.size a ≤ S1280000x64.size a
  hwx11_0 : ∀ i : grid11.Coords, EltTy.bits .f32 = 32 ∨ (Rect.block (s := S1280000x64) S8000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S8000x64.size a ≤ S1280000x64.size a
  hwx11_1 : ∀ i : grid11.Coords, EltTy.bits .f32 = 32 ∨ (Rect.block (s := S1280000x64) S8000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S8000x64.size a ≤ S1280000x64.size a
  hwx11_2 : ∀ i : grid11.Coords, EltTy.bits .f32 = 32 ∨ (Rect.block (s := S1280000x64) S8000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8000x64.size a ≤ S80000x64.size a
  hwx12_0 : ∀ i : grid12.Coords, EltTy.bits .f32 = 32 ∨ (Rect.block (s := S80000x64) S8000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x128.size a ≤ S64x128.size a
  hwx12_1 : ∀ i : grid12.Coords, EltTy.bits .f32 = 32 ∨ (Rect.block (s := S64x128) S64x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128.size a ≤ S128.size a
  hwx12_2 : ∀ i : grid12.Coords, EltTy.bits .f32 = 32 ∨ (Rect.block (s := S128) S128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S8000x128.size a ≤ S80000x128.size a
  hwx12_3 : ∀ i : grid12.Coords, EltTy.bits .f32 = 32 ∨ (Rect.block (s := S80000x128) S8000x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x128.size a ≤ S80000x128.size a
  hwx13_0 : ∀ i : grid13.Coords, EltTy.bits .f32 = 32 ∨ (Rect.block (s := S80000x128) S8000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x64.size a ≤ S128x64.size a
  hwx13_5 : ∀ i : grid13.Coords, EltTy.bits .f32 = 32 ∨ (Rect.block (s := S128x64) S128x64.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S64.size a ≤ S64.size a
  hwx13_6 : ∀ i : grid13.Coords, EltTy.bits .f32 = 32 ∨ (Rect.block (s := S64) S64.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1x64.size a ≤ S1x64.size a
  hwx13_7 : ∀ i : grid13.Coords, EltTy.bits .f32 = 32 ∨ (Rect.block (s := S1x64) S1x64.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S1x64.size a ≤ S1x64.size a
  hwx13_8 : ∀ i : grid13.Coords, EltTy.bits .f32 = 32 ∨ (Rect.block (s := S1x64) S1x64.size (cc13_transform_8 i) (hinb13_8 i)).WholeWords (EltTy.packing .f32)
  hstage13_9 : ∀ j, (stage13_9 j).IsWhole
  nbuf13_9 : grid13.bufCount reads13_9 false = 2
  hreads13_9 : ∀ i i' : grid13.Coords, (∀ a, reads13_9 a = true → i a = i' a) → cc13_transform_9 i = cc13_transform_9 i'
  hinb13_9 : ∀ (i : grid13.Coords) a, (cc13_transform_9 i a + 1) * S8000x64.size a ≤ S80000x64.size a
  hwx13_9 : ∀ i : grid13.Coords, EltTy.bits .f32 = 32 ∨ (Rect.block (s := S80000x64) S8000x64.size (cc13_transform_9 i) (hinb13_9 i)).WholeWords (EltTy.packing .f32)

variable [Facts₀]

def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v22) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27_0) S8000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v27_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v27_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v27_0) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v39) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v41) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v43) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v46) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v49) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v50) S8000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v57) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v58) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v67) S8000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v69) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72_0) S8000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v72_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v72_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v72_0) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v74) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v78) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v86) S128x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v88) S64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v91) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v94) S1x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v95) S8000x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v102) S8000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v1) S8000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v103) S8000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v112) S8000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v114) S64x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v116) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v117_0) S8000x128.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v117_1) S1x128.size cc9_transform_4 reads9_4 true true 1 stage9_4 sem9_4
    hrank9 hreads9_4 hinb9_4 nbuf9_4 (Memref.isWhole_whole _) hwx9_4 hstage9_4

abbrev win9_5 : Pipeline.Window sig grid9 :=
  Pipeline.Window.ofSpec (Memref.whole main_v117_2) S1x128.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v117_0) S8000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v119) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v123) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v126) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v129) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v131) S128x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v133) S64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v136) S1x64.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v139) S1x64.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v140) S8000x64.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v147) S8000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v1) S8000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v148) S8000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v157) S8000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v159) S64x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v161) S128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v162_0) S8000x128.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v162_1) S1x128.size cc12_transform_4 reads12_4 true true 1 stage12_4 sem12_4
    hrank12 hreads12_4 hinb12_4 nbuf12_4 (Memref.isWhole_whole _) hwx12_4 hstage12_4

abbrev win12_5 : Pipeline.Window sig grid12 :=
  Pipeline.Window.ofSpec (Memref.whole main_v162_2) S1x128.size cc12_transform_5 reads12_5 true true 1 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v162_0) S8000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v164) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v168) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v171) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v174) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v176) S128x64.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v178) S64.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v181) S1x64.size cc13_transform_7 reads13_7 false true 1 stage13_7 sem13_7
    hrank13 hreads13_7 hinb13_7 nbuf13_7 (Memref.isWhole_whole _) hwx13_7 hstage13_7

abbrev win13_8 : Pipeline.Window sig grid13 :=
  Pipeline.Window.ofSpec (Memref.whole main_v184) S1x64.size cc13_transform_8 reads13_8 false true 1 stage13_8 sem13_8
    hrank13 hreads13_8 hinb13_8 nbuf13_8 (Memref.isWhole_whole _) hwx13_8 hstage13_8

abbrev win13_9 : Pipeline.Window sig grid13 :=
  Pipeline.Window.ofSpec (Memref.whole main_v185) S8000x64.size cc13_transform_9 reads13_9 true false 2 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

class Facts : Prop extends Facts₀ where

variable [Facts]
-- ==== ReferenceIdeal.lean ====
abbrev S80000x32 : Shape := ⟨2, ![80000, 32]⟩
abbrev S2x1280000 : Shape := ⟨2, ![2, 1280000]⟩
abbrev S1280000x16 : Shape := ⟨2, ![1280000, 16]⟩
abbrev S32x64 : Shape := ⟨2, ![32, 64]⟩
abbrev S64 : Shape := ⟨1, ![64]⟩
abbrev S16x64 : Shape := ⟨2, ![16, 64]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S4 : Shape := ⟨1, ![4]⟩
abbrev S80000x64 : Shape := ⟨2, ![80000, 64]⟩
abbrev S1x64 : Shape := ⟨2, ![1, 64]⟩
abbrev S_ : Shape := ⟨0, ![]⟩
abbrev S1280000x64 : Shape := ⟨2, ![1280000, 64]⟩
abbrev S1x1280000 : Shape := ⟨2, ![1, 1280000]⟩
abbrev S1280000 : Shape := ⟨1, ![1280000]⟩
abbrev S1280000x1 : Shape := ⟨2, ![1280000, 1]⟩
abbrev S1 : Shape := ⟨1, ![1]⟩
abbrev S1x64x128 : Shape := ⟨3, ![1, 64, 128]⟩
abbrev S64x128 : Shape := ⟨2, ![64, 128]⟩
abbrev S80000x128 : Shape := ⟨2, ![80000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S80000 : Shape := ⟨1, ![80000]⟩
abbrev S80000x1 : Shape := ⟨2, ![80000, 1]⟩

abbrev nBuf : Space → Nat
  | .hbm => 599
  | .vmem => 0
  | .smem => 0
  | _ => 0

abbrev hbmTy0_0 (i : Nat) : BufTy := match i % 128 with
  | 0 => ⟨S80000x32, .f32⟩
  | 1 => ⟨S2x1280000, .i32⟩
  | 2 => ⟨S1280000x16, .f32⟩
  | 3 => ⟨S32x64, .f32⟩
  | 4 => ⟨S64, .f32⟩
  | 5 => ⟨S16x64, .f32⟩
  | 6 => ⟨S64, .f32⟩
  | 7 => ⟨S4x64x128, .f32⟩
  | 8 => ⟨S4x128, .f32⟩
  | 9 => ⟨S4x128, .f32⟩
  | 10 => ⟨S4x128, .f32⟩
  | 11 => ⟨S4x128x64, .f32⟩
  | 12 => ⟨S4x64, .f32⟩
  | 13 => ⟨S4, .f32⟩
  | 14 => ⟨S4x64, .f32⟩
  | 15 => ⟨S4x64, .f32⟩
  | 16 => ⟨S80000x64, .f32⟩
  | 17 => ⟨S1x64, .f32⟩
  | 18 => ⟨S80000x64, .f32⟩
  | 19 => ⟨S80000x64, .f32⟩
  | 20 => ⟨S_, .f32⟩
  | 21 => ⟨S80000x64, .f32⟩
  | 22 => ⟨S80000x64, .f32⟩
  | 23 => ⟨S1280000x64, .f32⟩
  | 24 => ⟨S1x64, .f32⟩
  | 25 => ⟨S1280000x64, .f32⟩
  | 26 => ⟨S1280000x64, .f32⟩
  | 27 => ⟨S_, .f32⟩
  | 28 => ⟨S1280000x64, .f32⟩
  | 29 => ⟨S1280000x64, .f32⟩
  | 30 => ⟨S1x1280000, .i32⟩
  | 31 => ⟨S1280000, .i32⟩
  | 32 => ⟨S1x1280000, .i32⟩
  | 33 => ⟨S1280000, .i32⟩
  | 34 => ⟨S_, .i32⟩
  | 35 => ⟨S1280000, .i32⟩
  | 36 => ⟨S1280000, .i1⟩
  | 37 => ⟨S_, .i32⟩
  | 38 => ⟨S1280000, .i32⟩
  | 39 => ⟨S1280000, .i32⟩
  | 40 => ⟨S1280000, .i32⟩
  | 41 => ⟨S1280000x1, .i32⟩
  | 42 => ⟨S1280000x64, .f32⟩
  | 43 => ⟨S1280000x64, .f32⟩
  | 44 => ⟨S_, .f32⟩
  | 45 => ⟨S1280000x64, .f32⟩
  | 46 => ⟨S1280000x64, .f32⟩
  | 47 => ⟨S_, .f32⟩
  | 48 => ⟨S80000x64, .f32⟩
  | 49 => ⟨S1280000x1, .i32⟩
  | 50 => ⟨S80000x64, .f32⟩
  | 51 => ⟨S1, .f32⟩
  | 52 => ⟨S_, .f32⟩
  | 53 => ⟨S_, .f32⟩
  | 54 => ⟨S_, .f32⟩
  | 55 => ⟨S80000x64, .f32⟩
  | 56 => ⟨S80000x64, .f32⟩
  | 57 => ⟨S80000x64, .f32⟩
  | 58 => ⟨S1x64x128, .f32⟩
  | 59 => ⟨S64x128, .f32⟩
  | 60 => ⟨S80000x128, .f32⟩
  | 61 => ⟨S1x128, .f32⟩
  | 62 => ⟨S128, .f32⟩
  | 63 => ⟨S1x128, .f32⟩
  | 64 => ⟨S80000x128, .f32⟩
  | 65 => ⟨S80000x128, .f32⟩
  | 66 => ⟨S_, .f32⟩
  | 67 => ⟨S128, .f32⟩
  | 68 => ⟨S_, .f32⟩
  | 69 => ⟨S128, .f32⟩
  | 70 => ⟨S128, .f32⟩
  | 71 => ⟨S_, .i32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S80000x128, .f32⟩
  | 79 => ⟨S80000x128, .f32⟩
  | 80 => ⟨S80000x128, .f32⟩
  | 81 => ⟨S_, .f32⟩
  | 82 => ⟨S_, .f32⟩
  | 83 => ⟨S_, .f32⟩
  | 84 => ⟨S_, .f32⟩
  | 85 => ⟨S128, .f32⟩
  | 86 => ⟨S128, .f32⟩
  | 87 => ⟨S128, .f32⟩
  | 88 => ⟨S_, .f32⟩
  | 89 => ⟨S_, .i1⟩
  | 90 => ⟨S_, .f32⟩
  | 91 => ⟨S_, .f32⟩
  | 92 => ⟨S128, .f32⟩
  | 93 => ⟨S128, .f32⟩
  | 94 => ⟨S1x128, .f32⟩
  | 95 => ⟨S80000x128, .f32⟩
  | 96 => ⟨S80000x128, .f32⟩
  | 97 => ⟨S_, .f32⟩
  | 98 => ⟨S128, .f32⟩
  | 99 => ⟨S128, .f32⟩
  | 100 => ⟨S128, .f32⟩
  | 101 => ⟨S1x128, .f32⟩
  | 102 => ⟨S80000x128, .f32⟩
  | 103 => ⟨S80000x128, .f32⟩
  | 104 => ⟨S1x128, .f32⟩
  | 105 => ⟨S128, .f32⟩
  | 106 => ⟨S1x128, .f32⟩
  | 107 => ⟨S80000x128, .f32⟩
  | 108 => ⟨S80000x128, .f32⟩
  | 109 => ⟨S1x128, .f32⟩
  | 110 => ⟨S128, .f32⟩
  | 111 => ⟨S1x128, .f32⟩
  | 112 => ⟨S80000x128, .f32⟩
  | 113 => ⟨S80000x128, .f32⟩
  | 114 => ⟨S_, .f32⟩
  | 115 => ⟨S80000x128, .f32⟩
  | 116 => ⟨S80000x128, .f32⟩
  | 117 => ⟨S1x128x64, .f32⟩
  | 118 => ⟨S128x64, .f32⟩
  | 119 => ⟨S80000x64, .f32⟩
  | 120 => ⟨S1x64, .f32⟩
  | 121 => ⟨S64, .f32⟩
  | 122 => ⟨S1x64, .f32⟩
  | 123 => ⟨S80000x64, .f32⟩
  | 124 => ⟨S80000x64, .f32⟩
  | 125 => ⟨S_, .f32⟩
  | 126 => ⟨S80000, .f32⟩
  | 127 => ⟨S80000x1, .f32⟩
  | _ => ⟨S80000x32, .f32⟩

abbrev hbmTy0_1 (i : Nat) : BufTy := match i % 128 with
  | 0 => ⟨S_, .f32⟩
  | 1 => ⟨S80000x1, .f32⟩
  | 2 => ⟨S80000x1, .f32⟩
  | 3 => ⟨S_, .i32⟩
  | 4 => ⟨S_, .f32⟩
  | 5 => ⟨S80000, .f32⟩
  | 6 => ⟨S80000x1, .f32⟩
  | 7 => ⟨S_, .f32⟩
  | 8 => ⟨S80000x1, .f32⟩
  | 9 => ⟨S80000x1, .f32⟩
  | 10 => ⟨S80000x64, .f32⟩
  | 11 => ⟨S80000x64, .f32⟩
  | 12 => ⟨S80000x64, .f32⟩
  | 13 => ⟨S_, .f32⟩
  | 14 => ⟨S_, .f32⟩
  | 15 => ⟨S_, .f32⟩
  | 16 => ⟨S_, .f32⟩
  | 17 => ⟨S80000, .f32⟩
  | 18 => ⟨S80000x1, .f32⟩
  | 19 => ⟨S80000x1, .f32⟩
  | 20 => ⟨S80000x1, .f32⟩
  | 21 => ⟨S_, .f32⟩
  | 22 => ⟨S_, .i1⟩
  | 23 => ⟨S_, .f32⟩
  | 24 => ⟨S_, .f32⟩
  | 25 => ⟨S80000x1, .f32⟩
  | 26 => ⟨S80000x1, .f32⟩
  | 27 => ⟨S80000x64, .f32⟩
  | 28 => ⟨S80000x64, .f32⟩
  | 29 => ⟨S_, .f32⟩
  | 30 => ⟨S80000x1, .f32⟩
  | 31 => ⟨S80000x1, .f32⟩
  | 32 => ⟨S80000x1, .f32⟩
  | 33 => ⟨S80000x64, .f32⟩
  | 34 => ⟨S80000x64, .f32⟩
  | 35 => ⟨S1x64, .f32⟩
  | 36 => ⟨S64, .f32⟩
  | 37 => ⟨S1x64, .f32⟩
  | 38 => ⟨S80000x64, .f32⟩
  | 39 => ⟨S80000x64, .f32⟩
  | 40 => ⟨S1x64, .f32⟩
  | 41 => ⟨S64, .f32⟩
  | 42 => ⟨S1x64, .f32⟩
  | 43 => ⟨S80000x64, .f32⟩
  | 44 => ⟨S80000x64, .f32⟩
  | 45 => ⟨S_, .f32⟩
  | 46 => ⟨S80000x64, .f32⟩
  | 47 => ⟨S80000x64, .f32⟩
  | 48 => ⟨S_, .i32⟩
  | 49 => ⟨S1280000, .i32⟩
  | 50 => ⟨S1280000, .i1⟩
  | 51 => ⟨S_, .i32⟩
  | 52 => ⟨S1280000, .i32⟩
  | 53 => ⟨S1280000, .i32⟩
  | 54 => ⟨S1280000, .i32⟩
  | 55 => ⟨S1280000x1, .i32⟩
  | 56 => ⟨S1280000x64, .f32⟩
  | 57 => ⟨S1280000x64, .f32⟩
  | 58 => ⟨S_, .f32⟩
  | 59 => ⟨S1280000x64, .f32⟩
  | 60 => ⟨S1280000x64, .f32⟩
  | 61 => ⟨S_, .f32⟩
  | 62 => ⟨S80000x64, .f32⟩
  | 63 => ⟨S1280000x1, .i32⟩
  | 64 => ⟨S80000x64, .f32⟩
  | 65 => ⟨S1, .f32⟩
  | 66 => ⟨S_, .f32⟩
  | 67 => ⟨S_, .f32⟩
  | 68 => ⟨S_, .f32⟩
  | 69 => ⟨S80000x64, .f32⟩
  | 70 => ⟨S80000x64, .f32⟩
  | 71 => ⟨S80000x64, .f32⟩
  | 72 => ⟨S1x64x128, .f32⟩
  | 73 => ⟨S64x128, .f32⟩
  | 74 => ⟨S80000x128, .f32⟩
  | 75 => ⟨S1x128, .f32⟩
  | 76 => ⟨S128, .f32⟩
  | 77 => ⟨S1x128, .f32⟩
  | 78 => ⟨S80000x128, .f32⟩
  | 79 => ⟨S80000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S80000x128, .f32⟩
  | 93 => ⟨S80000x128, .f32⟩
  | 94 => ⟨S80000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S80000x128, .f32⟩
  | 110 => ⟨S80000x128, .f32⟩
  | 111 => ⟨S_, .f32⟩
  | 112 => ⟨S128, .f32⟩
  | 113 => ⟨S128, .f32⟩
  | 114 => ⟨S128, .f32⟩
  | 115 => ⟨S1x128, .f32⟩
  | 116 => ⟨S80000x128, .f32⟩
  | 117 => ⟨S80000x128, .f32⟩
  | 118 => ⟨S1x128, .f32⟩
  | 119 => ⟨S128, .f32⟩
  | 120 => ⟨S1x128, .f32⟩
  | 121 => ⟨S80000x128, .f32⟩
  | 122 => ⟨S80000x128, .f32⟩
  | 123 => ⟨S1x128, .f32⟩
  | 124 => ⟨S128, .f32⟩
  | 125 => ⟨S1x128, .f32⟩
  | 126 => ⟨S80000x128, .f32⟩
  | 127 => ⟨S80000x128, .f32⟩
  | _ => ⟨S80000x32, .f32⟩

abbrev hbmTy0_2 (i : Nat) : BufTy := match i % 128 with
  | 0 => ⟨S_, .f32⟩
  | 1 => ⟨S80000x128, .f32⟩
  | 2 => ⟨S80000x128, .f32⟩
  | 3 => ⟨S1x128x64, .f32⟩
  | 4 => ⟨S128x64, .f32⟩
  | 5 => ⟨S80000x64, .f32⟩
  | 6 => ⟨S1x64, .f32⟩
  | 7 => ⟨S64, .f32⟩
  | 8 => ⟨S1x64, .f32⟩
  | 9 => ⟨S80000x64, .f32⟩
  | 10 => ⟨S80000x64, .f32⟩
  | 11 => ⟨S_, .f32⟩
  | 12 => ⟨S80000, .f32⟩
  | 13 => ⟨S80000x1, .f32⟩
  | 14 => ⟨S_, .f32⟩
  | 15 => ⟨S80000x1, .f32⟩
  | 16 => ⟨S80000x1, .f32⟩
  | 17 => ⟨S_, .i32⟩
  | 18 => ⟨S_, .f32⟩
  | 19 => ⟨S80000, .f32⟩
  | 20 => ⟨S80000x1, .f32⟩
  | 21 => ⟨S_, .f32⟩
  | 22 => ⟨S80000x1, .f32⟩
  | 23 => ⟨S80000x1, .f32⟩
  | 24 => ⟨S80000x64, .f32⟩
  | 25 => ⟨S80000x64, .f32⟩
  | 26 => ⟨S80000x64, .f32⟩
  | 27 => ⟨S_, .f32⟩
  | 28 => ⟨S_, .f32⟩
  | 29 => ⟨S_, .f32⟩
  | 30 => ⟨S_, .f32⟩
  | 31 => ⟨S80000, .f32⟩
  | 32 => ⟨S80000x1, .f32⟩
  | 33 => ⟨S80000x1, .f32⟩
  | 34 => ⟨S80000x1, .f32⟩
  | 35 => ⟨S_, .f32⟩
  | 36 => ⟨S_, .i1⟩
  | 37 => ⟨S_, .f32⟩
  | 38 => ⟨S_, .f32⟩
  | 39 => ⟨S80000x1, .f32⟩
  | 40 => ⟨S80000x1, .f32⟩
  | 41 => ⟨S80000x64, .f32⟩
  | 42 => ⟨S80000x64, .f32⟩
  | 43 => ⟨S_, .f32⟩
  | 44 => ⟨S80000x1, .f32⟩
  | 45 => ⟨S80000x1, .f32⟩
  | 46 => ⟨S80000x1, .f32⟩
  | 47 => ⟨S80000x64, .f32⟩
  | 48 => ⟨S80000x64, .f32⟩
  | 49 => ⟨S1x64, .f32⟩
  | 50 => ⟨S64, .f32⟩
  | 51 => ⟨S1x64, .f32⟩
  | 52 => ⟨S80000x64, .f32⟩
  | 53 => ⟨S80000x64, .f32⟩
  | 54 => ⟨S1x64, .f32⟩
  | 55 => ⟨S64, .f32⟩
  | 56 => ⟨S1x64, .f32⟩
  | 57 => ⟨S80000x64, .f32⟩
  | 58 => ⟨S80000x64, .f32⟩
  | 59 => ⟨S_, .f32⟩
  | 60 => ⟨S80000x64, .f32⟩
  | 61 => ⟨S80000x64, .f32⟩
  | 62 => ⟨S_, .i32⟩
  | 63 => ⟨S1280000, .i32⟩
  | 64 => ⟨S1280000, .i1⟩
  | 65 => ⟨S_, .i32⟩
  | 66 => ⟨S1280000, .i32⟩
  | 67 => ⟨S1280000, .i32⟩
  | 68 => ⟨S1280000, .i32⟩
  | 69 => ⟨S1280000x1, .i32⟩
  | 70 => ⟨S1280000x64, .f32⟩
  | 71 => ⟨S1280000x64, .f32⟩
  | 72 => ⟨S_, .f32⟩
  | 73 => ⟨S1280000x64, .f32⟩
  | 74 => ⟨S1280000x64, .f32⟩
  | 75 => ⟨S_, .f32⟩
  | 76 => ⟨S80000x64, .f32⟩
  | 77 => ⟨S1280000x1, .i32⟩
  | 78 => ⟨S80000x64, .f32⟩
  | 79 => ⟨S1, .f32⟩
  | 80 => ⟨S_, .f32⟩
  | 81 => ⟨S_, .f32⟩
  | 82 => ⟨S_, .f32⟩
  | 83 => ⟨S80000x64, .f32⟩
  | 84 => ⟨S80000x64, .f32⟩
  | 85 => ⟨S80000x64, .f32⟩
  | 86 => ⟨S1x64x128, .f32⟩
  | 87 => ⟨S64x128, .f32⟩
  | 88 => ⟨S80000x128, .f32⟩
  | 89 => ⟨S1x128, .f32⟩
  | 90 => ⟨S128, .f32⟩
  | 91 => ⟨S1x128, .f32⟩
  | 92 => ⟨S80000x128, .f32⟩
  | 93 => ⟨S80000x128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S80000x128, .f32⟩
  | 107 => ⟨S80000x128, .f32⟩
  | 108 => ⟨S80000x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S80000x128, .f32⟩
  | 124 => ⟨S80000x128, .f32⟩
  | 125 => ⟨S_, .f32⟩
  | 126 => ⟨S128, .f32⟩
  | 127 => ⟨S128, .f32⟩
  | _ => ⟨S80000x32, .f32⟩

abbrev hbmTy0_3 (i : Nat) : BufTy := match i % 128 with
  | 0 => ⟨S128, .f32⟩
  | 1 => ⟨S1x128, .f32⟩
  | 2 => ⟨S80000x128, .f32⟩
  | 3 => ⟨S80000x128, .f32⟩
  | 4 => ⟨S1x128, .f32⟩
  | 5 => ⟨S128, .f32⟩
  | 6 => ⟨S1x128, .f32⟩
  | 7 => ⟨S80000x128, .f32⟩
  | 8 => ⟨S80000x128, .f32⟩
  | 9 => ⟨S1x128, .f32⟩
  | 10 => ⟨S128, .f32⟩
  | 11 => ⟨S1x128, .f32⟩
  | 12 => ⟨S80000x128, .f32⟩
  | 13 => ⟨S80000x128, .f32⟩
  | 14 => ⟨S_, .f32⟩
  | 15 => ⟨S80000x128, .f32⟩
  | 16 => ⟨S80000x128, .f32⟩
  | 17 => ⟨S1x128x64, .f32⟩
  | 18 => ⟨S128x64, .f32⟩
  | 19 => ⟨S80000x64, .f32⟩
  | 20 => ⟨S1x64, .f32⟩
  | 21 => ⟨S64, .f32⟩
  | 22 => ⟨S1x64, .f32⟩
  | 23 => ⟨S80000x64, .f32⟩
  | 24 => ⟨S80000x64, .f32⟩
  | 25 => ⟨S_, .f32⟩
  | 26 => ⟨S80000, .f32⟩
  | 27 => ⟨S80000x1, .f32⟩
  | 28 => ⟨S_, .f32⟩
  | 29 => ⟨S80000x1, .f32⟩
  | 30 => ⟨S80000x1, .f32⟩
  | 31 => ⟨S_, .i32⟩
  | 32 => ⟨S_, .f32⟩
  | 33 => ⟨S80000, .f32⟩
  | 34 => ⟨S80000x1, .f32⟩
  | 35 => ⟨S_, .f32⟩
  | 36 => ⟨S80000x1, .f32⟩
  | 37 => ⟨S80000x1, .f32⟩
  | 38 => ⟨S80000x64, .f32⟩
  | 39 => ⟨S80000x64, .f32⟩
  | 40 => ⟨S80000x64, .f32⟩
  | 41 => ⟨S_, .f32⟩
  | 42 => ⟨S_, .f32⟩
  | 43 => ⟨S_, .f32⟩
  | 44 => ⟨S_, .f32⟩
  | 45 => ⟨S80000, .f32⟩
  | 46 => ⟨S80000x1, .f32⟩
  | 47 => ⟨S80000x1, .f32⟩
  | 48 => ⟨S80000x1, .f32⟩
  | 49 => ⟨S_, .f32⟩
  | 50 => ⟨S_, .i1⟩
  | 51 => ⟨S_, .f32⟩
  | 52 => ⟨S_, .f32⟩
  | 53 => ⟨S80000x1, .f32⟩
  | 54 => ⟨S80000x1, .f32⟩
  | 55 => ⟨S80000x64, .f32⟩
  | 56 => ⟨S80000x64, .f32⟩
  | 57 => ⟨S_, .f32⟩
  | 58 => ⟨S80000x1, .f32⟩
  | 59 => ⟨S80000x1, .f32⟩
  | 60 => ⟨S80000x1, .f32⟩
  | 61 => ⟨S80000x64, .f32⟩
  | 62 => ⟨S80000x64, .f32⟩
  | 63 => ⟨S1x64, .f32⟩
  | 64 => ⟨S64, .f32⟩
  | 65 => ⟨S1x64, .f32⟩
  | 66 => ⟨S80000x64, .f32⟩
  | 67 => ⟨S80000x64, .f32⟩
  | 68 => ⟨S1x64, .f32⟩
  | 69 => ⟨S64, .f32⟩
  | 70 => ⟨S1x64, .f32⟩
  | 71 => ⟨S80000x64, .f32⟩
  | 72 => ⟨S80000x64, .f32⟩
  | 73 => ⟨S_, .f32⟩
  | 74 => ⟨S80000x64, .f32⟩
  | 75 => ⟨S80000x64, .f32⟩
  | 76 => ⟨S_, .i32⟩
  | 77 => ⟨S1280000, .i32⟩
  | 78 => ⟨S1280000, .i1⟩
  | 79 => ⟨S_, .i32⟩
  | 80 => ⟨S1280000, .i32⟩
  | 81 => ⟨S1280000, .i32⟩
  | 82 => ⟨S1280000, .i32⟩
  | 83 => ⟨S1280000x1, .i32⟩
  | 84 => ⟨S1280000x64, .f32⟩
  | 85 => ⟨S1280000x64, .f32⟩
  | 86 => ⟨S_, .f32⟩
  | 87 => ⟨S1280000x64, .f32⟩
  | 88 => ⟨S1280000x64, .f32⟩
  | 89 => ⟨S_, .f32⟩
  | 90 => ⟨S80000x64, .f32⟩
  | 91 => ⟨S1280000x1, .i32⟩
  | 92 => ⟨S80000x64, .f32⟩
  | 93 => ⟨S1, .f32⟩
  | 94 => ⟨S_, .f32⟩
  | 95 => ⟨S_, .f32⟩
  | 96 => ⟨S_, .f32⟩
  | 97 => ⟨S80000x64, .f32⟩
  | 98 => ⟨S80000x64, .f32⟩
  | 99 => ⟨S80000x64, .f32⟩
  | 100 => ⟨S1x64x128, .f32⟩
  | 101 => ⟨S64x128, .f32⟩
  | 102 => ⟨S80000x128, .f32⟩
  | 103 => ⟨S1x128, .f32⟩
  | 104 => ⟨S128, .f32⟩
  | 105 => ⟨S1x128, .f32⟩
  | 106 => ⟨S80000x128, .f32⟩
  | 107 => ⟨S80000x128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S80000x128, .f32⟩
  | 121 => ⟨S80000x128, .f32⟩
  | 122 => ⟨S80000x128, .f32⟩
  | 123 => ⟨S_, .f32⟩
  | 124 => ⟨S_, .f32⟩
  | 125 => ⟨S_, .f32⟩
  | 126 => ⟨S_, .f32⟩
  | 127 => ⟨S128, .f32⟩
  | _ => ⟨S80000x32, .f32⟩

abbrev hbmTy0_4 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S80000x128, .f32⟩
  | 10 => ⟨S80000x128, .f32⟩
  | 11 => ⟨S_, .f32⟩
  | 12 => ⟨S128, .f32⟩
  | 13 => ⟨S128, .f32⟩
  | 14 => ⟨S128, .f32⟩
  | 15 => ⟨S1x128, .f32⟩
  | 16 => ⟨S80000x128, .f32⟩
  | 17 => ⟨S80000x128, .f32⟩
  | 18 => ⟨S1x128, .f32⟩
  | 19 => ⟨S128, .f32⟩
  | 20 => ⟨S1x128, .f32⟩
  | 21 => ⟨S80000x128, .f32⟩
  | 22 => ⟨S80000x128, .f32⟩
  | 23 => ⟨S1x128, .f32⟩
  | 24 => ⟨S128, .f32⟩
  | 25 => ⟨S1x128, .f32⟩
  | 26 => ⟨S80000x128, .f32⟩
  | 27 => ⟨S80000x128, .f32⟩
  | 28 => ⟨S_, .f32⟩
  | 29 => ⟨S80000x128, .f32⟩
  | 30 => ⟨S80000x128, .f32⟩
  | 31 => ⟨S1x128x64, .f32⟩
  | 32 => ⟨S128x64, .f32⟩
  | 33 => ⟨S80000x64, .f32⟩
  | 34 => ⟨S1x64, .f32⟩
  | 35 => ⟨S64, .f32⟩
  | 36 => ⟨S1x64, .f32⟩
  | 37 => ⟨S80000x64, .f32⟩
  | 38 => ⟨S80000x64, .f32⟩
  | 39 => ⟨S_, .f32⟩
  | 40 => ⟨S80000, .f32⟩
  | 41 => ⟨S80000x1, .f32⟩
  | 42 => ⟨S_, .f32⟩
  | 43 => ⟨S80000x1, .f32⟩
  | 44 => ⟨S80000x1, .f32⟩
  | 45 => ⟨S_, .i32⟩
  | 46 => ⟨S_, .f32⟩
  | 47 => ⟨S80000, .f32⟩
  | 48 => ⟨S80000x1, .f32⟩
  | 49 => ⟨S_, .f32⟩
  | 50 => ⟨S80000x1, .f32⟩
  | 51 => ⟨S80000x1, .f32⟩
  | 52 => ⟨S80000x64, .f32⟩
  | 53 => ⟨S80000x64, .f32⟩
  | 54 => ⟨S80000x64, .f32⟩
  | 55 => ⟨S_, .f32⟩
  | 56 => ⟨S_, .f32⟩
  | 57 => ⟨S_, .f32⟩
  | 58 => ⟨S_, .f32⟩
  | 59 => ⟨S80000, .f32⟩
  | 60 => ⟨S80000x1, .f32⟩
  | 61 => ⟨S80000x1, .f32⟩
  | 62 => ⟨S80000x1, .f32⟩
  | 63 => ⟨S_, .f32⟩
  | 64 => ⟨S_, .i1⟩
  | 65 => ⟨S_, .f32⟩
  | 66 => ⟨S_, .f32⟩
  | 67 => ⟨S80000x1, .f32⟩
  | 68 => ⟨S80000x1, .f32⟩
  | 69 => ⟨S80000x64, .f32⟩
  | 70 => ⟨S80000x64, .f32⟩
  | 71 => ⟨S_, .f32⟩
  | 72 => ⟨S80000x1, .f32⟩
  | 73 => ⟨S80000x1, .f32⟩
  | 74 => ⟨S80000x1, .f32⟩
  | 75 => ⟨S80000x64, .f32⟩
  | 76 => ⟨S80000x64, .f32⟩
  | 77 => ⟨S1x64, .f32⟩
  | 78 => ⟨S64, .f32⟩
  | 79 => ⟨S1x64, .f32⟩
  | 80 => ⟨S80000x64, .f32⟩
  | 81 => ⟨S80000x64, .f32⟩
  | 82 => ⟨S1x64, .f32⟩
  | 83 => ⟨S64, .f32⟩
  | 84 => ⟨S1x64, .f32⟩
  | 85 => ⟨S80000x64, .f32⟩
  | 86 => ⟨S80000x64, .f32⟩
  | _ => ⟨S80000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S80000x32, .f32⟩

abbrev bufTy : (tb : Table) → Fin (tcTables nBuf tb) → BufTy
  | .hbm, ⟨i, _⟩ => hbmTy i
  | _, _ => ⟨S80000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_cst : Ref sig .tc := ⟨.hbm, 27, rfl⟩
abbrev main_call1_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_2 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_c_4 : Ref sig .tc := ⟨.hbm, 71, rfl⟩
abbrev main_call3_cst : Ref sig .tc := ⟨.hbm, 72, rfl⟩
abbrev main_call3_v0 : Ref sig .tc := ⟨.hbm, 73, rfl⟩
abbrev main_call3_v1 : Ref sig .tc := ⟨.hbm, 74, rfl⟩
abbrev main_call3_cst_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_cst_1 : Ref sig .tc := ⟨.hbm, 82, rfl⟩
abbrev main_call3_v8 : Ref sig .tc := ⟨.hbm, 83, rfl⟩
abbrev main_call3_cst_2 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_cst_3 : Ref sig .tc := ⟨.hbm, 88, rfl⟩
abbrev main_call3_v12 : Ref sig .tc := ⟨.hbm, 89, rfl⟩
abbrev main_call3_cst_4 : Ref sig .tc := ⟨.hbm, 90, rfl⟩
abbrev main_call3_call0_v0 : Ref sig .tc := ⟨.hbm, 91, rfl⟩
abbrev main_call3_call0_v1 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_5 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_call4_cst : Ref sig .tc := ⟨.hbm, 114, rfl⟩
abbrev main_call4_v0 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_6 : Ref sig .tc := ⟨.hbm, 125, rfl⟩
abbrev main_v72 : Ref sig .tc := ⟨.hbm, 126, rfl⟩
abbrev main_v73 : Ref sig .tc := ⟨.hbm, 127, rfl⟩
abbrev main_cst_7 : Ref sig .tc := ⟨.hbm, 128, rfl⟩
abbrev main_v74 : Ref sig .tc := ⟨.hbm, 129, rfl⟩
abbrev main_v75 : Ref sig .tc := ⟨.hbm, 130, rfl⟩
abbrev main_c_8 : Ref sig .tc := ⟨.hbm, 131, rfl⟩
abbrev main_call5_cst : Ref sig .tc := ⟨.hbm, 132, rfl⟩
abbrev main_call5_v0 : Ref sig .tc := ⟨.hbm, 133, rfl⟩
abbrev main_call5_v1 : Ref sig .tc := ⟨.hbm, 134, rfl⟩
abbrev main_call5_cst_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_cst_1 : Ref sig .tc := ⟨.hbm, 142, rfl⟩
abbrev main_call5_v8 : Ref sig .tc := ⟨.hbm, 143, rfl⟩
abbrev main_call5_cst_2 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_v12 : Ref sig .tc := ⟨.hbm, 148, rfl⟩
abbrev main_call5_cst_3 : Ref sig .tc := ⟨.hbm, 149, rfl⟩
abbrev main_call5_v13 : Ref sig .tc := ⟨.hbm, 150, rfl⟩
abbrev main_call5_cst_4 : Ref sig .tc := ⟨.hbm, 151, rfl⟩
abbrev main_call5_call0_v0 : Ref sig .tc := ⟨.hbm, 152, rfl⟩
abbrev main_call5_call0_v1 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_cst_9 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_call6_cst : Ref sig .tc := ⟨.hbm, 173, rfl⟩
abbrev main_call6_v0 : Ref sig .tc := ⟨.hbm, 174, rfl⟩
abbrev main_v94 : Ref sig .tc := ⟨.hbm, 175, rfl⟩
abbrev main_c_10 : Ref sig .tc := ⟨.hbm, 176, rfl⟩
abbrev main_v95 : Ref sig .tc := ⟨.hbm, 177, rfl⟩
abbrev main_v96 : Ref sig .tc := ⟨.hbm, 178, rfl⟩
abbrev main_c_11 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_call7_cst : Ref sig .tc := ⟨.hbm, 186, rfl⟩
abbrev main_call7_v0 : Ref sig .tc := ⟨.hbm, 187, rfl⟩
abbrev main_v103 : Ref sig .tc := ⟨.hbm, 188, rfl⟩
abbrev main_cst_12 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_13 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_cst_14 : Ref sig .tc := ⟨.hbm, 208, rfl⟩
abbrev main_v121 : Ref sig .tc := ⟨.hbm, 209, rfl⟩
abbrev main_cst_15 : Ref sig .tc := ⟨.hbm, 210, rfl⟩
abbrev main_v122 : Ref sig .tc := ⟨.hbm, 211, rfl⟩
abbrev main_v123 : Ref sig .tc := ⟨.hbm, 212, rfl⟩
abbrev main_c_16 : Ref sig .tc := ⟨.hbm, 213, rfl⟩
abbrev main_call8_cst : Ref sig .tc := ⟨.hbm, 214, rfl⟩
abbrev main_call8_v0 : Ref sig .tc := ⟨.hbm, 215, rfl⟩
abbrev main_call8_v1 : Ref sig .tc := ⟨.hbm, 216, rfl⟩
abbrev main_call8_cst_0 : Ref sig .tc := ⟨.hbm, 217, rfl⟩
abbrev main_call8_v2 : Ref sig .tc := ⟨.hbm, 218, rfl⟩
abbrev main_call8_v3 : Ref sig .tc := ⟨.hbm, 219, rfl⟩
abbrev main_call8_v4 : Ref sig .tc := ⟨.hbm, 220, rfl⟩
abbrev main_call8_v5 : Ref sig .tc := ⟨.hbm, 221, rfl⟩
abbrev main_call8_v6 : Ref sig .tc := ⟨.hbm, 222, rfl⟩
abbrev main_call8_v7 : Ref sig .tc := ⟨.hbm, 223, rfl⟩
abbrev main_call8_cst_1 : Ref sig .tc := ⟨.hbm, 224, rfl⟩
abbrev main_call8_v8 : Ref sig .tc := ⟨.hbm, 225, rfl⟩
abbrev main_call8_cst_2 : Ref sig .tc := ⟨.hbm, 226, rfl⟩
abbrev main_call8_v9 : Ref sig .tc := ⟨.hbm, 227, rfl⟩
abbrev main_call8_v10 : Ref sig .tc := ⟨.hbm, 228, rfl⟩
abbrev main_call8_v11 : Ref sig .tc := ⟨.hbm, 229, rfl⟩
abbrev main_call8_cst_3 : Ref sig .tc := ⟨.hbm, 230, rfl⟩
abbrev main_call8_v12 : Ref sig .tc := ⟨.hbm, 231, rfl⟩
abbrev main_call8_cst_4 : Ref sig .tc := ⟨.hbm, 232, rfl⟩
abbrev main_call8_call0_v0 : Ref sig .tc := ⟨.hbm, 233, rfl⟩
abbrev main_call8_call0_v1 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_cst_17 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_call9_cst : Ref sig .tc := ⟨.hbm, 256, rfl⟩
abbrev main_call9_v0 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_cst_18 : Ref sig .tc := ⟨.hbm, 267, rfl⟩
abbrev main_v153 : Ref sig .tc := ⟨.hbm, 268, rfl⟩
abbrev main_v154 : Ref sig .tc := ⟨.hbm, 269, rfl⟩
abbrev main_cst_19 : Ref sig .tc := ⟨.hbm, 270, rfl⟩
abbrev main_v155 : Ref sig .tc := ⟨.hbm, 271, rfl⟩
abbrev main_v156 : Ref sig .tc := ⟨.hbm, 272, rfl⟩
abbrev main_c_20 : Ref sig .tc := ⟨.hbm, 273, rfl⟩
abbrev main_call10_cst : Ref sig .tc := ⟨.hbm, 274, rfl⟩
abbrev main_call10_v0 : Ref sig .tc := ⟨.hbm, 275, rfl⟩
abbrev main_call10_v1 : Ref sig .tc := ⟨.hbm, 276, rfl⟩
abbrev main_call10_cst_0 : Ref sig .tc := ⟨.hbm, 277, rfl⟩
abbrev main_call10_v2 : Ref sig .tc := ⟨.hbm, 278, rfl⟩
abbrev main_call10_v3 : Ref sig .tc := ⟨.hbm, 279, rfl⟩
abbrev main_call10_v4 : Ref sig .tc := ⟨.hbm, 280, rfl⟩
abbrev main_call10_v5 : Ref sig .tc := ⟨.hbm, 281, rfl⟩
abbrev main_call10_v6 : Ref sig .tc := ⟨.hbm, 282, rfl⟩
abbrev main_call10_v7 : Ref sig .tc := ⟨.hbm, 283, rfl⟩
abbrev main_call10_cst_1 : Ref sig .tc := ⟨.hbm, 284, rfl⟩
abbrev main_call10_v8 : Ref sig .tc := ⟨.hbm, 285, rfl⟩
abbrev main_call10_cst_2 : Ref sig .tc := ⟨.hbm, 286, rfl⟩
abbrev main_call10_v9 : Ref sig .tc := ⟨.hbm, 287, rfl⟩
abbrev main_call10_v10 : Ref sig .tc := ⟨.hbm, 288, rfl⟩
abbrev main_call10_v11 : Ref sig .tc := ⟨.hbm, 289, rfl⟩
abbrev main_call10_v12 : Ref sig .tc := ⟨.hbm, 290, rfl⟩
abbrev main_call10_cst_3 : Ref sig .tc := ⟨.hbm, 291, rfl⟩
abbrev main_call10_v13 : Ref sig .tc := ⟨.hbm, 292, rfl⟩
abbrev main_call10_cst_4 : Ref sig .tc := ⟨.hbm, 293, rfl⟩
abbrev main_call10_call0_v0 : Ref sig .tc := ⟨.hbm, 294, rfl⟩
abbrev main_call10_call0_v1 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_cst_21 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_v166 : Ref sig .tc := ⟨.hbm, 306, rfl⟩
abbrev main_v167 : Ref sig .tc := ⟨.hbm, 307, rfl⟩
abbrev main_v168 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_call11_cst : Ref sig .tc := ⟨.hbm, 315, rfl⟩
abbrev main_call11_v0 : Ref sig .tc := ⟨.hbm, 316, rfl⟩
abbrev main_v175 : Ref sig .tc := ⟨.hbm, 317, rfl⟩
abbrev main_c_22 : Ref sig .tc := ⟨.hbm, 318, rfl⟩
abbrev main_v176 : Ref sig .tc := ⟨.hbm, 319, rfl⟩
abbrev main_v177 : Ref sig .tc := ⟨.hbm, 320, rfl⟩
abbrev main_c_23 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_call12_cst : Ref sig .tc := ⟨.hbm, 328, rfl⟩
abbrev main_call12_v0 : Ref sig .tc := ⟨.hbm, 329, rfl⟩
abbrev main_v184 : Ref sig .tc := ⟨.hbm, 330, rfl⟩
abbrev main_cst_24 : Ref sig .tc := ⟨.hbm, 331, rfl⟩
abbrev main_v185 : Ref sig .tc := ⟨.hbm, 332, rfl⟩
abbrev main_v186 : Ref sig .tc := ⟨.hbm, 333, rfl⟩
abbrev main_v187 : Ref sig .tc := ⟨.hbm, 334, rfl⟩
abbrev main_v188 : Ref sig .tc := ⟨.hbm, 335, rfl⟩
abbrev main_v189 : Ref sig .tc := ⟨.hbm, 336, rfl⟩
abbrev main_cst_25 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_v193 : Ref sig .tc := ⟨.hbm, 341, rfl⟩
abbrev main_v194 : Ref sig .tc := ⟨.hbm, 342, rfl⟩
abbrev main_v195 : Ref sig .tc := ⟨.hbm, 343, rfl⟩
abbrev main_v196 : Ref sig .tc := ⟨.hbm, 344, rfl⟩
abbrev main_v197 : Ref sig .tc := ⟨.hbm, 345, rfl⟩
abbrev main_v198 : Ref sig .tc := ⟨.hbm, 346, rfl⟩
abbrev main_v199 : Ref sig .tc := ⟨.hbm, 347, rfl⟩
abbrev main_v200 : Ref sig .tc := ⟨.hbm, 348, rfl⟩
abbrev main_v201 : Ref sig .tc := ⟨.hbm, 349, rfl⟩
abbrev main_cst_26 : Ref sig .tc := ⟨.hbm, 350, rfl⟩
abbrev main_v202 : Ref sig .tc := ⟨.hbm, 351, rfl⟩
abbrev main_cst_27 : Ref sig .tc := ⟨.hbm, 352, rfl⟩
abbrev main_v203 : Ref sig .tc := ⟨.hbm, 353, rfl⟩
abbrev main_v204 : Ref sig .tc := ⟨.hbm, 354, rfl⟩
abbrev main_c_28 : Ref sig .tc := ⟨.hbm, 355, rfl⟩
abbrev main_call13_cst : Ref sig .tc := ⟨.hbm, 356, rfl⟩
abbrev main_call13_v0 : Ref sig .tc := ⟨.hbm, 357, rfl⟩
abbrev main_call13_v1 : Ref sig .tc := ⟨.hbm, 358, rfl⟩
abbrev main_call13_cst_0 : Ref sig .tc := ⟨.hbm, 359, rfl⟩
abbrev main_call13_v2 : Ref sig .tc := ⟨.hbm, 360, rfl⟩
abbrev main_call13_v3 : Ref sig .tc := ⟨.hbm, 361, rfl⟩
abbrev main_call13_v4 : Ref sig .tc := ⟨.hbm, 362, rfl⟩
abbrev main_call13_v5 : Ref sig .tc := ⟨.hbm, 363, rfl⟩
abbrev main_call13_v6 : Ref sig .tc := ⟨.hbm, 364, rfl⟩
abbrev main_call13_v7 : Ref sig .tc := ⟨.hbm, 365, rfl⟩
abbrev main_call13_cst_1 : Ref sig .tc := ⟨.hbm, 366, rfl⟩
abbrev main_call13_v8 : Ref sig .tc := ⟨.hbm, 367, rfl⟩
abbrev main_call13_cst_2 : Ref sig .tc := ⟨.hbm, 368, rfl⟩
abbrev main_call13_v9 : Ref sig .tc := ⟨.hbm, 369, rfl⟩
abbrev main_call13_v10 : Ref sig .tc := ⟨.hbm, 370, rfl⟩
abbrev main_call13_v11 : Ref sig .tc := ⟨.hbm, 371, rfl⟩
abbrev main_call13_cst_3 : Ref sig .tc := ⟨.hbm, 372, rfl⟩
abbrev main_call13_v12 : Ref sig .tc := ⟨.hbm, 373, rfl⟩
abbrev main_call13_cst_4 : Ref sig .tc := ⟨.hbm, 374, rfl⟩
abbrev main_call13_call0_v0 : Ref sig .tc := ⟨.hbm, 375, rfl⟩
abbrev main_call13_call0_v1 : Ref sig .tc := ⟨.hbm, 376, rfl⟩
abbrev main_v205 : Ref sig .tc := ⟨.hbm, 377, rfl⟩
abbrev main_v206 : Ref sig .tc := ⟨.hbm, 378, rfl⟩
abbrev main_v207 : Ref sig .tc := ⟨.hbm, 379, rfl⟩
abbrev main_v208 : Ref sig .tc := ⟨.hbm, 380, rfl⟩
abbrev main_cst_29 : Ref sig .tc := ⟨.hbm, 381, rfl⟩
abbrev main_v209 : Ref sig .tc := ⟨.hbm, 382, rfl⟩
abbrev main_v210 : Ref sig .tc := ⟨.hbm, 383, rfl⟩
abbrev main_v211 : Ref sig .tc := ⟨.hbm, 384, rfl⟩
abbrev main_v212 : Ref sig .tc := ⟨.hbm, 385, rfl⟩
abbrev main_v213 : Ref sig .tc := ⟨.hbm, 386, rfl⟩
abbrev main_v214 : Ref sig .tc := ⟨.hbm, 387, rfl⟩
abbrev main_v215 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_v219 : Ref sig .tc := ⟨.hbm, 392, rfl⟩
abbrev main_v220 : Ref sig .tc := ⟨.hbm, 393, rfl⟩
abbrev main_v221 : Ref sig .tc := ⟨.hbm, 394, rfl⟩
abbrev main_v222 : Ref sig .tc := ⟨.hbm, 395, rfl⟩
abbrev main_v223 : Ref sig .tc := ⟨.hbm, 396, rfl⟩
abbrev main_v224 : Ref sig .tc := ⟨.hbm, 397, rfl⟩
abbrev main_call14_cst : Ref sig .tc := ⟨.hbm, 398, rfl⟩
abbrev main_call14_v0 : Ref sig .tc := ⟨.hbm, 399, rfl⟩
abbrev main_v225 : Ref sig .tc := ⟨.hbm, 400, rfl⟩
abbrev main_v226 : Ref sig .tc := ⟨.hbm, 401, rfl⟩
abbrev main_v227 : Ref sig .tc := ⟨.hbm, 402, rfl⟩
abbrev main_v228 : Ref sig .tc := ⟨.hbm, 403, rfl⟩
abbrev main_v229 : Ref sig .tc := ⟨.hbm, 404, rfl⟩
abbrev main_v230 : Ref sig .tc := ⟨.hbm, 405, rfl⟩
abbrev main_v231 : Ref sig .tc := ⟨.hbm, 406, rfl⟩
abbrev main_v232 : Ref sig .tc := ⟨.hbm, 407, rfl⟩
abbrev main_v233 : Ref sig .tc := ⟨.hbm, 408, rfl⟩
abbrev main_cst_30 : Ref sig .tc := ⟨.hbm, 409, rfl⟩
abbrev main_v234 : Ref sig .tc := ⟨.hbm, 410, rfl⟩
abbrev main_v235 : Ref sig .tc := ⟨.hbm, 411, rfl⟩
abbrev main_cst_31 : Ref sig .tc := ⟨.hbm, 412, rfl⟩
abbrev main_v236 : Ref sig .tc := ⟨.hbm, 413, rfl⟩
abbrev main_v237 : Ref sig .tc := ⟨.hbm, 414, rfl⟩
abbrev main_c_32 : Ref sig .tc := ⟨.hbm, 415, rfl⟩
abbrev main_call15_cst : Ref sig .tc := ⟨.hbm, 416, rfl⟩
abbrev main_call15_v0 : Ref sig .tc := ⟨.hbm, 417, rfl⟩
abbrev main_call15_v1 : Ref sig .tc := ⟨.hbm, 418, rfl⟩
abbrev main_call15_cst_0 : Ref sig .tc := ⟨.hbm, 419, rfl⟩
abbrev main_call15_v2 : Ref sig .tc := ⟨.hbm, 420, rfl⟩
abbrev main_call15_v3 : Ref sig .tc := ⟨.hbm, 421, rfl⟩
abbrev main_call15_v4 : Ref sig .tc := ⟨.hbm, 422, rfl⟩
abbrev main_call15_v5 : Ref sig .tc := ⟨.hbm, 423, rfl⟩
abbrev main_call15_v6 : Ref sig .tc := ⟨.hbm, 424, rfl⟩
abbrev main_call15_v7 : Ref sig .tc := ⟨.hbm, 425, rfl⟩
abbrev main_call15_cst_1 : Ref sig .tc := ⟨.hbm, 426, rfl⟩
abbrev main_call15_v8 : Ref sig .tc := ⟨.hbm, 427, rfl⟩
abbrev main_call15_cst_2 : Ref sig .tc := ⟨.hbm, 428, rfl⟩
abbrev main_call15_v9 : Ref sig .tc := ⟨.hbm, 429, rfl⟩
abbrev main_call15_v10 : Ref sig .tc := ⟨.hbm, 430, rfl⟩
abbrev main_call15_v11 : Ref sig .tc := ⟨.hbm, 431, rfl⟩
abbrev main_call15_v12 : Ref sig .tc := ⟨.hbm, 432, rfl⟩
abbrev main_call15_cst_3 : Ref sig .tc := ⟨.hbm, 433, rfl⟩
abbrev main_call15_v13 : Ref sig .tc := ⟨.hbm, 434, rfl⟩
abbrev main_call15_cst_4 : Ref sig .tc := ⟨.hbm, 435, rfl⟩
abbrev main_call15_call0_v0 : Ref sig .tc := ⟨.hbm, 436, rfl⟩
abbrev main_call15_call0_v1 : Ref sig .tc := ⟨.hbm, 437, rfl⟩
abbrev main_v238 : Ref sig .tc := ⟨.hbm, 438, rfl⟩
abbrev main_v239 : Ref sig .tc := ⟨.hbm, 439, rfl⟩
abbrev main_v240 : Ref sig .tc := ⟨.hbm, 440, rfl⟩
abbrev main_cst_33 : Ref sig .tc := ⟨.hbm, 441, rfl⟩
abbrev main_v241 : Ref sig .tc := ⟨.hbm, 442, rfl⟩
abbrev main_v242 : Ref sig .tc := ⟨.hbm, 443, rfl⟩
abbrev main_v243 : Ref sig .tc := ⟨.hbm, 444, rfl⟩
abbrev main_v244 : Ref sig .tc := ⟨.hbm, 445, rfl⟩
abbrev main_v245 : Ref sig .tc := ⟨.hbm, 446, rfl⟩
abbrev main_v246 : Ref sig .tc := ⟨.hbm, 447, rfl⟩
abbrev main_v247 : Ref sig .tc := ⟨.hbm, 448, rfl⟩
abbrev main_v248 : Ref sig .tc := ⟨.hbm, 449, rfl⟩
abbrev main_v249 : Ref sig .tc := ⟨.hbm, 450, rfl⟩
abbrev main_v250 : Ref sig .tc := ⟨.hbm, 451, rfl⟩
abbrev main_v251 : Ref sig .tc := ⟨.hbm, 452, rfl⟩
abbrev main_v252 : Ref sig .tc := ⟨.hbm, 453, rfl⟩
abbrev main_v253 : Ref sig .tc := ⟨.hbm, 454, rfl⟩
abbrev main_v254 : Ref sig .tc := ⟨.hbm, 455, rfl⟩
abbrev main_v255 : Ref sig .tc := ⟨.hbm, 456, rfl⟩
abbrev main_call16_cst : Ref sig .tc := ⟨.hbm, 457, rfl⟩
abbrev main_call16_v0 : Ref sig .tc := ⟨.hbm, 458, rfl⟩
abbrev main_v256 : Ref sig .tc := ⟨.hbm, 459, rfl⟩
abbrev main_c_34 : Ref sig .tc := ⟨.hbm, 460, rfl⟩
abbrev main_v257 : Ref sig .tc := ⟨.hbm, 461, rfl⟩
abbrev main_v258 : Ref sig .tc := ⟨.hbm, 462, rfl⟩
abbrev main_c_35 : Ref sig .tc := ⟨.hbm, 463, rfl⟩
abbrev main_v259 : Ref sig .tc := ⟨.hbm, 464, rfl⟩
abbrev main_v260 : Ref sig .tc := ⟨.hbm, 465, rfl⟩
abbrev main_v261 : Ref sig .tc := ⟨.hbm, 466, rfl⟩
abbrev main_v262 : Ref sig .tc := ⟨.hbm, 467, rfl⟩
abbrev main_v263 : Ref sig .tc := ⟨.hbm, 468, rfl⟩
abbrev main_v264 : Ref sig .tc := ⟨.hbm, 469, rfl⟩
abbrev main_call17_cst : Ref sig .tc := ⟨.hbm, 470, rfl⟩
abbrev main_call17_v0 : Ref sig .tc := ⟨.hbm, 471, rfl⟩
abbrev main_v265 : Ref sig .tc := ⟨.hbm, 472, rfl⟩
abbrev main_cst_36 : Ref sig .tc := ⟨.hbm, 473, rfl⟩
abbrev main_v266 : Ref sig .tc := ⟨.hbm, 474, rfl⟩
abbrev main_v267 : Ref sig .tc := ⟨.hbm, 475, rfl⟩
abbrev main_v268 : Ref sig .tc := ⟨.hbm, 476, rfl⟩
abbrev main_v269 : Ref sig .tc := ⟨.hbm, 477, rfl⟩
abbrev main_v270 : Ref sig .tc := ⟨.hbm, 478, rfl⟩
abbrev main_cst_37 : Ref sig .tc := ⟨.hbm, 479, rfl⟩
abbrev main_v271 : Ref sig .tc := ⟨.hbm, 480, rfl⟩
abbrev main_v272 : Ref sig .tc := ⟨.hbm, 481, rfl⟩
abbrev main_v273 : Ref sig .tc := ⟨.hbm, 482, rfl⟩
abbrev main_v274 : Ref sig .tc := ⟨.hbm, 483, rfl⟩
abbrev main_v275 : Ref sig .tc := ⟨.hbm, 484, rfl⟩
abbrev main_v276 : Ref sig .tc := ⟨.hbm, 485, rfl⟩
abbrev main_v277 : Ref sig .tc := ⟨.hbm, 486, rfl⟩
abbrev main_v278 : Ref sig .tc := ⟨.hbm, 487, rfl⟩
abbrev main_v279 : Ref sig .tc := ⟨.hbm, 488, rfl⟩
abbrev main_v280 : Ref sig .tc := ⟨.hbm, 489, rfl⟩
abbrev main_v281 : Ref sig .tc := ⟨.hbm, 490, rfl⟩
abbrev main_v282 : Ref sig .tc := ⟨.hbm, 491, rfl⟩
abbrev main_cst_38 : Ref sig .tc := ⟨.hbm, 492, rfl⟩
abbrev main_v283 : Ref sig .tc := ⟨.hbm, 493, rfl⟩
abbrev main_cst_39 : Ref sig .tc := ⟨.hbm, 494, rfl⟩
abbrev main_v284 : Ref sig .tc := ⟨.hbm, 495, rfl⟩
abbrev main_v285 : Ref sig .tc := ⟨.hbm, 496, rfl⟩
abbrev main_c_40 : Ref sig .tc := ⟨.hbm, 497, rfl⟩
abbrev main_call18_cst : Ref sig .tc := ⟨.hbm, 498, rfl⟩
abbrev main_call18_v0 : Ref sig .tc := ⟨.hbm, 499, rfl⟩
abbrev main_call18_v1 : Ref sig .tc := ⟨.hbm, 500, rfl⟩
abbrev main_call18_cst_0 : Ref sig .tc := ⟨.hbm, 501, rfl⟩
abbrev main_call18_v2 : Ref sig .tc := ⟨.hbm, 502, rfl⟩
abbrev main_call18_v3 : Ref sig .tc := ⟨.hbm, 503, rfl⟩
abbrev main_call18_v4 : Ref sig .tc := ⟨.hbm, 504, rfl⟩
abbrev main_call18_v5 : Ref sig .tc := ⟨.hbm, 505, rfl⟩
abbrev main_call18_v6 : Ref sig .tc := ⟨.hbm, 506, rfl⟩
abbrev main_call18_v7 : Ref sig .tc := ⟨.hbm, 507, rfl⟩
abbrev main_call18_cst_1 : Ref sig .tc := ⟨.hbm, 508, rfl⟩
abbrev main_call18_v8 : Ref sig .tc := ⟨.hbm, 509, rfl⟩
abbrev main_call18_cst_2 : Ref sig .tc := ⟨.hbm, 510, rfl⟩
abbrev main_call18_v9 : Ref sig .tc := ⟨.hbm, 511, rfl⟩
abbrev main_call18_v10 : Ref sig .tc := ⟨.hbm, 512, rfl⟩
abbrev main_call18_v11 : Ref sig .tc := ⟨.hbm, 513, rfl⟩
abbrev main_call18_cst_3 : Ref sig .tc := ⟨.hbm, 514, rfl⟩
abbrev main_call18_v12 : Ref sig .tc := ⟨.hbm, 515, rfl⟩
abbrev main_call18_cst_4 : Ref sig .tc := ⟨.hbm, 516, rfl⟩
abbrev main_call18_call0_v0 : Ref sig .tc := ⟨.hbm, 517, rfl⟩
abbrev main_call18_call0_v1 : Ref sig .tc := ⟨.hbm, 518, rfl⟩
abbrev main_v286 : Ref sig .tc := ⟨.hbm, 519, rfl⟩
abbrev main_v287 : Ref sig .tc := ⟨.hbm, 520, rfl⟩
abbrev main_v288 : Ref sig .tc := ⟨.hbm, 521, rfl⟩
abbrev main_v289 : Ref sig .tc := ⟨.hbm, 522, rfl⟩
abbrev main_cst_41 : Ref sig .tc := ⟨.hbm, 523, rfl⟩
abbrev main_v290 : Ref sig .tc := ⟨.hbm, 524, rfl⟩
abbrev main_v291 : Ref sig .tc := ⟨.hbm, 525, rfl⟩
abbrev main_v292 : Ref sig .tc := ⟨.hbm, 526, rfl⟩
abbrev main_v293 : Ref sig .tc := ⟨.hbm, 527, rfl⟩
abbrev main_v294 : Ref sig .tc := ⟨.hbm, 528, rfl⟩
abbrev main_v295 : Ref sig .tc := ⟨.hbm, 529, rfl⟩
abbrev main_v296 : Ref sig .tc := ⟨.hbm, 530, rfl⟩
abbrev main_v297 : Ref sig .tc := ⟨.hbm, 531, rfl⟩
abbrev main_v298 : Ref sig .tc := ⟨.hbm, 532, rfl⟩
abbrev main_v299 : Ref sig .tc := ⟨.hbm, 533, rfl⟩
abbrev main_v300 : Ref sig .tc := ⟨.hbm, 534, rfl⟩
abbrev main_v301 : Ref sig .tc := ⟨.hbm, 535, rfl⟩
abbrev main_v302 : Ref sig .tc := ⟨.hbm, 536, rfl⟩
abbrev main_v303 : Ref sig .tc := ⟨.hbm, 537, rfl⟩
abbrev main_v304 : Ref sig .tc := ⟨.hbm, 538, rfl⟩
abbrev main_v305 : Ref sig .tc := ⟨.hbm, 539, rfl⟩
abbrev main_call19_cst : Ref sig .tc := ⟨.hbm, 540, rfl⟩
abbrev main_call19_v0 : Ref sig .tc := ⟨.hbm, 541, rfl⟩
abbrev main_v306 : Ref sig .tc := ⟨.hbm, 542, rfl⟩
abbrev main_v307 : Ref sig .tc := ⟨.hbm, 543, rfl⟩
abbrev main_v308 : Ref sig .tc := ⟨.hbm, 544, rfl⟩
abbrev main_v309 : Ref sig .tc := ⟨.hbm, 545, rfl⟩
abbrev main_v310 : Ref sig .tc := ⟨.hbm, 546, rfl⟩
abbrev main_v311 : Ref sig .tc := ⟨.hbm, 547, rfl⟩
abbrev main_v312 : Ref sig .tc := ⟨.hbm, 548, rfl⟩
abbrev main_v313 : Ref sig .tc := ⟨.hbm, 549, rfl⟩
abbrev main_v314 : Ref sig .tc := ⟨.hbm, 550, rfl⟩
abbrev main_cst_42 : Ref sig .tc := ⟨.hbm, 551, rfl⟩
abbrev main_v315 : Ref sig .tc := ⟨.hbm, 552, rfl⟩
abbrev main_v316 : Ref sig .tc := ⟨.hbm, 553, rfl⟩
abbrev main_cst_43 : Ref sig .tc := ⟨.hbm, 554, rfl⟩
abbrev main_v317 : Ref sig .tc := ⟨.hbm, 555, rfl⟩
abbrev main_v318 : Ref sig .tc := ⟨.hbm, 556, rfl⟩
abbrev main_c_44 : Ref sig .tc := ⟨.hbm, 557, rfl⟩
abbrev main_call20_cst : Ref sig .tc := ⟨.hbm, 558, rfl⟩
abbrev main_call20_v0 : Ref sig .tc := ⟨.hbm, 559, rfl⟩
abbrev main_call20_v1 : Ref sig .tc := ⟨.hbm, 560, rfl⟩
abbrev main_call20_cst_0 : Ref sig .tc := ⟨.hbm, 561, rfl⟩
abbrev main_call20_v2 : Ref sig .tc := ⟨.hbm, 562, rfl⟩
abbrev main_call20_v3 : Ref sig .tc := ⟨.hbm, 563, rfl⟩
abbrev main_call20_v4 : Ref sig .tc := ⟨.hbm, 564, rfl⟩
abbrev main_call20_v5 : Ref sig .tc := ⟨.hbm, 565, rfl⟩
abbrev main_call20_v6 : Ref sig .tc := ⟨.hbm, 566, rfl⟩
abbrev main_call20_v7 : Ref sig .tc := ⟨.hbm, 567, rfl⟩
abbrev main_call20_cst_1 : Ref sig .tc := ⟨.hbm, 568, rfl⟩
abbrev main_call20_v8 : Ref sig .tc := ⟨.hbm, 569, rfl⟩
abbrev main_call20_cst_2 : Ref sig .tc := ⟨.hbm, 570, rfl⟩
abbrev main_call20_v9 : Ref sig .tc := ⟨.hbm, 571, rfl⟩
abbrev main_call20_v10 : Ref sig .tc := ⟨.hbm, 572, rfl⟩
abbrev main_call20_v11 : Ref sig .tc := ⟨.hbm, 573, rfl⟩
abbrev main_call20_v12 : Ref sig .tc := ⟨.hbm, 574, rfl⟩
abbrev main_call20_cst_3 : Ref sig .tc := ⟨.hbm, 575, rfl⟩
abbrev main_call20_v13 : Ref sig .tc := ⟨.hbm, 576, rfl⟩
abbrev main_call20_cst_4 : Ref sig .tc := ⟨.hbm, 577, rfl⟩
abbrev main_call20_call0_v0 : Ref sig .tc := ⟨.hbm, 578, rfl⟩
abbrev main_call20_call0_v1 : Ref sig .tc := ⟨.hbm, 579, rfl⟩
abbrev main_v319 : Ref sig .tc := ⟨.hbm, 580, rfl⟩
abbrev main_v320 : Ref sig .tc := ⟨.hbm, 581, rfl⟩
abbrev main_v321 : Ref sig .tc := ⟨.hbm, 582, rfl⟩
abbrev main_cst_45 : Ref sig .tc := ⟨.hbm, 583, rfl⟩
abbrev main_v322 : Ref sig .tc := ⟨.hbm, 584, rfl⟩
abbrev main_v323 : Ref sig .tc := ⟨.hbm, 585, rfl⟩
abbrev main_v324 : Ref sig .tc := ⟨.hbm, 586, rfl⟩
abbrev main_v325 : Ref sig .tc := ⟨.hbm, 587, rfl⟩
abbrev main_v326 : Ref sig .tc := ⟨.hbm, 588, rfl⟩
abbrev main_v327 : Ref sig .tc := ⟨.hbm, 589, rfl⟩
abbrev main_v328 : Ref sig .tc := ⟨.hbm, 590, rfl⟩
abbrev main_v329 : Ref sig .tc := ⟨.hbm, 591, rfl⟩
abbrev main_v330 : Ref sig .tc := ⟨.hbm, 592, rfl⟩
abbrev main_v331 : Ref sig .tc := ⟨.hbm, 593, rfl⟩
abbrev main_v332 : Ref sig .tc := ⟨.hbm, 594, rfl⟩
abbrev main_v333 : Ref sig .tc := ⟨.hbm, 595, rfl⟩
abbrev main_v334 : Ref sig .tc := ⟨.hbm, 596, rfl⟩
abbrev main_v335 : Ref sig .tc := ⟨.hbm, 597, rfl⟩
abbrev main_v336 : Ref sig .tc := ⟨.hbm, 598, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S80000x64 : S_.BroadcastsInDim S80000x64 (![] : Fin 0 → Fin S80000x64.rank)
  bcast_S1x64_S1280000x64_0_1 : S1x64.BroadcastsInDim S1280000x64 (![0, 1] : Fin 2 → Fin S1280000x64.rank)
  bcast_S_S1280000x64 : S_.BroadcastsInDim S1280000x64 (![] : Fin 0 → Fin S1280000x64.rank)
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  reducesTo_S80000x128_S128_d0 : S80000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S80000x128 : S_.BroadcastsInDim S80000x128 (![] : Fin 0 → Fin S80000x128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  reducesTo_S80000x64_S80000_d1 : S80000x64.ReducesTo [1] S80000
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S80000x1_S80000x64_0_1 : S80000x1.BroadcastsInDim S80000x64 (![0, 1] : Fin 2 → Fin S80000x64.rank)
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  dot_S80000x32_S32x64_S80000x64_1_0_0_1_n_n_wf : DotDims.WF S80000x32 S32x64 S80000x64 [1] [0] [0] [1] [] []
  dot_S1280000x16_S16x64_S1280000x64_1_0_0_1_n_n_wf : DotDims.WF S1280000x16 S16x64 S1280000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x128_S80000x128_1_0_0_1_n_n_wf : DotDims.WF S80000x64 S64x128 S80000x128 [1] [0] [0] [1] [] []
  dot_S80000x128_S128x64_S80000x64_1_0_0_1_n_n_wf : DotDims.WF S80000x128 S128x64 S80000x64 [1] [0] [0] [1] [] []

variable [Facts₀]

def dot_S80000x32_S32x64_S80000x64_1_0_0_1_n_n : DotDims S80000x32 S32x64 S80000x64 where
  lhsContracting := [1]
  rhsContracting := [0]
  lhsNonContracting := [0]
  rhsNonContracting := [1]
  lhsBatch := []
  rhsBatch := []
  wf := dot_S80000x32_S32x64_S80000x64_1_0_0_1_n_n_wf
def dot_S1280000x16_S16x64_S1280000x64_1_0_0_1_n_n : DotDims S1280000x16 S16x64 S1280000x64 where
  lhsContracting := [1]
  rhsContracting := [0]
  lhsNonContracting := [0]
  rhsNonContracting := [1]
  lhsBatch := []
  rhsBatch := []
  wf := dot_S1280000x16_S16x64_S1280000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x128_S80000x128_1_0_0_1_n_n : DotDims S80000x64 S64x128 S80000x128 where
  lhsContracting := [1]
  rhsContracting := [0]
  lhsNonContracting := [0]
  rhsNonContracting := [1]
  lhsBatch := []
  rhsBatch := []
  wf := dot_S80000x64_S64x128_S80000x128_1_0_0_1_n_n_wf
def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf

class Facts : Prop extends Facts₀ where

variable [Facts]
-- ==== Proof.K.RunData.lean ====
import proofs.«178590_j59433757442359_2_alg».proof.Proof.Gen.Kernel.Launch
import proofs.«178590_j59433757442359_2_alg».proof.Proof.Gen.Kernel.Regions
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (F : FTy → Type) [FloatOps F]

local notation "𝕄" => MT nD τ sig Unit (Elt F) ℕ (UR sig nD τ) ℕ

/-- The TensorCore's buffer contents when a region is entered: what every region's proof data are stated at. -/
abbrev VT : Type :=
  (c : Dev nD) → (b : Ref sig .tc) → Buf (Elt F) ((c : Thread nD τ).loc b)

/-- One region's proof data, as a parameter of the run: at any entry contents `V`, the data `dat V c`, whose arrays
    are `V`'s (`hA`), whose body meets the obligation (`hbody`), which hold every input array whole (`hq`) and owe
    nothing (`howed`), and whose invariant is entered from the class's (`hin`: the scoped rest and the generator
    register) and gives it back at the last point (`hout`). -/
structure RD (cfg : Pipeline.Cfg sig Λ₀) where
  dat : VT F → (c : Dev nD) → Dat τ (Elt F) Unit ℕ (UR sig nD τ) ℕ cfg c
  hA : ∀ V c w, (dat V c).A w = V c (Pipeline.arrRef cfg.spec w)
  hbody : ∀ V c, BodyObligation (dat V c) (defs₀ (F := F)) Variants.none () Set.univ
  hq : ∀ V c w, (dat V c).q w = fullShare
  howed : ∀ V c t, (dat V c).owed t = 0
  hin : ∀ V c, (Pipeline.ΦA cfg.spec c : sProp 𝕄) ⊢ (dat V c).Φ 0
  hout : ∀ V c, (dat V c).Φ (Fin.last cfg.N) ⊢ (Pipeline.ΦA cfg.spec c : sProp 𝕄)
  /-- The data put no bound of their own on the pairs the core's waits have recorded when the region is entered. -/
  hrec : ∀ V c, (dat V c).recorded 0 = Set.univ

/-- Every region's proof data: region K's is `rK`. -/
structure Data where
  r0 : RD F cfg0
  r1 : RD F cfg1
  r2 : RD F cfg2
  r3 : RD F cfg3
  r4 : RD F cfg4
  r5 : RD F cfg5
  r6 : RD F cfg6
  r7 : RD F cfg7
  r8 : RD F cfg8
  r9 : RD F cfg9
  r10 : RD F cfg10
  r11 : RD F cfg11
  r12 : RD F cfg12
  r13 : RD F cfg13

end Cert.Kernel.Reg

end
-- ==== Proof.K.RunFold.lean ====
import proofs.«178590_j59433757442359_2_alg».proof.Proof.K.RunData

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The buffer contents at each boundary between two items of @main: a fold from the launch memory

Item by item: a kernel region leaves its windows' arrays at what its write-backs fold to (`Dat.arrAt … N` of the
proof data at the region's entry contents) and every other buffer as entered; a host stretch leaves
`StableHlo.after` of its operations. Regions 0 and 1 come first, then stretch J and region J for J = 2..13. -/

/-- Core `c`'s buffers at launch. -/
abbrev W0 : Dev nD → Valuation τ sig (Elt F) := fun c b => m (c, b)
/-- The same read at the TensorCore's references. -/
abbrev V0 : VT F := fun c b => W0 m c b

/-- At region 0's exit: its arrays at what the pipeline leaves, every other buffer as entered. -/
def W1 (c : Dev nD) : Valuation τ sig (Elt F) :=
  Pipeline.withArrays spec0 c (W0 m c) fun w => (D.r0.dat (V0 m) c).arrAt w cfg0.N
theorem W1_arr (c : Dev nD) (w : Fin cfg0.W) :
    W1 D m c (Proc.devRef .tc (Pipeline.arrRef spec0 w)) = (D.r0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D m c (Proc.devRef .tc b) = W0 m c (Proc.devRef .tc b) := by
  unfold W1; exact Pipeline.withArrays_of_ne spec0 c _ _ b hb
/-- The same read at the TensorCore's references (region 0's exit contents). -/
abbrev V1 : VT F := fun c b => W1 D m c b
/-- At region 0's exit each of its arrays holds what the pipeline leaves and every other buffer what it held at entry. -/
theorem hF0 (c : Dev nD) (w : Fin cfg0.W) : (D.r0.dat (V0 m) c).arrAt w cfg0.N = V1 D m c (Pipeline.arrRef spec0 w) :=
  (W1_arr D m c w).symm
theorem hrest0 (c : Dev nD) : ∀ b, b ∉ Finset.univ.image (Pipeline.arrRef spec0) → V1 D m c b = V0 m c b :=
  fun b hb => W1_of_ne D m c b fun w e => hb (Finset.mem_image.mpr ⟨w, Finset.mem_univ _, e⟩)
/-- An input window's array is left as entered. -/
theorem W1_in (c : Dev nD) (w : Fin cfg0.W) (hin : (cfg0.win w).isOut = false) :
    W1 D m c (Proc.devRef .tc (Pipeline.arrRef spec0 w)) = W0 m c (Proc.devRef .tc (Pipeline.arrRef spec0 w)) :=
  (W1_arr D m c w).trans (((D.r0.dat (V0 m) c).arrAt_in w hin _).trans (D.r0.hA (V0 m) c w))

/-- At region 1's exit: its arrays at what the pipeline leaves, every other buffer as entered. -/
def W2 (c : Dev nD) : Valuation τ sig (Elt F) :=
  Pipeline.withArrays spec1 c (W1 D m c) fun w => (D.r1.dat (V1 D m) c).arrAt w cfg1.N
theorem W2_arr (c : Dev nD) (w : Fin cfg1.W) :
    W2 D m c (Proc.devRef .tc (Pipeline.arrRef spec1 w)) = (D.r1.dat (V1 D m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 D m c (Proc.devRef .tc b) = W1 D m c (Proc.devRef .tc b) := by
  unfold W2; exact Pipeline.withArrays_of_ne spec1 c _ _ b hb
/-- The same read at the TensorCore's references (region 1's exit contents). -/
abbrev V2 : VT F := fun c b => W2 D m c b
/-- At region 1's exit each of its arrays holds what the pipeline leaves and every other buffer what it held at entry. -/
theorem hF1 (c : Dev nD) (w : Fin cfg1.W) : (D.r1.dat (V1 D m) c).arrAt w cfg1.N = V2 D m c (Pipeline.arrRef spec1 w) :=
  (W2_arr D m c w).symm
theorem hrest1 (c : Dev nD) : ∀ b, b ∉ Finset.univ.image (Pipeline.arrRef spec1) → V2 D m c b = V1 D m c b :=
  fun b hb => W2_of_ne D m c b fun w e => hb (Finset.mem_image.mpr ⟨w, Finset.mem_univ _, e⟩)
/-- An input window's array is left as entered. -/
theorem W2_in (c : Dev nD) (w : Fin cfg1.W) (hin : (cfg1.win w).isOut = false) :
    W2 D m c (Proc.devRef .tc (Pipeline.arrRef spec1 w)) = W1 D m c (Proc.devRef .tc (Pipeline.arrRef spec1 w)) :=
  (W2_arr D m c w).trans (((D.r1.dat (V1 D m) c).arrAt_in w hin _).trans (D.r1.hA (V1 D m) c w))

/-- After `hostOps2` (region 2's entry). -/
abbrev W3 : Dev nD → Valuation τ sig (Elt F) := fun c => StableHlo.after hostOps2 (W2 D m c)
/-- The same read at the TensorCore's references (what region 2's proof data take). -/
abbrev V3 : VT F := fun c b => W3 D m c b
/-- A reference `hostOps2` does not write keeps its contents. -/
theorem W3_of (c : Dev nD) (r : Ref sig .tc) (h : r ∉ hostOps2_W) :
    W3 D m c (Proc.devRef .tc r) = W2 D m c (Proc.devRef .tc r) :=
  StableHlo.after_of_writes_sub hostOps2 _ hostOps2_writes h

/-- At region 2's exit: its arrays at what the pipeline leaves, every other buffer as entered. -/
def W4 (c : Dev nD) : Valuation τ sig (Elt F) :=
  Pipeline.withArrays spec2 c (W3 D m c) fun w => (D.r2.dat (V3 D m) c).arrAt w cfg2.N
theorem W4_arr (c : Dev nD) (w : Fin cfg2.W) :
    W4 D m c (Proc.devRef .tc (Pipeline.arrRef spec2 w)) = (D.r2.dat (V3 D m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 D m c (Proc.devRef .tc b) = W3 D m c (Proc.devRef .tc b) := by
  unfold W4; exact Pipeline.withArrays_of_ne spec2 c _ _ b hb
/-- The same read at the TensorCore's references (region 2's exit contents). -/
abbrev V4 : VT F := fun c b => W4 D m c b
/-- At region 2's exit each of its arrays holds what the pipeline leaves and every other buffer what it held at entry. -/
theorem hF2 (c : Dev nD) (w : Fin cfg2.W) : (D.r2.dat (V3 D m) c).arrAt w cfg2.N = V4 D m c (Pipeline.arrRef spec2 w) :=
  (W4_arr D m c w).symm
theorem hrest2 (c : Dev nD) : ∀ b, b ∉ Finset.univ.image (Pipeline.arrRef spec2) → V4 D m c b = V3 D m c b :=
  fun b hb => W4_of_ne D m c b fun w e => hb (Finset.mem_image.mpr ⟨w, Finset.mem_univ _, e⟩)
/-- An input window's array is left as entered. -/
theorem W4_in (c : Dev nD) (w : Fin cfg2.W) (hin : (cfg2.win w).isOut = false) :
    W4 D m c (Proc.devRef .tc (Pipeline.arrRef spec2 w)) = W3 D m c (Proc.devRef .tc (Pipeline.arrRef spec2 w)) :=
  (W4_arr D m c w).trans (((D.r2.dat (V3 D m) c).arrAt_in w hin _).trans (D.r2.hA (V3 D m) c w))

/-- After `hostOps3` (region 3's entry). -/
abbrev W5 : Dev nD → Valuation τ sig (Elt F) := fun c => StableHlo.after hostOps3 (W4 D m c)
/-- The same read at the TensorCore's references (what region 3's proof data take). -/
abbrev V5 : VT F := fun c b => W5 D m c b
/-- A reference `hostOps3` does not write keeps its contents. -/
theorem W5_of (c : Dev nD) (r : Ref sig .tc) (h : r ∉ hostOps3_W) :
    W5 D m c (Proc.devRef .tc r) = W4 D m c (Proc.devRef .tc r) :=
  StableHlo.after_of_writes_sub hostOps3 _ hostOps3_writes h

/-- At region 3's exit: its arrays at what the pipeline leaves, every other buffer as entered. -/
def W6 (c : Dev nD) : Valuation τ sig (Elt F) :=
  Pipeline.withArrays spec3 c (W5 D m c) fun w => (D.r3.dat (V5 D m) c).arrAt w cfg3.N
theorem W6_arr (c : Dev nD) (w : Fin cfg3.W) :
    W6 D m c (Proc.devRef .tc (Pipeline.arrRef spec3 w)) = (D.r3.dat (V5 D m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 D m c (Proc.devRef .tc b) = W5 D m c (Proc.devRef .tc b) := by
  unfold W6; exact Pipeline.withArrays_of_ne spec3 c _ _ b hb
/-- The same read at the TensorCore's references (region 3's exit contents). -/
abbrev V6 : VT F := fun c b => W6 D m c b
/-- At region 3's exit each of its arrays holds what the pipeline leaves and every other buffer what it held at entry. -/
theorem hF3 (c : Dev nD) (w : Fin cfg3.W) : (D.r3.dat (V5 D m) c).arrAt w cfg3.N = V6 D m c (Pipeline.arrRef spec3 w) :=
  (W6_arr D m c w).symm
theorem hrest3 (c : Dev nD) : ∀ b, b ∉ Finset.univ.image (Pipeline.arrRef spec3) → V6 D m c b = V5 D m c b :=
  fun b hb => W6_of_ne D m c b fun w e => hb (Finset.mem_image.mpr ⟨w, Finset.mem_univ _, e⟩)
/-- An input window's array is left as entered. -/
theorem W6_in (c : Dev nD) (w : Fin cfg3.W) (hin : (cfg3.win w).isOut = false) :
    W6 D m c (Proc.devRef .tc (Pipeline.arrRef spec3 w)) = W5 D m c (Proc.devRef .tc (Pipeline.arrRef spec3 w)) :=
  (W6_arr D m c w).trans (((D.r3.dat (V5 D m) c).arrAt_in w hin _).trans (D.r3.hA (V5 D m) c w))

/-- After `hostOps4` (region 4's entry). -/
abbrev W7 : Dev nD → Valuation τ sig (Elt F) := fun c => StableHlo.after hostOps4 (W6 D m c)
/-- The same read at the TensorCore's references (what region 4's proof data take). -/
abbrev V7 : VT F := fun c b => W7 D m c b
/-- A reference `hostOps4` does not write keeps its contents. -/
theorem W7_of (c : Dev nD) (r : Ref sig .tc) (h : r ∉ hostOps4_W) :
    W7 D m c (Proc.devRef .tc r) = W6 D m c (Proc.devRef .tc r) :=
  StableHlo.after_of_writes_sub hostOps4 _ hostOps4_writes h

/-- At region 4's exit: its arrays at what the pipeline leaves, every other buffer as entered. -/
def W8 (c : Dev nD) : Valuation τ sig (Elt F) :=
  Pipeline.withArrays spec4 c (W7 D m c) fun w => (D.r4.dat (V7 D m) c).arrAt w cfg4.N
theorem W8_arr (c : Dev nD) (w : Fin cfg4.W) :
    W8 D m c (Proc.devRef .tc (Pipeline.arrRef spec4 w)) = (D.r4.dat (V7 D m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 D m c (Proc.devRef .tc b) = W7 D m c (Proc.devRef .tc b) := by
  unfold W8; exact Pipeline.withArrays_of_ne spec4 c _ _ b hb
/-- The same read at the TensorCore's references (region 4's exit contents). -/
abbrev V8 : VT F := fun c b => W8 D m c b
/-- At region 4's exit each of its arrays holds what the pipeline leaves and every other buffer what it held at entry. -/
theorem hF4 (c : Dev nD) (w : Fin cfg4.W) : (D.r4.dat (V7 D m) c).arrAt w cfg4.N = V8 D m c (Pipeline.arrRef spec4 w) :=
  (W8_arr D m c w).symm
theorem hrest4 (c : Dev nD) : ∀ b, b ∉ Finset.univ.image (Pipeline.arrRef spec4) → V8 D m c b = V7 D m c b :=
  fun b hb => W8_of_ne D m c b fun w e => hb (Finset.mem_image.mpr ⟨w, Finset.mem_univ _, e⟩)
/-- An input window's array is left as entered. -/
theorem W8_in (c : Dev nD) (w : Fin cfg4.W) (hin : (cfg4.win w).isOut = false) :
    W8 D m c (Proc.devRef .tc (Pipeline.arrRef spec4 w)) = W7 D m c (Proc.devRef .tc (Pipeline.arrRef spec4 w)) :=
  (W8_arr D m c w).trans (((D.r4.dat (V7 D m) c).arrAt_in w hin _).trans (D.r4.hA (V7 D m) c w))

/-- After `hostOps5` (region 5's entry). -/
abbrev W9 : Dev nD → Valuation τ sig (Elt F) := fun c => StableHlo.after hostOps5 (W8 D m c)
/-- The same read at the TensorCore's references (what region 5's proof data take). -/
abbrev V9 : VT F := fun c b => W9 D m c b
/-- A reference `hostOps5` does not write keeps its contents. -/
theorem W9_of (c : Dev nD) (r : Ref sig .tc) (h : r ∉ hostOps5_W) :
    W9 D m c (Proc.devRef .tc r) = W8 D m c (Proc.devRef .tc r) :=
  StableHlo.after_of_writes_sub hostOps5 _ hostOps5_writes h

/-- At region 5's exit: its arrays at what the pipeline leaves, every other buffer as entered. -/
def W10 (c : Dev nD) : Valuation τ sig (Elt F) :=
  Pipeline.withArrays spec5 c (W9 D m c) fun w => (D.r5.dat (V9 D m) c).arrAt w cfg5.N
theorem W10_arr (c : Dev nD) (w : Fin cfg5.W) :
    W10 D m c (Proc.devRef .tc (Pipeline.arrRef spec5 w)) = (D.r5.dat (V9 D m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 D m c (Proc.devRef .tc b) = W9 D m c (Proc.devRef .tc b) := by
  unfold W10; exact Pipeline.withArrays_of_ne spec5 c _ _ b hb
/-- The same read at the TensorCore's references (region 5's exit contents). -/
abbrev V10 : VT F := fun c b => W10 D m c b
/-- At region 5's exit each of its arrays holds what the pipeline leaves and every other buffer what it held at entry. -/
theorem hF5 (c : Dev nD) (w : Fin cfg5.W) : (D.r5.dat (V9 D m) c).arrAt w cfg5.N = V10 D m c (Pipeline.arrRef spec5 w) :=
  (W10_arr D m c w).symm
theorem hrest5 (c : Dev nD) : ∀ b, b ∉ Finset.univ.image (Pipeline.arrRef spec5) → V10 D m c b = V9 D m c b :=
  fun b hb => W10_of_ne D m c b fun w e => hb (Finset.mem_image.mpr ⟨w, Finset.mem_univ _, e⟩)
/-- An input window's array is left as entered. -/
theorem W10_in (c : Dev nD) (w : Fin cfg5.W) (hin : (cfg5.win w).isOut = false) :
    W10 D m c (Proc.devRef .tc (Pipeline.arrRef spec5 w)) = W9 D m c (Proc.devRef .tc (Pipeline.arrRef spec5 w)) :=
  (W10_arr D m c w).trans (((D.r5.dat (V9 D m) c).arrAt_in w hin _).trans (D.r5.hA (V9 D m) c w))

/-- After `hostOps6` (region 6's entry). -/
abbrev W11 : Dev nD → Valuation τ sig (Elt F) := fun c => StableHlo.after hostOps6 (W10 D m c)
/-- The same read at the TensorCore's references (what region 6's proof data take). -/
abbrev V11 : VT F := fun c b => W11 D m c b
/-- A reference `hostOps6` does not write keeps its contents. -/
theorem W11_of (c : Dev nD) (r : Ref sig .tc) (h : r ∉ hostOps6_W) :
    W11 D m c (Proc.devRef .tc r) = W10 D m c (Proc.devRef .tc r) :=
  StableHlo.after_of_writes_sub hostOps6 _ hostOps6_writes h

/-- At region 6's exit: its arrays at what the pipeline leaves, every other buffer as entered. -/
def W12 (c : Dev nD) : Valuation τ sig (Elt F) :=
  Pipeline.withArrays spec6 c (W11 D m c) fun w => (D.r6.dat (V11 D m) c).arrAt w cfg6.N
theorem W12_arr (c : Dev nD) (w : Fin cfg6.W) :
    W12 D m c (Proc.devRef .tc (Pipeline.arrRef spec6 w)) = (D.r6.dat (V11 D m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 D m c (Proc.devRef .tc b) = W11 D m c (Proc.devRef .tc b) := by
  unfold W12; exact Pipeline.withArrays_of_ne spec6 c _ _ b hb
/-- The same read at the TensorCore's references (region 6's exit contents). -/
abbrev V12 : VT F := fun c b => W12 D m c b
/-- At region 6's exit each of its arrays holds what the pipeline leaves and every other buffer what it held at entry. -/
theorem hF6 (c : Dev nD) (w : Fin cfg6.W) : (D.r6.dat (V11 D m) c).arrAt w cfg6.N = V12 D m c (Pipeline.arrRef spec6 w) :=
  (W12_arr D m c w).symm
theorem hrest6 (c : Dev nD) : ∀ b, b ∉ Finset.univ.image (Pipeline.arrRef spec6) → V12 D m c b = V11 D m c b :=
  fun b hb => W12_of_ne D m c b fun w e => hb (Finset.mem_image.mpr ⟨w, Finset.mem_univ _, e⟩)
/-- An input window's array is left as entered. -/
theorem W12_in (c : Dev nD) (w : Fin cfg6.W) (hin : (cfg6.win w).isOut = false) :
    W12 D m c (Proc.devRef .tc (Pipeline.arrRef spec6 w)) = W11 D m c (Proc.devRef .tc (Pipeline.arrRef spec6 w)) :=
  (W12_arr D m c w).trans (((D.r6.dat (V11 D m) c).arrAt_in w hin _).trans (D.r6.hA (V11 D m) c w))

/-- After `hostOps7` (region 7's entry). -/
abbrev W13 : Dev nD → Valuation τ sig (Elt F) := fun c => StableHlo.after hostOps7 (W12 D m c)
/-- The same read at the TensorCore's references (what region 7's proof data take). -/
abbrev V13 : VT F := fun c b => W13 D m c b
/-- A reference `hostOps7` does not write keeps its contents. -/
theorem W13_of (c : Dev nD) (r : Ref sig .tc) (h : r ∉ hostOps7_W) :
    W13 D m c (Proc.devRef .tc r) = W12 D m c (Proc.devRef .tc r) :=
  StableHlo.after_of_writes_sub hostOps7 _ hostOps7_writes h

/-- At region 7's exit: its arrays at what the pipeline leaves, every other buffer as entered. -/
def W14 (c : Dev nD) : Valuation τ sig (Elt F) :=
  Pipeline.withArrays spec7 c (W13 D m c) fun w => (D.r7.dat (V13 D m) c).arrAt w cfg7.N
theorem W14_arr (c : Dev nD) (w : Fin cfg7.W) :
    W14 D m c (Proc.devRef .tc (Pipeline.arrRef spec7 w)) = (D.r7.dat (V13 D m) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 D m c (Proc.devRef .tc b) = W13 D m c (Proc.devRef .tc b) := by
  unfold W14; exact Pipeline.withArrays_of_ne spec7 c _ _ b hb
/-- The same read at the TensorCore's references (region 7's exit contents). -/
abbrev V14 : VT F := fun c b => W14 D m c b
/-- At region 7's exit each of its arrays holds what the pipeline leaves and every other buffer what it held at entry. -/
theorem hF7 (c : Dev nD) (w : Fin cfg7.W) : (D.r7.dat (V13 D m) c).arrAt w cfg7.N = V14 D m c (Pipeline.arrRef spec7 w) :=
  (W14_arr D m c w).symm
theorem hrest7 (c : Dev nD) : ∀ b, b ∉ Finset.univ.image (Pipeline.arrRef spec7) → V14 D m c b = V13 D m c b :=
  fun b hb => W14_of_ne D m c b fun w e => hb (Finset.mem_image.mpr ⟨w, Finset.mem_univ _, e⟩)
/-- An input window's array is left as entered. -/
theorem W14_in (c : Dev nD) (w : Fin cfg7.W) (hin : (cfg7.win w).isOut = false) :
    W14 D m c (Proc.devRef .tc (Pipeline.arrRef spec7 w)) = W13 D m c (Proc.devRef .tc (Pipeline.arrRef spec7 w)) :=
  (W14_arr D m c w).trans (((D.r7.dat (V13 D m) c).arrAt_in w hin _).trans (D.r7.hA (V13 D m) c w))

/-- After `hostOps8` (region 8's entry). -/
abbrev W15 : Dev nD → Valuation τ sig (Elt F) := fun c => StableHlo.after hostOps8 (W14 D m c)
/-- The same read at the TensorCore's references (what region 8's proof data take). -/
abbrev V15 : VT F := fun c b => W15 D m c b
/-- A reference `hostOps8` does not write keeps its contents. -/
theorem W15_of (c : Dev nD) (r : Ref sig .tc) (h : r ∉ hostOps8_W) :
    W15 D m c (Proc.devRef .tc r) = W14 D m c (Proc.devRef .tc r) :=
  StableHlo.after_of_writes_sub hostOps8 _ hostOps8_writes h

/-- At region 8's exit: its arrays at what the pipeline leaves, every other buffer as entered. -/
def W16 (c : Dev nD) : Valuation τ sig (Elt F) :=
  Pipeline.withArrays spec8 c (W15 D m c) fun w => (D.r8.dat (V15 D m) c).arrAt w cfg8.N
theorem W16_arr (c : Dev nD) (w : Fin cfg8.W) :
    W16 D m c (Proc.devRef .tc (Pipeline.arrRef spec8 w)) = (D.r8.dat (V15 D m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 D m c (Proc.devRef .tc b) = W15 D m c (Proc.devRef .tc b) := by
  unfold W16; exact Pipeline.withArrays_of_ne spec8 c _ _ b hb
/-- The same read at the TensorCore's references (region 8's exit contents). -/
abbrev V16 : VT F := fun c b => W16 D m c b
/-- At region 8's exit each of its arrays holds what the pipeline leaves and every other buffer what it held at entry. -/
theorem hF8 (c : Dev nD) (w : Fin cfg8.W) : (D.r8.dat (V15 D m) c).arrAt w cfg8.N = V16 D m c (Pipeline.arrRef spec8 w) :=
  (W16_arr D m c w).symm
theorem hrest8 (c : Dev nD) : ∀ b, b ∉ Finset.univ.image (Pipeline.arrRef spec8) → V16 D m c b = V15 D m c b :=
  fun b hb => W16_of_ne D m c b fun w e => hb (Finset.mem_image.mpr ⟨w, Finset.mem_univ _, e⟩)
/-- An input window's array is left as entered. -/
theorem W16_in (c : Dev nD) (w : Fin cfg8.W) (hin : (cfg8.win w).isOut = false) :
    W16 D m c (Proc.devRef .tc (Pipeline.arrRef spec8 w)) = W15 D m c (Proc.devRef .tc (Pipeline.arrRef spec8 w)) :=
  (W16_arr D m c w).trans (((D.r8.dat (V15 D m) c).arrAt_in w hin _).trans (D.r8.hA (V15 D m) c w))

/-- After `hostOps9` (region 9's entry). -/
abbrev W17 : Dev nD → Valuation τ sig (Elt F) := fun c => StableHlo.after hostOps9 (W16 D m c)
/-- The same read at the TensorCore's references (what region 9's proof data take). -/
abbrev V17 : VT F := fun c b => W17 D m c b
/-- A reference `hostOps9` does not write keeps its contents. -/
theorem W17_of (c : Dev nD) (r : Ref sig .tc) (h : r ∉ hostOps9_W) :
    W17 D m c (Proc.devRef .tc r) = W16 D m c (Proc.devRef .tc r) :=
  StableHlo.after_of_writes_sub hostOps9 _ hostOps9_writes h

/-- At region 9's exit: its arrays at what the pipeline leaves, every other buffer as entered. -/
def W18 (c : Dev nD) : Valuation τ sig (Elt F) :=
  Pipeline.withArrays spec9 c (W17 D m c) fun w => (D.r9.dat (V17 D m) c).arrAt w cfg9.N
theorem W18_arr (c : Dev nD) (w : Fin cfg9.W) :
    W18 D m c (Proc.devRef .tc (Pipeline.arrRef spec9 w)) = (D.r9.dat (V17 D m) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 D m c (Proc.devRef .tc b) = W17 D m c (Proc.devRef .tc b) := by
  unfold W18; exact Pipeline.withArrays_of_ne spec9 c _ _ b hb
/-- The same read at the TensorCore's references (region 9's exit contents). -/
abbrev V18 : VT F := fun c b => W18 D m c b
/-- At region 9's exit each of its arrays holds what the pipeline leaves and every other buffer what it held at entry. -/
theorem hF9 (c : Dev nD) (w : Fin cfg9.W) : (D.r9.dat (V17 D m) c).arrAt w cfg9.N = V18 D m c (Pipeline.arrRef spec9 w) :=
  (W18_arr D m c w).symm
theorem hrest9 (c : Dev nD) : ∀ b, b ∉ Finset.univ.image (Pipeline.arrRef spec9) → V18 D m c b = V17 D m c b :=
  fun b hb => W18_of_ne D m c b fun w e => hb (Finset.mem_image.mpr ⟨w, Finset.mem_univ _, e⟩)
/-- An input window's array is left as entered. -/
theorem W18_in (c : Dev nD) (w : Fin cfg9.W) (hin : (cfg9.win w).isOut = false) :
    W18 D m c (Proc.devRef .tc (Pipeline.arrRef spec9 w)) = W17 D m c (Proc.devRef .tc (Pipeline.arrRef spec9 w)) :=
  (W18_arr D m c w).trans (((D.r9.dat (V17 D m) c).arrAt_in w hin _).trans (D.r9.hA (V17 D m) c w))

/-- After `hostOps10` (region 10's entry). -/
abbrev W19 : Dev nD → Valuation τ sig (Elt F) := fun c => StableHlo.after hostOps10 (W18 D m c)
/-- The same read at the TensorCore's references (what region 10's proof data take). -/
abbrev V19 : VT F := fun c b => W19 D m c b
/-- A reference `hostOps10` does not write keeps its contents. -/
theorem W19_of (c : Dev nD) (r : Ref sig .tc) (h : r ∉ hostOps10_W) :
    W19 D m c (Proc.devRef .tc r) = W18 D m c (Proc.devRef .tc r) :=
  StableHlo.after_of_writes_sub hostOps10 _ hostOps10_writes h

/-- At region 10's exit: its arrays at what the pipeline leaves, every other buffer as entered. -/
def W20 (c : Dev nD) : Valuation τ sig (Elt F) :=
  Pipeline.withArrays spec10 c (W19 D m c) fun w => (D.r10.dat (V19 D m) c).arrAt w cfg10.N
theorem W20_arr (c : Dev nD) (w : Fin cfg10.W) :
    W20 D m c (Proc.devRef .tc (Pipeline.arrRef spec10 w)) = (D.r10.dat (V19 D m) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 D m c (Proc.devRef .tc b) = W19 D m c (Proc.devRef .tc b) := by
  unfold W20; exact Pipeline.withArrays_of_ne spec10 c _ _ b hb
/-- The same read at the TensorCore's references (region 10's exit contents). -/
abbrev V20 : VT F := fun c b => W20 D m c b
/-- At region 10's exit each of its arrays holds what the pipeline leaves and every other buffer what it held at entry. -/
theorem hF10 (c : Dev nD) (w : Fin cfg10.W) : (D.r10.dat (V19 D m) c).arrAt w cfg10.N = V20 D m c (Pipeline.arrRef spec10 w) :=
  (W20_arr D m c w).symm
theorem hrest10 (c : Dev nD) : ∀ b, b ∉ Finset.univ.image (Pipeline.arrRef spec10) → V20 D m c b = V19 D m c b :=
  fun b hb => W20_of_ne D m c b fun w e => hb (Finset.mem_image.mpr ⟨w, Finset.mem_univ _, e⟩)
/-- An input window's array is left as entered. -/
theorem W20_in (c : Dev nD) (w : Fin cfg10.W) (hin : (cfg10.win w).isOut = false) :
    W20 D m c (Proc.devRef .tc (Pipeline.arrRef spec10 w)) = W19 D m c (Proc.devRef .tc (Pipeline.arrRef spec10 w)) :=
  (W20_arr D m c w).trans (((D.r10.dat (V19 D m) c).arrAt_in w hin _).trans (D.r10.hA (V19 D m) c w))

/-- After `hostOps11` (region 11's entry). -/
abbrev W21 : Dev nD → Valuation τ sig (Elt F) := fun c => StableHlo.after hostOps11 (W20 D m c)
/-- The same read at the TensorCore's references (what region 11's proof data take). -/
abbrev V21 : VT F := fun c b => W21 D m c b
/-- A reference `hostOps11` does not write keeps its contents. -/
theorem W21_of (c : Dev nD) (r : Ref sig .tc) (h : r ∉ hostOps11_W) :
    W21 D m c (Proc.devRef .tc r) = W20 D m c (Proc.devRef .tc r) :=
  StableHlo.after_of_writes_sub hostOps11 _ hostOps11_writes h

/-- At region 11's exit: its arrays at what the pipeline leaves, every other buffer as entered. -/
def W22 (c : Dev nD) : Valuation τ sig (Elt F) :=
  Pipeline.withArrays spec11 c (W21 D m c) fun w => (D.r11.dat (V21 D m) c).arrAt w cfg11.N
theorem W22_arr (c : Dev nD) (w : Fin cfg11.W) :
    W22 D m c (Proc.devRef .tc (Pipeline.arrRef spec11 w)) = (D.r11.dat (V21 D m) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 D m c (Proc.devRef .tc b) = W21 D m c (Proc.devRef .tc b) := by
  unfold W22; exact Pipeline.withArrays_of_ne spec11 c _ _ b hb
/-- The same read at the TensorCore's references (region 11's exit contents). -/
abbrev V22 : VT F := fun c b => W22 D m c b
/-- At region 11's exit each of its arrays holds what the pipeline leaves and every other buffer what it held at entry. -/
theorem hF11 (c : Dev nD) (w : Fin cfg11.W) : (D.r11.dat (V21 D m) c).arrAt w cfg11.N = V22 D m c (Pipeline.arrRef spec11 w) :=
  (W22_arr D m c w).symm
theorem hrest11 (c : Dev nD) : ∀ b, b ∉ Finset.univ.image (Pipeline.arrRef spec11) → V22 D m c b = V21 D m c b :=
  fun b hb => W22_of_ne D m c b fun w e => hb (Finset.mem_image.mpr ⟨w, Finset.mem_univ _, e⟩)
/-- An input window's array is left as entered. -/
theorem W22_in (c : Dev nD) (w : Fin cfg11.W) (hin : (cfg11.win w).isOut = false) :
    W22 D m c (Proc.devRef .tc (Pipeline.arrRef spec11 w)) = W21 D m c (Proc.devRef .tc (Pipeline.arrRef spec11 w)) :=
  (W22_arr D m c w).trans (((D.r11.dat (V21 D m) c).arrAt_in w hin _).trans (D.r11.hA (V21 D m) c w))

/-- After `hostOps12` (region 12's entry). -/
abbrev W23 : Dev nD → Valuation τ sig (Elt F) := fun c => StableHlo.after hostOps12 (W22 D m c)
/-- The same read at the TensorCore's references (what region 12's proof data take). -/
abbrev V23 : VT F := fun c b => W23 D m c b
/-- A reference `hostOps12` does not write keeps its contents. -/
theorem W23_of (c : Dev nD) (r : Ref sig .tc) (h : r ∉ hostOps12_W) :
    W23 D m c (Proc.devRef .tc r) = W22 D m c (Proc.devRef .tc r) :=
  StableHlo.after_of_writes_sub hostOps12 _ hostOps12_writes h

/-- At region 12's exit: its arrays at what the pipeline leaves, every other buffer as entered. -/
def W24 (c : Dev nD) : Valuation τ sig (Elt F) :=
  Pipeline.withArrays spec12 c (W23 D m c) fun w => (D.r12.dat (V23 D m) c).arrAt w cfg12.N
theorem W24_arr (c : Dev nD) (w : Fin cfg12.W) :
    W24 D m c (Proc.devRef .tc (Pipeline.arrRef spec12 w)) = (D.r12.dat (V23 D m) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 D m c (Proc.devRef .tc b) = W23 D m c (Proc.devRef .tc b) := by
  unfold W24; exact Pipeline.withArrays_of_ne spec12 c _ _ b hb
/-- The same read at the TensorCore's references (region 12's exit contents). -/
abbrev V24 : VT F := fun c b => W24 D m c b
/-- At region 12's exit each of its arrays holds what the pipeline leaves and every other buffer what it held at entry. -/
theorem hF12 (c : Dev nD) (w : Fin cfg12.W) : (D.r12.dat (V23 D m) c).arrAt w cfg12.N = V24 D m c (Pipeline.arrRef spec12 w) :=
  (W24_arr D m c w).symm
theorem hrest12 (c : Dev nD) : ∀ b, b ∉ Finset.univ.image (Pipeline.arrRef spec12) → V24 D m c b = V23 D m c b :=
  fun b hb => W24_of_ne D m c b fun w e => hb (Finset.mem_image.mpr ⟨w, Finset.mem_univ _, e⟩)
/-- An input window's array is left as entered. -/
theorem W24_in (c : Dev nD) (w : Fin cfg12.W) (hin : (cfg12.win w).isOut = false) :
    W24 D m c (Proc.devRef .tc (Pipeline.arrRef spec12 w)) = W23 D m c (Proc.devRef .tc (Pipeline.arrRef spec12 w)) :=
  (W24_arr D m c w).trans (((D.r12.dat (V23 D m) c).arrAt_in w hin _).trans (D.r12.hA (V23 D m) c w))

/-- After `hostOps13` (region 13's entry). -/
abbrev W25 : Dev nD → Valuation τ sig (Elt F) := fun c => StableHlo.after hostOps13 (W24 D m c)
/-- The same read at the TensorCore's references (what region 13's proof data take). -/
abbrev V25 : VT F := fun c b => W25 D m c b
/-- A reference `hostOps13` does not write keeps its contents. -/
theorem W25_of (c : Dev nD) (r : Ref sig .tc) (h : r ∉ hostOps13_W) :
    W25 D m c (Proc.devRef .tc r) = W24 D m c (Proc.devRef .tc r) :=
  StableHlo.after_of_writes_sub hostOps13 _ hostOps13_writes h

/-- At region 13's exit: its arrays at what the pipeline leaves, every other buffer as entered. -/
def W26 (c : Dev nD) : Valuation τ sig (Elt F) :=
  Pipeline.withArrays spec13 c (W25 D m c) fun w => (D.r13.dat (V25 D m) c).arrAt w cfg13.N
theorem W26_arr (c : Dev nD) (w : Fin cfg13.W) :
    W26 D m c (Proc.devRef .tc (Pipeline.arrRef spec13 w)) = (D.r13.dat (V25 D m) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 D m c (Proc.devRef .tc b) = W25 D m c (Proc.devRef .tc b) := by
  unfold W26; exact Pipeline.withArrays_of_ne spec13 c _ _ b hb
/-- The same read at the TensorCore's references (region 13's exit contents). -/
abbrev V26 : VT F := fun c b => W26 D m c b
/-- At region 13's exit each of its arrays holds what the pipeline leaves and every other buffer what it held at entry. -/
theorem hF13 (c : Dev nD) (w : Fin cfg13.W) : (D.r13.dat (V25 D m) c).arrAt w cfg13.N = V26 D m c (Pipeline.arrRef spec13 w) :=
  (W26_arr D m c w).symm
theorem hrest13 (c : Dev nD) : ∀ b, b ∉ Finset.univ.image (Pipeline.arrRef spec13) → V26 D m c b = V25 D m c b :=
  fun b hb => W26_of_ne D m c b fun w e => hb (Finset.mem_image.mpr ⟨w, Finset.mem_univ _, e⟩)
/-- An input window's array is left as entered. -/
theorem W26_in (c : Dev nD) (w : Fin cfg13.W) (hin : (cfg13.win w).isOut = false) :
    W26 D m c (Proc.devRef .tc (Pipeline.arrRef spec13 w)) = W25 D m c (Proc.devRef .tc (Pipeline.arrRef spec13 w)) :=
  (W26_arr D m c w).trans (((D.r13.dat (V25 D m) c).arrAt_in w hin _).trans (D.r13.hA (V25 D m) c w))

/-- The program's result: region 13's output window, as its write-backs leave it. -/
theorem W26_result (c : Dev nD) :
    W26 D m c (Proc.devRef .tc main_v185) = (D.r13.dat (V25 D m) c).arrAt 9 cfg13.N := W26_arr D m c 9

end Cert.Kernel.Reg

end
-- ==== Proof.K.RunRegs.lean ====
import proofs.«178590_j59433757442359_2_alg».proof.Proof.K.RunFold

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The proof data family and the thread state -/

/-- Every pipeline's proof data, each at its region's entry contents — a literal `match`, so that the pinned
    configuration at a numeral reduces to the printed one. -/
def pdats : (p : Fin 14) → (c : Dev nD) → Dat τ (Elt F) Unit ℕ (UR sig nD τ) ℕ (Pipeline.pin (pcfgs (F := F)) adm p) c
  | ⟨0, _⟩ => fun c => D.r0.dat (V0 m) c
  | ⟨1, _⟩ => fun c => D.r1.dat (V1 D m) c
  | ⟨2, _⟩ => fun c => D.r2.dat (V3 D m) c
  | ⟨3, _⟩ => fun c => D.r3.dat (V5 D m) c
  | ⟨4, _⟩ => fun c => D.r4.dat (V7 D m) c
  | ⟨5, _⟩ => fun c => D.r5.dat (V9 D m) c
  | ⟨6, _⟩ => fun c => D.r6.dat (V11 D m) c
  | ⟨7, _⟩ => fun c => D.r7.dat (V13 D m) c
  | ⟨8, _⟩ => fun c => D.r8.dat (V15 D m) c
  | ⟨9, _⟩ => fun c => D.r9.dat (V17 D m) c
  | ⟨10, _⟩ => fun c => D.r10.dat (V19 D m) c
  | ⟨11, _⟩ => fun c => D.r11.dat (V21 D m) c
  | ⟨12, _⟩ => fun c => D.r12.dat (V23 D m) c
  | ⟨13, _⟩ => fun c => D.r13.dat (V25 D m) c
  | ⟨_ + 14, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its `post` is
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A core owing nothing, whatever pairs its waits have recorded, is what proof data that owe nothing at the first
    point and bound the recorded pairs by nothing take in. -/
theorem owesAt_in {cfg : Pipeline.Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr
  · ipureintro; exact fun x _ => Or.inl (by rw [hr]; exact Set.mem_univ x)
  iexact HO
/-- Proof data that owe nothing at the last point give back a core owing nothing. -/
theorem owesAt_out {cfg : Pipeline.Cfg sig Λ₀} {c : Dev nD} (dat : Dat τ (Elt F) Unit ℕ (UR sig nD τ) ℕ cfg c)
    (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W26`, the
    generator register at some state. -/
abbrev Tₙ (c : Dev nD) : sProp 𝕄 := iprop(StableHlo.held (c : Thread nD τ) (Pipeline.ucRefs τ sig) (W26 D m c) ∗ ∃ r, prngReg c r)

end Cert.Kernel.Reg

end
-- ==== Proof.K.RunRegsA.lean ====
import proofs.«178590_j59433757442359_2_alg».proof.Proof.K.RunRegs

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 0 (custom_call 0) over the thread state: entered from every unscoped buffer at `W0`, left at `W1`.
    Its arrays split out of the unscoped buffers and put back at the exit contents; the generator register and the
    scoped rest into the region's invariant (through the class's) and out; nothing owed; no semaphore of the kernel's own. -/
def reg0 : Pipeline.RegionSeg (pcfgs (F := F)) adm (pdats D m) () defs₀ 𝒱₀ L lv 0 where
  win := launch0.win.to₀
  block_pos := launch0.block_pos
  stage_whole := launch0.stage_whole
  K := PEmpty
  osem k := k.elim
  ho := Pipeline.OwnSemFacts.none _
  hbody c := (D.r0.hbody (V0 m) c).loose
  hwaits := Pipeline.hwaits_of_owed_zero _ _ _ _ L lv 0 fun c t => D.r0.howed (V0 m) c t
  pre c := iprop(StableHlo.held (c : Thread nD τ) (Pipeline.ucRefs τ sig) (W0 m c) ∗ R c)
  post c := iprop(StableHlo.held (c : Thread nD τ) (Pipeline.ucRefs τ sig) (W1 D m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats D m) launch0.win launch0.arr_whole c
      ((pdats D m 0 c).share_full fun w => D.r0.hq (V0 m) c w) (V0 m c) fun w => D.r0.hA (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 0 c) (D.r0.howed (V0 m) c 0) (D.r0.hrec (V0 m) c))
      iexact HO
    isplitl [Hp]; · iexact Hp
    iexact Hrest
  hin c := by
    refine BIBase.Entails.trans ?_ (D.r0.hin (V0 m) c)
    unfold Pipeline.ΦA
    iintro ⟨Hp, -, Hr⟩
    isplitl [Hr]; · iexact Hr
    iexact Hp
  hout c := by
    rw [Pipeline.ownSems0_none]
    refine BIBase.Entails.trans (D.r0.hout (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D m) ((pdats D m 0 c).share_full fun w => D.r0.hq (V0 m) c w)
      (V0 m c) (V1 D m c) ((pdats D m 0 c).arrAt · cfg0.N) (hF0 D m c) (hrest0 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 0 c) (D.r0.howed (V0 m) c _))
    iexact HO

-- `iapply` of a library lemma stated over the pinned configuration unifies with the printed one only when
-- unification may unfold plain definitions in a metavariable's type
set_option backward.isDefEq.respectTransparency.types false in
/-- REGION 1 (custom_call 1) over the thread state: entered from every unscoped buffer at `W1`, left at `W2`.
    Its arrays split out of the unscoped buffers and put back at the exit contents; the generator register and the
    scoped rest into the region's invariant (through the class's) and out; nothing owed; no semaphore of the kernel's own. -/
def reg1 : Pipeline.RegionSeg (pcfgs (F := F)) adm (pdats D m) () defs₀ 𝒱₀ L lv 1 where
  win := launch1.win.to₀
  block_pos := launch1.block_pos
  stage_whole := launch1.stage_whole
  K := PEmpty
  osem k := k.elim
  ho := Pipeline.OwnSemFacts.none _
  hbody c := (D.r1.hbody (V1 D m) c).loose
  hwaits := Pipeline.hwaits_of_owed_zero _ _ _ _ L lv 1 fun c t => D.r1.howed (V1 D m) c t
  pre c := iprop(StableHlo.held (c : Thread nD τ) (Pipeline.ucRefs τ sig) (W1 D m c) ∗ R c)
  post c := iprop(StableHlo.held (c : Thread nD τ) (Pipeline.ucRefs τ sig) (W2 D m c) ∗ R c)
  X c := iprop(∃ r, prngReg c r)
  Y c := iprop(∃ r, prngReg c r)
  Z c := Pipeline.unscopedRest (Ix := Unit) (Name := ℕ) (U := UR sig nD τ) (Lvl := ℕ) spec1 c (V1 D m c)
  hentry c := by
    rw [Pipeline.ownSems0_none]
    have hsplit := Pipeline.arrays_of_unscopedBufs (p := 1) (pcfgs (F := F)) adm (pdats D m) launch1.win launch1.arr_whole c
      ((pdats D m 1 c).share_full fun w => D.r1.hq (V1 D m) c w) (V1 D m c) fun w => D.r1.hA (V1 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 1 c) (D.r1.howed (V1 D m) c 0) (D.r1.hrec (V1 D m) c))
      iexact HO
    isplitl [Hp]; · iexact Hp
    iexact Hrest
  hin c := by
    refine BIBase.Entails.trans ?_ (D.r1.hin (V1 D m) c)
    unfold Pipeline.ΦA
    iintro ⟨Hp, -, Hr⟩
    isplitl [Hr]; · iexact Hr
    iexact Hp
  hout c := by
    rw [Pipeline.ownSems0_none]
    refine BIBase.Entails.trans (D.r1.hout (V1 D m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D m) ((pdats D m 1 c).share_full fun w => D.r1.hq (V1 D m) c w)
      (V1 D m c) (V2 D m c) ((pdats D m 1 c).arrAt · cfg1.N) (hF1 D m c) (hrest1 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 1 c) (D.r1.howed (V1 D m) c _))
    iexact HO

-- `iapply` of a library lemma stated over the pinned configuration unifies with the printed one only when
-- unification may unfold plain definitions in a metavariable's type
set_option backward.isDefEq.respectTransparency.types false in
/-- REGION 2 (custom_call 2) over the thread state: entered from every unscoped buffer at `W3`, left at `W4`.
    Its arrays split out of the unscoped buffers and put back at the exit contents; the generator register and the
    scoped rest into the region's invariant (through the class's) and out; nothing owed; no semaphore of the kernel's own. -/
def reg2 : Pipeline.RegionSeg (pcfgs (F := F)) adm (pdats D m) () defs₀ 𝒱₀ L lv 2 where
  win := launch2.win.to₀
  block_pos := launch2.block_pos
  stage_whole := launch2.stage_whole
  K := PEmpty
  osem k := k.elim
  ho := Pipeline.OwnSemFacts.none _
  hbody c := (D.r2.hbody (V3 D m) c).loose
  hwaits := Pipeline.hwaits_of_owed_zero _ _ _ _ L lv 2 fun c t => D.r2.howed (V3 D m) c t
  pre c := iprop(StableHlo.held (c : Thread nD τ) (Pipeline.ucRefs τ sig) (W3 D m c) ∗ R c)
  post c := iprop(StableHlo.held (c : Thread nD τ) (Pipeline.ucRefs τ sig) (W4 D m c) ∗ R c)
  X c := iprop(∃ r, prngReg c r)
  Y c := iprop(∃ r, prngReg c r)
  Z c := Pipeline.unscopedRest (Ix := Unit) (Name := ℕ) (U := UR sig nD τ) (Lvl := ℕ) spec2 c (V3 D m c)
  hentry c := by
    rw [Pipeline.ownSems0_none]
    have hsplit := Pipeline.arrays_of_unscopedBufs (p := 2) (pcfgs (F := F)) adm (pdats D m) launch2.win launch2.arr_whole c
      ((pdats D m 2 c).share_full fun w => D.r2.hq (V3 D m) c w) (V3 D m c) fun w => D.r2.hA (V3 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 2 c) (D.r2.howed (V3 D m) c 0) (D.r2.hrec (V3 D m) c))
      iexact HO
    isplitl [Hp]; · iexact Hp
    iexact Hrest
  hin c := by
    refine BIBase.Entails.trans ?_ (D.r2.hin (V3 D m) c)
    unfold Pipeline.ΦA
    iintro ⟨Hp, -, Hr⟩
    isplitl [Hr]; · iexact Hr
    iexact Hp
  hout c := by
    rw [Pipeline.ownSems0_none]
    refine BIBase.Entails.trans (D.r2.hout (V3 D m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D m) ((pdats D m 2 c).share_full fun w => D.r2.hq (V3 D m) c w)
      (V3 D m c) (V4 D m c) ((pdats D m 2 c).arrAt · cfg2.N) (hF2 D m c) (hrest2 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 2 c) (D.r2.howed (V3 D m) c _))
    iexact HO

-- `iapply` of a library lemma stated over the pinned configuration unifies with the printed one only when
-- unification may unfold plain definitions in a metavariable's type
set_option backward.isDefEq.respectTransparency.types false in
/-- REGION 3 (custom_call 3) over the thread state: entered from every unscoped buffer at `W5`, left at `W6`.
    Its arrays split out of the unscoped buffers and put back at the exit contents; the generator register and the
    scoped rest into the region's invariant (through the class's) and out; nothing owed; no semaphore of the kernel's own. -/
def reg3 : Pipeline.RegionSeg (pcfgs (F := F)) adm (pdats D m) () defs₀ 𝒱₀ L lv 3 where
  win := launch3.win.to₀
  block_pos := launch3.block_pos
  stage_whole := launch3.stage_whole
  K := PEmpty
  osem k := k.elim
  ho := Pipeline.OwnSemFacts.none _
  hbody c := (D.r3.hbody (V5 D m) c).loose
  hwaits := Pipeline.hwaits_of_owed_zero _ _ _ _ L lv 3 fun c t => D.r3.howed (V5 D m) c t
  pre c := iprop(StableHlo.held (c : Thread nD τ) (Pipeline.ucRefs τ sig) (W5 D m c) ∗ R c)
  post c := iprop(StableHlo.held (c : Thread nD τ) (Pipeline.ucRefs τ sig) (W6 D m c) ∗ R c)
  X c := iprop(∃ r, prngReg c r)
  Y c := iprop(∃ r, prngReg c r)
  Z c := Pipeline.unscopedRest (Ix := Unit) (Name := ℕ) (U := UR sig nD τ) (Lvl := ℕ) spec3 c (V5 D m c)
  hentry c := by
    rw [Pipeline.ownSems0_none]
    have hsplit := Pipeline.arrays_of_unscopedBufs (p := 3) (pcfgs (F := F)) adm (pdats D m) launch3.win launch3.arr_whole c
      ((pdats D m 3 c).share_full fun w => D.r3.hq (V5 D m) c w) (V5 D m c) fun w => D.r3.hA (V5 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 3 c) (D.r3.howed (V5 D m) c 0) (D.r3.hrec (V5 D m) c))
      iexact HO
    isplitl [Hp]; · iexact Hp
    iexact Hrest
  hin c := by
    refine BIBase.Entails.trans ?_ (D.r3.hin (V5 D m) c)
    unfold Pipeline.ΦA
    iintro ⟨Hp, -, Hr⟩
    isplitl [Hr]; · iexact Hr
    iexact Hp
  hout c := by
    rw [Pipeline.ownSems0_none]
    refine BIBase.Entails.trans (D.r3.hout (V5 D m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats D m) ((pdats D m 3 c).share_full fun w => D.r3.hq (V5 D m) c w)
      (V5 D m c) (V6 D m c) ((pdats D m 3 c).arrAt · cfg3.N) (hF3 D m c) (hrest3 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 3 c) (D.r3.howed (V5 D m) c _))
    iexact HO

end Cert.Kernel.Reg

end
-- ==== Proof.K.RunRegsB.lean ====
import proofs.«178590_j59433757442359_2_alg».proof.Proof.K.RunRegs

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 4 (custom_call 4) over the thread state: entered from every unscoped buffer at `W7`, left at `W8`.
    Its arrays split out of the unscoped buffers and put back at the exit contents; the generator register and the
    scoped rest into the region's invariant (through the class's) and out; nothing owed; no semaphore of the kernel's own. -/
def reg4 : Pipeline.RegionSeg (pcfgs (F := F)) adm (pdats D m) () defs₀ 𝒱₀ L lv 4 where
  win := launch4.win.to₀
  block_pos := launch4.block_pos
  stage_whole := launch4.stage_whole
  K := PEmpty
  osem k := k.elim
  ho := Pipeline.OwnSemFacts.none _
  hbody c := (D.r4.hbody (V7 D m) c).loose
  hwaits := Pipeline.hwaits_of_owed_zero _ _ _ _ L lv 4 fun c t => D.r4.howed (V7 D m) c t
  pre c := iprop(StableHlo.held (c : Thread nD τ) (Pipeline.ucRefs τ sig) (W7 D m c) ∗ R c)
  post c := iprop(StableHlo.held (c : Thread nD τ) (Pipeline.ucRefs τ sig) (W8 D m c) ∗ R c)
  X c := iprop(∃ r, prngReg c r)
  Y c := iprop(∃ r, prngReg c r)
  Z c := Pipeline.unscopedRest (Ix := Unit) (Name := ℕ) (U := UR sig nD τ) (Lvl := ℕ) spec4 c (V7 D m c)
  hentry c := by
    rw [Pipeline.ownSems0_none]
    have hsplit := Pipeline.arrays_of_unscopedBufs (p := 4) (pcfgs (F := F)) adm (pdats D m) launch4.win launch4.arr_whole c
      ((pdats D m 4 c).share_full fun w => D.r4.hq (V7 D m) c w) (V7 D m c) fun w => D.r4.hA (V7 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 4 c) (D.r4.howed (V7 D m) c 0) (D.r4.hrec (V7 D m) c))
      iexact HO
    isplitl [Hp]; · iexact Hp
    iexact Hrest
  hin c := by
    refine BIBase.Entails.trans ?_ (D.r4.hin (V7 D m) c)
    unfold Pipeline.ΦA
    iintro ⟨Hp, -, Hr⟩
    isplitl [Hr]; · iexact Hr
    iexact Hp
  hout c := by
    rw [Pipeline.ownSems0_none]
    refine BIBase.Entails.trans (D.r4.hout (V7 D m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats D m) ((pdats D m 4 c).share_full fun w => D.r4.hq (V7 D m) c w)
      (V7 D m c) (V8 D m c) ((pdats D m 4 c).arrAt · cfg4.N) (hF4 D m c) (hrest4 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 4 c) (D.r4.howed (V7 D m) c _))
    iexact HO

-- `iapply` of a library lemma stated over the pinned configuration unifies with the printed one only when
-- unification may unfold plain definitions in a metavariable's type
set_option backward.isDefEq.respectTransparency.types false in
/-- REGION 5 (custom_call 5) over the thread state: entered from every unscoped buffer at `W9`, left at `W10`.
    Its arrays split out of the unscoped buffers and put back at the exit contents; the generator register and the
    scoped rest into the region's invariant (through the class's) and out; nothing owed; no semaphore of the kernel's own. -/
def reg5 : Pipeline.RegionSeg (pcfgs (F := F)) adm (pdats D m) () defs₀ 𝒱₀ L lv 5 where
  win := launch5.win.to₀
  block_pos := launch5.block_pos
  stage_whole := launch5.stage_whole
  K := PEmpty
  osem k := k.elim
  ho := Pipeline.OwnSemFacts.none _
  hbody c := (D.r5.hbody (V9 D m) c).loose
  hwaits := Pipeline.hwaits_of_owed_zero _ _ _ _ L lv 5 fun c t => D.r5.howed (V9 D m) c t
  pre c := iprop(StableHlo.held (c : Thread nD τ) (Pipeline.ucRefs τ sig) (W9 D m c) ∗ R c)
  post c := iprop(StableHlo.held (c : Thread nD τ) (Pipeline.ucRefs τ sig) (W10 D m c) ∗ R c)
  X c := iprop(∃ r, prngReg c r)
  Y c := iprop(∃ r, prngReg c r)
  Z c := Pipeline.unscopedRest (Ix := Unit) (Name := ℕ) (U := UR sig nD τ) (Lvl := ℕ) spec5 c (V9 D m c)
  hentry c := by
    rw [Pipeline.ownSems0_none]
    have hsplit := Pipeline.arrays_of_unscopedBufs (p := 5) (pcfgs (F := F)) adm (pdats D m) launch5.win launch5.arr_whole c
      ((pdats D m 5 c).share_full fun w => D.r5.hq (V9 D m) c w) (V9 D m c) fun w => D.r5.hA (V9 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 5 c) (D.r5.howed (V9 D m) c 0) (D.r5.hrec (V9 D m) c))
      iexact HO
    isplitl [Hp]; · iexact Hp
    iexact Hrest
  hin c := by
    refine BIBase.Entails.trans ?_ (D.r5.hin (V9 D m) c)
    unfold Pipeline.ΦA
    iintro ⟨Hp, -, Hr⟩
    isplitl [Hr]; · iexact Hr
    iexact Hp
  hout c := by
    rw [Pipeline.ownSems0_none]
    refine BIBase.Entails.trans (D.r5.hout (V9 D m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats D m) ((pdats D m 5 c).share_full fun w => D.r5.hq (V9 D m) c w)
      (V9 D m c) (V10 D m c) ((pdats D m 5 c).arrAt · cfg5.N) (hF5 D m c) (hrest5 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 5 c) (D.r5.howed (V9 D m) c _))
    iexact HO

-- `iapply` of a library lemma stated over the pinned configuration unifies with the printed one only when
-- unification may unfold plain definitions in a metavariable's type
set_option backward.isDefEq.respectTransparency.types false in
/-- REGION 6 (custom_call 6) over the thread state: entered from every unscoped buffer at `W11`, left at `W12`.
    Its arrays split out of the unscoped buffers and put back at the exit contents; the generator register and the
    scoped rest into the region's invariant (through the class's) and out; nothing owed; no semaphore of the kernel's own. -/
def reg6 : Pipeline.RegionSeg (pcfgs (F := F)) adm (pdats D m) () defs₀ 𝒱₀ L lv 6 where
  win := launch6.win.to₀
  block_pos := launch6.block_pos
  stage_whole := launch6.stage_whole
  K := PEmpty
  osem k := k.elim
  ho := Pipeline.OwnSemFacts.none _
  hbody c := (D.r6.hbody (V11 D m) c).loose
  hwaits := Pipeline.hwaits_of_owed_zero _ _ _ _ L lv 6 fun c t => D.r6.howed (V11 D m) c t
  pre c := iprop(StableHlo.held (c : Thread nD τ) (Pipeline.ucRefs τ sig) (W11 D m c) ∗ R c)
  post c := iprop(StableHlo.held (c : Thread nD τ) (Pipeline.ucRefs τ sig) (W12 D m c) ∗ R c)
  X c := iprop(∃ r, prngReg c r)
  Y c := iprop(∃ r, prngReg c r)
  Z c := Pipeline.unscopedRest (Ix := Unit) (Name := ℕ) (U := UR sig nD τ) (Lvl := ℕ) spec6 c (V11 D m c)
  hentry c := by
    rw [Pipeline.ownSems0_none]
    have hsplit := Pipeline.arrays_of_unscopedBufs (p := 6) (pcfgs (F := F)) adm (pdats D m) launch6.win launch6.arr_whole c
      ((pdats D m 6 c).share_full fun w => D.r6.hq (V11 D m) c w) (V11 D m c) fun w => D.r6.hA (V11 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 6 c) (D.r6.howed (V11 D m) c 0) (D.r6.hrec (V11 D m) c))
      iexact HO
    isplitl [Hp]; · iexact Hp
    iexact Hrest
  hin c := by
    refine BIBase.Entails.trans ?_ (D.r6.hin (V11 D m) c)
    unfold Pipeline.ΦA
    iintro ⟨Hp, -, Hr⟩
    isplitl [Hr]; · iexact Hr
    iexact Hp
  hout c := by
    rw [Pipeline.ownSems0_none]
    refine BIBase.Entails.trans (D.r6.hout (V11 D m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats D m) ((pdats D m 6 c).share_full fun w => D.r6.hq (V11 D m) c w)
      (V11 D m c) (V12 D m c) ((pdats D m 6 c).arrAt · cfg6.N) (hF6 D m c) (hrest6 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 6 c) (D.r6.howed (V11 D m) c _))
    iexact HO

-- `iapply` of a library lemma stated over the pinned configuration unifies with the printed one only when
-- unification may unfold plain definitions in a metavariable's type
set_option backward.isDefEq.respectTransparency.types false in
/-- REGION 7 (custom_call 7) over the thread state: entered from every unscoped buffer at `W13`, left at `W14`.
    Its arrays split out of the unscoped buffers and put back at the exit contents; the generator register and the
    scoped rest into the region's invariant (through the class's) and out; nothing owed; no semaphore of the kernel's own. -/
def reg7 : Pipeline.RegionSeg (pcfgs (F := F)) adm (pdats D m) () defs₀ 𝒱₀ L lv 7 where
  win := launch7.win.to₀
  block_pos := launch7.block_pos
  stage_whole := launch7.stage_whole
  K := PEmpty
  osem k := k.elim
  ho := Pipeline.OwnSemFacts.none _
  hbody c := (D.r7.hbody (V13 D m) c).loose
  hwaits := Pipeline.hwaits_of_owed_zero _ _ _ _ L lv 7 fun c t => D.r7.howed (V13 D m) c t
  pre c := iprop(StableHlo.held (c : Thread nD τ) (Pipeline.ucRefs τ sig) (W13 D m c) ∗ R c)
  post c := iprop(StableHlo.held (c : Thread nD τ) (Pipeline.ucRefs τ sig) (W14 D m c) ∗ R c)
  X c := iprop(∃ r, prngReg c r)
  Y c := iprop(∃ r, prngReg c r)
  Z c := Pipeline.unscopedRest (Ix := Unit) (Name := ℕ) (U := UR sig nD τ) (Lvl := ℕ) spec7 c (V13 D m c)
  hentry c := by
    rw [Pipeline.ownSems0_none]
    have hsplit := Pipeline.arrays_of_unscopedBufs (p := 7) (pcfgs (F := F)) adm (pdats D m) launch7.win launch7.arr_whole c
      ((pdats D m 7 c).share_full fun w => D.r7.hq (V13 D m) c w) (V13 D m c) fun w => D.r7.hA (V13 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 7 c) (D.r7.howed (V13 D m) c 0) (D.r7.hrec (V13 D m) c))
      iexact HO
    isplitl [Hp]; · iexact Hp
    iexact Hrest
  hin c := by
    refine BIBase.Entails.trans ?_ (D.r7.hin (V13 D m) c)
    unfold Pipeline.ΦA
    iintro ⟨Hp, -, Hr⟩
    isplitl [Hr]; · iexact Hr
    iexact Hp
  hout c := by
    rw [Pipeline.ownSems0_none]
    refine BIBase.Entails.trans (D.r7.hout (V13 D m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats D m) ((pdats D m 7 c).share_full fun w => D.r7.hq (V13 D m) c w)
      (V13 D m c) (V14 D m c) ((pdats D m 7 c).arrAt · cfg7.N) (hF7 D m c) (hrest7 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 7 c) (D.r7.howed (V13 D m) c _))
    iexact HO

end Cert.Kernel.Reg

end
-- ==== Proof.K.RunRegsC.lean ====
import proofs.«178590_j59433757442359_2_alg».proof.Proof.K.RunRegs

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 8 (custom_call 8) over the thread state: entered from every unscoped buffer at `W15`, left at `W16`.
    Its arrays split out of the unscoped buffers and put back at the exit contents; the generator register and the
    scoped rest into the region's invariant (through the class's) and out; nothing owed; no semaphore of the kernel's own. -/
def reg8 : Pipeline.RegionSeg (pcfgs (F := F)) adm (pdats D m) () defs₀ 𝒱₀ L lv 8 where
  win := launch8.win.to₀
  block_pos := launch8.block_pos
  stage_whole := launch8.stage_whole
  K := PEmpty
  osem k := k.elim
  ho := Pipeline.OwnSemFacts.none _
  hbody c := (D.r8.hbody (V15 D m) c).loose
  hwaits := Pipeline.hwaits_of_owed_zero _ _ _ _ L lv 8 fun c t => D.r8.howed (V15 D m) c t
  pre c := iprop(StableHlo.held (c : Thread nD τ) (Pipeline.ucRefs τ sig) (W15 D m c) ∗ R c)
  post c := iprop(StableHlo.held (c : Thread nD τ) (Pipeline.ucRefs τ sig) (W16 D m c) ∗ R c)
  X c := iprop(∃ r, prngReg c r)
  Y c := iprop(∃ r, prngReg c r)
  Z c := Pipeline.unscopedRest (Ix := Unit) (Name := ℕ) (U := UR sig nD τ) (Lvl := ℕ) spec8 c (V15 D m c)
  hentry c := by
    rw [Pipeline.ownSems0_none]
    have hsplit := Pipeline.arrays_of_unscopedBufs (p := 8) (pcfgs (F := F)) adm (pdats D m) launch8.win launch8.arr_whole c
      ((pdats D m 8 c).share_full fun w => D.r8.hq (V15 D m) c w) (V15 D m c) fun w => D.r8.hA (V15 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 8 c) (D.r8.howed (V15 D m) c 0) (D.r8.hrec (V15 D m) c))
      iexact HO
    isplitl [Hp]; · iexact Hp
    iexact Hrest
  hin c := by
    refine BIBase.Entails.trans ?_ (D.r8.hin (V15 D m) c)
    unfold Pipeline.ΦA
    iintro ⟨Hp, -, Hr⟩
    isplitl [Hr]; · iexact Hr
    iexact Hp
  hout c := by
    rw [Pipeline.ownSems0_none]
    refine BIBase.Entails.trans (D.r8.hout (V15 D m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats D m) ((pdats D m 8 c).share_full fun w => D.r8.hq (V15 D m) c w)
      (V15 D m c) (V16 D m c) ((pdats D m 8 c).arrAt · cfg8.N) (hF8 D m c) (hrest8 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 8 c) (D.r8.howed (V15 D m) c _))
    iexact HO

-- `iapply` of a library lemma stated over the pinned configuration unifies with the printed one only when
-- unification may unfold plain definitions in a metavariable's type
set_option backward.isDefEq.respectTransparency.types false in
/-- REGION 9 (custom_call 9) over the thread state: entered from every unscoped buffer at `W17`, left at `W18`.
    Its arrays split out of the unscoped buffers and put back at the exit contents; the generator register and the
    scoped rest into the region's invariant (through the class's) and out; nothing owed; no semaphore of the kernel's own. -/
def reg9 : Pipeline.RegionSeg (pcfgs (F := F)) adm (pdats D m) () defs₀ 𝒱₀ L lv 9 where
  win := launch9.win.to₀
  block_pos := launch9.block_pos
  stage_whole := launch9.stage_whole
  K := PEmpty
  osem k := k.elim
  ho := Pipeline.OwnSemFacts.none _
  hbody c := (D.r9.hbody (V17 D m) c).loose
  hwaits := Pipeline.hwaits_of_owed_zero _ _ _ _ L lv 9 fun c t => D.r9.howed (V17 D m) c t
  pre c := iprop(StableHlo.held (c : Thread nD τ) (Pipeline.ucRefs τ sig) (W17 D m c) ∗ R c)
  post c := iprop(StableHlo.held (c : Thread nD τ) (Pipeline.ucRefs τ sig) (W18 D m c) ∗ R c)
  X c := iprop(∃ r, prngReg c r)
  Y c := iprop(∃ r, prngReg c r)
  Z c := Pipeline.unscopedRest (Ix := Unit) (Name := ℕ) (U := UR sig nD τ) (Lvl := ℕ) spec9 c (V17 D m c)
  hentry c := by
    rw [Pipeline.ownSems0_none]
    have hsplit := Pipeline.arrays_of_unscopedBufs (p := 9) (pcfgs (F := F)) adm (pdats D m) launch9.win launch9.arr_whole c
      ((pdats D m 9 c).share_full fun w => D.r9.hq (V17 D m) c w) (V17 D m c) fun w => D.r9.hA (V17 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 9 c) (D.r9.howed (V17 D m) c 0) (D.r9.hrec (V17 D m) c))
      iexact HO
    isplitl [Hp]; · iexact Hp
    iexact Hrest
  hin c := by
    refine BIBase.Entails.trans ?_ (D.r9.hin (V17 D m) c)
    unfold Pipeline.ΦA
    iintro ⟨Hp, -, Hr⟩
    isplitl [Hr]; · iexact Hr
    iexact Hp
  hout c := by
    rw [Pipeline.ownSems0_none]
    refine BIBase.Entails.trans (D.r9.hout (V17 D m) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats D m) ((pdats D m 9 c).share_full fun w => D.r9.hq (V17 D m) c w)
      (V17 D m c) (V18 D m c) ((pdats D m 9 c).arrAt · cfg9.N) (hF9 D m c) (hrest9 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 9 c) (D.r9.howed (V17 D m) c _))
    iexact HO

-- `iapply` of a library lemma stated over the pinned configuration unifies with the printed one only when
-- unification may unfold plain definitions in a metavariable's type
set_option backward.isDefEq.respectTransparency.types false in
/-- REGION 10 (custom_call 10) over the thread state: entered from every unscoped buffer at `W19`, left at `W20`.
    Its arrays split out of the unscoped buffers and put back at the exit contents; the generator register and the
    scoped rest into the region's invariant (through the class's) and out; nothing owed; no semaphore of the kernel's own. -/
def reg10 : Pipeline.RegionSeg (pcfgs (F := F)) adm (pdats D m) () defs₀ 𝒱₀ L lv 10 where
  win := launch10.win.to₀
  block_pos := launch10.block_pos
  stage_whole := launch10.stage_whole
  K := PEmpty
  osem k := k.elim
  ho := Pipeline.OwnSemFacts.none _
  hbody c := (D.r10.hbody (V19 D m) c).loose
  hwaits := Pipeline.hwaits_of_owed_zero _ _ _ _ L lv 10 fun c t => D.r10.howed (V19 D m) c t
  pre c := iprop(StableHlo.held (c : Thread nD τ) (Pipeline.ucRefs τ sig) (W19 D m c) ∗ R c)
  post c := iprop(StableHlo.held (c : Thread nD τ) (Pipeline.ucRefs τ sig) (W20 D m c) ∗ R c)
  X c := iprop(∃ r, prngReg c r)
  Y c := iprop(∃ r, prngReg c r)
  Z c := Pipeline.unscopedRest (Ix := Unit) (Name := ℕ) (U := UR sig nD τ) (Lvl := ℕ) spec10 c (V19 D m c)
  hentry c := by
    rw [Pipeline.ownSems0_none]
    have hsplit := Pipeline.arrays_of_unscopedBufs (p := 10) (pcfgs (F := F)) adm (pdats D m) launch10.win launch10.arr_whole c
      ((pdats D m 10 c).share_full fun w => D.r10.hq (V19 D m) c w) (V19 D m c) fun w => D.r10.hA (V19 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 10 c) (D.r10.howed (V19 D m) c 0) (D.r10.hrec (V19 D m) c))
      iexact HO
    isplitl [Hp]; · iexact Hp
    iexact Hrest
  hin c := by
    refine BIBase.Entails.trans ?_ (D.r10.hin (V19 D m) c)
    unfold Pipeline.ΦA
    iintro ⟨Hp, -, Hr⟩
    isplitl [Hr]; · iexact Hr
    iexact Hp
  hout c := by
    rw [Pipeline.ownSems0_none]
    refine BIBase.Entails.trans (D.r10.hout (V19 D m) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats D m) ((pdats D m 10 c).share_full fun w => D.r10.hq (V19 D m) c w)
      (V19 D m c) (V20 D m c) ((pdats D m 10 c).arrAt · cfg10.N) (hF10 D m c) (hrest10 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 10 c) (D.r10.howed (V19 D m) c _))
    iexact HO

end Cert.Kernel.Reg

end
-- ==== Proof.K.RunRegsD.lean ====
import proofs.«178590_j59433757442359_2_alg».proof.Proof.K.RunRegs

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 11 (custom_call 11) over the thread state: entered from every unscoped buffer at `W21`, left at `W22`.
    Its arrays split out of the unscoped buffers and put back at the exit contents; the generator register and the
    scoped rest into the region's invariant (through the class's) and out; nothing owed; no semaphore of the kernel's own. -/
def reg11 : Pipeline.RegionSeg (pcfgs (F := F)) adm (pdats D m) () defs₀ 𝒱₀ L lv 11 where
  win := launch11.win.to₀
  block_pos := launch11.block_pos
  stage_whole := launch11.stage_whole
  K := PEmpty
  osem k := k.elim
  ho := Pipeline.OwnSemFacts.none _
  hbody c := (D.r11.hbody (V21 D m) c).loose
  hwaits := Pipeline.hwaits_of_owed_zero _ _ _ _ L lv 11 fun c t => D.r11.howed (V21 D m) c t
  pre c := iprop(StableHlo.held (c : Thread nD τ) (Pipeline.ucRefs τ sig) (W21 D m c) ∗ R c)
  post c := iprop(StableHlo.held (c : Thread nD τ) (Pipeline.ucRefs τ sig) (W22 D m c) ∗ R c)
  X c := iprop(∃ r, prngReg c r)
  Y c := iprop(∃ r, prngReg c r)
  Z c := Pipeline.unscopedRest (Ix := Unit) (Name := ℕ) (U := UR sig nD τ) (Lvl := ℕ) spec11 c (V21 D m c)
  hentry c := by
    rw [Pipeline.ownSems0_none]
    have hsplit := Pipeline.arrays_of_unscopedBufs (p := 11) (pcfgs (F := F)) adm (pdats D m) launch11.win launch11.arr_whole c
      ((pdats D m 11 c).share_full fun w => D.r11.hq (V21 D m) c w) (V21 D m c) fun w => D.r11.hA (V21 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 11 c) (D.r11.howed (V21 D m) c 0) (D.r11.hrec (V21 D m) c))
      iexact HO
    isplitl [Hp]; · iexact Hp
    iexact Hrest
  hin c := by
    refine BIBase.Entails.trans ?_ (D.r11.hin (V21 D m) c)
    unfold Pipeline.ΦA
    iintro ⟨Hp, -, Hr⟩
    isplitl [Hr]; · iexact Hr
    iexact Hp
  hout c := by
    rw [Pipeline.ownSems0_none]
    refine BIBase.Entails.trans (D.r11.hout (V21 D m) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats D m) ((pdats D m 11 c).share_full fun w => D.r11.hq (V21 D m) c w)
      (V21 D m c) (V22 D m c) ((pdats D m 11 c).arrAt · cfg11.N) (hF11 D m c) (hrest11 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 11 c) (D.r11.howed (V21 D m) c _))
    iexact HO

-- `iapply` of a library lemma stated over the pinned configuration unifies with the printed one only when
-- unification may unfold plain definitions in a metavariable's type
set_option backward.isDefEq.respectTransparency.types false in
/-- REGION 12 (custom_call 12) over the thread state: entered from every unscoped buffer at `W23`, left at `W24`.
    Its arrays split out of the unscoped buffers and put back at the exit contents; the generator register and the
    scoped rest into the region's invariant (through the class's) and out; nothing owed; no semaphore of the kernel's own. -/
def reg12 : Pipeline.RegionSeg (pcfgs (F := F)) adm (pdats D m) () defs₀ 𝒱₀ L lv 12 where
  win := launch12.win.to₀
  block_pos := launch12.block_pos
  stage_whole := launch12.stage_whole
  K := PEmpty
  osem k := k.elim
  ho := Pipeline.OwnSemFacts.none _
  hbody c := (D.r12.hbody (V23 D m) c).loose
  hwaits := Pipeline.hwaits_of_owed_zero _ _ _ _ L lv 12 fun c t => D.r12.howed (V23 D m) c t
  pre c := iprop(StableHlo.held (c : Thread nD τ) (Pipeline.ucRefs τ sig) (W23 D m c) ∗ R c)
  post c := iprop(StableHlo.held (c : Thread nD τ) (Pipeline.ucRefs τ sig) (W24 D m c) ∗ R c)
  X c := iprop(∃ r, prngReg c r)
  Y c := iprop(∃ r, prngReg c r)
  Z c := Pipeline.unscopedRest (Ix := Unit) (Name := ℕ) (U := UR sig nD τ) (Lvl := ℕ) spec12 c (V23 D m c)
  hentry c := by
    rw [Pipeline.ownSems0_none]
    have hsplit := Pipeline.arrays_of_unscopedBufs (p := 12) (pcfgs (F := F)) adm (pdats D m) launch12.win launch12.arr_whole c
      ((pdats D m 12 c).share_full fun w => D.r12.hq (V23 D m) c w) (V23 D m c) fun w => D.r12.hA (V23 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 12 c) (D.r12.howed (V23 D m) c 0) (D.r12.hrec (V23 D m) c))
      iexact HO
    isplitl [Hp]; · iexact Hp
    iexact Hrest
  hin c := by
    refine BIBase.Entails.trans ?_ (D.r12.hin (V23 D m) c)
    unfold Pipeline.ΦA
    iintro ⟨Hp, -, Hr⟩
    isplitl [Hr]; · iexact Hr
    iexact Hp
  hout c := by
    rw [Pipeline.ownSems0_none]
    refine BIBase.Entails.trans (D.r12.hout (V23 D m) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats D m) ((pdats D m 12 c).share_full fun w => D.r12.hq (V23 D m) c w)
      (V23 D m c) (V24 D m c) ((pdats D m 12 c).arrAt · cfg12.N) (hF12 D m c) (hrest12 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 12 c) (D.r12.howed (V23 D m) c _))
    iexact HO

-- `iapply` of a library lemma stated over the pinned configuration unifies with the printed one only when
-- unification may unfold plain definitions in a metavariable's type
set_option backward.isDefEq.respectTransparency.types false in
/-- REGION 13 (custom_call 13) over the thread state: entered from every unscoped buffer at `W25`, left at `W26`.
    Its arrays split out of the unscoped buffers and put back at the exit contents; the generator register and the
    scoped rest into the region's invariant (through the class's) and out; nothing owed; no semaphore of the kernel's own. -/
def reg13 : Pipeline.RegionSeg (pcfgs (F := F)) adm (pdats D m) () defs₀ 𝒱₀ L lv 13 where
  win := launch13.win.to₀
  block_pos := launch13.block_pos
  stage_whole := launch13.stage_whole
  K := PEmpty
  osem k := k.elim
  ho := Pipeline.OwnSemFacts.none _
  hbody c := (D.r13.hbody (V25 D m) c).loose
  hwaits := Pipeline.hwaits_of_owed_zero _ _ _ _ L lv 13 fun c t => D.r13.howed (V25 D m) c t
  pre c := iprop(StableHlo.held (c : Thread nD τ) (Pipeline.ucRefs τ sig) (W25 D m c) ∗ R c)
  post c := iprop(Tₙ D m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec13 c (V25 D m c)
  hentry c := by
    rw [Pipeline.ownSems0_none]
    have hsplit := Pipeline.arrays_of_unscopedBufs (p := 13) (pcfgs (F := F)) adm (pdats D m) launch13.win launch13.arr_whole c
      ((pdats D m 13 c).share_full fun w => D.r13.hq (V25 D m) c w) (V25 D m c) fun w => D.r13.hA (V25 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 13 c) (D.r13.howed (V25 D m) c 0) (D.r13.hrec (V25 D m) c))
      iexact HO
    isplitl [Hp]; · iexact Hp
    iexact Hrest
  hin c := by
    refine BIBase.Entails.trans ?_ (D.r13.hin (V25 D m) c)
    unfold Pipeline.ΦA
    iintro ⟨Hp, -, Hr⟩
    isplitl [Hr]; · iexact Hr
    iexact Hp
  hout c := by
    rw [Pipeline.ownSems0_none]
    refine BIBase.Entails.trans (D.r13.hout (V25 D m) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats D m) ((pdats D m 13 c).share_full fun w => D.r13.hq (V25 D m) c w)
      (V25 D m c) (V26 D m c) ((pdats D m 13 c).arrAt · cfg13.N) (hF13 D m c) (hrest13 D m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_out (pdats D m 13 c) (D.r13.howed (V25 D m) c _))
    iexact HO

end Cert.Kernel.Reg

end
-- ==== Proof.K.RunArgs.lean ====
import proofs.«178590_j59433757442359_2_alg».proof.Proof.K.RunFold

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The arguments end as launched

No host stretch writes an argument and no region writes one (a region reads it through an input window, left as
entered, or bypasses it), so the fold at an argument's buffer walks back to the launch memory. -/

/-- `main_arg0` reaches the end as launched. -/
theorem W26_main_arg0 (c : Dev nD) : W26 D m c (Proc.devRef .tc main_arg0) = m ((c : Thread nD τ).loc main_arg0) :=
  (W26_of_ne D m c main_arg0 (by decide)).trans <|
  (W25_of D m c main_arg0 (by decide)).trans <|
  (W24_of_ne D m c main_arg0 (by decide)).trans <|
  (W23_of D m c main_arg0 (by decide)).trans <|
  (W22_of_ne D m c main_arg0 (by decide)).trans <|
  (W21_of D m c main_arg0 (by decide)).trans <|
  (W20_of_ne D m c main_arg0 (by decide)).trans <|
  (W19_of D m c main_arg0 (by decide)).trans <|
  (W18_of_ne D m c main_arg0 (by decide)).trans <|
  (W17_of D m c main_arg0 (by decide)).trans <|
  (W16_of_ne D m c main_arg0 (by decide)).trans <|
  (W15_of D m c main_arg0 (by decide)).trans <|
  (W14_of_ne D m c main_arg0 (by decide)).trans <|
  (W13_of D m c main_arg0 (by decide)).trans <|
  (W12_of_ne D m c main_arg0 (by decide)).trans <|
  (W11_of D m c main_arg0 (by decide)).trans <|
  (W10_of_ne D m c main_arg0 (by decide)).trans <|
  (W9_of D m c main_arg0 (by decide)).trans <|
  (W8_of_ne D m c main_arg0 (by decide)).trans <|
  (W7_of D m c main_arg0 (by decide)).trans <|
  (W6_of_ne D m c main_arg0 (by decide)).trans <|
  (W5_of D m c main_arg0 (by decide)).trans <|
  (W4_of_ne D m c main_arg0 (by decide)).trans <|
  (W3_of D m c main_arg0 (by decide)).trans <|
  (W2_of_ne D m c main_arg0 (by decide)).trans <|
  (W1_in D m c 0 rfl : W1 D m c (Proc.devRef .tc main_arg0) = W0 m c (Proc.devRef .tc main_arg0)).trans <|
  (rfl : W0 m c (Proc.devRef .tc main_arg0) = m ((c : Thread nD τ).loc main_arg0))

/-- `main_arg1` reaches the end as launched. -/
theorem W26_main_arg1 (c : Dev nD) : W26 D m c (Proc.devRef .tc main_arg1) = m ((c : Thread nD τ).loc main_arg1) :=
  (W26_of_ne D m c main_arg1 (by decide)).trans <|
  (W25_of D m c main_arg1 (by decide)).trans <|
  (W24_of_ne D m c main_arg1 (by decide)).trans <|
  (W23_of D m c main_arg1 (by decide)).trans <|
  (W22_of_ne D m c main_arg1 (by decide)).trans <|
  (W21_of D m c main_arg1 (by decide)).trans <|
  (W20_of_ne D m c main_arg1 (by decide)).trans <|
  (W19_of D m c main_arg1 (by decide)).trans <|
  (W18_of_ne D m c main_arg1 (by decide)).trans <|
  (W17_of D m c main_arg1 (by decide)).trans <|
  (W16_of_ne D m c main_arg1 (by decide)).trans <|
  (W15_of D m c main_arg1 (by decide)).trans <|
  (W14_of_ne D m c main_arg1 (by decide)).trans <|
  (W13_of D m c main_arg1 (by decide)).trans <|
  (W12_of_ne D m c main_arg1 (by decide)).trans <|
  (W11_of D m c main_arg1 (by decide)).trans <|
  (W10_of_ne D m c main_arg1 (by decide)).trans <|
  (W9_of D m c main_arg1 (by decide)).trans <|
  (W8_of_ne D m c main_arg1 (by decide)).trans <|
  (W7_of D m c main_arg1 (by decide)).trans <|
  (W6_of_ne D m c main_arg1 (by decide)).trans <|
  (W5_of D m c main_arg1 (by decide)).trans <|
  (W4_of_ne D m c main_arg1 (by decide)).trans <|
  (W3_of D m c main_arg1 (by decide)).trans <|
  (W2_of_ne D m c main_arg1 (by decide)).trans <|
  (W1_of_ne D m c main_arg1 (by decide)).trans <|
  (rfl : W0 m c (Proc.devRef .tc main_arg1) = m ((c : Thread nD τ).loc main_arg1))

/-- `main_arg2` reaches the end as launched. -/
theorem W26_main_arg2 (c : Dev nD) : W26 D m c (Proc.devRef .tc main_arg2) = m ((c : Thread nD τ).loc main_arg2) :=
  (W26_of_ne D m c main_arg2 (by decide)).trans <|
  (W25_of D m c main_arg2 (by decide)).trans <|
  (W24_of_ne D m c main_arg2 (by decide)).trans <|
  (W23_of D m c main_arg2 (by decide)).trans <|
  (W22_of_ne D m c main_arg2 (by decide)).trans <|
  (W21_of D m c main_arg2 (by decide)).trans <|
  (W20_of_ne D m c main_arg2 (by decide)).trans <|
  (W19_of D m c main_arg2 (by decide)).trans <|
  (W18_of_ne D m c main_arg2 (by decide)).trans <|
  (W17_of D m c main_arg2 (by decide)).trans <|
  (W16_of_ne D m c main_arg2 (by decide)).trans <|
  (W15_of D m c main_arg2 (by decide)).trans <|
  (W14_of_ne D m c main_arg2 (by decide)).trans <|
  (W13_of D m c main_arg2 (by decide)).trans <|
  (W12_of_ne D m c main_arg2 (by decide)).trans <|
  (W11_of D m c main_arg2 (by decide)).trans <|
  (W10_of_ne D m c main_arg2 (by decide)).trans <|
  (W9_of D m c main_arg2 (by decide)).trans <|
  (W8_of_ne D m c main_arg2 (by decide)).trans <|
  (W7_of D m c main_arg2 (by decide)).trans <|
  (W6_of_ne D m c main_arg2 (by decide)).trans <|
  (W5_of D m c main_arg2 (by decide)).trans <|
  (W4_of_ne D m c main_arg2 (by decide)).trans <|
  (W3_of D m c main_arg2 (by decide)).trans <|
  (W2_in D m c 0 rfl : W2 D m c (Proc.devRef .tc main_arg2) = W1 D m c (Proc.devRef .tc main_arg2)).trans <|
  (W1_of_ne D m c main_arg2 (by decide)).trans <|
  (rfl : W0 m c (Proc.devRef .tc main_arg2) = m ((c : Thread nD τ).loc main_arg2))

/-- `main_arg3` reaches the end as launched. -/
theorem W26_main_arg3 (c : Dev nD) : W26 D m c (Proc.devRef .tc main_arg3) = m ((c : Thread nD τ).loc main_arg3) :=
  (W26_of_ne D m c main_arg3 (by decide)).trans <|
  (W25_of D m c main_arg3 (by decide)).trans <|
  (W24_of_ne D m c main_arg3 (by decide)).trans <|
  (W23_of D m c main_arg3 (by decide)).trans <|
  (W22_of_ne D m c main_arg3 (by decide)).trans <|
  (W21_of D m c main_arg3 (by decide)).trans <|
  (W20_of_ne D m c main_arg3 (by decide)).trans <|
  (W19_of D m c main_arg3 (by decide)).trans <|
  (W18_of_ne D m c main_arg3 (by decide)).trans <|
  (W17_of D m c main_arg3 (by decide)).trans <|
  (W16_of_ne D m c main_arg3 (by decide)).trans <|
  (W15_of D m c main_arg3 (by decide)).trans <|
  (W14_of_ne D m c main_arg3 (by decide)).trans <|
  (W13_of D m c main_arg3 (by decide)).trans <|
  (W12_of_ne D m c main_arg3 (by decide)).trans <|
  (W11_of D m c main_arg3 (by decide)).trans <|
  (W10_of_ne D m c main_arg3 (by decide)).trans <|
  (W9_of D m c main_arg3 (by decide)).trans <|
  (W8_of_ne D m c main_arg3 (by decide)).trans <|
  (W7_of D m c main_arg3 (by decide)).trans <|
  (W6_of_ne D m c main_arg3 (by decide)).trans <|
  (W5_of D m c main_arg3 (by decide)).trans <|
  (W4_of_ne D m c main_arg3 (by decide)).trans <|
  (W3_of D m c main_arg3 (by decide)).trans <|
  (W2_of_ne D m c main_arg3 (by decide)).trans <|
  (W1_in D m c 1 rfl : W1 D m c (Proc.devRef .tc main_arg3) = W0 m c (Proc.devRef .tc main_arg3)).trans <|
  (rfl : W0 m c (Proc.devRef .tc main_arg3) = m ((c : Thread nD τ).loc main_arg3))

/-- `main_arg4` reaches the end as launched. -/
theorem W26_main_arg4 (c : Dev nD) : W26 D m c (Proc.devRef .tc main_arg4) = m ((c : Thread nD τ).loc main_arg4) :=
  (W26_of_ne D m c main_arg4 (by decide)).trans <|
  (W25_of D m c main_arg4 (by decide)).trans <|
  (W24_of_ne D m c main_arg4 (by decide)).trans <|
  (W23_of D m c main_arg4 (by decide)).trans <|
  (W22_of_ne D m c main_arg4 (by decide)).trans <|
  (W21_of D m c main_arg4 (by decide)).trans <|
  (W20_of_ne D m c main_arg4 (by decide)).trans <|
  (W19_of D m c main_arg4 (by decide)).trans <|
  (W18_of_ne D m c main_arg4 (by decide)).trans <|
  (W17_of D m c main_arg4 (by decide)).trans <|
  (W16_of_ne D m c main_arg4 (by decide)).trans <|
  (W15_of D m c main_arg4 (by decide)).trans <|
  (W14_of_ne D m c main_arg4 (by decide)).trans <|
  (W13_of D m c main_arg4 (by decide)).trans <|
  (W12_of_ne D m c main_arg4 (by decide)).trans <|
  (W11_of D m c main_arg4 (by decide)).trans <|
  (W10_of_ne D m c main_arg4 (by decide)).trans <|
  (W9_of D m c main_arg4 (by decide)).trans <|
  (W8_of_ne D m c main_arg4 (by decide)).trans <|
  (W7_of D m c main_arg4 (by decide)).trans <|
  (W6_of_ne D m c main_arg4 (by decide)).trans <|
  (W5_of D m c main_arg4 (by decide)).trans <|
  (W4_of_ne D m c main_arg4 (by decide)).trans <|
  (W3_of D m c main_arg4 (by decide)).trans <|
  (W2_of_ne D m c main_arg4 (by decide)).trans <|
  (W1_in D m c 2 rfl : W1 D m c (Proc.devRef .tc main_arg4) = W0 m c (Proc.devRef .tc main_arg4)).trans <|
  (rfl : W0 m c (Proc.devRef .tc main_arg4) = m ((c : Thread nD τ).loc main_arg4))

/-- `main_arg5` reaches the end as launched. -/
theorem W26_main_arg5 (c : Dev nD) : W26 D m c (Proc.devRef .tc main_arg5) = m ((c : Thread nD τ).loc main_arg5) :=
  (W26_of_ne D m c main_arg5 (by decide)).trans <|
  (W25_of D m c main_arg5 (by decide)).trans <|
  (W24_of_ne D m c main_arg5 (by decide)).trans <|
  (W23_of D m c main_arg5 (by decide)).trans <|
  (W22_of_ne D m c main_arg5 (by decide)).trans <|
  (W21_of D m c main_arg5 (by decide)).trans <|
  (W20_of_ne D m c main_arg5 (by decide)).trans <|
  (W19_of D m c main_arg5 (by decide)).trans <|
  (W18_of_ne D m c main_arg5 (by decide)).trans <|
  (W17_of D m c main_arg5 (by decide)).trans <|
  (W16_of_ne D m c main_arg5 (by decide)).trans <|
  (W15_of D m c main_arg5 (by decide)).trans <|
  (W14_of_ne D m c main_arg5 (by decide)).trans <|
  (W13_of D m c main_arg5 (by decide)).trans <|
  (W12_of_ne D m c main_arg5 (by decide)).trans <|
  (W11_of D m c main_arg5 (by decide)).trans <|
  (W10_of_ne D m c main_arg5 (by decide)).trans <|
  (W9_of D m c main_arg5 (by decide)).trans <|
  (W8_of_ne D m c main_arg5 (by decide)).trans <|
  (W7_of D m c main_arg5 (by decide)).trans <|
  (W6_of_ne D m c main_arg5 (by decide)).trans <|
  (W5_of D m c main_arg5 (by decide)).trans <|
  (W4_of_ne D m c main_arg5 (by decide)).trans <|
  (W3_of D m c main_arg5 (by decide)).trans <|
  (W2_in D m c 1 rfl : W2 D m c (Proc.devRef .tc main_arg5) = W1 D m c (Proc.devRef .tc main_arg5)).trans <|
  (W1_of_ne D m c main_arg5 (by decide)).trans <|
  (rfl : W0 m c (Proc.devRef .tc main_arg5) = m ((c : Thread nD τ).loc main_arg5))

/-- `main_arg6` reaches the end as launched. -/
theorem W26_main_arg6 (c : Dev nD) : W26 D m c (Proc.devRef .tc main_arg6) = m ((c : Thread nD τ).loc main_arg6) :=
  (W26_of_ne D m c main_arg6 (by decide)).trans <|
  (W25_of D m c main_arg6 (by decide)).trans <|
  (W24_of_ne D m c main_arg6 (by decide)).trans <|
  (W23_of D m c main_arg6 (by decide)).trans <|
  (W22_of_ne D m c main_arg6 (by decide)).trans <|
  (W21_of D m c main_arg6 (by decide)).trans <|
  (W20_of_ne D m c main_arg6 (by decide)).trans <|
  (W19_of D m c main_arg6 (by decide)).trans <|
  (W18_of_ne D m c main_arg6 (by decide)).trans <|
  (W17_of D m c main_arg6 (by decide)).trans <|
  (W16_of_ne D m c main_arg6 (by decide)).trans <|
  (W15_of D m c main_arg6 (by decide)).trans <|
  (W14_of_ne D m c main_arg6 (by decide)).trans <|
  (W13_of D m c main_arg6 (by decide)).trans <|
  (W12_of_ne D m c main_arg6 (by decide)).trans <|
  (W11_of D m c main_arg6 (by decide)).trans <|
  (W10_of_ne D m c main_arg6 (by decide)).trans <|
  (W9_of D m c main_arg6 (by decide)).trans <|
  (W8_of_ne D m c main_arg6 (by decide)).trans <|
  (W7_of D m c main_arg6 (by decide)).trans <|
  (W6_of_ne D m c main_arg6 (by decide)).trans <|
  (W5_of D m c main_arg6 (by decide)).trans <|
  (W4_of_ne D m c main_arg6 (by decide)).trans <|
  (W3_of D m c main_arg6 (by decide)).trans <|
  (W2_in D m c 2 rfl : W2 D m c (Proc.devRef .tc main_arg6) = W1 D m c (Proc.devRef .tc main_arg6)).trans <|
  (W1_of_ne D m c main_arg6 (by decide)).trans <|
  (rfl : W0 m c (Proc.devRef .tc main_arg6) = m ((c : Thread nD τ).loc main_arg6))

/-- `main_arg7` reaches the end as launched. -/
theorem W26_main_arg7 (c : Dev nD) : W26 D m c (Proc.devRef .tc main_arg7) = m ((c : Thread nD τ).loc main_arg7) :=
  (W26_of_ne D m c main_arg7 (by decide)).trans <|
  (W25_of D m c main_arg7 (by decide)).trans <|
  (W24_of_ne D m c main_arg7 (by decide)).trans <|
  (W23_of D m c main_arg7 (by decide)).trans <|
  (W22_of_ne D m c main_arg7 (by decide)).trans <|
  (W21_of D m c main_arg7 (by decide)).trans <|
  (W20_of_ne D m c main_arg7 (by decide)).trans <|
  (W19_of D m c main_arg7 (by decide)).trans <|
  (W18_of_ne D m c main_arg7 (by decide)).trans <|
  (W17_of D m c main_arg7 (by decide)).trans <|
  (W16_of_ne D m c main_arg7 (by decide)).trans <|
  (W15_of D m c main_arg7 (by decide)).trans <|
  (W14_of_ne D m c main_arg7 (by decide)).trans <|
  (W13_of D m c main_arg7 (by decide)).trans <|
  (W12_of_ne D m c main_arg7 (by decide)).trans <|
  (W11_of D m c main_arg7 (by decide)).trans <|
  (W10_of_ne D m c main_arg7 (by decide)).trans <|
  (W9_of D m c main_arg7 (by decide)).trans <|
  (W8_of_ne D m c main_arg7 (by decide)).trans <|
  (W7_of D m c main_arg7 (by decide)).trans <|
  (W6_of_ne D m c main_arg7 (by decide)).trans <|
  (W5_of D m c main_arg7 (by decide)).trans <|
  (W4_of_ne D m c main_arg7 (by decide)).trans <|
  (W3_of D m c main_arg7 (by decide)).trans <|
  (W2_of_ne D m c main_arg7 (by decide)).trans <|
  (W1_of_ne D m c main_arg7 (by decide)).trans <|
  (rfl : W0 m c (Proc.devRef .tc main_arg7) = m ((c : Thread nD τ).loc main_arg7))

/-- `main_arg8` reaches the end as launched. -/
theorem W26_main_arg8 (c : Dev nD) : W26 D m c (Proc.devRef .tc main_arg8) = m ((c : Thread nD τ).loc main_arg8) :=
  (W26_of_ne D m c main_arg8 (by decide)).trans <|
  (W25_of D m c main_arg8 (by decide)).trans <|
  (W24_of_ne D m c main_arg8 (by decide)).trans <|
  (W23_of D m c main_arg8 (by decide)).trans <|
  (W22_of_ne D m c main_arg8 (by decide)).trans <|
  (W21_of D m c main_arg8 (by decide)).trans <|
  (W20_of_ne D m c main_arg8 (by decide)).trans <|
  (W19_of D m c main_arg8 (by decide)).trans <|
  (W18_of_ne D m c main_arg8 (by decide)).trans <|
  (W17_of D m c main_arg8 (by decide)).trans <|
  (W16_of_ne D m c main_arg8 (by decide)).trans <|
  (W15_of D m c main_arg8 (by decide)).trans <|
  (W14_of_ne D m c main_arg8 (by decide)).trans <|
  (W13_of D m c main_arg8 (by decide)).trans <|
  (W12_of_ne D m c main_arg8 (by decide)).trans <|
  (W11_of D m c main_arg8 (by decide)).trans <|
  (W10_of_ne D m c main_arg8 (by decide)).trans <|
  (W9_of D m c main_arg8 (by decide)).trans <|
  (W8_of_ne D m c main_arg8 (by decide)).trans <|
  (W7_of D m c main_arg8 (by decide)).trans <|
  (W6_of_ne D m c main_arg8 (by decide)).trans <|
  (W5_of D m c main_arg8 (by decide)).trans <|
  (W4_of_ne D m c main_arg8 (by decide)).trans <|
  (W3_of D m c main_arg8 (by decide)).trans <|
  (W2_of_ne D m c main_arg8 (by decide)).trans <|
  (W1_of_ne D m c main_arg8 (by decide)).trans <|
  (rfl : W0 m c (Proc.devRef .tc main_arg8) = m ((c : Thread nD τ).loc main_arg8))

/-- `main_arg9` reaches the end as launched. -/
theorem W26_main_arg9 (c : Dev nD) : W26 D m c (Proc.devRef .tc main_arg9) = m ((c : Thread nD τ).loc main_arg9) :=
  (W26_of_ne D m c main_arg9 (by decide)).trans <|
  (W25_of D m c main_arg9 (by decide)).trans <|
  (W24_of_ne D m c main_arg9 (by decide)).trans <|
  (W23_of D m c main_arg9 (by decide)).trans <|
  (W22_of_ne D m c main_arg9 (by decide)).trans <|
  (W21_of D m c main_arg9 (by decide)).trans <|
  (W20_of_ne D m c main_arg9 (by decide)).trans <|
  (W19_of D m c main_arg9 (by decide)).trans <|
  (W18_of_ne D m c main_arg9 (by decide)).trans <|
  (W17_of D m c main_arg9 (by decide)).trans <|
  (W16_of_ne D m c main_arg9 (by decide)).trans <|
  (W15_of D m c main_arg9 (by decide)).trans <|
  (W14_of_ne D m c main_arg9 (by decide)).trans <|
  (W13_of D m c main_arg9 (by decide)).trans <|
  (W12_of_ne D m c main_arg9 (by decide)).trans <|
  (W11_of D m c main_arg9 (by decide)).trans <|
  (W10_of_ne D m c main_arg9 (by decide)).trans <|
  (W9_of D m c main_arg9 (by decide)).trans <|
  (W8_of_ne D m c main_arg9 (by decide)).trans <|
  (W7_of D m c main_arg9 (by decide)).trans <|
  (W6_of_ne D m c main_arg9 (by decide)).trans <|
  (W5_of D m c main_arg9 (by decide)).trans <|
  (W4_of_ne D m c main_arg9 (by decide)).trans <|
  (W3_of D m c main_arg9 (by decide)).trans <|
  (W2_of_ne D m c main_arg9 (by decide)).trans <|
  (W1_of_ne D m c main_arg9 (by decide)).trans <|
  (rfl : W0 m c (Proc.devRef .tc main_arg9) = m ((c : Thread nD τ).loc main_arg9))

/-- `main_arg10` reaches the end as launched. -/
theorem W26_main_arg10 (c : Dev nD) : W26 D m c (Proc.devRef .tc main_arg10) = m ((c : Thread nD τ).loc main_arg10) :=
  (W26_of_ne D m c main_arg10 (by decide)).trans <|
  (W25_of D m c main_arg10 (by decide)).trans <|
  (W24_of_ne D m c main_arg10 (by decide)).trans <|
  (W23_of D m c main_arg10 (by decide)).trans <|
  (W22_of_ne D m c main_arg10 (by decide)).trans <|
  (W21_of D m c main_arg10 (by decide)).trans <|
  (W20_of_ne D m c main_arg10 (by decide)).trans <|
  (W19_of D m c main_arg10 (by decide)).trans <|
  (W18_of_ne D m c main_arg10 (by decide)).trans <|
  (W17_of D m c main_arg10 (by decide)).trans <|
  (W16_of_ne D m c main_arg10 (by decide)).trans <|
  (W15_of D m c main_arg10 (by decide)).trans <|
  (W14_of_ne D m c main_arg10 (by decide)).trans <|
  (W13_of D m c main_arg10 (by decide)).trans <|
  (W12_of_ne D m c main_arg10 (by decide)).trans <|
  (W11_of D m c main_arg10 (by decide)).trans <|
  (W10_of_ne D m c main_arg10 (by decide)).trans <|
  (W9_of D m c main_arg10 (by decide)).trans <|
  (W8_of_ne D m c main_arg10 (by decide)).trans <|
  (W7_of D m c main_arg10 (by decide)).trans <|
  (W6_of_ne D m c main_arg10 (by decide)).trans <|
  (W5_of D m c main_arg10 (by decide)).trans <|
  (W4_of_ne D m c main_arg10 (by decide)).trans <|
  (W3_of D m c main_arg10 (by decide)).trans <|
  (W2_of_ne D m c main_arg10 (by decide)).trans <|
  (W1_of_ne D m c main_arg10 (by decide)).trans <|
  (rfl : W0 m c (Proc.devRef .tc main_arg10) = m ((c : Thread nD τ).loc main_arg10))

/-- `main_arg11` reaches the end as launched. -/
theorem W26_main_arg11 (c : Dev nD) : W26 D m c (Proc.devRef .tc main_arg11) = m ((c : Thread nD τ).loc main_arg11) :=
  (W26_of_ne D m c main_arg11 (by decide)).trans <|
  (W25_of D m c main_arg11 (by decide)).trans <|
  (W24_of_ne D m c main_arg11 (by decide)).trans <|
  (W23_of D m c main_arg11 (by decide)).trans <|
  (W22_of_ne D m c main_arg11 (by decide)).trans <|
  (W21_of D m c main_arg11 (by decide)).trans <|
  (W20_of_ne D m c main_arg11 (by decide)).trans <|
  (W19_of D m c main_arg11 (by decide)).trans <|
  (W18_of_ne D m c main_arg11 (by decide)).trans <|
  (W17_of D m c main_arg11 (by decide)).trans <|
  (W16_of_ne D m c main_arg11 (by decide)).trans <|
  (W15_of D m c main_arg11 (by decide)).trans <|
  (W14_of_ne D m c main_arg11 (by decide)).trans <|
  (W13_of D m c main_arg11 (by decide)).trans <|
  (W12_of_ne D m c main_arg11 (by decide)).trans <|
  (W11_of D m c main_arg11 (by decide)).trans <|
  (W10_of_ne D m c main_arg11 (by decide)).trans <|
  (W9_of D m c main_arg11 (by decide)).trans <|
  (W8_of_ne D m c main_arg11 (by decide)).trans <|
  (W7_of D m c main_arg11 (by decide)).trans <|
  (W6_of_ne D m c main_arg11 (by decide)).trans <|
  (W5_of D m c main_arg11 (by decide)).trans <|
  (W4_of_ne D m c main_arg11 (by decide)).trans <|
  (W3_of D m c main_arg11 (by decide)).trans <|
  (W2_of_ne D m c main_arg11 (by decide)).trans <|
  (W1_of_ne D m c main_arg11 (by decide)).trans <|
  (rfl : W0 m c (Proc.devRef .tc main_arg11) = m ((c : Thread nD τ).loc main_arg11))

/-- `main_arg12` reaches the end as launched. -/
theorem W26_main_arg12 (c : Dev nD) : W26 D m c (Proc.devRef .tc main_arg12) = m ((c : Thread nD τ).loc main_arg12) :=
  (W26_of_ne D m c main_arg12 (by decide)).trans <|
  (W25_of D m c main_arg12 (by decide)).trans <|
  (W24_of_ne D m c main_arg12 (by decide)).trans <|
  (W23_of D m c main_arg12 (by decide)).trans <|
  (W22_of_ne D m c main_arg12 (by decide)).trans <|
  (W21_of D m c main_arg12 (by decide)).trans <|
  (W20_of_ne D m c main_arg12 (by decide)).trans <|
  (W19_of D m c main_arg12 (by decide)).trans <|
  (W18_of_ne D m c main_arg12 (by decide)).trans <|
  (W17_of D m c main_arg12 (by decide)).trans <|
  (W16_of_ne D m c main_arg12 (by decide)).trans <|
  (W15_of D m c main_arg12 (by decide)).trans <|
  (W14_of_ne D m c main_arg12 (by decide)).trans <|
  (W13_of D m c main_arg12 (by decide)).trans <|
  (W12_of_ne D m c main_arg12 (by decide)).trans <|
  (W11_of D m c main_arg12 (by decide)).trans <|
  (W10_of_ne D m c main_arg12 (by decide)).trans <|
  (W9_of D m c main_arg12 (by decide)).trans <|
  (W8_of_ne D m c main_arg12 (by decide)).trans <|
  (W7_of D m c main_arg12 (by decide)).trans <|
  (W6_of_ne D m c main_arg12 (by decide)).trans <|
  (W5_of D m c main_arg12 (by decide)).trans <|
  (W4_of_ne D m c main_arg12 (by decide)).trans <|
  (W3_of D m c main_arg12 (by decide)).trans <|
  (W2_of_ne D m c main_arg12 (by decide)).trans <|
  (W1_of_ne D m c main_arg12 (by decide)).trans <|
  (rfl : W0 m c (Proc.devRef .tc main_arg12) = m ((c : Thread nD τ).loc main_arg12))

/-- `main_arg13` reaches the end as launched. -/
theorem W26_main_arg13 (c : Dev nD) : W26 D m c (Proc.devRef .tc main_arg13) = m ((c : Thread nD τ).loc main_arg13) :=
  (W26_of_ne D m c main_arg13 (by decide)).trans <|
  (W25_of D m c main_arg13 (by decide)).trans <|
  (W24_of_ne D m c main_arg13 (by decide)).trans <|
  (W23_of D m c main_arg13 (by decide)).trans <|
  (W22_of_ne D m c main_arg13 (by decide)).trans <|
  (W21_of D m c main_arg13 (by decide)).trans <|
  (W20_of_ne D m c main_arg13 (by decide)).trans <|
  (W19_of D m c main_arg13 (by decide)).trans <|
  (W18_of_ne D m c main_arg13 (by decide)).trans <|
  (W17_of D m c main_arg13 (by decide)).trans <|
  (W16_of_ne D m c main_arg13 (by decide)).trans <|
  (W15_of D m c main_arg13 (by decide)).trans <|
  (W14_of_ne D m c main_arg13 (by decide)).trans <|
  (W13_of D m c main_arg13 (by decide)).trans <|
  (W12_of_ne D m c main_arg13 (by decide)).trans <|
  (W11_of D m c main_arg13 (by decide)).trans <|
  (W10_of_ne D m c main_arg13 (by decide)).trans <|
  (W9_of D m c main_arg13 (by decide)).trans <|
  (W8_of_ne D m c main_arg13 (by decide)).trans <|
  (W7_of D m c main_arg13 (by decide)).trans <|
  (W6_of_ne D m c main_arg13 (by decide)).trans <|
  (W5_of D m c main_arg13 (by decide)).trans <|
  (W4_of_ne D m c main_arg13 (by decide)).trans <|
  (W3_of D m c main_arg13 (by decide)).trans <|
  (W2_of_ne D m c main_arg13 (by decide)).trans <|
  (W1_of_ne D m c main_arg13 (by decide)).trans <|
  (rfl : W0 m c (Proc.devRef .tc main_arg13) = m ((c : Thread nD τ).loc main_arg13))

/-- `main_arg14` reaches the end as launched. -/
theorem W26_main_arg14 (c : Dev nD) : W26 D m c (Proc.devRef .tc main_arg14) = m ((c : Thread nD τ).loc main_arg14) :=
  (W26_of_ne D m c main_arg14 (by decide)).trans <|
  (W25_of D m c main_arg14 (by decide)).trans <|
  (W24_of_ne D m c main_arg14 (by decide)).trans <|
  (W23_of D m c main_arg14 (by decide)).trans <|
  (W22_of_ne D m c main_arg14 (by decide)).trans <|
  (W21_of D m c main_arg14 (by decide)).trans <|
  (W20_of_ne D m c main_arg14 (by decide)).trans <|
  (W19_of D m c main_arg14 (by decide)).trans <|
  (W18_of_ne D m c main_arg14 (by decide)).trans <|
  (W17_of D m c main_arg14 (by decide)).trans <|
  (W16_of_ne D m c main_arg14 (by decide)).trans <|
  (W15_of D m c main_arg14 (by decide)).trans <|
  (W14_of_ne D m c main_arg14 (by decide)).trans <|
  (W13_of D m c main_arg14 (by decide)).trans <|
  (W12_of_ne D m c main_arg14 (by decide)).trans <|
  (W11_of D m c main_arg14 (by decide)).trans <|
  (W10_of_ne D m c main_arg14 (by decide)).trans <|
  (W9_of D m c main_arg14 (by decide)).trans <|
  (W8_of_ne D m c main_arg14 (by decide)).trans <|
  (W7_of D m c main_arg14 (by decide)).trans <|
  (W6_of_ne D m c main_arg14 (by decide)).trans <|
  (W5_of D m c main_arg14 (by decide)).trans <|
  (W4_of_ne D m c main_arg14 (by decide)).trans <|
  (W3_of D m c main_arg14 (by decide)).trans <|
  (W2_of_ne D m c main_arg14 (by decide)).trans <|
  (W1_of_ne D m c main_arg14 (by decide)).trans <|
  (rfl : W0 m c (Proc.devRef .tc main_arg14) = m ((c : Thread nD τ).loc main_arg14))

/-- `main_arg15` reaches the end as launched. -/
theorem W26_main_arg15 (c : Dev nD) : W26 D m c (Proc.devRef .tc main_arg15) = m ((c : Thread nD τ).loc main_arg15) :=
  (W26_of_ne D m c main_arg15 (by decide)).trans <|
  (W25_of D m c main_arg15 (by decide)).trans <|
  (W24_of_ne D m c main_arg15 (by decide)).trans <|
  (W23_of D m c main_arg15 (by decide)).trans <|
  (W22_of_ne D m c main_arg15 (by decide)).trans <|
  (W21_of D m c main_arg15 (by decide)).trans <|
  (W20_of_ne D m c main_arg15 (by decide)).trans <|
  (W19_of D m c main_arg15 (by decide)).trans <|
  (W18_of_ne D m c main_arg15 (by decide)).trans <|
  (W17_of D m c main_arg15 (by decide)).trans <|
  (W16_of_ne D m c main_arg15 (by decide)).trans <|
  (W15_of D m c main_arg15 (by decide)).trans <|
  (W14_of_ne D m c main_arg15 (by decide)).trans <|
  (W13_of D m c main_arg15 (by decide)).trans <|
  (W12_of_ne D m c main_arg15 (by decide)).trans <|
  (W11_of D m c main_arg15 (by decide)).trans <|
  (W10_of_ne D m c main_arg15 (by decide)).trans <|
  (W9_of D m c main_arg15 (by decide)).trans <|
  (W8_of_ne D m c main_arg15 (by decide)).trans <|
  (W7_of D m c main_arg15 (by decide)).trans <|
  (W6_of_ne D m c main_arg15 (by decide)).trans <|
  (W5_of D m c main_arg15 (by decide)).trans <|
  (W4_of_ne D m c main_arg15 (by decide)).trans <|
  (W3_of D m c main_arg15 (by decide)).trans <|
  (W2_of_ne D m c main_arg15 (by decide)).trans <|
  (W1_of_ne D m c main_arg15 (by decide)).trans <|
  (rfl : W0 m c (Proc.devRef .tc main_arg15) = m ((c : Thread nD τ).loc main_arg15))

end Cert.Kernel.Reg

end
-- ==== Proof.K.Run.lean ====
import proofs.«178590_j59433757442359_2_alg».proof.Proof.K.RunRegsA
import proofs.«178590_j59433757442359_2_alg».proof.Proof.K.RunRegsB
import proofs.«178590_j59433757442359_2_alg».proof.Proof.K.RunRegsC
import proofs.«178590_j59433757442359_2_alg».proof.Proof.K.RunRegsD
import proofs.«178590_j59433757442359_2_alg».proof.Proof.K.RunArgs

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # @main as segments, and the launch -/

/-- @main's 26 segments in order: a region per pallas_call, a host segment per stretch from its boundary's contents. -/
abbrev segs : List (Pipeline.Seg (pcfgs (F := F)) adm (pdats D m) () defs₀ 𝒱₀ L lv) :=
  [ .region (reg0 D m),
    .region (reg1 D m),
    .host (hseg hostOps2 hostOps2_sub hostOps2_fresh (W2 D m)),
    .region (reg2 D m),
    .host (hseg hostOps3 hostOps3_sub hostOps3_fresh (W4 D m)),
    .region (reg3 D m),
    .host (hseg hostOps4 hostOps4_sub hostOps4_fresh (W6 D m)),
    .region (reg4 D m),
    .host (hseg hostOps5 hostOps5_sub hostOps5_fresh (W8 D m)),
    .region (reg5 D m),
    .host (hseg hostOps6 hostOps6_sub hostOps6_fresh (W10 D m)),
    .region (reg6 D m),
    .host (hseg hostOps7 hostOps7_sub hostOps7_fresh (W12 D m)),
    .region (reg7 D m),
    .host (hseg hostOps8 hostOps8_sub hostOps8_fresh (W14 D m)),
    .region (reg8 D m),
    .host (hseg hostOps9 hostOps9_sub hostOps9_fresh (W16 D m)),
    .region (reg9 D m),
    .host (hseg hostOps10 hostOps10_sub hostOps10_fresh (W18 D m)),
    .region (reg10 D m),
    .host (hseg hostOps11 hostOps11_sub hostOps11_fresh (W20 D m)),
    .region (reg11 D m),
    .host (hseg hostOps12 hostOps12_sub hostOps12_fresh (W22 D m)),
    .region (reg12 D m),
    .host (hseg hostOps13 hostOps13_sub hostOps13_fresh (W24 D m)),
    .region (reg13 D m) ]

/-- The segments' fragments are @main's items, in order. -/
theorem segs_prog : (segs D m).map Pipeline.Seg.prog = [
    Prog.lift (.customCall (Pipeline.entry 0) ()),
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    Prog.lift (.customCall (Pipeline.entry 6) ()),
    StableHlo.seq hostOps7,
    Prog.lift (.customCall (Pipeline.entry 7) ()),
    StableHlo.seq hostOps8,
    Prog.lift (.customCall (Pipeline.entry 8) ()),
    StableHlo.seq hostOps9,
    Prog.lift (.customCall (Pipeline.entry 9) ()),
    StableHlo.seq hostOps10,
    Prog.lift (.customCall (Pipeline.entry 10) ()),
    StableHlo.seq hostOps11,
    Prog.lift (.customCall (Pipeline.entry 11) ()),
    StableHlo.seq hostOps12,
    Prog.lift (.customCall (Pipeline.entry 12) ()),
    StableHlo.seq hostOps13,
    Prog.lift (.customCall (Pipeline.entry 13) ()) ] := rfl

-- the kit's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds every unscoped buffer at the last boundary's
    contents `W26`: the kit's launch over the segments, the last thread state read against the final state. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W26 D m c b) :=
  Pipeline.θ_run_regions_kit (pcfgs (F := F)) adm (pdats D m) () cellOf_inj emb₁ defs₀ 𝒱₀ L lv m ρ main (segs D m)
    (fun c Q => by
      rewrite [main_chain c, Pipeline.Seg.run_eq_chain, segs_prog D m]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 D m c b)
    (hfin := fun c s' => by
      iintro ⟨⟨Hh, -⟩, HSI⟩
      unfold StableHlo.held
      imodintro
      iapply (pointsTo_read_all (Pipeline.ucRefs τ sig) (fun b => (((c : Thread nD τ)).1, b)) (W26 D m c) s')
      isplitl [Hh] <;> iassumption)
    (hQ := fun s h => h)

/-- info: 'Cert.Kernel.Reg.run_all' depends on axioms: [propext, Classical.choice, Quot.sound] -/
#guard_msgs in #print axioms run_all

include D in
/-- THE FRAME: every weakly fair execution of @main terminates and every final state has each argument array as
    launched: the run, each argument read back through the fold. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (Q := fun r => ∀ c : Dev nD, ∀ b ∈ Pipeline.ucRefs τ sig, r.2.mem ((c : Thread nD τ).1, b) = W26 D m c b)
    (fun r h c => ⟨(h c _ (mem_uc main_arg0 (by decide))).trans (W26_main_arg0 D m c),
      (h c _ (mem_uc main_arg1 (by decide))).trans (W26_main_arg1 D m c),
      (h c _ (mem_uc main_arg2 (by decide))).trans (W26_main_arg2 D m c),
      (h c _ (mem_uc main_arg3 (by decide))).trans (W26_main_arg3 D m c),
      (h c _ (mem_uc main_arg4 (by decide))).trans (W26_main_arg4 D m c),
      (h c _ (mem_uc main_arg5 (by decide))).trans (W26_main_arg5 D m c),
      (h c _ (mem_uc main_arg6 (by decide))).trans (W26_main_arg6 D m c),
      (h c _ (mem_uc main_arg7 (by decide))).trans (W26_main_arg7 D m c),
      (h c _ (mem_uc main_arg8 (by decide))).trans (W26_main_arg8 D m c),
      (h c _ (mem_uc main_arg9 (by decide))).trans (W26_main_arg9 D m c),
      (h c _ (mem_uc main_arg10 (by decide))).trans (W26_main_arg10 D m c),
      (h c _ (mem_uc main_arg11 (by decide))).trans (W26_main_arg11 D m c),
      (h c _ (mem_uc main_arg12 (by decide))).trans (W26_main_arg12 D m c),
      (h c _ (mem_uc main_arg13 (by decide))).trans (W26_main_arg13 D m c),
      (h c _ (mem_uc main_arg14 (by decide))).trans (W26_main_arg14 D m c),
      (h c _ (mem_uc main_arg15 (by decide))).trans (W26_main_arg15 D m c)⟩) (run_all D m ρ)

/-- The run's result: every final state holds the result array at the last boundary's contents, and each argument
    array as launched. -/
theorem run_result (ρ : Dev nD → PrngReg) : θ_run defs (onTc (τ := τ) (main (F := F))) ⟨m, fun _ => 0, ρ⟩ (fun r => ∀ c : Dev nD,
      r.2.mem ((c.tc : Thread nD τ).loc main_v185) = W26 D m c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (Q := fun r => ∀ c : Dev nD, ∀ b ∈ Pipeline.ucRefs τ sig, r.2.mem ((c : Thread nD τ).1, b) = W26 D m c b)
    (fun r h c => ⟨h c _ (mem_uc main_v185 (by decide)),
      (h c _ (mem_uc main_arg0 (by decide))).trans (W26_main_arg0 D m c),
      (h c _ (mem_uc main_arg1 (by decide))).trans (W26_main_arg1 D m c),
      (h c _ (mem_uc main_arg2 (by decide))).trans (W26_main_arg2 D m c),
      (h c _ (mem_uc main_arg3 (by decide))).trans (W26_main_arg3 D m c),
      (h c _ (mem_uc main_arg4 (by decide))).trans (W26_main_arg4 D m c),
      (h c _ (mem_uc main_arg5 (by decide))).trans (W26_main_arg5 D m c),
      (h c _ (mem_uc main_arg6 (by decide))).trans (W26_main_arg6 D m c),
      (h c _ (mem_uc main_arg7 (by decide))).trans (W26_main_arg7 D m c),
      (h c _ (mem_uc main_arg8 (by decide))).trans (W26_main_arg8 D m c),
      (h c _ (mem_uc main_arg9 (by decide))).trans (W26_main_arg9 D m c),
      (h c _ (mem_uc main_arg10 (by decide))).trans (W26_main_arg10 D m c),
      (h c _ (mem_uc main_arg11 (by decide))).trans (W26_main_arg11 D m c),
      (h c _ (mem_uc main_arg12 (by decide))).trans (W26_main_arg12 D m c),
      (h c _ (mem_uc main_arg13 (by decide))).trans (W26_main_arg13 D m c),
      (h c _ (mem_uc main_arg14 (by decide))).trans (W26_main_arg14 D m c),
      (h c _ (mem_uc main_arg15 (by decide))).trans (W26_main_arg15 D m c)⟩) (run_all D m ρ)

end Cert.Kernel.Reg

end
-- ==== Proof.K.Reg0.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the linear-and-rectify kernel `cc0__linear_relu_kernel` (pipeline 0), at the entry contents `V`.
    Per point, on one block of 8000 rows: out = max(x · W + b, 0); the weight `W` (window 1) and the bias `b`
    (window 2) have a constant block index, so they are fetched at the first point only and stay resident. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S8000x32 := Rect.unit (s := S8000x32) ![0, 0] S8000x32.size inb_S8000x32_S8000x32_0_0
abbrev r0_1 : Rect S32x64 := Rect.unit (s := S32x64) ![0, 0] S32x64.size inb_S32x64_S32x64_0_0
abbrev r0_2 : Rect S64 := Rect.unit (s := S64) ![0] S64.size inb_S64_S64_0
abbrev r0_3 : Rect S8000x64 := Rect.unit (s := S8000x64) ![0, 0] S8000x64.size inb_S8000x64_S8000x64_0_0

/-! ## What the body leaves in the output window's buffer -/

/-- Window 3's staging buffer after the body, from the input windows' blocks: its one store as a piece. -/
def out0_3 (x0 : Vec F S8000x32 .f32) (x1 : Vec F S32x64 .f32) (x2 : Vec F S64 .f32) : Vec F S8000x64 .f32 :=
  View.canon [⟨r0_3, k0_pay1 (View.ld x0 r0_0) (View.ld x1 r0_1) (View.ld x2 r0_2)⟩]

/-- The store is of the whole buffer, so it covers it. -/
theorem cover0_3 (p0 : Vec F S8000x64 .f32) (y : S8000x64.Idx) :
    ∃ pc ∈ ([⟨r0_3, p0⟩] : List (View.Piece (Elt F) S8000x64 .f32)), y ∈ pc.1.set :=
  View.cover_of_tiled [⟨r0_3, p0⟩] S8000x64.size (by rfl) y

/-! ## The body's triple -/

set_option maxHeartbeats 1000000 in
/-- The kernel body on whole staging memrefs, the inputs' at read contents `xW` and the output's at anything, runs
    to the continuation holding the inputs' as they were and the output's at `out0_3` of the inputs'. -/
theorem sound_kernel0 (c : Dev nD) (E : Set ℕ) (i : grid0.Coords) (arg1 : Memref sig .tc .vmem S8000x32 .f32) (harg1 : arg1.IsWhole) (arg2 : Memref sig .tc .vmem S32x64 .f32) (harg2 : arg2.IsWhole) (arg3 : Memref sig .tc .vmem S64 .f32) (harg3 : arg3.IsWhole) (arg4 : Memref sig .tc .vmem S8000x64 .f32) (harg4 : arg4.IsWhole)
    (x0 : Vec F S8000x32 .f32) (x1 : Vec F S32x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_w`), so `sound_kernel0` applies;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg
-- ==== Proof.K.Reg1.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the linear-and-rectify kernel `cc1__linear_relu_kernel` (pipeline 1), at the entry contents `V`.
    Per point, on one block of 8000 rows: out = max(x · W + b, 0); the weight `W` (window 1) and the bias `b`
    (window 2) have a constant block index, so they are fetched at the first point only and stay resident. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_0 : Rect S8000x16 := Rect.unit (s := S8000x16) ![0, 0] S8000x16.size inb_S8000x16_S8000x16_0_0
abbrev r1_1 : Rect S16x64 := Rect.unit (s := S16x64) ![0, 0] S16x64.size inb_S16x64_S16x64_0_0
abbrev r1_2 : Rect S64 := Rect.unit (s := S64) ![0] S64.size inb_S64_S64_0
abbrev r1_3 : Rect S8000x64 := Rect.unit (s := S8000x64) ![0, 0] S8000x64.size inb_S8000x64_S8000x64_0_0

/-! ## What the body leaves in the output window's buffer -/

/-- Window 3's staging buffer after the body, from the input windows' blocks: its one store as a piece. -/
def out1_3 (x0 : Vec F S8000x16 .f32) (x1 : Vec F S16x64 .f32) (x2 : Vec F S64 .f32) : Vec F S8000x64 .f32 :=
  View.canon [⟨r1_3, k1_pay1 (View.ld x0 r1_0) (View.ld x1 r1_1) (View.ld x2 r1_2)⟩]

/-- The store is of the whole buffer, so it covers it. -/
theorem cover1_3 (p0 : Vec F S8000x64 .f32) (y : S8000x64.Idx) :
    ∃ pc ∈ ([⟨r1_3, p0⟩] : List (View.Piece (Elt F) S8000x64 .f32)), y ∈ pc.1.set :=
  View.cover_of_tiled [⟨r1_3, p0⟩] S8000x64.size (by rfl) y

/-! ## The body's triple -/

set_option maxHeartbeats 1000000 in
/-- The kernel body on whole staging memrefs, the inputs' at read contents `xW` and the output's at anything, runs
    to the continuation holding the inputs' as they were and the output's at `out1_3` of the inputs'. -/
theorem sound_kernel1 (c : Dev nD) (E : Set ℕ) (i : grid1.Coords) (arg1 : Memref sig .tc .vmem S8000x16 .f32) (harg1 : arg1.IsWhole) (arg2 : Memref sig .tc .vmem S16x64 .f32) (harg2 : arg2.IsWhole) (arg3 : Memref sig .tc .vmem S64 .f32) (harg3 : arg3.IsWhole) (arg4 : Memref sig .tc .vmem S8000x64 .f32) (harg4 : arg4.IsWhole)
    (x0 : Vec F S8000x16 .f32) (x1 : Vec F S16x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_w`), so `sound_kernel1` applies;
    the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg
-- ==== Proof.K.Reg2.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the message kernel `cc2__message_kernel` (pipeline 2), at the entry contents `V`.
    Per point, on one 8000×64 block of edges: out = max(h_row + ea, 0). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S8000x64 := Rect.unit (s := S8000x64) ![0, 0] S8000x64.size inb_S8000x64_S8000x64_0_0

/-! ## What the body leaves in the output window's buffer -/

/-- Window 2's staging buffer after the body, from the input windows' blocks: its one store as a piece. -/
def out2_2 (x0 : Vec F S8000x64 .f32) (x1 : Vec F S8000x64 .f32) : Vec F S8000x64 .f32 :=
  View.canon [⟨r2_0, k2_pay1 (View.ld x0 r2_0) (View.ld x1 r2_0)⟩]

/-- The store is of the whole buffer, so it covers it. -/
theorem cover2_2 (p0 : Vec F S8000x64 .f32) (y : S8000x64.Idx) :
    ∃ pc ∈ ([⟨r2_0, p0⟩] : List (View.Piece (Elt F) S8000x64 .f32)), y ∈ pc.1.set :=
  View.cover_of_tiled [⟨r2_0, p0⟩] S8000x64.size (by rfl) y

/-! ## The body's triple -/

set_option maxHeartbeats 1000000 in
/-- The kernel body on whole staging memrefs, the inputs' at read contents `xW` and the output's at anything, runs
    to the continuation holding the inputs' as they were and the output's at `out2_2` of the inputs'. -/
theorem sound_kernel2 (c : Dev nD) (E : Set ℕ) (i : grid2.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__message_kernel i arg1 harg1 arg2 harg2 arg3 harg3) K := by
  simp only [cc2__message_kernel_eq_skeleton]; unfold cc2__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_w`), so `sound_kernel2` applies;
    the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg
-- ==== Proof.K.Reg3.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: on a block of 8000 rows, Z = zin·W1 + b1, and the column sums of Z and of Z·Z added into two rows the
    kernel keeps from one block to the next (set to zero at the first block); the two rows are also copied out. -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (the weight and the bias are
    fetched once: their block index never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The branch condition of the body's one conditional, from the grid coordinates. -/
abbrev cond3 (i : grid3.Coords) : Prop := (Scalar.cmpi .ne (Scalar.extui (Scalar.cmpi .eq (BitVec.ofNat 32 (i 0).val) 0#32)) 0#32) = 1#1
/-- It holds at the first point only. -/
theorem hcond3 : ∀ t : Fin cfg3.N, cond3 (grid3.coords t) ↔ t.val = 0 :=
  (by decide +kernel : ∀ t : Fin grid3.N, cond3 (grid3.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun3_A (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc3__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc3__gin1_kernel_eq_skeleton]; unfold cc3__gin1_kernel_skel
    simp only [k3_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun3_B (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc3__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc3__gin1_kernel_eq_skeleton]; unfold cc3__gin1_kernel_skel
    simp only [k3_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms3_0 (t : Fin cfg3.N) : Memref sig .tc .vmem S8000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8000x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev VO3_3 : View sig .tc .vmem S8000x128 .f32 := (Memref.whole cc3_stg3_0 : Memref sig .tc .vmem S8000x128 .f32).view
abbrev VO3_4 : View sig .tc .vmem S1x128 .f32 := (Memref.whole cc3_stg4_0 : Memref sig .tc .vmem S1x128 .f32).view
abbrev VO3_5 : View sig .tc .vmem S1x128 .f32 := (Memref.whole cc3_stg5_0 : Memref sig .tc .vmem S1x128 .f32).view
/-- The two rows the kernel keeps between grid points: whole scoped buffers of its own. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-! ## What each case leaves: the found stores cover each buffer, so what it reads afterwards is theirs alone -/
theorem cover3_A_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S8000x128.Idx) :
    ∃ pc ∈ (kernelRun3_A c i arg1 harg1 arg2 harg2 arg3 harg3 arg4 harg4 arg5 harg5 arg6 harg6 arg7 harg7 arg8 harg8 hc x1 x2 x3).1, y ∈ pc.1.set :=
  View.cover_of_tiledL (kernelRun3_A c i arg1 harg1 arg2 harg2 arg3 harg3 arg4 harg4 arg5 harg5 arg6 harg6 arg7 harg7 arg8 harg8 hc x1 x2 x3).1 S8000x128.size (by sl_kernel_rfl) y
def out3_A_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S8000x128 .f32 :=
  VO3_3.read (Elt F) (VO3_3.writes (Elt F) VO3_3.junk (kernelRun3_A c i arg1 harg1 arg2 harg2 arg3 harg3 arg4 harg4 arg5 harg5 arg6 harg6 arg7 harg7 arg8 harg8 hc x1 x2 x3).1)
theorem cover3_A_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.1, y ∈ pc.1.set :=
  View.cover_of_tiledL (kernelRun3_A c i arg1 harg1 arg2 harg2 arg3 harg3 arg4 harg4 arg5 harg5 arg6 harg6 arg7 harg7 arg8 harg8 hc x1 x2 x3).2.1 S1x128.size (by sl_kernel_rfl) y
def out3_A_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VO3_4.read (Elt F) (VO3_4.writes (Elt F) VO3_4.junk (kernelRun3_A c i arg1 harg1 arg2 harg2 arg3 harg3 arg4 harg4 arg5 harg5 arg6 harg6 arg7 harg7 arg8 harg8 hc x1 x2 x3).2.1)
theorem cover3_A_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.2.1, y ∈ pc.1.set :=
  View.cover_of_tiledL (kernelRun3_A c i arg1 harg1 arg2 harg2 arg3 harg3 arg4 harg4 arg5 harg5 arg6 harg6 arg7 harg7 arg8 harg8 hc x1 x2 x3).2.2.1 S1x128.size (by sl_kernel_rfl) y
def out3_A_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VO3_5.read (Elt F) (VO3_5.writes (Elt F) VO3_5.junk (kernelRun3_A c i arg1 harg1 arg2 harg2 arg3 harg3 arg4 harg4 arg5 harg5 arg6 harg6 arg7 harg7 arg8 harg8 hc x1 x2 x3).2.2.1)
theorem scover3_A_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.2.2.1, y ∈ pc.1.set :=
  View.cover_of_tiledL (kernelRun3_A c i arg1 harg1 arg2 harg2 arg3 harg3 arg4 harg4 arg5 harg5 arg6 harg6 arg7 harg7 arg8 harg8 hc x1 x2 x3).2.2.2.1 S1x128.size (by sl_kernel_rfl) y
def sout3_A_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 hc x1 x2 x3).2.2.2.1)
theorem scover3_A_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.2.2.2.1, y ∈ pc.1.set :=
  View.cover_of_tiledL (kernelRun3_A c i arg1 harg1 arg2 harg2 arg3 harg3 arg4 harg4 arg5 harg5 arg6 harg6 arg7 harg7 arg8 harg8 hc x1 x2 x3).2.2.2.2.1 S1x128.size (by sl_kernel_rfl) y
def sout3_A_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 hc x1 x2 x3).2.2.2.2.1)
theorem cover3_B_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun3_B c i arg1 harg1 arg2 harg2 arg3 harg3 arg4 harg4 arg5 harg5 arg6 harg6 arg7 harg7 arg8 harg8 hc x1 x2 x3 xs7 xs8).1, y ∈ pc.1.set :=
  View.cover_of_tiledL (kernelRun3_B c i arg1 harg1 arg2 harg2 arg3 harg3 arg4 harg4 arg5 harg5 arg6 harg6 arg7 harg7 arg8 harg8 hc x1 x2 x3 xs7 xs8).1 S8000x128.size (by sl_kernel_rfl) y
def out3_B_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S8000x128 .f32 :=
  VO3_3.read (Elt F) (VO3_3.writes (Elt F) VO3_3.junk (kernelRun3_B c i arg1 harg1 arg2 harg2 arg3 harg3 arg4 harg4 arg5 harg5 arg6 harg6 arg7 harg7 arg8 harg8 hc x1 x2 x3 xs7 xs8).1)
theorem cover3_B_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.1 S1x128.size (by sl_kernel_rfl) y
def out3_B_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VO3_4.read (Elt F) (VO3_4.writes (Elt F) VO3_4.junk (kernelRun3_B c i arg1 harg1 arg2 harg2 arg3 harg3 arg4 harg4 arg5 harg5 arg6 harg6 arg7 harg7 arg8 harg8 hc x1 x2 x3 xs7 xs8).2.1)
theorem cover3_B_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.2.1 S1x128.size (by sl_kernel_rfl) y
def out3_B_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VO3_5.read (Elt F) (VO3_5.writes (Elt F) VO3_5.junk (kernelRun3_B c i arg1 harg1 arg2 harg2 arg3 harg3 arg4 harg4 arg5 harg5 arg6 harg6 arg7 harg7 arg8 harg8 hc x1 x2 x3 xs7 xs8).2.2.1)
theorem scover3_B_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.2.2.1 S1x128.size (by sl_kernel_rfl) y
def sout3_B_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 hc x1 x2 x3 xs7 xs8).2.2.2.1)
theorem scover3_B_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.2.2.2.1 S1x128.size (by sl_kernel_rfl) y
def sout3_B_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt3 (c : Dev nD) : (n : ℕ) → n < cfg3.N → Vec F S8000x128 .f32 × Vec F S1x128 .f32 × Vec F S1x128 .f32 × Vec F S1x128 .f32 × Vec F S1x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩))
  | n + 1, hn => (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2)

theorem outsAt3_A (c : Dev nD) (t : Fin cfg3.N) (h0 : t.val = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t)) := by
  obtain ⟨n, hn⟩ := t
  cases n with
  | zero => rfl
  | succ n => exact absurd h0 (Nat.succ_ne_zero n)

theorem outsAt3_B (c : Dev nD) (t : Fin cfg3.N) (h0 : ¬t.val = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-- The region invariant before position `n`: before the first point the class's; afterwards the two kept rows at what the
    point before left in them, the other scoped buffers at anything, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2)) ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2)) ∗ Pipeline.scopedRestBut (Ix := Unit) (Name := ℕ) (U := UR sig nD τ) (Lvl := ℕ) (Val := Elt F) spec3 c [cc3_scratch0, cc3_scratch1]) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2)) ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
    | ⟨5, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem after3_5 (c : Dev nD) (t : Fin cfg3.N) : (dat3 V c).after 5 t = (outsAt3 V c t.val t.isLt).2.2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4, after3_5]
  by_cases hz : t.val = 0
  · rw [outsAt3_A V c t hz]
    unfold out3_A_3 out3_A_4 out3_A_5 sout3_A_0 sout3_A_1; (try dsimp only)
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ _ _ ((hcond3 t).mpr hz) (iblk3 V c 0 t) (iblk3 V c 1 t) (iblk3 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _)
          unfold owns; iexists _; isplitr
          swap; · iexact HS1
          ipureintro; exact View.read_writes_of_cover _ _ _ _ _ (scover3_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _ _ _ _ _ _ _)
    isplitl [H4]
    · unfold owns; iexists _; isplitr
      swap; · iexact H4
      ipureintro; exact View.read_writes_of_cover _ _ _ _ _ (cover3_A_4 c _ _ _ _ _ _ _ _ _ _ _ _ _ _ _ _ _ _ _ _ _)
    unfold owns; iexists _; isplitr
    swap; · iexact H5
    ipureintro; exact View.read_writes_of_cover _ _ _ _ _ (cover3_A_5 c _ _ _ _ _ _ _ _ _ _ _ _ _ _ _ _ _ _ _ _ _)
  · rw [outsAt3_B V c t hz]
    unfold out3_B_3 out3_B_4 out3_B_5 sout3_B_0 sout3_B_1; (try dsimp only)
    rw [PhiS3_castSucc V c t, PhiS3_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_B c (grid3.coords t) _ _ _ _ _ _ _ _ _ _ _ _ _ _ _ _ (fun h => hz ((hcond3 t).mp h)) (iblk3 V c 0 t) (iblk3 V c 1 t) (iblk3 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          unfold owns; iexists _; isplitr
          swap; · iexact HS1
          ipureintro; exact View.read_writes_of_cover _ _ _ _ _ (scover3_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover3_B_4 c _ _ _ _ _ _ _ _ _ _ _ _ _ _ _ _ _ _ _ _ _ _ _)
    unfold owns; iexists _; isplitr
    swap; · iexact H5
    ipureintro; exact View.read_writes_of_cover _ _ _ _ _ (cover3_B_5 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the kept rows' named contents are forgotten. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq3 (c : Dev nD) (w : Fin cfg3.W) : (dat3 V c).q w = fullShare := rfl
theorem howed3 (c : Dev nD) (t : Fin (cfg3.N + 1)) : (dat3 V c).owed t = 0 := rfl

end Region3

end Cert.Kernel.Reg

end
-- ==== Proof.K.Reg4.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4: the second half of a GIN layer, `cc4__gin2_kernel` (pipeline 4), at the entry contents `V`.
    Per point, on one block of 8000 rows: batch-normalise the hidden block with the statistics of windows 1–2 and
    the affine pair of windows 3–4, rectify, multiply by the weight (window 5) and add the bias (window 6), then
    layer-normalise each row with the affine pair of windows 7–8 and rectify. Windows 1–8 have a constant block index:
    fetched at the first point only, resident after. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block
    index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the block
    index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the block
    index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the block
    index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s (`hA`) and whose body leaves the block in place (`hafter`): unfetched, the block
    index has not moved. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof
    data whose array is `V`'s (`hA`) and whose body leaves the block in place (`hafter`): unfetched, the block
    index has not moved. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written whole -/

abbrev r4_0 : Rect S8000x128 := Rect.unit (s := S8000x128) ![0, 0] S8000x128.size inb_S8000x128_S8000x128_0_0
abbrev r4_1 : Rect S1x128 := Rect.unit (s := S1x128) ![0, 0] S1x128.size inb_S1x128_S1x128_0_0
abbrev r4_2 : Rect S128x64 := Rect.unit (s := S128x64) ![0, 0] S128x64.size inb_S128x64_S128x64_0_0
abbrev r4_3 : Rect S64 := Rect.unit (s := S64) ![0] S64.size inb_S64_S64_0
abbrev r4_4 : Rect S1x64 := Rect.unit (s := S1x64) ![0, 0] S1x64.size inb_S1x64_S1x64_0_0
abbrev r4_5 : Rect S8000x64 := Rect.unit (s := S8000x64) ![0, 0] S8000x64.size inb_S8000x64_S8000x64_0_0

/-! ## What the body leaves in the output window's buffer -/

/-- Window 9's staging buffer after the body, from the input windows' blocks: its one store as a piece. -/
def out4_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r4_5, k4_pay1 (k4_pay2 (View.ld x0 r4_0) (View.ld x2 r4_1) (View.ld x1 r4_1) (View.ld x3 r4_1) (View.ld x4 r4_1) (View.ld x5 r4_2) (View.ld x6 r4_3)) (k4_pay3 (View.ld x0 r4_0) (View.ld x2 r4_1) (View.ld x1 r4_1) (View.ld x3 r4_1) (View.ld x4 r4_1) (View.ld x5 r4_2) (View.ld x6 r4_3)) (View.ld x7 r4_4) (View.ld x8 r4_4)⟩]

/-- The store is of the whole buffer, so it covers it. -/
theorem cover4_9 (p0 : Vec F S8000x64 .f32) (y : S8000x64.Idx) :
    ∃ pc ∈ ([⟨r4_5, p0⟩] : List (View.Piece (Elt F) S8000x64 .f32)), y ∈ pc.1.set :=
  View.cover_of_tiled [⟨r4_5, p0⟩] S8000x64.size (by rfl) y

/-! ## The body's triple -/

set_option maxHeartbeats 1000000 in
/-- The kernel body on whole staging memrefs, the inputs' at read contents `xW` and the output's at anything, runs
    to the continuation holding the inputs' as they were and the output's at `out4_9` of the inputs'. -/
theorem sound_kernel4 (c : Dev nD) (E : Set ℕ) (i : grid4.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__gin2_kernel i arg1 harg1 arg2 harg2 arg3 harg3 arg4 harg4 arg5 harg5 arg6 harg6 arg7 harg7 arg8 harg8 arg9 harg9 arg10 harg10) K := by
  simp only [cc4__gin2_kernel_eq_skeleton]; unfold cc4__gin2_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-! ## The pipeline's proof data -/

/-- The proof data of pipeline 4 on core `c`: the arrays as the region finds them (`V`); after the body at
    point `t` each input's buffer at its block and the output's at `out4_9` of the input blocks; the invariant
    leaves the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks (`before4_w`), so `sound_kernel4` applies;
    the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg
-- ==== Proof.K.Reg5.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5: the message kernel `cc5__message_kernel` (pipeline 5), at the entry contents `V`.
    Per point, on one 8000×64 block of edges: out = max(h_row + ea, 0). -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_0 : Rect S8000x64 := Rect.unit (s := S8000x64) ![0, 0] S8000x64.size inb_S8000x64_S8000x64_0_0

/-! ## What the body leaves in the output window's buffer -/

/-- Window 2's staging buffer after the body, from the input windows' blocks: its one store as a piece. -/
def out5_2 (x0 : Vec F S8000x64 .f32) (x1 : Vec F S8000x64 .f32) : Vec F S8000x64 .f32 :=
  View.canon [⟨r5_0, k5_pay1 (View.ld x0 r5_0) (View.ld x1 r5_0)⟩]

/-- The store is of the whole buffer, so it covers it. -/
theorem cover5_2 (p0 : Vec F S8000x64 .f32) (y : S8000x64.Idx) :
    ∃ pc ∈ ([⟨r5_0, p0⟩] : List (View.Piece (Elt F) S8000x64 .f32)), y ∈ pc.1.set :=
  View.cover_of_tiled [⟨r5_0, p0⟩] S8000x64.size (by rfl) y

/-! ## The body's triple -/

set_option maxHeartbeats 1000000 in
/-- The kernel body on whole staging memrefs, the inputs' at read contents `xW` and the output's at anything, runs
    to the continuation holding the inputs' as they were and the output's at `out5_2` of the inputs'. -/
theorem sound_kernel5 (c : Dev nD) (E : Set ℕ) (i : grid5.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__message_kernel i arg1 harg1 arg2 harg2 arg3 harg3) K := by
  simp only [cc5__message_kernel_eq_skeleton]; unfold cc5__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover5_2 _)

/-! ## The pipeline's proof data -/

/-- The proof data of pipeline 5 on core `c`: the arrays as the region finds them (`V`); after the body at
    point `t` each input's buffer at its block and the output's at `out5_2` of the input blocks; the invariant
    leaves the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_w`), so `sound_kernel5` applies;
    the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg
-- ==== Proof.K.Reg6.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: on a block of 8000 rows, Z = zin·W1 + b1, and the column sums of Z and of Z·Z added into two rows the
    kernel keeps from one block to the next (set to zero at the first block); the two rows are also copied out. -/

section Region6
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not (the weight and the bias are
    fetched once: their block index never moves). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The branch condition of the body's one conditional, from the grid coordinates. -/
abbrev cond6 (i : grid6.Coords) : Prop := (Scalar.cmpi .ne (Scalar.extui (Scalar.cmpi .eq (BitVec.ofNat 32 (i 0).val) 0#32)) 0#32) = 1#1
/-- It holds at the first point only. -/
theorem hcond6 : ∀ t : Fin cfg6.N, cond6 (grid6.coords t) ↔ t.val = 0 :=
  (by decide +kernel : ∀ t : Fin grid6.N, cond6 (grid6.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun6_A (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc6__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__gin1_kernel_eq_skeleton]; unfold cc6__gin1_kernel_skel
    simp only [k6_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun6_B (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc6__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__gin1_kernel_eq_skeleton]; unfold cc6__gin1_kernel_skel
    simp only [k6_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms6_0 (t : Fin cfg6.N) : Memref sig .tc .vmem S8000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S64x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S8000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev VO6_3 : View sig .tc .vmem S8000x128 .f32 := (Memref.whole cc6_stg3_0 : Memref sig .tc .vmem S8000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
/-- The two rows the kernel keeps between grid points: whole scoped buffers of its own. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-! ## What each case leaves: the found stores cover each buffer, so what it reads afterwards is theirs alone -/
theorem cover6_A_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S8000x128.Idx) :
    ∃ pc ∈ (kernelRun6_A c i arg1 harg1 arg2 harg2 arg3 harg3 arg4 harg4 arg5 harg5 arg6 harg6 arg7 harg7 arg8 harg8 hc x1 x2 x3).1, y ∈ pc.1.set :=
  View.cover_of_tiledL (kernelRun6_A c i arg1 harg1 arg2 harg2 arg3 harg3 arg4 harg4 arg5 harg5 arg6 harg6 arg7 harg7 arg8 harg8 hc x1 x2 x3).1 S8000x128.size (by sl_kernel_rfl) y
def out6_A_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S8000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc x1 x2 x3).1)
theorem cover6_A_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.1, y ∈ pc.1.set :=
  View.cover_of_tiledL (kernelRun6_A c i arg1 harg1 arg2 harg2 arg3 harg3 arg4 harg4 arg5 harg5 arg6 harg6 arg7 harg7 arg8 harg8 hc x1 x2 x3).2.1 S1x128.size (by sl_kernel_rfl) y
def out6_A_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VO6_4.read (Elt F) (VO6_4.writes (Elt F) VO6_4.junk (kernelRun6_A c i arg1 harg1 arg2 harg2 arg3 harg3 arg4 harg4 arg5 harg5 arg6 harg6 arg7 harg7 arg8 harg8 hc x1 x2 x3).2.1)
theorem cover6_A_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.2.1, y ∈ pc.1.set :=
  View.cover_of_tiledL (kernelRun6_A c i arg1 harg1 arg2 harg2 arg3 harg3 arg4 harg4 arg5 harg5 arg6 harg6 arg7 harg7 arg8 harg8 hc x1 x2 x3).2.2.1 S1x128.size (by sl_kernel_rfl) y
def out6_A_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VO6_5.read (Elt F) (VO6_5.writes (Elt F) VO6_5.junk (kernelRun6_A c i arg1 harg1 arg2 harg2 arg3 harg3 arg4 harg4 arg5 harg5 arg6 harg6 arg7 harg7 arg8 harg8 hc x1 x2 x3).2.2.1)
theorem scover6_A_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.2.2.1, y ∈ pc.1.set :=
  View.cover_of_tiledL (kernelRun6_A c i arg1 harg1 arg2 harg2 arg3 harg3 arg4 harg4 arg5 harg5 arg6 harg6 arg7 harg7 arg8 harg8 hc x1 x2 x3).2.2.2.1 S1x128.size (by sl_kernel_rfl) y
def sout6_A_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc x1 x2 x3).2.2.2.1)
theorem scover6_A_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.2.2.2.1, y ∈ pc.1.set :=
  View.cover_of_tiledL (kernelRun6_A c i arg1 harg1 arg2 harg2 arg3 harg3 arg4 harg4 arg5 harg5 arg6 harg6 arg7 harg7 arg8 harg8 hc x1 x2 x3).2.2.2.2.1 S1x128.size (by sl_kernel_rfl) y
def sout6_A_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc x1 x2 x3).2.2.2.2.1)
theorem cover6_B_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun6_B c i arg1 harg1 arg2 harg2 arg3 harg3 arg4 harg4 arg5 harg5 arg6 harg6 arg7 harg7 arg8 harg8 hc x1 x2 x3 xs7 xs8).1, y ∈ pc.1.set :=
  View.cover_of_tiledL (kernelRun6_B c i arg1 harg1 arg2 harg2 arg3 harg3 arg4 harg4 arg5 harg5 arg6 harg6 arg7 harg7 arg8 harg8 hc x1 x2 x3 xs7 xs8).1 S8000x128.size (by sl_kernel_rfl) y
def out6_B_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S8000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc x1 x2 x3 xs7 xs8).1)
theorem cover6_B_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.1 S1x128.size (by sl_kernel_rfl) y
def out6_B_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VO6_4.read (Elt F) (VO6_4.writes (Elt F) VO6_4.junk (kernelRun6_B c i arg1 harg1 arg2 harg2 arg3 harg3 arg4 harg4 arg5 harg5 arg6 harg6 arg7 harg7 arg8 harg8 hc x1 x2 x3 xs7 xs8).2.1)
theorem cover6_B_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.2.1 S1x128.size (by sl_kernel_rfl) y
def out6_B_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VO6_5.read (Elt F) (VO6_5.writes (Elt F) VO6_5.junk (kernelRun6_B c i arg1 harg1 arg2 harg2 arg3 harg3 arg4 harg4 arg5 harg5 arg6 harg6 arg7 harg7 arg8 harg8 hc x1 x2 x3 xs7 xs8).2.2.1)
theorem scover6_B_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.2.2.1 S1x128.size (by sl_kernel_rfl) y
def sout6_B_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc x1 x2 x3 xs7 xs8).2.2.2.1)
theorem scover6_B_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.2.2.2.1 S1x128.size (by sl_kernel_rfl) y
def sout6_B_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt6 (c : Dev nD) : (n : ℕ) → n < cfg6.N → Vec F S8000x128 .f32 × Vec F S1x128 .f32 × Vec F S1x128 .f32 × Vec F S1x128 .f32 × Vec F S1x128 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      out6_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩))
  | n + 1, hn => (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      out6_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2)

theorem outsAt6_A (c : Dev nD) (t : Fin cfg6.N) (h0 : t.val = 0) :
    outsAt6 V c t.val t.isLt = (out6_A_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t)) := by
  obtain ⟨n, hn⟩ := t
  cases n with
  | zero => rfl
  | succ n => exact absurd h0 (Nat.succ_ne_zero n)

theorem outsAt6_B (c : Dev nD) (t : Fin cfg6.N) (h0 : ¬t.val = 0) :
    outsAt6 V c t.val t.isLt = (out6_B_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- The region invariant before position `n`: before the first point the class's; afterwards the two kept rows at what the
    point before left in them, the other scoped buffers at anything, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2)) ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2)) ∗ Pipeline.scopedRestBut (Ix := Unit) (Name := ℕ) (U := UR sig nD τ) (Lvl := ℕ) (Val := Elt F) spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2)) ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4, after6_5]
  by_cases hz : t.val = 0
  · rw [outsAt6_A V c t hz]
    unfold out6_A_3 out6_A_4 out6_A_5 sout6_A_0 sout6_A_1; (try dsimp only)
    rw [PhiS6_castSucc V c t, PhiS6_zero V c _ _ hz, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ _ _ _ _ ((hcond6 t).mpr hz) (iblk6 V c 0 t) (iblk6 V c 1 t) (iblk6 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _)
          unfold owns; iexists _; isplitr
          swap; · iexact HS1
          ipureintro; exact View.read_writes_of_cover _ _ _ _ _ (scover6_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_3 c _ _ _ _ _ _ _ _ _ _ _ _ _ _ _ _ _ _ _ _ _)
    isplitl [H4]
    · unfold owns; iexists _; isplitr
      swap; · iexact H4
      ipureintro; exact View.read_writes_of_cover _ _ _ _ _ (cover6_A_4 c _ _ _ _ _ _ _ _ _ _ _ _ _ _ _ _ _ _ _ _ _)
    unfold owns; iexists _; isplitr
    swap; · iexact H5
    ipureintro; exact View.read_writes_of_cover _ _ _ _ _ (cover6_A_5 c _ _ _ _ _ _ _ _ _ _ _ _ _ _ _ _ _ _ _ _ _)
  · rw [outsAt6_B V c t hz]
    unfold out6_B_3 out6_B_4 out6_B_5 sout6_B_0 sout6_B_1; (try dsimp only)
    rw [PhiS6_castSucc V c t, PhiS6_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_B c (grid6.coords t) _ _ _ _ _ _ _ _ _ _ _ _ _ _ _ _ (fun h => hz ((hcond6 t).mp h)) (iblk6 V c 0 t) (iblk6 V c 1 t) (iblk6 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_B_0 c _ _ _ _ _ _ _ _ _ _ _ _ _ _ _ _ _ _ _ _ _ _ _)
          unfold owns; iexists _; isplitr
          swap; · iexact HS1
          ipureintro; exact View.read_writes_of_cover _ _ _ _ _ (scover6_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover6_B_4 c _ _ _ _ _ _ _ _ _ _ _ _ _ _ _ _ _ _ _ _ _ _ _)
    unfold owns; iexists _; isplitr
    swap; · iexact H5
    ipureintro; exact View.read_writes_of_cover _ _ _ _ _ (cover6_B_5 c _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the kept rows' named contents are forgotten. -/
theorem hout6 (c : Dev nD) : (dat6 V c).Φ (Fin.last cfg6.N) ⊢ (Pipeline.ΦA spec6 c : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq6 (c : Dev nD) (w : Fin cfg6.W) : (dat6 V c).q w = fullShare := rfl
theorem howed6 (c : Dev nD) (t : Fin (cfg6.N + 1)) : (dat6 V c).owed t = 0 := rfl

end Region6

end Cert.Kernel.Reg

end
-- ==== Proof.K.Reg7.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7: the second half of a GIN layer, `cc7__gin2_kernel` (pipeline 7), at the entry contents `V`.
    Per point, on one block of 8000 rows: batch-normalise the hidden block with the statistics of windows 1–2 and
    the affine pair of windows 3–4, rectify, multiply by the weight (window 5) and add the bias (window 6), then
    layer-normalise each row with the affine pair of windows 7–8 and rectify. Windows 1–8 have a constant block index:
    fetched at the first point only, resident after. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block
    index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block
    index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): unfetched, the block
    index has not moved. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): unfetched, the block
    index has not moved. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): unfetched, the block
    index has not moved. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is `V`'s (`hA`) and whose body leaves the block in place (`hafter`): unfetched, the block
    index has not moved. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof
    data whose array is `V`'s (`hA`) and whose body leaves the block in place (`hafter`): unfetched, the block
    index has not moved. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for any proof
    data whose array is `V`'s (`hA`) and whose body leaves the block in place (`hafter`): unfetched, the block
    index has not moved. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for any proof
    data whose array is `V`'s (`hA`) and whose body leaves the block in place (`hafter`): unfetched, the block
    index has not moved. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer is read and written whole -/

abbrev r7_0 : Rect S8000x128 := Rect.unit (s := S8000x128) ![0, 0] S8000x128.size inb_S8000x128_S8000x128_0_0
abbrev r7_1 : Rect S1x128 := Rect.unit (s := S1x128) ![0, 0] S1x128.size inb_S1x128_S1x128_0_0
abbrev r7_2 : Rect S128x64 := Rect.unit (s := S128x64) ![0, 0] S128x64.size inb_S128x64_S128x64_0_0
abbrev r7_3 : Rect S64 := Rect.unit (s := S64) ![0] S64.size inb_S64_S64_0
abbrev r7_4 : Rect S1x64 := Rect.unit (s := S1x64) ![0, 0] S1x64.size inb_S1x64_S1x64_0_0
abbrev r7_5 : Rect S8000x64 := Rect.unit (s := S8000x64) ![0, 0] S8000x64.size inb_S8000x64_S8000x64_0_0

/-! ## What the body leaves in the output window's buffer -/

/-- Window 9's staging buffer after the body, from the input windows' blocks: its one store as a piece. -/
def out7_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r7_5, k7_pay1 (k7_pay2 (View.ld x0 r7_0) (View.ld x2 r7_1) (View.ld x1 r7_1) (View.ld x3 r7_1) (View.ld x4 r7_1) (View.ld x5 r7_2) (View.ld x6 r7_3)) (k7_pay3 (View.ld x0 r7_0) (View.ld x2 r7_1) (View.ld x1 r7_1) (View.ld x3 r7_1) (View.ld x4 r7_1) (View.ld x5 r7_2) (View.ld x6 r7_3)) (View.ld x7 r7_4) (View.ld x8 r7_4)⟩]

/-- The store is of the whole buffer, so it covers it. -/
theorem cover7_9 (p0 : Vec F S8000x64 .f32) (y : S8000x64.Idx) :
    ∃ pc ∈ ([⟨r7_5, p0⟩] : List (View.Piece (Elt F) S8000x64 .f32)), y ∈ pc.1.set :=
  View.cover_of_tiled [⟨r7_5, p0⟩] S8000x64.size (by rfl) y

/-! ## The body's triple -/

set_option maxHeartbeats 1000000 in
/-- The kernel body on whole staging memrefs, the inputs' at read contents `xW` and the output's at anything, runs
    to the continuation holding the inputs' as they were and the output's at `out7_9` of the inputs'. -/
theorem sound_kernel7 (c : Dev nD) (E : Set ℕ) (i : grid7.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out7_9 x0 x1 x2 x3 x4 x5 x6 x7 x8)) -∗ K ⟨⟩))
      ⊢ wp frame (wpE (defs₀ (F := F)) Variants.none c none) E (cc7__gin2_kernel i arg1 harg1 arg2 harg2 arg3 harg3 arg4 harg4 arg5 harg5 arg6 harg6 arg7 harg7 arg8 harg8 arg9 harg9 arg10 harg10) K := by
  simp only [cc7__gin2_kernel_eq_skeleton]; unfold cc7__gin2_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover7_9 _)

/-! ## The pipeline's proof data -/

/-- The proof data of pipeline 7 on core `c`: the arrays as the region finds them (`V`); after the body at
    point `t` each input's buffer at its block and the output's at `out7_9` of the input blocks; the invariant
    leaves the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

/-- The body at any point: the inputs' memrefs hold their blocks (`before7_w`), so `sound_kernel7` applies;
    the invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg
-- ==== Proof.K.Reg8.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the message kernel `cc8__message_kernel` (pipeline 8), at the entry contents `V`.
    Per point, on one 8000×64 block of edges: out = max(h_row + ea, 0). -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block
    index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): unfetched, the block
    index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read and written whole -/

abbrev r8_0 : Rect S8000x64 := Rect.unit (s := S8000x64) ![0, 0] S8000x64.size inb_S8000x64_S8000x64_0_0

/-! ## What the body leaves in the output window's buffer -/

/-- Window 2's staging buffer after the body, from the input windows' blocks: its one store as a piece. -/
def out8_2 (x0 : Vec F S8000x64 .f32) (x1 : Vec F S8000x64 .f32) : Vec F S8000x64 .f32 :=
  View.canon [⟨r8_0, k8_pay1 (View.ld x0 r8_0) (View.ld x1 r8_0)⟩]

/-- The store is of the whole buffer, so it covers it. -/
theorem cover8_2 (p0 : Vec F S8000x64 .f32) (y : S8000x64.Idx) :
    ∃ pc ∈ ([⟨r8_0, p0⟩] : List (View.Piece (Elt F) S8000x64 .f32)), y ∈ pc.1.set :=
  View.cover_of_tiled [⟨r8_0, p0⟩] S8000x64.size (by rfl) y

/-! ## The body's triple -/

set_option maxHeartbeats 1000000 in
/-- The kernel body on whole staging memrefs, the inputs' at read contents `xW` and the output's at anything, runs
    to the continuation holding the inputs' as they were and the output's at `out8_2` of the inputs'. -/
theorem sound_kernel8 (c : Dev nD) (E : Set ℕ) (i : grid8.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__message_kernel i arg1 harg1 arg2 harg2 arg3 harg3) K := by
  simp only [cc8__message_kernel_eq_skeleton]; unfold cc8__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover8_2 _)

/-! ## The pipeline's proof data -/

/-- The proof data of pipeline 8 on core `c`: the arrays as the region finds them (`V`); after the body at
    point `t` each input's buffer at its block and the output's at `out8_2` of the input blocks; the invariant
    leaves the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks (`before8_w`), so `sound_kernel8` applies;
    the invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Reg
-- ==== Proof.K.Reg9.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: on a block of 8000 rows, Z = zin·W1 + b1, and the column sums of Z and of Z·Z added into two rows the
    kernel keeps from one block to the next (set to zero at the first block); the two rows are also copied out. -/

section Region9
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not (the weight and the bias are
    fetched once: their block index never moves). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The branch condition of the body's one conditional, from the grid coordinates. -/
abbrev cond9 (i : grid9.Coords) : Prop := (Scalar.cmpi .ne (Scalar.extui (Scalar.cmpi .eq (BitVec.ofNat 32 (i 0).val) 0#32)) 0#32) = 1#1
/-- It holds at the first point only. -/
theorem hcond9 : ∀ t : Fin cfg9.N, cond9 (grid9.coords t) ↔ t.val = 0 :=
  (by decide +kernel : ∀ t : Fin grid9.N, cond9 (grid9.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun9_A (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc9__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc9__gin1_kernel_eq_skeleton]; unfold cc9__gin1_kernel_skel
    simp only [k9_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun9_B (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc9__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc9__gin1_kernel_eq_skeleton]; unfold cc9__gin1_kernel_skel
    simp only [k9_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms9_0 (t : Fin cfg9.N) : Memref sig .tc .vmem S8000x64 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S64x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S8000x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1x128 .f32 := win9_5.stage (cfg9.slots t 5)
abbrev hs9_5 (t : Fin cfg9.N) : (ms9_5 t).IsWhole := hstage9_5 ((cfg9.slots t 5).cast nbuf9_5)
abbrev VO9_3 : View sig .tc .vmem S8000x128 .f32 := (Memref.whole cc9_stg3_0 : Memref sig .tc .vmem S8000x128 .f32).view
abbrev VO9_4 : View sig .tc .vmem S1x128 .f32 := (Memref.whole cc9_stg4_0 : Memref sig .tc .vmem S1x128 .f32).view
abbrev VO9_5 : View sig .tc .vmem S1x128 .f32 := (Memref.whole cc9_stg5_0 : Memref sig .tc .vmem S1x128 .f32).view
/-- The two rows the kernel keeps between grid points: whole scoped buffers of its own. -/
abbrev scM9_0 : Memref sig .tc .vmem S1x128 .f32 := Memref.whole cc9_scratch0
abbrev scM9_1 : Memref sig .tc .vmem S1x128 .f32 := Memref.whole cc9_scratch1
abbrev VS9_0 : View sig .tc .vmem S1x128 .f32 := scM9_0.view
abbrev VS9_1 : View sig .tc .vmem S1x128 .f32 := scM9_1.view

/-! ## What each case leaves: the found stores cover each buffer, so what it reads afterwards is theirs alone -/
theorem cover9_A_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S8000x128.Idx) :
    ∃ pc ∈ (kernelRun9_A c i arg1 harg1 arg2 harg2 arg3 harg3 arg4 harg4 arg5 harg5 arg6 harg6 arg7 harg7 arg8 harg8 hc x1 x2 x3).1, y ∈ pc.1.set :=
  View.cover_of_tiledL (kernelRun9_A c i arg1 harg1 arg2 harg2 arg3 harg3 arg4 harg4 arg5 harg5 arg6 harg6 arg7 harg7 arg8 harg8 hc x1 x2 x3).1 S8000x128.size (by sl_kernel_rfl) y
def out9_A_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S8000x128 .f32 :=
  VO9_3.read (Elt F) (VO9_3.writes (Elt F) VO9_3.junk (kernelRun9_A c i arg1 harg1 arg2 harg2 arg3 harg3 arg4 harg4 arg5 harg5 arg6 harg6 arg7 harg7 arg8 harg8 hc x1 x2 x3).1)
theorem cover9_A_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.1, y ∈ pc.1.set :=
  View.cover_of_tiledL (kernelRun9_A c i arg1 harg1 arg2 harg2 arg3 harg3 arg4 harg4 arg5 harg5 arg6 harg6 arg7 harg7 arg8 harg8 hc x1 x2 x3).2.1 S1x128.size (by sl_kernel_rfl) y
def out9_A_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VO9_4.read (Elt F) (VO9_4.writes (Elt F) VO9_4.junk (kernelRun9_A c i arg1 harg1 arg2 harg2 arg3 harg3 arg4 harg4 arg5 harg5 arg6 harg6 arg7 harg7 arg8 harg8 hc x1 x2 x3).2.1)
theorem cover9_A_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.2.1, y ∈ pc.1.set :=
  View.cover_of_tiledL (kernelRun9_A c i arg1 harg1 arg2 harg2 arg3 harg3 arg4 harg4 arg5 harg5 arg6 harg6 arg7 harg7 arg8 harg8 hc x1 x2 x3).2.2.1 S1x128.size (by sl_kernel_rfl) y
def out9_A_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VO9_5.read (Elt F) (VO9_5.writes (Elt F) VO9_5.junk (kernelRun9_A c i arg1 harg1 arg2 harg2 arg3 harg3 arg4 harg4 arg5 harg5 arg6 harg6 arg7 harg7 arg8 harg8 hc x1 x2 x3).2.2.1)
theorem scover9_A_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.2.2.1, y ∈ pc.1.set :=
  View.cover_of_tiledL (kernelRun9_A c i arg1 harg1 arg2 harg2 arg3 harg3 arg4 harg4 arg5 harg5 arg6 harg6 arg7 harg7 arg8 harg8 hc x1 x2 x3).2.2.2.1 S1x128.size (by sl_kernel_rfl) y
def sout9_A_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VS9_0.read (Elt F) (VS9_0.writes (Elt F) VS9_0.junk (kernelRun9_A c i arg1 harg1 arg2 harg2 arg3 harg3 arg4 harg4 arg5 harg5 arg6 harg6 arg7 harg7 arg8 harg8 hc x1 x2 x3).2.2.2.1)
theorem scover9_A_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.2.2.2.1, y ∈ pc.1.set :=
  View.cover_of_tiledL (kernelRun9_A c i arg1 harg1 arg2 harg2 arg3 harg3 arg4 harg4 arg5 harg5 arg6 harg6 arg7 harg7 arg8 harg8 hc x1 x2 x3).2.2.2.2.1 S1x128.size (by sl_kernel_rfl) y
def sout9_A_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VS9_1.read (Elt F) (VS9_1.writes (Elt F) VS9_1.junk (kernelRun9_A c i arg1 harg1 arg2 harg2 arg3 harg3 arg4 harg4 arg5 harg5 arg6 harg6 arg7 harg7 arg8 harg8 hc x1 x2 x3).2.2.2.2.1)
theorem cover9_B_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun9_B c i arg1 harg1 arg2 harg2 arg3 harg3 arg4 harg4 arg5 harg5 arg6 harg6 arg7 harg7 arg8 harg8 hc x1 x2 x3 xs7 xs8).1, y ∈ pc.1.set :=
  View.cover_of_tiledL (kernelRun9_B c i arg1 harg1 arg2 harg2 arg3 harg3 arg4 harg4 arg5 harg5 arg6 harg6 arg7 harg7 arg8 harg8 hc x1 x2 x3 xs7 xs8).1 S8000x128.size (by sl_kernel_rfl) y
def out9_B_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S8000x128 .f32 :=
  VO9_3.read (Elt F) (VO9_3.writes (Elt F) VO9_3.junk (kernelRun9_B c i arg1 harg1 arg2 harg2 arg3 harg3 arg4 harg4 arg5 harg5 arg6 harg6 arg7 harg7 arg8 harg8 hc x1 x2 x3 xs7 xs8).1)
theorem cover9_B_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.1 S1x128.size (by sl_kernel_rfl) y
def out9_B_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VO9_4.read (Elt F) (VO9_4.writes (Elt F) VO9_4.junk (kernelRun9_B c i arg1 harg1 arg2 harg2 arg3 harg3 arg4 harg4 arg5 harg5 arg6 harg6 arg7 harg7 arg8 harg8 hc x1 x2 x3 xs7 xs8).2.1)
theorem cover9_B_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.2.1 S1x128.size (by sl_kernel_rfl) y
def out9_B_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VO9_5.read (Elt F) (VO9_5.writes (Elt F) VO9_5.junk (kernelRun9_B c i arg1 harg1 arg2 harg2 arg3 harg3 arg4 harg4 arg5 harg5 arg6 harg6 arg7 harg7 arg8 harg8 hc x1 x2 x3 xs7 xs8).2.2.1)
theorem scover9_B_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.2.2.1 S1x128.size (by sl_kernel_rfl) y
def sout9_B_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VS9_0.read (Elt F) (VS9_0.writes (Elt F) VS9_0.junk (kernelRun9_B c i arg1 harg1 arg2 harg2 arg3 harg3 arg4 harg4 arg5 harg5 arg6 harg6 arg7 harg7 arg8 harg8 hc x1 x2 x3 xs7 xs8).2.2.2.1)
theorem scover9_B_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.2.2.2.1 S1x128.size (by sl_kernel_rfl) y
def sout9_B_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VS9_1.read (Elt F) (VS9_1.writes (Elt F) VS9_1.junk (kernelRun9_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt9 (c : Dev nD) : (n : ℕ) → n < cfg9.N → Vec F S8000x128 .f32 × Vec F S1x128 .f32 × Vec F S1x128 .f32 × Vec F S1x128 .f32 × Vec F S1x128 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      out9_A_4 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      out9_A_5 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      sout9_A_1 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩))
  | n + 1, hn => (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      out9_B_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      out9_B_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      sout9_B_1 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2)

theorem outsAt9_A (c : Dev nD) (t : Fin cfg9.N) (h0 : t.val = 0) :
    outsAt9 V c t.val t.isLt = (out9_A_3 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      out9_A_4 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      out9_A_5 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      sout9_A_0 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      sout9_A_1 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t)) := by
  obtain ⟨n, hn⟩ := t
  cases n with
  | zero => rfl
  | succ n => exact absurd h0 (Nat.succ_ne_zero n)

theorem outsAt9_B (c : Dev nD) (t : Fin cfg9.N) (h0 : ¬t.val = 0) :
    outsAt9 V c t.val t.isLt = (out9_B_3 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      out9_B_4 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      out9_B_5 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      sout9_B_0 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      sout9_B_1 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

/-- The region invariant before position `n`: before the first point the class's; afterwards the two kept rows at what the
    point before left in them, the other scoped buffers at anything, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.2.2.1) ∗ owns (c : Thread nD τ) scM9_1 fullShare ((outsAt9 V c n hn).2.2.2.2)) ∗ Pipeline.scopedRestBut (Ix := Unit) (Name := ℕ) (U := UR sig nD τ) (Lvl := ℕ) (Val := Elt F) spec9 c [cc9_scratch0, cc9_scratch1]) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(iprop(owns (c : Thread nD τ) scM9_0 fullShare ((outsAt9 V c n hn).2.2.2.1) ∗ owns (c : Thread nD τ) scM9_1 fullShare ((outsAt9 V c n hn).2.2.2.2)) ∗ Pipeline.scopedRestBut (Ix := Unit) (Name := ℕ) (U := UR sig nD τ) (Lvl := ℕ) (Val := Elt F) spec9 c [cc9_scratch0, cc9_scratch1]) ∗ (∃ r, prngReg c r)) := rfl
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.2.2.1) ∗ owns (c : Thread nD τ) scM9_1 fullShare ((outsAt9 V c (n - 1) (by omega)).2.2.2.2)) ∗ Pipeline.scopedRestBut (Ix := Unit) (Name := ℕ) (U := UR sig nD τ) (Lvl := ℕ) (Val := Elt F) spec9 c [cc9_scratch0, cc9_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
    | ⟨5, _⟩ => (outsAt9 V c t.val t.isLt).2.2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]
theorem after9_5 (c : Dev nD) (t : Fin cfg9.N) : (dat9 V c).after 5 t = (outsAt9 V c t.val t.isLt).2.2.1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t)
    ∗ owns (c : Thread nD τ) (ms9_3 t) fullShare ((dat9 V c).after 3 t)
    ∗ owns (c : Thread nD τ) (ms9_4 t) fullShare ((dat9 V c).after 4 t)
    ∗ owns (c : Thread nD τ) (ms9_5 t) fullShare ((dat9 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [after9_0, after9_1, after9_2, after9_3, after9_4, after9_5]
  by_cases hz : t.val = 0
  · rw [outsAt9_A V c t hz]
    unfold out9_A_3 out9_A_4 out9_A_5 sout9_A_0 sout9_A_1; (try dsimp only)
    rw [PhiS9_castSucc V c t, PhiS9_zero V c _ _ hz, PhiA9_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun9_A c (grid9.coords t) _ _ _ _ _ _ _ _ _ _ _ _ _ _ _ _ ((hcond9 t).mpr hz) (iblk9 V c 0 t) (iblk9 V c 1 t) (iblk9 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover9_A_0 c _ _ _ _ _ _ _ _ _ _ _ _ _ _ _ _ _ _ _ _ _)
          unfold owns; iexists _; isplitr
          swap; · iexact HS1
          ipureintro; exact View.read_writes_of_cover _ _ _ _ _ (scover9_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_A_3 c _ _ _ _ _ _ _ _ _ _ _ _ _ _ _ _ _ _ _ _ _)
    isplitl [H4]
    · unfold owns; iexists _; isplitr
      swap; · iexact H4
      ipureintro; exact View.read_writes_of_cover _ _ _ _ _ (cover9_A_4 c _ _ _ _ _ _ _ _ _ _ _ _ _ _ _ _ _ _ _ _ _)
    unfold owns; iexists _; isplitr
    swap; · iexact H5
    ipureintro; exact View.read_writes_of_cover _ _ _ _ _ (cover9_A_5 c _ _ _ _ _ _ _ _ _ _ _ _ _ _ _ _ _ _ _ _ _)
  · rw [outsAt9_B V c t hz]
    unfold out9_B_3 out9_B_4 out9_B_5 sout9_B_0 sout9_B_1; (try dsimp only)
    rw [PhiS9_castSucc V c t, PhiS9_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun9_B c (grid9.coords t) _ _ _ _ _ _ _ _ _ _ _ _ _ _ _ _ (fun h => hz ((hcond9 t).mp h)) (iblk9 V c 0 t) (iblk9 V c 1 t) (iblk9 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover9_B_0 c _ _ _ _ _ _ _ _ _ _ _ _ _ _ _ _ _ _ _ _ _ _ _)
          unfold owns; iexists _; isplitr
          swap; · iexact HS1
          ipureintro; exact View.read_writes_of_cover _ _ _ _ _ (scover9_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover9_B_4 c _ _ _ _ _ _ _ _ _ _ _ _ _ _ _ _ _ _ _ _ _ _ _)
    unfold owns; iexists _; isplitr
    swap; · iexact H5
    ipureintro; exact View.read_writes_of_cover _ _ _ _ _ (cover9_B_5 c _ _ _ _ _ _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class's back: the kept rows' named contents are forgotten. -/
theorem hout9 (c : Dev nD) : (dat9 V c).Φ (Fin.last cfg9.N) ⊢ (Pipeline.ΦA spec9 c : sProp 𝕄) := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 10 := N_9; omega), PhiA9_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq9 (c : Dev nD) (w : Fin cfg9.W) : (dat9 V c).q w = fullShare := rfl
theorem howed9 (c : Dev nD) (t : Fin (cfg9.N + 1)) : (dat9 V c).owed t = 0 := rfl

end Region9

end Cert.Kernel.Reg

end
-- ==== Proof.K.Reg10.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the second half of a GIN layer, `cc10__gin2_kernel` (pipeline 10), at the entry contents `V`.
    Per point, on one block of 8000 rows: batch-normalise the hidden block with the statistics of windows 1–2 and
    the affine pair of windows 3–4, rectify, multiply by the weight (window 5) and add the bias (window 6), then
    layer-normalise each row with the affine pair of windows 7–8 and rectify. Windows 1–8 have a constant block index:
    fetched at the first point only, resident after. -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block
    index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): unfetched, the block
    index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): unfetched, the block
    index has not moved. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): unfetched, the block
    index has not moved. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): unfetched, the block
    index has not moved. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): unfetched, the block
    index has not moved. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s (`hA`) and whose body leaves the block in place (`hafter`): unfetched, the block
    index has not moved. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- Input window 7's current staging buffer holds its block at every point, fetched there or not, for any proof
    data whose array is `V`'s (`hA`) and whose body leaves the block in place (`hafter`): unfetched, the block
    index has not moved. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- Input window 8's current staging buffer holds its block at every point, fetched there or not, for any proof
    data whose array is `V`'s (`hA`) and whose body leaves the block in place (`hafter`): unfetched, the block
    index has not moved. -/
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer is read and written whole -/

abbrev r10_0 : Rect S8000x128 := Rect.unit (s := S8000x128) ![0, 0] S8000x128.size inb_S8000x128_S8000x128_0_0
abbrev r10_1 : Rect S1x128 := Rect.unit (s := S1x128) ![0, 0] S1x128.size inb_S1x128_S1x128_0_0
abbrev r10_2 : Rect S128x64 := Rect.unit (s := S128x64) ![0, 0] S128x64.size inb_S128x64_S128x64_0_0
abbrev r10_3 : Rect S64 := Rect.unit (s := S64) ![0] S64.size inb_S64_S64_0
abbrev r10_4 : Rect S1x64 := Rect.unit (s := S1x64) ![0, 0] S1x64.size inb_S1x64_S1x64_0_0
abbrev r10_5 : Rect S8000x64 := Rect.unit (s := S8000x64) ![0, 0] S8000x64.size inb_S8000x64_S8000x64_0_0

/-! ## What the body leaves in the output window's buffer -/

/-- Window 9's staging buffer after the body, from the input windows' blocks: its one store as a piece. -/
def out10_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r10_5, k10_pay1 (k10_pay2 (View.ld x0 r10_0) (View.ld x2 r10_1) (View.ld x1 r10_1) (View.ld x3 r10_1) (View.ld x4 r10_1) (View.ld x5 r10_2) (View.ld x6 r10_3)) (k10_pay3 (View.ld x0 r10_0) (View.ld x2 r10_1) (View.ld x1 r10_1) (View.ld x3 r10_1) (View.ld x4 r10_1) (View.ld x5 r10_2) (View.ld x6 r10_3)) (View.ld x7 r10_4) (View.ld x8 r10_4)⟩]

/-- The store is of the whole buffer, so it covers it. -/
theorem cover10_9 (p0 : Vec F S8000x64 .f32) (y : S8000x64.Idx) :
    ∃ pc ∈ ([⟨r10_5, p0⟩] : List (View.Piece (Elt F) S8000x64 .f32)), y ∈ pc.1.set :=
  View.cover_of_tiled [⟨r10_5, p0⟩] S8000x64.size (by rfl) y

/-! ## The body's triple -/

set_option maxHeartbeats 1000000 in
/-- The kernel body on whole staging memrefs, the inputs' at read contents `xW` and the output's at anything, runs
    to the continuation holding the inputs' as they were and the output's at `out10_9` of the inputs'. -/
theorem sound_kernel10 (c : Dev nD) (E : Set ℕ) (i : grid10.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out10_9 x0 x1 x2 x3 x4 x5 x6 x7 x8)) -∗ K ⟨⟩))
      ⊢ wp frame (wpE (defs₀ (F := F)) Variants.none c none) E (cc10__gin2_kernel i arg1 harg1 arg2 harg2 arg3 harg3 arg4 harg4 arg5 harg5 arg6 harg6 arg7 harg7 arg8 harg8 arg9 harg9 arg10 harg10) K := by
  simp only [cc10__gin2_kernel_eq_skeleton]; unfold cc10__gin2_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover10_9 _)

/-! ## The pipeline's proof data -/

/-- The proof data of pipeline 10 on core `c`: the arrays as the region finds them (`V`); after the body at
    point `t` each input's buffer at its block and the output's at `out10_9` of the input blocks; the invariant
    leaves the scoped rest and the generator register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t) (iblk10 V c 7 t) (iblk10 V c 8 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) (iblk10 V c 7 t) (iblk10 V c 8 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

/-- The body at any point: the inputs' memrefs hold their blocks (`before10_w`), so `sound_kernel10` applies;
    the invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ (grid10.coords t) _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Reg
-- ==== Proof.K.Reg11.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11: the message kernel `cc11__message_kernel` (pipeline 11), at the entry contents `V`.
    Per point, on one 8000×64 block of edges: out = max(h_row + ea, 0). -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): unfetched, the block
    index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer is read and written whole -/

abbrev r11_0 : Rect S8000x64 := Rect.unit (s := S8000x64) ![0, 0] S8000x64.size inb_S8000x64_S8000x64_0_0

/-! ## What the body leaves in the output window's buffer -/

/-- Window 2's staging buffer after the body, from the input windows' blocks: its one store as a piece. -/
def out11_2 (x0 : Vec F S8000x64 .f32) (x1 : Vec F S8000x64 .f32) : Vec F S8000x64 .f32 :=
  View.canon [⟨r11_0, k11_pay1 (View.ld x0 r11_0) (View.ld x1 r11_0)⟩]

/-- The store is of the whole buffer, so it covers it. -/
theorem cover11_2 (p0 : Vec F S8000x64 .f32) (y : S8000x64.Idx) :
    ∃ pc ∈ ([⟨r11_0, p0⟩] : List (View.Piece (Elt F) S8000x64 .f32)), y ∈ pc.1.set :=
  View.cover_of_tiled [⟨r11_0, p0⟩] S8000x64.size (by rfl) y

/-! ## The body's triple -/

set_option maxHeartbeats 1000000 in
/-- The kernel body on whole staging memrefs, the inputs' at read contents `xW` and the output's at anything, runs
    to the continuation holding the inputs' as they were and the output's at `out11_2` of the inputs'. -/
theorem sound_kernel11 (c : Dev nD) (E : Set ℕ) (i : grid11.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__message_kernel i arg1 harg1 arg2 harg2 arg3 harg3) K := by
  simp only [cc11__message_kernel_eq_skeleton]; unfold cc11__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover11_2 _)

/-! ## The pipeline's proof data -/

/-- The proof data of pipeline 11 on core `c`: the arrays as the region finds them (`V`); after the body at
    point `t` each input's buffer at its block and the output's at `out11_2` of the input blocks; the invariant
    leaves the scoped rest and the generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks (`before11_w`), so `sound_kernel11` applies;
    the invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ (grid11.coords t) _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Reg
-- ==== Proof.K.Reg12.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 12: on a block of 8000 rows, Z = zin·W1 + b1, and the column sums of Z and of Z·Z added into two rows the
    kernel keeps from one block to the next (set to zero at the first block); the two rows are also copied out. -/

section Region12
variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's staging buffer holds its block at every point, fetched there or not (the weight and the bias are
    fetched once: their block index never moves). -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The branch condition of the body's one conditional, from the grid coordinates. -/
abbrev cond12 (i : grid12.Coords) : Prop := (Scalar.cmpi .ne (Scalar.extui (Scalar.cmpi .eq (BitVec.ofNat 32 (i 0).val) 0#32)) 0#32) = 1#1
/-- It holds at the first point only. -/
theorem hcond12 : ∀ t : Fin cfg12.N, cond12 (grid12.coords t) ↔ t.val = 0 :=
  (by decide +kernel : ∀ t : Fin grid12.N, cond12 (grid12.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun12_A (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc12__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc12__gin1_kernel_eq_skeleton]; unfold cc12__gin1_kernel_skel
    simp only [k12_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun12_B (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc12__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc12__gin1_kernel_eq_skeleton]; unfold cc12__gin1_kernel_skel
    simp only [k12_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms12_0 (t : Fin cfg12.N) : Memref sig .tc .vmem S8000x64 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S64x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S8000x128 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S1x128 .f32 := win12_4.stage (cfg12.slots t 4)
abbrev hs12_4 (t : Fin cfg12.N) : (ms12_4 t).IsWhole := hstage12_4 ((cfg12.slots t 4).cast nbuf12_4)
abbrev ms12_5 (t : Fin cfg12.N) : Memref sig .tc .vmem S1x128 .f32 := win12_5.stage (cfg12.slots t 5)
abbrev hs12_5 (t : Fin cfg12.N) : (ms12_5 t).IsWhole := hstage12_5 ((cfg12.slots t 5).cast nbuf12_5)
abbrev VO12_3 : View sig .tc .vmem S8000x128 .f32 := (Memref.whole cc12_stg3_0 : Memref sig .tc .vmem S8000x128 .f32).view
abbrev VO12_4 : View sig .tc .vmem S1x128 .f32 := (Memref.whole cc12_stg4_0 : Memref sig .tc .vmem S1x128 .f32).view
abbrev VO12_5 : View sig .tc .vmem S1x128 .f32 := (Memref.whole cc12_stg5_0 : Memref sig .tc .vmem S1x128 .f32).view
/-- The two rows the kernel keeps between grid points: whole scoped buffers of its own. -/
abbrev scM12_0 : Memref sig .tc .vmem S1x128 .f32 := Memref.whole cc12_scratch0
abbrev scM12_1 : Memref sig .tc .vmem S1x128 .f32 := Memref.whole cc12_scratch1
abbrev VS12_0 : View sig .tc .vmem S1x128 .f32 := scM12_0.view
abbrev VS12_1 : View sig .tc .vmem S1x128 .f32 := scM12_1.view

/-! ## What each case leaves: the found stores cover each buffer, so what it reads afterwards is theirs alone -/
theorem cover12_A_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S8000x128.Idx) :
    ∃ pc ∈ (kernelRun12_A c i arg1 harg1 arg2 harg2 arg3 harg3 arg4 harg4 arg5 harg5 arg6 harg6 arg7 harg7 arg8 harg8 hc x1 x2 x3).1, y ∈ pc.1.set :=
  View.cover_of_tiledL (kernelRun12_A c i arg1 harg1 arg2 harg2 arg3 harg3 arg4 harg4 arg5 harg5 arg6 harg6 arg7 harg7 arg8 harg8 hc x1 x2 x3).1 S8000x128.size (by sl_kernel_rfl) y
def out12_A_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S8000x128 .f32 :=
  VO12_3.read (Elt F) (VO12_3.writes (Elt F) VO12_3.junk (kernelRun12_A c i arg1 harg1 arg2 harg2 arg3 harg3 arg4 harg4 arg5 harg5 arg6 harg6 arg7 harg7 arg8 harg8 hc x1 x2 x3).1)
theorem cover12_A_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.1, y ∈ pc.1.set :=
  View.cover_of_tiledL (kernelRun12_A c i arg1 harg1 arg2 harg2 arg3 harg3 arg4 harg4 arg5 harg5 arg6 harg6 arg7 harg7 arg8 harg8 hc x1 x2 x3).2.1 S1x128.size (by sl_kernel_rfl) y
def out12_A_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VO12_4.read (Elt F) (VO12_4.writes (Elt F) VO12_4.junk (kernelRun12_A c i arg1 harg1 arg2 harg2 arg3 harg3 arg4 harg4 arg5 harg5 arg6 harg6 arg7 harg7 arg8 harg8 hc x1 x2 x3).2.1)
theorem cover12_A_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.2.1, y ∈ pc.1.set :=
  View.cover_of_tiledL (kernelRun12_A c i arg1 harg1 arg2 harg2 arg3 harg3 arg4 harg4 arg5 harg5 arg6 harg6 arg7 harg7 arg8 harg8 hc x1 x2 x3).2.2.1 S1x128.size (by sl_kernel_rfl) y
def out12_A_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VO12_5.read (Elt F) (VO12_5.writes (Elt F) VO12_5.junk (kernelRun12_A c i arg1 harg1 arg2 harg2 arg3 harg3 arg4 harg4 arg5 harg5 arg6 harg6 arg7 harg7 arg8 harg8 hc x1 x2 x3).2.2.1)
theorem scover12_A_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.2.2.1, y ∈ pc.1.set :=
  View.cover_of_tiledL (kernelRun12_A c i arg1 harg1 arg2 harg2 arg3 harg3 arg4 harg4 arg5 harg5 arg6 harg6 arg7 harg7 arg8 harg8 hc x1 x2 x3).2.2.2.1 S1x128.size (by sl_kernel_rfl) y
def sout12_A_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VS12_0.read (Elt F) (VS12_0.writes (Elt F) VS12_0.junk (kernelRun12_A c i arg1 harg1 arg2 harg2 arg3 harg3 arg4 harg4 arg5 harg5 arg6 harg6 arg7 harg7 arg8 harg8 hc x1 x2 x3).2.2.2.1)
theorem scover12_A_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.2.2.2.1, y ∈ pc.1.set :=
  View.cover_of_tiledL (kernelRun12_A c i arg1 harg1 arg2 harg2 arg3 harg3 arg4 harg4 arg5 harg5 arg6 harg6 arg7 harg7 arg8 harg8 hc x1 x2 x3).2.2.2.2.1 S1x128.size (by sl_kernel_rfl) y
def sout12_A_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VS12_1.read (Elt F) (VS12_1.writes (Elt F) VS12_1.junk (kernelRun12_A c i arg1 harg1 arg2 harg2 arg3 harg3 arg4 harg4 arg5 harg5 arg6 harg6 arg7 harg7 arg8 harg8 hc x1 x2 x3).2.2.2.2.1)
theorem cover12_B_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun12_B c i arg1 harg1 arg2 harg2 arg3 harg3 arg4 harg4 arg5 harg5 arg6 harg6 arg7 harg7 arg8 harg8 hc x1 x2 x3 xs7 xs8).1, y ∈ pc.1.set :=
  View.cover_of_tiledL (kernelRun12_B c i arg1 harg1 arg2 harg2 arg3 harg3 arg4 harg4 arg5 harg5 arg6 harg6 arg7 harg7 arg8 harg8 hc x1 x2 x3 xs7 xs8).1 S8000x128.size (by sl_kernel_rfl) y
def out12_B_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S8000x128 .f32 :=
  VO12_3.read (Elt F) (VO12_3.writes (Elt F) VO12_3.junk (kernelRun12_B c i arg1 harg1 arg2 harg2 arg3 harg3 arg4 harg4 arg5 harg5 arg6 harg6 arg7 harg7 arg8 harg8 hc x1 x2 x3 xs7 xs8).1)
theorem cover12_B_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.1 S1x128.size (by sl_kernel_rfl) y
def out12_B_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VO12_4.read (Elt F) (VO12_4.writes (Elt F) VO12_4.junk (kernelRun12_B c i arg1 harg1 arg2 harg2 arg3 harg3 arg4 harg4 arg5 harg5 arg6 harg6 arg7 harg7 arg8 harg8 hc x1 x2 x3 xs7 xs8).2.1)
theorem cover12_B_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.2.1 S1x128.size (by sl_kernel_rfl) y
def out12_B_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VO12_5.read (Elt F) (VO12_5.writes (Elt F) VO12_5.junk (kernelRun12_B c i arg1 harg1 arg2 harg2 arg3 harg3 arg4 harg4 arg5 harg5 arg6 harg6 arg7 harg7 arg8 harg8 hc x1 x2 x3 xs7 xs8).2.2.1)
theorem scover12_B_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.2.2.1 S1x128.size (by sl_kernel_rfl) y
def sout12_B_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VS12_0.read (Elt F) (VS12_0.writes (Elt F) VS12_0.junk (kernelRun12_B c i arg1 harg1 arg2 harg2 arg3 harg3 arg4 harg4 arg5 harg5 arg6 harg6 arg7 harg7 arg8 harg8 hc x1 x2 x3 xs7 xs8).2.2.2.1)
theorem scover12_B_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.2.2.2.1 S1x128.size (by sl_kernel_rfl) y
def sout12_B_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VS12_1.read (Elt F) (VS12_1.writes (Elt F) VS12_1.junk (kernelRun12_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt12 (c : Dev nD) : (n : ℕ) → n < cfg12.N → Vec F S8000x128 .f32 × Vec F S1x128 .f32 × Vec F S1x128 .f32 × Vec F S1x128 .f32 × Vec F S1x128 .f32
  | 0, hn => (out12_A_3 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      out12_A_4 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      out12_A_5 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      sout12_A_1 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩))
  | n + 1, hn => (out12_B_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      out12_B_4 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      out12_B_5 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      sout12_B_1 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2)

theorem outsAt12_A (c : Dev nD) (t : Fin cfg12.N) (h0 : t.val = 0) :
    outsAt12 V c t.val t.isLt = (out12_A_3 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      out12_A_4 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      out12_A_5 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      sout12_A_0 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      sout12_A_1 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t)) := by
  obtain ⟨n, hn⟩ := t
  cases n with
  | zero => rfl
  | succ n => exact absurd h0 (Nat.succ_ne_zero n)

theorem outsAt12_B (c : Dev nD) (t : Fin cfg12.N) (h0 : ¬t.val = 0) :
    outsAt12 V c t.val t.isLt = (out12_B_3 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      out12_B_4 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      out12_B_5 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      sout12_B_0 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      sout12_B_1 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA12_eq (c : Dev nD) :
    (Pipeline.ΦA spec12 c : sProp 𝕄)
      = iprop(iprop(iprop((∃ d, owns (c : Thread nD τ) scM12_0 fullShare d) ∗ (∃ d, owns (c : Thread nD τ) scM12_1 fullShare d)) ∗ Pipeline.scopedRestBut (Ix := Unit) (Name := ℕ) (U := UR sig nD τ) (Lvl := ℕ) (Val := Elt F) spec12 c [cc12_scratch0, cc12_scratch1]) ∗ (∃ r, prngReg c r)) := by
  unfold Pipeline.ΦA; rw [scopedRest12_split]; simp only [scM12_0, scM12_1, owns_whole]; try rfl

/-- The region invariant before position `n`: before the first point the class's; afterwards the two kept rows at what the
    point before left in them, the other scoped buffers at anything, the generator register at some state. -/
def PhiS12 (c : Dev nD) : (n : ℕ) → n ≤ cfg12.N → sProp 𝕄
  | 0, _ => Pipeline.ΦA spec12 c
  | n + 1, hn => iprop(iprop(iprop(owns (c : Thread nD τ) scM12_0 fullShare ((outsAt12 V c n hn).2.2.2.1) ∗ owns (c : Thread nD τ) scM12_1 fullShare ((outsAt12 V c n hn).2.2.2.2)) ∗ Pipeline.scopedRestBut (Ix := Unit) (Name := ℕ) (U := UR sig nD τ) (Lvl := ℕ) (Val := Elt F) spec12 c [cc12_scratch0, cc12_scratch1]) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(iprop(owns (c : Thread nD τ) scM12_0 fullShare ((outsAt12 V c n hn).2.2.2.1) ∗ owns (c : Thread nD τ) scM12_1 fullShare ((outsAt12 V c n hn).2.2.2.2)) ∗ Pipeline.scopedRestBut (Ix := Unit) (Name := ℕ) (U := UR sig nD τ) (Lvl := ℕ) (Val := Elt F) spec12 c [cc12_scratch0, cc12_scratch1]) ∗ (∃ r, prngReg c r)) := rfl
theorem PhiS12_pos (c : Dev nD) (n : ℕ) (h : n ≤ cfg12.N) (hz : n ≠ 0) :
    PhiS12 V c n h = iprop(iprop(iprop(owns (c : Thread nD τ) scM12_0 fullShare ((outsAt12 V c (n - 1) (by omega)).2.2.2.1) ∗ owns (c : Thread nD τ) scM12_1 fullShare ((outsAt12 V c (n - 1) (by omega)).2.2.2.2)) ∗ Pipeline.scopedRestBut (Ix := Unit) (Name := ℕ) (U := UR sig nD τ) (Lvl := ℕ) (Val := Elt F) spec12 c [cc12_scratch0, cc12_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t.val t.isLt).1
    | ⟨4, _⟩ => (outsAt12 V c t.val t.isLt).2.1
    | ⟨5, _⟩ => (outsAt12 V c t.val t.isLt).2.2.1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t.val t.isLt).1 := by dsimp only [dat12]
theorem after12_4 (c : Dev nD) (t : Fin cfg12.N) : (dat12 V c).after 4 t = (outsAt12 V c t.val t.isLt).2.1 := by dsimp only [dat12]
theorem after12_5 (c : Dev nD) (t : Fin cfg12.N) : (dat12 V c).after 5 t = (outsAt12 V c t.val t.isLt).2.2.1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d))
    ∗ (∃ d, owns (c : Thread nD τ) (ms12_5 t) fullShare ((dat12 V c).before 5 t d)))

def bodyPost12 (c : Dev nD) (t : Fin cfg12.N) : sProp 𝕄 :=
  iprop((dat12 V c).Φ t.succ ∗ (dat12 V c).owesAt () t.succ
    ∗ owns (c : Thread nD τ) (ms12_0 t) fullShare ((dat12 V c).after 0 t)
    ∗ owns (c : Thread nD τ) (ms12_1 t) fullShare ((dat12 V c).after 1 t)
    ∗ owns (c : Thread nD τ) (ms12_2 t) fullShare ((dat12 V c).after 2 t)
    ∗ owns (c : Thread nD τ) (ms12_3 t) fullShare ((dat12 V c).after 3 t)
    ∗ owns (c : Thread nD τ) (ms12_4 t) fullShare ((dat12 V c).after 4 t)
    ∗ owns (c : Thread nD τ) (ms12_5 t) fullShare ((dat12 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  rw [after12_0, after12_1, after12_2, after12_3, after12_4, after12_5]
  by_cases hz : t.val = 0
  · rw [outsAt12_A V c t hz]
    unfold out12_A_3 out12_A_4 out12_A_5 sout12_A_0 sout12_A_1; (try dsimp only)
    rw [PhiS12_castSucc V c t, PhiS12_zero V c _ _ hz, PhiA12_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun12_A c (grid12.coords t) _ _ _ _ _ _ _ _ _ _ _ _ _ _ _ _ ((hcond12 t).mpr hz) (iblk12 V c 0 t) (iblk12 V c 1 t) (iblk12 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover12_A_0 c _ _ _ _ _ _ _ _ _ _ _ _ _ _ _ _ _ _ _ _ _)
          unfold owns; iexists _; isplitr
          swap; · iexact HS1
          ipureintro; exact View.read_writes_of_cover _ _ _ _ _ (scover12_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover12_A_3 c _ _ _ _ _ _ _ _ _ _ _ _ _ _ _ _ _ _ _ _ _)
    isplitl [H4]
    · unfold owns; iexists _; isplitr
      swap; · iexact H4
      ipureintro; exact View.read_writes_of_cover _ _ _ _ _ (cover12_A_4 c _ _ _ _ _ _ _ _ _ _ _ _ _ _ _ _ _ _ _ _ _)
    unfold owns; iexists _; isplitr
    swap; · iexact H5
    ipureintro; exact View.read_writes_of_cover _ _ _ _ _ (cover12_A_5 c _ _ _ _ _ _ _ _ _ _ _ _ _ _ _ _ _ _ _ _ _)
  · rw [outsAt12_B V c t hz]
    unfold out12_B_3 out12_B_4 out12_B_5 sout12_B_0 sout12_B_1; (try dsimp only)
    rw [PhiS12_castSucc V c t, PhiS12_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun12_B c (grid12.coords t) _ _ _ _ _ _ _ _ _ _ _ _ _ _ _ _ (fun h => hz ((hcond12 t).mp h)) (iblk12 V c 0 t) (iblk12 V c 1 t) (iblk12 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover12_B_0 c _ _ _ _ _ _ _ _ _ _ _ _ _ _ _ _ _ _ _ _ _ _ _)
          unfold owns; iexists _; isplitr
          swap; · iexact HS1
          ipureintro; exact View.read_writes_of_cover _ _ _ _ _ (scover12_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover12_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover12_B_4 c _ _ _ _ _ _ _ _ _ _ _ _ _ _ _ _ _ _ _ _ _ _ _)
    unfold owns; iexists _; isplitr
    swap; · iexact H5
    ipureintro; exact View.read_writes_of_cover _ _ _ _ _ (cover12_B_5 c _ _ _ _ _ _ _ _ _ _ _ _ _ _ _ _ _ _ _ _ _ _ _)

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : (Pipeline.ΦA spec12 c : sProp 𝕄) ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the class's back: the kept rows' named contents are forgotten. -/
theorem hout12 (c : Dev nD) : (dat12 V c).Φ (Fin.last cfg12.N) ⊢ (Pipeline.ΦA spec12 c : sProp 𝕄) := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 10 := N_12; omega), PhiA12_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq12 (c : Dev nD) (w : Fin cfg12.W) : (dat12 V c).q w = fullShare := rfl
theorem howed12 (c : Dev nD) (t : Fin (cfg12.N + 1)) : (dat12 V c).owed t = 0 := rfl

end Region12

end Cert.Kernel.Reg

end
-- ==== Proof.K.Reg13.lean ====
import proofs.«178590_j59433757442359_2_alg».proof.Proof.Gen.Kernel.Launch
import proofs.«178590_j59433757442359_2_alg».proof.Proof.Gen.Kernel.Skeleton
import proofs.«178590_j59433757442359_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 13: the second half of a GIN layer, `cc13__gin2_kernel` (pipeline 13), at the entry contents `V`.
    Per point, on one block of 8000 rows: batch-normalise the hidden block with the statistics of windows 1–2 and
    the affine pair of windows 3–4, rectify, multiply by the weight (window 5) and add the bias (window 6), then
    layer-normalise each row with the affine pair of windows 7–8 (no final rectifier). Windows 1–8 have a constant block index:
    fetched at the first point only, resident after. -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is `V`'s (`hA`) and whose body leaves the block in place (`hafter`): unfetched, the block
    index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is `V`'s (`hA`) and whose body leaves the block in place (`hafter`): unfetched, the block
    index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is `V`'s (`hA`) and whose body leaves the block in place (`hafter`): unfetched, the block
    index has not moved. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is `V`'s (`hA`) and whose body leaves the block in place (`hafter`): unfetched, the block
    index has not moved. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for any proof
    data whose array is `V`'s (`hA`) and whose body leaves the block in place (`hafter`): unfetched, the block
    index has not moved. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not, for any proof
    data whose array is `V`'s (`hA`) and whose body leaves the block in place (`hafter`): unfetched, the block
    index has not moved. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, fetched there or not, for any proof
    data whose array is `V`'s (`hA`) and whose body leaves the block in place (`hafter`): unfetched, the block
    index has not moved. -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-- Input window 7's current staging buffer holds its block at every point, fetched there or not, for any proof
    data whose array is `V`'s (`hA`) and whose body leaves the block in place (`hafter`): unfetched, the block
    index has not moved. -/
theorem before13_7_of {c : Dev nD} (dat : Dat τ (Elt F) Unit ℕ (UR sig nD τ) ℕ cfg13 c) (hA : dat.A 7 = V c (Pipeline.arrRef spec13 7))
    (hafter : ∀ t, dat.after 7 t = iblk13 V c 7 t) (t : Fin cfg13.N) (d) : dat.before 7 t d = iblk13 V c 7 t :=
  (dat.before_in_eq_fetched 7 rfl (fun _ => rfl) (fun _ _ _ => rfl) (fun t => by rw [hafter]; unfold Dat.blockOf iblk13; rw [hA]; try rfl) t d).trans
    (by unfold Dat.fetched Dat.blockOf iblk13; rw [hA]; try rfl)

/-- Input window 8's current staging buffer holds its block at every point, fetched there or not, for any proof
    data whose array is `V`'s (`hA`) and whose body leaves the block in place (`hafter`): unfetched, the block
    index has not moved. -/
theorem before13_8_of {c : Dev nD} (dat : Dat τ (Elt F) Unit ℕ (UR sig nD τ) ℕ cfg13 c) (hA : dat.A 8 = V c (Pipeline.arrRef spec13 8))
    (hafter : ∀ t, dat.after 8 t = iblk13 V c 8 t) (t : Fin cfg13.N) (d) : dat.before 8 t d = iblk13 V c 8 t :=
  (dat.before_in_eq_fetched 8 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer is read and written whole -/

abbrev r13_0 : Rect S8000x128 := Rect.unit (s := S8000x128) ![0, 0] S8000x128.size inb_S8000x128_S8000x128_0_0
abbrev r13_1 : Rect S1x128 := Rect.unit (s := S1x128) ![0, 0] S1x128.size inb_S1x128_S1x128_0_0
abbrev r13_2 : Rect S128x64 := Rect.unit (s := S128x64) ![0, 0] S128x64.size inb_S128x64_S128x64_0_0
abbrev r13_3 : Rect S64 := Rect.unit (s := S64) ![0] S64.size inb_S64_S64_0
abbrev r13_4 : Rect S1x64 := Rect.unit (s := S1x64) ![0, 0] S1x64.size inb_S1x64_S1x64_0_0
abbrev r13_5 : Rect S8000x64 := Rect.unit (s := S8000x64) ![0, 0] S8000x64.size inb_S8000x64_S8000x64_0_0

/-! ## What the body leaves in the output window's buffer -/

/-- Window 9's staging buffer after the body, from the input windows' blocks: its one store as a piece. -/
def out13_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r13_5, k13_pay1 (k13_pay2 (View.ld x0 r13_0) (View.ld x2 r13_1) (View.ld x1 r13_1) (View.ld x3 r13_1) (View.ld x4 r13_1) (View.ld x5 r13_2) (View.ld x6 r13_3)) (k13_pay3 (View.ld x0 r13_0) (View.ld x2 r13_1) (View.ld x1 r13_1) (View.ld x3 r13_1) (View.ld x4 r13_1) (View.ld x5 r13_2) (View.ld x6 r13_3)) (View.ld x7 r13_4) (View.ld x8 r13_4)⟩]

/-- The store is of the whole buffer, so it covers it. -/
theorem cover13_9 (p0 : Vec F S8000x64 .f32) (y : S8000x64.Idx) :
    ∃ pc ∈ ([⟨r13_5, p0⟩] : List (View.Piece (Elt F) S8000x64 .f32)), y ∈ pc.1.set :=
  View.cover_of_tiled [⟨r13_5, p0⟩] S8000x64.size (by rfl) y

/-! ## The body's triple -/

set_option maxHeartbeats 1000000 in
/-- The kernel body on whole staging memrefs, the inputs' at read contents `xW` and the output's at anything, runs
    to the continuation holding the inputs' as they were and the output's at `out13_9` of the inputs'. -/
theorem sound_kernel13 (c : Dev nD) (E : Set ℕ) (i : grid13.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out13_9 x0 x1 x2 x3 x4 x5 x6 x7 x8)) -∗ K ⟨⟩))
      ⊢ wp frame (wpE (defs₀ (F := F)) Variants.none c none) E (cc13__gin2_kernel i arg1 harg1 arg2 harg2 arg3 harg3 arg4 harg4 arg5 harg5 arg6 harg6 arg7 harg7 arg8 harg8 arg9 harg9 arg10 harg10) K := by
  simp only [cc13__gin2_kernel_eq_skeleton]; unfold cc13__gin2_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover13_9 _)

/-! ## The pipeline's proof data -/

/-- The proof data of pipeline 13 on core `c`: the arrays as the region finds them (`V`); after the body at
    point `t` each input's buffer at its block and the output's at `out13_9` of the input blocks; the invariant
    leaves the scoped rest and the generator register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => iblk13 V c 7 t
    | ⟨8, _⟩ => iblk13 V c 8 t
    | ⟨9, _⟩ => out13_9 (iblk13 V c 0 t) (iblk13 V c 1 t) (iblk13 V c 2 t) (iblk13 V c 3 t) (iblk13 V c 4 t) (iblk13 V c 5 t) (iblk13 V c 6 t) (iblk13 V c 7 t) (iblk13 V c 8 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = iblk13 V c 7 t := by dsimp only [dat13]
theorem after13_8 (c : Dev nD) (t : Fin cfg13.N) : (dat13 V c).after 8 t = iblk13 V c 8 t := by dsimp only [dat13]
theorem after13_9 (c : Dev nD) (t : Fin cfg13.N) : (dat13 V c).after 9 t = out13_9 (iblk13 V c 0 t) (iblk13 V c 1 t) (iblk13 V c 2 t) (iblk13 V c 3 t) (iblk13 V c 4 t) (iblk13 V c 5 t) (iblk13 V c 6 t) (iblk13 V c 7 t) (iblk13 V c 8 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d
theorem before13_7 (c : Dev nD) (t : Fin cfg13.N) (d) : (dat13 V c).before 7 t d = iblk13 V c 7 t :=
  before13_7_of V (dat13 V c) (A_eq13 V c 7) (after13_7 V c) t d
theorem before13_8 (c : Dev nD) (t : Fin cfg13.N) (d) : (dat13 V c).before 8 t d = iblk13 V c 8 t :=
  before13_8_of V (dat13 V c) (A_eq13 V c 8) (after13_8 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d))
    ∗ (∃ d, owns (c : Thread nD τ) (st13_9 t) fullShare ((dat13 V c).before 9 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t)
    ∗ owns (c : Thread nD τ) (st13_9 t) fullShare ((dat13 V c).after 9 t))

/-- The body at any point: the inputs' memrefs hold their blocks (`before13_w`), so `sound_kernel13` applies;
    the invariant and the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6, before13_7, before13_8]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel13 c Set.univ (grid13.coords t) _ _ _ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) (iblk13 V c 7 t) (iblk13 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Reg
-- ==== Proof.K.RunInst.lean ====
import proofs.«178590_j59433757442359_2_alg».proof.Proof.K.Run
import proofs.«178590_j59433757442359_2_alg».proof.Proof.K.Reg0
import proofs.«178590_j59433757442359_2_alg».proof.Proof.K.Reg1
import proofs.«178590_j59433757442359_2_alg».proof.Proof.K.Reg2
import proofs.«178590_j59433757442359_2_alg».proof.Proof.K.Reg3
import proofs.«178590_j59433757442359_2_alg».proof.Proof.K.Reg4
import proofs.«178590_j59433757442359_2_alg».proof.Proof.K.Reg5
import proofs.«178590_j59433757442359_2_alg».proof.Proof.K.Reg6
import proofs.«178590_j59433757442359_2_alg».proof.Proof.K.Reg7
import proofs.«178590_j59433757442359_2_alg».proof.Proof.K.Reg8
import proofs.«178590_j59433757442359_2_alg».proof.Proof.K.Reg9
import proofs.«178590_j59433757442359_2_alg».proof.Proof.K.Reg10
import proofs.«178590_j59433757442359_2_alg».proof.Proof.K.Reg11
import proofs.«178590_j59433757442359_2_alg».proof.Proof.K.Reg12
import proofs.«178590_j59433757442359_2_alg».proof.Proof.K.Reg13

-- decided memberships over the program's 358 references recurse past the default depth
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run at the regions' proof data -/

/-- Every region's proof data: a region of the plain class keeps the class's invariant at every point (full shares,
    nothing owed, by definition); a region that carries two scratch rows between points enters and leaves it by its
    own two entailments. -/
def D : Data F where
  r0 := ⟨dat0, A_eq0, body_obligation0, fun _ _ _ => rfl, fun _ _ _ => rfl, fun _ _ => .rfl, fun _ _ => .rfl, fun _ _ => rfl⟩
  r1 := ⟨dat1, A_eq1, body_obligation1, fun _ _ _ => rfl, fun _ _ _ => rfl, fun _ _ => .rfl, fun _ _ => .rfl, fun _ _ => rfl⟩
  r2 := ⟨dat2, A_eq2, body_obligation2, fun _ _ _ => rfl, fun _ _ _ => rfl, fun _ _ => .rfl, fun _ _ => .rfl, fun _ _ => rfl⟩
  r3 := ⟨dat3, A_eq3, body_obligation3, hq3, howed3, hin3, hout3, fun _ _ => rfl⟩
  r4 := ⟨dat4, A_eq4, body_obligation4, fun _ _ _ => rfl, fun _ _ _ => rfl, fun _ _ => .rfl, fun _ _ => .rfl, fun _ _ => rfl⟩
  r5 := ⟨dat5, A_eq5, body_obligation5, fun _ _ _ => rfl, fun _ _ _ => rfl, fun _ _ => .rfl, fun _ _ => .rfl, fun _ _ => rfl⟩
  r6 := ⟨dat6, A_eq6, body_obligation6, hq6, howed6, hin6, hout6, fun _ _ => rfl⟩
  r7 := ⟨dat7, A_eq7, body_obligation7, fun _ _ _ => rfl, fun _ _ _ => rfl, fun _ _ => .rfl, fun _ _ => .rfl, fun _ _ => rfl⟩
  r8 := ⟨dat8, A_eq8, body_obligation8, fun _ _ _ => rfl, fun _ _ _ => rfl, fun _ _ => .rfl, fun _ _ => .rfl, fun _ _ => rfl⟩
  r9 := ⟨dat9, A_eq9, body_obligation9, hq9, howed9, hin9, hout9, fun _ _ => rfl⟩
  r10 := ⟨dat10, A_eq10, body_obligation10, fun _ _ _ => rfl, fun _ _ _ => rfl, fun _ _ => .rfl, fun _ _ => .rfl, fun _ _ => rfl⟩
  r11 := ⟨dat11, A_eq11, body_obligation11, fun _ _ _ => rfl, fun _ _ _ => rfl, fun _ _ => .rfl, fun _ _ => .rfl, fun _ _ => rfl⟩
  r12 := ⟨dat12, A_eq12, body_obligation12, hq12, howed12, hin12, hout12, fun _ _ => rfl⟩
  r13 := ⟨dat13, A_eq13, body_obligation13, fun _ _ _ => rfl, fun _ _ _ => rfl, fun _ _ => .rfl, fun _ _ => .rfl, fun _ _ => rfl⟩

variable (m : (ℓ : Loc nD τ sig) → Buf (Elt F) ℓ)

/-- THE RUN at the regions' proof data: every weakly fair execution of @main terminates and every final state holds
    every unscoped buffer at the last boundary's contents. -/
theorem run_all_D (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W26 (D (F := F)) m c b) :=
  run_all D m ρ

/-- THE FRAME at the regions' proof data. -/
theorem frame_D (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame D m ρ

/-- The run's result at the regions' proof data. -/
theorem run_result_D (ρ : Dev nD → PrngReg) : θ_run defs (onTc (τ := τ) (main (F := F))) ⟨m, fun _ => 0, ρ⟩ (fun r => ∀ c : Dev nD,
      r.2.mem ((c.tc : Thread nD τ).loc main_v185) = W26 (D (F := F)) m c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_result D m ρ

/-- The program's result is region 13's output window as its write-backs leave it. -/
theorem W26_result_D (c : Dev nD) :
    W26 (D (F := F)) m c (Proc.devRef .tc main_v185) = (dat13 (V25 (D (F := F)) m) c).arrAt 9 cfg13.N :=
  W26_result D m c

theorem W26_main_arg0_D (c : Dev nD) : W26 (D (F := F)) m c (Proc.devRef .tc main_arg0) = m ((c : Thread nD τ).loc main_arg0) :=
  W26_main_arg0 D m c
theorem W26_main_arg1_D (c : Dev nD) : W26 (D (F := F)) m c (Proc.devRef .tc main_arg1) = m ((c : Thread nD τ).loc main_arg1) :=
  W26_main_arg1 D m c
theorem W26_main_arg2_D (c : Dev nD) : W26 (D (F := F)) m c (Proc.devRef .tc main_arg2) = m ((c : Thread nD τ).loc main_arg2) :=
  W26_main_arg2 D m c
theorem W26_main_arg3_D (c : Dev nD) : W26 (D (F := F)) m c (Proc.devRef .tc main_arg3) = m ((c : Thread nD τ).loc main_arg3) :=
  W26_main_arg3 D m c
theorem W26_main_arg4_D (c : Dev nD) : W26 (D (F := F)) m c (Proc.devRef .tc main_arg4) = m ((c : Thread nD τ).loc main_arg4) :=
  W26_main_arg4 D m c
theorem W26_main_arg5_D (c : Dev nD) : W26 (D (F := F)) m c (Proc.devRef .tc main_arg5) = m ((c : Thread nD τ).loc main_arg5) :=
  W26_main_arg5 D m c
theorem W26_main_arg6_D (c : Dev nD) : W26 (D (F := F)) m c (Proc.devRef .tc main_arg6) = m ((c : Thread nD τ).loc main_arg6) :=
  W26_main_arg6 D m c
theorem W26_main_arg7_D (c : Dev nD) : W26 (D (F := F)) m c (Proc.devRef .tc main_arg7) = m ((c : Thread nD τ).loc main_arg7) :=
  W26_main_arg7 D m c
theorem W26_main_arg8_D (c : Dev nD) : W26 (D (F := F)) m c (Proc.devRef .tc main_arg8) = m ((c : Thread nD τ).loc main_arg8) :=
  W26_main_arg8 D m c
theorem W26_main_arg9_D (c : Dev nD) : W26 (D (F := F)) m c (Proc.devRef .tc main_arg9) = m ((c : Thread nD τ).loc main_arg9) :=
  W26_main_arg9 D m c
theorem W26_main_arg10_D (c : Dev nD) : W26 (D (F := F)) m c (Proc.devRef .tc main_arg10) = m ((c : Thread nD τ).loc main_arg10) :=
  W26_main_arg10 D m c
theorem W26_main_arg11_D (c : Dev nD) : W26 (D (F := F)) m c (Proc.devRef .tc main_arg11) = m ((c : Thread nD τ).loc main_arg11) :=
  W26_main_arg11 D m c
theorem W26_main_arg12_D (c : Dev nD) : W26 (D (F := F)) m c (Proc.devRef .tc main_arg12) = m ((c : Thread nD τ).loc main_arg12) :=
  W26_main_arg12 D m c
theorem W26_main_arg13_D (c : Dev nD) : W26 (D (F := F)) m c (Proc.devRef .tc main_arg13) = m ((c : Thread nD τ).loc main_arg13) :=
  W26_main_arg13 D m c
theorem W26_main_arg14_D (c : Dev nD) : W26 (D (F := F)) m c (Proc.devRef .tc main_arg14) = m ((c : Thread nD τ).loc main_arg14) :=
  W26_main_arg14 D m c
theorem W26_main_arg15_D (c : Dev nD) : W26 (D (F := F)) m c (Proc.devRef .tc main_arg15) = m ((c : Thread nD τ).loc main_arg15) :=
  W26_main_arg15 D m c

end Cert.Kernel.Reg

end
-- ==== Proof.KI.RunData.lean ====
import proofs.«178590_j59433757442359_2_alg».proof.Proof.Gen.KernelIdeal.Launch
import proofs.«178590_j59433757442359_2_alg».proof.Proof.Gen.KernelIdeal.Regions
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (F : FTy → Type) [FloatOps F]

local notation "𝕄" => MT nD τ sig Unit (Elt F) ℕ (UR sig nD τ) ℕ

/-- The TensorCore's buffer contents when a region is entered: what every region's proof data are stated at. -/
abbrev VT : Type :=
  (c : Dev nD) → (b : Ref sig .tc) → Buf (Elt F) ((c : Thread nD τ).loc b)

/-- One region's proof data, as a parameter of the run: at any entry contents `V`, the data `dat V c`, whose arrays
    are `V`'s (`hA`), whose body meets the obligation (`hbody`), which hold every input array whole (`hq`) and owe
    nothing (`howed`), and whose invariant is entered from the class's (`hin`: the scoped rest and the generator
    register) and gives it back at the last point (`hout`). -/
structure RD (cfg : Pipeline.Cfg sig Λ₀) where
  dat : VT F → (c : Dev nD) → Dat τ (Elt F) Unit ℕ (UR sig nD τ) ℕ cfg c
  hA : ∀ V c w, (dat V c).A w = V c (Pipeline.arrRef cfg.spec w)
  hbody : ∀ V c, BodyObligation (dat V c) (defs₀ (F := F)) Variants.none () Set.univ
  hq : ∀ V c w, (dat V c).q w = fullShare
  howed : ∀ V c t, (dat V c).owed t = 0
  hin : ∀ V c, (Pipeline.ΦA cfg.spec c : sProp 𝕄) ⊢ (dat V c).Φ 0
  hout : ∀ V c, (dat V c).Φ (Fin.last cfg.N) ⊢ (Pipeline.ΦA cfg.spec c : sProp 𝕄)
  /-- The data put no bound of their own on the pairs the core's waits have recorded when the region is entered. -/
  hrec : ∀ V c, (dat V c).recorded 0 = Set.univ

/-- Every region's proof data: region K's is `rK`. -/
structure Data where
  r0 : RD F cfg0
  r1 : RD F cfg1
  r2 : RD F cfg2
  r3 : RD F cfg3
  r4 : RD F cfg4
  r5 : RD F cfg5
  r6 : RD F cfg6
  r7 : RD F cfg7
  r8 : RD F cfg8
  r9 : RD F cfg9
  r10 : RD F cfg10
  r11 : RD F cfg11
  r12 : RD F cfg12
  r13 : RD F cfg13

end Cert.KernelIdeal.Reg

end
-- ==== Proof.KI.RunFold.lean ====
import proofs.«178590_j59433757442359_2_alg».proof.Proof.KI.RunData

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The buffer contents at each boundary between two items of @main: a fold from the launch memory

Item by item: a kernel region leaves its windows' arrays at what its write-backs fold to (`Dat.arrAt … N` of the
proof data at the region's entry contents) and every other buffer as entered; a host stretch leaves
`StableHlo.after` of its operations. Regions 0 and 1 come first, then stretch J and region J for J = 2..13. -/

/-- Core `c`'s buffers at launch. -/
abbrev W0 : Dev nD → Valuation τ sig (Elt F) := fun c b => m (c, b)
/-- The same read at the TensorCore's references. -/
abbrev V0 : VT F := fun c b => W0 m c b

/-- At region 0's exit: its arrays at what the pipeline leaves, every other buffer as entered. -/
def W1 (c : Dev nD) : Valuation τ sig (Elt F) :=
  Pipeline.withArrays spec0 c (W0 m c) fun w => (D.r0.dat (V0 m) c).arrAt w cfg0.N
theorem W1_arr (c : Dev nD) (w : Fin cfg0.W) :
    W1 D m c (Proc.devRef .tc (Pipeline.arrRef spec0 w)) = (D.r0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 D m c (Proc.devRef .tc b) = W0 m c (Proc.devRef .tc b) := by
  unfold W1; exact Pipeline.withArrays_of_ne spec0 c _ _ b hb
/-- The same read at the TensorCore's references (region 0's exit contents). -/
abbrev V1 : VT F := fun c b => W1 D m c b
/-- At region 0's exit each of its arrays holds what the pipeline leaves and every other buffer what it held at entry. -/
theorem hF0 (c : Dev nD) (w : Fin cfg0.W) : (D.r0.dat (V0 m) c).arrAt w cfg0.N = V1 D m c (Pipeline.arrRef spec0 w) :=
  (W1_arr D m c w).symm
theorem hrest0 (c : Dev nD) : ∀ b, b ∉ Finset.univ.image (Pipeline.arrRef spec0) → V1 D m c b = V0 m c b :=
  fun b hb => W1_of_ne D m c b fun w e => hb (Finset.mem_image.mpr ⟨w, Finset.mem_univ _, e⟩)
/-- An input window's array is left as entered. -/
theorem W1_in (c : Dev nD) (w : Fin cfg0.W) (hin : (cfg0.win w).isOut = false) :
    W1 D m c (Proc.devRef .tc (Pipeline.arrRef spec0 w)) = W0 m c (Proc.devRef .tc (Pipeline.arrRef spec0 w)) :=
  (W1_arr D m c w).trans (((D.r0.dat (V0 m) c).arrAt_in w hin _).trans (D.r0.hA (V0 m) c w))

/-- At region 1's exit: its arrays at what the pipeline leaves, every other buffer as entered. -/
def W2 (c : Dev nD) : Valuation τ sig (Elt F) :=
  Pipeline.withArrays spec1 c (W1 D m c) fun w => (D.r1.dat (V1 D m) c).arrAt w cfg1.N
theorem W2_arr (c : Dev nD) (w : Fin cfg1.W) :
    W2 D m c (Proc.devRef .tc (Pipeline.arrRef spec1 w)) = (D.r1.dat (V1 D m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 D m c (Proc.devRef .tc b) = W1 D m c (Proc.devRef .tc b) := by
  unfold W2; exact Pipeline.withArrays_of_ne spec1 c _ _ b hb
/-- The same read at the TensorCore's references (region 1's exit contents). -/
abbrev V2 : VT F := fun c b => W2 D m c b
/-- At region 1's exit each of its arrays holds what the pipeline leaves and every other buffer what it held at entry. -/
theorem hF1 (c : Dev nD) (w : Fin cfg1.W) : (D.r1.dat (V1 D m) c).arrAt w cfg1.N = V2 D m c (Pipeline.arrRef spec1 w) :=
  (W2_arr D m c w).symm
theorem hrest1 (c : Dev nD) : ∀ b, b ∉ Finset.univ.image (Pipeline.arrRef spec1) → V2 D m c b = V1 D m c b :=
  fun b hb => W2_of_ne D m c b fun w e => hb (Finset.mem_image.mpr ⟨w, Finset.mem_univ _, e⟩)
/-- An input window's array is left as entered. -/
theorem W2_in (c : Dev nD) (w : Fin cfg1.W) (hin : (cfg1.win w).isOut = false) :
    W2 D m c (Proc.devRef .tc (Pipeline.arrRef spec1 w)) = W1 D m c (Proc.devRef .tc (Pipeline.arrRef spec1 w)) :=
  (W2_arr D m c w).trans (((D.r1.dat (V1 D m) c).arrAt_in w hin _).trans (D.r1.hA (V1 D m) c w))

/-- After `hostOps2` (region 2's entry). -/
abbrev W3 : Dev nD → Valuation τ sig (Elt F) := fun c => StableHlo.after hostOps2 (W2 D m c)
/-- The same read at the TensorCore's references (what region 2's proof data take). -/
abbrev V3 : VT F := fun c b => W3 D m c b
/-- A reference `hostOps2` does not write keeps its contents. -/
theorem W3_of (c : Dev nD) (r : Ref sig .tc) (h : r ∉ hostOps2_W) :
    W3 D m c (Proc.devRef .tc r) = W2 D m c (Proc.devRef .tc r) :=
  StableHlo.after_of_writes_sub hostOps2 _ hostOps2_writes h

/-- At region 2's exit: its arrays at what the pipeline leaves, every other buffer as entered. -/
def W4 (c : Dev nD) : Valuation τ sig (Elt F) :=
  Pipeline.withArrays spec2 c (W3 D m c) fun w => (D.r2.dat (V3 D m) c).arrAt w cfg2.N
theorem W4_arr (c : Dev nD) (w : Fin cfg2.W) :
    W4 D m c (Proc.devRef .tc (Pipeline.arrRef spec2 w)) = (D.r2.dat (V3 D m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 D m c (Proc.devRef .tc b) = W3 D m c (Proc.devRef .tc b) := by
  unfold W4; exact Pipeline.withArrays_of_ne spec2 c _ _ b hb
/-- The same read at the TensorCore's references (region 2's exit contents). -/
abbrev V4 : VT F := fun c b => W4 D m c b
/-- At region 2's exit each of its arrays holds what the pipeline leaves and every other buffer what it held at entry. -/
theorem hF2 (c : Dev nD) (w : Fin cfg2.W) : (D.r2.dat (V3 D m) c).arrAt w cfg2.N = V4 D m c (Pipeline.arrRef spec2 w) :=
  (W4_arr D m c w).symm
theorem hrest2 (c : Dev nD) : ∀ b, b ∉ Finset.univ.image (Pipeline.arrRef spec2) → V4 D m c b = V3 D m c b :=
  fun b hb => W4_of_ne D m c b fun w e => hb (Finset.mem_image.mpr ⟨w, Finset.mem_univ _, e⟩)
/-- An input window's array is left as entered. -/
theorem W4_in (c : Dev nD) (w : Fin cfg2.W) (hin : (cfg2.win w).isOut = false) :
    W4 D m c (Proc.devRef .tc (Pipeline.arrRef spec2 w)) = W3 D m c (Proc.devRef .tc (Pipeline.arrRef spec2 w)) :=
  (W4_arr D m c w).trans (((D.r2.dat (V3 D m) c).arrAt_in w hin _).trans (D.r2.hA (V3 D m) c w))

/-- After `hostOps3` (region 3's entry). -/
abbrev W5 : Dev nD → Valuation τ sig (Elt F) := fun c => StableHlo.after hostOps3 (W4 D m c)
/-- The same read at the TensorCore's references (what region 3's proof data take). -/
abbrev V5 : VT F := fun c b => W5 D m c b
/-- A reference `hostOps3` does not write keeps its contents. -/
theorem W5_of (c : Dev nD) (r : Ref sig .tc) (h : r ∉ hostOps3_W) :
    W5 D m c (Proc.devRef .tc r) = W4 D m c (Proc.devRef .tc r) :=
  StableHlo.after_of_writes_sub hostOps3 _ hostOps3_writes h

/-- At region 3's exit: its arrays at what the pipeline leaves, every other buffer as entered. -/
def W6 (c : Dev nD) : Valuation τ sig (Elt F) :=
  Pipeline.withArrays spec3 c (W5 D m c) fun w => (D.r3.dat (V5 D m) c).arrAt w cfg3.N
theorem W6_arr (c : Dev nD) (w : Fin cfg3.W) :
    W6 D m c (Proc.devRef .tc (Pipeline.arrRef spec3 w)) = (D.r3.dat (V5 D m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 D m c (Proc.devRef .tc b) = W5 D m c (Proc.devRef .tc b) := by
  unfold W6; exact Pipeline.withArrays_of_ne spec3 c _ _ b hb
/-- The same read at the TensorCore's references (region 3's exit contents). -/
abbrev V6 : VT F := fun c b => W6 D m c b
/-- At region 3's exit each of its arrays holds what the pipeline leaves and every other buffer what it held at entry. -/
theorem hF3 (c : Dev nD) (w : Fin cfg3.W) : (D.r3.dat (V5 D m) c).arrAt w cfg3.N = V6 D m c (Pipeline.arrRef spec3 w) :=
  (W6_arr D m c w).symm
theorem hrest3 (c : Dev nD) : ∀ b, b ∉ Finset.univ.image (Pipeline.arrRef spec3) → V6 D m c b = V5 D m c b :=
  fun b hb => W6_of_ne D m c b fun w e => hb (Finset.mem_image.mpr ⟨w, Finset.mem_univ _, e⟩)
/-- An input window's array is left as entered. -/
theorem W6_in (c : Dev nD) (w : Fin cfg3.W) (hin : (cfg3.win w).isOut = false) :
    W6 D m c (Proc.devRef .tc (Pipeline.arrRef spec3 w)) = W5 D m c (Proc.devRef .tc (Pipeline.arrRef spec3 w)) :=
  (W6_arr D m c w).trans (((D.r3.dat (V5 D m) c).arrAt_in w hin _).trans (D.r3.hA (V5 D m) c w))

/-- After `hostOps4` (region 4's entry). -/
abbrev W7 : Dev nD → Valuation τ sig (Elt F) := fun c => StableHlo.after hostOps4 (W6 D m c)
/-- The same read at the TensorCore's references (what region 4's proof data take). -/
abbrev V7 : VT F := fun c b => W7 D m c b
/-- A reference `hostOps4` does not write keeps its contents. -/
theorem W7_of (c : Dev nD) (r : Ref sig .tc) (h : r ∉ hostOps4_W) :
    W7 D m c (Proc.devRef .tc r) = W6 D m c (Proc.devRef .tc r) :=
  StableHlo.after_of_writes_sub hostOps4 _ hostOps4_writes h

/-- At region 4's exit: its arrays at what the pipeline leaves, every other buffer as entered. -/
def W8 (c : Dev nD) : Valuation τ sig (Elt F) :=
  Pipeline.withArrays spec4 c (W7 D m c) fun w => (D.r4.dat (V7 D m) c).arrAt w cfg4.N
theorem W8_arr (c : Dev nD) (w : Fin cfg4.W) :
    W8 D m c (Proc.devRef .tc (Pipeline.arrRef spec4 w)) = (D.r4.dat (V7 D m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 D m c (Proc.devRef .tc b) = W7 D m c (Proc.devRef .tc b) := by
  unfold W8; exact Pipeline.withArrays_of_ne spec4 c _ _ b hb
/-- The same read at the TensorCore's references (region 4's exit contents). -/
abbrev V8 : VT F := fun c b => W8 D m c b
/-- At region 4's exit each of its arrays holds what the pipeline leaves and every other buffer what it held at entry. -/
theorem hF4 (c : Dev nD) (w : Fin cfg4.W) : (D.r4.dat (V7 D m) c).arrAt w cfg4.N = V8 D m c (Pipeline.arrRef spec4 w) :=
  (W8_arr D m c w).symm
theorem hrest4 (c : Dev nD) : ∀ b, b ∉ Finset.univ.image (Pipeline.arrRef spec4) → V8 D m c b = V7 D m c b :=
  fun b hb => W8_of_ne D m c b fun w e => hb (Finset.mem_image.mpr ⟨w, Finset.mem_univ _, e⟩)
/-- An input window's array is left as entered. -/
theorem W8_in (c : Dev nD) (w : Fin cfg4.W) (hin : (cfg4.win w).isOut = false) :
    W8 D m c (Proc.devRef .tc (Pipeline.arrRef spec4 w)) = W7 D m c (Proc.devRef .tc (Pipeline.arrRef spec4 w)) :=
  (W8_arr D m c w).trans (((D.r4.dat (V7 D m) c).arrAt_in w hin _).trans (D.r4.hA (V7 D m) c w))

/-- After `hostOps5` (region 5's entry). -/
abbrev W9 : Dev nD → Valuation τ sig (Elt F) := fun c => StableHlo.after hostOps5 (W8 D m c)
/-- The same read at the TensorCore's references (what region 5's proof data take). -/
abbrev V9 : VT F := fun c b => W9 D m c b
/-- A reference `hostOps5` does not write keeps its contents. -/
theorem W9_of (c : Dev nD) (r : Ref sig .tc) (h : r ∉ hostOps5_W) :
    W9 D m c (Proc.devRef .tc r) = W8 D m c (Proc.devRef .tc r) :=
  StableHlo.after_of_writes_sub hostOps5 _ hostOps5_writes h

/-- At region 5's exit: its arrays at what the pipeline leaves, every other buffer as entered. -/
def W10 (c : Dev nD) : Valuation τ sig (Elt F) :=
  Pipeline.withArrays spec5 c (W9 D m c) fun w => (D.r5.dat (V9 D m) c).arrAt w cfg5.N
theorem W10_arr (c : Dev nD) (w : Fin cfg5.W) :
    W10 D m c (Proc.devRef .tc (Pipeline.arrRef spec5 w)) = (D.r5.dat (V9 D m) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 D m c (Proc.devRef .tc b) = W9 D m c (Proc.devRef .tc b) := by
  unfold W10; exact Pipeline.withArrays_of_ne spec5 c _ _ b hb
/-- The same read at the TensorCore's references (region 5's exit contents). -/
abbrev V10 : VT F := fun c b => W10 D m c b
/-- At region 5's exit each of its arrays holds what the pipeline leaves and every other buffer what it held at entry. -/
theorem hF5 (c : Dev nD) (w : Fin cfg5.W) : (D.r5.dat (V9 D m) c).arrAt w cfg5.N = V10 D m c (Pipeline.arrRef spec5 w) :=
  (W10_arr D m c w).symm
theorem hrest5 (c : Dev nD) : ∀ b, b ∉ Finset.univ.image (Pipeline.arrRef spec5) → V10 D m c b = V9 D m c b :=
  fun b hb => W10_of_ne D m c b fun w e => hb (Finset.mem_image.mpr ⟨w, Finset.mem_univ _, e⟩)
/-- An input window's array is left as entered. -/
theorem W10_in (c : Dev nD) (w : Fin cfg5.W) (hin : (cfg5.win w).isOut = false) :
    W10 D m c (Proc.devRef .tc (Pipeline.arrRef spec5 w)) = W9 D m c (Proc.devRef .tc (Pipeline.arrRef spec5 w)) :=
  (W10_arr D m c w).trans (((D.r5.dat (V9 D m) c).arrAt_in w hin _).trans (D.r5.hA (V9 D m) c w))

/-- After `hostOps6` (region 6's entry). -/
abbrev W11 : Dev nD → Valuation τ sig (Elt F) := fun c => StableHlo.after hostOps6 (W10 D m c)
/-- The same read at the TensorCore's references (what region 6's proof data take). -/
abbrev V11 : VT F := fun c b => W11 D m c b
/-- A reference `hostOps6` does not write keeps its contents. -/
theorem W11_of (c : Dev nD) (r : Ref sig .tc) (h : r ∉ hostOps6_W) :
    W11 D m c (Proc.devRef .tc r) = W10 D m c (Proc.devRef .tc r) :=
  StableHlo.after_of_writes_sub hostOps6 _ hostOps6_writes h

/-- At region 6's exit: its arrays at what the pipeline leaves, every other buffer as entered. -/
def W12 (c : Dev nD) : Valuation τ sig (Elt F) :=
  Pipeline.withArrays spec6 c (W11 D m c) fun w => (D.r6.dat (V11 D m) c).arrAt w cfg6.N
theorem W12_arr (c : Dev nD) (w : Fin cfg6.W) :
    W12 D m c (Proc.devRef .tc (Pipeline.arrRef spec6 w)) = (D.r6.dat (V11 D m) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 D m c (Proc.devRef .tc b) = W11 D m c (Proc.devRef .tc b) := by
  unfold W12; exact Pipeline.withArrays_of_ne spec6 c _ _ b hb
/-- The same read at the TensorCore's references (region 6's exit contents). -/
abbrev V12 : VT F := fun c b => W12 D m c b
/-- At region 6's exit each of its arrays holds what the pipeline leaves and every other buffer what it held at entry. -/
theorem hF6 (c : Dev nD) (w : Fin cfg6.W) : (D.r6.dat (V11 D m) c).arrAt w cfg6.N = V12 D m c (Pipeline.arrRef spec6 w) :=
  (W12_arr D m c w).symm
theorem hrest6 (c : Dev nD) : ∀ b, b ∉ Finset.univ.image (Pipeline.arrRef spec6) → V12 D m c b = V11 D m c b :=
  fun b hb => W12_of_ne D m c b fun w e => hb (Finset.mem_image.mpr ⟨w, Finset.mem_univ _, e⟩)
/-- An input window's array is left as entered. -/
theorem W12_in (c : Dev nD) (w : Fin cfg6.W) (hin : (cfg6.win w).isOut = false) :
    W12 D m c (Proc.devRef .tc (Pipeline.arrRef spec6 w)) = W11 D m c (Proc.devRef .tc (Pipeline.arrRef spec6 w)) :=
  (W12_arr D m c w).trans (((D.r6.dat (V11 D m) c).arrAt_in w hin _).trans (D.r6.hA (V11 D m) c w))

/-- After `hostOps7` (region 7's entry). -/
abbrev W13 : Dev nD → Valuation τ sig (Elt F) := fun c => StableHlo.after hostOps7 (W12 D m c)
/-- The same read at the TensorCore's references (what region 7's proof data take). -/
abbrev V13 : VT F := fun c b => W13 D m c b
/-- A reference `hostOps7` does not write keeps its contents. -/
theorem W13_of (c : Dev nD) (r : Ref sig .tc) (h : r ∉ hostOps7_W) :
    W13 D m c (Proc.devRef .tc r) = W12 D m c (Proc.devRef .tc r) :=
  StableHlo.after_of_writes_sub hostOps7 _ hostOps7_writes h

/-- At region 7's exit: its arrays at what the pipeline leaves, every other buffer as entered. -/
def W14 (c : Dev nD) : Valuation τ sig (Elt F) :=
  Pipeline.withArrays spec7 c (W13 D m c) fun w => (D.r7.dat (V13 D m) c).arrAt w cfg7.N
theorem W14_arr (c : Dev nD) (w : Fin cfg7.W) :
    W14 D m c (Proc.devRef .tc (Pipeline.arrRef spec7 w)) = (D.r7.dat (V13 D m) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 D m c (Proc.devRef .tc b) = W13 D m c (Proc.devRef .tc b) := by
  unfold W14; exact Pipeline.withArrays_of_ne spec7 c _ _ b hb
/-- The same read at the TensorCore's references (region 7's exit contents). -/
abbrev V14 : VT F := fun c b => W14 D m c b
/-- At region 7's exit each of its arrays holds what the pipeline leaves and every other buffer what it held at entry. -/
theorem hF7 (c : Dev nD) (w : Fin cfg7.W) : (D.r7.dat (V13 D m) c).arrAt w cfg7.N = V14 D m c (Pipeline.arrRef spec7 w) :=
  (W14_arr D m c w).symm
theorem hrest7 (c : Dev nD) : ∀ b, b ∉ Finset.univ.image (Pipeline.arrRef spec7) → V14 D m c b = V13 D m c b :=
  fun b hb => W14_of_ne D m c b fun w e => hb (Finset.mem_image.mpr ⟨w, Finset.mem_univ _, e⟩)
/-- An input window's array is left as entered. -/
theorem W14_in (c : Dev nD) (w : Fin cfg7.W) (hin : (cfg7.win w).isOut = false) :
    W14 D m c (Proc.devRef .tc (Pipeline.arrRef spec7 w)) = W13 D m c (Proc.devRef .tc (Pipeline.arrRef spec7 w)) :=
  (W14_arr D m c w).trans (((D.r7.dat (V13 D m) c).arrAt_in w hin _).trans (D.r7.hA (V13 D m) c w))

/-- After `hostOps8` (region 8's entry). -/
abbrev W15 : Dev nD → Valuation τ sig (Elt F) := fun c => StableHlo.after hostOps8 (W14 D m c)
/-- The same read at the TensorCore's references (what region 8's proof data take). -/
abbrev V15 : VT F := fun c b => W15 D m c b
/-- A reference `hostOps8` does not write keeps its contents. -/
theorem W15_of (c : Dev nD) (r : Ref sig .tc) (h : r ∉ hostOps8_W) :
    W15 D m c (Proc.devRef .tc r) = W14 D m c (Proc.devRef .tc r) :=
  StableHlo.after_of_writes_sub hostOps8 _ hostOps8_writes h

/-- At region 8's exit: its arrays at what the pipeline leaves, every other buffer as entered. -/
def W16 (c : Dev nD) : Valuation τ sig (Elt F) :=
  Pipeline.withArrays spec8 c (W15 D m c) fun w => (D.r8.dat (V15 D m) c).arrAt w cfg8.N
theorem W16_arr (c : Dev nD) (w : Fin cfg8.W) :
    W16 D m c (Proc.devRef .tc (Pipeline.arrRef spec8 w)) = (D.r8.dat (V15 D m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 D m c (Proc.devRef .tc b) = W15 D m c (Proc.devRef .tc b) := by
  unfold W16; exact Pipeline.withArrays_of_ne spec8 c _ _ b hb
/-- The same read at the TensorCore's references (region 8's exit contents). -/
abbrev V16 : VT F := fun c b => W16 D m c b
/-- At region 8's exit each of its arrays holds what the pipeline leaves and every other buffer what it held at entry. -/
theorem hF8 (c : Dev nD) (w : Fin cfg8.W) : (D.r8.dat (V15 D m) c).arrAt w cfg8.N = V16 D m c (Pipeline.arrRef spec8 w) :=
  (W16_arr D m c w).symm
theorem hrest8 (c : Dev nD) : ∀ b, b ∉ Finset.univ.image (Pipeline.arrRef spec8) → V16 D m c b = V15 D m c b :=
  fun b hb => W16_of_ne D m c b fun w e => hb (Finset.mem_image.mpr ⟨w, Finset.mem_univ _, e⟩)
/-- An input window's array is left as entered. -/
theorem W16_in (c : Dev nD) (w : Fin cfg8.W) (hin : (cfg8.win w).isOut = false) :
    W16 D m c (Proc.devRef .tc (Pipeline.arrRef spec8 w)) = W15 D m c (Proc.devRef .tc (Pipeline.arrRef spec8 w)) :=
  (W16_arr D m c w).trans (((D.r8.dat (V15 D m) c).arrAt_in w hin _).trans (D.r8.hA (V15 D m) c w))

/-- After `hostOps9` (region 9's entry). -/
abbrev W17 : Dev nD → Valuation τ sig (Elt F) := fun c => StableHlo.after hostOps9 (W16 D m c)
/-- The same read at the TensorCore's references (what region 9's proof data take). -/
abbrev V17 : VT F := fun c b => W17 D m c b
/-- A reference `hostOps9` does not write keeps its contents. -/
theorem W17_of (c : Dev nD) (r : Ref sig .tc) (h : r ∉ hostOps9_W) :
    W17 D m c (Proc.devRef .tc r) = W16 D m c (Proc.devRef .tc r) :=
  StableHlo.after_of_writes_sub hostOps9 _ hostOps9_writes h

/-- At region 9's exit: its arrays at what the pipeline leaves, every other buffer as entered. -/
def W18 (c : Dev nD) : Valuation τ sig (Elt F) :=
  Pipeline.withArrays spec9 c (W17 D m c) fun w => (D.r9.dat (V17 D m) c).arrAt w cfg9.N
theorem W18_arr (c : Dev nD) (w : Fin cfg9.W) :
    W18 D m c (Proc.devRef .tc (Pipeline.arrRef spec9 w)) = (D.r9.dat (V17 D m) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 D m c (Proc.devRef .tc b) = W17 D m c (Proc.devRef .tc b) := by
  unfold W18; exact Pipeline.withArrays_of_ne spec9 c _ _ b hb
/-- The same read at the TensorCore's references (region 9's exit contents). -/
abbrev V18 : VT F := fun c b => W18 D m c b
/-- At region 9's exit each of its arrays holds what the pipeline leaves and every other buffer what it held at entry. -/
theorem hF9 (c : Dev nD) (w : Fin cfg9.W) : (D.r9.dat (V17 D m) c).arrAt w cfg9.N = V18 D m c (Pipeline.arrRef spec9 w) :=
  (W18_arr D m c w).symm
theorem hrest9 (c : Dev nD) : ∀ b, b ∉ Finset.univ.image (Pipeline.arrRef spec9) → V18 D m c b = V17 D m c b :=
  fun b hb => W18_of_ne D m c b fun w e => hb (Finset.mem_image.mpr ⟨w, Finset.mem_univ _, e⟩)
/-- An input window's array is left as entered. -/
theorem W18_in (c : Dev nD) (w : Fin cfg9.W) (hin : (cfg9.win w).isOut = false) :
    W18 D m c (Proc.devRef .tc (Pipeline.arrRef spec9 w)) = W17 D m c (Proc.devRef .tc (Pipeline.arrRef spec9 w)) :=
  (W18_arr D m c w).trans (((D.r9.dat (V17 D m) c).arrAt_in w hin _).trans (D.r9.hA (V17 D m) c w))

/-- After `hostOps10` (region 10's entry). -/
abbrev W19 : Dev nD → Valuation τ sig (Elt F) := fun c => StableHlo.after hostOps10 (W18 D m c)
/-- The same read at the TensorCore's references (what region 10's proof data take). -/
abbrev V19 : VT F := fun c b => W19 D m c b
/-- A reference `hostOps10` does not write keeps its contents. -/
theorem W19_of (c : Dev nD) (r : Ref sig .tc) (h : r ∉ hostOps10_W) :
    W19 D m c (Proc.devRef .tc r) = W18 D m c (Proc.devRef .tc r) :=
  StableHlo.after_of_writes_sub hostOps10 _ hostOps10_writes h

/-- At region 10's exit: its arrays at what the pipeline leaves, every other buffer as entered. -/
def W20 (c : Dev nD) : Valuation τ sig (Elt F) :=
  Pipeline.withArrays spec10 c (W19 D m c) fun w => (D.r10.dat (V19 D m) c).arrAt w cfg10.N
theorem W20_arr (c : Dev nD) (w : Fin cfg10.W) :
    W20 D m c (Proc.devRef .tc (Pipeline.arrRef spec10 w)) = (D.r10.dat (V19 D m) c).arrAt w cfg10.N := by
  unfold W20; exact Pipeline.withArrays_arr spec10 launch10.win.arr_inj c _ _ w
theorem W20_of_ne (c : Dev nD) (b : Ref sig .tc) (hb : ∀ w, Pipeline.arrRef spec10 w ≠ b) :
    W20 D m c (Proc.devRef .tc b) = W19 D m c (Proc.devRef .tc b) := by
  unfold W20; exact Pipeline.withArrays_of_ne spec10 c _ _ b hb
/-- The same read at the TensorCore's references (region 10's exit contents). -/
abbrev V20 : VT F := fun c b => W20 D m c b
/-- At region 10's exit each of its arrays holds what the pipeline leaves and every other buffer what it held at entry. -/
theorem hF10 (c : Dev nD) (w : Fin cfg10.W) : (D.r10.dat (V19 D m) c).arrAt w cfg10.N = V20 D m c (Pipeline.arrRef spec10 w) :=
  (W20_arr D m c w).symm
theorem hrest10 (c : Dev nD) : ∀ b, b ∉ Finset.univ.image (Pipeline.arrRef spec10) → V20 D m c b = V19 D m c b :=
  fun b hb => W20_of_ne D m c b fun w e => hb (Finset.mem_image.mpr ⟨w, Finset.mem_univ _, e⟩)
/-- An input window's array is left as entered. -/
theorem W20_in (c : Dev nD) (w : Fin cfg10.W) (hin : (cfg10.win w).isOut = false) :
    W20 D m c (Proc.devRef .tc (Pipeline.arrRef spec10 w)) = W19 D m c (Proc.devRef .tc (Pipeline.arrRef spec10 w)) :=
  (W20_arr D m c w).trans (((D.r10.dat (V19 D m) c).arrAt_in w hin _).trans (D.r10.hA (V19 D m) c w))

/-- After `hostOps11` (region 11's entry). -/
abbrev W21 : Dev nD → Valuation τ sig (Elt F) := fun c => StableHlo.after hostOps11 (W20 D m c)
/-- The same read at the TensorCore's references (what region 11's proof data take). -/
abbrev V21 : VT F := fun c b => W21 D m c b
/-- A reference `hostOps11` does not write keeps its contents. -/
theorem W21_of (c : Dev nD) (r : Ref sig .tc) (h : r ∉ hostOps11_W) :
    W21 D m c (Proc.devRef .tc r) = W20 D m c (Proc.devRef .tc r) :=
  StableHlo.after_of_writes_sub hostOps11 _ hostOps11_writes h

/-- At region 11's exit: its arrays at what the pipeline leaves, every other buffer as entered. -/
def W22 (c : Dev nD) : Valuation τ sig (Elt F) :=
  Pipeline.withArrays spec11 c (W21 D m c) fun w => (D.r11.dat (V21 D m) c).arrAt w cfg11.N
theorem W22_arr (c : Dev nD) (w : Fin cfg11.W) :
    W22 D m c (Proc.devRef .tc (Pipeline.arrRef spec11 w)) = (D.r11.dat (V21 D m) c).arrAt w cfg11.N := by
  unfold W22; exact Pipeline.withArrays_arr spec11 launch11.win.arr_inj c _ _ w
theorem W22_of_ne (c : Dev nD) (b : Ref sig .tc) (hb : ∀ w, Pipeline.arrRef spec11 w ≠ b) :
    W22 D m c (Proc.devRef .tc b) = W21 D m c (Proc.devRef .tc b) := by
  unfold W22; exact Pipeline.withArrays_of_ne spec11 c _ _ b hb
/-- The same read at the TensorCore's references (region 11's exit contents). -/
abbrev V22 : VT F := fun c b => W22 D m c b
/-- At region 11's exit each of its arrays holds what the pipeline leaves and every other buffer what it held at entry. -/
theorem hF11 (c : Dev nD) (w : Fin cfg11.W) : (D.r11.dat (V21 D m) c).arrAt w cfg11.N = V22 D m c (Pipeline.arrRef spec11 w) :=
  (W22_arr D m c w).symm
theorem hrest11 (c : Dev nD) : ∀ b, b ∉ Finset.univ.image (Pipeline.arrRef spec11) → V22 D m c b = V21 D m c b :=
  fun b hb => W22_of_ne D m c b fun w e => hb (Finset.mem_image.mpr ⟨w, Finset.mem_univ _, e⟩)
/-- An input window's array is left as entered. -/
theorem W22_in (c : Dev nD) (w : Fin cfg11.W) (hin : (cfg11.win w).isOut = false) :
    W22 D m c (Proc.devRef .tc (Pipeline.arrRef spec11 w)) = W21 D m c (Proc.devRef .tc (Pipeline.arrRef spec11 w)) :=
  (W22_arr D m c w).trans (((D.r11.dat (V21 D m) c).arrAt_in w hin _).trans (D.r11.hA (V21 D m) c w))

/-- After `hostOps12` (region 12's entry). -/
abbrev W23 : Dev nD → Valuation τ sig (Elt F) := fun c => StableHlo.after hostOps12 (W22 D m c)
/-- The same read at the TensorCore's references (what region 12's proof data take). -/
abbrev V23 : VT F := fun c b => W23 D m c b
/-- A reference `hostOps12` does not write keeps its contents. -/
theorem W23_of (c : Dev nD) (r : Ref sig .tc) (h : r ∉ hostOps12_W) :
    W23 D m c (Proc.devRef .tc r) = W22 D m c (Proc.devRef .tc r) :=
  StableHlo.after_of_writes_sub hostOps12 _ hostOps12_writes h

/-- At region 12's exit: its arrays at what the pipeline leaves, every other buffer as entered. -/
def W24 (c : Dev nD) : Valuation τ sig (Elt F) :=
  Pipeline.withArrays spec12 c (W23 D m c) fun w => (D.r12.dat (V23 D m) c).arrAt w cfg12.N
theorem W24_arr (c : Dev nD) (w : Fin cfg12.W) :
    W24 D m c (Proc.devRef .tc (Pipeline.arrRef spec12 w)) = (D.r12.dat (V23 D m) c).arrAt w cfg12.N := by
  unfold W24; exact Pipeline.withArrays_arr spec12 launch12.win.arr_inj c _ _ w
theorem W24_of_ne (c : Dev nD) (b : Ref sig .tc) (hb : ∀ w, Pipeline.arrRef spec12 w ≠ b) :
    W24 D m c (Proc.devRef .tc b) = W23 D m c (Proc.devRef .tc b) := by
  unfold W24; exact Pipeline.withArrays_of_ne spec12 c _ _ b hb
/-- The same read at the TensorCore's references (region 12's exit contents). -/
abbrev V24 : VT F := fun c b => W24 D m c b
/-- At region 12's exit each of its arrays holds what the pipeline leaves and every other buffer what it held at entry. -/
theorem hF12 (c : Dev nD) (w : Fin cfg12.W) : (D.r12.dat (V23 D m) c).arrAt w cfg12.N = V24 D m c (Pipeline.arrRef spec12 w) :=
  (W24_arr D m c w).symm
theorem hrest12 (c : Dev nD) : ∀ b, b ∉ Finset.univ.image (Pipeline.arrRef spec12) → V24 D m c b = V23 D m c b :=
  fun b hb => W24_of_ne D m c b fun w e => hb (Finset.mem_image.mpr ⟨w, Finset.mem_univ _, e⟩)
/-- An input window's array is left as entered. -/
theorem W24_in (c : Dev nD) (w : Fin cfg12.W) (hin : (cfg12.win w).isOut = false) :
    W24 D m c (Proc.devRef .tc (Pipeline.arrRef spec12 w)) = W23 D m c (Proc.devRef .tc (Pipeline.arrRef spec12 w)) :=
  (W24_arr D m c w).trans (((D.r12.dat (V23 D m) c).arrAt_in w hin _).trans (D.r12.hA (V23 D m) c w))

/-- After `hostOps13` (region 13's entry). -/
abbrev W25 : Dev nD → Valuation τ sig (Elt F) := fun c => StableHlo.after hostOps13 (W24 D m c)
/-- The same read at the TensorCore's references (what region 13's proof data take). -/
abbrev V25 : VT F := fun c b => W25 D m c b
/-- A reference `hostOps13` does not write keeps its contents. -/
theorem W25_of (c : Dev nD) (r : Ref sig .tc) (h : r ∉ hostOps13_W) :
    W25 D m c (Proc.devRef .tc r) = W24 D m c (Proc.devRef .tc r) :=
  StableHlo.after_of_writes_sub hostOps13 _ hostOps13_writes h

/-- At region 13's exit: its arrays at what the pipeline leaves, every other buffer as entered. -/
def W26 (c : Dev nD) : Valuation τ sig (Elt F) :=
  Pipeline.withArrays spec13 c (W25 D m c) fun w => (D.r13.dat (V25 D m) c).arrAt w cfg13.N
theorem W26_arr (c : Dev nD) (w : Fin cfg13.W) :
    W26 D m c (Proc.devRef .tc (Pipeline.arrRef spec13 w)) = (D.r13.dat (V25 D m) c).arrAt w cfg13.N := by
  unfold W26; exact Pipeline.withArrays_arr spec13 launch13.win.arr_inj c _ _ w
theorem W26_of_ne (c : Dev nD) (b : Ref sig .tc) (hb : ∀ w, Pipeline.arrRef spec13 w ≠ b) :
    W26 D m c (Proc.devRef .tc b) = W25 D m c (Proc.devRef .tc b) := by
  unfold W26; exact Pipeline.withArrays_of_ne spec13 c _ _ b hb
/-- The same read at the TensorCore's references (region 13's exit contents). -/
abbrev V26 : VT F := fun c b => W26 D m c b
/-- At region 13's exit each of its arrays holds what the pipeline leaves and every other buffer what it held at entry. -/
theorem hF13 (c : Dev nD) (w : Fin cfg13.W) : (D.r13.dat (V25 D m) c).arrAt w cfg13.N = V26 D m c (Pipeline.arrRef spec13 w) :=
  (W26_arr D m c w).symm
theorem hrest13 (c : Dev nD) : ∀ b, b ∉ Finset.univ.image (Pipeline.arrRef spec13) → V26 D m c b = V25 D m c b :=
  fun b hb => W26_of_ne D m c b fun w e => hb (Finset.mem_image.mpr ⟨w, Finset.mem_univ _, e⟩)
/-- An input window's array is left as entered. -/
theorem W26_in (c : Dev nD) (w : Fin cfg13.W) (hin : (cfg13.win w).isOut = false) :
    W26 D m c (Proc.devRef .tc (Pipeline.arrRef spec13 w)) = W25 D m c (Proc.devRef .tc (Pipeline.arrRef spec13 w)) :=
  (W26_arr D m c w).trans (((D.r13.dat (V25 D m) c).arrAt_in w hin _).trans (D.r13.hA (V25 D m) c w))

/-- The program's result: region 13's output window, as its write-backs leave it. -/
theorem W26_result (c : Dev nD) :
    W26 D m c (Proc.devRef .tc main_v185) = (D.r13.dat (V25 D m) c).arrAt 9 cfg13.N := W26_arr D m c 9

end Cert.KernelIdeal.Reg

end
-- ==== Proof.KI.RunRegs.lean ====
import proofs.«178590_j59433757442359_2_alg».proof.Proof.KI.RunFold

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The proof data family and the thread state -/

/-- Every pipeline's proof data, each at its region's entry contents — a literal `match`, so that the pinned
    configuration at a numeral reduces to the printed one. -/
def pdats : (p : Fin 14) → (c : Dev nD) → Dat τ (Elt F) Unit ℕ (UR sig nD τ) ℕ (Pipeline.pin (pcfgs (F := F)) adm p) c
  | ⟨0, _⟩ => fun c => D.r0.dat (V0 m) c
  | ⟨1, _⟩ => fun c => D.r1.dat (V1 D m) c
  | ⟨2, _⟩ => fun c => D.r2.dat (V3 D m) c
  | ⟨3, _⟩ => fun c => D.r3.dat (V5 D m) c
  | ⟨4, _⟩ => fun c => D.r4.dat (V7 D m) c
  | ⟨5, _⟩ => fun c => D.r5.dat (V9 D m) c
  | ⟨6, _⟩ => fun c => D.r6.dat (V11 D m) c
  | ⟨7, _⟩ => fun c => D.r7.dat (V13 D m) c
  | ⟨8, _⟩ => fun c => D.r8.dat (V15 D m) c
  | ⟨9, _⟩ => fun c => D.r9.dat (V17 D m) c
  | ⟨10, _⟩ => fun c => D.r10.dat (V19 D m) c
  | ⟨11, _⟩ => fun c => D.r11.dat (V21 D m) c
  | ⟨12, _⟩ => fun c => D.r12.dat (V23 D m) c
  | ⟨13, _⟩ => fun c => D.r13.dat (V25 D m) c
  | ⟨_ + 14, h⟩ => absurd h (Nat.not_lt.2 (Nat.le_add_left _ _))
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its `post` is
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A core owing nothing, whatever pairs its waits have recorded, is what proof data that owe nothing at the first
    point and bound the recorded pairs by nothing take in. -/
theorem owesAt_in {cfg : Pipeline.Cfg sig Λ₀} {c : Dev nD} (dat : Dat τ (Elt F) Unit ℕ (UR sig nD τ) ℕ cfg c)
    (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr
  · ipureintro; exact fun x _ => Or.inl (by rw [hr]; exact Set.mem_univ x)
  iexact HO
/-- Proof data that owe nothing at the last point give back a core owing nothing. -/
theorem owesAt_out {cfg : Pipeline.Cfg sig Λ₀} {c : Dev nD} (dat : Dat τ (Elt F) Unit ℕ (UR sig nD τ) ℕ cfg c)
    (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W26`, the
    generator register at some state. -/
abbrev Tₙ (c : Dev nD) : sProp 𝕄 := iprop(StableHlo.held (c : Thread nD τ) (Pipeline.ucRefs τ sig) (W26 D m c) ∗ ∃ r, prngReg c r)

end Cert.KernelIdeal.Reg

end
-- ==== Proof.KI.RunRegsA.lean ====
import proofs.«178590_j59433757442359_2_alg».proof.Proof.KI.RunRegs

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 0 (custom_call 0) over the thread state: entered from every unscoped buffer at `W0`, left at `W1`.
    Its arrays split out of the unscoped buffers and put back at the exit contents; the generator register and the
    scoped rest into the region's invariant (through the class's) and out; nothing owed; no semaphore of the kernel's own. -/
def reg0 : Pipeline.RegionSeg (pcfgs (F := F)) adm (pdats D m) () defs₀ 𝒱₀ L lv 0 where
  win := launch0.win.to₀
  block_pos := launch0.block_pos
  stage_whole := launch0.stage_whole
  K := PEmpty
  osem k := k.elim
  ho := Pipeline.OwnSemFacts.none _
  hbody c := (D.r0.hbody (V0 m) c).loose
  hwaits := Pipeline.hwaits_of_owed_zero _ _ _ _ L lv 0 fun c t => D.r0.howed (V0 m) c t
  pre c := iprop(StableHlo.held (c : Thread nD τ) (Pipeline.ucRefs τ sig) (W0 m c) ∗ R c)
  post c := iprop(StableHlo.held (c : Thread nD τ) (Pipeline.ucRefs τ sig) (W1 D m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats D m) launch0.win launch0.arr_whole c
      ((pdats D m 0 c).share_full fun w => D.r0.hq (V0 m) c w) (V0 m c) fun w => D.r0.hA (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 0 c) (D.r0.howed (V0 m) c 0) (D.r0.hrec (V0 m) c))
      iexact HO
    isplitl [Hp]; · iexact Hp
    iexact Hrest
  hin c := by
    refine BIBase.Entails.trans ?_ (D.r0.hin (V0 m) c)
    unfold Pipeline.ΦA
    iintro ⟨Hp, -, Hr⟩
    isplitl [Hr]; · iexact Hr
    iexact Hp
  hout c := by
    rw [Pipeline.ownSems0_none]
    refine BIBase.Entails.trans (D.r0.hout (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats D m) ((pdats D m 0 c).share_full fun w => D.r0.hq (V0 m) c w)
      (V0 m c) (V1 D m c) ((pdats D m 0 c).arrAt · cfg0.N) (hF0 D m c) (hrest0 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 0 c) (D.r0.howed (V0 m) c _))
    iexact HO

-- `iapply` of a library lemma stated over the pinned configuration unifies with the printed one only when
-- unification may unfold plain definitions in a metavariable's type
set_option backward.isDefEq.respectTransparency.types false in
/-- REGION 1 (custom_call 1) over the thread state: entered from every unscoped buffer at `W1`, left at `W2`.
    Its arrays split out of the unscoped buffers and put back at the exit contents; the generator register and the
    scoped rest into the region's invariant (through the class's) and out; nothing owed; no semaphore of the kernel's own. -/
def reg1 : Pipeline.RegionSeg (pcfgs (F := F)) adm (pdats D m) () defs₀ 𝒱₀ L lv 1 where
  win := launch1.win.to₀
  block_pos := launch1.block_pos
  stage_whole := launch1.stage_whole
  K := PEmpty
  osem k := k.elim
  ho := Pipeline.OwnSemFacts.none _
  hbody c := (D.r1.hbody (V1 D m) c).loose
  hwaits := Pipeline.hwaits_of_owed_zero _ _ _ _ L lv 1 fun c t => D.r1.howed (V1 D m) c t
  pre c := iprop(StableHlo.held (c : Thread nD τ) (Pipeline.ucRefs τ sig) (W1 D m c) ∗ R c)
  post c := iprop(StableHlo.held (c : Thread nD τ) (Pipeline.ucRefs τ sig) (W2 D m c) ∗ R c)
  X c := iprop(∃ r, prngReg c r)
  Y c := iprop(∃ r, prngReg c r)
  Z c := Pipeline.unscopedRest (Ix := Unit) (Name := ℕ) (U := UR sig nD τ) (Lvl := ℕ) spec1 c (V1 D m c)
  hentry c := by
    rw [Pipeline.ownSems0_none]
    have hsplit := Pipeline.arrays_of_unscopedBufs (p := 1) (pcfgs (F := F)) adm (pdats D m) launch1.win launch1.arr_whole c
      ((pdats D m 1 c).share_full fun w => D.r1.hq (V1 D m) c w) (V1 D m c) fun w => D.r1.hA (V1 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 1 c) (D.r1.howed (V1 D m) c 0) (D.r1.hrec (V1 D m) c))
      iexact HO
    isplitl [Hp]; · iexact Hp
    iexact Hrest
  hin c := by
    refine BIBase.Entails.trans ?_ (D.r1.hin (V1 D m) c)
    unfold Pipeline.ΦA
    iintro ⟨Hp, -, Hr⟩
    isplitl [Hr]; · iexact Hr
    iexact Hp
  hout c := by
    rw [Pipeline.ownSems0_none]
    refine BIBase.Entails.trans (D.r1.hout (V1 D m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats D m) ((pdats D m 1 c).share_full fun w => D.r1.hq (V1 D m) c w)
      (V1 D m c) (V2 D m c) ((pdats D m 1 c).arrAt · cfg1.N) (hF1 D m c) (hrest1 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 1 c) (D.r1.howed (V1 D m) c _))
    iexact HO

-- `iapply` of a library lemma stated over the pinned configuration unifies with the printed one only when
-- unification may unfold plain definitions in a metavariable's type
set_option backward.isDefEq.respectTransparency.types false in
/-- REGION 2 (custom_call 2) over the thread state: entered from every unscoped buffer at `W3`, left at `W4`.
    Its arrays split out of the unscoped buffers and put back at the exit contents; the generator register and the
    scoped rest into the region's invariant (through the class's) and out; nothing owed; no semaphore of the kernel's own. -/
def reg2 : Pipeline.RegionSeg (pcfgs (F := F)) adm (pdats D m) () defs₀ 𝒱₀ L lv 2 where
  win := launch2.win.to₀
  block_pos := launch2.block_pos
  stage_whole := launch2.stage_whole
  K := PEmpty
  osem k := k.elim
  ho := Pipeline.OwnSemFacts.none _
  hbody c := (D.r2.hbody (V3 D m) c).loose
  hwaits := Pipeline.hwaits_of_owed_zero _ _ _ _ L lv 2 fun c t => D.r2.howed (V3 D m) c t
  pre c := iprop(StableHlo.held (c : Thread nD τ) (Pipeline.ucRefs τ sig) (W3 D m c) ∗ R c)
  post c := iprop(StableHlo.held (c : Thread nD τ) (Pipeline.ucRefs τ sig) (W4 D m c) ∗ R c)
  X c := iprop(∃ r, prngReg c r)
  Y c := iprop(∃ r, prngReg c r)
  Z c := Pipeline.unscopedRest (Ix := Unit) (Name := ℕ) (U := UR sig nD τ) (Lvl := ℕ) spec2 c (V3 D m c)
  hentry c := by
    rw [Pipeline.ownSems0_none]
    have hsplit := Pipeline.arrays_of_unscopedBufs (p := 2) (pcfgs (F := F)) adm (pdats D m) launch2.win launch2.arr_whole c
      ((pdats D m 2 c).share_full fun w => D.r2.hq (V3 D m) c w) (V3 D m c) fun w => D.r2.hA (V3 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 2 c) (D.r2.howed (V3 D m) c 0) (D.r2.hrec (V3 D m) c))
      iexact HO
    isplitl [Hp]; · iexact Hp
    iexact Hrest
  hin c := by
    refine BIBase.Entails.trans ?_ (D.r2.hin (V3 D m) c)
    unfold Pipeline.ΦA
    iintro ⟨Hp, -, Hr⟩
    isplitl [Hr]; · iexact Hr
    iexact Hp
  hout c := by
    rw [Pipeline.ownSems0_none]
    refine BIBase.Entails.trans (D.r2.hout (V3 D m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats D m) ((pdats D m 2 c).share_full fun w => D.r2.hq (V3 D m) c w)
      (V3 D m c) (V4 D m c) ((pdats D m 2 c).arrAt · cfg2.N) (hF2 D m c) (hrest2 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 2 c) (D.r2.howed (V3 D m) c _))
    iexact HO

-- `iapply` of a library lemma stated over the pinned configuration unifies with the printed one only when
-- unification may unfold plain definitions in a metavariable's type
set_option backward.isDefEq.respectTransparency.types false in
/-- REGION 3 (custom_call 3) over the thread state: entered from every unscoped buffer at `W5`, left at `W6`.
    Its arrays split out of the unscoped buffers and put back at the exit contents; the generator register and the
    scoped rest into the region's invariant (through the class's) and out; nothing owed; no semaphore of the kernel's own. -/
def reg3 : Pipeline.RegionSeg (pcfgs (F := F)) adm (pdats D m) () defs₀ 𝒱₀ L lv 3 where
  win := launch3.win.to₀
  block_pos := launch3.block_pos
  stage_whole := launch3.stage_whole
  K := PEmpty
  osem k := k.elim
  ho := Pipeline.OwnSemFacts.none _
  hbody c := (D.r3.hbody (V5 D m) c).loose
  hwaits := Pipeline.hwaits_of_owed_zero _ _ _ _ L lv 3 fun c t => D.r3.howed (V5 D m) c t
  pre c := iprop(StableHlo.held (c : Thread nD τ) (Pipeline.ucRefs τ sig) (W5 D m c) ∗ R c)
  post c := iprop(StableHlo.held (c : Thread nD τ) (Pipeline.ucRefs τ sig) (W6 D m c) ∗ R c)
  X c := iprop(∃ r, prngReg c r)
  Y c := iprop(∃ r, prngReg c r)
  Z c := Pipeline.unscopedRest (Ix := Unit) (Name := ℕ) (U := UR sig nD τ) (Lvl := ℕ) spec3 c (V5 D m c)
  hentry c := by
    rw [Pipeline.ownSems0_none]
    have hsplit := Pipeline.arrays_of_unscopedBufs (p := 3) (pcfgs (F := F)) adm (pdats D m) launch3.win launch3.arr_whole c
      ((pdats D m 3 c).share_full fun w => D.r3.hq (V5 D m) c w) (V5 D m c) fun w => D.r3.hA (V5 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 3 c) (D.r3.howed (V5 D m) c 0) (D.r3.hrec (V5 D m) c))
      iexact HO
    isplitl [Hp]; · iexact Hp
    iexact Hrest
  hin c := by
    refine BIBase.Entails.trans ?_ (D.r3.hin (V5 D m) c)
    unfold Pipeline.ΦA
    iintro ⟨Hp, -, Hr⟩
    isplitl [Hr]; · iexact Hr
    iexact Hp
  hout c := by
    rw [Pipeline.ownSems0_none]
    refine BIBase.Entails.trans (D.r3.hout (V5 D m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats D m) ((pdats D m 3 c).share_full fun w => D.r3.hq (V5 D m) c w)
      (V5 D m c) (V6 D m c) ((pdats D m 3 c).arrAt · cfg3.N) (hF3 D m c) (hrest3 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 3 c) (D.r3.howed (V5 D m) c _))
    iexact HO

end Cert.KernelIdeal.Reg

end
-- ==== Proof.KI.RunRegsB.lean ====
import proofs.«178590_j59433757442359_2_alg».proof.Proof.KI.RunRegs

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 4 (custom_call 4) over the thread state: entered from every unscoped buffer at `W7`, left at `W8`.
    Its arrays split out of the unscoped buffers and put back at the exit contents; the generator register and the
    scoped rest into the region's invariant (through the class's) and out; nothing owed; no semaphore of the kernel's own. -/
def reg4 : Pipeline.RegionSeg (pcfgs (F := F)) adm (pdats D m) () defs₀ 𝒱₀ L lv 4 where
  win := launch4.win.to₀
  block_pos := launch4.block_pos
  stage_whole := launch4.stage_whole
  K := PEmpty
  osem k := k.elim
  ho := Pipeline.OwnSemFacts.none _
  hbody c := (D.r4.hbody (V7 D m) c).loose
  hwaits := Pipeline.hwaits_of_owed_zero _ _ _ _ L lv 4 fun c t => D.r4.howed (V7 D m) c t
  pre c := iprop(StableHlo.held (c : Thread nD τ) (Pipeline.ucRefs τ sig) (W7 D m c) ∗ R c)
  post c := iprop(StableHlo.held (c : Thread nD τ) (Pipeline.ucRefs τ sig) (W8 D m c) ∗ R c)
  X c := iprop(∃ r, prngReg c r)
  Y c := iprop(∃ r, prngReg c r)
  Z c := Pipeline.unscopedRest (Ix := Unit) (Name := ℕ) (U := UR sig nD τ) (Lvl := ℕ) spec4 c (V7 D m c)
  hentry c := by
    rw [Pipeline.ownSems0_none]
    have hsplit := Pipeline.arrays_of_unscopedBufs (p := 4) (pcfgs (F := F)) adm (pdats D m) launch4.win launch4.arr_whole c
      ((pdats D m 4 c).share_full fun w => D.r4.hq (V7 D m) c w) (V7 D m c) fun w => D.r4.hA (V7 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 4 c) (D.r4.howed (V7 D m) c 0) (D.r4.hrec (V7 D m) c))
      iexact HO
    isplitl [Hp]; · iexact Hp
    iexact Hrest
  hin c := by
    refine BIBase.Entails.trans ?_ (D.r4.hin (V7 D m) c)
    unfold Pipeline.ΦA
    iintro ⟨Hp, -, Hr⟩
    isplitl [Hr]; · iexact Hr
    iexact Hp
  hout c := by
    rw [Pipeline.ownSems0_none]
    refine BIBase.Entails.trans (D.r4.hout (V7 D m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats D m) ((pdats D m 4 c).share_full fun w => D.r4.hq (V7 D m) c w)
      (V7 D m c) (V8 D m c) ((pdats D m 4 c).arrAt · cfg4.N) (hF4 D m c) (hrest4 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 4 c) (D.r4.howed (V7 D m) c _))
    iexact HO

-- `iapply` of a library lemma stated over the pinned configuration unifies with the printed one only when
-- unification may unfold plain definitions in a metavariable's type
set_option backward.isDefEq.respectTransparency.types false in
/-- REGION 5 (custom_call 5) over the thread state: entered from every unscoped buffer at `W9`, left at `W10`.
    Its arrays split out of the unscoped buffers and put back at the exit contents; the generator register and the
    scoped rest into the region's invariant (through the class's) and out; nothing owed; no semaphore of the kernel's own. -/
def reg5 : Pipeline.RegionSeg (pcfgs (F := F)) adm (pdats D m) () defs₀ 𝒱₀ L lv 5 where
  win := launch5.win.to₀
  block_pos := launch5.block_pos
  stage_whole := launch5.stage_whole
  K := PEmpty
  osem k := k.elim
  ho := Pipeline.OwnSemFacts.none _
  hbody c := (D.r5.hbody (V9 D m) c).loose
  hwaits := Pipeline.hwaits_of_owed_zero _ _ _ _ L lv 5 fun c t => D.r5.howed (V9 D m) c t
  pre c := iprop(StableHlo.held (c : Thread nD τ) (Pipeline.ucRefs τ sig) (W9 D m c) ∗ R c)
  post c := iprop(StableHlo.held (c : Thread nD τ) (Pipeline.ucRefs τ sig) (W10 D m c) ∗ R c)
  X c := iprop(∃ r, prngReg c r)
  Y c := iprop(∃ r, prngReg c r)
  Z c := Pipeline.unscopedRest (Ix := Unit) (Name := ℕ) (U := UR sig nD τ) (Lvl := ℕ) spec5 c (V9 D m c)
  hentry c := by
    rw [Pipeline.ownSems0_none]
    have hsplit := Pipeline.arrays_of_unscopedBufs (p := 5) (pcfgs (F := F)) adm (pdats D m) launch5.win launch5.arr_whole c
      ((pdats D m 5 c).share_full fun w => D.r5.hq (V9 D m) c w) (V9 D m c) fun w => D.r5.hA (V9 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 5 c) (D.r5.howed (V9 D m) c 0) (D.r5.hrec (V9 D m) c))
      iexact HO
    isplitl [Hp]; · iexact Hp
    iexact Hrest
  hin c := by
    refine BIBase.Entails.trans ?_ (D.r5.hin (V9 D m) c)
    unfold Pipeline.ΦA
    iintro ⟨Hp, -, Hr⟩
    isplitl [Hr]; · iexact Hr
    iexact Hp
  hout c := by
    rw [Pipeline.ownSems0_none]
    refine BIBase.Entails.trans (D.r5.hout (V9 D m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats D m) ((pdats D m 5 c).share_full fun w => D.r5.hq (V9 D m) c w)
      (V9 D m c) (V10 D m c) ((pdats D m 5 c).arrAt · cfg5.N) (hF5 D m c) (hrest5 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 5 c) (D.r5.howed (V9 D m) c _))
    iexact HO

-- `iapply` of a library lemma stated over the pinned configuration unifies with the printed one only when
-- unification may unfold plain definitions in a metavariable's type
set_option backward.isDefEq.respectTransparency.types false in
/-- REGION 6 (custom_call 6) over the thread state: entered from every unscoped buffer at `W11`, left at `W12`.
    Its arrays split out of the unscoped buffers and put back at the exit contents; the generator register and the
    scoped rest into the region's invariant (through the class's) and out; nothing owed; no semaphore of the kernel's own. -/
def reg6 : Pipeline.RegionSeg (pcfgs (F := F)) adm (pdats D m) () defs₀ 𝒱₀ L lv 6 where
  win := launch6.win.to₀
  block_pos := launch6.block_pos
  stage_whole := launch6.stage_whole
  K := PEmpty
  osem k := k.elim
  ho := Pipeline.OwnSemFacts.none _
  hbody c := (D.r6.hbody (V11 D m) c).loose
  hwaits := Pipeline.hwaits_of_owed_zero _ _ _ _ L lv 6 fun c t => D.r6.howed (V11 D m) c t
  pre c := iprop(StableHlo.held (c : Thread nD τ) (Pipeline.ucRefs τ sig) (W11 D m c) ∗ R c)
  post c := iprop(StableHlo.held (c : Thread nD τ) (Pipeline.ucRefs τ sig) (W12 D m c) ∗ R c)
  X c := iprop(∃ r, prngReg c r)
  Y c := iprop(∃ r, prngReg c r)
  Z c := Pipeline.unscopedRest (Ix := Unit) (Name := ℕ) (U := UR sig nD τ) (Lvl := ℕ) spec6 c (V11 D m c)
  hentry c := by
    rw [Pipeline.ownSems0_none]
    have hsplit := Pipeline.arrays_of_unscopedBufs (p := 6) (pcfgs (F := F)) adm (pdats D m) launch6.win launch6.arr_whole c
      ((pdats D m 6 c).share_full fun w => D.r6.hq (V11 D m) c w) (V11 D m c) fun w => D.r6.hA (V11 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 6 c) (D.r6.howed (V11 D m) c 0) (D.r6.hrec (V11 D m) c))
      iexact HO
    isplitl [Hp]; · iexact Hp
    iexact Hrest
  hin c := by
    refine BIBase.Entails.trans ?_ (D.r6.hin (V11 D m) c)
    unfold Pipeline.ΦA
    iintro ⟨Hp, -, Hr⟩
    isplitl [Hr]; · iexact Hr
    iexact Hp
  hout c := by
    rw [Pipeline.ownSems0_none]
    refine BIBase.Entails.trans (D.r6.hout (V11 D m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats D m) ((pdats D m 6 c).share_full fun w => D.r6.hq (V11 D m) c w)
      (V11 D m c) (V12 D m c) ((pdats D m 6 c).arrAt · cfg6.N) (hF6 D m c) (hrest6 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 6 c) (D.r6.howed (V11 D m) c _))
    iexact HO

-- `iapply` of a library lemma stated over the pinned configuration unifies with the printed one only when
-- unification may unfold plain definitions in a metavariable's type
set_option backward.isDefEq.respectTransparency.types false in
/-- REGION 7 (custom_call 7) over the thread state: entered from every unscoped buffer at `W13`, left at `W14`.
    Its arrays split out of the unscoped buffers and put back at the exit contents; the generator register and the
    scoped rest into the region's invariant (through the class's) and out; nothing owed; no semaphore of the kernel's own. -/
def reg7 : Pipeline.RegionSeg (pcfgs (F := F)) adm (pdats D m) () defs₀ 𝒱₀ L lv 7 where
  win := launch7.win.to₀
  block_pos := launch7.block_pos
  stage_whole := launch7.stage_whole
  K := PEmpty
  osem k := k.elim
  ho := Pipeline.OwnSemFacts.none _
  hbody c := (D.r7.hbody (V13 D m) c).loose
  hwaits := Pipeline.hwaits_of_owed_zero _ _ _ _ L lv 7 fun c t => D.r7.howed (V13 D m) c t
  pre c := iprop(StableHlo.held (c : Thread nD τ) (Pipeline.ucRefs τ sig) (W13 D m c) ∗ R c)
  post c := iprop(StableHlo.held (c : Thread nD τ) (Pipeline.ucRefs τ sig) (W14 D m c) ∗ R c)
  X c := iprop(∃ r, prngReg c r)
  Y c := iprop(∃ r, prngReg c r)
  Z c := Pipeline.unscopedRest (Ix := Unit) (Name := ℕ) (U := UR sig nD τ) (Lvl := ℕ) spec7 c (V13 D m c)
  hentry c := by
    rw [Pipeline.ownSems0_none]
    have hsplit := Pipeline.arrays_of_unscopedBufs (p := 7) (pcfgs (F := F)) adm (pdats D m) launch7.win launch7.arr_whole c
      ((pdats D m 7 c).share_full fun w => D.r7.hq (V13 D m) c w) (V13 D m c) fun w => D.r7.hA (V13 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 7 c) (D.r7.howed (V13 D m) c 0) (D.r7.hrec (V13 D m) c))
      iexact HO
    isplitl [Hp]; · iexact Hp
    iexact Hrest
  hin c := by
    refine BIBase.Entails.trans ?_ (D.r7.hin (V13 D m) c)
    unfold Pipeline.ΦA
    iintro ⟨Hp, -, Hr⟩
    isplitl [Hr]; · iexact Hr
    iexact Hp
  hout c := by
    rw [Pipeline.ownSems0_none]
    refine BIBase.Entails.trans (D.r7.hout (V13 D m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats D m) ((pdats D m 7 c).share_full fun w => D.r7.hq (V13 D m) c w)
      (V13 D m c) (V14 D m c) ((pdats D m 7 c).arrAt · cfg7.N) (hF7 D m c) (hrest7 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 7 c) (D.r7.howed (V13 D m) c _))
    iexact HO

end Cert.KernelIdeal.Reg

end
-- ==== Proof.KI.RunRegsC.lean ====
import proofs.«178590_j59433757442359_2_alg».proof.Proof.KI.RunRegs

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 8 (custom_call 8) over the thread state: entered from every unscoped buffer at `W15`, left at `W16`.
    Its arrays split out of the unscoped buffers and put back at the exit contents; the generator register and the
    scoped rest into the region's invariant (through the class's) and out; nothing owed; no semaphore of the kernel's own. -/
def reg8 : Pipeline.RegionSeg (pcfgs (F := F)) adm (pdats D m) () defs₀ 𝒱₀ L lv 8 where
  win := launch8.win.to₀
  block_pos := launch8.block_pos
  stage_whole := launch8.stage_whole
  K := PEmpty
  osem k := k.elim
  ho := Pipeline.OwnSemFacts.none _
  hbody c := (D.r8.hbody (V15 D m) c).loose
  hwaits := Pipeline.hwaits_of_owed_zero _ _ _ _ L lv 8 fun c t => D.r8.howed (V15 D m) c t
  pre c := iprop(StableHlo.held (c : Thread nD τ) (Pipeline.ucRefs τ sig) (W15 D m c) ∗ R c)
  post c := iprop(StableHlo.held (c : Thread nD τ) (Pipeline.ucRefs τ sig) (W16 D m c) ∗ R c)
  X c := iprop(∃ r, prngReg c r)
  Y c := iprop(∃ r, prngReg c r)
  Z c := Pipeline.unscopedRest (Ix := Unit) (Name := ℕ) (U := UR sig nD τ) (Lvl := ℕ) spec8 c (V15 D m c)
  hentry c := by
    rw [Pipeline.ownSems0_none]
    have hsplit := Pipeline.arrays_of_unscopedBufs (p := 8) (pcfgs (F := F)) adm (pdats D m) launch8.win launch8.arr_whole c
      ((pdats D m 8 c).share_full fun w => D.r8.hq (V15 D m) c w) (V15 D m c) fun w => D.r8.hA (V15 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 8 c) (D.r8.howed (V15 D m) c 0) (D.r8.hrec (V15 D m) c))
      iexact HO
    isplitl [Hp]; · iexact Hp
    iexact Hrest
  hin c := by
    refine BIBase.Entails.trans ?_ (D.r8.hin (V15 D m) c)
    unfold Pipeline.ΦA
    iintro ⟨Hp, -, Hr⟩
    isplitl [Hr]; · iexact Hr
    iexact Hp
  hout c := by
    rw [Pipeline.ownSems0_none]
    refine BIBase.Entails.trans (D.r8.hout (V15 D m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats D m) ((pdats D m 8 c).share_full fun w => D.r8.hq (V15 D m) c w)
      (V15 D m c) (V16 D m c) ((pdats D m 8 c).arrAt · cfg8.N) (hF8 D m c) (hrest8 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 8 c) (D.r8.howed (V15 D m) c _))
    iexact HO

-- `iapply` of a library lemma stated over the pinned configuration unifies with the printed one only when
-- unification may unfold plain definitions in a metavariable's type
set_option backward.isDefEq.respectTransparency.types false in
/-- REGION 9 (custom_call 9) over the thread state: entered from every unscoped buffer at `W17`, left at `W18`.
    Its arrays split out of the unscoped buffers and put back at the exit contents; the generator register and the
    scoped rest into the region's invariant (through the class's) and out; nothing owed; no semaphore of the kernel's own. -/
def reg9 : Pipeline.RegionSeg (pcfgs (F := F)) adm (pdats D m) () defs₀ 𝒱₀ L lv 9 where
  win := launch9.win.to₀
  block_pos := launch9.block_pos
  stage_whole := launch9.stage_whole
  K := PEmpty
  osem k := k.elim
  ho := Pipeline.OwnSemFacts.none _
  hbody c := (D.r9.hbody (V17 D m) c).loose
  hwaits := Pipeline.hwaits_of_owed_zero _ _ _ _ L lv 9 fun c t => D.r9.howed (V17 D m) c t
  pre c := iprop(StableHlo.held (c : Thread nD τ) (Pipeline.ucRefs τ sig) (W17 D m c) ∗ R c)
  post c := iprop(StableHlo.held (c : Thread nD τ) (Pipeline.ucRefs τ sig) (W18 D m c) ∗ R c)
  X c := iprop(∃ r, prngReg c r)
  Y c := iprop(∃ r, prngReg c r)
  Z c := Pipeline.unscopedRest (Ix := Unit) (Name := ℕ) (U := UR sig nD τ) (Lvl := ℕ) spec9 c (V17 D m c)
  hentry c := by
    rw [Pipeline.ownSems0_none]
    have hsplit := Pipeline.arrays_of_unscopedBufs (p := 9) (pcfgs (F := F)) adm (pdats D m) launch9.win launch9.arr_whole c
      ((pdats D m 9 c).share_full fun w => D.r9.hq (V17 D m) c w) (V17 D m c) fun w => D.r9.hA (V17 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 9 c) (D.r9.howed (V17 D m) c 0) (D.r9.hrec (V17 D m) c))
      iexact HO
    isplitl [Hp]; · iexact Hp
    iexact Hrest
  hin c := by
    refine BIBase.Entails.trans ?_ (D.r9.hin (V17 D m) c)
    unfold Pipeline.ΦA
    iintro ⟨Hp, -, Hr⟩
    isplitl [Hr]; · iexact Hr
    iexact Hp
  hout c := by
    rw [Pipeline.ownSems0_none]
    refine BIBase.Entails.trans (D.r9.hout (V17 D m) c) ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats D m) ((pdats D m 9 c).share_full fun w => D.r9.hq (V17 D m) c w)
      (V17 D m c) (V18 D m c) ((pdats D m 9 c).arrAt · cfg9.N) (hF9 D m c) (hrest9 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 9 c) (D.r9.howed (V17 D m) c _))
    iexact HO

-- `iapply` of a library lemma stated over the pinned configuration unifies with the printed one only when
-- unification may unfold plain definitions in a metavariable's type
set_option backward.isDefEq.respectTransparency.types false in
/-- REGION 10 (custom_call 10) over the thread state: entered from every unscoped buffer at `W19`, left at `W20`.
    Its arrays split out of the unscoped buffers and put back at the exit contents; the generator register and the
    scoped rest into the region's invariant (through the class's) and out; nothing owed; no semaphore of the kernel's own. -/
def reg10 : Pipeline.RegionSeg (pcfgs (F := F)) adm (pdats D m) () defs₀ 𝒱₀ L lv 10 where
  win := launch10.win.to₀
  block_pos := launch10.block_pos
  stage_whole := launch10.stage_whole
  K := PEmpty
  osem k := k.elim
  ho := Pipeline.OwnSemFacts.none _
  hbody c := (D.r10.hbody (V19 D m) c).loose
  hwaits := Pipeline.hwaits_of_owed_zero _ _ _ _ L lv 10 fun c t => D.r10.howed (V19 D m) c t
  pre c := iprop(StableHlo.held (c : Thread nD τ) (Pipeline.ucRefs τ sig) (W19 D m c) ∗ R c)
  post c := iprop(StableHlo.held (c : Thread nD τ) (Pipeline.ucRefs τ sig) (W20 D m c) ∗ R c)
  X c := iprop(∃ r, prngReg c r)
  Y c := iprop(∃ r, prngReg c r)
  Z c := Pipeline.unscopedRest (Ix := Unit) (Name := ℕ) (U := UR sig nD τ) (Lvl := ℕ) spec10 c (V19 D m c)
  hentry c := by
    rw [Pipeline.ownSems0_none]
    have hsplit := Pipeline.arrays_of_unscopedBufs (p := 10) (pcfgs (F := F)) adm (pdats D m) launch10.win launch10.arr_whole c
      ((pdats D m 10 c).share_full fun w => D.r10.hq (V19 D m) c w) (V19 D m c) fun w => D.r10.hA (V19 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 10 c) (D.r10.howed (V19 D m) c 0) (D.r10.hrec (V19 D m) c))
      iexact HO
    isplitl [Hp]; · iexact Hp
    iexact Hrest
  hin c := by
    refine BIBase.Entails.trans ?_ (D.r10.hin (V19 D m) c)
    unfold Pipeline.ΦA
    iintro ⟨Hp, -, Hr⟩
    isplitl [Hr]; · iexact Hr
    iexact Hp
  hout c := by
    rw [Pipeline.ownSems0_none]
    refine BIBase.Entails.trans (D.r10.hout (V19 D m) c) ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats D m) ((pdats D m 10 c).share_full fun w => D.r10.hq (V19 D m) c w)
      (V19 D m c) (V20 D m c) ((pdats D m 10 c).arrAt · cfg10.N) (hF10 D m c) (hrest10 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 10 c) (D.r10.howed (V19 D m) c _))
    iexact HO

end Cert.KernelIdeal.Reg

end
-- ==== Proof.KI.RunRegsD.lean ====
import proofs.«178590_j59433757442359_2_alg».proof.Proof.KI.RunRegs

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The regions as segments -/

-- `iapply` of a library lemma stated over the pinned configuration unifies with the printed one only when
-- unification may unfold plain definitions in a metavariable's type
set_option backward.isDefEq.respectTransparency.types false in
/-- REGION 11 (custom_call 11) over the thread state: entered from every unscoped buffer at `W21`, left at `W22`.
    Its arrays split out of the unscoped buffers and put back at the exit contents; the generator register and the
    scoped rest into the region's invariant (through the class's) and out; nothing owed; no semaphore of the kernel's own. -/
def reg11 : Pipeline.RegionSeg (pcfgs (F := F)) adm (pdats D m) () defs₀ 𝒱₀ L lv 11 where
  win := launch11.win.to₀
  block_pos := launch11.block_pos
  stage_whole := launch11.stage_whole
  K := PEmpty
  osem k := k.elim
  ho := Pipeline.OwnSemFacts.none _
  hbody c := (D.r11.hbody (V21 D m) c).loose
  hwaits := Pipeline.hwaits_of_owed_zero _ _ _ _ L lv 11 fun c t => D.r11.howed (V21 D m) c t
  pre c := iprop(StableHlo.held (c : Thread nD τ) (Pipeline.ucRefs τ sig) (W21 D m c) ∗ R c)
  post c := iprop(StableHlo.held (c : Thread nD τ) (Pipeline.ucRefs τ sig) (W22 D m c) ∗ R c)
  X c := iprop(∃ r, prngReg c r)
  Y c := iprop(∃ r, prngReg c r)
  Z c := Pipeline.unscopedRest (Ix := Unit) (Name := ℕ) (U := UR sig nD τ) (Lvl := ℕ) spec11 c (V21 D m c)
  hentry c := by
    rw [Pipeline.ownSems0_none]
    have hsplit := Pipeline.arrays_of_unscopedBufs (p := 11) (pcfgs (F := F)) adm (pdats D m) launch11.win launch11.arr_whole c
      ((pdats D m 11 c).share_full fun w => D.r11.hq (V21 D m) c w) (V21 D m c) fun w => D.r11.hA (V21 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 11 c) (D.r11.howed (V21 D m) c 0) (D.r11.hrec (V21 D m) c))
      iexact HO
    isplitl [Hp]; · iexact Hp
    iexact Hrest
  hin c := by
    refine BIBase.Entails.trans ?_ (D.r11.hin (V21 D m) c)
    unfold Pipeline.ΦA
    iintro ⟨Hp, -, Hr⟩
    isplitl [Hr]; · iexact Hr
    iexact Hp
  hout c := by
    rw [Pipeline.ownSems0_none]
    refine BIBase.Entails.trans (D.r11.hout (V21 D m) c) ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats D m) ((pdats D m 11 c).share_full fun w => D.r11.hq (V21 D m) c w)
      (V21 D m c) (V22 D m c) ((pdats D m 11 c).arrAt · cfg11.N) (hF11 D m c) (hrest11 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 11 c) (D.r11.howed (V21 D m) c _))
    iexact HO

-- `iapply` of a library lemma stated over the pinned configuration unifies with the printed one only when
-- unification may unfold plain definitions in a metavariable's type
set_option backward.isDefEq.respectTransparency.types false in
/-- REGION 12 (custom_call 12) over the thread state: entered from every unscoped buffer at `W23`, left at `W24`.
    Its arrays split out of the unscoped buffers and put back at the exit contents; the generator register and the
    scoped rest into the region's invariant (through the class's) and out; nothing owed; no semaphore of the kernel's own. -/
def reg12 : Pipeline.RegionSeg (pcfgs (F := F)) adm (pdats D m) () defs₀ 𝒱₀ L lv 12 where
  win := launch12.win.to₀
  block_pos := launch12.block_pos
  stage_whole := launch12.stage_whole
  K := PEmpty
  osem k := k.elim
  ho := Pipeline.OwnSemFacts.none _
  hbody c := (D.r12.hbody (V23 D m) c).loose
  hwaits := Pipeline.hwaits_of_owed_zero _ _ _ _ L lv 12 fun c t => D.r12.howed (V23 D m) c t
  pre c := iprop(StableHlo.held (c : Thread nD τ) (Pipeline.ucRefs τ sig) (W23 D m c) ∗ R c)
  post c := iprop(StableHlo.held (c : Thread nD τ) (Pipeline.ucRefs τ sig) (W24 D m c) ∗ R c)
  X c := iprop(∃ r, prngReg c r)
  Y c := iprop(∃ r, prngReg c r)
  Z c := Pipeline.unscopedRest (Ix := Unit) (Name := ℕ) (U := UR sig nD τ) (Lvl := ℕ) spec12 c (V23 D m c)
  hentry c := by
    rw [Pipeline.ownSems0_none]
    have hsplit := Pipeline.arrays_of_unscopedBufs (p := 12) (pcfgs (F := F)) adm (pdats D m) launch12.win launch12.arr_whole c
      ((pdats D m 12 c).share_full fun w => D.r12.hq (V23 D m) c w) (V23 D m c) fun w => D.r12.hA (V23 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 12 c) (D.r12.howed (V23 D m) c 0) (D.r12.hrec (V23 D m) c))
      iexact HO
    isplitl [Hp]; · iexact Hp
    iexact Hrest
  hin c := by
    refine BIBase.Entails.trans ?_ (D.r12.hin (V23 D m) c)
    unfold Pipeline.ΦA
    iintro ⟨Hp, -, Hr⟩
    isplitl [Hr]; · iexact Hr
    iexact Hp
  hout c := by
    rw [Pipeline.ownSems0_none]
    refine BIBase.Entails.trans (D.r12.hout (V23 D m) c) ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats D m) ((pdats D m 12 c).share_full fun w => D.r12.hq (V23 D m) c w)
      (V23 D m c) (V24 D m c) ((pdats D m 12 c).arrAt · cfg12.N) (hF12 D m c) (hrest12 D m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_out (pdats D m 12 c) (D.r12.howed (V23 D m) c _))
    iexact HO

-- `iapply` of a library lemma stated over the pinned configuration unifies with the printed one only when
-- unification may unfold plain definitions in a metavariable's type
set_option backward.isDefEq.respectTransparency.types false in
/-- REGION 13 (custom_call 13) over the thread state: entered from every unscoped buffer at `W25`, left at `W26`.
    Its arrays split out of the unscoped buffers and put back at the exit contents; the generator register and the
    scoped rest into the region's invariant (through the class's) and out; nothing owed; no semaphore of the kernel's own. -/
def reg13 : Pipeline.RegionSeg (pcfgs (F := F)) adm (pdats D m) () defs₀ 𝒱₀ L lv 13 where
  win := launch13.win.to₀
  block_pos := launch13.block_pos
  stage_whole := launch13.stage_whole
  K := PEmpty
  osem k := k.elim
  ho := Pipeline.OwnSemFacts.none _
  hbody c := (D.r13.hbody (V25 D m) c).loose
  hwaits := Pipeline.hwaits_of_owed_zero _ _ _ _ L lv 13 fun c t => D.r13.howed (V25 D m) c t
  pre c := iprop(StableHlo.held (c : Thread nD τ) (Pipeline.ucRefs τ sig) (W25 D m c) ∗ R c)
  post c := iprop(Tₙ D m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec13 c (V25 D m c)
  hentry c := by
    rw [Pipeline.ownSems0_none]
    have hsplit := Pipeline.arrays_of_unscopedBufs (p := 13) (pcfgs (F := F)) adm (pdats D m) launch13.win launch13.arr_whole c
      ((pdats D m 13 c).share_full fun w => D.r13.hq (V25 D m) c w) (V25 D m c) fun w => D.r13.hA (V25 D m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_in (pdats D m 13 c) (D.r13.howed (V25 D m) c 0) (D.r13.hrec (V25 D m) c))
      iexact HO
    isplitl [Hp]; · iexact Hp
    iexact Hrest
  hin c := by
    refine BIBase.Entails.trans ?_ (D.r13.hin (V25 D m) c)
    unfold Pipeline.ΦA
    iintro ⟨Hp, -, Hr⟩
    isplitl [Hr]; · iexact Hr
    iexact Hp
  hout c := by
    rw [Pipeline.ownSems0_none]
    refine BIBase.Entails.trans (D.r13.hout (V25 D m) c) ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats D m) ((pdats D m 13 c).share_full fun w => D.r13.hq (V25 D m) c w)
      (V25 D m c) (V26 D m c) ((pdats D m 13 c).arrAt · cfg13.N) (hF13 D m c) (hrest13 D m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_out (pdats D m 13 c) (D.r13.howed (V25 D m) c _))
    iexact HO

end Cert.KernelIdeal.Reg

end
-- ==== Proof.KI.RunArgs.lean ====
import proofs.«178590_j59433757442359_2_alg».proof.Proof.KI.RunFold

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # The arguments end as launched

No host stretch writes an argument and no region writes one (a region reads it through an input window, left as
entered, or bypasses it), so the fold at an argument's buffer walks back to the launch memory. -/

/-- `main_arg0` reaches the end as launched. -/
theorem W26_main_arg0 (c : Dev nD) : W26 D m c (Proc.devRef .tc main_arg0) = m ((c : Thread nD τ).loc main_arg0) :=
  (W26_of_ne D m c main_arg0 (by decide)).trans <|
  (W25_of D m c main_arg0 (by decide)).trans <|
  (W24_of_ne D m c main_arg0 (by decide)).trans <|
  (W23_of D m c main_arg0 (by decide)).trans <|
  (W22_of_ne D m c main_arg0 (by decide)).trans <|
  (W21_of D m c main_arg0 (by decide)).trans <|
  (W20_of_ne D m c main_arg0 (by decide)).trans <|
  (W19_of D m c main_arg0 (by decide)).trans <|
  (W18_of_ne D m c main_arg0 (by decide)).trans <|
  (W17_of D m c main_arg0 (by decide)).trans <|
  (W16_of_ne D m c main_arg0 (by decide)).trans <|
  (W15_of D m c main_arg0 (by decide)).trans <|
  (W14_of_ne D m c main_arg0 (by decide)).trans <|
  (W13_of D m c main_arg0 (by decide)).trans <|
  (W12_of_ne D m c main_arg0 (by decide)).trans <|
  (W11_of D m c main_arg0 (by decide)).trans <|
  (W10_of_ne D m c main_arg0 (by decide)).trans <|
  (W9_of D m c main_arg0 (by decide)).trans <|
  (W8_of_ne D m c main_arg0 (by decide)).trans <|
  (W7_of D m c main_arg0 (by decide)).trans <|
  (W6_of_ne D m c main_arg0 (by decide)).trans <|
  (W5_of D m c main_arg0 (by decide)).trans <|
  (W4_of_ne D m c main_arg0 (by decide)).trans <|
  (W3_of D m c main_arg0 (by decide)).trans <|
  (W2_of_ne D m c main_arg0 (by decide)).trans <|
  (W1_in D m c 0 rfl : W1 D m c (Proc.devRef .tc main_arg0) = W0 m c (Proc.devRef .tc main_arg0)).trans <|
  (rfl : W0 m c (Proc.devRef .tc main_arg0) = m ((c : Thread nD τ).loc main_arg0))

/-- `main_arg1` reaches the end as launched. -/
theorem W26_main_arg1 (c : Dev nD) : W26 D m c (Proc.devRef .tc main_arg1) = m ((c : Thread nD τ).loc main_arg1) :=
  (W26_of_ne D m c main_arg1 (by decide)).trans <|
  (W25_of D m c main_arg1 (by decide)).trans <|
  (W24_of_ne D m c main_arg1 (by decide)).trans <|
  (W23_of D m c main_arg1 (by decide)).trans <|
  (W22_of_ne D m c main_arg1 (by decide)).trans <|
  (W21_of D m c main_arg1 (by decide)).trans <|
  (W20_of_ne D m c main_arg1 (by decide)).trans <|
  (W19_of D m c main_arg1 (by decide)).trans <|
  (W18_of_ne D m c main_arg1 (by decide)).trans <|
  (W17_of D m c main_arg1 (by decide)).trans <|
  (W16_of_ne D m c main_arg1 (by decide)).trans <|
  (W15_of D m c main_arg1 (by decide)).trans <|
  (W14_of_ne D m c main_arg1 (by decide)).trans <|
  (W13_of D m c main_arg1 (by decide)).trans <|
  (W12_of_ne D m c main_arg1 (by decide)).trans <|
  (W11_of D m c main_arg1 (by decide)).trans <|
  (W10_of_ne D m c main_arg1 (by decide)).trans <|
  (W9_of D m c main_arg1 (by decide)).trans <|
  (W8_of_ne D m c main_arg1 (by decide)).trans <|
  (W7_of D m c main_arg1 (by decide)).trans <|
  (W6_of_ne D m c main_arg1 (by decide)).trans <|
  (W5_of D m c main_arg1 (by decide)).trans <|
  (W4_of_ne D m c main_arg1 (by decide)).trans <|
  (W3_of D m c main_arg1 (by decide)).trans <|
  (W2_of_ne D m c main_arg1 (by decide)).trans <|
  (W1_of_ne D m c main_arg1 (by decide)).trans <|
  (rfl : W0 m c (Proc.devRef .tc main_arg1) = m ((c : Thread nD τ).loc main_arg1))

/-- `main_arg2` reaches the end as launched. -/
theorem W26_main_arg2 (c : Dev nD) : W26 D m c (Proc.devRef .tc main_arg2) = m ((c : Thread nD τ).loc main_arg2) :=
  (W26_of_ne D m c main_arg2 (by decide)).trans <|
  (W25_of D m c main_arg2 (by decide)).trans <|
  (W24_of_ne D m c main_arg2 (by decide)).trans <|
  (W23_of D m c main_arg2 (by decide)).trans <|
  (W22_of_ne D m c main_arg2 (by decide)).trans <|
  (W21_of D m c main_arg2 (by decide)).trans <|
  (W20_of_ne D m c main_arg2 (by decide)).trans <|
  (W19_of D m c main_arg2 (by decide)).trans <|
  (W18_of_ne D m c main_arg2 (by decide)).trans <|
  (W17_of D m c main_arg2 (by decide)).trans <|
  (W16_of_ne D m c main_arg2 (by decide)).trans <|
  (W15_of D m c main_arg2 (by decide)).trans <|
  (W14_of_ne D m c main_arg2 (by decide)).trans <|
  (W13_of D m c main_arg2 (by decide)).trans <|
  (W12_of_ne D m c main_arg2 (by decide)).trans <|
  (W11_of D m c main_arg2 (by decide)).trans <|
  (W10_of_ne D m c main_arg2 (by decide)).trans <|
  (W9_of D m c main_arg2 (by decide)).trans <|
  (W8_of_ne D m c main_arg2 (by decide)).trans <|
  (W7_of D m c main_arg2 (by decide)).trans <|
  (W6_of_ne D m c main_arg2 (by decide)).trans <|
  (W5_of D m c main_arg2 (by decide)).trans <|
  (W4_of_ne D m c main_arg2 (by decide)).trans <|
  (W3_of D m c main_arg2 (by decide)).trans <|
  (W2_in D m c 0 rfl : W2 D m c (Proc.devRef .tc main_arg2) = W1 D m c (Proc.devRef .tc main_arg2)).trans <|
  (W1_of_ne D m c main_arg2 (by decide)).trans <|
  (rfl : W0 m c (Proc.devRef .tc main_arg2) = m ((c : Thread nD τ).loc main_arg2))

/-- `main_arg3` reaches the end as launched. -/
theorem W26_main_arg3 (c : Dev nD) : W26 D m c (Proc.devRef .tc main_arg3) = m ((c : Thread nD τ).loc main_arg3) :=
  (W26_of_ne D m c main_arg3 (by decide)).trans <|
  (W25_of D m c main_arg3 (by decide)).trans <|
  (W24_of_ne D m c main_arg3 (by decide)).trans <|
  (W23_of D m c main_arg3 (by decide)).trans <|
  (W22_of_ne D m c main_arg3 (by decide)).trans <|
  (W21_of D m c main_arg3 (by decide)).trans <|
  (W20_of_ne D m c main_arg3 (by decide)).trans <|
  (W19_of D m c main_arg3 (by decide)).trans <|
  (W18_of_ne D m c main_arg3 (by decide)).trans <|
  (W17_of D m c main_arg3 (by decide)).trans <|
  (W16_of_ne D m c main_arg3 (by decide)).trans <|
  (W15_of D m c main_arg3 (by decide)).trans <|
  (W14_of_ne D m c main_arg3 (by decide)).trans <|
  (W13_of D m c main_arg3 (by decide)).trans <|
  (W12_of_ne D m c main_arg3 (by decide)).trans <|
  (W11_of D m c main_arg3 (by decide)).trans <|
  (W10_of_ne D m c main_arg3 (by decide)).trans <|
  (W9_of D m c main_arg3 (by decide)).trans <|
  (W8_of_ne D m c main_arg3 (by decide)).trans <|
  (W7_of D m c main_arg3 (by decide)).trans <|
  (W6_of_ne D m c main_arg3 (by decide)).trans <|
  (W5_of D m c main_arg3 (by decide)).trans <|
  (W4_of_ne D m c main_arg3 (by decide)).trans <|
  (W3_of D m c main_arg3 (by decide)).trans <|
  (W2_of_ne D m c main_arg3 (by decide)).trans <|
  (W1_in D m c 1 rfl : W1 D m c (Proc.devRef .tc main_arg3) = W0 m c (Proc.devRef .tc main_arg3)).trans <|
  (rfl : W0 m c (Proc.devRef .tc main_arg3) = m ((c : Thread nD τ).loc main_arg3))

/-- `main_arg4` reaches the end as launched. -/
theorem W26_main_arg4 (c : Dev nD) : W26 D m c (Proc.devRef .tc main_arg4) = m ((c : Thread nD τ).loc main_arg4) :=
  (W26_of_ne D m c main_arg4 (by decide)).trans <|
  (W25_of D m c main_arg4 (by decide)).trans <|
  (W24_of_ne D m c main_arg4 (by decide)).trans <|
  (W23_of D m c main_arg4 (by decide)).trans <|
  (W22_of_ne D m c main_arg4 (by decide)).trans <|
  (W21_of D m c main_arg4 (by decide)).trans <|
  (W20_of_ne D m c main_arg4 (by decide)).trans <|
  (W19_of D m c main_arg4 (by decide)).trans <|
  (W18_of_ne D m c main_arg4 (by decide)).trans <|
  (W17_of D m c main_arg4 (by decide)).trans <|
  (W16_of_ne D m c main_arg4 (by decide)).trans <|
  (W15_of D m c main_arg4 (by decide)).trans <|
  (W14_of_ne D m c main_arg4 (by decide)).trans <|
  (W13_of D m c main_arg4 (by decide)).trans <|
  (W12_of_ne D m c main_arg4 (by decide)).trans <|
  (W11_of D m c main_arg4 (by decide)).trans <|
  (W10_of_ne D m c main_arg4 (by decide)).trans <|
  (W9_of D m c main_arg4 (by decide)).trans <|
  (W8_of_ne D m c main_arg4 (by decide)).trans <|
  (W7_of D m c main_arg4 (by decide)).trans <|
  (W6_of_ne D m c main_arg4 (by decide)).trans <|
  (W5_of D m c main_arg4 (by decide)).trans <|
  (W4_of_ne D m c main_arg4 (by decide)).trans <|
  (W3_of D m c main_arg4 (by decide)).trans <|
  (W2_of_ne D m c main_arg4 (by decide)).trans <|
  (W1_in D m c 2 rfl : W1 D m c (Proc.devRef .tc main_arg4) = W0 m c (Proc.devRef .tc main_arg4)).trans <|
  (rfl : W0 m c (Proc.devRef .tc main_arg4) = m ((c : Thread nD τ).loc main_arg4))

/-- `main_arg5` reaches the end as launched. -/
theorem W26_main_arg5 (c : Dev nD) : W26 D m c (Proc.devRef .tc main_arg5) = m ((c : Thread nD τ).loc main_arg5) :=
  (W26_of_ne D m c main_arg5 (by decide)).trans <|
  (W25_of D m c main_arg5 (by decide)).trans <|
  (W24_of_ne D m c main_arg5 (by decide)).trans <|
  (W23_of D m c main_arg5 (by decide)).trans <|
  (W22_of_ne D m c main_arg5 (by decide)).trans <|
  (W21_of D m c main_arg5 (by decide)).trans <|
  (W20_of_ne D m c main_arg5 (by decide)).trans <|
  (W19_of D m c main_arg5 (by decide)).trans <|
  (W18_of_ne D m c main_arg5 (by decide)).trans <|
  (W17_of D m c main_arg5 (by decide)).trans <|
  (W16_of_ne D m c main_arg5 (by decide)).trans <|
  (W15_of D m c main_arg5 (by decide)).trans <|
  (W14_of_ne D m c main_arg5 (by decide)).trans <|
  (W13_of D m c main_arg5 (by decide)).trans <|
  (W12_of_ne D m c main_arg5 (by decide)).trans <|
  (W11_of D m c main_arg5 (by decide)).trans <|
  (W10_of_ne D m c main_arg5 (by decide)).trans <|
  (W9_of D m c main_arg5 (by decide)).trans <|
  (W8_of_ne D m c main_arg5 (by decide)).trans <|
  (W7_of D m c main_arg5 (by decide)).trans <|
  (W6_of_ne D m c main_arg5 (by decide)).trans <|
  (W5_of D m c main_arg5 (by decide)).trans <|
  (W4_of_ne D m c main_arg5 (by decide)).trans <|
  (W3_of D m c main_arg5 (by decide)).trans <|
  (W2_in D m c 1 rfl : W2 D m c (Proc.devRef .tc main_arg5) = W1 D m c (Proc.devRef .tc main_arg5)).trans <|
  (W1_of_ne D m c main_arg5 (by decide)).trans <|
  (rfl : W0 m c (Proc.devRef .tc main_arg5) = m ((c : Thread nD τ).loc main_arg5))

/-- `main_arg6` reaches the end as launched. -/
theorem W26_main_arg6 (c : Dev nD) : W26 D m c (Proc.devRef .tc main_arg6) = m ((c : Thread nD τ).loc main_arg6) :=
  (W26_of_ne D m c main_arg6 (by decide)).trans <|
  (W25_of D m c main_arg6 (by decide)).trans <|
  (W24_of_ne D m c main_arg6 (by decide)).trans <|
  (W23_of D m c main_arg6 (by decide)).trans <|
  (W22_of_ne D m c main_arg6 (by decide)).trans <|
  (W21_of D m c main_arg6 (by decide)).trans <|
  (W20_of_ne D m c main_arg6 (by decide)).trans <|
  (W19_of D m c main_arg6 (by decide)).trans <|
  (W18_of_ne D m c main_arg6 (by decide)).trans <|
  (W17_of D m c main_arg6 (by decide)).trans <|
  (W16_of_ne D m c main_arg6 (by decide)).trans <|
  (W15_of D m c main_arg6 (by decide)).trans <|
  (W14_of_ne D m c main_arg6 (by decide)).trans <|
  (W13_of D m c main_arg6 (by decide)).trans <|
  (W12_of_ne D m c main_arg6 (by decide)).trans <|
  (W11_of D m c main_arg6 (by decide)).trans <|
  (W10_of_ne D m c main_arg6 (by decide)).trans <|
  (W9_of D m c main_arg6 (by decide)).trans <|
  (W8_of_ne D m c main_arg6 (by decide)).trans <|
  (W7_of D m c main_arg6 (by decide)).trans <|
  (W6_of_ne D m c main_arg6 (by decide)).trans <|
  (W5_of D m c main_arg6 (by decide)).trans <|
  (W4_of_ne D m c main_arg6 (by decide)).trans <|
  (W3_of D m c main_arg6 (by decide)).trans <|
  (W2_in D m c 2 rfl : W2 D m c (Proc.devRef .tc main_arg6) = W1 D m c (Proc.devRef .tc main_arg6)).trans <|
  (W1_of_ne D m c main_arg6 (by decide)).trans <|
  (rfl : W0 m c (Proc.devRef .tc main_arg6) = m ((c : Thread nD τ).loc main_arg6))

/-- `main_arg7` reaches the end as launched. -/
theorem W26_main_arg7 (c : Dev nD) : W26 D m c (Proc.devRef .tc main_arg7) = m ((c : Thread nD τ).loc main_arg7) :=
  (W26_of_ne D m c main_arg7 (by decide)).trans <|
  (W25_of D m c main_arg7 (by decide)).trans <|
  (W24_of_ne D m c main_arg7 (by decide)).trans <|
  (W23_of D m c main_arg7 (by decide)).trans <|
  (W22_of_ne D m c main_arg7 (by decide)).trans <|
  (W21_of D m c main_arg7 (by decide)).trans <|
  (W20_of_ne D m c main_arg7 (by decide)).trans <|
  (W19_of D m c main_arg7 (by decide)).trans <|
  (W18_of_ne D m c main_arg7 (by decide)).trans <|
  (W17_of D m c main_arg7 (by decide)).trans <|
  (W16_of_ne D m c main_arg7 (by decide)).trans <|
  (W15_of D m c main_arg7 (by decide)).trans <|
  (W14_of_ne D m c main_arg7 (by decide)).trans <|
  (W13_of D m c main_arg7 (by decide)).trans <|
  (W12_of_ne D m c main_arg7 (by decide)).trans <|
  (W11_of D m c main_arg7 (by decide)).trans <|
  (W10_of_ne D m c main_arg7 (by decide)).trans <|
  (W9_of D m c main_arg7 (by decide)).trans <|
  (W8_of_ne D m c main_arg7 (by decide)).trans <|
  (W7_of D m c main_arg7 (by decide)).trans <|
  (W6_of_ne D m c main_arg7 (by decide)).trans <|
  (W5_of D m c main_arg7 (by decide)).trans <|
  (W4_of_ne D m c main_arg7 (by decide)).trans <|
  (W3_of D m c main_arg7 (by decide)).trans <|
  (W2_of_ne D m c main_arg7 (by decide)).trans <|
  (W1_of_ne D m c main_arg7 (by decide)).trans <|
  (rfl : W0 m c (Proc.devRef .tc main_arg7) = m ((c : Thread nD τ).loc main_arg7))

/-- `main_arg8` reaches the end as launched. -/
theorem W26_main_arg8 (c : Dev nD) : W26 D m c (Proc.devRef .tc main_arg8) = m ((c : Thread nD τ).loc main_arg8) :=
  (W26_of_ne D m c main_arg8 (by decide)).trans <|
  (W25_of D m c main_arg8 (by decide)).trans <|
  (W24_of_ne D m c main_arg8 (by decide)).trans <|
  (W23_of D m c main_arg8 (by decide)).trans <|
  (W22_of_ne D m c main_arg8 (by decide)).trans <|
  (W21_of D m c main_arg8 (by decide)).trans <|
  (W20_of_ne D m c main_arg8 (by decide)).trans <|
  (W19_of D m c main_arg8 (by decide)).trans <|
  (W18_of_ne D m c main_arg8 (by decide)).trans <|
  (W17_of D m c main_arg8 (by decide)).trans <|
  (W16_of_ne D m c main_arg8 (by decide)).trans <|
  (W15_of D m c main_arg8 (by decide)).trans <|
  (W14_of_ne D m c main_arg8 (by decide)).trans <|
  (W13_of D m c main_arg8 (by decide)).trans <|
  (W12_of_ne D m c main_arg8 (by decide)).trans <|
  (W11_of D m c main_arg8 (by decide)).trans <|
  (W10_of_ne D m c main_arg8 (by decide)).trans <|
  (W9_of D m c main_arg8 (by decide)).trans <|
  (W8_of_ne D m c main_arg8 (by decide)).trans <|
  (W7_of D m c main_arg8 (by decide)).trans <|
  (W6_of_ne D m c main_arg8 (by decide)).trans <|
  (W5_of D m c main_arg8 (by decide)).trans <|
  (W4_of_ne D m c main_arg8 (by decide)).trans <|
  (W3_of D m c main_arg8 (by decide)).trans <|
  (W2_of_ne D m c main_arg8 (by decide)).trans <|
  (W1_of_ne D m c main_arg8 (by decide)).trans <|
  (rfl : W0 m c (Proc.devRef .tc main_arg8) = m ((c : Thread nD τ).loc main_arg8))

/-- `main_arg9` reaches the end as launched. -/
theorem W26_main_arg9 (c : Dev nD) : W26 D m c (Proc.devRef .tc main_arg9) = m ((c : Thread nD τ).loc main_arg9) :=
  (W26_of_ne D m c main_arg9 (by decide)).trans <|
  (W25_of D m c main_arg9 (by decide)).trans <|
  (W24_of_ne D m c main_arg9 (by decide)).trans <|
  (W23_of D m c main_arg9 (by decide)).trans <|
  (W22_of_ne D m c main_arg9 (by decide)).trans <|
  (W21_of D m c main_arg9 (by decide)).trans <|
  (W20_of_ne D m c main_arg9 (by decide)).trans <|
  (W19_of D m c main_arg9 (by decide)).trans <|
  (W18_of_ne D m c main_arg9 (by decide)).trans <|
  (W17_of D m c main_arg9 (by decide)).trans <|
  (W16_of_ne D m c main_arg9 (by decide)).trans <|
  (W15_of D m c main_arg9 (by decide)).trans <|
  (W14_of_ne D m c main_arg9 (by decide)).trans <|
  (W13_of D m c main_arg9 (by decide)).trans <|
  (W12_of_ne D m c main_arg9 (by decide)).trans <|
  (W11_of D m c main_arg9 (by decide)).trans <|
  (W10_of_ne D m c main_arg9 (by decide)).trans <|
  (W9_of D m c main_arg9 (by decide)).trans <|
  (W8_of_ne D m c main_arg9 (by decide)).trans <|
  (W7_of D m c main_arg9 (by decide)).trans <|
  (W6_of_ne D m c main_arg9 (by decide)).trans <|
  (W5_of D m c main_arg9 (by decide)).trans <|
  (W4_of_ne D m c main_arg9 (by decide)).trans <|
  (W3_of D m c main_arg9 (by decide)).trans <|
  (W2_of_ne D m c main_arg9 (by decide)).trans <|
  (W1_of_ne D m c main_arg9 (by decide)).trans <|
  (rfl : W0 m c (Proc.devRef .tc main_arg9) = m ((c : Thread nD τ).loc main_arg9))

/-- `main_arg10` reaches the end as launched. -/
theorem W26_main_arg10 (c : Dev nD) : W26 D m c (Proc.devRef .tc main_arg10) = m ((c : Thread nD τ).loc main_arg10) :=
  (W26_of_ne D m c main_arg10 (by decide)).trans <|
  (W25_of D m c main_arg10 (by decide)).trans <|
  (W24_of_ne D m c main_arg10 (by decide)).trans <|
  (W23_of D m c main_arg10 (by decide)).trans <|
  (W22_of_ne D m c main_arg10 (by decide)).trans <|
  (W21_of D m c main_arg10 (by decide)).trans <|
  (W20_of_ne D m c main_arg10 (by decide)).trans <|
  (W19_of D m c main_arg10 (by decide)).trans <|
  (W18_of_ne D m c main_arg10 (by decide)).trans <|
  (W17_of D m c main_arg10 (by decide)).trans <|
  (W16_of_ne D m c main_arg10 (by decide)).trans <|
  (W15_of D m c main_arg10 (by decide)).trans <|
  (W14_of_ne D m c main_arg10 (by decide)).trans <|
  (W13_of D m c main_arg10 (by decide)).trans <|
  (W12_of_ne D m c main_arg10 (by decide)).trans <|
  (W11_of D m c main_arg10 (by decide)).trans <|
  (W10_of_ne D m c main_arg10 (by decide)).trans <|
  (W9_of D m c main_arg10 (by decide)).trans <|
  (W8_of_ne D m c main_arg10 (by decide)).trans <|
  (W7_of D m c main_arg10 (by decide)).trans <|
  (W6_of_ne D m c main_arg10 (by decide)).trans <|
  (W5_of D m c main_arg10 (by decide)).trans <|
  (W4_of_ne D m c main_arg10 (by decide)).trans <|
  (W3_of D m c main_arg10 (by decide)).trans <|
  (W2_of_ne D m c main_arg10 (by decide)).trans <|
  (W1_of_ne D m c main_arg10 (by decide)).trans <|
  (rfl : W0 m c (Proc.devRef .tc main_arg10) = m ((c : Thread nD τ).loc main_arg10))

/-- `main_arg11` reaches the end as launched. -/
theorem W26_main_arg11 (c : Dev nD) : W26 D m c (Proc.devRef .tc main_arg11) = m ((c : Thread nD τ).loc main_arg11) :=
  (W26_of_ne D m c main_arg11 (by decide)).trans <|
  (W25_of D m c main_arg11 (by decide)).trans <|
  (W24_of_ne D m c main_arg11 (by decide)).trans <|
  (W23_of D m c main_arg11 (by decide)).trans <|
  (W22_of_ne D m c main_arg11 (by decide)).trans <|
  (W21_of D m c main_arg11 (by decide)).trans <|
  (W20_of_ne D m c main_arg11 (by decide)).trans <|
  (W19_of D m c main_arg11 (by decide)).trans <|
  (W18_of_ne D m c main_arg11 (by decide)).trans <|
  (W17_of D m c main_arg11 (by decide)).trans <|
  (W16_of_ne D m c main_arg11 (by decide)).trans <|
  (W15_of D m c main_arg11 (by decide)).trans <|
  (W14_of_ne D m c main_arg11 (by decide)).trans <|
  (W13_of D m c main_arg11 (by decide)).trans <|
  (W12_of_ne D m c main_arg11 (by decide)).trans <|
  (W11_of D m c main_arg11 (by decide)).trans <|
  (W10_of_ne D m c main_arg11 (by decide)).trans <|
  (W9_of D m c main_arg11 (by decide)).trans <|
  (W8_of_ne D m c main_arg11 (by decide)).trans <|
  (W7_of D m c main_arg11 (by decide)).trans <|
  (W6_of_ne D m c main_arg11 (by decide)).trans <|
  (W5_of D m c main_arg11 (by decide)).trans <|
  (W4_of_ne D m c main_arg11 (by decide)).trans <|
  (W3_of D m c main_arg11 (by decide)).trans <|
  (W2_of_ne D m c main_arg11 (by decide)).trans <|
  (W1_of_ne D m c main_arg11 (by decide)).trans <|
  (rfl : W0 m c (Proc.devRef .tc main_arg11) = m ((c : Thread nD τ).loc main_arg11))

/-- `main_arg12` reaches the end as launched. -/
theorem W26_main_arg12 (c : Dev nD) : W26 D m c (Proc.devRef .tc main_arg12) = m ((c : Thread nD τ).loc main_arg12) :=
  (W26_of_ne D m c main_arg12 (by decide)).trans <|
  (W25_of D m c main_arg12 (by decide)).trans <|
  (W24_of_ne D m c main_arg12 (by decide)).trans <|
  (W23_of D m c main_arg12 (by decide)).trans <|
  (W22_of_ne D m c main_arg12 (by decide)).trans <|
  (W21_of D m c main_arg12 (by decide)).trans <|
  (W20_of_ne D m c main_arg12 (by decide)).trans <|
  (W19_of D m c main_arg12 (by decide)).trans <|
  (W18_of_ne D m c main_arg12 (by decide)).trans <|
  (W17_of D m c main_arg12 (by decide)).trans <|
  (W16_of_ne D m c main_arg12 (by decide)).trans <|
  (W15_of D m c main_arg12 (by decide)).trans <|
  (W14_of_ne D m c main_arg12 (by decide)).trans <|
  (W13_of D m c main_arg12 (by decide)).trans <|
  (W12_of_ne D m c main_arg12 (by decide)).trans <|
  (W11_of D m c main_arg12 (by decide)).trans <|
  (W10_of_ne D m c main_arg12 (by decide)).trans <|
  (W9_of D m c main_arg12 (by decide)).trans <|
  (W8_of_ne D m c main_arg12 (by decide)).trans <|
  (W7_of D m c main_arg12 (by decide)).trans <|
  (W6_of_ne D m c main_arg12 (by decide)).trans <|
  (W5_of D m c main_arg12 (by decide)).trans <|
  (W4_of_ne D m c main_arg12 (by decide)).trans <|
  (W3_of D m c main_arg12 (by decide)).trans <|
  (W2_of_ne D m c main_arg12 (by decide)).trans <|
  (W1_of_ne D m c main_arg12 (by decide)).trans <|
  (rfl : W0 m c (Proc.devRef .tc main_arg12) = m ((c : Thread nD τ).loc main_arg12))

/-- `main_arg13` reaches the end as launched. -/
theorem W26_main_arg13 (c : Dev nD) : W26 D m c (Proc.devRef .tc main_arg13) = m ((c : Thread nD τ).loc main_arg13) :=
  (W26_of_ne D m c main_arg13 (by decide)).trans <|
  (W25_of D m c main_arg13 (by decide)).trans <|
  (W24_of_ne D m c main_arg13 (by decide)).trans <|
  (W23_of D m c main_arg13 (by decide)).trans <|
  (W22_of_ne D m c main_arg13 (by decide)).trans <|
  (W21_of D m c main_arg13 (by decide)).trans <|
  (W20_of_ne D m c main_arg13 (by decide)).trans <|
  (W19_of D m c main_arg13 (by decide)).trans <|
  (W18_of_ne D m c main_arg13 (by decide)).trans <|
  (W17_of D m c main_arg13 (by decide)).trans <|
  (W16_of_ne D m c main_arg13 (by decide)).trans <|
  (W15_of D m c main_arg13 (by decide)).trans <|
  (W14_of_ne D m c main_arg13 (by decide)).trans <|
  (W13_of D m c main_arg13 (by decide)).trans <|
  (W12_of_ne D m c main_arg13 (by decide)).trans <|
  (W11_of D m c main_arg13 (by decide)).trans <|
  (W10_of_ne D m c main_arg13 (by decide)).trans <|
  (W9_of D m c main_arg13 (by decide)).trans <|
  (W8_of_ne D m c main_arg13 (by decide)).trans <|
  (W7_of D m c main_arg13 (by decide)).trans <|
  (W6_of_ne D m c main_arg13 (by decide)).trans <|
  (W5_of D m c main_arg13 (by decide)).trans <|
  (W4_of_ne D m c main_arg13 (by decide)).trans <|
  (W3_of D m c main_arg13 (by decide)).trans <|
  (W2_of_ne D m c main_arg13 (by decide)).trans <|
  (W1_of_ne D m c main_arg13 (by decide)).trans <|
  (rfl : W0 m c (Proc.devRef .tc main_arg13) = m ((c : Thread nD τ).loc main_arg13))

/-- `main_arg14` reaches the end as launched. -/
theorem W26_main_arg14 (c : Dev nD) : W26 D m c (Proc.devRef .tc main_arg14) = m ((c : Thread nD τ).loc main_arg14) :=
  (W26_of_ne D m c main_arg14 (by decide)).trans <|
  (W25_of D m c main_arg14 (by decide)).trans <|
  (W24_of_ne D m c main_arg14 (by decide)).trans <|
  (W23_of D m c main_arg14 (by decide)).trans <|
  (W22_of_ne D m c main_arg14 (by decide)).trans <|
  (W21_of D m c main_arg14 (by decide)).trans <|
  (W20_of_ne D m c main_arg14 (by decide)).trans <|
  (W19_of D m c main_arg14 (by decide)).trans <|
  (W18_of_ne D m c main_arg14 (by decide)).trans <|
  (W17_of D m c main_arg14 (by decide)).trans <|
  (W16_of_ne D m c main_arg14 (by decide)).trans <|
  (W15_of D m c main_arg14 (by decide)).trans <|
  (W14_of_ne D m c main_arg14 (by decide)).trans <|
  (W13_of D m c main_arg14 (by decide)).trans <|
  (W12_of_ne D m c main_arg14 (by decide)).trans <|
  (W11_of D m c main_arg14 (by decide)).trans <|
  (W10_of_ne D m c main_arg14 (by decide)).trans <|
  (W9_of D m c main_arg14 (by decide)).trans <|
  (W8_of_ne D m c main_arg14 (by decide)).trans <|
  (W7_of D m c main_arg14 (by decide)).trans <|
  (W6_of_ne D m c main_arg14 (by decide)).trans <|
  (W5_of D m c main_arg14 (by decide)).trans <|
  (W4_of_ne D m c main_arg14 (by decide)).trans <|
  (W3_of D m c main_arg14 (by decide)).trans <|
  (W2_of_ne D m c main_arg14 (by decide)).trans <|
  (W1_of_ne D m c main_arg14 (by decide)).trans <|
  (rfl : W0 m c (Proc.devRef .tc main_arg14) = m ((c : Thread nD τ).loc main_arg14))

/-- `main_arg15` reaches the end as launched. -/
theorem W26_main_arg15 (c : Dev nD) : W26 D m c (Proc.devRef .tc main_arg15) = m ((c : Thread nD τ).loc main_arg15) :=
  (W26_of_ne D m c main_arg15 (by decide)).trans <|
  (W25_of D m c main_arg15 (by decide)).trans <|
  (W24_of_ne D m c main_arg15 (by decide)).trans <|
  (W23_of D m c main_arg15 (by decide)).trans <|
  (W22_of_ne D m c main_arg15 (by decide)).trans <|
  (W21_of D m c main_arg15 (by decide)).trans <|
  (W20_of_ne D m c main_arg15 (by decide)).trans <|
  (W19_of D m c main_arg15 (by decide)).trans <|
  (W18_of_ne D m c main_arg15 (by decide)).trans <|
  (W17_of D m c main_arg15 (by decide)).trans <|
  (W16_of_ne D m c main_arg15 (by decide)).trans <|
  (W15_of D m c main_arg15 (by decide)).trans <|
  (W14_of_ne D m c main_arg15 (by decide)).trans <|
  (W13_of D m c main_arg15 (by decide)).trans <|
  (W12_of_ne D m c main_arg15 (by decide)).trans <|
  (W11_of D m c main_arg15 (by decide)).trans <|
  (W10_of_ne D m c main_arg15 (by decide)).trans <|
  (W9_of D m c main_arg15 (by decide)).trans <|
  (W8_of_ne D m c main_arg15 (by decide)).trans <|
  (W7_of D m c main_arg15 (by decide)).trans <|
  (W6_of_ne D m c main_arg15 (by decide)).trans <|
  (W5_of D m c main_arg15 (by decide)).trans <|
  (W4_of_ne D m c main_arg15 (by decide)).trans <|
  (W3_of D m c main_arg15 (by decide)).trans <|
  (W2_of_ne D m c main_arg15 (by decide)).trans <|
  (W1_of_ne D m c main_arg15 (by decide)).trans <|
  (rfl : W0 m c (Proc.devRef .tc main_arg15) = m ((c : Thread nD τ).loc main_arg15))

end Cert.KernelIdeal.Reg

end
-- ==== Proof.KI.Run.lean ====
import proofs.«178590_j59433757442359_2_alg».proof.Proof.KI.RunRegsA
import proofs.«178590_j59433757442359_2_alg».proof.Proof.KI.RunRegsB
import proofs.«178590_j59433757442359_2_alg».proof.Proof.KI.RunRegsC
import proofs.«178590_j59433757442359_2_alg».proof.Proof.KI.RunRegsD
import proofs.«178590_j59433757442359_2_alg».proof.Proof.KI.RunArgs

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (D : Data F) (m : (ℓ : Loc nD τ sig) → Buf (Elt F) ℓ)

/-! # @main as segments, and the launch -/

/-- @main's 26 segments in order: a region per pallas_call, a host segment per stretch from its boundary's contents. -/
abbrev segs : List (Pipeline.Seg (pcfgs (F := F)) adm (pdats D m) () defs₀ 𝒱₀ L lv) :=
  [ .region (reg0 D m),
    .region (reg1 D m),
    .host (hseg hostOps2 hostOps2_sub hostOps2_fresh (W2 D m)),
    .region (reg2 D m),
    .host (hseg hostOps3 hostOps3_sub hostOps3_fresh (W4 D m)),
    .region (reg3 D m),
    .host (hseg hostOps4 hostOps4_sub hostOps4_fresh (W6 D m)),
    .region (reg4 D m),
    .host (hseg hostOps5 hostOps5_sub hostOps5_fresh (W8 D m)),
    .region (reg5 D m),
    .host (hseg hostOps6 hostOps6_sub hostOps6_fresh (W10 D m)),
    .region (reg6 D m),
    .host (hseg hostOps7 hostOps7_sub hostOps7_fresh (W12 D m)),
    .region (reg7 D m),
    .host (hseg hostOps8 hostOps8_sub hostOps8_fresh (W14 D m)),
    .region (reg8 D m),
    .host (hseg hostOps9 hostOps9_sub hostOps9_fresh (W16 D m)),
    .region (reg9 D m),
    .host (hseg hostOps10 hostOps10_sub hostOps10_fresh (W18 D m)),
    .region (reg10 D m),
    .host (hseg hostOps11 hostOps11_sub hostOps11_fresh (W20 D m)),
    .region (reg11 D m),
    .host (hseg hostOps12 hostOps12_sub hostOps12_fresh (W22 D m)),
    .region (reg12 D m),
    .host (hseg hostOps13 hostOps13_sub hostOps13_fresh (W24 D m)),
    .region (reg13 D m) ]

/-- The segments' fragments are @main's items, in order. -/
theorem segs_prog : (segs D m).map Pipeline.Seg.prog = [
    Prog.lift (.customCall (Pipeline.entry 0) ()),
    Prog.lift (.customCall (Pipeline.entry 1) ()),
    StableHlo.seq hostOps2,
    Prog.lift (.customCall (Pipeline.entry 2) ()),
    StableHlo.seq hostOps3,
    Prog.lift (.customCall (Pipeline.entry 3) ()),
    StableHlo.seq hostOps4,
    Prog.lift (.customCall (Pipeline.entry 4) ()),
    StableHlo.seq hostOps5,
    Prog.lift (.customCall (Pipeline.entry 5) ()),
    StableHlo.seq hostOps6,
    Prog.lift (.customCall (Pipeline.entry 6) ()),
    StableHlo.seq hostOps7,
    Prog.lift (.customCall (Pipeline.entry 7) ()),
    StableHlo.seq hostOps8,
    Prog.lift (.customCall (Pipeline.entry 8) ()),
    StableHlo.seq hostOps9,
    Prog.lift (.customCall (Pipeline.entry 9) ()),
    StableHlo.seq hostOps10,
    Prog.lift (.customCall (Pipeline.entry 10) ()),
    StableHlo.seq hostOps11,
    Prog.lift (.customCall (Pipeline.entry 11) ()),
    StableHlo.seq hostOps12,
    Prog.lift (.customCall (Pipeline.entry 12) ()),
    StableHlo.seq hostOps13,
    Prog.lift (.customCall (Pipeline.entry 13) ()) ] := rfl

-- the kit's implicit arguments are found by unifying its conclusion with this one, which takes unfolding plain
-- definitions in a metavariable's type
set_option backward.isDefEq.respectTransparency.types false in
/-- THE RUN: at the compiled mesh, from any memory with zero counters, every weakly fair execution of @main on the
    TensorCores terminates, nothing faulting, and every final state holds every unscoped buffer at the last boundary's
    contents `W26`: the kit's launch over the segments, the last thread state read against the final state. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W26 D m c b) :=
  Pipeline.θ_run_regions_kit (pcfgs (F := F)) adm (pdats D m) () cellOf_inj emb₁ defs₀ 𝒱₀ L lv m ρ main (segs D m)
    (fun c Q => by
      rewrite [main_chain c, Pipeline.Seg.run_eq_chain, segs_prog D m]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ D m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 D m c b)
    (hfin := fun c s' => by
      iintro ⟨⟨Hh, -⟩, HSI⟩
      unfold StableHlo.held
      imodintro
      iapply (pointsTo_read_all (Pipeline.ucRefs τ sig) (fun b => (((c : Thread nD τ)).1, b)) (W26 D m c) s')
      isplitl [Hh] <;> iassumption)
    (hQ := fun s h => h)

/-- info: 'Cert.KernelIdeal.Reg.run_all' depends on axioms: [propext, Classical.choice, Quot.sound] -/
#guard_msgs in #print axioms run_all

include D in
/-- THE FRAME: every weakly fair execution of @main terminates and every final state has each argument array as
    launched: the run, each argument read back through the fold. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (Q := fun r => ∀ c : Dev nD, ∀ b ∈ Pipeline.ucRefs τ sig, r.2.mem ((c : Thread nD τ).1, b) = W26 D m c b)
    (fun r h c => ⟨(h c _ (mem_uc main_arg0 (by decide))).trans (W26_main_arg0 D m c),
      (h c _ (mem_uc main_arg1 (by decide))).trans (W26_main_arg1 D m c),
      (h c _ (mem_uc main_arg2 (by decide))).trans (W26_main_arg2 D m c),
      (h c _ (mem_uc main_arg3 (by decide))).trans (W26_main_arg3 D m c),
      (h c _ (mem_uc main_arg4 (by decide))).trans (W26_main_arg4 D m c),
      (h c _ (mem_uc main_arg5 (by decide))).trans (W26_main_arg5 D m c),
      (h c _ (mem_uc main_arg6 (by decide))).trans (W26_main_arg6 D m c),
      (h c _ (mem_uc main_arg7 (by decide))).trans (W26_main_arg7 D m c),
      (h c _ (mem_uc main_arg8 (by decide))).trans (W26_main_arg8 D m c),
      (h c _ (mem_uc main_arg9 (by decide))).trans (W26_main_arg9 D m c),
      (h c _ (mem_uc main_arg10 (by decide))).trans (W26_main_arg10 D m c),
      (h c _ (mem_uc main_arg11 (by decide))).trans (W26_main_arg11 D m c),
      (h c _ (mem_uc main_arg12 (by decide))).trans (W26_main_arg12 D m c),
      (h c _ (mem_uc main_arg13 (by decide))).trans (W26_main_arg13 D m c),
      (h c _ (mem_uc main_arg14 (by decide))).trans (W26_main_arg14 D m c),
      (h c _ (mem_uc main_arg15 (by decide))).trans (W26_main_arg15 D m c)⟩) (run_all D m ρ)

/-- The run's result: every final state holds the result array at the last boundary's contents, and each argument
    array as launched. -/
theorem run_result (ρ : Dev nD → PrngReg) : θ_run defs (onTc (τ := τ) (main (F := F))) ⟨m, fun _ => 0, ρ⟩ (fun r => ∀ c : Dev nD,
      r.2.mem ((c.tc : Thread nD τ).loc main_v185) = W26 D m c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (Q := fun r => ∀ c : Dev nD, ∀ b ∈ Pipeline.ucRefs τ sig, r.2.mem ((c : Thread nD τ).1, b) = W26 D m c b)
    (fun r h c => ⟨h c _ (mem_uc main_v185 (by decide)),
      (h c _ (mem_uc main_arg0 (by decide))).trans (W26_main_arg0 D m c),
      (h c _ (mem_uc main_arg1 (by decide))).trans (W26_main_arg1 D m c),
      (h c _ (mem_uc main_arg2 (by decide))).trans (W26_main_arg2 D m c),
      (h c _ (mem_uc main_arg3 (by decide))).trans (W26_main_arg3 D m c),
      (h c _ (mem_uc main_arg4 (by decide))).trans (W26_main_arg4 D m c),
      (h c _ (mem_uc main_arg5 (by decide))).trans (W26_main_arg5 D m c),
      (h c _ (mem_uc main_arg6 (by decide))).trans (W26_main_arg6 D m c),
      (h c _ (mem_uc main_arg7 (by decide))).trans (W26_main_arg7 D m c),
      (h c _ (mem_uc main_arg8 (by decide))).trans (W26_main_arg8 D m c),
      (h c _ (mem_uc main_arg9 (by decide))).trans (W26_main_arg9 D m c),
      (h c _ (mem_uc main_arg10 (by decide))).trans (W26_main_arg10 D m c),
      (h c _ (mem_uc main_arg11 (by decide))).trans (W26_main_arg11 D m c),
      (h c _ (mem_uc main_arg12 (by decide))).trans (W26_main_arg12 D m c),
      (h c _ (mem_uc main_arg13 (by decide))).trans (W26_main_arg13 D m c),
      (h c _ (mem_uc main_arg14 (by decide))).trans (W26_main_arg14 D m c),
      (h c _ (mem_uc main_arg15 (by decide))).trans (W26_main_arg15 D m c)⟩) (run_all D m ρ)

end Cert.KernelIdeal.Reg

end
-- ==== Proof.KI.Reg0.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the linear-and-rectify kernel `cc0__linear_relu_kernel` (pipeline 0), at the entry contents `V`.
    Per point, on one block of 8000 rows: out = max(x · W + b, 0); the weight `W` (window 1) and the bias `b`
    (window 2) have a constant block index, so they are fetched at the first point only and stay resident. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S8000x32 := Rect.unit (s := S8000x32) ![0, 0] S8000x32.size inb_S8000x32_S8000x32_0_0
abbrev r0_1 : Rect S32x64 := Rect.unit (s := S32x64) ![0, 0] S32x64.size inb_S32x64_S32x64_0_0
abbrev r0_2 : Rect S64 := Rect.unit (s := S64) ![0] S64.size inb_S64_S64_0
abbrev r0_3 : Rect S8000x64 := Rect.unit (s := S8000x64) ![0, 0] S8000x64.size inb_S8000x64_S8000x64_0_0

/-! ## What the body leaves in the output window's buffer -/

/-- Window 3's staging buffer after the body, from the input windows' blocks: its one store as a piece. -/
def out0_3 (x0 : Vec F S8000x32 .f32) (x1 : Vec F S32x64 .f32) (x2 : Vec F S64 .f32) : Vec F S8000x64 .f32 :=
  View.canon [⟨r0_3, k0_pay1 (View.ld x0 r0_0) (View.ld x1 r0_1) (View.ld x2 r0_2)⟩]

/-- The store is of the whole buffer, so it covers it. -/
theorem cover0_3 (p0 : Vec F S8000x64 .f32) (y : S8000x64.Idx) :
    ∃ pc ∈ ([⟨r0_3, p0⟩] : List (View.Piece (Elt F) S8000x64 .f32)), y ∈ pc.1.set :=
  View.cover_of_tiled [⟨r0_3, p0⟩] S8000x64.size (by rfl) y

/-! ## The body's triple -/

set_option maxHeartbeats 1000000 in
/-- The kernel body on whole staging memrefs, the inputs' at read contents `xW` and the output's at anything, runs
    to the continuation holding the inputs' as they were and the output's at `out0_3` of the inputs'. -/
theorem sound_kernel0 (c : Dev nD) (E : Set ℕ) (i : grid0.Coords) (arg1 : Memref sig .tc .vmem S8000x32 .f32) (harg1 : arg1.IsWhole) (arg2 : Memref sig .tc .vmem S32x64 .f32) (harg2 : arg2.IsWhole) (arg3 : Memref sig .tc .vmem S64 .f32) (harg3 : arg3.IsWhole) (arg4 : Memref sig .tc .vmem S8000x64 .f32) (harg4 : arg4.IsWhole)
    (x0 : Vec F S8000x32 .f32) (x1 : Vec F S32x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_w`), so `sound_kernel0` applies;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg
-- ==== Proof.KI.Reg1.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the linear-and-rectify kernel `cc1__linear_relu_kernel` (pipeline 1), at the entry contents `V`.
    Per point, on one block of 8000 rows: out = max(x · W + b, 0); the weight `W` (window 1) and the bias `b`
    (window 2) have a constant block index, so they are fetched at the first point only and stay resident. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_0 : Rect S8000x16 := Rect.unit (s := S8000x16) ![0, 0] S8000x16.size inb_S8000x16_S8000x16_0_0
abbrev r1_1 : Rect S16x64 := Rect.unit (s := S16x64) ![0, 0] S16x64.size inb_S16x64_S16x64_0_0
abbrev r1_2 : Rect S64 := Rect.unit (s := S64) ![0] S64.size inb_S64_S64_0
abbrev r1_3 : Rect S8000x64 := Rect.unit (s := S8000x64) ![0, 0] S8000x64.size inb_S8000x64_S8000x64_0_0

/-! ## What the body leaves in the output window's buffer -/

/-- Window 3's staging buffer after the body, from the input windows' blocks: its one store as a piece. -/
def out1_3 (x0 : Vec F S8000x16 .f32) (x1 : Vec F S16x64 .f32) (x2 : Vec F S64 .f32) : Vec F S8000x64 .f32 :=
  View.canon [⟨r1_3, k1_pay1 (View.ld x0 r1_0) (View.ld x1 r1_1) (View.ld x2 r1_2)⟩]

/-- The store is of the whole buffer, so it covers it. -/
theorem cover1_3 (p0 : Vec F S8000x64 .f32) (y : S8000x64.Idx) :
    ∃ pc ∈ ([⟨r1_3, p0⟩] : List (View.Piece (Elt F) S8000x64 .f32)), y ∈ pc.1.set :=
  View.cover_of_tiled [⟨r1_3, p0⟩] S8000x64.size (by rfl) y

/-! ## The body's triple -/

set_option maxHeartbeats 1000000 in
/-- The kernel body on whole staging memrefs, the inputs' at read contents `xW` and the output's at anything, runs
    to the continuation holding the inputs' as they were and the output's at `out1_3` of the inputs'. -/
theorem sound_kernel1 (c : Dev nD) (E : Set ℕ) (i : grid1.Coords) (arg1 : Memref sig .tc .vmem S8000x16 .f32) (harg1 : arg1.IsWhole) (arg2 : Memref sig .tc .vmem S16x64 .f32) (harg2 : arg2.IsWhole) (arg3 : Memref sig .tc .vmem S64 .f32) (harg3 : arg3.IsWhole) (arg4 : Memref sig .tc .vmem S8000x64 .f32) (harg4 : arg4.IsWhole)
    (x0 : Vec F S8000x16 .f32) (x1 : Vec F S16x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_relu_kernel i arg1 harg1 arg2 harg2 arg3 harg3 arg4 harg4) K := by
  simp only [cc1__linear_relu_kernel_eq_skeleton]; unfold cc1__linear_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_w`), so `sound_kernel1` applies;
    the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg
-- ==== Proof.KI.Reg2.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the message kernel `cc2__message_kernel` (pipeline 2), at the entry contents `V`.
    Per point, on one 8000×64 block of edges: out = max(h_row + ea, 0). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S8000x64 := Rect.unit (s := S8000x64) ![0, 0] S8000x64.size inb_S8000x64_S8000x64_0_0

/-! ## What the body leaves in the output window's buffer -/

/-- Window 2's staging buffer after the body, from the input windows' blocks: its one store as a piece. -/
def out2_2 (x0 : Vec F S8000x64 .f32) (x1 : Vec F S8000x64 .f32) : Vec F S8000x64 .f32 :=
  View.canon [⟨r2_0, k2_pay1 (View.ld x0 r2_0) (View.ld x1 r2_0)⟩]

/-- The store is of the whole buffer, so it covers it. -/
theorem cover2_2 (p0 : Vec F S8000x64 .f32) (y : S8000x64.Idx) :
    ∃ pc ∈ ([⟨r2_0, p0⟩] : List (View.Piece (Elt F) S8000x64 .f32)), y ∈ pc.1.set :=
  View.cover_of_tiled [⟨r2_0, p0⟩] S8000x64.size (by rfl) y

/-! ## The body's triple -/

set_option maxHeartbeats 1000000 in
/-- The kernel body on whole staging memrefs, the inputs' at read contents `xW` and the output's at anything, runs
    to the continuation holding the inputs' as they were and the output's at `out2_2` of the inputs'. -/
theorem sound_kernel2 (c : Dev nD) (E : Set ℕ) (i : grid2.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__message_kernel i arg1 harg1 arg2 harg2 arg3 harg3) K := by
  simp only [cc2__message_kernel_eq_skeleton]; unfold cc2__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover2_2 _)

/-! ## The pipeline's proof data -/

/-- The proof data of pipeline 2 on core `c`: the arrays as the region finds them (`V`); after the body at
    point `t` each input's buffer at its block and the output's at `out2_2` of the input blocks; the invariant
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_w`), so `sound_kernel2` applies;
    the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg
-- ==== Proof.KI.Reg3.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: on a block of 8000 rows, Z = zin·W1 + b1, and the column sums of Z and of Z·Z added into two rows the
    kernel keeps from one block to the next (set to zero at the first block); the two rows are also copied out. -/

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (the weight and the bias are
    fetched once: their block index never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The branch condition of the body's one conditional, from the grid coordinates. -/
abbrev cond3 (i : grid3.Coords) : Prop := (Scalar.cmpi .ne (Scalar.extui (Scalar.cmpi .eq (BitVec.ofNat 32 (i 0).val) 0#32)) 0#32) = 1#1
/-- It holds at the first point only. -/
theorem hcond3 : ∀ t : Fin cfg3.N, cond3 (grid3.coords t) ↔ t.val = 0 :=
  (by decide +kernel : ∀ t : Fin grid3.N, cond3 (grid3.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun3_A (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc3__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc3__gin1_kernel_eq_skeleton]; unfold cc3__gin1_kernel_skel
    simp only [k3_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun3_B (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc3__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc3__gin1_kernel_eq_skeleton]; unfold cc3__gin1_kernel_skel
    simp only [k3_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms3_0 (t : Fin cfg3.N) : Memref sig .tc .vmem S8000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S64x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8000x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
abbrev VO3_3 : View sig .tc .vmem S8000x128 .f32 := (Memref.whole cc3_stg3_0 : Memref sig .tc .vmem S8000x128 .f32).view
abbrev VO3_4 : View sig .tc .vmem S1x128 .f32 := (Memref.whole cc3_stg4_0 : Memref sig .tc .vmem S1x128 .f32).view
abbrev VO3_5 : View sig .tc .vmem S1x128 .f32 := (Memref.whole cc3_stg5_0 : Memref sig .tc .vmem S1x128 .f32).view
/-- The two rows the kernel keeps between grid points: whole scoped buffers of its own. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-! ## What each case leaves: the found stores cover each buffer, so what it reads afterwards is theirs alone -/
theorem cover3_A_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S8000x128.Idx) :
    ∃ pc ∈ (kernelRun3_A c i arg1 harg1 arg2 harg2 arg3 harg3 arg4 harg4 arg5 harg5 arg6 harg6 arg7 harg7 arg8 harg8 hc x1 x2 x3).1, y ∈ pc.1.set :=
  View.cover_of_tiledL (kernelRun3_A c i arg1 harg1 arg2 harg2 arg3 harg3 arg4 harg4 arg5 harg5 arg6 harg6 arg7 harg7 arg8 harg8 hc x1 x2 x3).1 S8000x128.size (by sl_kernel_rfl) y
def out3_A_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S8000x128 .f32 :=
  VO3_3.read (Elt F) (VO3_3.writes (Elt F) VO3_3.junk (kernelRun3_A c i arg1 harg1 arg2 harg2 arg3 harg3 arg4 harg4 arg5 harg5 arg6 harg6 arg7 harg7 arg8 harg8 hc x1 x2 x3).1)
theorem cover3_A_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.1, y ∈ pc.1.set :=
  View.cover_of_tiledL (kernelRun3_A c i arg1 harg1 arg2 harg2 arg3 harg3 arg4 harg4 arg5 harg5 arg6 harg6 arg7 harg7 arg8 harg8 hc x1 x2 x3).2.1 S1x128.size (by sl_kernel_rfl) y
def out3_A_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VO3_4.read (Elt F) (VO3_4.writes (Elt F) VO3_4.junk (kernelRun3_A c i arg1 harg1 arg2 harg2 arg3 harg3 arg4 harg4 arg5 harg5 arg6 harg6 arg7 harg7 arg8 harg8 hc x1 x2 x3).2.1)
theorem cover3_A_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.2.1, y ∈ pc.1.set :=
  View.cover_of_tiledL (kernelRun3_A c i arg1 harg1 arg2 harg2 arg3 harg3 arg4 harg4 arg5 harg5 arg6 harg6 arg7 harg7 arg8 harg8 hc x1 x2 x3).2.2.1 S1x128.size (by sl_kernel_rfl) y
def out3_A_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VO3_5.read (Elt F) (VO3_5.writes (Elt F) VO3_5.junk (kernelRun3_A c i arg1 harg1 arg2 harg2 arg3 harg3 arg4 harg4 arg5 harg5 arg6 harg6 arg7 harg7 arg8 harg8 hc x1 x2 x3).2.2.1)
theorem scover3_A_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.2.2.1, y ∈ pc.1.set :=
  View.cover_of_tiledL (kernelRun3_A c i arg1 harg1 arg2 harg2 arg3 harg3 arg4 harg4 arg5 harg5 arg6 harg6 arg7 harg7 arg8 harg8 hc x1 x2 x3).2.2.2.1 S1x128.size (by sl_kernel_rfl) y
def sout3_A_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 hc x1 x2 x3).2.2.2.1)
theorem scover3_A_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) (y : S1x128.Idx) :
    ∃ pc ∈ (kernelRun3_A c i arg1 harg1 arg2 harg2 arg3 harg3 arg4 harg4 arg5 harg5 arg6 harg6 arg7 harg7 arg8 harg8 hc x1 x2 x3).2.2.2.2.1, y ∈ pc.1.set :=
  View.cover_of_tiledL (kernelRun3_A c i arg1 harg1 arg2 harg2 arg3 harg3 arg4 harg4 arg5 harg5 arg6 harg6 arg7 harg7 arg8 harg8 hc x1 x2 x3).2.2.2.2.1 S1x128.size (by sl_kernel_rfl) y
def sout3_A_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 hc x1 x2 x3).2.2.2.2.1)
theorem cover3_B_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun3_B c i arg1 harg1 arg2 harg2 arg3 harg3 arg4 harg4 arg5 harg5 arg6 harg6 arg7 harg7 arg8 harg8 hc x1 x2 x3 xs7 xs8).1, y ∈ pc.1.set :=
  View.cover_of_tiledL (kernelRun3_B c i arg1 harg1 arg2 harg2 arg3 harg3 arg4 harg4 arg5 harg5 arg6 harg6 arg7 harg7 arg8 harg8 hc x1 x2 x3 xs7 xs8).1 S8000x128.size (by sl_kernel_rfl) y
def out3_B_3 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S8000x128 .f32 :=
  VO3_3.read (Elt F) (VO3_3.writes (Elt F) VO3_3.junk (kernelRun3_B c i arg1 harg1 arg2 harg2 arg3 harg3 arg4 harg4 arg5 harg5 arg6 harg6 arg7 harg7 arg8 harg8 hc x1 x2 x3 xs7 xs8).1)
theorem cover3_B_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.1 S1x128.size (by sl_kernel_rfl) y
def out3_B_4 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VO3_4.read (Elt F) (VO3_4.writes (Elt F) VO3_4.junk (kernelRun3_B c i arg1 harg1 arg2 harg2 arg3 harg3 arg4 harg4 arg5 harg5 arg6 harg6 arg7 harg7 arg8 harg8 hc x1 x2 x3 xs7 xs8).2.1)
theorem cover3_B_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.2.1 S1x128.size (by sl_kernel_rfl) y
def out3_B_5 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VO3_5.read (Elt F) (VO3_5.writes (Elt F) VO3_5.junk (kernelRun3_B c i arg1 harg1 arg2 harg2 arg3 harg3 arg4 harg4 arg5 harg5 arg6 harg6 arg7 harg7 arg8 harg8 hc x1 x2 x3 xs7 xs8).2.2.1)
theorem scover3_B_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.2.2.1 S1x128.size (by sl_kernel_rfl) y
def sout3_B_0 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 hc x1 x2 x3 xs7 xs8).2.2.2.1)
theorem scover3_B_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun3_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun3_B c i arg1 harg1 arg2 harg2 arg3 harg3 arg4 harg4 arg5 harg5 arg6 harg6 arg7 harg7 arg8 harg8 hc x1 x2 x3 xs7 xs8).2.2.2.2.1 S1x128.size (by sl_kernel_rfl) y
def sout3_B_1 (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt3 (c : Dev nD) : (n : ℕ) → n < cfg3.N → Vec F S8000x128 .f32 × Vec F S1x128 .f32 × Vec F S1x128 .f32 × Vec F S1x128 .f32 × Vec F S1x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩),
      sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) scM3_1 (Memref.isWhole_whole _) ((hcond3 ⟨0, hn⟩).mpr rfl) (iblk3 V c 0 ⟨0, hn⟩) (iblk3 V c 1 ⟨0, hn⟩) (iblk3 V c 2 ⟨0, hn⟩))
  | n + 1, hn => (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2,
      sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) scM3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2.2.1 (outsAt3 c n (Nat.lt_of_succ_lt hn)).2.2.2.2)

theorem outsAt3_A (c : Dev nD) (t : Fin cfg3.N) (h0 : t.val = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t),
      sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) ((hcond3 t).mpr h0) (iblk3 V c 0 t) (iblk3 V c 1 t) (iblk3 V c 2 t)) := by
  obtain ⟨n, hn⟩ := t
  cases n with
  | zero => rfl
  | succ n => exact absurd h0 (Nat.succ_ne_zero n)

theorem outsAt3_B (c : Dev nD) (t : Fin cfg3.N) (h0 : ¬t.val = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2,
      sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) (fun h => h0 ((hcond3 t).mp h)) (iblk3 V c 0 t) (iblk3 V c 1 t) (iblk3 V c 2 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-- The region invariant before position `n`: before the first point the class's; afterwards the two kept rows at what the
    point before left in them, the other scoped buffers at anything, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2)) ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2)) ∗ Pipeline.scopedRestBut (Ix := Unit) (Name := ℕ) (U := UR sig nD τ) (Lvl := ℕ) (Val := Elt F) spec3 c [cc3_scratch0, cc3_scratch1]) ∗ (∃ r, prngReg c r)) := rfl
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2)) ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
    | ⟨5, _⟩ => (outsAt3 V c t.val t.isLt).2.2.1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem after3_5 (c : Dev nD) (t : Fin cfg3.N) : (dat3 V c).after 5 t = (outsAt3 V c t.val t.isLt).2.2.1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4, after3_5]
  by_cases hz : t.val = 0
  · rw [outsAt3_A V c t hz]
    unfold out3_A_3 out3_A_4 out3_A_5 sout3_A_0 sout3_A_1; (try dsimp only)
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ _ _ ((hcond3 t).mpr hz) (iblk3 V c 0 t) (iblk3 V c 1 t) (iblk3 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _)
          unfold owns; iexists _; isplitr
          swap; · iexact HS1
          ipureintro; exact View.read_writes_of_cover _ _ _ _ _ (scover3_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _ _ _ _ _ _ _)
    isplitl [H4]
    · unfold owns; iexists _; isplitr
      swap; · iexact H4
      ipureintro; exact View.read_writes_of_cover _ _ _ _ _ (cover3_A_4 c _ _ _ _ _ _ _ _ _ _ _ _ _ _ _ _ _ _ _ _ _)
    unfold owns; iexists _; isplitr
    swap; · iexact H5
    ipureintro; exact View.read_writes_of_cover _ _ _ _ _ (cover3_A_5 c _ _ _ _ _ _ _ _ _ _ _ _ _ _ _ _ _ _ _ _ _)
  · rw [outsAt3_B V c t hz]
    unfold out3_B_3 out3_B_4 out3_B_5 sout3_B_0 sout3_B_1; (try dsimp only)
    rw [PhiS3_castSucc V c t, PhiS3_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_B c (grid3.coords t) _ _ _ _ _ _ _ _ _ _ _ _ _ _ _ _ (fun h => hz ((hcond3 t).mp h)) (iblk3 V c 0 t) (iblk3 V c 1 t) (iblk3 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          unfold owns; iexists _; isplitr
          swap; · iexact HS1
          ipureintro; exact View.read_writes_of_cover _ _ _ _ _ (scover3_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover3_B_4 c _ _ _ _ _ _ _ _ _ _ _ _ _ _ _ _ _ _ _ _ _ _ _)
    unfold owns; iexists _; isplitr
    swap; · iexact H5
    ipureintro; exact View.read_writes_of_cover _ _ _ _ _ (cover3_B_5 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the kept rows' named contents are forgotten. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq3 (c : Dev nD) (w : Fin cfg3.W) : (dat3 V c).q w = fullShare := rfl
theorem howed3 (c : Dev nD) (t : Fin (cfg3.N + 1)) : (dat3 V c).owed t = 0 := rfl

end Region3

end Cert.KernelIdeal.Reg

end
-- ==== Proof.KI.Reg4.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4: the second half of a GIN layer, `cc4__gin2_kernel` (pipeline 4), at the entry contents `V`.
    Per point, on one block of 8000 rows: batch-normalise the hidden block with the statistics of windows 1–2 and
    the affine pair of windows 3–4, rectify, multiply by the weight (window 5) and add the bias (window 6), then
    layer-normalise each row with the affine pair of windows 7–8 and rectify. Windows 1–8 have a constant block index:
    fetched at the first point only, resident after. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block
    index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block
    index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block
    index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block
    index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s (`hA`) and whose body leaves the block in place (`hafter`): unfetched, the block
    index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof
    data whose array is `V`'s (`hA`) and whose body leaves the block in place (`hafter`): unfetched, the block
    index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for any proof
    data whose array is `V`'s (`hA`) and whose body leaves the block in place (`hafter`): unfetched, the block
    index has not moved. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for any proof
    data whose array is `V`'s (`hA`) and whose body leaves the block in place (`hafter`): unfetched, the block
    index has not moved. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- Input window 8's current staging buffer holds its block at every point, fetched there or not, for any proof
    data whose array is `V`'s (`hA`) and whose body leaves the block in place (`hafter`): unfetched, the block
    index has not moved. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read and written whole -/

abbrev r4_0 : Rect S8000x128 := Rect.unit (s := S8000x128) ![0, 0] S8000x128.size inb_S8000x128_S8000x128_0_0
abbrev r4_1 : Rect S1x128 := Rect.unit (s := S1x128) ![0, 0] S1x128.size inb_S1x128_S1x128_0_0
abbrev r4_2 : Rect S128x64 := Rect.unit (s := S128x64) ![0, 0] S128x64.size inb_S128x64_S128x64_0_0
abbrev r4_3 : Rect S64 := Rect.unit (s := S64) ![0] S64.size inb_S64_S64_0
abbrev r4_4 : Rect S1x64 := Rect.unit (s := S1x64) ![0, 0] S1x64.size inb_S1x64_S1x64_0_0
abbrev r4_5 : Rect S8000x64 := Rect.unit (s := S8000x64) ![0, 0] S8000x64.size inb_S8000x64_S8000x64_0_0

/-! ## What the body leaves in the output window's buffer -/

/-- Window 9's staging buffer after the body, from the input windows' blocks: its one store as a piece. -/
def out4_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r4_5, k4_pay1 (k4_pay2 (View.ld x0 r4_0) (View.ld x2 r4_1) (View.ld x1 r4_1) (View.ld x3 r4_1) (View.ld x4 r4_1) (View.ld x5 r4_2) (View.ld x6 r4_3)) (k4_pay3 (View.ld x0 r4_0) (View.ld x2 r4_1) (View.ld x1 r4_1) (View.ld x3 r4_1) (View.ld x4 r4_1) (View.ld x5 r4_2) (View.ld x6 r4_3)) (View.ld x7 r4_4) (View.ld x8 r4_4)⟩]

/-- The store is of the whole buffer, so it covers it. -/
theorem cover4_9 (p0 : Vec F S8000x64 .f32) (y : S8000x64.Idx) :
    ∃ pc ∈ ([⟨r4_5, p0⟩] : List (View.Piece (Elt F) S8000x64 .f32)), y ∈ pc.1.set :=
  View.cover_of_tiled [⟨r4_5, p0⟩] S8000x64.size (by rfl) y

/-! ## The body's triple -/

set_option maxHeartbeats 1000000 in
/-- The kernel body on whole staging memrefs, the inputs' at read contents `xW` and the output's at anything, runs
    to the continuation holding the inputs' as they were and the output's at `out4_9` of the inputs'. -/
theorem sound_kernel4 (c : Dev nD) (E : Set ℕ) (i : grid4.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 x0 x1 x2 x3 x4 x5 x6 x7 x8)) -∗ K ⟨⟩))
      ⊢ wp frame (wpE (defs₀ (F := F)) Variants.none c none) E (cc4__gin2_kernel i arg1 harg1 arg2 harg2 arg3 harg3 arg4 harg4 arg5 harg5 arg6 harg6 arg7 harg7 arg8 harg8 arg9 harg9 arg10 harg10) K := by
  simp only [cc4__gin2_kernel_eq_skeleton]; unfold cc4__gin2_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover4_9 _)

/-! ## The pipeline's proof data -/

/-- The proof data of pipeline 4 on core `c`: the arrays as the region finds them (`V`); after the body at
    point `t` each input's buffer at its block and the output's at `out4_9` of the input blocks; the invariant
    leaves the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

/-- The body at any point: the inputs' memrefs hold their blocks (`before4_w`), so `sound_kernel4` applies;
    the invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg
-- ==== Proof.KI.Reg5.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 5: the message kernel `cc5__message_kernel` (pipeline 5), at the entry contents `V`.
    Per point, on one 8000×64 block of edges: out = max(h_row + ea, 0). -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read and written whole -/

abbrev r5_0 : Rect S8000x64 := Rect.unit (s := S8000x64) ![0, 0] S8000x64.size inb_S8000x64_S8000x64_0_0

/-! ## What the body leaves in the output window's buffer -/

/-- Window 2's staging buffer after the body, from the input windows' blocks: its one store as a piece. -/
def out5_2 (x0 : Vec F S8000x64 .f32) (x1 : Vec F S8000x64 .f32) : Vec F S8000x64 .f32 :=
  View.canon [⟨r5_0, k5_pay1 (View.ld x0 r5_0) (View.ld x1 r5_0)⟩]

/-- The store is of the whole buffer, so it covers it. -/
theorem cover5_2 (p0 : Vec F S8000x64 .f32) (y : S8000x64.Idx) :
    ∃ pc ∈ ([⟨r5_0, p0⟩] : List (View.Piece (Elt F) S8000x64 .f32)), y ∈ pc.1.set :=
  View.cover_of_tiled [⟨r5_0, p0⟩] S8000x64.size (by rfl) y

/-! ## The body's triple -/

set_option maxHeartbeats 1000000 in
/-- The kernel body on whole staging memrefs, the inputs' at read contents `xW` and the output's at anything, runs
    to the continuation holding the inputs' as they were and the output's at `out5_2` of the inputs'. -/
theorem sound_kernel5 (c : Dev nD) (E : Set ℕ) (i : grid5.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__message_kernel i arg1 harg1 arg2 harg2 arg3 harg3) K := by
  simp only [cc5__message_kernel_eq_skeleton]; unfold cc5__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover5_2 _)

/-! ## The pipeline's proof data -/

/-- The proof data of pipeline 5 on core `c`: the arrays as the region finds them (`V`); after the body at
    point `t` each input's buffer at its block and the output's at `out5_2` of the input blocks; the invariant
    leaves the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks (`before5_w`), so `sound_kernel5` applies;
    the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg
-- ==== Proof.KI.Reg6.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: on a block of 8000 rows, Z = zin·W1 + b1, and the column sums of Z and of Z·Z added into two rows the
    kernel keeps from one block to the next (set to zero at the first block); the two rows are also copied out. -/

section Region6
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not (the weight and the bias are
    fetched once: their block index never moves). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The branch condition of the body's one conditional, from the grid coordinates. -/
abbrev cond6 (i : grid6.Coords) : Prop := (Scalar.cmpi .ne (Scalar.extui (Scalar.cmpi .eq (BitVec.ofNat 32 (i 0).val) 0#32)) 0#32) = 1#1
/-- It holds at the first point only. -/
theorem hcond6 : ∀ t : Fin cfg6.N, cond6 (grid6.coords t) ↔ t.val = 0 :=
  (by decide +kernel : ∀ t : Fin grid6.N, cond6 (grid6.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun6_A (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc6__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__gin1_kernel_eq_skeleton]; unfold cc6__gin1_kernel_skel
    simp only [k6_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun6_B (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc6__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__gin1_kernel_eq_skeleton]; unfold cc6__gin1_kernel_skel
    simp only [k6_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms6_0 (t : Fin cfg6.N) : Memref sig .tc .vmem S8000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S64x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S8000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev VO6_3 : View sig .tc .vmem S8000x128 .f32 := (Memref.whole cc6_stg3_0 : Memref sig .tc .vmem S8000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
/-- The two rows the kernel keeps between grid points: whole scoped buffers of its own. -/
abbrev scM6_0 : Memref sig .tc .vmem S1x128 .f32 := Memref.whole cc6_scratch0
abbrev scM6_1 : Memref sig .tc .vmem S1x128 .f32 := Memref.whole cc6_scratch1
abbrev VS6_0 : View sig .tc .vmem S1x128 .f32 := scM6_0.view
abbrev VS6_1 : View sig .tc .vmem S1x128 .f32 := scM6_1.view

/-! ## What each case leaves: the found stores cover each buffer, so what it reads afterwards is theirs alone -/
theorem cover6_A_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S8000x128.Idx) :
    ∃ pc ∈ (kernelRun6_A c i arg1 harg1 arg2 harg2 arg3 harg3 arg4 harg4 arg5 harg5 arg6 harg6 arg7 harg7 arg8 harg8 hc x1 x2 x3).1, y ∈ pc.1.set :=
  View.cover_of_tiledL (kernelRun6_A c i arg1 harg1 arg2 harg2 arg3 harg3 arg4 harg4 arg5 harg5 arg6 harg6 arg7 harg7 arg8 harg8 hc x1 x2 x3).1 S8000x128.size (by sl_kernel_rfl) y
def out6_A_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S8000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc x1 x2 x3).1)
theorem cover6_A_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.1, y ∈ pc.1.set :=
  View.cover_of_tiledL (kernelRun6_A c i arg1 harg1 arg2 harg2 arg3 harg3 arg4 harg4 arg5 harg5 arg6 harg6 arg7 harg7 arg8 harg8 hc x1 x2 x3).2.1 S1x128.size (by sl_kernel_rfl) y
def out6_A_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VO6_4.read (Elt F) (VO6_4.writes (Elt F) VO6_4.junk (kernelRun6_A c i arg1 harg1 arg2 harg2 arg3 harg3 arg4 harg4 arg5 harg5 arg6 harg6 arg7 harg7 arg8 harg8 hc x1 x2 x3).2.1)
theorem cover6_A_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.2.1, y ∈ pc.1.set :=
  View.cover_of_tiledL (kernelRun6_A c i arg1 harg1 arg2 harg2 arg3 harg3 arg4 harg4 arg5 harg5 arg6 harg6 arg7 harg7 arg8 harg8 hc x1 x2 x3).2.2.1 S1x128.size (by sl_kernel_rfl) y
def out6_A_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VO6_5.read (Elt F) (VO6_5.writes (Elt F) VO6_5.junk (kernelRun6_A c i arg1 harg1 arg2 harg2 arg3 harg3 arg4 harg4 arg5 harg5 arg6 harg6 arg7 harg7 arg8 harg8 hc x1 x2 x3).2.2.1)
theorem scover6_A_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.2.2.1, y ∈ pc.1.set :=
  View.cover_of_tiledL (kernelRun6_A c i arg1 harg1 arg2 harg2 arg3 harg3 arg4 harg4 arg5 harg5 arg6 harg6 arg7 harg7 arg8 harg8 hc x1 x2 x3).2.2.2.1 S1x128.size (by sl_kernel_rfl) y
def sout6_A_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc x1 x2 x3).2.2.2.1)
theorem scover6_A_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) (y : S1x128.Idx) :
    ∃ pc ∈ (kernelRun6_A c i arg1 harg1 arg2 harg2 arg3 harg3 arg4 harg4 arg5 harg5 arg6 harg6 arg7 harg7 arg8 harg8 hc x1 x2 x3).2.2.2.2.1, y ∈ pc.1.set :=
  View.cover_of_tiledL (kernelRun6_A c i arg1 harg1 arg2 harg2 arg3 harg3 arg4 harg4 arg5 harg5 arg6 harg6 arg7 harg7 arg8 harg8 hc x1 x2 x3).2.2.2.2.1 S1x128.size (by sl_kernel_rfl) y
def sout6_A_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc x1 x2 x3).2.2.2.2.1)
theorem cover6_B_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun6_B c i arg1 harg1 arg2 harg2 arg3 harg3 arg4 harg4 arg5 harg5 arg6 harg6 arg7 harg7 arg8 harg8 hc x1 x2 x3 xs7 xs8).1, y ∈ pc.1.set :=
  View.cover_of_tiledL (kernelRun6_B c i arg1 harg1 arg2 harg2 arg3 harg3 arg4 harg4 arg5 harg5 arg6 harg6 arg7 harg7 arg8 harg8 hc x1 x2 x3 xs7 xs8).1 S8000x128.size (by sl_kernel_rfl) y
def out6_B_3 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S8000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc x1 x2 x3 xs7 xs8).1)
theorem cover6_B_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.1 S1x128.size (by sl_kernel_rfl) y
def out6_B_4 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VO6_4.read (Elt F) (VO6_4.writes (Elt F) VO6_4.junk (kernelRun6_B c i arg1 harg1 arg2 harg2 arg3 harg3 arg4 harg4 arg5 harg5 arg6 harg6 arg7 harg7 arg8 harg8 hc x1 x2 x3 xs7 xs8).2.1)
theorem cover6_B_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.2.1 S1x128.size (by sl_kernel_rfl) y
def out6_B_5 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VO6_5.read (Elt F) (VO6_5.writes (Elt F) VO6_5.junk (kernelRun6_B c i arg1 harg1 arg2 harg2 arg3 harg3 arg4 harg4 arg5 harg5 arg6 harg6 arg7 harg7 arg8 harg8 hc x1 x2 x3 xs7 xs8).2.2.1)
theorem scover6_B_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.2.2.1 S1x128.size (by sl_kernel_rfl) y
def sout6_B_0 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc x1 x2 x3 xs7 xs8).2.2.2.1)
theorem scover6_B_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun6_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun6_B c i arg1 harg1 arg2 harg2 arg3 harg3 arg4 harg4 arg5 harg5 arg6 harg6 arg7 harg7 arg8 harg8 hc x1 x2 x3 xs7 xs8).2.2.2.2.1 S1x128.size (by sl_kernel_rfl) y
def sout6_B_1 (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt6 (c : Dev nD) : (n : ℕ) → n < cfg6.N → Vec F S8000x128 .f32 × Vec F S1x128 .f32 × Vec F S1x128 .f32 × Vec F S1x128 .f32 × Vec F S1x128 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      out6_A_4 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      out6_A_5 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6 ⟨0, hn⟩).mpr rfl) (iblk6 V c 0 ⟨0, hn⟩) (iblk6 V c 1 ⟨0, hn⟩) (iblk6 V c 2 ⟨0, hn⟩))
  | n + 1, hn => (out6_B_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      out6_B_4 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      out6_B_5 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => Nat.succ_ne_zero n ((hcond6 ⟨n + 1, hn⟩).mp h)) (iblk6 V c 0 ⟨n + 1, hn⟩) (iblk6 V c 1 ⟨n + 1, hn⟩) (iblk6 V c 2 ⟨n + 1, hn⟩) (outsAt6 c n (Nat.lt_of_succ_lt hn)).2.2.2.1 (outsAt6 c n (Nat.lt_of_succ_lt hn)).2.2.2.2)

theorem outsAt6_A (c : Dev nD) (t : Fin cfg6.N) (h0 : t.val = 0) :
    outsAt6 V c t.val t.isLt = (out6_A_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      out6_A_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      out6_A_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6 t).mpr h0) (iblk6 V c 0 t) (iblk6 V c 1 t) (iblk6 V c 2 t)) := by
  obtain ⟨n, hn⟩ := t
  cases n with
  | zero => rfl
  | succ n => exact absurd h0 (Nat.succ_ne_zero n)

theorem outsAt6_B (c : Dev nD) (t : Fin cfg6.N) (h0 : ¬t.val = 0) :
    outsAt6 V c t.val t.isLt = (out6_B_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6 t).mp h)) (iblk6 V c 0 t) (iblk6 V c 1 t) (iblk6 V c 2 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- The region invariant before position `n`: before the first point the class's; afterwards the two kept rows at what the
    point before left in them, the other scoped buffers at anything, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2)) ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2)) ∗ Pipeline.scopedRestBut (Ix := Unit) (Name := ℕ) (U := UR sig nD τ) (Lvl := ℕ) (Val := Elt F) spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2)) ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
    | ⟨4, _⟩ => (outsAt6 V c t.val t.isLt).2.1
    | ⟨5, _⟩ => (outsAt6 V c t.val t.isLt).2.2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]
theorem after6_4 (c : Dev nD) (t : Fin cfg6.N) : (dat6 V c).after 4 t = (outsAt6 V c t.val t.isLt).2.1 := by dsimp only [dat6]
theorem after6_5 (c : Dev nD) (t : Fin cfg6.N) : (dat6 V c).after 5 t = (outsAt6 V c t.val t.isLt).2.2.1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2, after6_3, after6_4, after6_5]
  by_cases hz : t.val = 0
  · rw [outsAt6_A V c t hz]
    unfold out6_A_3 out6_A_4 out6_A_5 sout6_A_0 sout6_A_1; (try dsimp only)
    rw [PhiS6_castSucc V c t, PhiS6_zero V c _ _ hz, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ _ _ _ _ ((hcond6 t).mpr hz) (iblk6 V c 0 t) (iblk6 V c 1 t) (iblk6 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _)
          unfold owns; iexists _; isplitr
          swap; · iexact HS1
          ipureintro; exact View.read_writes_of_cover _ _ _ _ _ (scover6_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_3 c _ _ _ _ _ _ _ _ _ _ _ _ _ _ _ _ _ _ _ _ _)
    isplitl [H4]
    · unfold owns; iexists _; isplitr
      swap; · iexact H4
      ipureintro; exact View.read_writes_of_cover _ _ _ _ _ (cover6_A_4 c _ _ _ _ _ _ _ _ _ _ _ _ _ _ _ _ _ _ _ _ _)
    unfold owns; iexists _; isplitr
    swap; · iexact H5
    ipureintro; exact View.read_writes_of_cover _ _ _ _ _ (cover6_A_5 c _ _ _ _ _ _ _ _ _ _ _ _ _ _ _ _ _ _ _ _ _)
  · rw [outsAt6_B V c t hz]
    unfold out6_B_3 out6_B_4 out6_B_5 sout6_B_0 sout6_B_1; (try dsimp only)
    rw [PhiS6_castSucc V c t, PhiS6_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun6_B c (grid6.coords t) _ _ _ _ _ _ _ _ _ _ _ _ _ _ _ _ (fun h => hz ((hcond6 t).mp h)) (iblk6 V c 0 t) (iblk6 V c 1 t) (iblk6 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover6_B_0 c _ _ _ _ _ _ _ _ _ _ _ _ _ _ _ _ _ _ _ _ _ _ _)
          unfold owns; iexists _; isplitr
          swap; · iexact HS1
          ipureintro; exact View.read_writes_of_cover _ _ _ _ _ (scover6_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover6_B_4 c _ _ _ _ _ _ _ _ _ _ _ _ _ _ _ _ _ _ _ _ _ _ _)
    unfold owns; iexists _; isplitr
    swap; · iexact H5
    ipureintro; exact View.read_writes_of_cover _ _ _ _ _ (cover6_B_5 c _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the kept rows' named contents are forgotten. -/
theorem hout6 (c : Dev nD) : (dat6 V c).Φ (Fin.last cfg6.N) ⊢ (Pipeline.ΦA spec6 c : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq6 (c : Dev nD) (w : Fin cfg6.W) : (dat6 V c).q w = fullShare := rfl
theorem howed6 (c : Dev nD) (t : Fin (cfg6.N + 1)) : (dat6 V c).owed t = 0 := rfl

end Region6

end Cert.KernelIdeal.Reg

end
-- ==== Proof.KI.Reg7.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 7: the second half of a GIN layer, `cc7__gin2_kernel` (pipeline 7), at the entry contents `V`.
    Per point, on one block of 8000 rows: batch-normalise the hidden block with the statistics of windows 1–2 and
    the affine pair of windows 3–4, rectify, multiply by the weight (window 5) and add the bias (window 6), then
    layer-normalise each row with the affine pair of windows 7–8 and rectify. Windows 1–8 have a constant block index:
    fetched at the first point only, resident after. -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block
    index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block
    index has not moved. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): unfetched, the block
    index has not moved. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): unfetched, the block
    index has not moved. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): unfetched, the block
    index has not moved. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for any proof
    data whose array is `V`'s (`hA`) and whose body leaves the block in place (`hafter`): unfetched, the block
    index has not moved. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for any proof
    data whose array is `V`'s (`hA`) and whose body leaves the block in place (`hafter`): unfetched, the block
    index has not moved. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for any proof
    data whose array is `V`'s (`hA`) and whose body leaves the block in place (`hafter`): unfetched, the block
    index has not moved. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for any proof
    data whose array is `V`'s (`hA`) and whose body leaves the block in place (`hafter`): unfetched, the block
    index has not moved. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer is read and written whole -/

abbrev r7_0 : Rect S8000x128 := Rect.unit (s := S8000x128) ![0, 0] S8000x128.size inb_S8000x128_S8000x128_0_0
abbrev r7_1 : Rect S1x128 := Rect.unit (s := S1x128) ![0, 0] S1x128.size inb_S1x128_S1x128_0_0
abbrev r7_2 : Rect S128x64 := Rect.unit (s := S128x64) ![0, 0] S128x64.size inb_S128x64_S128x64_0_0
abbrev r7_3 : Rect S64 := Rect.unit (s := S64) ![0] S64.size inb_S64_S64_0
abbrev r7_4 : Rect S1x64 := Rect.unit (s := S1x64) ![0, 0] S1x64.size inb_S1x64_S1x64_0_0
abbrev r7_5 : Rect S8000x64 := Rect.unit (s := S8000x64) ![0, 0] S8000x64.size inb_S8000x64_S8000x64_0_0

/-! ## What the body leaves in the output window's buffer -/

/-- Window 9's staging buffer after the body, from the input windows' blocks: its one store as a piece. -/
def out7_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r7_5, k7_pay1 (k7_pay2 (View.ld x0 r7_0) (View.ld x2 r7_1) (View.ld x1 r7_1) (View.ld x3 r7_1) (View.ld x4 r7_1) (View.ld x5 r7_2) (View.ld x6 r7_3)) (k7_pay3 (View.ld x0 r7_0) (View.ld x2 r7_1) (View.ld x1 r7_1) (View.ld x3 r7_1) (View.ld x4 r7_1) (View.ld x5 r7_2) (View.ld x6 r7_3)) (View.ld x7 r7_4) (View.ld x8 r7_4)⟩]

/-- The store is of the whole buffer, so it covers it. -/
theorem cover7_9 (p0 : Vec F S8000x64 .f32) (y : S8000x64.Idx) :
    ∃ pc ∈ ([⟨r7_5, p0⟩] : List (View.Piece (Elt F) S8000x64 .f32)), y ∈ pc.1.set :=
  View.cover_of_tiled [⟨r7_5, p0⟩] S8000x64.size (by rfl) y

/-! ## The body's triple -/

set_option maxHeartbeats 1000000 in
/-- The kernel body on whole staging memrefs, the inputs' at read contents `xW` and the output's at anything, runs
    to the continuation holding the inputs' as they were and the output's at `out7_9` of the inputs'. -/
theorem sound_kernel7 (c : Dev nD) (E : Set ℕ) (i : grid7.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out7_9 x0 x1 x2 x3 x4 x5 x6 x7 x8)) -∗ K ⟨⟩))
      ⊢ wp frame (wpE (defs₀ (F := F)) Variants.none c none) E (cc7__gin2_kernel i arg1 harg1 arg2 harg2 arg3 harg3 arg4 harg4 arg5 harg5 arg6 harg6 arg7 harg7 arg8 harg8 arg9 harg9 arg10 harg10) K := by
  simp only [cc7__gin2_kernel_eq_skeleton]; unfold cc7__gin2_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover7_9 _)

/-! ## The pipeline's proof data -/

/-- The proof data of pipeline 7 on core `c`: the arrays as the region finds them (`V`); after the body at
    point `t` each input's buffer at its block and the output's at `out7_9` of the input blocks; the invariant
    leaves the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

/-- The body at any point: the inputs' memrefs hold their blocks (`before7_w`), so `sound_kernel7` applies;
    the invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ (grid7.coords t) _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg
-- ==== Proof.KI.Reg8.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 8: the message kernel `cc8__message_kernel` (pipeline 8), at the entry contents `V`.
    Per point, on one 8000×64 block of edges: out = max(h_row + ea, 0). -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof
    data whose array is `V`'s (`hA`) and whose body leaves the block in place (`hafter`): unfetched, the block
    index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof
    data whose array is `V`'s (`hA`) and whose body leaves the block in place (`hafter`): unfetched, the block
    index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read and written whole -/

abbrev r8_0 : Rect S8000x64 := Rect.unit (s := S8000x64) ![0, 0] S8000x64.size inb_S8000x64_S8000x64_0_0

/-! ## What the body leaves in the output window's buffer -/

/-- Window 2's staging buffer after the body, from the input windows' blocks: its one store as a piece. -/
def out8_2 (x0 : Vec F S8000x64 .f32) (x1 : Vec F S8000x64 .f32) : Vec F S8000x64 .f32 :=
  View.canon [⟨r8_0, k8_pay1 (View.ld x0 r8_0) (View.ld x1 r8_0)⟩]

/-- The store is of the whole buffer, so it covers it. -/
theorem cover8_2 (p0 : Vec F S8000x64 .f32) (y : S8000x64.Idx) :
    ∃ pc ∈ ([⟨r8_0, p0⟩] : List (View.Piece (Elt F) S8000x64 .f32)), y ∈ pc.1.set :=
  View.cover_of_tiled [⟨r8_0, p0⟩] S8000x64.size (by rfl) y

/-! ## The body's triple -/

set_option maxHeartbeats 1000000 in
/-- The kernel body on whole staging memrefs, the inputs' at read contents `xW` and the output's at anything, runs
    to the continuation holding the inputs' as they were and the output's at `out8_2` of the inputs'. -/
theorem sound_kernel8 (c : Dev nD) (E : Set ℕ) (i : grid8.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__message_kernel i arg1 harg1 arg2 harg2 arg3 harg3) K := by
  simp only [cc8__message_kernel_eq_skeleton]; unfold cc8__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover8_2 _)

/-! ## The pipeline's proof data -/

/-- The proof data of pipeline 8 on core `c`: the arrays as the region finds them (`V`); after the body at
    point `t` each input's buffer at its block and the output's at `out8_2` of the input blocks; the invariant
    leaves the scoped rest and the generator register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks (`before8_w`), so `sound_kernel8` applies;
    the invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg
-- ==== Proof.KI.Reg9.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: on a block of 8000 rows, Z = zin·W1 + b1, and the column sums of Z and of Z·Z added into two rows the
    kernel keeps from one block to the next (set to zero at the first block); the two rows are also copied out. -/

section Region9
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's staging buffer holds its block at every point, fetched there or not (the weight and the bias are
    fetched once: their block index never moves). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The branch condition of the body's one conditional, from the grid coordinates. -/
abbrev cond9 (i : grid9.Coords) : Prop := (Scalar.cmpi .ne (Scalar.extui (Scalar.cmpi .eq (BitVec.ofNat 32 (i 0).val) 0#32)) 0#32) = 1#1
/-- It holds at the first point only. -/
theorem hcond9 : ∀ t : Fin cfg9.N, cond9 (grid9.coords t) ↔ t.val = 0 :=
  (by decide +kernel : ∀ t : Fin grid9.N, cond9 (grid9.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun9_A (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc9__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc9__gin1_kernel_eq_skeleton]; unfold cc9__gin1_kernel_skel
    simp only [k9_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun9_B (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc9__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc9__gin1_kernel_eq_skeleton]; unfold cc9__gin1_kernel_skel
    simp only [k9_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms9_0 (t : Fin cfg9.N) : Memref sig .tc .vmem S8000x64 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S64x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S8000x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S1x128 .f32 := win9_5.stage (cfg9.slots t 5)
abbrev hs9_5 (t : Fin cfg9.N) : (ms9_5 t).IsWhole := hstage9_5 ((cfg9.slots t 5).cast nbuf9_5)
abbrev VO9_3 : View sig .tc .vmem S8000x128 .f32 := (Memref.whole cc9_stg3_0 : Memref sig .tc .vmem S8000x128 .f32).view
abbrev VO9_4 : View sig .tc .vmem S1x128 .f32 := (Memref.whole cc9_stg4_0 : Memref sig .tc .vmem S1x128 .f32).view
abbrev VO9_5 : View sig .tc .vmem S1x128 .f32 := (Memref.whole cc9_stg5_0 : Memref sig .tc .vmem S1x128 .f32).view
/-- The two rows the kernel keeps between grid points: whole scoped buffers of its own. -/
abbrev scM9_0 : Memref sig .tc .vmem S1x128 .f32 := Memref.whole cc9_scratch0
abbrev scM9_1 : Memref sig .tc .vmem S1x128 .f32 := Memref.whole cc9_scratch1
abbrev VS9_0 : View sig .tc .vmem S1x128 .f32 := scM9_0.view
abbrev VS9_1 : View sig .tc .vmem S1x128 .f32 := scM9_1.view

/-! ## What each case leaves: the found stores cover each buffer, so what it reads afterwards is theirs alone -/
theorem cover9_A_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S8000x128.Idx) :
    ∃ pc ∈ (kernelRun9_A c i arg1 harg1 arg2 harg2 arg3 harg3 arg4 harg4 arg5 harg5 arg6 harg6 arg7 harg7 arg8 harg8 hc x1 x2 x3).1, y ∈ pc.1.set :=
  View.cover_of_tiledL (kernelRun9_A c i arg1 harg1 arg2 harg2 arg3 harg3 arg4 harg4 arg5 harg5 arg6 harg6 arg7 harg7 arg8 harg8 hc x1 x2 x3).1 S8000x128.size (by sl_kernel_rfl) y
def out9_A_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S8000x128 .f32 :=
  VO9_3.read (Elt F) (VO9_3.writes (Elt F) VO9_3.junk (kernelRun9_A c i arg1 harg1 arg2 harg2 arg3 harg3 arg4 harg4 arg5 harg5 arg6 harg6 arg7 harg7 arg8 harg8 hc x1 x2 x3).1)
theorem cover9_A_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.1, y ∈ pc.1.set :=
  View.cover_of_tiledL (kernelRun9_A c i arg1 harg1 arg2 harg2 arg3 harg3 arg4 harg4 arg5 harg5 arg6 harg6 arg7 harg7 arg8 harg8 hc x1 x2 x3).2.1 S1x128.size (by sl_kernel_rfl) y
def out9_A_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VO9_4.read (Elt F) (VO9_4.writes (Elt F) VO9_4.junk (kernelRun9_A c i arg1 harg1 arg2 harg2 arg3 harg3 arg4 harg4 arg5 harg5 arg6 harg6 arg7 harg7 arg8 harg8 hc x1 x2 x3).2.1)
theorem cover9_A_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.2.1, y ∈ pc.1.set :=
  View.cover_of_tiledL (kernelRun9_A c i arg1 harg1 arg2 harg2 arg3 harg3 arg4 harg4 arg5 harg5 arg6 harg6 arg7 harg7 arg8 harg8 hc x1 x2 x3).2.2.1 S1x128.size (by sl_kernel_rfl) y
def out9_A_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VO9_5.read (Elt F) (VO9_5.writes (Elt F) VO9_5.junk (kernelRun9_A c i arg1 harg1 arg2 harg2 arg3 harg3 arg4 harg4 arg5 harg5 arg6 harg6 arg7 harg7 arg8 harg8 hc x1 x2 x3).2.2.1)
theorem scover9_A_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.2.2.1, y ∈ pc.1.set :=
  View.cover_of_tiledL (kernelRun9_A c i arg1 harg1 arg2 harg2 arg3 harg3 arg4 harg4 arg5 harg5 arg6 harg6 arg7 harg7 arg8 harg8 hc x1 x2 x3).2.2.2.1 S1x128.size (by sl_kernel_rfl) y
def sout9_A_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VS9_0.read (Elt F) (VS9_0.writes (Elt F) VS9_0.junk (kernelRun9_A c i arg1 harg1 arg2 harg2 arg3 harg3 arg4 harg4 arg5 harg5 arg6 harg6 arg7 harg7 arg8 harg8 hc x1 x2 x3).2.2.2.1)
theorem scover9_A_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) (y : S1x128.Idx) :
    ∃ pc ∈ (kernelRun9_A c i arg1 harg1 arg2 harg2 arg3 harg3 arg4 harg4 arg5 harg5 arg6 harg6 arg7 harg7 arg8 harg8 hc x1 x2 x3).2.2.2.2.1, y ∈ pc.1.set :=
  View.cover_of_tiledL (kernelRun9_A c i arg1 harg1 arg2 harg2 arg3 harg3 arg4 harg4 arg5 harg5 arg6 harg6 arg7 harg7 arg8 harg8 hc x1 x2 x3).2.2.2.2.1 S1x128.size (by sl_kernel_rfl) y
def sout9_A_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) : Vec F S1x128 .f32 :=
  VS9_1.read (Elt F) (VS9_1.writes (Elt F) VS9_1.junk (kernelRun9_A c i arg1 harg1 arg2 harg2 arg3 harg3 arg4 harg4 arg5 harg5 arg6 harg6 arg7 harg7 arg8 harg8 hc x1 x2 x3).2.2.2.2.1)
theorem cover9_B_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun9_B c i arg1 harg1 arg2 harg2 arg3 harg3 arg4 harg4 arg5 harg5 arg6 harg6 arg7 harg7 arg8 harg8 hc x1 x2 x3 xs7 xs8).1, y ∈ pc.1.set :=
  View.cover_of_tiledL (kernelRun9_B c i arg1 harg1 arg2 harg2 arg3 harg3 arg4 harg4 arg5 harg5 arg6 harg6 arg7 harg7 arg8 harg8 hc x1 x2 x3 xs7 xs8).1 S8000x128.size (by sl_kernel_rfl) y
def out9_B_3 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S8000x128 .f32 :=
  VO9_3.read (Elt F) (VO9_3.writes (Elt F) VO9_3.junk (kernelRun9_B c i arg1 harg1 arg2 harg2 arg3 harg3 arg4 harg4 arg5 harg5 arg6 harg6 arg7 harg7 arg8 harg8 hc x1 x2 x3 xs7 xs8).1)
theorem cover9_B_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.1 S1x128.size (by sl_kernel_rfl) y
def out9_B_4 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VO9_4.read (Elt F) (VO9_4.writes (Elt F) VO9_4.junk (kernelRun9_B c i arg1 harg1 arg2 harg2 arg3 harg3 arg4 harg4 arg5 harg5 arg6 harg6 arg7 harg7 arg8 harg8 hc x1 x2 x3 xs7 xs8).2.1)
theorem cover9_B_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.2.1 S1x128.size (by sl_kernel_rfl) y
def out9_B_5 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VO9_5.read (Elt F) (VO9_5.writes (Elt F) VO9_5.junk (kernelRun9_B c i arg1 harg1 arg2 harg2 arg3 harg3 arg4 harg4 arg5 harg5 arg6 harg6 arg7 harg7 arg8 harg8 hc x1 x2 x3 xs7 xs8).2.2.1)
theorem scover9_B_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.2.2.1 S1x128.size (by sl_kernel_rfl) y
def sout9_B_0 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VS9_0.read (Elt F) (VS9_0.writes (Elt F) VS9_0.junk (kernelRun9_B c i arg1 harg1 arg2 harg2 arg3 harg3 arg4 harg4 arg5 harg5 arg6 harg6 arg7 harg7 arg8 harg8 hc x1 x2 x3 xs7 xs8).2.2.2.1)
theorem scover9_B_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun9_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun9_B c i arg1 harg1 arg2 harg2 arg3 harg3 arg4 harg4 arg5 harg5 arg6 harg6 arg7 harg7 arg8 harg8 hc x1 x2 x3 xs7 xs8).2.2.2.2.1 S1x128.size (by sl_kernel_rfl) y
def sout9_B_1 (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) : Vec F S1x128 .f32 :=
  VS9_1.read (Elt F) (VS9_1.writes (Elt F) VS9_1.junk (kernelRun9_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt9 (c : Dev nD) : (n : ℕ) → n < cfg9.N → Vec F S8000x128 .f32 × Vec F S1x128 .f32 × Vec F S1x128 .f32 × Vec F S1x128 .f32 × Vec F S1x128 .f32
  | 0, hn => (out9_A_3 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      out9_A_4 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      out9_A_5 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩),
      sout9_A_1 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) (ms9_3 ⟨0, hn⟩) (hs9_3 ⟨0, hn⟩) (ms9_4 ⟨0, hn⟩) (hs9_4 ⟨0, hn⟩) (ms9_5 ⟨0, hn⟩) (hs9_5 ⟨0, hn⟩) scM9_0 (Memref.isWhole_whole _) scM9_1 (Memref.isWhole_whole _) ((hcond9 ⟨0, hn⟩).mpr rfl) (iblk9 V c 0 ⟨0, hn⟩) (iblk9 V c 1 ⟨0, hn⟩) (iblk9 V c 2 ⟨0, hn⟩))
  | n + 1, hn => (out9_B_3 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      out9_B_4 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      out9_B_5 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2,
      sout9_B_1 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) (ms9_3 ⟨n + 1, hn⟩) (hs9_3 ⟨n + 1, hn⟩) (ms9_4 ⟨n + 1, hn⟩) (hs9_4 ⟨n + 1, hn⟩) (ms9_5 ⟨n + 1, hn⟩) (hs9_5 ⟨n + 1, hn⟩) scM9_0 (Memref.isWhole_whole _) scM9_1 (Memref.isWhole_whole _) (fun h => Nat.succ_ne_zero n ((hcond9 ⟨n + 1, hn⟩).mp h)) (iblk9 V c 0 ⟨n + 1, hn⟩) (iblk9 V c 1 ⟨n + 1, hn⟩) (iblk9 V c 2 ⟨n + 1, hn⟩) (outsAt9 c n (Nat.lt_of_succ_lt hn)).2.2.2.1 (outsAt9 c n (Nat.lt_of_succ_lt hn)).2.2.2.2)

theorem outsAt9_A (c : Dev nD) (t : Fin cfg9.N) (h0 : t.val = 0) :
    outsAt9 V c t.val t.isLt = (out9_A_3 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      out9_A_4 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      out9_A_5 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      sout9_A_0 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t),
      sout9_A_1 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) ((hcond9 t).mpr h0) (iblk9 V c 0 t) (iblk9 V c 1 t) (iblk9 V c 2 t)) := by
  obtain ⟨n, hn⟩ := t
  cases n with
  | zero => rfl
  | succ n => exact absurd h0 (Nat.succ_ne_zero n)

theorem outsAt9_B (c : Dev nD) (t : Fin cfg9.N) (h0 : ¬t.val = 0) :
    outsAt9 V c t.val t.isLt = (out9_B_3 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      out9_B_4 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      out9_B_5 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      sout9_B_0 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2,
      sout9_B_1 c (grid9.coords t) (ms9_0 t) (hs9_0 t) (ms9_1 t) (hs9_1 t) (ms9_2 t) (hs9_2 t) (ms9_3 t) (hs9_3 t) (ms9_4 t) (hs9_4 t) (ms9_5 t) (hs9_5 t) scM9_0 (Memref.isWhole_whole _) scM9_1 (Memref.isWhole_whole _) (fun h => h0 ((hcond9 t).mp h)) (iblk9 V c 0 t) (iblk9 V c 1 t) (iblk9 V c 2 t) (outsAt9 V c (t.val - 1) (Nat.lt_of_le_of_lt (Nat.sub_le _ _) t.isLt)).2.2.2.1 (outsAt9 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d)) ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

/-- The region invariant before position `n`: before the first point the class's; afterwards the two kept rows at what the
    point before left in them, the other scoped buffers at anything, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2.2.2.1) ∗ owns (c : Thread nD τ) scM9_1 fullShare ((outsAt9 V c n hn).2.2.2.2)) ∗ Pipeline.scopedRestBut (Ix := Unit) (Name := ℕ) (U := UR sig nD τ) (Lvl := ℕ) (Val := Elt F) spec9 c [cc9_scratch0, cc9_scratch1]) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(iprop(owns (c : Thread nD τ) scM9_0 fullShare ((outsAt9 V c n hn).2.2.2.1) ∗ owns (c : Thread nD τ) scM9_1 fullShare ((outsAt9 V c n hn).2.2.2.2)) ∗ Pipeline.scopedRestBut (Ix := Unit) (Name := ℕ) (U := UR sig nD τ) (Lvl := ℕ) (Val := Elt F) spec9 c [cc9_scratch0, cc9_scratch1]) ∗ (∃ r, prngReg c r)) := rfl
theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2.2.2.1) ∗ owns (c : Thread nD τ) scM9_1 fullShare ((outsAt9 V c (n - 1) (by omega)).2.2.2.2)) ∗ Pipeline.scopedRestBut (Ix := Unit) (Name := ℕ) (U := UR sig nD τ) (Lvl := ℕ) (Val := Elt F) spec9 c [cc9_scratch0, cc9_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => (outsAt9 V c t.val t.isLt).1
    | ⟨4, _⟩ => (outsAt9 V c t.val t.isLt).2.1
    | ⟨5, _⟩ => (outsAt9 V c t.val t.isLt).2.2.1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = (outsAt9 V c t.val t.isLt).1 := by dsimp only [dat9]
theorem after9_4 (c : Dev nD) (t : Fin cfg9.N) : (dat9 V c).after 4 t = (outsAt9 V c t.val t.isLt).2.1 := by dsimp only [dat9]
theorem after9_5 (c : Dev nD) (t : Fin cfg9.N) : (dat9 V c).after 5 t = (outsAt9 V c t.val t.isLt).2.2.1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t)
    ∗ owns (c : Thread nD τ) (ms9_3 t) fullShare ((dat9 V c).after 3 t)
    ∗ owns (c : Thread nD τ) (ms9_4 t) fullShare ((dat9 V c).after 4 t)
    ∗ owns (c : Thread nD τ) (ms9_5 t) fullShare ((dat9 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  rw [after9_0, after9_1, after9_2, after9_3, after9_4, after9_5]
  by_cases hz : t.val = 0
  · rw [outsAt9_A V c t hz]
    unfold out9_A_3 out9_A_4 out9_A_5 sout9_A_0 sout9_A_1; (try dsimp only)
    rw [PhiS9_castSucc V c t, PhiS9_zero V c _ _ hz, PhiA9_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun9_A c (grid9.coords t) _ _ _ _ _ _ _ _ _ _ _ _ _ _ _ _ ((hcond9 t).mpr hz) (iblk9 V c 0 t) (iblk9 V c 1 t) (iblk9 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover9_A_0 c _ _ _ _ _ _ _ _ _ _ _ _ _ _ _ _ _ _ _ _ _)
          unfold owns; iexists _; isplitr
          swap; · iexact HS1
          ipureintro; exact View.read_writes_of_cover _ _ _ _ _ (scover9_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_A_3 c _ _ _ _ _ _ _ _ _ _ _ _ _ _ _ _ _ _ _ _ _)
    isplitl [H4]
    · unfold owns; iexists _; isplitr
      swap; · iexact H4
      ipureintro; exact View.read_writes_of_cover _ _ _ _ _ (cover9_A_4 c _ _ _ _ _ _ _ _ _ _ _ _ _ _ _ _ _ _ _ _ _)
    unfold owns; iexists _; isplitr
    swap; · iexact H5
    ipureintro; exact View.read_writes_of_cover _ _ _ _ _ (cover9_A_5 c _ _ _ _ _ _ _ _ _ _ _ _ _ _ _ _ _ _ _ _ _)
  · rw [outsAt9_B V c t hz]
    unfold out9_B_3 out9_B_4 out9_B_5 sout9_B_0 sout9_B_1; (try dsimp only)
    rw [PhiS9_castSucc V c t, PhiS9_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun9_B c (grid9.coords t) _ _ _ _ _ _ _ _ _ _ _ _ _ _ _ _ (fun h => hz ((hcond9 t).mp h)) (iblk9 V c 0 t) (iblk9 V c 1 t) (iblk9 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover9_B_0 c _ _ _ _ _ _ _ _ _ _ _ _ _ _ _ _ _ _ _ _ _ _ _)
          unfold owns; iexists _; isplitr
          swap; · iexact HS1
          ipureintro; exact View.read_writes_of_cover _ _ _ _ _ (scover9_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover9_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover9_B_4 c _ _ _ _ _ _ _ _ _ _ _ _ _ _ _ _ _ _ _ _ _ _ _)
    unfold owns; iexists _; isplitr
    swap; · iexact H5
    ipureintro; exact View.read_writes_of_cover _ _ _ _ _ (cover9_B_5 c _ _ _ _ _ _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : (Pipeline.ΦA spec9 c : sProp 𝕄) ⊢ (dat9 V c).Φ 0 := by
  rw [show (dat9 V c).Φ 0 = PhiS9 V c 0 (Nat.zero_le _) from rfl, PhiS9_zero V c 0 _ rfl]
  try exact Idealize.SL.BI.Entails.refl _

/-- After the last point the invariant gives the class's back: the kept rows' named contents are forgotten. -/
theorem hout9 (c : Dev nD) : (dat9 V c).Φ (Fin.last cfg9.N) ⊢ (Pipeline.ΦA spec9 c : sProp 𝕄) := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 10 := N_9; omega), PhiA9_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq9 (c : Dev nD) (w : Fin cfg9.W) : (dat9 V c).q w = fullShare := rfl
theorem howed9 (c : Dev nD) (t : Fin (cfg9.N + 1)) : (dat9 V c).owed t = 0 := rfl

end Region9

end Cert.KernelIdeal.Reg

end
-- ==== Proof.KI.Reg10.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 10: the second half of a GIN layer, `cc10__gin2_kernel` (pipeline 10), at the entry contents `V`.
    Per point, on one block of 8000 rows: batch-normalise the hidden block with the statistics of windows 1–2 and
    the affine pair of windows 3–4, rectify, multiply by the weight (window 5) and add the bias (window 6), then
    layer-normalise each row with the affine pair of windows 7–8 and rectify. Windows 1–8 have a constant block index:
    fetched at the first point only, resident after. -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s (`hA`) and whose body leaves the block in place (`hafter`): unfetched, the block
    index has not moved. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s (`hA`) and whose body leaves the block in place (`hafter`): unfetched, the block
    index has not moved. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s (`hA`) and whose body leaves the block in place (`hafter`): unfetched, the block
    index has not moved. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s (`hA`) and whose body leaves the block in place (`hafter`): unfetched, the block
    index has not moved. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof
    data whose array is `V`'s (`hA`) and whose body leaves the block in place (`hafter`): unfetched, the block
    index has not moved. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-- Input window 5's current staging buffer holds its block at every point, fetched there or not, for any proof
    data whose array is `V`'s (`hA`) and whose body leaves the block in place (`hafter`): unfetched, the block
    index has not moved. -/
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)

/-- Input window 6's current staging buffer holds its block at every point, fetched there or not, for any proof
    data whose array is `V`'s (`hA`) and whose body leaves the block in place (`hafter`): unfetched, the block
    index has not moved. -/
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)

/-- Input window 7's current staging buffer holds its block at every point, fetched there or not, for any proof
    data whose array is `V`'s (`hA`) and whose body leaves the block in place (`hafter`): unfetched, the block
    index has not moved. -/
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- Input window 8's current staging buffer holds its block at every point, fetched there or not, for any proof
    data whose array is `V`'s (`hA`) and whose body leaves the block in place (`hafter`): unfetched, the block
    index has not moved. -/
theorem before10_8_of {c : Dev nD} (dat : Dat τ (Elt F) Unit ℕ (UR sig nD τ) ℕ cfg10 c) (hA : dat.A 8 = V c (Pipeline.arrRef spec10 8))
    (hafter : ∀ t, dat.after 8 t = iblk10 V c 8 t) (t : Fin cfg10.N) (d) : dat.before 8 t d = iblk10 V c 8 t :=
  (dat.before_in_eq_fetched 8 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each buffer is read and written whole -/

abbrev r10_0 : Rect S8000x128 := Rect.unit (s := S8000x128) ![0, 0] S8000x128.size inb_S8000x128_S8000x128_0_0
abbrev r10_1 : Rect S1x128 := Rect.unit (s := S1x128) ![0, 0] S1x128.size inb_S1x128_S1x128_0_0
abbrev r10_2 : Rect S128x64 := Rect.unit (s := S128x64) ![0, 0] S128x64.size inb_S128x64_S128x64_0_0
abbrev r10_3 : Rect S64 := Rect.unit (s := S64) ![0] S64.size inb_S64_S64_0
abbrev r10_4 : Rect S1x64 := Rect.unit (s := S1x64) ![0, 0] S1x64.size inb_S1x64_S1x64_0_0
abbrev r10_5 : Rect S8000x64 := Rect.unit (s := S8000x64) ![0, 0] S8000x64.size inb_S8000x64_S8000x64_0_0

/-! ## What the body leaves in the output window's buffer -/

/-- Window 9's staging buffer after the body, from the input windows' blocks: its one store as a piece. -/
def out10_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r10_5, k10_pay1 (k10_pay2 (View.ld x0 r10_0) (View.ld x2 r10_1) (View.ld x1 r10_1) (View.ld x3 r10_1) (View.ld x4 r10_1) (View.ld x5 r10_2) (View.ld x6 r10_3)) (k10_pay3 (View.ld x0 r10_0) (View.ld x2 r10_1) (View.ld x1 r10_1) (View.ld x3 r10_1) (View.ld x4 r10_1) (View.ld x5 r10_2) (View.ld x6 r10_3)) (View.ld x7 r10_4) (View.ld x8 r10_4)⟩]

/-- The store is of the whole buffer, so it covers it. -/
theorem cover10_9 (p0 : Vec F S8000x64 .f32) (y : S8000x64.Idx) :
    ∃ pc ∈ ([⟨r10_5, p0⟩] : List (View.Piece (Elt F) S8000x64 .f32)), y ∈ pc.1.set :=
  View.cover_of_tiled [⟨r10_5, p0⟩] S8000x64.size (by rfl) y

/-! ## The body's triple -/

set_option maxHeartbeats 1000000 in
/-- The kernel body on whole staging memrefs, the inputs' at read contents `xW` and the output's at anything, runs
    to the continuation holding the inputs' as they were and the output's at `out10_9` of the inputs'. -/
theorem sound_kernel10 (c : Dev nD) (E : Set ℕ) (i : grid10.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out10_9 x0 x1 x2 x3 x4 x5 x6 x7 x8)) -∗ K ⟨⟩))
      ⊢ wp frame (wpE (defs₀ (F := F)) Variants.none c none) E (cc10__gin2_kernel i arg1 harg1 arg2 harg2 arg3 harg3 arg4 harg4 arg5 harg5 arg6 harg6 arg7 harg7 arg8 harg8 arg9 harg9 arg10 harg10) K := by
  simp only [cc10__gin2_kernel_eq_skeleton]; unfold cc10__gin2_kernel_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover10_9 _)

/-! ## The pipeline's proof data -/

/-- The proof data of pipeline 10 on core `c`: the arrays as the region finds them (`V`); after the body at
    point `t` each input's buffer at its block and the output's at `out10_9` of the input blocks; the invariant
    leaves the scoped rest and the generator register untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => iblk10 V c 8 t
    | ⟨9, _⟩ => out10_9 (iblk10 V c 0 t) (iblk10 V c 1 t) (iblk10 V c 2 t) (iblk10 V c 3 t) (iblk10 V c 4 t) (iblk10 V c 5 t) (iblk10 V c 6 t) (iblk10 V c 7 t) (iblk10 V c 8 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = iblk10 V c 8 t := by dsimp only [dat10]
theorem after10_9 (c : Dev nD) (t : Fin cfg10.N) : (dat10 V c).after 9 t = out10_9 (iblk10 V c 0 t) (iblk10 V c 1 t) (iblk10 V c 2 t) (iblk10 V c 3 t) (iblk10 V c 4 t) (iblk10 V c 5 t) (iblk10 V c 6 t) (iblk10 V c 7 t) (iblk10 V c 8 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d
theorem before10_8 (c : Dev nD) (t : Fin cfg10.N) (d) : (dat10 V c).before 8 t d = iblk10 V c 8 t :=
  before10_8_of V (dat10 V c) (A_eq10 V c 8) (after10_8 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t))

/-- The body at any point: the inputs' memrefs hold their blocks (`before10_w`), so `sound_kernel10` applies;
    the invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7, before10_8]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel10 c Set.univ (grid10.coords t) _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) (iblk10 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Reg
-- ==== Proof.KI.Reg11.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 11: the message kernel `cc11__message_kernel` (pipeline 11), at the entry contents `V`.
    Per point, on one 8000×64 block of edges: out = max(h_row + ea, 0). -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s (`hA`) and whose body leaves the block in place (`hafter`): unfetched, the block
    index has not moved. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s (`hA`) and whose body leaves the block in place (`hafter`): unfetched, the block
    index has not moved. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each buffer is read and written whole -/

abbrev r11_0 : Rect S8000x64 := Rect.unit (s := S8000x64) ![0, 0] S8000x64.size inb_S8000x64_S8000x64_0_0

/-! ## What the body leaves in the output window's buffer -/

/-- Window 2's staging buffer after the body, from the input windows' blocks: its one store as a piece. -/
def out11_2 (x0 : Vec F S8000x64 .f32) (x1 : Vec F S8000x64 .f32) : Vec F S8000x64 .f32 :=
  View.canon [⟨r11_0, k11_pay1 (View.ld x0 r11_0) (View.ld x1 r11_0)⟩]

/-- The store is of the whole buffer, so it covers it. -/
theorem cover11_2 (p0 : Vec F S8000x64 .f32) (y : S8000x64.Idx) :
    ∃ pc ∈ ([⟨r11_0, p0⟩] : List (View.Piece (Elt F) S8000x64 .f32)), y ∈ pc.1.set :=
  View.cover_of_tiled [⟨r11_0, p0⟩] S8000x64.size (by rfl) y

/-! ## The body's triple -/

set_option maxHeartbeats 1000000 in
/-- The kernel body on whole staging memrefs, the inputs' at read contents `xW` and the output's at anything, runs
    to the continuation holding the inputs' as they were and the output's at `out11_2` of the inputs'. -/
theorem sound_kernel11 (c : Dev nD) (E : Set ℕ) (i : grid11.Coords) (arg1 : Memref sig .tc .vmem S8000x64 .f32) (harg1 : arg1.IsWhole) (arg2 : Memref sig .tc .vmem S8000x64 .f32) (harg2 : arg2.IsWhole) (arg3 : Memref sig .tc .vmem S8000x64 .f32) (harg3 : arg3.IsWhole)
    (x0 : Vec F S8000x64 .f32) (x1 : Vec F S8000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__message_kernel i arg1 harg1 arg2 harg2 arg3 harg3) K := by
  simp only [cc11__message_kernel_eq_skeleton]; unfold cc11__message_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover11_2 _)

/-! ## The pipeline's proof data -/

/-- The proof data of pipeline 11 on core `c`: the arrays as the region finds them (`V`); after the body at
    point `t` each input's buffer at its block and the output's at `out11_2` of the input blocks; the invariant
    leaves the scoped rest and the generator register untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks (`before11_w`), so `sound_kernel11` applies;
    the invariant and the core's `owes` pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ (grid11.coords t) _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Reg
-- ==== Proof.KI.Reg12.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 12: on a block of 8000 rows, Z = zin·W1 + b1, and the column sums of Z and of Z·Z added into two rows the
    kernel keeps from one block to the next (set to zero at the first block); the two rows are also copied out. -/

section Region12
variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's staging buffer holds its block at every point, fetched there or not (the weight and the bias are
    fetched once: their block index never moves). -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The branch condition of the body's one conditional, from the grid coordinates. -/
abbrev cond12 (i : grid12.Coords) : Prop := (Scalar.cmpi .ne (Scalar.extui (Scalar.cmpi .eq (BitVec.ofNat 32 (i 0).val) 0#32)) 0#32) = 1#1
/-- It holds at the first point only. -/
theorem hcond12 : ∀ t : Fin cfg12.N, cond12 (grid12.coords t) ↔ t.val = 0 :=
  (by decide +kernel : ∀ t : Fin grid12.N, cond12 (grid12.coords t) ↔ t.val = 0)

/-! ## The body's two runs -/

set_option maxHeartbeats 4000000 in
/-- The body at the FIRST grid point, on whole memrefs: the inputs at their contents, the outputs and the two kept rows at
    anything. It ends with the inputs as they were and each output and kept row with the stores the run found written. -/
noncomputable def kernelRun12_A (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc12__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc12__gin1_kernel_eq_skeleton]; unfold cc12__gin1_kernel_skel
    simp only [k12_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

set_option maxHeartbeats 4000000 in
/-- The body at a LATER grid point: the two kept rows at what the point before left. -/
noncomputable def kernelRun12_B (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    Σ' (L4 : List (View.Piece (Elt F) S8000x128 .f32)) (L5 : List (View.Piece (Elt F) S1x128 .f32)) (L6 : List (View.Piece (Elt F) S1x128 .f32)) (LS7 : List (View.Piece (Elt F) S1x128 .f32)),
      { LS8 : List (View.Piece (Elt F) S1x128 .f32) //
        ∀ (E : Set ℕ) (K : PUnit → sProp 𝕄),
          iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8
              ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8)) -∗ K ⟨⟩))
            ⊢ wp frame (wpE (defs₀ (F := F)) Variants.none c none) E (cc12__gin1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc12__gin1_kernel_eq_skeleton]; unfold cc12__gin1_kernel_skel
    simp only [k12_part1_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

/-! ## The staging memrefs the pipeline passes, and views through which the found contents are stated -/
abbrev ms12_0 (t : Fin cfg12.N) : Memref sig .tc .vmem S8000x64 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S64x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S8000x128 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S1x128 .f32 := win12_4.stage (cfg12.slots t 4)
abbrev hs12_4 (t : Fin cfg12.N) : (ms12_4 t).IsWhole := hstage12_4 ((cfg12.slots t 4).cast nbuf12_4)
abbrev ms12_5 (t : Fin cfg12.N) : Memref sig .tc .vmem S1x128 .f32 := win12_5.stage (cfg12.slots t 5)
abbrev hs12_5 (t : Fin cfg12.N) : (ms12_5 t).IsWhole := hstage12_5 ((cfg12.slots t 5).cast nbuf12_5)
abbrev VO12_3 : View sig .tc .vmem S8000x128 .f32 := (Memref.whole cc12_stg3_0 : Memref sig .tc .vmem S8000x128 .f32).view
abbrev VO12_4 : View sig .tc .vmem S1x128 .f32 := (Memref.whole cc12_stg4_0 : Memref sig .tc .vmem S1x128 .f32).view
abbrev VO12_5 : View sig .tc .vmem S1x128 .f32 := (Memref.whole cc12_stg5_0 : Memref sig .tc .vmem S1x128 .f32).view
/-- The two rows the kernel keeps between grid points: whole scoped buffers of its own. -/
abbrev scM12_0 : Memref sig .tc .vmem S1x128 .f32 := Memref.whole cc12_scratch0
abbrev scM12_1 : Memref sig .tc .vmem S1x128 .f32 := Memref.whole cc12_scratch1
abbrev VS12_0 : View sig .tc .vmem S1x128 .f32 := scM12_0.view
abbrev VS12_1 : View sig .tc .vmem S1x128 .f32 := scM12_1.view

/-! ## What each case leaves: the found stores cover each buffer, so what it reads afterwards is theirs alone -/
theorem cover12_A_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S8000x128.Idx) :
    ∃ pc ∈ (kernelRun12_A c i arg1 harg1 arg2 harg2 arg3 harg3 arg4 harg4 arg5 harg5 arg6 harg6 arg7 harg7 arg8 harg8 hc x1 x2 x3).1, y ∈ pc.1.set :=
  View.cover_of_tiledL (kernelRun12_A c i arg1 harg1 arg2 harg2 arg3 harg3 arg4 harg4 arg5 harg5 arg6 harg6 arg7 harg7 arg8 harg8 hc x1 x2 x3).1 S8000x128.size (by sl_kernel_rfl) y
def out12_A_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S8000x128 .f32 :=
  VO12_3.read (Elt F) (VO12_3.writes (Elt F) VO12_3.junk (kernelRun12_A c i arg1 harg1 arg2 harg2 arg3 harg3 arg4 harg4 arg5 harg5 arg6 harg6 arg7 harg7 arg8 harg8 hc x1 x2 x3).1)
theorem cover12_A_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.1, y ∈ pc.1.set :=
  View.cover_of_tiledL (kernelRun12_A c i arg1 harg1 arg2 harg2 arg3 harg3 arg4 harg4 arg5 harg5 arg6 harg6 arg7 harg7 arg8 harg8 hc x1 x2 x3).2.1 S1x128.size (by sl_kernel_rfl) y
def out12_A_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VO12_4.read (Elt F) (VO12_4.writes (Elt F) VO12_4.junk (kernelRun12_A c i arg1 harg1 arg2 harg2 arg3 harg3 arg4 harg4 arg5 harg5 arg6 harg6 arg7 harg7 arg8 harg8 hc x1 x2 x3).2.1)
theorem cover12_A_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.2.1, y ∈ pc.1.set :=
  View.cover_of_tiledL (kernelRun12_A c i arg1 harg1 arg2 harg2 arg3 harg3 arg4 harg4 arg5 harg5 arg6 harg6 arg7 harg7 arg8 harg8 hc x1 x2 x3).2.2.1 S1x128.size (by sl_kernel_rfl) y
def out12_A_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VO12_5.read (Elt F) (VO12_5.writes (Elt F) VO12_5.junk (kernelRun12_A c i arg1 harg1 arg2 harg2 arg3 harg3 arg4 harg4 arg5 harg5 arg6 harg6 arg7 harg7 arg8 harg8 hc x1 x2 x3).2.2.1)
theorem scover12_A_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.2.2.1, y ∈ pc.1.set :=
  View.cover_of_tiledL (kernelRun12_A c i arg1 harg1 arg2 harg2 arg3 harg3 arg4 harg4 arg5 harg5 arg6 harg6 arg7 harg7 arg8 harg8 hc x1 x2 x3).2.2.2.1 S1x128.size (by sl_kernel_rfl) y
def sout12_A_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VS12_0.read (Elt F) (VS12_0.writes (Elt F) VS12_0.junk (kernelRun12_A c i arg1 harg1 arg2 harg2 arg3 harg3 arg4 harg4 arg5 harg5 arg6 harg6 arg7 harg7 arg8 harg8 hc x1 x2 x3).2.2.2.1)
theorem scover12_A_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) (y : S1x128.Idx) :
    ∃ pc ∈ (kernelRun12_A c i arg1 harg1 arg2 harg2 arg3 harg3 arg4 harg4 arg5 harg5 arg6 harg6 arg7 harg7 arg8 harg8 hc x1 x2 x3).2.2.2.2.1, y ∈ pc.1.set :=
  View.cover_of_tiledL (kernelRun12_A c i arg1 harg1 arg2 harg2 arg3 harg3 arg4 harg4 arg5 harg5 arg6 harg6 arg7 harg7 arg8 harg8 hc x1 x2 x3).2.2.2.2.1 S1x128.size (by sl_kernel_rfl) y
def sout12_A_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) : Vec F S1x128 .f32 :=
  VS12_1.read (Elt F) (VS12_1.writes (Elt F) VS12_1.junk (kernelRun12_A c i arg1 harg1 arg2 harg2 arg3 harg3 arg4 harg4 arg5 harg5 arg6 harg6 arg7 harg7 arg8 harg8 hc x1 x2 x3).2.2.2.2.1)
theorem cover12_B_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S8000x128.Idx) :
    ∃ pc ∈ (kernelRun12_B c i arg1 harg1 arg2 harg2 arg3 harg3 arg4 harg4 arg5 harg5 arg6 harg6 arg7 harg7 arg8 harg8 hc x1 x2 x3 xs7 xs8).1, y ∈ pc.1.set :=
  View.cover_of_tiledL (kernelRun12_B c i arg1 harg1 arg2 harg2 arg3 harg3 arg4 harg4 arg5 harg5 arg6 harg6 arg7 harg7 arg8 harg8 hc x1 x2 x3 xs7 xs8).1 S8000x128.size (by sl_kernel_rfl) y
def out12_B_3 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S8000x128 .f32 :=
  VO12_3.read (Elt F) (VO12_3.writes (Elt F) VO12_3.junk (kernelRun12_B c i arg1 harg1 arg2 harg2 arg3 harg3 arg4 harg4 arg5 harg5 arg6 harg6 arg7 harg7 arg8 harg8 hc x1 x2 x3 xs7 xs8).1)
theorem cover12_B_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.1 S1x128.size (by sl_kernel_rfl) y
def out12_B_4 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VO12_4.read (Elt F) (VO12_4.writes (Elt F) VO12_4.junk (kernelRun12_B c i arg1 harg1 arg2 harg2 arg3 harg3 arg4 harg4 arg5 harg5 arg6 harg6 arg7 harg7 arg8 harg8 hc x1 x2 x3 xs7 xs8).2.1)
theorem cover12_B_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.2.1 S1x128.size (by sl_kernel_rfl) y
def out12_B_5 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VO12_5.read (Elt F) (VO12_5.writes (Elt F) VO12_5.junk (kernelRun12_B c i arg1 harg1 arg2 harg2 arg3 harg3 arg4 harg4 arg5 harg5 arg6 harg6 arg7 harg7 arg8 harg8 hc x1 x2 x3 xs7 xs8).2.2.1)
theorem scover12_B_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.2.2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.2.2.1 S1x128.size (by sl_kernel_rfl) y
def sout12_B_0 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VS12_0.read (Elt F) (VS12_0.writes (Elt F) VS12_0.junk (kernelRun12_B c i arg1 harg1 arg2 harg2 arg3 harg3 arg4 harg4 arg5 harg5 arg6 harg6 arg7 harg7 arg8 harg8 hc x1 x2 x3 xs7 xs8).2.2.2.1)
theorem scover12_B_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) (y : S1x128.Idx) :
    ∃ pc ∈ (kernelRun12_B c i arg1 harg1 arg2 harg2 arg3 harg3 arg4 harg4 arg5 harg5 arg6 harg6 arg7 harg7 arg8 harg8 hc x1 x2 x3 xs7 xs8).2.2.2.2.1, y ∈ pc.1.set :=
  View.cover_of_tiledL (kernelRun12_B c i arg1 harg1 arg2 harg2 arg3 harg3 arg4 harg4 arg5 harg5 arg6 harg6 arg7 harg7 arg8 harg8 hc x1 x2 x3 xs7 xs8).2.2.2.2.1 S1x128.size (by sl_kernel_rfl) y
def sout12_B_1 (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) : Vec F S1x128 .f32 :=
  VS12_1.read (Elt F) (VS12_1.writes (Elt F) VS12_1.junk (kernelRun12_B c i arg1 harg1 arg2 harg2 arg3 harg3 arg4 harg4 arg5 harg5 arg6 harg6 arg7 harg7 arg8 harg8 hc x1 x2 x3 xs7 xs8).2.2.2.2.1)

/-! ## What the outputs and the two kept rows hold after each point -/

/-- After the body at position `n`: (the block of Z, the two copied-out rows, the two kept rows). Position 0 is the first-point
    case; a later position is the other case run on what the position before left in the kept rows. -/
def outsAt12 (c : Dev nD) : (n : ℕ) → n < cfg12.N → Vec F S8000x128 .f32 × Vec F S1x128 .f32 × Vec F S1x128 .f32 × Vec F S1x128 .f32 × Vec F S1x128 .f32
  | 0, hn => (out12_A_3 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      out12_A_4 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      out12_A_5 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      sout12_A_0 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩),
      sout12_A_1 c (grid12.coords ⟨0, hn⟩) (ms12_0 ⟨0, hn⟩) (hs12_0 ⟨0, hn⟩) (ms12_1 ⟨0, hn⟩) (hs12_1 ⟨0, hn⟩) (ms12_2 ⟨0, hn⟩) (hs12_2 ⟨0, hn⟩) (ms12_3 ⟨0, hn⟩) (hs12_3 ⟨0, hn⟩) (ms12_4 ⟨0, hn⟩) (hs12_4 ⟨0, hn⟩) (ms12_5 ⟨0, hn⟩) (hs12_5 ⟨0, hn⟩) scM12_0 (Memref.isWhole_whole _) scM12_1 (Memref.isWhole_whole _) ((hcond12 ⟨0, hn⟩).mpr rfl) (iblk12 V c 0 ⟨0, hn⟩) (iblk12 V c 1 ⟨0, hn⟩) (iblk12 V c 2 ⟨0, hn⟩))
  | n + 1, hn => (out12_B_3 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      out12_B_4 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      out12_B_5 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      sout12_B_0 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2,
      sout12_B_1 c (grid12.coords ⟨n + 1, hn⟩) (ms12_0 ⟨n + 1, hn⟩) (hs12_0 ⟨n + 1, hn⟩) (ms12_1 ⟨n + 1, hn⟩) (hs12_1 ⟨n + 1, hn⟩) (ms12_2 ⟨n + 1, hn⟩) (hs12_2 ⟨n + 1, hn⟩) (ms12_3 ⟨n + 1, hn⟩) (hs12_3 ⟨n + 1, hn⟩) (ms12_4 ⟨n + 1, hn⟩) (hs12_4 ⟨n + 1, hn⟩) (ms12_5 ⟨n + 1, hn⟩) (hs12_5 ⟨n + 1, hn⟩) scM12_0 (Memref.isWhole_whole _) scM12_1 (Memref.isWhole_whole _) (fun h => Nat.succ_ne_zero n ((hcond12 ⟨n + 1, hn⟩).mp h)) (iblk12 V c 0 ⟨n + 1, hn⟩) (iblk12 V c 1 ⟨n + 1, hn⟩) (iblk12 V c 2 ⟨n + 1, hn⟩) (outsAt12 c n (Nat.lt_of_succ_lt hn)).2.2.2.1 (outsAt12 c n (Nat.lt_of_succ_lt hn)).2.2.2.2)

theorem outsAt12_A (c : Dev nD) (t : Fin cfg12.N) (h0 : t.val = 0) :
    outsAt12 V c t.val t.isLt = (out12_A_3 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      out12_A_4 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      out12_A_5 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      sout12_A_0 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t),
      sout12_A_1 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) ((hcond12 t).mpr h0) (iblk12 V c 0 t) (iblk12 V c 1 t) (iblk12 V c 2 t)) := by
  obtain ⟨n, hn⟩ := t
  cases n with
  | zero => rfl
  | succ n => exact absurd h0 (Nat.succ_ne_zero n)

theorem outsAt12_B (c : Dev nD) (t : Fin cfg12.N) (h0 : ¬t.val = 0) :
    outsAt12 V c t.val t.isLt = (out12_B_3 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      out12_B_4 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      out12_B_5 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      sout12_B_0 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2,
      sout12_B_1 c (grid12.coords t) (ms12_0 t) (hs12_0 t) (ms12_1 t) (hs12_1 t) (ms12_2 t) (hs12_2 t) (ms12_3 t) (hs12_3 t) (ms12_4 t) (hs12_4 t) (ms12_5 t) (hs12_5 t) scM12_0 (Memref.isWhole_whole _) scM12_1 (Memref.isWhole_whole _) (fun h => h0 ((hcond12 t).mp h)) (iblk12 V c 0 t) (iblk12 V c 1 t) (iblk12 V c 2 t) (outsAt12 V c (t.val - 1) (Nat.lt_of_le_of_lt (Nat.sub_le _ _) t.isLt)).2.2.2.1 (outsAt12 V c (t.val - 1) (Nat.lt_of_le_of_lt (Nat.sub_le _ _) t.isLt)).2.2.2.2) := by
  obtain ⟨n, hn⟩ := t
  cases n with
  | zero => exact absurd rfl h0
  | succ n => rfl

/-- The class invariant with the two kept rows taken out of the scoped rest. -/
theorem PhiA12_eq (c : Dev nD) :
    (Pipeline.ΦA spec12 c : sProp 𝕄)
      = iprop(iprop(iprop((∃ d, owns (c : Thread nD τ) scM12_0 fullShare d) ∗ (∃ d, owns (c : Thread nD τ) scM12_1 fullShare d)) ∗ Pipeline.scopedRestBut (Ix := Unit) (Name := ℕ) (U := UR sig nD τ) (Lvl := ℕ) (Val := Elt F) spec12 c [cc12_scratch0, cc12_scratch1]) ∗ (∃ r, prngReg c r)) := by
  unfold Pipeline.ΦA; rw [scopedRest12_split]; simp only [scM12_0, scM12_1, owns_whole]; try rfl

/-- The region invariant before position `n`: before the first point the class's; afterwards the two kept rows at what the
    point before left in them, the other scoped buffers at anything, the generator register at some state. -/
def PhiS12 (c : Dev nD) : (n : ℕ) → n ≤ cfg12.N → sProp 𝕄
  | 0, _ => Pipeline.ΦA spec12 c
  | n + 1, hn => iprop(iprop(iprop(owns (c : Thread nD τ) scM12_0 fullShare ((outsAt12 V c n hn).2.2.2.1) ∗ owns (c : Thread nD τ) scM12_1 fullShare ((outsAt12 V c n hn).2.2.2.2)) ∗ Pipeline.scopedRestBut (Ix := Unit) (Name := ℕ) (U := UR sig nD τ) (Lvl := ℕ) (Val := Elt F) spec12 c [cc12_scratch0, cc12_scratch1]) ∗ (∃ r, prngReg c r))

theorem PhiS12_zero (c : Dev nD) (n : ℕ) (h : n ≤ cfg12.N) (hz : n = 0) : PhiS12 V c n h = Pipeline.ΦA spec12 c := by
  subst hz; rfl
theorem PhiS12_succ (c : Dev nD) (n : ℕ) (hn : n < cfg12.N) :
    PhiS12 V c (n + 1) hn = iprop(iprop(iprop(owns (c : Thread nD τ) scM12_0 fullShare ((outsAt12 V c n hn).2.2.2.1) ∗ owns (c : Thread nD τ) scM12_1 fullShare ((outsAt12 V c n hn).2.2.2.2)) ∗ Pipeline.scopedRestBut (Ix := Unit) (Name := ℕ) (U := UR sig nD τ) (Lvl := ℕ) (Val := Elt F) spec12 c [cc12_scratch0, cc12_scratch1]) ∗ (∃ r, prngReg c r)) := rfl
theorem PhiS12_pos (c : Dev nD) (n : ℕ) (h : n ≤ cfg12.N) (hz : n ≠ 0) :
    PhiS12 V c n h = iprop(iprop(iprop(owns (c : Thread nD τ) scM12_0 fullShare ((outsAt12 V c (n - 1) (by omega)).2.2.2.1) ∗ owns (c : Thread nD τ) scM12_1 fullShare ((outsAt12 V c (n - 1) (by omega)).2.2.2.2)) ∗ Pipeline.scopedRestBut (Ix := Unit) (Name := ℕ) (U := UR sig nD τ) (Lvl := ℕ) (Val := Elt F) spec12 c [cc12_scratch0, cc12_scratch1]) ∗ (∃ r, prngReg c r)) := by
  cases n with
  | zero => exact absurd rfl hz
  | succ n => rfl

/-! ## The proof data -/

/-- The arrays as the region finds them; after the body at a point each input's buffer at its block, the outputs' at what
    the point's case leaves; the invariant above; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => (outsAt12 V c t.val t.isLt).1
    | ⟨4, _⟩ => (outsAt12 V c t.val t.isLt).2.1
    | ⟨5, _⟩ => (outsAt12 V c t.val t.isLt).2.2.1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]
theorem PhiS12_castSucc (c : Dev nD) (t : Fin cfg12.N) :
    (dat12 V c).Φ t.castSucc = PhiS12 V c t.val (Nat.le_of_lt t.isLt) := by
  dsimp only [dat12]; simp only [Fin.coe_castSucc]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = (outsAt12 V c t.val t.isLt).1 := by dsimp only [dat12]
theorem after12_4 (c : Dev nD) (t : Fin cfg12.N) : (dat12 V c).after 4 t = (outsAt12 V c t.val t.isLt).2.1 := by dsimp only [dat12]
theorem after12_5 (c : Dev nD) (t : Fin cfg12.N) : (dat12 V c).after 5 t = (outsAt12 V c t.val t.isLt).2.2.1 := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d))
    ∗ (∃ d, owns (c : Thread nD τ) (ms12_5 t) fullShare ((dat12 V c).before 5 t d)))

def bodyPost12 (c : Dev nD) (t : Fin cfg12.N) : sProp 𝕄 :=
  iprop((dat12 V c).Φ t.succ ∗ (dat12 V c).owesAt () t.succ
    ∗ owns (c : Thread nD τ) (ms12_0 t) fullShare ((dat12 V c).after 0 t)
    ∗ owns (c : Thread nD τ) (ms12_1 t) fullShare ((dat12 V c).after 1 t)
    ∗ owns (c : Thread nD τ) (ms12_2 t) fullShare ((dat12 V c).after 2 t)
    ∗ owns (c : Thread nD τ) (ms12_3 t) fullShare ((dat12 V c).after 3 t)
    ∗ owns (c : Thread nD τ) (ms12_4 t) fullShare ((dat12 V c).after 4 t)
    ∗ owns (c : Thread nD τ) (ms12_5 t) fullShare ((dat12 V c).after 5 t))

set_option maxHeartbeats 4800000 in
/-- The body at any point: the inputs' memrefs hold their blocks; the point is the first or a later one; the invariant hands the
    body the two kept rows (at anything at the first point, at what the point before left afterwards) and takes them back at
    this point's contents; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  rw [after12_0, after12_1, after12_2, after12_3, after12_4, after12_5]
  by_cases hz : t.val = 0
  · rw [outsAt12_A V c t hz]
    unfold out12_A_3 out12_A_4 out12_A_5 sout12_A_0 sout12_A_1; (try dsimp only)
    rw [PhiS12_castSucc V c t, PhiS12_zero V c _ _ hz, PhiA12_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun12_A c (grid12.coords t) _ _ _ _ _ _ _ _ _ _ _ _ _ _ _ _ ((hcond12 t).mpr hz) (iblk12 V c 0 t) (iblk12 V c 1 t) (iblk12 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover12_A_0 c _ _ _ _ _ _ _ _ _ _ _ _ _ _ _ _ _ _ _ _ _)
          unfold owns; iexists _; isplitr
          swap; · iexact HS1
          ipureintro; exact View.read_writes_of_cover _ _ _ _ _ (scover12_A_1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover12_A_3 c _ _ _ _ _ _ _ _ _ _ _ _ _ _ _ _ _ _ _ _ _)
    isplitl [H4]
    · unfold owns; iexists _; isplitr
      swap; · iexact H4
      ipureintro; exact View.read_writes_of_cover _ _ _ _ _ (cover12_A_4 c _ _ _ _ _ _ _ _ _ _ _ _ _ _ _ _ _ _ _ _ _)
    unfold owns; iexists _; isplitr
    swap; · iexact H5
    ipureintro; exact View.read_writes_of_cover _ _ _ _ _ (cover12_A_5 c _ _ _ _ _ _ _ _ _ _ _ _ _ _ _ _ _ _ _ _ _)
  · rw [outsAt12_B V c t hz]
    unfold out12_B_3 out12_B_4 out12_B_5 sout12_B_0 sout12_B_1; (try dsimp only)
    rw [PhiS12_castSucc V c t, PhiS12_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun12_B c (grid12.coords t) _ _ _ _ _ _ _ _ _ _ _ _ _ _ _ _ (fun h => hz ((hcond12 t).mp h)) (iblk12 V c 0 t) (iblk12 V c 1 t) (iblk12 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover12_B_0 c _ _ _ _ _ _ _ _ _ _ _ _ _ _ _ _ _ _ _ _ _ _ _)
          unfold owns; iexists _; isplitr
          swap; · iexact HS1
          ipureintro; exact View.read_writes_of_cover _ _ _ _ _ (scover12_B_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover12_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover12_B_4 c _ _ _ _ _ _ _ _ _ _ _ _ _ _ _ _ _ _ _ _ _ _ _)
    unfold owns; iexists _; isplitr
    swap; · iexact H5
    ipureintro; exact View.read_writes_of_cover _ _ _ _ _ (cover12_B_5 c _ _ _ _ _ _ _ _ _ _ _ _ _ _ _ _ _ _ _ _ _ _ _)

/-- The library's body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem hin12 (c : Dev nD) : (Pipeline.ΦA spec12 c : sProp 𝕄) ⊢ (dat12 V c).Φ 0 := by
  rw [show (dat12 V c).Φ 0 = PhiS12 V c 0 (Nat.zero_le _) from rfl, PhiS12_zero V c 0 _ rfl]
  try exact Idealize.SL.BI.Entails.refl _

/-- After the last point the invariant gives the class's back: the kept rows' named contents are forgotten. -/
theorem hout12 (c : Dev nD) : (dat12 V c).Φ (Fin.last cfg12.N) ⊢ (Pipeline.ΦA spec12 c : sProp 𝕄) := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 10 := N_12; omega), PhiA12_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

theorem hq12 (c : Dev nD) (w : Fin cfg12.W) : (dat12 V c).q w = fullShare := rfl
theorem howed12 (c : Dev nD) (t : Fin (cfg12.N + 1)) : (dat12 V c).owed t = 0 := rfl

end Region12

end Cert.KernelIdeal.Reg

end
-- ==== Proof.KI.Reg13.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the elaborator's structural look recurses once per
-- coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 13: the second half of a GIN layer, `cc13__gin2_kernel` (pipeline 13), at the entry contents `V`.
    Per point, on one block of 8000 rows: batch-normalise the hidden block with the statistics of windows 1–2 and
    the affine pair of windows 3–4, rectify, multiply by the weight (window 5) and add the bias (window 6), then
    layer-normalise each row with the affine pair of windows 7–8 (no final rectifier). Windows 1–8 have a constant block index:
    fetched at the first point only, resident after. -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof
    data whose array is `V`'s (`hA`) and whose body leaves the block in place (`hafter`): unfetched, the block
    index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not, for any proof
    data whose array is `V`'s (`hA`) and whose body leaves the block in place (`hafter`): unfetched, the block
    index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not, for any proof
    data whose array is `V`'s (`hA`) and whose body leaves the block in place (`hafter`): unfetched, the block
    index has not moved. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not, for any proof
    data whose array is `V`'s (`hA`) and whose body leaves the block in place (`hafter`): unfetched, the block
    index has not moved. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not, for any proof
    data whose array is `V`'s (`hA`) and whose body leaves the block in place (`hafter`): unfetched, the block
    index has not moved. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not, for any proof
    data whose array is `V`'s (`hA`) and whose body leaves the block in place (`hafter`): unfetched, the block
    index has not moved. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-- Input window 6's current staging buffer holds its block at every point, fetched there or not, for any proof
    data whose array is `V`'s (`hA`) and whose body leaves the block in place (`hafter`): unfetched, the block
    index has not moved. -/
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)

/-- Input window 7's current staging buffer holds its block at every point, fetched there or not, for any proof
    data whose array is `V`'s (`hA`) and whose body leaves the block in place (`hafter`): unfetched, the block
    index has not moved. -/
theorem before13_7_of {c : Dev nD} (dat : Dat τ (Elt F) Unit ℕ (UR sig nD τ) ℕ cfg13 c) (hA : dat.A 7 = V c (Pipeline.arrRef spec13 7))
    (hafter : ∀ t, dat.after 7 t = iblk13 V c 7 t) (t : Fin cfg13.N) (d) : dat.before 7 t d = iblk13 V c 7 t :=
  (dat.before_in_eq_fetched 7 rfl (fun _ => rfl) (fun _ _ _ => rfl) (fun t => by rw [hafter]; unfold Dat.blockOf iblk13; rw [hA]; try rfl) t d).trans
    (by unfold Dat.fetched Dat.blockOf iblk13; rw [hA]; try rfl)

/-- Input window 8's current staging buffer holds its block at every point, fetched there or not, for any proof
    data whose array is `V`'s (`hA`) and whose body leaves the block in place (`hafter`): unfetched, the block
    index has not moved. -/
theorem before13_8_of {c : Dev nD} (dat : Dat τ (Elt F) Unit ℕ (UR sig nD τ) ℕ cfg13 c) (hA : dat.A 8 = V c (Pipeline.arrRef spec13 8))
    (hafter : ∀ t, dat.after 8 t = iblk13 V c 8 t) (t : Fin cfg13.N) (d) : dat.before 8 t d = iblk13 V c 8 t :=
  (dat.before_in_eq_fetched 8 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses: each buffer is read and written whole -/

abbrev r13_0 : Rect S8000x128 := Rect.unit (s := S8000x128) ![0, 0] S8000x128.size inb_S8000x128_S8000x128_0_0
abbrev r13_1 : Rect S1x128 := Rect.unit (s := S1x128) ![0, 0] S1x128.size inb_S1x128_S1x128_0_0
abbrev r13_2 : Rect S128x64 := Rect.unit (s := S128x64) ![0, 0] S128x64.size inb_S128x64_S128x64_0_0
abbrev r13_3 : Rect S64 := Rect.unit (s := S64) ![0] S64.size inb_S64_S64_0
abbrev r13_4 : Rect S1x64 := Rect.unit (s := S1x64) ![0, 0] S1x64.size inb_S1x64_S1x64_0_0
abbrev r13_5 : Rect S8000x64 := Rect.unit (s := S8000x64) ![0, 0] S8000x64.size inb_S8000x64_S8000x64_0_0

/-! ## What the body leaves in the output window's buffer -/

/-- Window 9's staging buffer after the body, from the input windows' blocks: its one store as a piece. -/
def out13_9 (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) : Vec F S8000x64 .f32 :=
  View.canon [⟨r13_5, k13_pay1 (k13_pay2 (View.ld x0 r13_0) (View.ld x2 r13_1) (View.ld x1 r13_1) (View.ld x3 r13_1) (View.ld x4 r13_1) (View.ld x5 r13_2) (View.ld x6 r13_3)) (k13_pay3 (View.ld x0 r13_0) (View.ld x2 r13_1) (View.ld x1 r13_1) (View.ld x3 r13_1) (View.ld x4 r13_1) (View.ld x5 r13_2) (View.ld x6 r13_3)) (View.ld x7 r13_4) (View.ld x8 r13_4)⟩]

/-- The store is of the whole buffer, so it covers it. -/
theorem cover13_9 (p0 : Vec F S8000x64 .f32) (y : S8000x64.Idx) :
    ∃ pc ∈ ([⟨r13_5, p0⟩] : List (View.Piece (Elt F) S8000x64 .f32)), y ∈ pc.1.set :=
  View.cover_of_tiled [⟨r13_5, p0⟩] S8000x64.size (by rfl) y

/-! ## The body's triple -/

set_option maxHeartbeats 1000000 in
/-- The kernel body on whole staging memrefs, the inputs' at read contents `xW` and the output's at anything, runs
    to the continuation holding the inputs' as they were and the output's at `out13_9` of the inputs'. -/
theorem sound_kernel13 (c : Dev nD) (E : Set ℕ) (i : grid13.Coords) (arg1 : Memref sig .tc .vmem S8000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S8000x64 .f32) (harg10 : arg10.IsWhole)
    (x0 : Vec F S8000x128 .f32) (x1 : Vec F S1x128 .f32) (x2 : Vec F S1x128 .f32) (x3 : Vec F S1x128 .f32) (x4 : Vec F S1x128 .f32) (x5 : Vec F S128x64 .f32) (x6 : Vec F S64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out13_9 x0 x1 x2 x3 x4 x5 x6 x7 x8)) -∗ K ⟨⟩))
      ⊢ wp frame (wpE (defs₀ (F := F)) Variants.none c none) E (cc13__gin2_kernel i arg1 harg1 arg2 harg2 arg3 harg3 arg4 harg4 arg5 harg5 arg6 harg6 arg7 harg7 arg8 harg8 arg9 harg9 arg10 harg10) K := by
  simp only [cc13__gin2_kernel_eq_skeleton]; unfold cc13__gin2_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover13_9 _)

/-! ## The pipeline's proof data -/

/-- The proof data of pipeline 13 on core `c`: the arrays as the region finds them (`V`); after the body at
    point `t` each input's buffer at its block and the output's at `out13_9` of the input blocks; the invariant
    leaves the scoped rest and the generator register untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => iblk13 V c 7 t
    | ⟨8, _⟩ => iblk13 V c 8 t
    | ⟨9, _⟩ => out13_9 (iblk13 V c 0 t) (iblk13 V c 1 t) (iblk13 V c 2 t) (iblk13 V c 3 t) (iblk13 V c 4 t) (iblk13 V c 5 t) (iblk13 V c 6 t) (iblk13 V c 7 t) (iblk13 V c 8 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = iblk13 V c 7 t := by dsimp only [dat13]
theorem after13_8 (c : Dev nD) (t : Fin cfg13.N) : (dat13 V c).after 8 t = iblk13 V c 8 t := by dsimp only [dat13]
theorem after13_9 (c : Dev nD) (t : Fin cfg13.N) : (dat13 V c).after 9 t = out13_9 (iblk13 V c 0 t) (iblk13 V c 1 t) (iblk13 V c 2 t) (iblk13 V c 3 t) (iblk13 V c 4 t) (iblk13 V c 5 t) (iblk13 V c 6 t) (iblk13 V c 7 t) (iblk13 V c 8 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d
theorem before13_7 (c : Dev nD) (t : Fin cfg13.N) (d) : (dat13 V c).before 7 t d = iblk13 V c 7 t :=
  before13_7_of V (dat13 V c) (A_eq13 V c 7) (after13_7 V c) t d
theorem before13_8 (c : Dev nD) (t : Fin cfg13.N) (d) : (dat13 V c).before 8 t d = iblk13 V c 8 t :=
  before13_8_of V (dat13 V c) (A_eq13 V c 8) (after13_8 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d))
    ∗ (∃ d, owns (c : Thread nD τ) (st13_9 t) fullShare ((dat13 V c).before 9 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t)
    ∗ owns (c : Thread nD τ) (st13_9 t) fullShare ((dat13 V c).after 9 t))

/-- The body at any point: the inputs' memrefs hold their blocks (`before13_w`), so `sound_kernel13` applies;
    the invariant and the core's `owes` pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6, before13_7, before13_8]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel13 c Set.univ (grid13.coords t) _ _ _ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) (iblk13 V c 7 t) (iblk13 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Reg
-- ==== Proof.KI.RunInst.lean ====
import proofs.«178590_j59433757442359_2_alg».proof.Proof.KI.Run
import proofs.«178590_j59433757442359_2_alg».proof.Proof.KI.Reg0
import proofs.«178590_j59433757442359_2_alg».proof.Proof.KI.Reg1
import proofs.«178590_j59433757442359_2_alg».proof.Proof.KI.Reg2
import proofs.«178590_j59433757442359_2_alg».proof.Proof.KI.Reg3
import proofs.«178590_j59433757442359_2_alg».proof.Proof.KI.Reg4
import proofs.«178590_j59433757442359_2_alg».proof.Proof.KI.Reg5
import proofs.«178590_j59433757442359_2_alg».proof.Proof.KI.Reg6
import proofs.«178590_j59433757442359_2_alg».proof.Proof.KI.Reg7
import proofs.«178590_j59433757442359_2_alg».proof.Proof.KI.Reg8
import proofs.«178590_j59433757442359_2_alg».proof.Proof.KI.Reg9
import proofs.«178590_j59433757442359_2_alg».proof.Proof.KI.Reg10
import proofs.«178590_j59433757442359_2_alg».proof.Proof.KI.Reg11
import proofs.«178590_j59433757442359_2_alg».proof.Proof.KI.Reg12
import proofs.«178590_j59433757442359_2_alg».proof.Proof.KI.Reg13

-- decided memberships over the program's 358 references recurse past the default depth
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run at the regions' proof data -/

/-- Every region's proof data: a region of the plain class keeps the class's invariant at every point (full shares,
    nothing owed, by definition); a region that carries two scratch rows between points enters and leaves it by its
    own two entailments. -/
def D : Data F where
  r0 := ⟨dat0, A_eq0, body_obligation0, fun _ _ _ => rfl, fun _ _ _ => rfl, fun _ _ => .rfl, fun _ _ => .rfl, fun _ _ => rfl⟩
  r1 := ⟨dat1, A_eq1, body_obligation1, fun _ _ _ => rfl, fun _ _ _ => rfl, fun _ _ => .rfl, fun _ _ => .rfl, fun _ _ => rfl⟩
  r2 := ⟨dat2, A_eq2, body_obligation2, fun _ _ _ => rfl, fun _ _ _ => rfl, fun _ _ => .rfl, fun _ _ => .rfl, fun _ _ => rfl⟩
  r3 := ⟨dat3, A_eq3, body_obligation3, hq3, howed3, hin3, hout3, fun _ _ => rfl⟩
  r4 := ⟨dat4, A_eq4, body_obligation4, fun _ _ _ => rfl, fun _ _ _ => rfl, fun _ _ => .rfl, fun _ _ => .rfl, fun _ _ => rfl⟩
  r5 := ⟨dat5, A_eq5, body_obligation5, fun _ _ _ => rfl, fun _ _ _ => rfl, fun _ _ => .rfl, fun _ _ => .rfl, fun _ _ => rfl⟩
  r6 := ⟨dat6, A_eq6, body_obligation6, hq6, howed6, hin6, hout6, fun _ _ => rfl⟩
  r7 := ⟨dat7, A_eq7, body_obligation7, fun _ _ _ => rfl, fun _ _ _ => rfl, fun _ _ => .rfl, fun _ _ => .rfl, fun _ _ => rfl⟩
  r8 := ⟨dat8, A_eq8, body_obligation8, fun _ _ _ => rfl, fun _ _ _ => rfl, fun _ _ => .rfl, fun _ _ => .rfl, fun _ _ => rfl⟩
  r9 := ⟨dat9, A_eq9, body_obligation9, hq9, howed9, hin9, hout9, fun _ _ => rfl⟩
  r10 := ⟨dat10, A_eq10, body_obligation10, fun _ _ _ => rfl, fun _ _ _ => rfl, fun _ _ => .rfl, fun _ _ => .rfl, fun _ _ => rfl⟩
  r11 := ⟨dat11, A_eq11, body_obligation11, fun _ _ _ => rfl, fun _ _ _ => rfl, fun _ _ => .rfl, fun _ _ => .rfl, fun _ _ => rfl⟩
  r12 := ⟨dat12, A_eq12, body_obligation12, hq12, howed12, hin12, hout12, fun _ _ => rfl⟩
  r13 := ⟨dat13, A_eq13, body_obligation13, fun _ _ _ => rfl, fun _ _ _ => rfl, fun _ _ => .rfl, fun _ _ => .rfl, fun _ _ => rfl⟩

variable (m : (ℓ : Loc nD τ sig) → Buf (Elt F) ℓ)

/-- THE RUN at the regions' proof data: every weakly fair execution of @main terminates and every final state holds
    every unscoped buffer at the last boundary's contents. -/
theorem run_all_D (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W26 (D (F := F)) m c b) :=
  run_all D m ρ

/-- THE FRAME at the regions' proof data. -/
theorem frame_D (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame D m ρ

/-- The run's result at the regions' proof data. -/
theorem run_result_D (ρ : Dev nD → PrngReg) : θ_run defs (onTc (τ := τ) (main (F := F))) ⟨m, fun _ => 0, ρ⟩ (fun r => ∀ c : Dev nD,
      r.2.mem ((c.tc : Thread nD τ).loc main_v185) = W26 (D (F := F)) m c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_result D m ρ

/-- The program's result is region 13's output window as its write-backs leave it. -/
theorem W26_result_D (c : Dev nD) :
    W26 (D (F := F)) m c (Proc.devRef .tc main_v185) = (dat13 (V25 (D (F := F)) m) c).arrAt 9 cfg13.N :=
  W26_result D m c

theorem W26_main_arg0_D (c : Dev nD) : W26 (D (F := F)) m c (Proc.devRef .tc main_arg0) = m ((c : Thread nD τ).loc main_arg0) :=
  W26_main_arg0 D m c
theorem W26_main_arg1_D (c : Dev nD) : W26 (D (F := F)) m c (Proc.devRef .tc main_arg1) = m ((c : Thread nD τ).loc main_arg1) :=
  W26_main_arg1 D m c
theorem W26_main_arg2_D (c : Dev nD) : W26 (D (F := F)) m c (Proc.devRef .tc main_arg2) = m ((c : Thread nD τ).loc main_arg2) :=
  W26_main_arg2 D m c
theorem W26_main_arg3_D (c : Dev nD) : W26 (D (F := F)) m c (Proc.devRef .tc main_arg3) = m ((c : Thread nD τ).loc main_arg3) :=
  W26_main_arg3 D m c
theorem W26_main_arg4_D (c : Dev nD) : W26 (D (F := F)) m c (Proc.devRef .tc main_arg4) = m ((c : Thread nD τ).loc main_arg4) :=
  W26_main_arg4 D m c
theorem W26_main_arg5_D (c : Dev nD) : W26 (D (F := F)) m c (Proc.devRef .tc main_arg5) = m ((c : Thread nD τ).loc main_arg5) :=
  W26_main_arg5 D m c
theorem W26_main_arg6_D (c : Dev nD) : W26 (D (F := F)) m c (Proc.devRef .tc main_arg6) = m ((c : Thread nD τ).loc main_arg6) :=
  W26_main_arg6 D m c
theorem W26_main_arg7_D (c : Dev nD) : W26 (D (F := F)) m c (Proc.devRef .tc main_arg7) = m ((c : Thread nD τ).loc main_arg7) :=
  W26_main_arg7 D m c
theorem W26_main_arg8_D (c : Dev nD) : W26 (D (F := F)) m c (Proc.devRef .tc main_arg8) = m ((c : Thread nD τ).loc main_arg8) :=
  W26_main_arg8 D m c
theorem W26_main_arg9_D (c : Dev nD) : W26 (D (F := F)) m c (Proc.devRef .tc main_arg9) = m ((c : Thread nD τ).loc main_arg9) :=
  W26_main_arg9 D m c
theorem W26_main_arg10_D (c : Dev nD) : W26 (D (F := F)) m c (Proc.devRef .tc main_arg10) = m ((c : Thread nD τ).loc main_arg10) :=
  W26_main_arg10 D m c
theorem W26_main_arg11_D (c : Dev nD) : W26 (D (F := F)) m c (Proc.devRef .tc main_arg11) = m ((c : Thread nD τ).loc main_arg11) :=
  W26_main_arg11 D m c
theorem W26_main_arg12_D (c : Dev nD) : W26 (D (F := F)) m c (Proc.devRef .tc main_arg12) = m ((c : Thread nD τ).loc main_arg12) :=
  W26_main_arg12 D m c
theorem W26_main_arg13_D (c : Dev nD) : W26 (D (F := F)) m c (Proc.devRef .tc main_arg13) = m ((c : Thread nD τ).loc main_arg13) :=
  W26_main_arg13 D m c
theorem W26_main_arg14_D (c : Dev nD) : W26 (D (F := F)) m c (Proc.devRef .tc main_arg14) = m ((c : Thread nD τ).loc main_arg14) :=
  W26_main_arg14 D m c
theorem W26_main_arg15_D (c : Dev nD) : W26 (D (F := F)) m c (Proc.devRef .tc main_arg15) = m ((c : Thread nD τ).loc main_arg15) :=
  W26_main_arg15 D m c

end Cert.KernelIdeal.Reg

end
-- ==== Proof.RefRunOps0.lean ====
/-
  The reference program's statements 1 … 60 of 386 (its window `main_part0`) as a LIST of 87 host operations.
  A statement that is an operation is the list's entry as printed; a statement that calls a module-local function
  (`fn_relu`, `fn_relu_0`, `fn_var`) is the callee's operations in order, each over the buffers the
  call's record gives the callee's values and over the call's operand buffers for its arguments — a call means its
  callee's body, substituted. A callee's operation is printed over typed references; at a literal reference the typed
  builder is the plain one (its two conversions are the identity), and the list states the plain one.
  `main_part0_eq`: the window is that straight line. `ops0_sub`: every operation touches TensorCore buffers only.
  `ops0_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60: 87 operations, in order. -/
abbrev ops0 : List (HloOp τ sig (Elt F)) :=
  [ StableHlo.binary main_arg0 main_arg3 main_v0 ((fun l r => Host.dotGeneral dot_S80000x32_S32x64_S80000x64_1_0_0_1_n_n none l r) : (⟨S80000x32, .f32⟩ : BufTy).Contents (Elt F) → (⟨S32x64, .f32⟩ : BufTy).Contents (Elt F) → (⟨S80000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S80000x64 ![0, 1] bcast_S1x64_S80000x64_0_1 : (⟨S1x64, .f32⟩ : BufTy).Contents (Elt F) → (⟨S80000x64, .f32⟩ : BufTy).Contents (Elt F)),
    StableHlo.binary main_v0 main_v2 main_v3 (addf : (⟨S80000x64, .f32⟩ : BufTy).Contents (Elt F) → (⟨S80000x64, .f32⟩ : BufTy).Contents (Elt F) → (⟨S80000x64, .f32⟩ : BufTy).Contents (Elt F)),
    StableHlo.nullary main_call0_cst (constant S_ .f32 0x00000000#32),
    StableHlo.unary main_call0_cst main_call0_v0 (broadcastInDim S80000x64 ![] bcast_S_S80000x64 : (⟨S_, .f32⟩ : BufTy).Contents (Elt F) → (⟨S80000x64, .f32⟩ : BufTy).Contents (Elt F)),
    StableHlo.binary main_v3 main_call0_v0 main_v4 (maximumf : (⟨S80000x64, .f32⟩ : BufTy).Contents (Elt F) → (⟨S80000x64, .f32⟩ : BufTy).Contents (Elt F) → (⟨S80000x64, .f32⟩ : BufTy).Contents (Elt F)),
    StableHlo.binary main_arg2 main_arg5 main_v5 ((fun l r => Host.dotGeneral dot_S1280000x16_S16x64_S1280000x64_1_0_0_1_n_n none l r) : (⟨S1280000x16, .f32⟩ : BufTy).Contents (Elt F) → (⟨S16x64, .f32⟩ : BufTy).Contents (Elt F) → (⟨S1280000x64, .f32⟩ : BufTy).Contents (Elt F)),
    StableHlo.unary main_arg6 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S1280000x64 ![0, 1] bcast_S1x64_S1280000x64_0_1 : (⟨S1x64, .f32⟩ : BufTy).Contents (Elt F) → (⟨S1280000x64, .f32⟩ : BufTy).Contents (Elt F)),
    StableHlo.binary main_v5 main_v7 main_v8 (addf : (⟨S1280000x64, .f32⟩ : BufTy).Contents (Elt F) → (⟨S1280000x64, .f32⟩ : BufTy).Contents (Elt F) → (⟨S1280000x64, .f32⟩ : BufTy).Contents (Elt F)),
    StableHlo.nullary main_call1_cst (constant S_ .f32 0x00000000#32),
    StableHlo.unary main_call1_cst main_call1_v0 (broadcastInDim S1280000x64 ![] bcast_S_S1280000x64 : (⟨S_, .f32⟩ : BufTy).Contents (Elt F) → (⟨S1280000x64, .f32⟩ : BufTy).Contents (Elt F)),
    StableHlo.binary main_v8 main_call1_v0 main_v9 (maximumf : (⟨S1280000x64, .f32⟩ : BufTy).Contents (Elt F) → (⟨S1280000x64, .f32⟩ : BufTy).Contents (Elt F) → (⟨S1280000x64, .f32⟩ : BufTy).Contents (Elt F)),
    StableHlo.unary main_arg1 main_v10 ((extractStridedSlice S1x1280000 ![0, 0] · slices_S2x1280000_S1x1280000_0_0) : (⟨S2x1280000, .i32⟩ : BufTy).Contents (Elt F) → (⟨S1x1280000, .i32⟩ : BufTy).Contents (Elt F)),
    StableHlo.reshape main_v10 main_v11 rfl shapeCasts_S1x1280000_S1280000,
    StableHlo.unary main_arg1 main_v12 ((extractStridedSlice S1x1280000 ![1, 0] · slices_S2x1280000_S1x1280000_1_0) : (⟨S2x1280000, .i32⟩ : BufTy).Contents (Elt F) → (⟨S1x1280000, .i32⟩ : BufTy).Contents (Elt F)),
    StableHlo.reshape main_v12 main_v13 rfl shapeCasts_S1x1280000_S1280000,
    StableHlo.nullary main_c (constantI S_ 32 0#32),
    StableHlo.unary main_c main_v14 (broadcastInDim S1280000 ![] bcast_S_S1280000 : (⟨S_, .i32⟩ : BufTy).Contents (Elt F) → (⟨S1280000, .i32⟩ : BufTy).Contents (Elt F)),
    StableHlo.binary main_v11 main_v14 main_v15 (cmpi .slt : (⟨S1280000, .i32⟩ : BufTy).Contents (Elt F) → (⟨S1280000, .i32⟩ : BufTy).Contents (Elt F) → (⟨S1280000, .i1⟩ : BufTy).Contents (Elt F)),
    StableHlo.nullary main_c_0 (constantI S_ 32 80000#32),
    StableHlo.unary main_c_0 main_v16 (broadcastInDim S1280000 ![] bcast_S_S1280000 : (⟨S_, .i32⟩ : BufTy).Contents (Elt F) → (⟨S1280000, .i32⟩ : BufTy).Contents (Elt F)),
    StableHlo.binary main_v11 main_v16 main_v17 (addi : (⟨S1280000, .i32⟩ : BufTy).Contents (Elt F) → (⟨S1280000, .i32⟩ : BufTy).Contents (Elt F) → (⟨S1280000, .i32⟩ : BufTy).Contents (Elt F)),
    StableHlo.ternary main_v15 main_v17 main_v11 main_v18 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v18 main_v19 (broadcastInDim S1280000x1 ![0] bcast_S1280000_S1280000x1_0 : (⟨S1280000, .i32⟩ : BufTy).Contents (Elt F) → (⟨S1280000x1, .i32⟩ : BufTy).Contents (Elt F)),
    StableHlo.binary main_v4 main_v19 main_v20 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v20 main_v9 main_v21 (addf : (⟨S1280000x64, .f32⟩ : BufTy).Contents (Elt F) → (⟨S1280000x64, .f32⟩ : BufTy).Contents (Elt F) → (⟨S1280000x64, .f32⟩ : BufTy).Contents (Elt F)),
    StableHlo.nullary main_call2_cst (constant S_ .f32 0x00000000#32),
    StableHlo.unary main_call2_cst main_call2_v0 (broadcastInDim S1280000x64 ![] bcast_S_S1280000x64 : (⟨S_, .f32⟩ : BufTy).Contents (Elt F) → (⟨S1280000x64, .f32⟩ : BufTy).Contents (Elt F)),
    StableHlo.binary main_v21 main_call2_v0 main_v22 (maximumf : (⟨S1280000x64, .f32⟩ : BufTy).Contents (Elt F) → (⟨S1280000x64, .f32⟩ : BufTy).Contents (Elt F) → (⟨S1280000x64, .f32⟩ : BufTy).Contents (Elt F)),
    StableHlo.nullary main_cst (constant S_ .f32 0x00000000#32),
    StableHlo.unary main_cst main_v23 (broadcastInDim S80000x64 ![] bcast_S_S80000x64 : (⟨S_, .f32⟩ : BufTy).Contents (Elt F) → (⟨S80000x64, .f32⟩ : BufTy).Contents (Elt F)),
    StableHlo.unary main_v13 main_v24 (broadcastInDim S1280000x1 ![0] bcast_S1280000_S1280000x1_0 : (⟨S1280000, .i32⟩ : BufTy).Contents (Elt F) → (⟨S1280000x1, .i32⟩ : BufTy).Contents (Elt F)),
    StableHlo.ternary main_v23 main_v24 main_v22 main_v25 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v26 ((extractStridedSlice S1 ![0] · slices_S4_S1_0) : (⟨S4, .f32⟩ : BufTy).Contents (Elt F) → (⟨S1, .f32⟩ : BufTy).Contents (Elt F)),
    StableHlo.reshape main_v26 main_v27 rfl shapeCasts_S1_S_,
    StableHlo.nullary main_cst_1 (constant S_ .f32 0x3F800000#32),
    StableHlo.binary main_cst_1 main_v27 main_v28 (addf : (⟨S_, .f32⟩ : BufTy).Contents (Elt F) → (⟨S_, .f32⟩ : BufTy).Contents (Elt F) → (⟨S_, .f32⟩ : BufTy).Contents (Elt F)),
    StableHlo.unary main_v28 main_v29 (broadcastInDim S80000x64 ![] bcast_S_S80000x64 : (⟨S_, .f32⟩ : BufTy).Contents (Elt F) → (⟨S80000x64, .f32⟩ : BufTy).Contents (Elt F)),
    StableHlo.binary main_v29 main_v4 main_v30 (mulf : (⟨S80000x64, .f32⟩ : BufTy).Contents (Elt F) → (⟨S80000x64, .f32⟩ : BufTy).Contents (Elt F) → (⟨S80000x64, .f32⟩ : BufTy).Contents (Elt F)),
    StableHlo.binary main_v30 main_v25 main_v31 (addf : (⟨S80000x64, .f32⟩ : BufTy).Contents (Elt F) → (⟨S80000x64, .f32⟩ : BufTy).Contents (Elt F) → (⟨S80000x64, .f32⟩ : BufTy).Contents (Elt F)),
    StableHlo.unary main_arg7 main_v32 ((extractStridedSlice S1x64x128 ![0, 0, 0] · slices_S4x64x128_S1x64x128_0_0_0) : (⟨S4x64x128, .f32⟩ : BufTy).Contents (Elt F) → (⟨S1x64x128, .f32⟩ : BufTy).Contents (Elt F)),
    StableHlo.reshape main_v32 main_v33 rfl shapeCasts_S1x64x128_S64x128,
    StableHlo.binary main_v31 main_v33 main_v34 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v35 ((extractStridedSlice S1x128 ![0, 0] · slices_S4x128_S1x128_0_0) : (⟨S4x128, .f32⟩ : BufTy).Contents (Elt F) → (⟨S1x128, .f32⟩ : BufTy).Contents (Elt F)),
    StableHlo.reshape main_v35 main_v36 rfl shapeCasts_S1x128_S128,
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S80000x128 ![0, 1] bcast_S1x128_S80000x128_0_1 : (⟨S1x128, .f32⟩ : BufTy).Contents (Elt F) → (⟨S80000x128, .f32⟩ : BufTy).Contents (Elt F)),
    StableHlo.binary main_v34 main_v38 main_v39 (addf : (⟨S80000x128, .f32⟩ : BufTy).Contents (Elt F) → (⟨S80000x128, .f32⟩ : BufTy).Contents (Elt F) → (⟨S80000x128, .f32⟩ : BufTy).Contents (Elt F)),
    StableHlo.nullary main_cst_2 (constant S_ .f32 0x00000000#32),
    StableHlo.binary main_v39 main_cst_2 main_v40 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_3 (constant S_ .f32 0x479C4000#32),
    StableHlo.unary main_cst_3 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.nullary main_call3_cst (constant S_ .f32 0x00000000#32),
    StableHlo.binary main_v39 main_call3_cst main_call3_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call3_v0 main_call3_v1 (broadcastInDim S1x128 ![1] bcast_S128_S1x128_1 : (⟨S128, .f32⟩ : BufTy).Contents (Elt F) → (⟨S1x128, .f32⟩ : BufTy).Contents (Elt F)),
    StableHlo.nullary main_call3_cst_0 (constant S_ .f32 0x479C4000#32),
    StableHlo.unary main_call3_cst_0 main_call3_v2 (broadcastInDim S1x128 ![] bcast_S_S1x128 : (⟨S_, .f32⟩ : BufTy).Contents (Elt F) → (⟨S1x128, .f32⟩ : BufTy).Contents (Elt F)),
    StableHlo.binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    StableHlo.unary main_call3_v3 main_call3_v4 (broadcastInDim S80000x128 ![0, 1] bcast_S1x128_S80000x128_0_1 : (⟨S1x128, .f32⟩ : BufTy).Contents (Elt F) → (⟨S80000x128, .f32⟩ : BufTy).Contents (Elt F)),
    StableHlo.binary main_v39 main_call3_v4 main_call3_v5 (subf : (⟨S80000x128, .f32⟩ : BufTy).Contents (Elt F) → (⟨S80000x128, .f32⟩ : BufTy).Contents (Elt F) → (⟨S80000x128, .f32⟩ : BufTy).Contents (Elt F)),
    StableHlo.binary main_call3_v5 main_call3_v5 main_call3_v6 (mulf : (⟨S80000x128, .f32⟩ : BufTy).Contents (Elt F) → (⟨S80000x128, .f32⟩ : BufTy).Contents (Elt F) → (⟨S80000x128, .f32⟩ : BufTy).Contents (Elt F)),
    StableHlo.unary main_c_4 main_call3_v7 (sitofp .f32 : (⟨S_, .i32⟩ : BufTy).Contents (Elt F) → (⟨S_, .f32⟩ : BufTy).Contents (Elt F)),
    StableHlo.nullary main_call3_cst_1 (constant S_ .f32 0x479C4000#32),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call3_v8 main_call3_v10 (broadcastInDim S128 ![] bcast_S_S128 : (⟨S_, .f32⟩ : BufTy).Contents (Elt F) → (⟨S128, .f32⟩ : BufTy).Contents (Elt F)),
    StableHlo.binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    StableHlo.nullary main_call3_cst_3 (constant S_ .f32 0x00000000#32),
    StableHlo.binary main_call3_v8 main_call3_cst_3 main_call3_v12 (cmpf .ogt : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 (broadcastInDim S128 ![] bcast_S_S128 : (⟨S_, .f32⟩ : BufTy).Contents (Elt F) → (⟨S128, .f32⟩ : BufTy).Contents (Elt F)),
    StableHlo.ternary main_call3_v12 main_call3_v11 main_call3_call0_v1 main_v43 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S80000x128 ![0, 1] bcast_S1x128_S80000x128_0_1 : (⟨S1x128, .f32⟩ : BufTy).Contents (Elt F) → (⟨S80000x128, .f32⟩ : BufTy).Contents (Elt F)),
    StableHlo.binary main_v39 main_v45 main_v46 (subf : (⟨S80000x128, .f32⟩ : BufTy).Contents (Elt F) → (⟨S80000x128, .f32⟩ : BufTy).Contents (Elt F) → (⟨S80000x128, .f32⟩ : BufTy).Contents (Elt F)),
    StableHlo.nullary main_cst_5 (constant S_ .f32 0x3727C5AC#32),
    StableHlo.unary main_cst_5 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S80000x128 ![0, 1] bcast_S1x128_S80000x128_0_1 : (⟨S1x128, .f32⟩ : BufTy).Contents (Elt F) → (⟨S80000x128, .f32⟩ : BufTy).Contents (Elt F)) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part0_eq (c : Dev nD) : main_part0 (F := F) c = seq ops0 := by
  simp only [main_part0, fn_relu.body, fn_relu_0.body, fn_var.body, fn_where.body, seq, bind_assoc, pure_bind]
  rfl

theorem ops0_sub : (ops0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

/-- The buffers the window's operations write, in order. -/
abbrev ops0_W : List (Ref sig .tc) :=
  [main_v0, main_v1, main_v2, main_v3, main_call0_cst, main_call0_v0, main_v4, main_v5, main_v6, main_v7, main_v8, main_call1_cst, main_call1_v0, main_v9, main_v10, main_v11, main_v12, main_v13, main_c, main_v14, main_v15, main_c_0, main_v16, main_v17, main_v18, main_v19, main_v20, main_v21, main_call2_cst, main_call2_v0, main_v22, main_cst, main_v23, main_v24, main_v25, main_v26, main_v27, main_cst_1, main_v28, main_v29, main_v30, main_v31, main_v32, main_v33, main_v34, main_v35, main_v36, main_v37, main_v38, main_v39, main_cst_2, main_v40, main_cst_3, main_v41, main_v42, main_c_4, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v43, main_v44, main_v45, main_v46, main_cst_5, main_v47, main_v48, main_v49, main_v50, main_v51]

set_option maxRecDepth 8192 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops0_fresh : ∀ op ∈ (ops0 : List (HloOp τ sig (Elt F))), op.fresh = ∅ := by
  intro _ h; (repeat (cases h with | head => rfl | tail _ h => ?_)); exact nomatch h

end Cert.ReferenceIdeal.RefRun

end
-- ==== Proof.RefRunOps1.lean ====
/-
  The reference program's statements 61 … 120 of 386 (its window `main_part1`) as a LIST of 88 host operations.
  A statement that is an operation is the list's entry as printed; a statement that calls a module-local function
  (`fn_relu_1`, `fn_var_2`, `fn_relu`, `fn_relu_0`) is the callee's operations in order, each over the buffers the
  call's record gives the callee's values and over the call's operand buffers for its arguments — a call means its
  callee's body, substituted. A callee's operation is printed over typed references; at a literal reference the typed
  builder is the plain one (its two conversions are the identity), and the list states the plain one.
  `main_part1_eq`: the window is that straight line. `ops1_sub`: every operation touches TensorCore buffers only.
  `ops1_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 61 … 120: 88 operations, in order. -/
abbrev ops1 : List (HloOp τ sig (Elt F)) :=
  [ StableHlo.binary main_v46 main_v51 main_v52 (mulf : (⟨S80000x128, .f32⟩ : BufTy).Contents (Elt F) → (⟨S80000x128, .f32⟩ : BufTy).Contents (Elt F) → (⟨S80000x128, .f32⟩ : BufTy).Contents (Elt F)),
    StableHlo.unary main_arg9 main_v53 ((extractStridedSlice S1x128 ![0, 0] · slices_S4x128_S1x128_0_0) : (⟨S4x128, .f32⟩ : BufTy).Contents (Elt F) → (⟨S1x128, .f32⟩ : BufTy).Contents (Elt F)),
    StableHlo.reshape main_v53 main_v54 rfl shapeCasts_S1x128_S128,
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S80000x128 ![0, 1] bcast_S1x128_S80000x128_0_1 : (⟨S1x128, .f32⟩ : BufTy).Contents (Elt F) → (⟨S80000x128, .f32⟩ : BufTy).Contents (Elt F)),
    StableHlo.binary main_v52 main_v56 main_v57 (mulf : (⟨S80000x128, .f32⟩ : BufTy).Contents (Elt F) → (⟨S80000x128, .f32⟩ : BufTy).Contents (Elt F) → (⟨S80000x128, .f32⟩ : BufTy).Contents (Elt F)),
    StableHlo.unary main_arg10 main_v58 ((extractStridedSlice S1x128 ![0, 0] · slices_S4x128_S1x128_0_0) : (⟨S4x128, .f32⟩ : BufTy).Contents (Elt F) → (⟨S1x128, .f32⟩ : BufTy).Contents (Elt F)),
    StableHlo.reshape main_v58 main_v59 rfl shapeCasts_S1x128_S128,
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S80000x128 ![0, 1] bcast_S1x128_S80000x128_0_1 : (⟨S1x128, .f32⟩ : BufTy).Contents (Elt F) → (⟨S80000x128, .f32⟩ : BufTy).Contents (Elt F)),
    StableHlo.binary main_v57 main_v61 main_v62 (addf : (⟨S80000x128, .f32⟩ : BufTy).Contents (Elt F) → (⟨S80000x128, .f32⟩ : BufTy).Contents (Elt F) → (⟨S80000x128, .f32⟩ : BufTy).Contents (Elt F)),
    StableHlo.nullary main_call4_cst (constant S_ .f32 0x00000000#32),
    StableHlo.unary main_call4_cst main_call4_v0 (broadcastInDim S80000x128 ![] bcast_S_S80000x128 : (⟨S_, .f32⟩ : BufTy).Contents (Elt F) → (⟨S80000x128, .f32⟩ : BufTy).Contents (Elt F)),
    StableHlo.binary main_v62 main_call4_v0 main_v63 (maximumf : (⟨S80000x128, .f32⟩ : BufTy).Contents (Elt F) → (⟨S80000x128, .f32⟩ : BufTy).Contents (Elt F) → (⟨S80000x128, .f32⟩ : BufTy).Contents (Elt F)),
    StableHlo.unary main_arg11 main_v64 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v64 main_v65 rfl shapeCasts_S1x128x64_S128x64,
    StableHlo.binary main_v63 main_v65 main_v66 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v67 ((extractStridedSlice S1x64 ![0, 0] · slices_S4x64_S1x64_0_0) : (⟨S4x64, .f32⟩ : BufTy).Contents (Elt F) → (⟨S1x64, .f32⟩ : BufTy).Contents (Elt F)),
    StableHlo.reshape main_v67 main_v68 rfl shapeCasts_S1x64_S64,
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S80000x64 ![0, 1] bcast_S1x64_S80000x64_0_1 : (⟨S1x64, .f32⟩ : BufTy).Contents (Elt F) → (⟨S80000x64, .f32⟩ : BufTy).Contents (Elt F)),
    StableHlo.binary main_v66 main_v70 main_v71 (addf : (⟨S80000x64, .f32⟩ : BufTy).Contents (Elt F) → (⟨S80000x64, .f32⟩ : BufTy).Contents (Elt F) → (⟨S80000x64, .f32⟩ : BufTy).Contents (Elt F)),
    StableHlo.nullary main_cst_6 (constant S_ .f32 0x00000000#32),
    StableHlo.binary main_v71 main_cst_6 main_v72 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v72 main_v73 (broadcastInDim S80000x1 ![0] bcast_S80000_S80000x1_0 : (⟨S80000, .f32⟩ : BufTy).Contents (Elt F) → (⟨S80000x1, .f32⟩ : BufTy).Contents (Elt F)),
    StableHlo.nullary main_cst_7 (constant S_ .f32 0x42800000#32),
    StableHlo.unary main_cst_7 main_v74 (broadcastInDim S80000x1 ![] bcast_S_S80000x1 : (⟨S_, .f32⟩ : BufTy).Contents (Elt F) → (⟨S80000x1, .f32⟩ : BufTy).Contents (Elt F)),
    StableHlo.binary main_v73 main_v74 main_v75 (Host.divf : (⟨S80000x1, .f32⟩ : BufTy).Contents (Elt F) → (⟨S80000x1, .f32⟩ : BufTy).Contents (Elt F) → (⟨S80000x1, .f32⟩ : BufTy).Contents (Elt F)),
    StableHlo.nullary main_c_8 (constantI S_ 32 0#32),
    StableHlo.nullary main_call5_cst (constant S_ .f32 0x00000000#32),
    StableHlo.binary main_v71 main_call5_cst main_call5_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call5_v0 main_call5_v1 (broadcastInDim S80000x1 ![0] bcast_S80000_S80000x1_0 : (⟨S80000, .f32⟩ : BufTy).Contents (Elt F) → (⟨S80000x1, .f32⟩ : BufTy).Contents (Elt F)),
    StableHlo.nullary main_call5_cst_0 (constant S_ .f32 0x42800000#32),
    StableHlo.unary main_call5_cst_0 main_call5_v2 (broadcastInDim S80000x1 ![] bcast_S_S80000x1 : (⟨S_, .f32⟩ : BufTy).Contents (Elt F) → (⟨S80000x1, .f32⟩ : BufTy).Contents (Elt F)),
    StableHlo.binary main_call5_v1 main_call5_v2 main_call5_v3 (Host.divf : (⟨S80000x1, .f32⟩ : BufTy).Contents (Elt F) → (⟨S80000x1, .f32⟩ : BufTy).Contents (Elt F) → (⟨S80000x1, .f32⟩ : BufTy).Contents (Elt F)),
    StableHlo.unary main_call5_v3 main_call5_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v71 main_call5_v4 main_call5_v5 (subf : (⟨S80000x64, .f32⟩ : BufTy).Contents (Elt F) → (⟨S80000x64, .f32⟩ : BufTy).Contents (Elt F) → (⟨S80000x64, .f32⟩ : BufTy).Contents (Elt F)),
    StableHlo.binary main_call5_v5 main_call5_v5 main_call5_v6 (mulf : (⟨S80000x64, .f32⟩ : BufTy).Contents (Elt F) → (⟨S80000x64, .f32⟩ : BufTy).Contents (Elt F) → (⟨S80000x64, .f32⟩ : BufTy).Contents (Elt F)),
    StableHlo.unary main_c_8 main_call5_v7 (sitofp .f32 : (⟨S_, .i32⟩ : BufTy).Contents (Elt F) → (⟨S_, .f32⟩ : BufTy).Contents (Elt F)),
    StableHlo.nullary main_call5_cst_1 (constant S_ .f32 0x42800000#32),
    StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call5_v9 main_call5_v10 (broadcastInDim S80000x1 ![0] bcast_S80000_S80000x1_0 : (⟨S80000, .f32⟩ : BufTy).Contents (Elt F) → (⟨S80000x1, .f32⟩ : BufTy).Contents (Elt F)),
    StableHlo.unary main_call5_v8 main_call5_v11 (broadcastInDim S80000x1 ![] bcast_S_S80000x1 : (⟨S_, .f32⟩ : BufTy).Contents (Elt F) → (⟨S80000x1, .f32⟩ : BufTy).Contents (Elt F)),
    StableHlo.binary main_call5_v10 main_call5_v11 main_call5_v12 (Host.divf : (⟨S80000x1, .f32⟩ : BufTy).Contents (Elt F) → (⟨S80000x1, .f32⟩ : BufTy).Contents (Elt F) → (⟨S80000x1, .f32⟩ : BufTy).Contents (Elt F)),
    StableHlo.nullary main_call5_cst_3 (constant S_ .f32 0x00000000#32),
    StableHlo.binary main_call5_v8 main_call5_cst_3 main_call5_v13 (cmpf .ogt : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 (id : (⟨S_, .f32⟩ : BufTy).Contents (Elt F) → (⟨S_, .f32⟩ : BufTy).Contents (Elt F)),
    StableHlo.unary main_call5_call0_v0 main_call5_call0_v1 (broadcastInDim S80000x1 ![] bcast_S_S80000x1 : (⟨S_, .f32⟩ : BufTy).Contents (Elt F) → (⟨S80000x1, .f32⟩ : BufTy).Contents (Elt F)),
    StableHlo.ternary main_call5_v13 main_call5_v12 main_call5_call0_v1 main_v76 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v75 main_v77 (broadcastInDim S80000x64 ![0, 1] bcast_S80000x1_S80000x64_0_1 : (⟨S80000x1, .f32⟩ : BufTy).Contents (Elt F) → (⟨S80000x64, .f32⟩ : BufTy).Contents (Elt F)),
    StableHlo.binary main_v71 main_v77 main_v78 (subf : (⟨S80000x64, .f32⟩ : BufTy).Contents (Elt F) → (⟨S80000x64, .f32⟩ : BufTy).Contents (Elt F) → (⟨S80000x64, .f32⟩ : BufTy).Contents (Elt F)),
    StableHlo.nullary main_cst_9 (constant S_ .f32 0x3727C5AC#32),
    StableHlo.unary main_cst_9 main_v79 (broadcastInDim S80000x1 ![] bcast_S_S80000x1 : (⟨S_, .f32⟩ : BufTy).Contents (Elt F) → (⟨S80000x1, .f32⟩ : BufTy).Contents (Elt F)),
    StableHlo.binary main_v76 main_v79 main_v80 (addf : (⟨S80000x1, .f32⟩ : BufTy).Contents (Elt F) → (⟨S80000x1, .f32⟩ : BufTy).Contents (Elt F) → (⟨S80000x1, .f32⟩ : BufTy).Contents (Elt F)),
    StableHlo.unary main_v80 main_v81 (Host.rsqrt : (⟨S80000x1, .f32⟩ : BufTy).Contents (Elt F) → (⟨S80000x1, .f32⟩ : BufTy).Contents (Elt F)),
    StableHlo.unary main_v81 main_v82 (broadcastInDim S80000x64 ![0, 1] bcast_S80000x1_S80000x64_0_1 : (⟨S80000x1, .f32⟩ : BufTy).Contents (Elt F) → (⟨S80000x64, .f32⟩ : BufTy).Contents (Elt F)),
    StableHlo.binary main_v78 main_v82 main_v83 (mulf : (⟨S80000x64, .f32⟩ : BufTy).Contents (Elt F) → (⟨S80000x64, .f32⟩ : BufTy).Contents (Elt F) → (⟨S80000x64, .f32⟩ : BufTy).Contents (Elt F)),
    StableHlo.unary main_arg14 main_v84 ((extractStridedSlice S1x64 ![0, 0] · slices_S4x64_S1x64_0_0) : (⟨S4x64, .f32⟩ : BufTy).Contents (Elt F) → (⟨S1x64, .f32⟩ : BufTy).Contents (Elt F)),
    StableHlo.reshape main_v84 main_v85 rfl shapeCasts_S1x64_S64,
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S80000x64 ![0, 1] bcast_S1x64_S80000x64_0_1 : (⟨S1x64, .f32⟩ : BufTy).Contents (Elt F) → (⟨S80000x64, .f32⟩ : BufTy).Contents (Elt F)),
    StableHlo.binary main_v83 main_v87 main_v88 (mulf : (⟨S80000x64, .f32⟩ : BufTy).Contents (Elt F) → (⟨S80000x64, .f32⟩ : BufTy).Contents (Elt F) → (⟨S80000x64, .f32⟩ : BufTy).Contents (Elt F)),
    StableHlo.unary main_arg15 main_v89 ((extractStridedSlice S1x64 ![0, 0] · slices_S4x64_S1x64_0_0) : (⟨S4x64, .f32⟩ : BufTy).Contents (Elt F) → (⟨S1x64, .f32⟩ : BufTy).Contents (Elt F)),
    StableHlo.reshape main_v89 main_v90 rfl shapeCasts_S1x64_S64,
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S80000x64 ![0, 1] bcast_S1x64_S80000x64_0_1 : (⟨S1x64, .f32⟩ : BufTy).Contents (Elt F) → (⟨S80000x64, .f32⟩ : BufTy).Contents (Elt F)),
    StableHlo.binary main_v88 main_v92 main_v93 (addf : (⟨S80000x64, .f32⟩ : BufTy).Contents (Elt F) → (⟨S80000x64, .f32⟩ : BufTy).Contents (Elt F) → (⟨S80000x64, .f32⟩ : BufTy).Contents (Elt F)),
    StableHlo.nullary main_call6_cst (constant S_ .f32 0x00000000#32),
    StableHlo.unary main_call6_cst main_call6_v0 (broadcastInDim S80000x64 ![] bcast_S_S80000x64 : (⟨S_, .f32⟩ : BufTy).Contents (Elt F) → (⟨S80000x64, .f32⟩ : BufTy).Contents (Elt F)),
    StableHlo.binary main_v93 main_call6_v0 main_v94 (maximumf : (⟨S80000x64, .f32⟩ : BufTy).Contents (Elt F) → (⟨S80000x64, .f32⟩ : BufTy).Contents (Elt F) → (⟨S80000x64, .f32⟩ : BufTy).Contents (Elt F)),
    StableHlo.nullary main_c_10 (constantI S_ 32 0#32),
    StableHlo.unary main_c_10 main_v95 (broadcastInDim S1280000 ![] bcast_S_S1280000 : (⟨S_, .i32⟩ : BufTy).Contents (Elt F) → (⟨S1280000, .i32⟩ : BufTy).Contents (Elt F)),
    StableHlo.binary main_v11 main_v95 main_v96 (cmpi .slt : (⟨S1280000, .i32⟩ : BufTy).Contents (Elt F) → (⟨S1280000, .i32⟩ : BufTy).Contents (Elt F) → (⟨S1280000, .i1⟩ : BufTy).Contents (Elt F)),
    StableHlo.nullary main_c_11 (constantI S_ 32 80000#32),
    StableHlo.unary main_c_11 main_v97 (broadcastInDim S1280000 ![] bcast_S_S1280000 : (⟨S_, .i32⟩ : BufTy).Contents (Elt F) → (⟨S1280000, .i32⟩ : BufTy).Contents (Elt F)),
    StableHlo.binary main_v11 main_v97 main_v98 (addi : (⟨S1280000, .i32⟩ : BufTy).Contents (Elt F) → (⟨S1280000, .i32⟩ : BufTy).Contents (Elt F) → (⟨S1280000, .i32⟩ : BufTy).Contents (Elt F)),
    StableHlo.ternary main_v96 main_v98 main_v11 main_v99 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v99 main_v100 (broadcastInDim S1280000x1 ![0] bcast_S1280000_S1280000x1_0 : (⟨S1280000, .i32⟩ : BufTy).Contents (Elt F) → (⟨S1280000x1, .i32⟩ : BufTy).Contents (Elt F)),
    StableHlo.binary main_v94 main_v100 main_v101 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v101 main_v9 main_v102 (addf : (⟨S1280000x64, .f32⟩ : BufTy).Contents (Elt F) → (⟨S1280000x64, .f32⟩ : BufTy).Contents (Elt F) → (⟨S1280000x64, .f32⟩ : BufTy).Contents (Elt F)),
    StableHlo.nullary main_call7_cst (constant S_ .f32 0x00000000#32),
    StableHlo.unary main_call7_cst main_call7_v0 (broadcastInDim S1280000x64 ![] bcast_S_S1280000x64 : (⟨S_, .f32⟩ : BufTy).Contents (Elt F) → (⟨S1280000x64, .f32⟩ : BufTy).Contents (Elt F)),
    StableHlo.binary main_v102 main_call7_v0 main_v103 (maximumf : (⟨S1280000x64, .f32⟩ : BufTy).Contents (Elt F) → (⟨S1280000x64, .f32⟩ : BufTy).Contents (Elt F) → (⟨S1280000x64, .f32⟩ : BufTy).Contents (Elt F)),
    StableHlo.nullary main_cst_12 (constant S_ .f32 0x00000000#32),
    StableHlo.unary main_cst_12 main_v104 (broadcastInDim S80000x64 ![] bcast_S_S80000x64 : (⟨S_, .f32⟩ : BufTy).Contents (Elt F) → (⟨S80000x64, .f32⟩ : BufTy).Contents (Elt F)) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part1_eq (c : Dev nD) : main_part1 (F := F) c = seq ops1 := by
  simp only [main_part1, fn_relu_1.body, fn_var_2.body, fn_where_3.body, fn_relu.body, fn_relu_0.body, seq, bind_assoc, pure_bind]
  rfl

theorem ops1_sub : (ops1 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub ..⟩

/-- The buffers the window's operations write, in order. -/
abbrev ops1_W : List (Ref sig .tc) :=
  [main_v52, main_v53, main_v54, main_v55, main_v56, main_v57, main_v58, main_v59, main_v60, main_v61, main_v62, main_call4_cst, main_call4_v0, main_v63, main_v64, main_v65, main_v66, main_v67, main_v68, main_v69, main_v70, main_v71, main_cst_6, main_v72, main_v73, main_cst_7, main_v74, main_v75, main_c_8, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v76, main_v77, main_v78, main_cst_9, main_v79, main_v80, main_v81, main_v82, main_v83, main_v84, main_v85, main_v86, main_v87, main_v88, main_v89, main_v90, main_v91, main_v92, main_v93, main_call6_cst, main_call6_v0, main_v94, main_c_10, main_v95, main_v96, main_c_11, main_v97, main_v98, main_v99, main_v100, main_v101, main_v102, main_call7_cst, main_call7_v0, main_v103, main_cst_12, main_v104]

set_option maxRecDepth 8192 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops1_fresh : ∀ op ∈ (ops1 : List (HloOp τ sig (Elt F))), op.fresh = ∅ := by
  intro _ h; (repeat (cases h with | head => rfl | tail _ h => ?_)); exact nomatch h

end Cert.ReferenceIdeal.RefRun

end
-- ==== Proof.RefRunOps2.lean ====
/-
  The reference program's statements 121 … 180 of 386 (its window `main_part2`) as a LIST of 83 host operations.
  A statement that is an operation is the list's entry as printed; a statement that calls a module-local function
  (`fn_var`, `fn_relu_1`) is the callee's operations in order, each over the buffers the
  call's record gives the callee's values and over the call's operand buffers for its arguments — a call means its
  callee's body, substituted. A callee's operation is printed over typed references; at a literal reference the typed
  builder is the plain one (its two conversions are the identity), and the list states the plain one.
  `main_part2_eq`: the window is that straight line. `ops2_sub`: every operation touches TensorCore buffers only.
  `ops2_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 121 … 180: 83 operations, in order. -/
abbrev ops2 : List (HloOp τ sig (Elt F)) :=
  [ StableHlo.unary main_v13 main_v105 (broadcastInDim S1280000x1 ![0] bcast_S1280000_S1280000x1_0 : (⟨S1280000, .i32⟩ : BufTy).Contents (Elt F) → (⟨S1280000x1, .i32⟩ : BufTy).Contents (Elt F)),
    StableHlo.ternary main_v104 main_v105 main_v103 main_v106 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v107 ((extractStridedSlice S1 ![1] · slices_S4_S1_1) : (⟨S4, .f32⟩ : BufTy).Contents (Elt F) → (⟨S1, .f32⟩ : BufTy).Contents (Elt F)),
    StableHlo.reshape main_v107 main_v108 rfl shapeCasts_S1_S_,
    StableHlo.nullary main_cst_13 (constant S_ .f32 0x3F800000#32),
    StableHlo.binary main_cst_13 main_v108 main_v109 (addf : (⟨S_, .f32⟩ : BufTy).Contents (Elt F) → (⟨S_, .f32⟩ : BufTy).Contents (Elt F) → (⟨S_, .f32⟩ : BufTy).Contents (Elt F)),
    StableHlo.unary main_v109 main_v110 (broadcastInDim S80000x64 ![] bcast_S_S80000x64 : (⟨S_, .f32⟩ : BufTy).Contents (Elt F) → (⟨S80000x64, .f32⟩ : BufTy).Contents (Elt F)),
    StableHlo.binary main_v110 main_v94 main_v111 (mulf : (⟨S80000x64, .f32⟩ : BufTy).Contents (Elt F) → (⟨S80000x64, .f32⟩ : BufTy).Contents (Elt F) → (⟨S80000x64, .f32⟩ : BufTy).Contents (Elt F)),
    StableHlo.binary main_v111 main_v106 main_v112 (addf : (⟨S80000x64, .f32⟩ : BufTy).Contents (Elt F) → (⟨S80000x64, .f32⟩ : BufTy).Contents (Elt F) → (⟨S80000x64, .f32⟩ : BufTy).Contents (Elt F)),
    StableHlo.unary main_arg7 main_v113 ((extractStridedSlice S1x64x128 ![1, 0, 0] · slices_S4x64x128_S1x64x128_1_0_0) : (⟨S4x64x128, .f32⟩ : BufTy).Contents (Elt F) → (⟨S1x64x128, .f32⟩ : BufTy).Contents (Elt F)),
    StableHlo.reshape main_v113 main_v114 rfl shapeCasts_S1x64x128_S64x128,
    StableHlo.binary main_v112 main_v114 main_v115 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v116 ((extractStridedSlice S1x128 ![1, 0] · slices_S4x128_S1x128_1_0) : (⟨S4x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S80000x128 ![0, 1] bcast_S1x128_S80000x128_0_1 : (⟨S1x128, .f32⟩ : BufTy).Contents (Elt F) → (⟨S80000x128, .f32⟩ : BufTy).Contents (Elt F)),
    StableHlo.binary main_v115 main_v119 main_v120 (addf : (⟨S80000x128, .f32⟩ : BufTy).Contents (Elt F) → (⟨S80000x128, .f32⟩ : BufTy).Contents (Elt F) → (⟨S80000x128, .f32⟩ : BufTy).Contents (Elt F)),
    StableHlo.nullary main_cst_14 (constant S_ .f32 0x00000000#32),
    StableHlo.binary main_v120 main_cst_14 main_v121 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_15 (constant S_ .f32 0x479C4000#32),
    StableHlo.unary main_cst_15 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.nullary main_call8_cst (constant S_ .f32 0x00000000#32),
    StableHlo.binary main_v120 main_call8_cst main_call8_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call8_v0 main_call8_v1 (broadcastInDim S1x128 ![1] bcast_S128_S1x128_1 : (⟨S128, .f32⟩ : BufTy).Contents (Elt F) → (⟨S1x128, .f32⟩ : BufTy).Contents (Elt F)),
    StableHlo.nullary main_call8_cst_0 (constant S_ .f32 0x479C4000#32),
    StableHlo.unary main_call8_cst_0 main_call8_v2 (broadcastInDim S1x128 ![] bcast_S_S1x128 : (⟨S_, .f32⟩ : BufTy).Contents (Elt F) → (⟨S1x128, .f32⟩ : BufTy).Contents (Elt F)),
    StableHlo.binary main_call8_v1 main_call8_v2 main_call8_v3 (Host.divf : (⟨S1x128, .f32⟩ : BufTy).Contents (Elt F) → (⟨S1x128, .f32⟩ : BufTy).Contents (Elt F) → (⟨S1x128, .f32⟩ : BufTy).Contents (Elt F)),
    StableHlo.unary main_call8_v3 main_call8_v4 (broadcastInDim S80000x128 ![0, 1] bcast_S1x128_S80000x128_0_1 : (⟨S1x128, .f32⟩ : BufTy).Contents (Elt F) → (⟨S80000x128, .f32⟩ : BufTy).Contents (Elt F)),
    StableHlo.binary main_v120 main_call8_v4 main_call8_v5 (subf : (⟨S80000x128, .f32⟩ : BufTy).Contents (Elt F) → (⟨S80000x128, .f32⟩ : BufTy).Contents (Elt F) → (⟨S80000x128, .f32⟩ : BufTy).Contents (Elt F)),
    StableHlo.binary main_call8_v5 main_call8_v5 main_call8_v6 (mulf : (⟨S80000x128, .f32⟩ : BufTy).Contents (Elt F) → (⟨S80000x128, .f32⟩ : BufTy).Contents (Elt F) → (⟨S80000x128, .f32⟩ : BufTy).Contents (Elt F)),
    StableHlo.unary main_c_16 main_call8_v7 (sitofp .f32 : (⟨S_, .i32⟩ : BufTy).Contents (Elt F) → (⟨S_, .f32⟩ : BufTy).Contents (Elt F)),
    StableHlo.nullary main_call8_cst_1 (constant S_ .f32 0x479C4000#32),
    StableHlo.binary main_call8_cst_1 main_call8_v7 main_call8_v8 (subf : (⟨S_, .f32⟩ : BufTy).Contents (Elt F) → (⟨S_, .f32⟩ : BufTy).Contents (Elt F) → (⟨S_, .f32⟩ : BufTy).Contents (Elt F)),
    StableHlo.nullary main_call8_cst_2 (constant S_ .f32 0x00000000#32),
    StableHlo.binary main_call8_v6 main_call8_cst_2 main_call8_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call8_v8 main_call8_v10 (broadcastInDim S128 ![] bcast_S_S128 : (⟨S_, .f32⟩ : BufTy).Contents (Elt F) → (⟨S128, .f32⟩ : BufTy).Contents (Elt F)),
    StableHlo.binary main_call8_v9 main_call8_v10 main_call8_v11 (Host.divf : (⟨S128, .f32⟩ : BufTy).Contents (Elt F) → (⟨S128, .f32⟩ : BufTy).Contents (Elt F) → (⟨S128, .f32⟩ : BufTy).Contents (Elt F)),
    StableHlo.nullary main_call8_cst_3 (constant S_ .f32 0x00000000#32),
    StableHlo.binary main_call8_v8 main_call8_cst_3 main_call8_v12 (cmpf .ogt : (⟨S_, .f32⟩ : BufTy).Contents (Elt F) → (⟨S_, .f32⟩ : BufTy).Contents (Elt F) → (⟨S_, .i1⟩ : BufTy).Contents (Elt F)),
    StableHlo.nullary main_call8_cst_4 (constant S_ .f32 0x7FC00000#32),
    StableHlo.unary main_call8_cst_4 main_call8_call0_v0 (id : (⟨S_, .f32⟩ : BufTy).Contents (Elt F) → (⟨S_, .f32⟩ : BufTy).Contents (Elt F)),
    StableHlo.unary main_call8_call0_v0 main_call8_call0_v1 (broadcastInDim S128 ![] bcast_S_S128 : (⟨S_, .f32⟩ : BufTy).Contents (Elt F) → (⟨S128, .f32⟩ : BufTy).Contents (Elt F)),
    StableHlo.ternary main_call8_v12 main_call8_v11 main_call8_call0_v1 main_v124 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v123 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S80000x128 ![0, 1] bcast_S1x128_S80000x128_0_1 : (⟨S1x128, .f32⟩ : BufTy).Contents (Elt F) → (⟨S80000x128, .f32⟩ : BufTy).Contents (Elt F)),
    StableHlo.binary main_v120 main_v126 main_v127 (subf : (⟨S80000x128, .f32⟩ : BufTy).Contents (Elt F) → (⟨S80000x128, .f32⟩ : BufTy).Contents (Elt F) → (⟨S80000x128, .f32⟩ : BufTy).Contents (Elt F)),
    StableHlo.nullary main_cst_17 (constant S_ .f32 0x3727C5AC#32),
    StableHlo.unary main_cst_17 main_v128 (broadcastInDim S128 ![] bcast_S_S128 : (⟨S_, .f32⟩ : BufTy).Contents (Elt F) → (⟨S128, .f32⟩ : BufTy).Contents (Elt F)),
    StableHlo.binary main_v124 main_v128 main_v129 (addf : (⟨S128, .f32⟩ : BufTy).Contents (Elt F) → (⟨S128, .f32⟩ : BufTy).Contents (Elt F) → (⟨S128, .f32⟩ : BufTy).Contents (Elt F)),
    StableHlo.unary main_v129 main_v130 (Host.rsqrt : (⟨S128, .f32⟩ : BufTy).Contents (Elt F) → (⟨S128, .f32⟩ : BufTy).Contents (Elt F)),
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S80000x128 ![0, 1] bcast_S1x128_S80000x128_0_1 : (⟨S1x128, .f32⟩ : BufTy).Contents (Elt F) → (⟨S80000x128, .f32⟩ : BufTy).Contents (Elt F)),
    StableHlo.binary main_v127 main_v132 main_v133 (mulf : (⟨S80000x128, .f32⟩ : BufTy).Contents (Elt F) → (⟨S80000x128, .f32⟩ : BufTy).Contents (Elt F) → (⟨S80000x128, .f32⟩ : BufTy).Contents (Elt F)),
    StableHlo.unary main_arg9 main_v134 ((extractStridedSlice S1x128 ![1, 0] · slices_S4x128_S1x128_1_0) : (⟨S4x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S80000x128 ![0, 1] bcast_S1x128_S80000x128_0_1 : (⟨S1x128, .f32⟩ : BufTy).Contents (Elt F) → (⟨S80000x128, .f32⟩ : BufTy).Contents (Elt F)),
    StableHlo.binary main_v133 main_v137 main_v138 (mulf : (⟨S80000x128, .f32⟩ : BufTy).Contents (Elt F) → (⟨S80000x128, .f32⟩ : BufTy).Contents (Elt F) → (⟨S80000x128, .f32⟩ : BufTy).Contents (Elt F)),
    StableHlo.unary main_arg10 main_v139 ((extractStridedSlice S1x128 ![1, 0] · slices_S4x128_S1x128_1_0) : (⟨S4x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S80000x128 ![0, 1] bcast_S1x128_S80000x128_0_1 : (⟨S1x128, .f32⟩ : BufTy).Contents (Elt F) → (⟨S80000x128, .f32⟩ : BufTy).Contents (Elt F)),
    StableHlo.binary main_v138 main_v142 main_v143 (addf : (⟨S80000x128, .f32⟩ : BufTy).Contents (Elt F) → (⟨S80000x128, .f32⟩ : BufTy).Contents (Elt F) → (⟨S80000x128, .f32⟩ : BufTy).Contents (Elt F)),
    StableHlo.nullary main_call9_cst (constant S_ .f32 0x00000000#32),
    StableHlo.unary main_call9_cst main_call9_v0 (broadcastInDim S80000x128 ![] bcast_S_S80000x128 : (⟨S_, .f32⟩ : BufTy).Contents (Elt F) → (⟨S80000x128, .f32⟩ : BufTy).Contents (Elt F)),
    StableHlo.binary main_v143 main_call9_v0 main_v144 (maximumf : (⟨S80000x128, .f32⟩ : BufTy).Contents (Elt F) → (⟨S80000x128, .f32⟩ : BufTy).Contents (Elt F) → (⟨S80000x128, .f32⟩ : BufTy).Contents (Elt F)),
    StableHlo.unary main_arg11 main_v145 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v145 main_v146 rfl shapeCasts_S1x128x64_S128x64,
    StableHlo.binary main_v144 main_v146 main_v147 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v148 ((extractStridedSlice S1x64 ![1, 0] · slices_S4x64_S1x64_1_0) : (⟨S4x64, .f32⟩ : BufTy).Contents (Elt F) → (⟨S1x64, .f32⟩ : BufTy).Contents (Elt F)),
    StableHlo.reshape main_v148 main_v149 rfl shapeCasts_S1x64_S64,
    StableHlo.unary main_v149 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S80000x64 ![0, 1] bcast_S1x64_S80000x64_0_1 : (⟨S1x64, .f32⟩ : BufTy).Contents (Elt F) → (⟨S80000x64, .f32⟩ : BufTy).Contents (Elt F)),
    StableHlo.binary main_v147 main_v151 main_v152 (addf : (⟨S80000x64, .f32⟩ : BufTy).Contents (Elt F) → (⟨S80000x64, .f32⟩ : BufTy).Contents (Elt F) → (⟨S80000x64, .f32⟩ : BufTy).Contents (Elt F)),
    StableHlo.nullary main_cst_18 (constant S_ .f32 0x00000000#32),
    StableHlo.binary main_v152 main_cst_18 main_v153 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v153 main_v154 (broadcastInDim S80000x1 ![0] bcast_S80000_S80000x1_0 : (⟨S80000, .f32⟩ : BufTy).Contents (Elt F) → (⟨S80000x1, .f32⟩ : BufTy).Contents (Elt F)),
    StableHlo.nullary main_cst_19 (constant S_ .f32 0x42800000#32),
    StableHlo.unary main_cst_19 main_v155 (broadcastInDim S80000x1 ![] bcast_S_S80000x1 : (⟨S_, .f32⟩ : BufTy).Contents (Elt F) → (⟨S80000x1, .f32⟩ : BufTy).Contents (Elt F)),
    StableHlo.binary main_v154 main_v155 main_v156 (Host.divf : (⟨S80000x1, .f32⟩ : BufTy).Contents (Elt F) → (⟨S80000x1, .f32⟩ : BufTy).Contents (Elt F) → (⟨S80000x1, .f32⟩ : BufTy).Contents (Elt F)),
    StableHlo.nullary main_c_20 (constantI S_ 32 0#32) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part2_eq (c : Dev nD) : main_part2 (F := F) c = seq ops2 := by
  simp only [main_part2, fn_var.body, fn_where.body, fn_relu_1.body, seq, bind_assoc, pure_bind]
  rfl

theorem ops2_sub : (ops2 : List (HloOp τ sig (Elt F))).Forall fun op => op.bufs ⊆ tcRefs τ sig :=
  ⟨unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., unary_bufs_sub .., nullary_bufs_sub .., unary_bufs_sub .., binary_bufs_sub .., nullary_bufs_sub ..⟩

/-- The buffers the window's operations write, in order. -/
abbrev ops2_W : List (Ref sig .tc) :=
  [main_v105, main_v106, main_v107, main_v108, main_cst_13, main_v109, main_v110, main_v111, main_v112, main_v113, main_v114, main_v115, main_v116, main_v117, main_v118, main_v119, main_v120, main_cst_14, main_v121, main_cst_15, main_v122, main_v123, main_c_16, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v124, main_v125, main_v126, main_v127, main_cst_17, main_v128, main_v129, main_v130, main_v131, main_v132, main_v133, main_v134, main_v135, main_v136, main_v137, main_v138, main_v139, main_v140, main_v141, main_v142, main_v143, main_call9_cst, main_call9_v0, main_v144, main_v145, main_v146, main_v147, main_v148, main_v149, main_v150, main_v151, main_v152, main_cst_18, main_v153, main_v154, main_cst_19, main_v155, main_v156, main_c_20]

set_option maxRecDepth 8192 in
theorem ops2_writes : (ops2 : List (HloOp τ sig (Elt F))).Forall fun op =>
    op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops2_fresh : ∀ op ∈ (ops2 : List (HloOp τ sig (Elt F))), op.fresh = ∅ := by
  intro _ h; (repeat (cases h with | head => rfl | tail _ h => ?_)); exact nomatch h

end Cert.ReferenceIdeal.RefRun

end
-- ==== Proof.RefRunOps3.lean ====
/-
  The reference program's statements 181 … 240 of 386 (its window `main_part3`) as a LIST of 107 host operations.
  A statement that is an operation is the list's entry as printed; a statement that calls a module-local function
  (`fn_var_2`, `fn_relu`, `fn_relu_0`, `fn_var`) is the callee's operations in order, each over the buffers the
  call's record gives the callee's values and over the call's operand buffers for its arguments — a call means its
  callee's body, substituted. A callee's operation is printed over typed references; at a literal reference the typed
  builder is the plain one (its two conversions are the identity), and the list states the plain one.
  `main_part3_eq`: the window is that straight line. `ops3_sub`: every operation touches TensorCore buffers only.
  `ops3_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 181 … 240: 107 operations, in order. -/
abbrev ops3 : List (HloOp τ sig (Elt F)) :=
  [ StableHlo.nullary main_call10_cst (constant S_ .f32 0x00000000#32),
    StableHlo.binary main_v152 main_call10_cst main_call10_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call10_v0 main_call10_v1 (broadcastInDim S80000x1 ![0] bcast_S80000_S80000x1_0 : (⟨S80000, .f32⟩ : BufTy).Contents (Elt F) → (⟨S80000x1, .f32⟩ : BufTy).Contents (Elt F)),
    StableHlo.nullary main_call10_cst_0 (constant S_ .f32 0x42800000#32),
    StableHlo.unary main_call10_cst_0 main_call10_v2 (broadcastInDim S80000x1 ![] bcast_S_S80000x1 : (⟨S_, .f32⟩ : BufTy).Contents (Elt F) → (⟨S80000x1, .f32⟩ : BufTy).Contents (Elt F)),
    StableHlo.binary main_call10_v1 main_call10_v2 main_call10_v3 (Host.divf : (⟨S80000x1, .f32⟩ : BufTy).Contents (Elt F) → (⟨S80000x1, .f32⟩ : BufTy).Contents (Elt F) → (⟨S80000x1, .f32⟩ : BufTy).Contents (Elt F)),
    StableHlo.unary main_call10_v3 main_call10_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v152 main_call10_v4 main_call10_v5 (subf : (⟨S80000x64, .f32⟩ : BufTy).Contents (Elt F) → (⟨S80000x64, .f32⟩ : BufTy).Contents (Elt F) → (⟨S80000x64, .f32⟩ : BufTy).Contents (Elt F)),
    StableHlo.binary main_call10_v5 main_call10_v5 main_call10_v6 (mulf : (⟨S80000x64, .f32⟩ : BufTy).Contents (Elt F) → (⟨S80000x64, .f32⟩ : BufTy).Contents (Elt F) → (⟨S80000x64, .f32⟩ : BufTy).Contents (Elt F)),
    StableHlo.unary main_c_20 main_call10_v7 (sitofp .f32 : (⟨S_, .i32⟩ : BufTy).Contents (Elt F) → (⟨S_, .f32⟩ : BufTy).Contents (Elt F)),
    StableHlo.nullary main_call10_cst_1 (constant S_ .f32 0x42800000#32),
    StableHlo.binary main_call10_cst_1 main_call10_v7 main_call10_v8 (subf : (⟨S_, .f32⟩ : BufTy).Contents (Elt F) → (⟨S_, .f32⟩ : BufTy).Contents (Elt F) → (⟨S_, .f32⟩ : BufTy).Contents (Elt F)),
    StableHlo.nullary main_call10_cst_2 (constant S_ .f32 0x00000000#32),
    StableHlo.binary main_call10_v6 main_call10_cst_2 main_call10_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call10_v9 main_call10_v10 (broadcastInDim S80000x1 ![0] bcast_S80000_S80000x1_0 : (⟨S80000, .f32⟩ : BufTy).Contents (Elt F) → (⟨S80000x1, .f32⟩ : BufTy).Contents (Elt F)),
    StableHlo.unary main_call10_v8 main_call10_v11 (broadcastInDim S80000x1 ![] bcast_S_S80000x1 : (⟨S_, .f32⟩ : BufTy).Contents (Elt F) → (⟨S80000x1, .f32⟩ : BufTy).Contents (Elt F)),
    StableHlo.binary main_call10_v10 main_call10_v11 main_call10_v12 (Host.divf : (⟨S80000x1, .f32⟩ : BufTy).Contents (Elt F) → (⟨S80000x1, .f32⟩ : BufTy).Contents (Elt F) → (⟨S80000x1, .f32⟩ : BufTy).Contents (Elt F)),
    StableHlo.nullary main_call10_cst_3 (constant S_ .f32 0x00000000#32),
    StableHlo.binary main_call10_v8 main_call10_cst_3 main_call10_v13 (cmpf .ogt : (⟨S_, .f32⟩ : BufTy).Contents (Elt F) → (⟨S_, .f32⟩ : BufTy).Contents (Elt F) → (⟨S_, .i1⟩ : BufTy).Contents (Elt F)),
    StableHlo.nullary main_call10_cst_4 (constant S_ .f32 0x7FC00000#32),
    StableHlo.unary main_call10_cst_4 main_call10_call0_v0 (id : (⟨S_, .f32⟩ : BufTy).Contents (Elt F) → (⟨S_, .f32⟩ : BufTy).Contents (Elt F)),
    StableHlo.unary main_call10_call0_v0 main_call10_call0_v1 (broadcastInDim S80000x1 ![] bcast_S_S80000x1 : (⟨S_, .f32⟩ : BufTy).Contents (Elt F) → (⟨S80000x1, .f32⟩ : BufTy).Contents (Elt F)),
    StableHlo.ternary main_call10_v13 main_call10_v12 main_call10_call0_v1 main_v157 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v156 main_v158 (broadcastInDim S80000x64 ![0, 1] bcast_S80000x1_S80000x64_0_1 : (⟨S80000x1, .f32⟩ : BufTy).Contents (Elt F) → (⟨S80000x64, .f32⟩ : BufTy).Contents (Elt F)),
    StableHlo.binary main_v152 main_v158 main_v159 (subf : (⟨S80000x64, .f32⟩ : BufTy).Contents (Elt F) → (⟨S80000x64, .f32⟩ : BufTy).Contents (Elt F) → (⟨S80000x64, .f32⟩ : BufTy).Contents (Elt F)),
    StableHlo.nullary main_cst_21 (constant S_ .f32 0x3727C5AC#32),
    StableHlo.unary main_cst_21 main_v160 (broadcastInDim S80000x1 ![] bcast_S_S80000x1 : (⟨S_, .f32⟩ : BufTy).Contents (Elt F) → (⟨S80000x1, .f32⟩ : BufTy).Contents (Elt F)),
    StableHlo.binary main_v157 main_v160 main_v161 (addf : (⟨S80000x1, .f32⟩ : BufTy).Contents (Elt F) → (⟨S80000x1, .f32⟩ : BufTy).Contents (Elt F) → (⟨S80000x1, .f32⟩ : BufTy).Contents (Elt F)),
    StableHlo.unary main_v161 main_v162 (Host.rsqrt : (⟨S80000x1, .f32⟩ : BufTy).Contents (Elt F) → (⟨S80000x1, .f32⟩ : BufTy).Contents (Elt F)),
    StableHlo.unary main_v162 main_v163 (broadcastInDim S80000x64 ![0, 1] bcast_S80000x1_S80000x64_0_1 : (⟨S80000x1, .f32⟩ : BufTy).Contents (Elt F) → (⟨S80000x64, .f32⟩ : BufTy).Contents (Elt F)),
    StableHlo.binary main_v159 main_v163 main_v164 (mulf : (⟨S80000x64, .f32⟩ : BufTy).Contents (Elt F) → (⟨S80000x64, .f32⟩ : BufTy).Contents (Elt F) → (⟨S80000x64, .f32⟩ : BufTy).Contents (Elt F)),
    StableHlo.unary main_arg14 main_v165 ((extractStridedSlice S1x64 ![1, 0] · slices_S4x64_S1x64_1_0) : (⟨S4x64, .f32⟩ : BufTy).Contents (Elt F) → (⟨S1x64, .f32⟩ : BufTy).Contents (Elt F)),
    StableHlo.reshape main_v165 main_v166 rfl shapeCasts_S1x64_S64,
    StableHlo.unary main_v166 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S80000x64 ![0, 1] bcast_S1x64_S80000x64_0_1 : (⟨S1x64, .f32⟩ : BufTy).Contents (Elt F) → (⟨S80000x64, .f32⟩ : BufTy).Contents (Elt F)),
    StableHlo.binary main_v164 main_v168 main_v169 (mulf : (⟨S80000x64, .f32⟩ : BufTy).Contents (Elt F) → (⟨S80000x64, .f32⟩ : BufTy).Contents (Elt F) → (⟨S80000x64, .f32⟩ : BufTy).Contents (Elt F)),
    StableHlo.unary main_arg15 main_v170 ((extractStridedSlice S1x64 ![1, 0] · slices_S4x64_S1x64_1_0) : (⟨S4x64, .f32⟩ : BufTy).Contents (Elt F) → (⟨S1x64, .f32⟩ : BufTy).Contents (Elt F)),
    StableHlo.reshape main_v170 main_v171 rfl shapeCasts_S1x64_S64,
    StableHlo.unary main_v171 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S80000x64 ![0, 1] bcast_S1x64_S80000x64_0_1 : (⟨S1x64, .f32⟩ : BufTy).Contents (Elt F) → (⟨S80000x64, .f32⟩ : BufTy).Contents (Elt F)),
    StableHlo.binary main_v169 main_v173 main_v174 (addf : (⟨S80000x64, .f32⟩ : BufTy).Contents (Elt F) → (⟨S80000x64, .f32⟩ : BufTy).Contents (Elt F) → (⟨S80000x64, .f32⟩ : BufTy).Contents (Elt F)),
    StableHlo.nullary main_call11_cst (constant S_ .f32 0x00000000#32),
    StableHlo.unary main_call11_cst main_call11_v0 (broadcastInDim S80000x64 ![] bcast_S_S80000x64 : (⟨S_, .f32⟩ : BufTy).Contents (Elt F) → (⟨S80000x64, .f32⟩ : BufTy).Contents (Elt F)),
    StableHlo.binary main_v174 main_call11_v0 main_v175 (maximumf : (⟨S80000x64, .f32⟩ : BufTy).Contents (Elt F) → (⟨S80000x64, .f32⟩ : BufTy).Contents (Elt F) → (⟨S80000x64, .f32⟩ : BufTy).Contents (Elt F)),
    StableHlo.nullary main_c_22 (constantI S_ 32 0#32),
    StableHlo.unary main_c_22 main_v176 (broadcastInDim S1280000 ![] bcast_S_S1280000 : (⟨S_, .i32⟩ : BufTy).Contents (Elt F) → (⟨S1280000, .i32⟩ : BufTy).Contents (Elt F)),
    StableHlo.binary main_v11 main_v176 main_v177 (cmpi .slt : (⟨S1280000, .i32⟩ : BufTy).Contents (Elt F) → (⟨S1280000, .i32⟩ : BufTy).Contents (Elt F) → (⟨S1280000, .i1⟩ : BufTy).Contents (Elt F)),
    StableHlo.nullary main_c_23 (constantI S_ 32 80000#32),
    StableHlo.unary main_c_23 main_v178 (broadcastInDim S1280000 ![] bcast_S_S1280000 : (⟨S_, .i32⟩ : BufTy).Contents (Elt F) → (⟨S1280000, .i32⟩ : BufTy).Contents (Elt F)),
    StableHlo.binary main_v11 main_v178 main_v179 (addi : (⟨S1280000, .i32⟩ : BufTy).Contents (Elt F) → (⟨S1280000, .i32⟩ : BufTy).Contents (Elt F) → (⟨S1280000, .i32⟩ : BufTy).Contents (Elt F)),
    StableHlo.ternary main_v177 main_v179 main_v11 main_v180 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v180 main_v181 (broadcastInDim S1280000x1 ![0] bcast_S1280000_S1280000x1_0 : (⟨S1280000, .i32⟩ : BufTy).Contents (Elt F) → (⟨S1280000x1, .i32⟩ : BufTy).Contents (Elt F)),
    StableHlo.binary main_v175 main_v181 main_v182 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v182 main_v9 main_v183 (addf : (⟨S1280000x64, .f32⟩ : BufTy).Contents (Elt F) → (⟨S1280000x64, .f32⟩ : BufTy).Contents (Elt F) → (⟨S1280000x64, .f32⟩ : BufTy).Contents (Elt F)),
    StableHlo.nullary main_call12_cst (constant S_ .f32 0x00000000#32),
    StableHlo.unary main_call12_cst main_call12_v0 (broadcastInDim S1280000x64 ![] bcast_S_S1280000x64 : (⟨S_, .f32⟩ : BufTy).Contents (Elt F) → (⟨S1280000x64, .f32⟩ : BufTy).Contents (Elt F)),
    StableHlo.binary main_v183 main_call12_v0 main_v184 (maximumf : (⟨S1280000x64, .f32⟩ : BufTy).Contents (Elt F) → (⟨S1280000x64, .f32⟩ : BufTy).Contents (Elt F) → (⟨S1280000x64, .f32⟩ : BufTy).Contents (Elt F)),
    StableHlo.nullary main_cst_24 (constant S_ .f32 0x00000000#32),
    StableHlo.unary main_cst_24 main_v185 (broadcastInDim S80000x64 ![] bcast_S_S80000x64 : (⟨S_, .f32⟩ : BufTy).Contents (Elt F) → (⟨S80000x64, .f32⟩ : BufTy).Contents (Elt F)),
    StableHlo.unary main_v13 main_v186 (broadcastInDim S1280000x1 ![0] bcast_S1280000_S1280000x1_0 : (⟨S1280000, .i32⟩ : BufTy).Contents (Elt F) → (⟨S1280000x1, .i32⟩ : BufTy).Contents (Elt F)),
    StableHlo.ternary main_v185 main_v186 main_v184 main_v187 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v188 ((extractStridedSlice S1 ![2] · slices_S4_S1_2) : (⟨S4, .f32⟩ : BufTy).Contents (Elt F) → (⟨S1, .f32⟩ : BufTy).Contents (Elt F)),
    StableHlo.reshape main_v188 main_v189 rfl shapeCasts_S1_S_,
    StableHlo.nullary main_cst_25 (constant S_ .f32 0x3F800000#32),
    StableHlo.binary main_cst_25 main_v189 main_v190 (addf : (⟨S_, .f32⟩ : BufTy).Contents (Elt F) → (⟨S_, .f32⟩ : BufTy).Contents (Elt F) → (⟨S_, .f32⟩ : BufTy).Contents (Elt F)),
    StableHlo.unary main_v190 main_v191 (broadcastInDim S80000x64 ![] bcast_S_S80000x64 : (⟨S_, .f32⟩ : BufTy).Contents (Elt F) → (⟨S80000x64, .f32⟩ : BufTy).Contents (Elt F)),
    StableHlo.binary main_v191 main_v175 main_v192 (mulf : (⟨S80000x64, .f32⟩ : BufTy).Contents (Elt F) → (⟨S80000x64, .f32⟩ : BufTy).Contents (Elt F) → (⟨S80000x64, .f32⟩ : BufTy).Contents (Elt F)),
    StableHlo.binary main_v192 main_v187 main_v193 (addf : (⟨S80000x64, .f32⟩ : BufTy).Contents (Elt F) → (⟨S80000x64, .f32⟩ : BufTy).Contents (Elt F) → (⟨S80000x64, .f32⟩ : BufTy).Contents (Elt F)),
    StableHlo.unary main_arg7 main_v194 ((extractStridedSlice S1x64x128 ![2, 0, 0] · slices_S4x64x128_S1x64x128_2_0_0) : (⟨S4x64x128, .f32⟩ : BufTy).Contents (Elt F) → (⟨S1x64x128, .f32⟩ : BufTy).Contents (Elt F)),
    StableHlo.reshape main_v194 main_v195 rfl shapeCasts_S1x64x128_S64x128,
    StableHlo.binary main_v193 main_v195 main_v196 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v197 ((extractStridedSlice S1x128 ![2, 0] · slices_S4x128_S1x128_2_0) : (⟨S4x128, .f32⟩ : BufTy).Contents (Elt F) → (⟨S1x128, .f32⟩ : BufTy).Contents (Elt F)),
    StableHlo.reshape main_v197 main_v198 rfl shapeCasts_S1x128_S128,
    StableHlo.unary main_v198 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S80000x128 ![0, 1] bcast_S1x128_S80000x128_0_1 : (⟨S1x128, .f32⟩ : BufTy).Contents (Elt F) → (⟨S80000x128, .f32⟩ : BufTy).Contents (Elt F)),
    StableHlo.binary main_v196 main_v200 main_v201 (addf : (⟨S80000x128, .f32⟩ : BufTy).Contents (Elt F) → (⟨S80000x128, .f32⟩ : BufTy).Contents (Elt F) → (⟨S80000x128, .f32⟩ : BufTy).Contents (Elt F)),
    StableHlo.nullary main_cst_26 (constant S_ .f32 0x00000000#32),
    StableHlo.binary main_v201 main_cst_26 main_v202 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_27 (constant S_ .f32 0x479C4000#32),
    StableHlo.unary main_cst_27 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.nullary main_call13_cst (constant S_ .f32 0x00000000#32),
    StableHlo.binary main_v201 main_call13_cst main_call13_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call13_v0 main_call13_v1 (broadcastInDim S1x128 ![1] bcast_S128_S1x128_1 : (⟨S128, .f32⟩ : BufTy).Contents (Elt F) → (⟨S1x128, .f32⟩ : BufTy).Contents (Elt F)),
    StableHlo.nullary main_call13_cst_0 (constant S_ .f32 0x479C4000#32),
    StableHlo.unary main_call13_cst_0 main_call13_v2 (broadcastInDim S1x128 ![] bcast_S_S1x128 : (⟨S_, .f32⟩ : BufTy).Contents (Elt F) → (⟨S1x128, .f32⟩ : BufTy).Contents (Elt F)),
    StableHlo.binary main_call13_v1 main_call13_v2 main_call13_v3 (Host.divf : (⟨S1x128, .f32⟩ : BufTy).Contents (Elt F) → (⟨S1x128, .f32⟩ : BufTy).Contents (Elt F) → (⟨S1x128, .f32⟩ : BufTy).Contents (Elt F)),
    StableHlo.unary main_call13_v3 main_call13_v4 (broadcastInDim S80000x128 ![0, 1] bcast_S1x128_S80000x128_0_1 : (⟨S1x128, .f32⟩ : BufTy).Contents (Elt F) → (⟨S80000x128, .f32⟩ : BufTy).Contents (Elt F)),
    StableHlo.binary main_v201 main_call13_v4 main_call13_v5 (subf : (⟨S80000x128, .f32⟩ : BufTy).Contents (Elt F) → (⟨S80000x128, .f32⟩ : BufTy).Contents (Elt F) → (⟨S80000x128, .f32⟩ : BufTy).Contents (Elt F)),
    StableHlo.binary main_call13_v5 main_call13_v5 main_call13_v6 (mulf : (⟨S80000x128, .f32⟩ : BufTy).Contents (Elt F) → (⟨S80000x128, .f32⟩ : BufTy).Contents (Elt F) → (⟨S80000x128, .f32⟩ : BufTy).Contents (Elt F)),
    StableHlo.unary main_c_28 main_call13_v7 (sitofp .f32 : (⟨S_, .i32⟩ : BufTy).Contents (Elt F) → (⟨S_, .f32⟩ : BufTy).Contents (Elt F)),
    StableHlo.nullary main_call13_cst_1 (constant S_ .f32 0x479C4000#32),
    StableHlo.binary main_call13_cst_1 main_call13_v7 main_call13_v8 (subf : (⟨S_, .f32⟩ : BufTy).Contents (Elt F) → (⟨S_, .f32⟩ : BufTy).Contents (Elt F) → (⟨S_, .f32⟩ : BufTy).Contents (Elt F)),
    StableHlo.nullary main_call13_cst_2 (constant S_ .f32 0x00000000#32),
    StableHlo.binary main_call13_v6 main_call13_cst_2 main_call13_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call13_v8 main_call13_v10 (broadcastInDim S128 ![] bcast_S_S128 : (⟨S_, .f32⟩ : BufTy).Contents (Elt F) → (⟨S128, .f32⟩ : BufTy).Contents (Elt F)),
    StableHlo.binary main_call13_v9 main_call13_v10 main_call13_v11 (Host.divf : (⟨S128, .f32⟩ : BufTy).Contents (Elt F) → (⟨S128, .f32⟩ : BufTy).Contents (Elt F) → (⟨S128, .f32⟩ : BufTy).Contents (Elt F)),
    StableHlo.nullary main_call13_cst_3 (constant S_ .f32 0x00000000#32),
    StableHlo.binary main_call13_v8 main_call13_cst_3 main_call13_v12 (cmpf .ogt : (⟨S_, .f32⟩ : BufTy).Contents (Elt F) → (⟨S_, .f32⟩ : BufTy).Contents (Elt F) → (⟨S_, .i1⟩ : BufTy).Contents (Elt F)),
    StableHlo.nullary main_call13_cst_4 (constant S_ .f32 0x7FC00000#32),
    StableHlo.unary main_call13_cst_4 main_call13_call0_v0 (id : (⟨S_, .f32⟩ : BufTy).Contents (Elt F) → (⟨S_, .f32⟩ : BufTy).Contents (Elt F)),
    StableHlo.unary main_call13_call0_v0 main_call13_call0_v1 (broadcastInDim S128 ![] bcast_S_S128 : (⟨S_, .f32⟩ : BufTy).Contents (Elt F) → (⟨S128, .f32⟩ : BufTy).Contents (Elt F)),
    StableHlo.ternary main_call13_v12 main_call13_v11 main_call13_call0_v1 main_v205 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S80000x128 ![0, 1] bcast_S1x128_S80000x128_0_1 : (⟨S1x128, .f32⟩ : BufTy).Contents (Elt F) → (⟨S80000x128, .f32⟩ : BufTy).Contents (Elt F)),
    StableHlo.binary main_v201 main_v207 main_v208 (subf : (⟨S80000x128, .f32⟩ : BufTy).Contents (Elt F) → (⟨S80000x128, .f32⟩ : BufTy).Contents (Elt F) → (⟨S80000x128, .f32⟩ : BufTy).Contents (Elt F)) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part3_eq (c : Dev nD) : main_part3 (F := F) c = seq ops3 := by
  simp only [main_part3, fn_var_2.body, fn_where_3.body, fn_relu.body, fn_relu_0.body, fn_var.body, fn_where.body, seq, bind_assoc, pure_bind]
  rfl

theorem ops3_sub : (ops3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩

/-- The buffers the window's operations write, in order. -/
abbrev ops3_W : List (Ref sig .tc) :=
  [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v157, main_v158, main_v159, main_cst_21, main_v160, main_v161, main_v162, main_v163, main_v164, main_v165, main_v166, main_v167, main_v168, main_v169, main_v170, main_v171, main_v172, main_v173, main_v174, main_call11_cst, main_call11_v0, main_v175, main_c_22, main_v176, main_v177, main_c_23, main_v178, main_v179, main_v180, main_v181, main_v182, main_v183, main_call12_cst, main_call12_v0, main_v184, main_cst_24, main_v185, main_v186, main_v187, main_v188, main_v189, main_cst_25, main_v190, main_v191, main_v192, main_v193, main_v194, main_v195, main_v196, main_v197, main_v198, main_v199, main_v200, main_v201, main_cst_26, main_v202, main_cst_27, main_v203, main_v204, main_c_28, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v205, main_v206, main_v207, main_v208]

set_option maxRecDepth 8192 in
theorem ops3_writes : (ops3 : List (HloOp τ sig (Elt F))).Forall fun op =>
    op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops3_fresh : ∀ op ∈ (ops3 : List (HloOp τ sig (Elt F))), op.fresh = ∅ := by
  intro _ h; (repeat (cases h with | head => rfl | tail _ h => ?_)); exact nomatch h

end Cert.ReferenceIdeal.RefRun

end
-- ==== Proof.RefRunOps4.lean ====
/-
  The reference program's statements 241 … 300 of 386 (its window `main_part4`) as a LIST of 86 host operations.
  A statement that is an operation is the list's entry as printed; a statement that calls a module-local function
  (`fn_relu_1`, `fn_var_2`, `fn_relu`) is the callee's operations in order, each over the buffers the
  call's record gives the callee's values and over the call's operand buffers for its arguments — a call means its
  callee's body, substituted. A callee's operation is printed over typed references; at a literal reference the typed
  builder is the plain one (its two conversions are the identity), and the list states the plain one.
  `main_part4_eq`: the window is that straight line. `ops4_sub`: every operation touches TensorCore buffers only.
  `ops4_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 241 … 300: 86 operations, in order. -/
abbrev ops4 : List (HloOp τ sig (Elt F)) :=
  [ StableHlo.nullary main_cst_29 (constant S_ .f32 0x3727C5AC#32),
    StableHlo.unary main_cst_29 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S80000x128 ![0, 1] bcast_S1x128_S80000x128_0_1 : (⟨S1x128, .f32⟩ : BufTy).Contents (Elt F) → (⟨S80000x128, .f32⟩ : BufTy).Contents (Elt F)),
    StableHlo.binary main_v208 main_v213 main_v214 (mulf : (⟨S80000x128, .f32⟩ : BufTy).Contents (Elt F) → (⟨S80000x128, .f32⟩ : BufTy).Contents (Elt F) → (⟨S80000x128, .f32⟩ : BufTy).Contents (Elt F)),
    StableHlo.unary main_arg9 main_v215 ((extractStridedSlice S1x128 ![2, 0] · slices_S4x128_S1x128_2_0) : (⟨S4x128, .f32⟩ : BufTy).Contents (Elt F) → (⟨S1x128, .f32⟩ : BufTy).Contents (Elt F)),
    StableHlo.reshape main_v215 main_v216 rfl shapeCasts_S1x128_S128,
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S80000x128 ![0, 1] bcast_S1x128_S80000x128_0_1 : (⟨S1x128, .f32⟩ : BufTy).Contents (Elt F) → (⟨S80000x128, .f32⟩ : BufTy).Contents (Elt F)),
    StableHlo.binary main_v214 main_v218 main_v219 (mulf : (⟨S80000x128, .f32⟩ : BufTy).Contents (Elt F) → (⟨S80000x128, .f32⟩ : BufTy).Contents (Elt F) → (⟨S80000x128, .f32⟩ : BufTy).Contents (Elt F)),
    StableHlo.unary main_arg10 main_v220 ((extractStridedSlice S1x128 ![2, 0] · slices_S4x128_S1x128_2_0) : (⟨S4x128, .f32⟩ : BufTy).Contents (Elt F) → (⟨S1x128, .f32⟩ : BufTy).Contents (Elt F)),
    StableHlo.reshape main_v220 main_v221 rfl shapeCasts_S1x128_S128,
    StableHlo.unary main_v221 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S80000x128 ![0, 1] bcast_S1x128_S80000x128_0_1 : (⟨S1x128, .f32⟩ : BufTy).Contents (Elt F) → (⟨S80000x128, .f32⟩ : BufTy).Contents (Elt F)),
    StableHlo.binary main_v219 main_v223 main_v224 (addf : (⟨S80000x128, .f32⟩ : BufTy).Contents (Elt F) → (⟨S80000x128, .f32⟩ : BufTy).Contents (Elt F) → (⟨S80000x128, .f32⟩ : BufTy).Contents (Elt F)),
    StableHlo.nullary main_call14_cst (constant S_ .f32 0x00000000#32),
    StableHlo.unary main_call14_cst main_call14_v0 (broadcastInDim S80000x128 ![] bcast_S_S80000x128 : (⟨S_, .f32⟩ : BufTy).Contents (Elt F) → (⟨S80000x128, .f32⟩ : BufTy).Contents (Elt F)),
    StableHlo.binary main_v224 main_call14_v0 main_v225 (maximumf : (⟨S80000x128, .f32⟩ : BufTy).Contents (Elt F) → (⟨S80000x128, .f32⟩ : BufTy).Contents (Elt F) → (⟨S80000x128, .f32⟩ : BufTy).Contents (Elt F)),
    StableHlo.unary main_arg11 main_v226 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v226 main_v227 rfl shapeCasts_S1x128x64_S128x64,
    StableHlo.binary main_v225 main_v227 main_v228 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v229 ((extractStridedSlice S1x64 ![2, 0] · slices_S4x64_S1x64_2_0) : (⟨S4x64, .f32⟩ : BufTy).Contents (Elt F) → (⟨S1x64, .f32⟩ : BufTy).Contents (Elt F)),
    StableHlo.reshape main_v229 main_v230 rfl shapeCasts_S1x64_S64,
    StableHlo.unary main_v230 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S80000x64 ![0, 1] bcast_S1x64_S80000x64_0_1 : (⟨S1x64, .f32⟩ : BufTy).Contents (Elt F) → (⟨S80000x64, .f32⟩ : BufTy).Contents (Elt F)),
    StableHlo.binary main_v228 main_v232 main_v233 (addf : (⟨S80000x64, .f32⟩ : BufTy).Contents (Elt F) → (⟨S80000x64, .f32⟩ : BufTy).Contents (Elt F) → (⟨S80000x64, .f32⟩ : BufTy).Contents (Elt F)),
    StableHlo.nullary main_cst_30 (constant S_ .f32 0x00000000#32),
    StableHlo.binary main_v233 main_cst_30 main_v234 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v234 main_v235 (broadcastInDim S80000x1 ![0] bcast_S80000_S80000x1_0 : (⟨S80000, .f32⟩ : BufTy).Contents (Elt F) → (⟨S80000x1, .f32⟩ : BufTy).Contents (Elt F)),
    StableHlo.nullary main_cst_31 (constant S_ .f32 0x42800000#32),
    StableHlo.unary main_cst_31 main_v236 (broadcastInDim S80000x1 ![] bcast_S_S80000x1 : (⟨S_, .f32⟩ : BufTy).Contents (Elt F) → (⟨S80000x1, .f32⟩ : BufTy).Contents (Elt F)),
    StableHlo.binary main_v235 main_v236 main_v237 (Host.divf : (⟨S80000x1, .f32⟩ : BufTy).Contents (Elt F) → (⟨S80000x1, .f32⟩ : BufTy).Contents (Elt F) → (⟨S80000x1, .f32⟩ : BufTy).Contents (Elt F)),
    StableHlo.nullary main_c_32 (constantI S_ 32 0#32),
    StableHlo.nullary main_call15_cst (constant S_ .f32 0x00000000#32),
    StableHlo.binary main_v233 main_call15_cst main_call15_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call15_v0 main_call15_v1 (broadcastInDim S80000x1 ![0] bcast_S80000_S80000x1_0 : (⟨S80000, .f32⟩ : BufTy).Contents (Elt F) → (⟨S80000x1, .f32⟩ : BufTy).Contents (Elt F)),
    StableHlo.nullary main_call15_cst_0 (constant S_ .f32 0x42800000#32),
    StableHlo.unary main_call15_cst_0 main_call15_v2 (broadcastInDim S80000x1 ![] bcast_S_S80000x1 : (⟨S_, .f32⟩ : BufTy).Contents (Elt F) → (⟨S80000x1, .f32⟩ : BufTy).Contents (Elt F)),
    StableHlo.binary main_call15_v1 main_call15_v2 main_call15_v3 (Host.divf : (⟨S80000x1, .f32⟩ : BufTy).Contents (Elt F) → (⟨S80000x1, .f32⟩ : BufTy).Contents (Elt F) → (⟨S80000x1, .f32⟩ : BufTy).Contents (Elt F)),
    StableHlo.unary main_call15_v3 main_call15_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v233 main_call15_v4 main_call15_v5 (subf : (⟨S80000x64, .f32⟩ : BufTy).Contents (Elt F) → (⟨S80000x64, .f32⟩ : BufTy).Contents (Elt F) → (⟨S80000x64, .f32⟩ : BufTy).Contents (Elt F)),
    StableHlo.binary main_call15_v5 main_call15_v5 main_call15_v6 (mulf : (⟨S80000x64, .f32⟩ : BufTy).Contents (Elt F) → (⟨S80000x64, .f32⟩ : BufTy).Contents (Elt F) → (⟨S80000x64, .f32⟩ : BufTy).Contents (Elt F)),
    StableHlo.unary main_c_32 main_call15_v7 (sitofp .f32 : (⟨S_, .i32⟩ : BufTy).Contents (Elt F) → (⟨S_, .f32⟩ : BufTy).Contents (Elt F)),
    StableHlo.nullary main_call15_cst_1 (constant S_ .f32 0x42800000#32),
    StableHlo.binary main_call15_cst_1 main_call15_v7 main_call15_v8 (subf : (⟨S_, .f32⟩ : BufTy).Contents (Elt F) → (⟨S_, .f32⟩ : BufTy).Contents (Elt F) → (⟨S_, .f32⟩ : BufTy).Contents (Elt F)),
    StableHlo.nullary main_call15_cst_2 (constant S_ .f32 0x00000000#32),
    StableHlo.binary main_call15_v6 main_call15_cst_2 main_call15_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call15_v9 main_call15_v10 (broadcastInDim S80000x1 ![0] bcast_S80000_S80000x1_0 : (⟨S80000, .f32⟩ : BufTy).Contents (Elt F) → (⟨S80000x1, .f32⟩ : BufTy).Contents (Elt F)),
    StableHlo.unary main_call15_v8 main_call15_v11 (broadcastInDim S80000x1 ![] bcast_S_S80000x1 : (⟨S_, .f32⟩ : BufTy).Contents (Elt F) → (⟨S80000x1, .f32⟩ : BufTy).Contents (Elt F)),
    StableHlo.binary main_call15_v10 main_call15_v11 main_call15_v12 (Host.divf : (⟨S80000x1, .f32⟩ : BufTy).Contents (Elt F) → (⟨S80000x1, .f32⟩ : BufTy).Contents (Elt F) → (⟨S80000x1, .f32⟩ : BufTy).Contents (Elt F)),
    StableHlo.nullary main_call15_cst_3 (constant S_ .f32 0x00000000#32),
    StableHlo.binary main_call15_v8 main_call15_cst_3 main_call15_v13 (cmpf .ogt : (⟨S_, .f32⟩ : BufTy).Contents (Elt F) → (⟨S_, .f32⟩ : BufTy).Contents (Elt F) → (⟨S_, .i1⟩ : BufTy).Contents (Elt F)),
    StableHlo.nullary main_call15_cst_4 (constant S_ .f32 0x7FC00000#32),
    StableHlo.unary main_call15_cst_4 main_call15_call0_v0 (id : (⟨S_, .f32⟩ : BufTy).Contents (Elt F) → (⟨S_, .f32⟩ : BufTy).Contents (Elt F)),
    StableHlo.unary main_call15_call0_v0 main_call15_call0_v1 (broadcastInDim S80000x1 ![] bcast_S_S80000x1 : (⟨S_, .f32⟩ : BufTy).Contents (Elt F) → (⟨S80000x1, .f32⟩ : BufTy).Contents (Elt F)),
    StableHlo.ternary main_call15_v13 main_call15_v12 main_call15_call0_v1 main_v238 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v237 main_v239 (broadcastInDim S80000x64 ![0, 1] bcast_S80000x1_S80000x64_0_1 : (⟨S80000x1, .f32⟩ : BufTy).Contents (Elt F) → (⟨S80000x64, .f32⟩ : BufTy).Contents (Elt F)),
    StableHlo.binary main_v233 main_v239 main_v240 (subf : (⟨S80000x64, .f32⟩ : BufTy).Contents (Elt F) → (⟨S80000x64, .f32⟩ : BufTy).Contents (Elt F) → (⟨S80000x64, .f32⟩ : BufTy).Contents (Elt F)),
    StableHlo.nullary main_cst_33 (constant S_ .f32 0x3727C5AC#32),
    StableHlo.unary main_cst_33 main_v241 (broadcastInDim S80000x1 ![] bcast_S_S80000x1 : (⟨S_, .f32⟩ : BufTy).Contents (Elt F) → (⟨S80000x1, .f32⟩ : BufTy).Contents (Elt F)),
    StableHlo.binary main_v238 main_v241 main_v242 (addf : (⟨S80000x1, .f32⟩ : BufTy).Contents (Elt F) → (⟨S80000x1, .f32⟩ : BufTy).Contents (Elt F) → (⟨S80000x1, .f32⟩ : BufTy).Contents (Elt F)),
    StableHlo.unary main_v242 main_v243 (Host.rsqrt : (⟨S80000x1, .f32⟩ : BufTy).Contents (Elt F) → (⟨S80000x1, .f32⟩ : BufTy).Contents (Elt F)),
    StableHlo.unary main_v243 main_v244 (broadcastInDim S80000x64 ![0, 1] bcast_S80000x1_S80000x64_0_1 : (⟨S80000x1, .f32⟩ : BufTy).Contents (Elt F) → (⟨S80000x64, .f32⟩ : BufTy).Contents (Elt F)),
    StableHlo.binary main_v240 main_v244 main_v245 (mulf : (⟨S80000x64, .f32⟩ : BufTy).Contents (Elt F) → (⟨S80000x64, .f32⟩ : BufTy).Contents (Elt F) → (⟨S80000x64, .f32⟩ : BufTy).Contents (Elt F)),
    StableHlo.unary main_arg14 main_v246 ((extractStridedSlice S1x64 ![2, 0] · slices_S4x64_S1x64_2_0) : (⟨S4x64, .f32⟩ : BufTy).Contents (Elt F) → (⟨S1x64, .f32⟩ : BufTy).Contents (Elt F)),
    StableHlo.reshape main_v246 main_v247 rfl shapeCasts_S1x64_S64,
    StableHlo.unary main_v247 main_v248 (broadcastInDim S1x64 ![1] bcast_S64_S1x64_1 : (⟨S64, .f32⟩ : BufTy).Contents (Elt F) → (⟨S1x64, .f32⟩ : BufTy).Contents (Elt F)),
    StableHlo.unary main_v248 main_v249 (broadcastInDim S80000x64 ![0, 1] bcast_S1x64_S80000x64_0_1 : (⟨S1x64, .f32⟩ : BufTy).Contents (Elt F) → (⟨S80000x64, .f32⟩ : BufTy).Contents (Elt F)),
    StableHlo.binary main_v245 main_v249 main_v250 (mulf : (⟨S80000x64, .f32⟩ : BufTy).Contents (Elt F) → (⟨S80000x64, .f32⟩ : BufTy).Contents (Elt F) → (⟨S80000x64, .f32⟩ : BufTy).Contents (Elt F)),
    StableHlo.unary main_arg15 main_v251 ((extractStridedSlice S1x64 ![2, 0] · slices_S4x64_S1x64_2_0) : (⟨S4x64, .f32⟩ : BufTy).Contents (Elt F) → (⟨S1x64, .f32⟩ : BufTy).Contents (Elt F)),
    StableHlo.reshape main_v251 main_v252 rfl shapeCasts_S1x64_S64,
    StableHlo.unary main_v252 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S80000x64 ![0, 1] bcast_S1x64_S80000x64_0_1 : (⟨S1x64, .f32⟩ : BufTy).Contents (Elt F) → (⟨S80000x64, .f32⟩ : BufTy).Contents (Elt F)),
    StableHlo.binary main_v250 main_v254 main_v255 (addf : (⟨S80000x64, .f32⟩ : BufTy).Contents (Elt F) → (⟨S80000x64, .f32⟩ : BufTy).Contents (Elt F) → (⟨S80000x64, .f32⟩ : BufTy).Contents (Elt F)),
    StableHlo.nullary main_call16_cst (constant S_ .f32 0x00000000#32),
    StableHlo.unary main_call16_cst main_call16_v0 (broadcastInDim S80000x64 ![] bcast_S_S80000x64 : (⟨S_, .f32⟩ : BufTy).Contents (Elt F) → (⟨S80000x64, .f32⟩ : BufTy).Contents (Elt F)),
    StableHlo.binary main_v255 main_call16_v0 main_v256 (maximumf : (⟨S80000x64, .f32⟩ : BufTy).Contents (Elt F) → (⟨S80000x64, .f32⟩ : BufTy).Contents (Elt F) → (⟨S80000x64, .f32⟩ : BufTy).Contents (Elt F)),
    StableHlo.nullary main_c_34 (constantI S_ 32 0#32),
    StableHlo.unary main_c_34 main_v257 (broadcastInDim S1280000 ![] bcast_S_S1280000 : (⟨S_, .i32⟩ : BufTy).Contents (Elt F) → (⟨S1280000, .i32⟩ : BufTy).Contents (Elt F)),
    StableHlo.binary main_v11 main_v257 main_v258 (cmpi .slt : (⟨S1280000, .i32⟩ : BufTy).Contents (Elt F) → (⟨S1280000, .i32⟩ : BufTy).Contents (Elt F) → (⟨S1280000, .i1⟩ : BufTy).Contents (Elt F)),
    StableHlo.nullary main_c_35 (constantI S_ 32 80000#32),
    StableHlo.unary main_c_35 main_v259 (broadcastInDim S1280000 ![] bcast_S_S1280000 : (⟨S_, .i32⟩ : BufTy).Contents (Elt F) → (⟨S1280000, .i32⟩ : BufTy).Contents (Elt F)),
    StableHlo.binary main_v11 main_v259 main_v260 (addi : (⟨S1280000, .i32⟩ : BufTy).Contents (Elt F) → (⟨S1280000, .i32⟩ : BufTy).Contents (Elt F) → (⟨S1280000, .i32⟩ : BufTy).Contents (Elt F)),
    StableHlo.ternary main_v258 main_v260 main_v11 main_v261 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part4_eq (c : Dev nD) : main_part4 (F := F) c = seq ops4 := by
  simp only [main_part4, fn_relu_1.body, fn_var_2.body, fn_where_3.body, fn_relu.body, seq, bind_assoc, pure_bind]
  rfl

theorem ops4_sub : (ops4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

/-- The buffers the window's operations write, in order. -/
abbrev ops4_W : List (Ref sig .tc) :=
  [main_cst_29, main_v209, main_v210, main_v211, main_v212, main_v213, main_v214, main_v215, main_v216, main_v217, main_v218, main_v219, main_v220, main_v221, main_v222, main_v223, main_v224, main_call14_cst, main_call14_v0, main_v225, main_v226, main_v227, main_v228, main_v229, main_v230, main_v231, main_v232, main_v233, main_cst_30, main_v234, main_v235, main_cst_31, main_v236, main_v237, main_c_32, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_v12, main_call15_cst_3, main_call15_v13, main_call15_cst_4, main_call15_call0_v0, main_call15_call0_v1, main_v238, main_v239, main_v240, main_cst_33, main_v241, main_v242, main_v243, main_v244, main_v245, main_v246, main_v247, main_v248, main_v249, main_v250, main_v251, main_v252, main_v253, main_v254, main_v255, main_call16_cst, main_call16_v0, main_v256, main_c_34, main_v257, main_v258, main_c_35, main_v259, main_v260, main_v261]

set_option maxRecDepth 8192 in
theorem ops4_writes : (ops4 : List (HloOp τ sig (Elt F))).Forall fun op =>
    op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops4_fresh : ∀ op ∈ (ops4 : List (HloOp τ sig (Elt F))), op.fresh = ∅ := by
  intro _ h; (repeat (cases h with | head => rfl | tail _ h => ?_)); exact nomatch h

end Cert.ReferenceIdeal.RefRun

end
-- ==== Proof.RefRunOps5.lean ====
/-
  The reference program's statements 301 … 360 of 386 (its window `main_part5`) as a LIST of 85 host operations.
  A statement that is an operation is the list's entry as printed; a statement that calls a module-local function
  (`fn_relu_0`, `fn_var`, `fn_relu_1`) is the callee's operations in order, each over the buffers the
  call's record gives the callee's values and over the call's operand buffers for its arguments — a call means its
  callee's body, substituted. A callee's operation is printed over typed references; at a literal reference the typed
  builder is the plain one (its two conversions are the identity), and the list states the plain one.
  `main_part5_eq`: the window is that straight line. `ops5_sub`: every operation touches TensorCore buffers only.
  `ops5_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 301 … 360: 85 operations, in order. -/
abbrev ops5 : List (HloOp τ sig (Elt F)) :=
  [ StableHlo.unary main_v261 main_v262 (broadcastInDim S1280000x1 ![0] bcast_S1280000_S1280000x1_0 : (⟨S1280000, .i32⟩ : BufTy).Contents (Elt F) → (⟨S1280000x1, .i32⟩ : BufTy).Contents (Elt F)),
    StableHlo.binary main_v256 main_v262 main_v263 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v263 main_v9 main_v264 (addf : (⟨S1280000x64, .f32⟩ : BufTy).Contents (Elt F) → (⟨S1280000x64, .f32⟩ : BufTy).Contents (Elt F) → (⟨S1280000x64, .f32⟩ : BufTy).Contents (Elt F)),
    StableHlo.nullary main_call17_cst (constant S_ .f32 0x00000000#32),
    StableHlo.unary main_call17_cst main_call17_v0 (broadcastInDim S1280000x64 ![] bcast_S_S1280000x64 : (⟨S_, .f32⟩ : BufTy).Contents (Elt F) → (⟨S1280000x64, .f32⟩ : BufTy).Contents (Elt F)),
    StableHlo.binary main_v264 main_call17_v0 main_v265 (maximumf : (⟨S1280000x64, .f32⟩ : BufTy).Contents (Elt F) → (⟨S1280000x64, .f32⟩ : BufTy).Contents (Elt F) → (⟨S1280000x64, .f32⟩ : BufTy).Contents (Elt F)),
    StableHlo.nullary main_cst_36 (constant S_ .f32 0x00000000#32),
    StableHlo.unary main_cst_36 main_v266 (broadcastInDim S80000x64 ![] bcast_S_S80000x64 : (⟨S_, .f32⟩ : BufTy).Contents (Elt F) → (⟨S80000x64, .f32⟩ : BufTy).Contents (Elt F)),
    StableHlo.unary main_v13 main_v267 (broadcastInDim S1280000x1 ![0] bcast_S1280000_S1280000x1_0 : (⟨S1280000, .i32⟩ : BufTy).Contents (Elt F) → (⟨S1280000x1, .i32⟩ : BufTy).Contents (Elt F)),
    StableHlo.ternary main_v266 main_v267 main_v265 main_v268 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v269 ((extractStridedSlice S1 ![3] · slices_S4_S1_3) : (⟨S4, .f32⟩ : BufTy).Contents (Elt F) → (⟨S1, .f32⟩ : BufTy).Contents (Elt F)),
    StableHlo.reshape main_v269 main_v270 rfl shapeCasts_S1_S_,
    StableHlo.nullary main_cst_37 (constant S_ .f32 0x3F800000#32),
    StableHlo.binary main_cst_37 main_v270 main_v271 (addf : (⟨S_, .f32⟩ : BufTy).Contents (Elt F) → (⟨S_, .f32⟩ : BufTy).Contents (Elt F) → (⟨S_, .f32⟩ : BufTy).Contents (Elt F)),
    StableHlo.unary main_v271 main_v272 (broadcastInDim S80000x64 ![] bcast_S_S80000x64 : (⟨S_, .f32⟩ : BufTy).Contents (Elt F) → (⟨S80000x64, .f32⟩ : BufTy).Contents (Elt F)),
    StableHlo.binary main_v272 main_v256 main_v273 (mulf : (⟨S80000x64, .f32⟩ : BufTy).Contents (Elt F) → (⟨S80000x64, .f32⟩ : BufTy).Contents (Elt F) → (⟨S80000x64, .f32⟩ : BufTy).Contents (Elt F)),
    StableHlo.binary main_v273 main_v268 main_v274 (addf : (⟨S80000x64, .f32⟩ : BufTy).Contents (Elt F) → (⟨S80000x64, .f32⟩ : BufTy).Contents (Elt F) → (⟨S80000x64, .f32⟩ : BufTy).Contents (Elt F)),
    StableHlo.unary main_arg7 main_v275 ((extractStridedSlice S1x64x128 ![3, 0, 0] · slices_S4x64x128_S1x64x128_3_0_0) : (⟨S4x64x128, .f32⟩ : BufTy).Contents (Elt F) → (⟨S1x64x128, .f32⟩ : BufTy).Contents (Elt F)),
    StableHlo.reshape main_v275 main_v276 rfl shapeCasts_S1x64x128_S64x128,
    StableHlo.binary main_v274 main_v276 main_v277 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v278 ((extractStridedSlice S1x128 ![3, 0] · slices_S4x128_S1x128_3_0) : (⟨S4x128, .f32⟩ : BufTy).Contents (Elt F) → (⟨S1x128, .f32⟩ : BufTy).Contents (Elt F)),
    StableHlo.reshape main_v278 main_v279 rfl shapeCasts_S1x128_S128,
    StableHlo.unary main_v279 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S80000x128 ![0, 1] bcast_S1x128_S80000x128_0_1 : (⟨S1x128, .f32⟩ : BufTy).Contents (Elt F) → (⟨S80000x128, .f32⟩ : BufTy).Contents (Elt F)),
    StableHlo.binary main_v277 main_v281 main_v282 (addf : (⟨S80000x128, .f32⟩ : BufTy).Contents (Elt F) → (⟨S80000x128, .f32⟩ : BufTy).Contents (Elt F) → (⟨S80000x128, .f32⟩ : BufTy).Contents (Elt F)),
    StableHlo.nullary main_cst_38 (constant S_ .f32 0x00000000#32),
    StableHlo.binary main_v282 main_cst_38 main_v283 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_39 (constant S_ .f32 0x479C4000#32),
    StableHlo.unary main_cst_39 main_v284 (broadcastInDim S128 ![] bcast_S_S128 : (⟨S_, .f32⟩ : BufTy).Contents (Elt F) → (⟨S128, .f32⟩ : BufTy).Contents (Elt F)),
    StableHlo.binary main_v283 main_v284 main_v285 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.nullary main_call18_cst (constant S_ .f32 0x00000000#32),
    StableHlo.binary main_v282 main_call18_cst main_call18_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call18_v0 main_call18_v1 (broadcastInDim S1x128 ![1] bcast_S128_S1x128_1 : (⟨S128, .f32⟩ : BufTy).Contents (Elt F) → (⟨S1x128, .f32⟩ : BufTy).Contents (Elt F)),
    StableHlo.nullary main_call18_cst_0 (constant S_ .f32 0x479C4000#32),
    StableHlo.unary main_call18_cst_0 main_call18_v2 (broadcastInDim S1x128 ![] bcast_S_S1x128 : (⟨S_, .f32⟩ : BufTy).Contents (Elt F) → (⟨S1x128, .f32⟩ : BufTy).Contents (Elt F)),
    StableHlo.binary main_call18_v1 main_call18_v2 main_call18_v3 (Host.divf : (⟨S1x128, .f32⟩ : BufTy).Contents (Elt F) → (⟨S1x128, .f32⟩ : BufTy).Contents (Elt F) → (⟨S1x128, .f32⟩ : BufTy).Contents (Elt F)),
    StableHlo.unary main_call18_v3 main_call18_v4 (broadcastInDim S80000x128 ![0, 1] bcast_S1x128_S80000x128_0_1 : (⟨S1x128, .f32⟩ : BufTy).Contents (Elt F) → (⟨S80000x128, .f32⟩ : BufTy).Contents (Elt F)),
    StableHlo.binary main_v282 main_call18_v4 main_call18_v5 (subf : (⟨S80000x128, .f32⟩ : BufTy).Contents (Elt F) → (⟨S80000x128, .f32⟩ : BufTy).Contents (Elt F) → (⟨S80000x128, .f32⟩ : BufTy).Contents (Elt F)),
    StableHlo.binary main_call18_v5 main_call18_v5 main_call18_v6 (mulf : (⟨S80000x128, .f32⟩ : BufTy).Contents (Elt F) → (⟨S80000x128, .f32⟩ : BufTy).Contents (Elt F) → (⟨S80000x128, .f32⟩ : BufTy).Contents (Elt F)),
    StableHlo.unary main_c_40 main_call18_v7 (sitofp .f32 : (⟨S_, .i32⟩ : BufTy).Contents (Elt F) → (⟨S_, .f32⟩ : BufTy).Contents (Elt F)),
    StableHlo.nullary main_call18_cst_1 (constant S_ .f32 0x479C4000#32),
    StableHlo.binary main_call18_cst_1 main_call18_v7 main_call18_v8 (subf : (⟨S_, .f32⟩ : BufTy).Contents (Elt F) → (⟨S_, .f32⟩ : BufTy).Contents (Elt F) → (⟨S_, .f32⟩ : BufTy).Contents (Elt F)),
    StableHlo.nullary main_call18_cst_2 (constant S_ .f32 0x00000000#32),
    StableHlo.binary main_call18_v6 main_call18_cst_2 main_call18_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call18_v8 main_call18_v10 (broadcastInDim S128 ![] bcast_S_S128 : (⟨S_, .f32⟩ : BufTy).Contents (Elt F) → (⟨S128, .f32⟩ : BufTy).Contents (Elt F)),
    StableHlo.binary main_call18_v9 main_call18_v10 main_call18_v11 (Host.divf : (⟨S128, .f32⟩ : BufTy).Contents (Elt F) → (⟨S128, .f32⟩ : BufTy).Contents (Elt F) → (⟨S128, .f32⟩ : BufTy).Contents (Elt F)),
    StableHlo.nullary main_call18_cst_3 (constant S_ .f32 0x00000000#32),
    StableHlo.binary main_call18_v8 main_call18_cst_3 main_call18_v12 (cmpf .ogt : (⟨S_, .f32⟩ : BufTy).Contents (Elt F) → (⟨S_, .f32⟩ : BufTy).Contents (Elt F) → (⟨S_, .i1⟩ : BufTy).Contents (Elt F)),
    StableHlo.nullary main_call18_cst_4 (constant S_ .f32 0x7FC00000#32),
    StableHlo.unary main_call18_cst_4 main_call18_call0_v0 (id : (⟨S_, .f32⟩ : BufTy).Contents (Elt F) → (⟨S_, .f32⟩ : BufTy).Contents (Elt F)),
    StableHlo.unary main_call18_call0_v0 main_call18_call0_v1 (broadcastInDim S128 ![] bcast_S_S128 : (⟨S_, .f32⟩ : BufTy).Contents (Elt F) → (⟨S128, .f32⟩ : BufTy).Contents (Elt F)),
    StableHlo.ternary main_call18_v12 main_call18_v11 main_call18_call0_v1 main_v286 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v285 main_v287 (broadcastInDim S1x128 ![1] bcast_S128_S1x128_1 : (⟨S128, .f32⟩ : BufTy).Contents (Elt F) → (⟨S1x128, .f32⟩ : BufTy).Contents (Elt F)),
    StableHlo.unary main_v287 main_v288 (broadcastInDim S80000x128 ![0, 1] bcast_S1x128_S80000x128_0_1 : (⟨S1x128, .f32⟩ : BufTy).Contents (Elt F) → (⟨S80000x128, .f32⟩ : BufTy).Contents (Elt F)),
    StableHlo.binary main_v282 main_v288 main_v289 (subf : (⟨S80000x128, .f32⟩ : BufTy).Contents (Elt F) → (⟨S80000x128, .f32⟩ : BufTy).Contents (Elt F) → (⟨S80000x128, .f32⟩ : BufTy).Contents (Elt F)),
    StableHlo.nullary main_cst_41 (constant S_ .f32 0x3727C5AC#32),
    StableHlo.unary main_cst_41 main_v290 (broadcastInDim S128 ![] bcast_S_S128 : (⟨S_, .f32⟩ : BufTy).Contents (Elt F) → (⟨S128, .f32⟩ : BufTy).Contents (Elt F)),
    StableHlo.binary main_v286 main_v290 main_v291 (addf : (⟨S128, .f32⟩ : BufTy).Contents (Elt F) → (⟨S128, .f32⟩ : BufTy).Contents (Elt F) → (⟨S128, .f32⟩ : BufTy).Contents (Elt F)),
    StableHlo.unary main_v291 main_v292 (Host.rsqrt : (⟨S128, .f32⟩ : BufTy).Contents (Elt F) → (⟨S128, .f32⟩ : BufTy).Contents (Elt F)),
    StableHlo.unary main_v292 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S80000x128 ![0, 1] bcast_S1x128_S80000x128_0_1 : (⟨S1x128, .f32⟩ : BufTy).Contents (Elt F) → (⟨S80000x128, .f32⟩ : BufTy).Contents (Elt F)),
    StableHlo.binary main_v289 main_v294 main_v295 (mulf : (⟨S80000x128, .f32⟩ : BufTy).Contents (Elt F) → (⟨S80000x128, .f32⟩ : BufTy).Contents (Elt F) → (⟨S80000x128, .f32⟩ : BufTy).Contents (Elt F)),
    StableHlo.unary main_arg9 main_v296 ((extractStridedSlice S1x128 ![3, 0] · slices_S4x128_S1x128_3_0) : (⟨S4x128, .f32⟩ : BufTy).Contents (Elt F) → (⟨S1x128, .f32⟩ : BufTy).Contents (Elt F)),
    StableHlo.reshape main_v296 main_v297 rfl shapeCasts_S1x128_S128,
    StableHlo.unary main_v297 main_v298 (broadcastInDim S1x128 ![1] bcast_S128_S1x128_1 : (⟨S128, .f32⟩ : BufTy).Contents (Elt F) → (⟨S1x128, .f32⟩ : BufTy).Contents (Elt F)),
    StableHlo.unary main_v298 main_v299 (broadcastInDim S80000x128 ![0, 1] bcast_S1x128_S80000x128_0_1 : (⟨S1x128, .f32⟩ : BufTy).Contents (Elt F) → (⟨S80000x128, .f32⟩ : BufTy).Contents (Elt F)),
    StableHlo.binary main_v295 main_v299 main_v300 (mulf : (⟨S80000x128, .f32⟩ : BufTy).Contents (Elt F) → (⟨S80000x128, .f32⟩ : BufTy).Contents (Elt F) → (⟨S80000x128, .f32⟩ : BufTy).Contents (Elt F)),
    StableHlo.unary main_arg10 main_v301 ((extractStridedSlice S1x128 ![3, 0] · slices_S4x128_S1x128_3_0) : (⟨S4x128, .f32⟩ : BufTy).Contents (Elt F) → (⟨S1x128, .f32⟩ : BufTy).Contents (Elt F)),
    StableHlo.reshape main_v301 main_v302 rfl shapeCasts_S1x128_S128,
    StableHlo.unary main_v302 main_v303 (broadcastInDim S1x128 ![1] bcast_S128_S1x128_1 : (⟨S128, .f32⟩ : BufTy).Contents (Elt F) → (⟨S1x128, .f32⟩ : BufTy).Contents (Elt F)),
    StableHlo.unary main_v303 main_v304 (broadcastInDim S80000x128 ![0, 1] bcast_S1x128_S80000x128_0_1 : (⟨S1x128, .f32⟩ : BufTy).Contents (Elt F) → (⟨S80000x128, .f32⟩ : BufTy).Contents (Elt F)),
    StableHlo.binary main_v300 main_v304 main_v305 (addf : (⟨S80000x128, .f32⟩ : BufTy).Contents (Elt F) → (⟨S80000x128, .f32⟩ : BufTy).Contents (Elt F) → (⟨S80000x128, .f32⟩ : BufTy).Contents (Elt F)),
    StableHlo.nullary main_call19_cst (constant S_ .f32 0x00000000#32),
    StableHlo.unary main_call19_cst main_call19_v0 (broadcastInDim S80000x128 ![] bcast_S_S80000x128 : (⟨S_, .f32⟩ : BufTy).Contents (Elt F) → (⟨S80000x128, .f32⟩ : BufTy).Contents (Elt F)),
    StableHlo.binary main_v305 main_call19_v0 main_v306 (maximumf : (⟨S80000x128, .f32⟩ : BufTy).Contents (Elt F) → (⟨S80000x128, .f32⟩ : BufTy).Contents (Elt F) → (⟨S80000x128, .f32⟩ : BufTy).Contents (Elt F)),
    StableHlo.unary main_arg11 main_v307 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v307 main_v308 rfl shapeCasts_S1x128x64_S128x64,
    StableHlo.binary main_v306 main_v308 main_v309 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v310 ((extractStridedSlice S1x64 ![3, 0] · slices_S4x64_S1x64_3_0) : (⟨S4x64, .f32⟩ : BufTy).Contents (Elt F) → (⟨S1x64, .f32⟩ : BufTy).Contents (Elt F)),
    StableHlo.reshape main_v310 main_v311 rfl shapeCasts_S1x64_S64,
    StableHlo.unary main_v311 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S80000x64 ![0, 1] bcast_S1x64_S80000x64_0_1 : (⟨S1x64, .f32⟩ : BufTy).Contents (Elt F) → (⟨S80000x64, .f32⟩ : BufTy).Contents (Elt F)),
    StableHlo.binary main_v309 main_v313 main_v314 (addf : (⟨S80000x64, .f32⟩ : BufTy).Contents (Elt F) → (⟨S80000x64, .f32⟩ : BufTy).Contents (Elt F) → (⟨S80000x64, .f32⟩ : BufTy).Contents (Elt F)),
    StableHlo.nullary main_cst_42 (constant S_ .f32 0x00000000#32) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part5_eq (c : Dev nD) : main_part5 (F := F) c = seq ops5 := by
  simp only [main_part5, fn_relu_0.body, fn_var.body, fn_where.body, fn_relu_1.body, seq, bind_assoc, pure_bind]
  rfl

theorem ops5_sub : (ops5 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub ..⟩

/-- The buffers the window's operations write, in order. -/
abbrev ops5_W : List (Ref sig .tc) :=
  [main_v262, main_v263, main_v264, main_call17_cst, main_call17_v0, main_v265, main_cst_36, main_v266, main_v267, main_v268, main_v269, main_v270, main_cst_37, main_v271, main_v272, main_v273, main_v274, main_v275, main_v276, main_v277, main_v278, main_v279, main_v280, main_v281, main_v282, main_cst_38, main_v283, main_cst_39, main_v284, main_v285, main_c_40, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v286, main_v287, main_v288, main_v289, main_cst_41, main_v290, main_v291, main_v292, main_v293, main_v294, main_v295, main_v296, main_v297, main_v298, main_v299, main_v300, main_v301, main_v302, main_v303, main_v304, main_v305, main_call19_cst, main_call19_v0, main_v306, main_v307, main_v308, main_v309, main_v310, main_v311, main_v312, main_v313, main_v314, main_cst_42]

set_option maxRecDepth 8192 in
theorem ops5_writes : (ops5 : List (HloOp τ sig (Elt F))).Forall fun op =>
    op.writes ⊆ (ops5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops5_fresh : ∀ op ∈ (ops5 : List (HloOp τ sig (Elt F))), op.fresh = ∅ := by
  intro _ h; (repeat (cases h with | head => rfl | tail _ h => ?_)); exact nomatch h

end Cert.ReferenceIdeal.RefRun

end
-- ==== Proof.RefRunOps6.lean ====
/-
  The reference program's statements 361 … 386 of 386 (its window `main_part6`) as a LIST of 47 host operations.
  A statement that is an operation is the list's entry as printed; a statement that calls a module-local function
  (`fn_var_2`) is the callee's operations in order, each over the buffers the
  call's record gives the callee's values and over the call's operand buffers for its arguments — a call means its
  callee's body, substituted. A callee's operation is printed over typed references; at a literal reference the typed
  builder is the plain one (its two conversions are the identity), and the list states the plain one.
  `main_part6_eq`: the window is that straight line. `ops6_sub`: every operation touches TensorCore buffers only.
  `ops6_writes`: what the window writes, as a list of references (each operation writes its result buffer only).
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 361 … 386: 47 operations, in order. -/
abbrev ops6 : List (HloOp τ sig (Elt F)) :=
  [ StableHlo.binary main_v314 main_cst_42 main_v315 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v315 main_v316 (broadcastInDim S80000x1 ![0] bcast_S80000_S80000x1_0 : (⟨S80000, .f32⟩ : BufTy).Contents (Elt F) → (⟨S80000x1, .f32⟩ : BufTy).Contents (Elt F)),
    StableHlo.nullary main_cst_43 (constant S_ .f32 0x42800000#32),
    StableHlo.unary main_cst_43 main_v317 (broadcastInDim S80000x1 ![] bcast_S_S80000x1 : (⟨S_, .f32⟩ : BufTy).Contents (Elt F) → (⟨S80000x1, .f32⟩ : BufTy).Contents (Elt F)),
    StableHlo.binary main_v316 main_v317 main_v318 (Host.divf : (⟨S80000x1, .f32⟩ : BufTy).Contents (Elt F) → (⟨S80000x1, .f32⟩ : BufTy).Contents (Elt F) → (⟨S80000x1, .f32⟩ : BufTy).Contents (Elt F)),
    StableHlo.nullary main_c_44 (constantI S_ 32 0#32),
    StableHlo.nullary main_call20_cst (constant S_ .f32 0x00000000#32),
    StableHlo.binary main_v314 main_call20_cst main_call20_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call20_v0 main_call20_v1 (broadcastInDim S80000x1 ![0] bcast_S80000_S80000x1_0 : (⟨S80000, .f32⟩ : BufTy).Contents (Elt F) → (⟨S80000x1, .f32⟩ : BufTy).Contents (Elt F)),
    StableHlo.nullary main_call20_cst_0 (constant S_ .f32 0x42800000#32),
    StableHlo.unary main_call20_cst_0 main_call20_v2 (broadcastInDim S80000x1 ![] bcast_S_S80000x1 : (⟨S_, .f32⟩ : BufTy).Contents (Elt F) → (⟨S80000x1, .f32⟩ : BufTy).Contents (Elt F)),
    StableHlo.binary main_call20_v1 main_call20_v2 main_call20_v3 (Host.divf : (⟨S80000x1, .f32⟩ : BufTy).Contents (Elt F) → (⟨S80000x1, .f32⟩ : BufTy).Contents (Elt F) → (⟨S80000x1, .f32⟩ : BufTy).Contents (Elt F)),
    StableHlo.unary main_call20_v3 main_call20_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v314 main_call20_v4 main_call20_v5 (subf : (⟨S80000x64, .f32⟩ : BufTy).Contents (Elt F) → (⟨S80000x64, .f32⟩ : BufTy).Contents (Elt F) → (⟨S80000x64, .f32⟩ : BufTy).Contents (Elt F)),
    StableHlo.binary main_call20_v5 main_call20_v5 main_call20_v6 (mulf : (⟨S80000x64, .f32⟩ : BufTy).Contents (Elt F) → (⟨S80000x64, .f32⟩ : BufTy).Contents (Elt F) → (⟨S80000x64, .f32⟩ : BufTy).Contents (Elt F)),
    StableHlo.unary main_c_44 main_call20_v7 (sitofp .f32 : (⟨S_, .i32⟩ : BufTy).Contents (Elt F) → (⟨S_, .f32⟩ : BufTy).Contents (Elt F)),
    StableHlo.nullary main_call20_cst_1 (constant S_ .f32 0x42800000#32),
    StableHlo.binary main_call20_cst_1 main_call20_v7 main_call20_v8 (subf : (⟨S_, .f32⟩ : BufTy).Contents (Elt F) → (⟨S_, .f32⟩ : BufTy).Contents (Elt F) → (⟨S_, .f32⟩ : BufTy).Contents (Elt F)),
    StableHlo.nullary main_call20_cst_2 (constant S_ .f32 0x00000000#32),
    StableHlo.binary main_call20_v6 main_call20_cst_2 main_call20_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call20_v9 main_call20_v10 (broadcastInDim S80000x1 ![0] bcast_S80000_S80000x1_0 : (⟨S80000, .f32⟩ : BufTy).Contents (Elt F) → (⟨S80000x1, .f32⟩ : BufTy).Contents (Elt F)),
    StableHlo.unary main_call20_v8 main_call20_v11 (broadcastInDim S80000x1 ![] bcast_S_S80000x1 : (⟨S_, .f32⟩ : BufTy).Contents (Elt F) → (⟨S80000x1, .f32⟩ : BufTy).Contents (Elt F)),
    StableHlo.binary main_call20_v10 main_call20_v11 main_call20_v12 (Host.divf : (⟨S80000x1, .f32⟩ : BufTy).Contents (Elt F) → (⟨S80000x1, .f32⟩ : BufTy).Contents (Elt F) → (⟨S80000x1, .f32⟩ : BufTy).Contents (Elt F)),
    StableHlo.nullary main_call20_cst_3 (constant S_ .f32 0x00000000#32),
    StableHlo.binary main_call20_v8 main_call20_cst_3 main_call20_v13 (cmpf .ogt : (⟨S_, .f32⟩ : BufTy).Contents (Elt F) → (⟨S_, .f32⟩ : BufTy).Contents (Elt F) → (⟨S_, .i1⟩ : BufTy).Contents (Elt F)),
    StableHlo.nullary main_call20_cst_4 (constant S_ .f32 0x7FC00000#32),
    StableHlo.unary main_call20_cst_4 main_call20_call0_v0 (id : (⟨S_, .f32⟩ : BufTy).Contents (Elt F) → (⟨S_, .f32⟩ : BufTy).Contents (Elt F)),
    StableHlo.unary main_call20_call0_v0 main_call20_call0_v1 (broadcastInDim S80000x1 ![] bcast_S_S80000x1 : (⟨S_, .f32⟩ : BufTy).Contents (Elt F) → (⟨S80000x1, .f32⟩ : BufTy).Contents (Elt F)),
    StableHlo.ternary main_call20_v13 main_call20_v12 main_call20_call0_v1 main_v319 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v318 main_v320 (broadcastInDim S80000x64 ![0, 1] bcast_S80000x1_S80000x64_0_1 : (⟨S80000x1, .f32⟩ : BufTy).Contents (Elt F) → (⟨S80000x64, .f32⟩ : BufTy).Contents (Elt F)),
    StableHlo.binary main_v314 main_v320 main_v321 (subf : (⟨S80000x64, .f32⟩ : BufTy).Contents (Elt F) → (⟨S80000x64, .f32⟩ : BufTy).Contents (Elt F) → (⟨S80000x64, .f32⟩ : BufTy).Contents (Elt F)),
    StableHlo.nullary main_cst_45 (constant S_ .f32 0x3727C5AC#32),
    StableHlo.unary main_cst_45 main_v322 (broadcastInDim S80000x1 ![] bcast_S_S80000x1 : (⟨S_, .f32⟩ : BufTy).Contents (Elt F) → (⟨S80000x1, .f32⟩ : BufTy).Contents (Elt F)),
    StableHlo.binary main_v319 main_v322 main_v323 (addf : (⟨S80000x1, .f32⟩ : BufTy).Contents (Elt F) → (⟨S80000x1, .f32⟩ : BufTy).Contents (Elt F) → (⟨S80000x1, .f32⟩ : BufTy).Contents (Elt F)),
    StableHlo.unary main_v323 main_v324 (Host.rsqrt : (⟨S80000x1, .f32⟩ : BufTy).Contents (Elt F) → (⟨S80000x1, .f32⟩ : BufTy).Contents (Elt F)),
    StableHlo.unary main_v324 main_v325 (broadcastInDim S80000x64 ![0, 1] bcast_S80000x1_S80000x64_0_1 : (⟨S80000x1, .f32⟩ : BufTy).Contents (Elt F) → (⟨S80000x64, .f32⟩ : BufTy).Contents (Elt F)),
    StableHlo.binary main_v321 main_v325 main_v326 (mulf : (⟨S80000x64, .f32⟩ : BufTy).Contents (Elt F) → (⟨S80000x64, .f32⟩ : BufTy).Contents (Elt F) → (⟨S80000x64, .f32⟩ : BufTy).Contents (Elt F)),
    StableHlo.unary main_arg14 main_v327 ((extractStridedSlice S1x64 ![3, 0] · slices_S4x64_S1x64_3_0) : (⟨S4x64, .f32⟩ : BufTy).Contents (Elt F) → (⟨S1x64, .f32⟩ : BufTy).Contents (Elt F)),
    StableHlo.reshape main_v327 main_v328 rfl shapeCasts_S1x64_S64,
    StableHlo.unary main_v328 main_v329 (broadcastInDim S1x64 ![1] bcast_S64_S1x64_1 : (⟨S64, .f32⟩ : BufTy).Contents (Elt F) → (⟨S1x64, .f32⟩ : BufTy).Contents (Elt F)),
    StableHlo.unary main_v329 main_v330 (broadcastInDim S80000x64 ![0, 1] bcast_S1x64_S80000x64_0_1 : (⟨S1x64, .f32⟩ : BufTy).Contents (Elt F) → (⟨S80000x64, .f32⟩ : BufTy).Contents (Elt F)),
    StableHlo.binary main_v326 main_v330 main_v331 (mulf : (⟨S80000x64, .f32⟩ : BufTy).Contents (Elt F) → (⟨S80000x64, .f32⟩ : BufTy).Contents (Elt F) → (⟨S80000x64, .f32⟩ : BufTy).Contents (Elt F)),
    StableHlo.unary main_arg15 main_v332 ((extractStridedSlice S1x64 ![3, 0] · slices_S4x64_S1x64_3_0) : (⟨S4x64, .f32⟩ : BufTy).Contents (Elt F) → (⟨S1x64, .f32⟩ : BufTy).Contents (Elt F)),
    StableHlo.reshape main_v332 main_v333 rfl shapeCasts_S1x64_S64,
    StableHlo.unary main_v333 main_v334 (broadcastInDim S1x64 ![1] bcast_S64_S1x64_1 : (⟨S64, .f32⟩ : BufTy).Contents (Elt F) → (⟨S1x64, .f32⟩ : BufTy).Contents (Elt F)),
    StableHlo.unary main_v334 main_v335 (broadcastInDim S80000x64 ![0, 1] bcast_S1x64_S80000x64_0_1 : (⟨S1x64, .f32⟩ : BufTy).Contents (Elt F) → (⟨S80000x64, .f32⟩ : BufTy).Contents (Elt F)),
    StableHlo.binary main_v331 main_v335 main_v336 (addf : (⟨S80000x64, .f32⟩ : BufTy).Contents (Elt F) → (⟨S80000x64, .f32⟩ : BufTy).Contents (Elt F) → (⟨S80000x64, .f32⟩ : BufTy).Contents (Elt F)) ]

-- one bind per operation is re-associated: the rewriting recurses once per statement
set_option maxRecDepth 8192 in
set_option maxHeartbeats 4000000 in
/-- The window is that straight line: the callees' definitions unfolded at their calls and the records at their fields,
    both sides are one chain of `hlo` steps once sequencing is re-associated. -/
theorem main_part6_eq (c : Dev nD) : main_part6 (F := F) c = seq ops6 := by
  simp only [main_part6, fn_var_2.body, fn_where_3.body, seq, bind_assoc, pure_bind]
  rfl

theorem ops6_sub : (ops6 : List (HloOp τ sig (Elt F))).Forall fun op => op.bufs ⊆ tcRefs τ sig :=
  ⟨binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

/-- The buffers the window's operations write, in order. -/
abbrev ops6_W : List (Ref sig .tc) :=
  [main_v315, main_v316, main_cst_43, main_v317, main_v318, main_c_44, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_v12, main_call20_cst_3, main_call20_v13, main_call20_cst_4, main_call20_call0_v0, main_call20_call0_v1, main_v319, main_v320, main_v321, main_cst_45, main_v322, main_v323, main_v324, main_v325, main_v326, main_v327, main_v328, main_v329, main_v330, main_v331, main_v332, main_v333, main_v334, main_v335, main_v336]

set_option maxRecDepth 8192 in
theorem ops6_writes : (ops6 : List (HloOp τ sig (Elt F))).Forall fun op =>
    op.writes ⊆ (ops6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every operation of the window determines its results. -/
theorem ops6_fresh : ∀ op ∈ (ops6 : List (HloOp τ sig (Elt F))), op.fresh = ∅ := by
  intro _ h; (repeat (cases h with | head => rfl | tail _ h => ?_)); exact nomatch h

end Cert.ReferenceIdeal.RefRun

end
-- ==== Proof.RefRunMain.lean ====
/-
  The reference program's @main as ONE straight line: its seven windows' operation lists joined in order
  (`ops`, 583 operations), `main = seq ops` window by window (two lines run one after the other are their
  concatenation run as one), and the run read off it: on every device, from any memory with zero counters, every
  weakly fair execution terminates with each TensorCore buffer at the operations' fold over the launch contents
  (`run_after`). A buffer none of the seven windows writes ends at its launch contents (`after_ops_keep`): each
  operation writes its own result buffer only, and the written buffers are listed window by window.
-/
import proofs.«178590_j59433757442359_2_alg».proof.Proof.RefRunOps0
import proofs.«178590_j59433757442359_2_alg».proof.Proof.RefRunOps1
import proofs.«178590_j59433757442359_2_alg».proof.Proof.RefRunOps2
import proofs.«178590_j59433757442359_2_alg».proof.Proof.RefRunOps3
import proofs.«178590_j59433757442359_2_alg».proof.Proof.RefRunOps4
import proofs.«178590_j59433757442359_2_alg».proof.Proof.RefRunOps5
import proofs.«178590_j59433757442359_2_alg».proof.Proof.RefRunOps6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 583 operations, in order: the windows' lists, joined. -/
abbrev ops : List (HloOp τ sig (Elt F)) := ops0 ++ (ops1 ++ (ops2 ++ (ops3 ++ (ops4 ++ (ops5 ++ ops6)))))

/-- @main runs its windows in order, and each window is its list's straight line. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h]

theorem ops_fresh : ∀ op ∈ (ops : List (HloOp τ sig (Elt F))), op.fresh = ∅ := fun op h => by
  simp only [ops, List.mem_append] at h
  rcases h with h | h | h | h | h | h | h
  exacts [ops0_fresh op h, ops1_fresh op h, ops2_fresh op h, ops3_fresh op h, ops4_fresh op h, ops5_fresh op h, ops6_fresh op h]

/-- On every device, for any float values, from any memory with zero counters: every weakly fair execution of @main
    terminates, and every final state has each TensorCore buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over two lists in a row is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the joined list is the windows' folds, in order. -/
theorem after_ops (V : Valuation τ sig (Elt F)) :
    after ops V = after ops6 (after ops5 (after ops4 (after ops3 (after ops2 (after ops1 (after ops0 V)))))) := by
  simp only [ops, after_app]

/-- A buffer that no window writes keeps its launch contents to the end. -/
theorem after_ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) :
    after ops V (Proc.devRef .tc r) = V (Proc.devRef .tc r) := by
  rw [after_ops, after_of_writes_sub ops6 _ ops6_writes h6,
    after_of_writes_sub ops5 _ ops5_writes h5,
    after_of_writes_sub ops4 _ ops4_writes h4,
    after_of_writes_sub ops3 _ ops3_writes h3,
    after_of_writes_sub ops2 _ ops2_writes h2,
    after_of_writes_sub ops1 _ ops1_writes h1,
    after_of_writes_sub ops0 _ ops0_writes h0]

end Cert.ReferenceIdeal.RefRun

end
-- ==== Proof.RefRun.lean ====
/-
  The reference program's run, stated at its result and its sixteen arguments: on every device, for any float values,
  from any memory with zero counters, every weakly fair execution of @main terminates with the result buffer at `res m c`
  — the 583 operations' fold over the device's launch contents, read at the result buffer: a pure term of the argument
  arrays, since every operation's operands are arguments or earlier results — and each argument buffer unchanged (no
  operation writes an argument).
-/
import proofs.«178590_j59433757442359_2_alg».proof.Proof.RefRunMain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result as a term of the launch contents: the operations' fold, at the result buffer. -/
def res (m : (ℓ : Loc nD τ sig) → Buf (Elt F) ℓ) (c : Dev nD) : (⟨S80000x64, .f32⟩ : BufTy).Contents (Elt F) :=
  after ops (launchContents m c) (Proc.devRef .tc main_v336)

-- membership in a window's written-buffer list is decided entry by entry
set_option maxRecDepth 8192 in
/-- On every device, for any float values, from any memory with zero counters: every weakly fair execution of @main
    terminates with the result at `res m c` and the sixteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v336) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v336,
      (h c main_arg0).trans (after_ops_keep _ main_arg0 (by decide) (by decide) (by decide) (by decide) (by decide) (by decide) (by decide)),
      (h c main_arg1).trans (after_ops_keep _ main_arg1 (by decide) (by decide) (by decide) (by decide) (by decide) (by decide) (by decide)),
      (h c main_arg2).trans (after_ops_keep _ main_arg2 (by decide) (by decide) (by decide) (by decide) (by decide) (by decide) (by decide)),
      (h c main_arg3).trans (after_ops_keep _ main_arg3 (by decide) (by decide) (by decide) (by decide) (by decide) (by decide) (by decide)),
      (h c main_arg4).trans (after_ops_keep _ main_arg4 (by decide) (by decide) (by decide) (by decide) (by decide) (by decide) (by decide)),
      (h c main_arg5).trans (after_ops_keep _ main_arg5 (by decide) (by decide) (by decide) (by decide) (by decide) (by decide) (by decide)),
      (h c main_arg6).trans (after_ops_keep _ main_arg6 (by decide) (by decide) (by decide) (by decide) (by decide) (by decide) (by decide)),
      (h c main_arg7).trans (after_ops_keep _ main_arg7 (by decide) (by decide) (by decide) (by decide) (by decide) (by decide) (by decide)),
      (h c main_arg8).trans (after_ops_keep _ main_arg8 (by decide) (by decide) (by decide) (by decide) (by decide) (by decide) (by decide)),
      (h c main_arg9).trans (after_ops_keep _ main_arg9 (by decide) (by decide) (by decide) (by decide) (by decide) (by decide) (by decide)),
      (h c main_arg10).trans (after_ops_keep _ main_arg10 (by decide) (by decide) (by decide) (by decide) (by decide) (by decide) (by decide)),
      (h c main_arg11).trans (after_ops_keep _ main_arg11 (by decide) (by decide) (by decide) (by decide) (by decide) (by decide) (by decide)),
      (h c main_arg12).trans (after_ops_keep _ main_arg12 (by decide) (by decide) (by decide) (by decide) (by decide) (by decide) (by decide)),
      (h c main_arg13).trans (after_ops_keep _ main_arg13 (by decide) (by decide) (by decide) (by decide) (by decide) (by decide) (by decide)),
      (h c main_arg14).trans (after_ops_keep _ main_arg14 (by decide) (by decide) (by decide) (by decide) (by decide) (by decide) (by decide)),
      (h c main_arg15).trans (after_ops_keep _ main_arg15 (by decide) (by decide) (by decide) (by decide) (by decide) (by decide) (by decide))⟩)
    (run_after m ρ)

end Cert.ReferenceIdeal.RefRun

end
-- ==== Proof.RefRunLayers.lean ====
/-
  The reference function, layer by layer, as definitions over array values (any float values `F`): what the
  program's operations compose to between the points where one array is handed on.
  Stem: `h0 = relu (x · Wx + bx)`, `ea = relu (e · We + be)`, the two rows of the index table `srcCol`, `dstCol`.
  One layer, of the node features `h`, the edge features `ea`, the two index columns and the layer's parameters:
    `aggregate`   (1 + eps) · h + Σ over edges into a node of relu (h[src] + ea)   (a negative `src` counted from the end)
    `linear1`     · W1 + b1
    `batchNorm`   (y − colMean y) · rsqrt (colVar y + 1e-5) · γ + β, the mean and variance down each column, then relu
    `linear2`     · W2 + b2
    `layerNorm`   (z − rowMean z) · rsqrt (rowVar z + 1e-5) · g + b, the mean and variance along each row
  and a relu after every layer but the last. `layer_l` is layer `l` at its slices of the nine parameter arrays;
  `forward` is the four layers after the stem. Each definition's body is the operations' functions in program order,
  nothing rewritten.
-/
import proofs.«178590_j59433757442359_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `relu (x · Wx + bx)`: the node features entering layer 0. -/
def h0 (x : (⟨S80000x32, .f32⟩ : BufTy).Contents (Elt F)) (Wx : (⟨S32x64, .f32⟩ : BufTy).Contents (Elt F)) (bx : (⟨S64, .f32⟩ : BufTy).Contents (Elt F)) : (⟨S80000x64, .f32⟩ : BufTy).Contents (Elt F) :=
  maximumf (addf (Host.dotGeneral dot_S80000x32_S32x64_S80000x64_1_0_0_1_n_n none (x) (Wx)) (broadcastInDim S80000x64 ![0, 1] bcast_S1x64_S80000x64_0_1 (broadcastInDim S1x64 ![1] bcast_S64_S1x64_1 (bx)))) (broadcastInDim S80000x64 ![] bcast_S_S80000x64 (constant S_ .f32 0x00000000#32))

/-- `relu (e · We + be)`: the edge features, the same in every layer. -/
def ea (e : (⟨S1280000x16, .f32⟩ : BufTy).Contents (Elt F)) (We : (⟨S16x64, .f32⟩ : BufTy).Contents (Elt F)) (be : (⟨S64, .f32⟩ : BufTy).Contents (Elt F)) : (⟨S1280000x64, .f32⟩ : BufTy).Contents (Elt F) :=
  maximumf (addf (Host.dotGeneral dot_S1280000x16_S16x64_S1280000x64_1_0_0_1_n_n none (e) (We)) (broadcastInDim S1280000x64 ![0, 1] bcast_S1x64_S1280000x64_0_1 (broadcastInDim S1x64 ![1] bcast_S64_S1x64_1 (be)))) (broadcastInDim S1280000x64 ![] bcast_S_S1280000x64 (constant S_ .f32 0x00000000#32))

/-- Row 0 of the index table: each edge's source node. -/
def srcCol (ei : (⟨S2x1280000, .i32⟩ : BufTy).Contents (Elt F)) : (⟨S1280000, .i32⟩ : BufTy).Contents (Elt F) :=
  shapeCast S1280000 (extractStridedSlice S1x1280000 ![0, 0] (ei) slices_S2x1280000_S1x1280000_0_0) shapeCasts_S1x1280000_S1280000

/-- Row 1 of the index table: each edge's destination node. -/
def dstCol (ei : (⟨S2x1280000, .i32⟩ : BufTy).Contents (Elt F)) : (⟨S1280000, .i32⟩ : BufTy).Contents (Elt F) :=
  shapeCast S1280000 (extractStridedSlice S1x1280000 ![1, 0] (ei) slices_S2x1280000_S1x1280000_1_0) shapeCasts_S1x1280000_S1280000

/-- `(1 + eps) · h` plus, at each node, the sum over the edges into it of `relu (h[src] + ea)`; a negative source index counts from the end. -/
def aggregate (h : (⟨S80000x64, .f32⟩ : BufTy).Contents (Elt F)) (ea : (⟨S1280000x64, .f32⟩ : BufTy).Contents (Elt F)) (src dst : (⟨S1280000, .i32⟩ : BufTy).Contents (Elt F)) (eps : (⟨S_, .f32⟩ : BufTy).Contents (Elt F)) : (⟨S80000x64, .f32⟩ : BufTy).Contents (Elt F) :=
  addf (mulf (broadcastInDim S80000x64 ![] bcast_S_S80000x64 (addf (constant S_ .f32 0x3F800000#32) (eps))) (h)) (Host.scatterAdd scatter_S80000x64_S1280000x1_S1280000x64_1_0_0_1 (broadcastInDim S80000x64 ![] bcast_S_S80000x64 (constant S_ .f32 0x00000000#32)) (broadcastInDim S1280000x1 ![0] bcast_S1280000_S1280000x1_0 (dst)) (maximumf (addf (Host.gather gather_S80000x64_S1280000x1_S1280000x64_1_0_n_n_0_1_164 (h) (broadcastInDim S1280000x1 ![0] bcast_S1280000_S1280000x1_0 (select (cmpi .slt (src) (broadcastInDim S1280000 ![] bcast_S_S1280000 (constantI S_ 32 0#32))) (addi (src) (broadcastInDim S1280000 ![] bcast_S_S1280000 (constantI S_ 32 80000#32))) (src)))) (ea)) (broadcastInDim S1280000x64 ![] bcast_S_S1280000x64 (constant S_ .f32 0x00000000#32))))

/-- `x · W + b`, 64 features to 128. -/
def linear1 (x : (⟨S80000x64, .f32⟩ : BufTy).Contents (Elt F)) (W : (⟨S64x128, .f32⟩ : BufTy).Contents (Elt F)) (b : (⟨S128, .f32⟩ : BufTy).Contents (Elt F)) : (⟨S80000x128, .f32⟩ : BufTy).Contents (Elt F) :=
  addf (Host.dotGeneral dot_S80000x64_S64x128_S80000x128_1_0_0_1_n_n none (x) (W)) (broadcastInDim S80000x128 ![0, 1] bcast_S1x128_S80000x128_0_1 (broadcastInDim S1x128 ![1] bcast_S128_S1x128_1 (b)))

/-- The mean down each column: the column's sum over the 80000 rows, divided by 80000. -/
def colMean (y : (⟨S80000x128, .f32⟩ : BufTy).Contents (Elt F)) : (⟨S128, .f32⟩ : BufTy).Contents (Elt F) :=
  Host.divf (Host.reduceAdd (y) (constant S_ .f32 0x00000000#32) reducesTo_S80000x128_S128_d0 h_S_) (broadcastInDim S128 ![] bcast_S_S128 (constant S_ .f32 0x479C4000#32))

/-- The variance down each column with no degrees of freedom removed: the sum of squared differences from the column mean
    over `80000 − 0`, where that count is positive (it is), the not-a-number constant otherwise. -/
def colVar (y : (⟨S80000x128, .f32⟩ : BufTy).Contents (Elt F)) : (⟨S128, .f32⟩ : BufTy).Contents (Elt F) :=
  select (broadcastInDim S128 ![] bcast_S_S128 ((cmpf .ogt : (⟨S_, .f32⟩ : BufTy).Contents (Elt F) → (⟨S_, .f32⟩ : BufTy).Contents (Elt F) → (⟨S_, .i1⟩ : BufTy).Contents (Elt F)) (subf (constant S_ .f32 0x479C4000#32) (sitofp .f32 (constantI S_ 32 0#32))) (constant S_ .f32 0x00000000#32))) (Host.divf (Host.reduceAdd (mulf (subf (y) (broadcastInDim S80000x128 ![0, 1] bcast_S1x128_S80000x128_0_1 (Host.divf (broadcastInDim S1x128 ![1] bcast_S128_S1x128_1 (Host.reduceAdd (y) (constant S_ .f32 0x00000000#32) reducesTo_S80000x128_S128_d0 h_S_)) (broadcastInDim S1x128 ![] bcast_S_S1x128 (constant S_ .f32 0x479C4000#32))))) (subf (y) (broadcastInDim S80000x128 ![0, 1] bcast_S1x128_S80000x128_0_1 (Host.divf (broadcastInDim S1x128 ![1] bcast_S128_S1x128_1 (Host.reduceAdd (y) (constant S_ .f32 0x00000000#32) reducesTo_S80000x128_S128_d0 h_S_)) (broadcastInDim S1x128 ![] bcast_S_S1x128 (constant S_ .f32 0x479C4000#32)))))) (constant S_ .f32 0x00000000#32) reducesTo_S80000x128_S128_d0 h_S_) (broadcastInDim S128 ![] bcast_S_S128 (subf (constant S_ .f32 0x479C4000#32) (sitofp .f32 (constantI S_ 32 0#32))))) (broadcastInDim S128 ![] bcast_S_S128 (id (constant S_ .f32 0x7FC00000#32)))

/-- `(y − colMean y) · rsqrt (colVar y + 1e-5) · γ + β`. -/
def batchNorm (y : (⟨S80000x128, .f32⟩ : BufTy).Contents (Elt F)) (γ : (⟨S128, .f32⟩ : BufTy).Contents (Elt F)) (β : (⟨S128, .f32⟩ : BufTy).Contents (Elt F)) : (⟨S80000x128, .f32⟩ : BufTy).Contents (Elt F) :=
  addf (mulf (mulf (subf (y) (broadcastInDim S80000x128 ![0, 1] bcast_S1x128_S80000x128_0_1 (broadcastInDim S1x128 ![1] bcast_S128_S1x128_1 (colMean y)))) (broadcastInDim S80000x128 ![0, 1] bcast_S1x128_S80000x128_0_1 (broadcastInDim S1x128 ![1] bcast_S128_S1x128_1 (Host.rsqrt (addf (colVar y) (broadcastInDim S128 ![] bcast_S_S128 (constant S_ .f32 0x3727C5AC#32))))))) (broadcastInDim S80000x128 ![0, 1] bcast_S1x128_S80000x128_0_1 (broadcastInDim S1x128 ![1] bcast_S128_S1x128_1 (γ)))) (broadcastInDim S80000x128 ![0, 1] bcast_S1x128_S80000x128_0_1 (broadcastInDim S1x128 ![1] bcast_S128_S1x128_1 (β)))

def relu128 (x : (⟨S80000x128, .f32⟩ : BufTy).Contents (Elt F)) : (⟨S80000x128, .f32⟩ : BufTy).Contents (Elt F) :=
  maximumf (x) (broadcastInDim S80000x128 ![] bcast_S_S80000x128 (constant S_ .f32 0x00000000#32))

/-- `a · W + b`, 128 features back to 64. -/
def linear2 (a : (⟨S80000x128, .f32⟩ : BufTy).Contents (Elt F)) (W : (⟨S128x64, .f32⟩ : BufTy).Contents (Elt F)) (b : (⟨S64, .f32⟩ : BufTy).Contents (Elt F)) : (⟨S80000x64, .f32⟩ : BufTy).Contents (Elt F) :=
  addf (Host.dotGeneral dot_S80000x128_S128x64_S80000x64_1_0_0_1_n_n none (a) (W)) (broadcastInDim S80000x64 ![0, 1] bcast_S1x64_S80000x64_0_1 (broadcastInDim S1x64 ![1] bcast_S64_S1x64_1 (b)))

/-- The mean along each row: the row's sum over the 64 features, divided by 64 (kept as a column). -/
def rowMean (z : (⟨S80000x64, .f32⟩ : BufTy).Contents (Elt F)) : (⟨S80000x1, .f32⟩ : BufTy).Contents (Elt F) :=
  Host.divf (broadcastInDim S80000x1 ![0] bcast_S80000_S80000x1_0 (Host.reduceAdd (z) (constant S_ .f32 0x00000000#32) reducesTo_S80000x64_S80000_d1 h_S_)) (broadcastInDim S80000x1 ![] bcast_S_S80000x1 (constant S_ .f32 0x42800000#32))

/-- The variance along each row with no degrees of freedom removed (kept as a column). -/
def rowVar (z : (⟨S80000x64, .f32⟩ : BufTy).Contents (Elt F)) : (⟨S80000x1, .f32⟩ : BufTy).Contents (Elt F) :=
  select (broadcastInDim S80000x1 ![] bcast_S_S80000x1 ((cmpf .ogt : (⟨S_, .f32⟩ : BufTy).Contents (Elt F) → (⟨S_, .f32⟩ : BufTy).Contents (Elt F) → (⟨S_, .i1⟩ : BufTy).Contents (Elt F)) (subf (constant S_ .f32 0x42800000#32) (sitofp .f32 (constantI S_ 32 0#32))) (constant S_ .f32 0x00000000#32))) (Host.divf (broadcastInDim S80000x1 ![0] bcast_S80000_S80000x1_0 (Host.reduceAdd (mulf (subf (z) (broadcastInDim S80000x64 ![0, 1] bcast_S80000x1_S80000x64_0_1 (Host.divf (broadcastInDim S80000x1 ![0] bcast_S80000_S80000x1_0 (Host.reduceAdd (z) (constant S_ .f32 0x00000000#32) reducesTo_S80000x64_S80000_d1 h_S_)) (broadcastInDim S80000x1 ![] bcast_S_S80000x1 (constant S_ .f32 0x42800000#32))))) (subf (z) (broadcastInDim S80000x64 ![0, 1] bcast_S80000x1_S80000x64_0_1 (Host.divf (broadcastInDim S80000x1 ![0] bcast_S80000_S80000x1_0 (Host.reduceAdd (z) (constant S_ .f32 0x00000000#32) reducesTo_S80000x64_S80000_d1 h_S_)) (broadcastInDim S80000x1 ![] bcast_S_S80000x1 (constant S_ .f32 0x42800000#32)))))) (constant S_ .f32 0x00000000#32) reducesTo_S80000x64_S80000_d1 h_S_)) (broadcastInDim S80000x1 ![] bcast_S_S80000x1 (subf (constant S_ .f32 0x42800000#32) (sitofp .f32 (constantI S_ 32 0#32))))) (broadcastInDim S80000x1 ![] bcast_S_S80000x1 (id (constant S_ .f32 0x7FC00000#32)))

/-- `(z − rowMean z) · rsqrt (rowVar z + 1e-5) · g + b`. -/
def layerNorm (z : (⟨S80000x64, .f32⟩ : BufTy).Contents (Elt F)) (g : (⟨S64, .f32⟩ : BufTy).Contents (Elt F)) (b : (⟨S64, .f32⟩ : BufTy).Contents (Elt F)) : (⟨S80000x64, .f32⟩ : BufTy).Contents (Elt F) :=
  addf (mulf (mulf (subf (z) (broadcastInDim S80000x64 ![0, 1] bcast_S80000x1_S80000x64_0_1 (rowMean z))) (broadcastInDim S80000x64 ![0, 1] bcast_S80000x1_S80000x64_0_1 (Host.rsqrt (addf (rowVar z) (broadcastInDim S80000x1 ![] bcast_S_S80000x1 (constant S_ .f32 0x3727C5AC#32)))))) (broadcastInDim S80000x64 ![0, 1] bcast_S1x64_S80000x64_0_1 (broadcastInDim S1x64 ![1] bcast_S64_S1x64_1 (g)))) (broadcastInDim S80000x64 ![0, 1] bcast_S1x64_S80000x64_0_1 (broadcastInDim S1x64 ![1] bcast_S64_S1x64_1 (b)))

def relu64 (x : (⟨S80000x64, .f32⟩ : BufTy).Contents (Elt F)) : (⟨S80000x64, .f32⟩ : BufTy).Contents (Elt F) :=
  maximumf (x) (broadcastInDim S80000x64 ![] bcast_S_S80000x64 (constant S_ .f32 0x00000000#32))

/-- One layer with no relu after it (the last one): aggregate, linear, batch norm and relu, linear, layer norm. -/
def lastLayer (h : (⟨S80000x64, .f32⟩ : BufTy).Contents (Elt F)) (ea : (⟨S1280000x64, .f32⟩ : BufTy).Contents (Elt F)) (src dst : (⟨S1280000, .i32⟩ : BufTy).Contents (Elt F)) (eps : (⟨S_, .f32⟩ : BufTy).Contents (Elt F)) (W1 : (⟨S64x128, .f32⟩ : BufTy).Contents (Elt F)) (b1 : (⟨S128, .f32⟩ : BufTy).Contents (Elt F)) (γ : (⟨S128, .f32⟩ : BufTy).Contents (Elt F)) (β : (⟨S128, .f32⟩ : BufTy).Contents (Elt F)) (W2 : (⟨S128x64, .f32⟩ : BufTy).Contents (Elt F)) (b2 : (⟨S64, .f32⟩ : BufTy).Contents (Elt F)) (g : (⟨S64, .f32⟩ : BufTy).Contents (Elt F)) (bb : (⟨S64, .f32⟩ : BufTy).Contents (Elt F)) : (⟨S80000x64, .f32⟩ : BufTy).Contents (Elt F) :=
  layerNorm (linear2 (relu128 (batchNorm (linear1 (aggregate h ea src dst eps) W1 b1) γ β)) W2 b2) g bb

/-- One layer followed by relu (layers 0, 1, 2). -/
def layer (h : (⟨S80000x64, .f32⟩ : BufTy).Contents (Elt F)) (ea : (⟨S1280000x64, .f32⟩ : BufTy).Contents (Elt F)) (src dst : (⟨S1280000, .i32⟩ : BufTy).Contents (Elt F)) (eps : (⟨S_, .f32⟩ : BufTy).Contents (Elt F)) (W1 : (⟨S64x128, .f32⟩ : BufTy).Contents (Elt F)) (b1 : (⟨S128, .f32⟩ : BufTy).Contents (Elt F)) (γ : (⟨S128, .f32⟩ : BufTy).Contents (Elt F)) (β : (⟨S128, .f32⟩ : BufTy).Contents (Elt F)) (W2 : (⟨S128x64, .f32⟩ : BufTy).Contents (Elt F)) (b2 : (⟨S64, .f32⟩ : BufTy).Contents (Elt F)) (g : (⟨S64, .f32⟩ : BufTy).Contents (Elt F)) (bb : (⟨S64, .f32⟩ : BufTy).Contents (Elt F)) : (⟨S80000x64, .f32⟩ : BufTy).Contents (Elt F) :=
  relu64 (lastLayer h ea src dst eps W1 b1 γ β W2 b2 g bb)

/-- Layer 0: the layer at slice 0 of each of the nine parameter arrays. -/
def layer_0 (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) : (⟨S80000x64, .f32⟩ : BufTy).Contents (Elt F) :=
  layer h ea src dst (shapeCast S_ (extractStridedSlice S1 ![0] (a13) slices_S4_S1_0) shapeCasts_S1_S_)
    (shapeCast S64x128 (extractStridedSlice S1x64x128 ![0, 0, 0] (a7) slices_S4x64x128_S1x64x128_0_0_0) shapeCasts_S1x64x128_S64x128)
    (shapeCast S128 (extractStridedSlice S1x128 ![0, 0] (a8) slices_S4x128_S1x128_0_0) shapeCasts_S1x128_S128)
    (shapeCast S128 (extractStridedSlice S1x128 ![0, 0] (a9) slices_S4x128_S1x128_0_0) shapeCasts_S1x128_S128)
    (shapeCast S128 (extractStridedSlice S1x128 ![0, 0] (a10) slices_S4x128_S1x128_0_0) shapeCasts_S1x128_S128)
    (shapeCast S128x64 (extractStridedSlice S1x128x64 ![0, 0, 0] (a11) slices_S4x128x64_S1x128x64_0_0_0) shapeCasts_S1x128x64_S128x64)
    (shapeCast S64 (extractStridedSlice S1x64 ![0, 0] (a12) slices_S4x64_S1x64_0_0) shapeCasts_S1x64_S64)
    (shapeCast S64 (extractStridedSlice S1x64 ![0, 0] (a14) slices_S4x64_S1x64_0_0) shapeCasts_S1x64_S64)
    (shapeCast S64 (extractStridedSlice S1x64 ![0, 0] (a15) slices_S4x64_S1x64_0_0) shapeCasts_S1x64_S64)

/-- Layer 1: the layer at slice 1 of each of the nine parameter arrays. -/
def layer_1 (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) : (⟨S80000x64, .f32⟩ : BufTy).Contents (Elt F) :=
  layer h ea src dst (shapeCast S_ (extractStridedSlice S1 ![1] (a13) slices_S4_S1_1) shapeCasts_S1_S_)
    (shapeCast S64x128 (extractStridedSlice S1x64x128 ![1, 0, 0] (a7) slices_S4x64x128_S1x64x128_1_0_0) shapeCasts_S1x64x128_S64x128)
    (shapeCast S128 (extractStridedSlice S1x128 ![1, 0] (a8) slices_S4x128_S1x128_1_0) shapeCasts_S1x128_S128)
    (shapeCast S128 (extractStridedSlice S1x128 ![1, 0] (a9) slices_S4x128_S1x128_1_0) shapeCasts_S1x128_S128)
    (shapeCast S128 (extractStridedSlice S1x128 ![1, 0] (a10) slices_S4x128_S1x128_1_0) shapeCasts_S1x128_S128)
    (shapeCast S128x64 (extractStridedSlice S1x128x64 ![1, 0, 0] (a11) slices_S4x128x64_S1x128x64_1_0_0) shapeCasts_S1x128x64_S128x64)
    (shapeCast S64 (extractStridedSlice S1x64 ![1, 0] (a12) slices_S4x64_S1x64_1_0) shapeCasts_S1x64_S64)
    (shapeCast S64 (extractStridedSlice S1x64 ![1, 0] (a14) slices_S4x64_S1x64_1_0) shapeCasts_S1x64_S64)
    (shapeCast S64 (extractStridedSlice S1x64 ![1, 0] (a15) slices_S4x64_S1x64_1_0) shapeCasts_S1x64_S64)

/-- Layer 2: the layer at slice 2 of each of the nine parameter arrays. -/
def layer_2 (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) : (⟨S80000x64, .f32⟩ : BufTy).Contents (Elt F) :=
  layer h ea src dst (shapeCast S_ (extractStridedSlice S1 ![2] (a13) slices_S4_S1_2) shapeCasts_S1_S_)
    (shapeCast S64x128 (extractStridedSlice S1x64x128 ![2, 0, 0] (a7) slices_S4x64x128_S1x64x128_2_0_0) shapeCasts_S1x64x128_S64x128)
    (shapeCast S128 (extractStridedSlice S1x128 ![2, 0] (a8) slices_S4x128_S1x128_2_0) shapeCasts_S1x128_S128)
    (shapeCast S128 (extractStridedSlice S1x128 ![2, 0] (a9) slices_S4x128_S1x128_2_0) shapeCasts_S1x128_S128)
    (shapeCast S128 (extractStridedSlice S1x128 ![2, 0] (a10) slices_S4x128_S1x128_2_0) shapeCasts_S1x128_S128)
    (shapeCast S128x64 (extractStridedSlice S1x128x64 ![2, 0, 0] (a11) slices_S4x128x64_S1x128x64_2_0_0) shapeCasts_S1x128x64_S128x64)
    (shapeCast S64 (extractStridedSlice S1x64 ![2, 0] (a12) slices_S4x64_S1x64_2_0) shapeCasts_S1x64_S64)
    (shapeCast S64 (extractStridedSlice S1x64 ![2, 0] (a14) slices_S4x64_S1x64_2_0) shapeCasts_S1x64_S64)
    (shapeCast S64 (extractStridedSlice S1x64 ![2, 0] (a15) slices_S4x64_S1x64_2_0) shapeCasts_S1x64_S64)

/-- Layer 3: the layer at slice 3 of each of the nine parameter arrays (no relu after it). -/
def layer_3 (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) : (⟨S80000x64, .f32⟩ : BufTy).Contents (Elt F) :=
  lastLayer h ea src dst (shapeCast S_ (extractStridedSlice S1 ![3] (a13) slices_S4_S1_3) shapeCasts_S1_S_)
    (shapeCast S64x128 (extractStridedSlice S1x64x128 ![3, 0, 0] (a7) slices_S4x64x128_S1x64x128_3_0_0) shapeCasts_S1x64x128_S64x128)
    (shapeCast S128 (extractStridedSlice S1x128 ![3, 0] (a8) slices_S4x128_S1x128_3_0) shapeCasts_S1x128_S128)
    (shapeCast S128 (extractStridedSlice S1x128 ![3, 0] (a9) slices_S4x128_S1x128_3_0) shapeCasts_S1x128_S128)
    (shapeCast S128 (extractStridedSlice S1x128 ![3, 0] (a10) slices_S4x128_S1x128_3_0) shapeCasts_S1x128_S128)
    (shapeCast S128x64 (extractStridedSlice S1x128x64 ![3, 0, 0] (a11) slices_S4x128x64_S1x128x64_3_0_0) shapeCasts_S1x128x64_S128x64)
    (shapeCast S64 (extractStridedSlice S1x64 ![3, 0] (a12) slices_S4x64_S1x64_3_0) shapeCasts_S1x64_S64)
    (shapeCast S64 (extractStridedSlice S1x64 ![3, 0] (a14) slices_S4x64_S1x64_3_0) shapeCasts_S1x64_S64)
    (shapeCast S64 (extractStridedSlice S1x64 ![3, 0] (a15) slices_S4x64_S1x64_3_0) shapeCasts_S1x64_S64)

/-- The whole function of the sixteen argument arrays: the stem, then the four layers. -/
def forward (a0 : (⟨S80000x32, .f32⟩ : BufTy).Contents (Elt F)) (a1 : (⟨S2x1280000, .i32⟩ : BufTy).Contents (Elt F)) (a2 : (⟨S1280000x16, .f32⟩ : BufTy).Contents (Elt F)) (a3 : (⟨S32x64, .f32⟩ : BufTy).Contents (Elt F)) (a4 : (⟨S64, .f32⟩ : BufTy).Contents (Elt F)) (a5 : (⟨S16x64, .f32⟩ : BufTy).Contents (Elt F)) (a6 : (⟨S64, .f32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) : (⟨S80000x64, .f32⟩ : BufTy).Contents (Elt F) :=
  layer_3 (layer_2 (layer_1 (layer_0 (h0 a0 a3 a4) (ea a2 a5 a6) (srcCol a1) (dstCol a1) a7 a8 a9 a10 a11 a12 a13 a14 a15)
    (ea a2 a5 a6) (srcCol a1) (dstCol a1) a7 a8 a9 a10 a11 a12 a13 a14 a15)
    (ea a2 a5 a6) (srcCol a1) (dstCol a1) a7 a8 a9 a10 a11 a12 a13 a14 a15)
    (ea a2 a5 a6) (srcCol a1) (dstCol a1) a7 a8 a9 a10 a11 a12 a13 a14 a15

end Cert.ReferenceIdeal.RefRun

end
-- ==== Proof.RefRunStage0.lean ====
/-
  Layer 0 and the stem of the reference program, stage by stage: the operations between two points where one array is
  handed on, as a list; what the list writes; and the handed-on array after the list, from ANY contents `V` of the
  device's buffers, as the stage's function (Proof/RefRunLayers.lean) of the contents `V` has at the stage's inputs —
  each operation's result read at its own buffer is its function of its operands' contents, and at any other buffer
  what was there, so the list's last result is the functions composed in program order.
-/
import proofs.«178590_j59433757442359_2_alg».proof.Proof.RefRunLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 18 of 583. -/
abbrev sStem : List (HloOp τ sig (Elt F)) :=
  [ StableHlo.binary main_arg0 main_arg3 main_v0 ((fun l r => Host.dotGeneral dot_S80000x32_S32x64_S80000x64_1_0_0_1_n_n none l r) : (⟨S80000x32, .f32⟩ : BufTy).Contents (Elt F) → (⟨S32x64, .f32⟩ : BufTy).Contents (Elt F) → (⟨S80000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S80000x64 ![0, 1] bcast_S1x64_S80000x64_0_1 : (⟨S1x64, .f32⟩ : BufTy).Contents (Elt F) → (⟨S80000x64, .f32⟩ : BufTy).Contents (Elt F)),
    StableHlo.binary main_v0 main_v2 main_v3 (addf : (⟨S80000x64, .f32⟩ : BufTy).Contents (Elt F) → (⟨S80000x64, .f32⟩ : BufTy).Contents (Elt F) → (⟨S80000x64, .f32⟩ : BufTy).Contents (Elt F)),
    StableHlo.nullary main_call0_cst (constant S_ .f32 0x00000000#32),
    StableHlo.unary main_call0_cst main_call0_v0 (broadcastInDim S80000x64 ![] bcast_S_S80000x64 : (⟨S_, .f32⟩ : BufTy).Contents (Elt F) → (⟨S80000x64, .f32⟩ : BufTy).Contents (Elt F)),
    StableHlo.binary main_v3 main_call0_v0 main_v4 (maximumf : (⟨S80000x64, .f32⟩ : BufTy).Contents (Elt F) → (⟨S80000x64, .f32⟩ : BufTy).Contents (Elt F) → (⟨S80000x64, .f32⟩ : BufTy).Contents (Elt F)),
    StableHlo.binary main_arg2 main_arg5 main_v5 ((fun l r => Host.dotGeneral dot_S1280000x16_S16x64_S1280000x64_1_0_0_1_n_n none l r) : (⟨S1280000x16, .f32⟩ : BufTy).Contents (Elt F) → (⟨S16x64, .f32⟩ : BufTy).Contents (Elt F) → (⟨S1280000x64, .f32⟩ : BufTy).Contents (Elt F)),
    StableHlo.unary main_arg6 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S1280000x64 ![0, 1] bcast_S1x64_S1280000x64_0_1 : (⟨S1x64, .f32⟩ : BufTy).Contents (Elt F) → (⟨S1280000x64, .f32⟩ : BufTy).Contents (Elt F)),
    StableHlo.binary main_v5 main_v7 main_v8 (addf : (⟨S1280000x64, .f32⟩ : BufTy).Contents (Elt F) → (⟨S1280000x64, .f32⟩ : BufTy).Contents (Elt F) → (⟨S1280000x64, .f32⟩ : BufTy).Contents (Elt F)),
    StableHlo.nullary main_call1_cst (constant S_ .f32 0x00000000#32),
    StableHlo.unary main_call1_cst main_call1_v0 (broadcastInDim S1280000x64 ![] bcast_S_S1280000x64 : (⟨S_, .f32⟩ : BufTy).Contents (Elt F) → (⟨S1280000x64, .f32⟩ : BufTy).Contents (Elt F)),
    StableHlo.binary main_v8 main_call1_v0 main_v9 (maximumf : (⟨S1280000x64, .f32⟩ : BufTy).Contents (Elt F) → (⟨S1280000x64, .f32⟩ : BufTy).Contents (Elt F) → (⟨S1280000x64, .f32⟩ : BufTy).Contents (Elt F)),
    StableHlo.unary main_arg1 main_v10 ((extractStridedSlice S1x1280000 ![0, 0] · slices_S2x1280000_S1x1280000_0_0) : (⟨S2x1280000, .i32⟩ : BufTy).Contents (Elt F) → (⟨S1x1280000, .i32⟩ : BufTy).Contents (Elt F)),
    StableHlo.reshape main_v10 main_v11 rfl shapeCasts_S1x1280000_S1280000,
    StableHlo.unary main_arg1 main_v12 ((extractStridedSlice S1x1280000 ![1, 0] · slices_S2x1280000_S1x1280000_1_0) : (⟨S2x1280000, .i32⟩ : BufTy).Contents (Elt F) → (⟨S1x1280000, .i32⟩ : BufTy).Contents (Elt F)),
    StableHlo.reshape main_v12 main_v13 rfl shapeCasts_S1x1280000_S1280000 ]

abbrev sStem_W : List (Ref sig .tc) :=
  [main_v0, main_v1, main_v2, main_v3, main_call0_cst, main_call0_v0, main_v4, main_v5, main_v6, main_v7, main_v8, main_call1_cst, main_call1_v0, main_v9, main_v10, main_v11, main_v12, main_v13]

set_option maxRecDepth 8192 in
theorem sStem_writes : (sStem : List (HloOp τ sig (Elt F))).Forall fun op =>
    op.writes ⊆ (sStem_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 1800000 in
theorem sStem_main_v4 (V : Valuation τ sig (Elt F)) :
    after sStem V (Proc.devRef .tc main_v4) = h0 (V (Proc.devRef .tc main_arg0)) (V (Proc.devRef .tc main_arg3)) (V (Proc.devRef .tc main_arg4)) := by
  simp only [sStem]
  after_results_simp <;> rfl

set_option maxRecDepth 8192 in
set_option maxHeartbeats 1800000 in
theorem sStem_main_v9 (V : Valuation τ sig (Elt F)) :
    after sStem V (Proc.devRef .tc main_v9) = ea (V (Proc.devRef .tc main_arg2)) (V (Proc.devRef .tc main_arg5)) (V (Proc.devRef .tc main_arg6)) := by
  simp only [sStem]
  after_results_simp <;> rfl

set_option maxRecDepth 8192 in
set_option maxHeartbeats 1800000 in
theorem sStem_main_v11 (V : Valuation τ sig (Elt F)) :
    after sStem V (Proc.devRef .tc main_v11) = srcCol (V (Proc.devRef .tc main_arg1)) := by
  simp only [sStem]
  after_results_simp <;> rfl

set_option maxRecDepth 8192 in
set_option maxHeartbeats 1800000 in
theorem sStem_main_v13 (V : Valuation τ sig (Elt F)) :
    after sStem V (Proc.devRef .tc main_v13) = dstCol (V (Proc.devRef .tc main_arg1)) := by
  simp only [sStem]
  after_results_simp <;> rfl

/-- Operations 19 … 42 of 583. -/
abbrev sA0 : List (HloOp τ sig (Elt F)) :=
  [ StableHlo.nullary main_c (constantI S_ 32 0#32),
    StableHlo.unary main_c main_v14 (broadcastInDim S1280000 ![] bcast_S_S1280000 : (⟨S_, .i32⟩ : BufTy).Contents (Elt F) → (⟨S1280000, .i32⟩ : BufTy).Contents (Elt F)),
    StableHlo.binary main_v11 main_v14 main_v15 (cmpi .slt : (⟨S1280000, .i32⟩ : BufTy).Contents (Elt F) → (⟨S1280000, .i32⟩ : BufTy).Contents (Elt F) → (⟨S1280000, .i1⟩ : BufTy).Contents (Elt F)),
    StableHlo.nullary main_c_0 (constantI S_ 32 80000#32),
    StableHlo.unary main_c_0 main_v16 (broadcastInDim S1280000 ![] bcast_S_S1280000 : (⟨S_, .i32⟩ : BufTy).Contents (Elt F) → (⟨S1280000, .i32⟩ : BufTy).Contents (Elt F)),
    StableHlo.binary main_v11 main_v16 main_v17 (addi : (⟨S1280000, .i32⟩ : BufTy).Contents (Elt F) → (⟨S1280000, .i32⟩ : BufTy).Contents (Elt F) → (⟨S1280000, .i32⟩ : BufTy).Contents (Elt F)),
    StableHlo.ternary main_v15 main_v17 main_v11 main_v18 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v18 main_v19 (broadcastInDim S1280000x1 ![0] bcast_S1280000_S1280000x1_0 : (⟨S1280000, .i32⟩ : BufTy).Contents (Elt F) → (⟨S1280000x1, .i32⟩ : BufTy).Contents (Elt F)),
    StableHlo.binary main_v4 main_v19 main_v20 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v20 main_v9 main_v21 (addf : (⟨S1280000x64, .f32⟩ : BufTy).Contents (Elt F) → (⟨S1280000x64, .f32⟩ : BufTy).Contents (Elt F) → (⟨S1280000x64, .f32⟩ : BufTy).Contents (Elt F)),
    StableHlo.nullary main_call2_cst (constant S_ .f32 0x00000000#32),
    StableHlo.unary main_call2_cst main_call2_v0 (broadcastInDim S1280000x64 ![] bcast_S_S1280000x64 : (⟨S_, .f32⟩ : BufTy).Contents (Elt F) → (⟨S1280000x64, .f32⟩ : BufTy).Contents (Elt F)),
    StableHlo.binary main_v21 main_call2_v0 main_v22 (maximumf : (⟨S1280000x64, .f32⟩ : BufTy).Contents (Elt F) → (⟨S1280000x64, .f32⟩ : BufTy).Contents (Elt F) → (⟨S1280000x64, .f32⟩ : BufTy).Contents (Elt F)),
    StableHlo.nullary main_cst (constant S_ .f32 0x00000000#32),
    StableHlo.unary main_cst main_v23 (broadcastInDim S80000x64 ![] bcast_S_S80000x64 : (⟨S_, .f32⟩ : BufTy).Contents (Elt F) → (⟨S80000x64, .f32⟩ : BufTy).Contents (Elt F)),
    StableHlo.unary main_v13 main_v24 (broadcastInDim S1280000x1 ![0] bcast_S1280000_S1280000x1_0 : (⟨S1280000, .i32⟩ : BufTy).Contents (Elt F) → (⟨S1280000x1, .i32⟩ : BufTy).Contents (Elt F)),
    StableHlo.ternary main_v23 main_v24 main_v22 main_v25 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v26 ((extractStridedSlice S1 ![0] · slices_S4_S1_0) : (⟨S4, .f32⟩ : BufTy).Contents (Elt F) → (⟨S1, .f32⟩ : BufTy).Contents (Elt F)),
    StableHlo.reshape main_v26 main_v27 rfl shapeCasts_S1_S_,
    StableHlo.nullary main_cst_1 (constant S_ .f32 0x3F800000#32),
    StableHlo.binary main_cst_1 main_v27 main_v28 (addf : (⟨S_, .f32⟩ : BufTy).Contents (Elt F) → (⟨S_, .f32⟩ : BufTy).Contents (Elt F) → (⟨S_, .f32⟩ : BufTy).Contents (Elt F)),
    StableHlo.unary main_v28 main_v29 (broadcastInDim S80000x64 ![] bcast_S_S80000x64 : (⟨S_, .f32⟩ : BufTy).Contents (Elt F) → (⟨S80000x64, .f32⟩ : BufTy).Contents (Elt F)),
    StableHlo.binary main_v29 main_v4 main_v30 (mulf : (⟨S80000x64, .f32⟩ : BufTy).Contents (Elt F) → (⟨S80000x64, .f32⟩ : BufTy).Contents (Elt F) → (⟨S80000x64, .f32⟩ : BufTy).Contents (Elt F)),
    StableHlo.binary main_v30 main_v25 main_v31 (addf : (⟨S80000x64, .f32⟩ : BufTy).Contents (Elt F) → (⟨S80000x64, .f32⟩ : BufTy).Contents (Elt F) → (⟨S80000x64, .f32⟩ : BufTy).Contents (Elt F)) ]

abbrev sA0_W : List (Ref sig .tc) :=
  [main_c, main_v14, main_v15, main_c_0, main_v16, main_v17, main_v18, main_v19, main_v20, main_v21, main_call2_cst, main_call2_v0, main_v22, main_cst, main_v23, main_v24, main_v25, main_v26, main_v27, main_cst_1, main_v28, main_v29, main_v30, main_v31]

set_option maxRecDepth 8192 in
theorem sA0_writes : (sA0 : List (HloOp τ sig (Elt F))).Forall fun op =>
    op.writes ⊆ (sA0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sA0_main_v31 (V : Valuation τ sig (Elt F)) :
    after sA0 V (Proc.devRef .tc main_v31) = aggregate (V (Proc.devRef .tc main_v4)) (V (Proc.devRef .tc main_v9)) (V (Proc.devRef .tc main_v11)) (V (Proc.devRef .tc main_v13)) (shapeCast S_ (extractStridedSlice S1 ![0] (V (Proc.devRef .tc main_arg13)) slices_S4_S1_0) shapeCasts_S1_S_) := by
  simp only [sA0]
  after_results_simp <;> rfl

/-- Operations 43 … 50 of 583. -/
abbrev sB0 : List (HloOp τ sig (Elt F)) :=
  [ StableHlo.unary main_arg7 main_v32 ((extractStridedSlice S1x64x128 ![0, 0, 0] · slices_S4x64x128_S1x64x128_0_0_0) : (⟨S4x64x128, .f32⟩ : BufTy).Contents (Elt F) → (⟨S1x64x128, .f32⟩ : BufTy).Contents (Elt F)),
    StableHlo.reshape main_v32 main_v33 rfl shapeCasts_S1x64x128_S64x128,
    StableHlo.binary main_v31 main_v33 main_v34 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v35 ((extractStridedSlice S1x128 ![0, 0] · slices_S4x128_S1x128_0_0) : (⟨S4x128, .f32⟩ : BufTy).Contents (Elt F) → (⟨S1x128, .f32⟩ : BufTy).Contents (Elt F)),
    StableHlo.reshape main_v35 main_v36 rfl shapeCasts_S1x128_S128,
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S80000x128 ![0, 1] bcast_S1x128_S80000x128_0_1 : (⟨S1x128, .f32⟩ : BufTy).Contents (Elt F) → (⟨S80000x128, .f32⟩ : BufTy).Contents (Elt F)),
    StableHlo.binary main_v34 main_v38 main_v39 (addf : (⟨S80000x128, .f32⟩ : BufTy).Contents (Elt F) → (⟨S80000x128, .f32⟩ : BufTy).Contents (Elt F) → (⟨S80000x128, .f32⟩ : BufTy).Contents (Elt F)) ]

abbrev sB0_W : List (Ref sig .tc) :=
  [main_v32, main_v33, main_v34, main_v35, main_v36, main_v37, main_v38, main_v39]

set_option maxRecDepth 8192 in
theorem sB0_writes : (sB0 : List (HloOp τ sig (Elt F))).Forall fun op =>
    op.writes ⊆ (sB0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sB0_main_v39 (V : Valuation τ sig (Elt F)) :
    after sB0 V (Proc.devRef .tc main_v39) = linear1 (V (Proc.devRef .tc main_v31)) (shapeCast S64x128 (extractStridedSlice S1x64x128 ![0, 0, 0] (V (Proc.devRef .tc main_arg7)) slices_S4x64x128_S1x64x128_0_0_0) shapeCasts_S1x64x128_S64x128) (shapeCast S128 (extractStridedSlice S1x128 ![0, 0] (V (Proc.devRef .tc main_arg8)) slices_S4x128_S1x128_0_0) shapeCasts_S1x128_S128) := by
  simp only [sB0]
  after_results_simp <;> rfl

/-- Operations 51 … 101 of 583. -/
abbrev sC0 : List (HloOp τ sig (Elt F)) :=
  [ StableHlo.nullary main_cst_2 (constant S_ .f32 0x00000000#32),
    StableHlo.binary main_v39 main_cst_2 main_v40 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_3 (constant S_ .f32 0x479C4000#32),
    StableHlo.unary main_cst_3 main_v41 (broadcastInDim S128 ![] bcast_S_S128 : (⟨S_, .f32⟩ : BufTy).Contents (Elt F) → (⟨S128, .f32⟩ : BufTy).Contents (Elt F)),
    StableHlo.binary main_v40 main_v41 main_v42 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.nullary main_call3_cst (constant S_ .f32 0x00000000#32),
    StableHlo.binary main_v39 main_call3_cst main_call3_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call3_v0 main_call3_v1 (broadcastInDim S1x128 ![1] bcast_S128_S1x128_1 : (⟨S128, .f32⟩ : BufTy).Contents (Elt F) → (⟨S1x128, .f32⟩ : BufTy).Contents (Elt F)),
    StableHlo.nullary main_call3_cst_0 (constant S_ .f32 0x479C4000#32),
    StableHlo.unary main_call3_cst_0 main_call3_v2 (broadcastInDim S1x128 ![] bcast_S_S1x128 : (⟨S_, .f32⟩ : BufTy).Contents (Elt F) → (⟨S1x128, .f32⟩ : BufTy).Contents (Elt F)),
    StableHlo.binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    StableHlo.unary main_call3_v3 main_call3_v4 (broadcastInDim S80000x128 ![0, 1] bcast_S1x128_S80000x128_0_1 : (⟨S1x128, .f32⟩ : BufTy).Contents (Elt F) → (⟨S80000x128, .f32⟩ : BufTy).Contents (Elt F)),
    StableHlo.binary main_v39 main_call3_v4 main_call3_v5 (subf : (⟨S80000x128, .f32⟩ : BufTy).Contents (Elt F) → (⟨S80000x128, .f32⟩ : BufTy).Contents (Elt F) → (⟨S80000x128, .f32⟩ : BufTy).Contents (Elt F)),
    StableHlo.binary main_call3_v5 main_call3_v5 main_call3_v6 (mulf : (⟨S80000x128, .f32⟩ : BufTy).Contents (Elt F) → (⟨S80000x128, .f32⟩ : BufTy).Contents (Elt F) → (⟨S80000x128, .f32⟩ : BufTy).Contents (Elt F)),
    StableHlo.unary main_c_4 main_call3_v7 (sitofp .f32 : (⟨S_, .i32⟩ : BufTy).Contents (Elt F) → (⟨S_, .f32⟩ : BufTy).Contents (Elt F)),
    StableHlo.nullary main_call3_cst_1 (constant S_ .f32 0x479C4000#32),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call3_v8 main_call3_v10 (broadcastInDim S128 ![] bcast_S_S128 : (⟨S_, .f32⟩ : BufTy).Contents (Elt F) → (⟨S128, .f32⟩ : BufTy).Contents (Elt F)),
    StableHlo.binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    StableHlo.nullary main_call3_cst_3 (constant S_ .f32 0x00000000#32),
    StableHlo.binary main_call3_v8 main_call3_cst_3 main_call3_v12 (cmpf .ogt : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 (broadcastInDim S128 ![] bcast_S_S128 : (⟨S_, .f32⟩ : BufTy).Contents (Elt F) → (⟨S128, .f32⟩ : BufTy).Contents (Elt F)),
    StableHlo.ternary main_call3_v12 main_call3_v11 main_call3_call0_v1 main_v43 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v42 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S80000x128 ![0, 1] bcast_S1x128_S80000x128_0_1 : (⟨S1x128, .f32⟩ : BufTy).Contents (Elt F) → (⟨S80000x128, .f32⟩ : BufTy).Contents (Elt F)),
    StableHlo.binary main_v39 main_v45 main_v46 (subf : (⟨S80000x128, .f32⟩ : BufTy).Contents (Elt F) → (⟨S80000x128, .f32⟩ : BufTy).Contents (Elt F) → (⟨S80000x128, .f32⟩ : BufTy).Contents (Elt F)),
    StableHlo.nullary main_cst_5 (constant S_ .f32 0x3727C5AC#32),
    StableHlo.unary main_cst_5 main_v47 (broadcastInDim S128 ![] bcast_S_S128 : (⟨S_, .f32⟩ : BufTy).Contents (Elt F) → (⟨S128, .f32⟩ : BufTy).Contents (Elt F)),
    StableHlo.binary main_v43 main_v47 main_v48 (addf : (⟨S128, .f32⟩ : BufTy).Contents (Elt F) → (⟨S128, .f32⟩ : BufTy).Contents (Elt F) → (⟨S128, .f32⟩ : BufTy).Contents (Elt F)),
    StableHlo.unary main_v48 main_v49 (Host.rsqrt : (⟨S128, .f32⟩ : BufTy).Contents (Elt F) → (⟨S128, .f32⟩ : BufTy).Contents (Elt F)),
    StableHlo.unary main_v49 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S80000x128 ![0, 1] bcast_S1x128_S80000x128_0_1 : (⟨S1x128, .f32⟩ : BufTy).Contents (Elt F) → (⟨S80000x128, .f32⟩ : BufTy).Contents (Elt F)),
    StableHlo.binary main_v46 main_v51 main_v52 (mulf : (⟨S80000x128, .f32⟩ : BufTy).Contents (Elt F) → (⟨S80000x128, .f32⟩ : BufTy).Contents (Elt F) → (⟨S80000x128, .f32⟩ : BufTy).Contents (Elt F)),
    StableHlo.unary main_arg9 main_v53 ((extractStridedSlice S1x128 ![0, 0] · slices_S4x128_S1x128_0_0) : (⟨S4x128, .f32⟩ : BufTy).Contents (Elt F) → (⟨S1x128, .f32⟩ : BufTy).Contents (Elt F)),
    StableHlo.reshape main_v53 main_v54 rfl shapeCasts_S1x128_S128,
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S80000x128 ![0, 1] bcast_S1x128_S80000x128_0_1 : (⟨S1x128, .f32⟩ : BufTy).Contents (Elt F) → (⟨S80000x128, .f32⟩ : BufTy).Contents (Elt F)),
    StableHlo.binary main_v52 main_v56 main_v57 (mulf : (⟨S80000x128, .f32⟩ : BufTy).Contents (Elt F) → (⟨S80000x128, .f32⟩ : BufTy).Contents (Elt F) → (⟨S80000x128, .f32⟩ : BufTy).Contents (Elt F)),
    StableHlo.unary main_arg10 main_v58 ((extractStridedSlice S1x128 ![0, 0] · slices_S4x128_S1x128_0_0) : (⟨S4x128, .f32⟩ : BufTy).Contents (Elt F) → (⟨S1x128, .f32⟩ : BufTy).Contents (Elt F)),
    StableHlo.reshape main_v58 main_v59 rfl shapeCasts_S1x128_S128,
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S80000x128 ![0, 1] bcast_S1x128_S80000x128_0_1 : (⟨S1x128, .f32⟩ : BufTy).Contents (Elt F) → (⟨S80000x128, .f32⟩ : BufTy).Contents (Elt F)),
    StableHlo.binary main_v57 main_v61 main_v62 (addf : (⟨S80000x128, .f32⟩ : BufTy).Contents (Elt F) → (⟨S80000x128, .f32⟩ : BufTy).Contents (Elt F) → (⟨S80000x128, .f32⟩ : BufTy).Contents (Elt F)),
    StableHlo.nullary main_call4_cst (constant S_ .f32 0x00000000#32),
    StableHlo.unary main_call4_cst main_call4_v0 (broadcastInDim S80000x128 ![] bcast_S_S80000x128 : (⟨S_, .f32⟩ : BufTy).Contents (Elt F) → (⟨S80000x128, .f32⟩ : BufTy).Contents (Elt F)),
    StableHlo.binary main_v62 main_call4_v0 main_v63 (maximumf : (⟨S80000x128, .f32⟩ : BufTy).Contents (Elt F) → (⟨S80000x128, .f32⟩ : BufTy).Contents (Elt F) → (⟨S80000x128, .f32⟩ : BufTy).Contents (Elt F)) ]

abbrev sC0_W : List (Ref sig .tc) :=
  [main_cst_2, main_v40, main_cst_3, main_v41, main_v42, main_c_4, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v43, main_v44, main_v45, main_v46, main_cst_5, main_v47, main_v48, main_v49, main_v50, main_v51, main_v52, main_v53, main_v54, main_v55, main_v56, main_v57, main_v58, main_v59, main_v60, main_v61, main_v62, main_call4_cst, main_call4_v0, main_v63]

set_option maxRecDepth 8192 in
theorem sC0_writes : (sC0 : List (HloOp τ sig (Elt F))).Forall fun op =>
    op.writes ⊆ (sC0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sC0_main_v63 (V : Valuation τ sig (Elt F)) :
    after sC0 V (Proc.devRef .tc main_v63) = relu128 (batchNorm (V (Proc.devRef .tc main_v39)) (shapeCast S128 (extractStridedSlice S1x128 ![0, 0] (V (Proc.devRef .tc main_arg9)) slices_S4x128_S1x128_0_0) shapeCasts_S1x128_S128) (shapeCast S128 (extractStridedSlice S1x128 ![0, 0] (V (Proc.devRef .tc main_arg10)) slices_S4x128_S1x128_0_0) shapeCasts_S1x128_S128)) := by
  simp only [sC0]
  after_results_simp <;> rfl

/-- Operations 102 … 109 of 583. -/
abbrev sD0 : List (HloOp τ sig (Elt F)) :=
  [ StableHlo.unary main_arg11 main_v64 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v64 main_v65 rfl shapeCasts_S1x128x64_S128x64,
    StableHlo.binary main_v63 main_v65 main_v66 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v67 ((extractStridedSlice S1x64 ![0, 0] · slices_S4x64_S1x64_0_0) : (⟨S4x64, .f32⟩ : BufTy).Contents (Elt F) → (⟨S1x64, .f32⟩ : BufTy).Contents (Elt F)),
    StableHlo.reshape main_v67 main_v68 rfl shapeCasts_S1x64_S64,
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S80000x64 ![0, 1] bcast_S1x64_S80000x64_0_1 : (⟨S1x64, .f32⟩ : BufTy).Contents (Elt F) → (⟨S80000x64, .f32⟩ : BufTy).Contents (Elt F)),
    StableHlo.binary main_v66 main_v70 main_v71 (addf : (⟨S80000x64, .f32⟩ : BufTy).Contents (Elt F) → (⟨S80000x64, .f32⟩ : BufTy).Contents (Elt F) → (⟨S80000x64, .f32⟩ : BufTy).Contents (Elt F)) ]

abbrev sD0_W : List (Ref sig .tc) :=
  [main_v64, main_v65, main_v66, main_v67, main_v68, main_v69, main_v70, main_v71]

set_option maxRecDepth 8192 in
theorem sD0_writes : (sD0 : List (HloOp τ sig (Elt F))).Forall fun op =>
    op.writes ⊆ (sD0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sD0_main_v71 (V : Valuation τ sig (Elt F)) :
    after sD0 V (Proc.devRef .tc main_v71) = linear2 (V (Proc.devRef .tc main_v63)) (shapeCast S128x64 (extractStridedSlice S1x128x64 ![0, 0, 0] (V (Proc.devRef .tc main_arg11)) slices_S4x128x64_S1x128x64_0_0_0) shapeCasts_S1x128x64_S128x64) (shapeCast S64 (extractStridedSlice S1x64 ![0, 0] (V (Proc.devRef .tc main_arg12)) slices_S4x64_S1x64_0_0) shapeCasts_S1x64_S64) := by
  simp only [sD0]
  after_results_simp <;> rfl

/-- Operations 110 … 160 of 583. -/
abbrev sE0 : List (HloOp τ sig (Elt F)) :=
  [ StableHlo.nullary main_cst_6 (constant S_ .f32 0x00000000#32),
    StableHlo.binary main_v71 main_cst_6 main_v72 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v72 main_v73 (broadcastInDim S80000x1 ![0] bcast_S80000_S80000x1_0 : (⟨S80000, .f32⟩ : BufTy).Contents (Elt F) → (⟨S80000x1, .f32⟩ : BufTy).Contents (Elt F)),
    StableHlo.nullary main_cst_7 (constant S_ .f32 0x42800000#32),
    StableHlo.unary main_cst_7 main_v74 (broadcastInDim S80000x1 ![] bcast_S_S80000x1 : (⟨S_, .f32⟩ : BufTy).Contents (Elt F) → (⟨S80000x1, .f32⟩ : BufTy).Contents (Elt F)),
    StableHlo.binary main_v73 main_v74 main_v75 (Host.divf : (⟨S80000x1, .f32⟩ : BufTy).Contents (Elt F) → (⟨S80000x1, .f32⟩ : BufTy).Contents (Elt F) → (⟨S80000x1, .f32⟩ : BufTy).Contents (Elt F)),
    StableHlo.nullary main_c_8 (constantI S_ 32 0#32),
    StableHlo.nullary main_call5_cst (constant S_ .f32 0x00000000#32),
    StableHlo.binary main_v71 main_call5_cst main_call5_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call5_v0 main_call5_v1 (broadcastInDim S80000x1 ![0] bcast_S80000_S80000x1_0 : (⟨S80000, .f32⟩ : BufTy).Contents (Elt F) → (⟨S80000x1, .f32⟩ : BufTy).Contents (Elt F)),
    StableHlo.nullary main_call5_cst_0 (constant S_ .f32 0x42800000#32),
    StableHlo.unary main_call5_cst_0 main_call5_v2 (broadcastInDim S80000x1 ![] bcast_S_S80000x1 : (⟨S_, .f32⟩ : BufTy).Contents (Elt F) → (⟨S80000x1, .f32⟩ : BufTy).Contents (Elt F)),
    StableHlo.binary main_call5_v1 main_call5_v2 main_call5_v3 (Host.divf : (⟨S80000x1, .f32⟩ : BufTy).Contents (Elt F) → (⟨S80000x1, .f32⟩ : BufTy).Contents (Elt F) → (⟨S80000x1, .f32⟩ : BufTy).Contents (Elt F)),
    StableHlo.unary main_call5_v3 main_call5_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v71 main_call5_v4 main_call5_v5 (subf : (⟨S80000x64, .f32⟩ : BufTy).Contents (Elt F) → (⟨S80000x64, .f32⟩ : BufTy).Contents (Elt F) → (⟨S80000x64, .f32⟩ : BufTy).Contents (Elt F)),
    StableHlo.binary main_call5_v5 main_call5_v5 main_call5_v6 (mulf : (⟨S80000x64, .f32⟩ : BufTy).Contents (Elt F) → (⟨S80000x64, .f32⟩ : BufTy).Contents (Elt F) → (⟨S80000x64, .f32⟩ : BufTy).Contents (Elt F)),
    StableHlo.unary main_c_8 main_call5_v7 (sitofp .f32 : (⟨S_, .i32⟩ : BufTy).Contents (Elt F) → (⟨S_, .f32⟩ : BufTy).Contents (Elt F)),
    StableHlo.nullary main_call5_cst_1 (constant S_ .f32 0x42800000#32),
    StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F)),
    StableHlo.nullary main_call5_cst_2 (constant S_ .f32 0x00000000#32),
    StableHlo.binary main_call5_v6 main_call5_cst_2 main_call5_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call5_v9 main_call5_v10 (broadcastInDim S80000x1 ![0] bcast_S80000_S80000x1_0 : (⟨S80000, .f32⟩ : BufTy).Contents (Elt F) → (⟨S80000x1, .f32⟩ : BufTy).Contents (Elt F)),
    StableHlo.unary main_call5_v8 main_call5_v11 (broadcastInDim S80000x1 ![] bcast_S_S80000x1 : (⟨S_, .f32⟩ : BufTy).Contents (Elt F) → (⟨S80000x1, .f32⟩ : BufTy).Contents (Elt F)),
    StableHlo.binary main_call5_v10 main_call5_v11 main_call5_v12 (Host.divf : (⟨S80000x1, .f32⟩ : BufTy).Contents (Elt F) → (⟨S80000x1, .f32⟩ : BufTy).Contents (Elt F) → (⟨S80000x1, .f32⟩ : BufTy).Contents (Elt F)),
    StableHlo.nullary main_call5_cst_3 (constant S_ .f32 0x00000000#32),
    StableHlo.binary main_call5_v8 main_call5_cst_3 main_call5_v13 (cmpf .ogt : (⟨S_, .f32⟩ : BufTy).Contents (Elt F) → (⟨S_, .f32⟩ : BufTy).Contents (Elt F) → (⟨S_, .i1⟩ : BufTy).Contents (Elt F)),
    StableHlo.nullary main_call5_cst_4 (constant S_ .f32 0x7FC00000#32),
    StableHlo.unary main_call5_cst_4 main_call5_call0_v0 (id : (⟨S_, .f32⟩ : BufTy).Contents (Elt F) → (⟨S_, .f32⟩ : BufTy).Contents (Elt F)),
    StableHlo.unary main_call5_call0_v0 main_call5_call0_v1 (broadcastInDim S80000x1 ![] bcast_S_S80000x1 : (⟨S_, .f32⟩ : BufTy).Contents (Elt F) → (⟨S80000x1, .f32⟩ : BufTy).Contents (Elt F)),
    StableHlo.ternary main_call5_v13 main_call5_v12 main_call5_call0_v1 main_v76 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v75 main_v77 (broadcastInDim S80000x64 ![0, 1] bcast_S80000x1_S80000x64_0_1 : (⟨S80000x1, .f32⟩ : BufTy).Contents (Elt F) → (⟨S80000x64, .f32⟩ : BufTy).Contents (Elt F)),
    StableHlo.binary main_v71 main_v77 main_v78 (subf : (⟨S80000x64, .f32⟩ : BufTy).Contents (Elt F) → (⟨S80000x64, .f32⟩ : BufTy).Contents (Elt F) → (⟨S80000x64, .f32⟩ : BufTy).Contents (Elt F)),
    StableHlo.nullary main_cst_9 (constant S_ .f32 0x3727C5AC#32),
    StableHlo.unary main_cst_9 main_v79 (broadcastInDim S80000x1 ![] bcast_S_S80000x1 : (⟨S_, .f32⟩ : BufTy).Contents (Elt F) → (⟨S80000x1, .f32⟩ : BufTy).Contents (Elt F)),
    StableHlo.binary main_v76 main_v79 main_v80 (addf : (⟨S80000x1, .f32⟩ : BufTy).Contents (Elt F) → (⟨S80000x1, .f32⟩ : BufTy).Contents (Elt F) → (⟨S80000x1, .f32⟩ : BufTy).Contents (Elt F)),
    StableHlo.unary main_v80 main_v81 (Host.rsqrt : (⟨S80000x1, .f32⟩ : BufTy).Contents (Elt F) → (⟨S80000x1, .f32⟩ : BufTy).Contents (Elt F)),
    StableHlo.unary main_v81 main_v82 (broadcastInDim S80000x64 ![0, 1] bcast_S80000x1_S80000x64_0_1 : (⟨S80000x1, .f32⟩ : BufTy).Contents (Elt F) → (⟨S80000x64, .f32⟩ : BufTy).Contents (Elt F)),
    StableHlo.binary main_v78 main_v82 main_v83 (mulf : (⟨S80000x64, .f32⟩ : BufTy).Contents (Elt F) → (⟨S80000x64, .f32⟩ : BufTy).Contents (Elt F) → (⟨S80000x64, .f32⟩ : BufTy).Contents (Elt F)),
    StableHlo.unary main_arg14 main_v84 ((extractStridedSlice S1x64 ![0, 0] · slices_S4x64_S1x64_0_0) : (⟨S4x64, .f32⟩ : BufTy).Contents (Elt F) → (⟨S1x64, .f32⟩ : BufTy).Contents (Elt F)),
    StableHlo.reshape main_v84 main_v85 rfl shapeCasts_S1x64_S64,
    StableHlo.unary main_v85 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S80000x64 ![0, 1] bcast_S1x64_S80000x64_0_1 : (⟨S1x64, .f32⟩ : BufTy).Contents (Elt F) → (⟨S80000x64, .f32⟩ : BufTy).Contents (Elt F)),
    StableHlo.binary main_v83 main_v87 main_v88 (mulf : (⟨S80000x64, .f32⟩ : BufTy).Contents (Elt F) → (⟨S80000x64, .f32⟩ : BufTy).Contents (Elt F) → (⟨S80000x64, .f32⟩ : BufTy).Contents (Elt F)),
    StableHlo.unary main_arg15 main_v89 ((extractStridedSlice S1x64 ![0, 0] · slices_S4x64_S1x64_0_0) : (⟨S4x64, .f32⟩ : BufTy).Contents (Elt F) → (⟨S1x64, .f32⟩ : BufTy).Contents (Elt F)),
    StableHlo.reshape main_v89 main_v90 rfl shapeCasts_S1x64_S64,
    StableHlo.unary main_v90 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S80000x64 ![0, 1] bcast_S1x64_S80000x64_0_1 : (⟨S1x64, .f32⟩ : BufTy).Contents (Elt F) → (⟨S80000x64, .f32⟩ : BufTy).Contents (Elt F)),
    StableHlo.binary main_v88 main_v92 main_v93 (addf : (⟨S80000x64, .f32⟩ : BufTy).Contents (Elt F) → (⟨S80000x64, .f32⟩ : BufTy).Contents (Elt F) → (⟨S80000x64, .f32⟩ : BufTy).Contents (Elt F)),
    StableHlo.nullary main_call6_cst (constant S_ .f32 0x00000000#32),
    StableHlo.unary main_call6_cst main_call6_v0 (broadcastInDim S80000x64 ![] bcast_S_S80000x64 : (⟨S_, .f32⟩ : BufTy).Contents (Elt F) → (⟨S80000x64, .f32⟩ : BufTy).Contents (Elt F)),
    StableHlo.binary main_v93 main_call6_v0 main_v94 (maximumf : (⟨S80000x64, .f32⟩ : BufTy).Contents (Elt F) → (⟨S80000x64, .f32⟩ : BufTy).Contents (Elt F) → (⟨S80000x64, .f32⟩ : BufTy).Contents (Elt F)) ]

abbrev sE0_W : List (Ref sig .tc) :=
  [main_cst_6, main_v72, main_v73, main_cst_7, main_v74, main_v75, main_c_8, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v76, main_v77, main_v78, main_cst_9, main_v79, main_v80, main_v81, main_v82, main_v83, main_v84, main_v85, main_v86, main_v87, main_v88, main_v89, main_v90, main_v91, main_v92, main_v93, main_call6_cst, main_call6_v0, main_v94]

set_option maxRecDepth 8192 in
theorem sE0_writes : (sE0 : List (HloOp τ sig (Elt F))).Forall fun op =>
    op.writes ⊆ (sE0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sE0_main_v94 (V : Valuation τ sig (Elt F)) :
    after sE0 V (Proc.devRef .tc main_v94) = relu64 (layerNorm (V (Proc.devRef .tc main_v71)) (shapeCast S64 (extractStridedSlice S1x64 ![0, 0] (V (Proc.devRef .tc main_arg14)) slices_S4x64_S1x64_0_0) shapeCasts_S1x64_S64) (shapeCast S64 (extractStridedSlice S1x64 ![0, 0] (V (Proc.devRef .tc main_arg15)) slices_S4x64_S1x64_0_0) shapeCasts_S1x64_S64)) := by
  simp only [sE0]
  after_results_simp <;> rfl

end Cert.ReferenceIdeal.RefRun

end
-- ==== Proof.RefRunStage1.lean ====
/-
  Layer 1 of the reference program, stage by stage: the operations between two points where one array is
  handed on, as a list; what the list writes; and the handed-on array after the list, from ANY contents `V` of the
  device's buffers, as the stage's function (Proof/RefRunLayers.lean) of the contents `V` has at the stage's inputs —
  each operation's result read at its own buffer is its function of its operands' contents, and at any other buffer
  what was there, so the list's last result is the functions composed in program order.
-/
import proofs.«178590_j59433757442359_2_alg».proof.Proof.RefRunLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 161 … 184 of 583. -/
abbrev sA1 : List (HloOp τ sig (Elt F)) :=
  [ StableHlo.nullary main_c_10 (constantI S_ 32 0#32),
    StableHlo.unary main_c_10 main_v95 (broadcastInDim S1280000 ![] bcast_S_S1280000 : (⟨S_, .i32⟩ : BufTy).Contents (Elt F) → (⟨S1280000, .i32⟩ : BufTy).Contents (Elt F)),
    StableHlo.binary main_v11 main_v95 main_v96 (cmpi .slt : (⟨S1280000, .i32⟩ : BufTy).Contents (Elt F) → (⟨S1280000, .i32⟩ : BufTy).Contents (Elt F) → (⟨S1280000, .i1⟩ : BufTy).Contents (Elt F)),
    StableHlo.nullary main_c_11 (constantI S_ 32 80000#32),
    StableHlo.unary main_c_11 main_v97 (broadcastInDim S1280000 ![] bcast_S_S1280000 : (⟨S_, .i32⟩ : BufTy).Contents (Elt F) → (⟨S1280000, .i32⟩ : BufTy).Contents (Elt F)),
    StableHlo.binary main_v11 main_v97 main_v98 (addi : (⟨S1280000, .i32⟩ : BufTy).Contents (Elt F) → (⟨S1280000, .i32⟩ : BufTy).Contents (Elt F) → (⟨S1280000, .i32⟩ : BufTy).Contents (Elt F)),
    StableHlo.ternary main_v96 main_v98 main_v11 main_v99 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v99 main_v100 (broadcastInDim S1280000x1 ![0] bcast_S1280000_S1280000x1_0 : (⟨S1280000, .i32⟩ : BufTy).Contents (Elt F) → (⟨S1280000x1, .i32⟩ : BufTy).Contents (Elt F)),
    StableHlo.binary main_v94 main_v100 main_v101 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v101 main_v9 main_v102 (addf : (⟨S1280000x64, .f32⟩ : BufTy).Contents (Elt F) → (⟨S1280000x64, .f32⟩ : BufTy).Contents (Elt F) → (⟨S1280000x64, .f32⟩ : BufTy).Contents (Elt F)),
    StableHlo.nullary main_call7_cst (constant S_ .f32 0x00000000#32),
    StableHlo.unary main_call7_cst main_call7_v0 (broadcastInDim S1280000x64 ![] bcast_S_S1280000x64 : (⟨S_, .f32⟩ : BufTy).Contents (Elt F) → (⟨S1280000x64, .f32⟩ : BufTy).Contents (Elt F)),
    StableHlo.binary main_v102 main_call7_v0 main_v103 (maximumf : (⟨S1280000x64, .f32⟩ : BufTy).Contents (Elt F) → (⟨S1280000x64, .f32⟩ : BufTy).Contents (Elt F) → (⟨S1280000x64, .f32⟩ : BufTy).Contents (Elt F)),
    StableHlo.nullary main_cst_12 (constant S_ .f32 0x00000000#32),
    StableHlo.unary main_cst_12 main_v104 (broadcastInDim S80000x64 ![] bcast_S_S80000x64 : (⟨S_, .f32⟩ : BufTy).Contents (Elt F) → (⟨S80000x64, .f32⟩ : BufTy).Contents (Elt F)),
    StableHlo.unary main_v13 main_v105 (broadcastInDim S1280000x1 ![0] bcast_S1280000_S1280000x1_0 : (⟨S1280000, .i32⟩ : BufTy).Contents (Elt F) → (⟨S1280000x1, .i32⟩ : BufTy).Contents (Elt F)),
    StableHlo.ternary main_v104 main_v105 main_v103 main_v106 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v107 ((extractStridedSlice S1 ![1] · slices_S4_S1_1) : (⟨S4, .f32⟩ : BufTy).Contents (Elt F) → (⟨S1, .f32⟩ : BufTy).Contents (Elt F)),
    StableHlo.reshape main_v107 main_v108 rfl shapeCasts_S1_S_,
    StableHlo.nullary main_cst_13 (constant S_ .f32 0x3F800000#32),
    StableHlo.binary main_cst_13 main_v108 main_v109 (addf : (⟨S_, .f32⟩ : BufTy).Contents (Elt F) → (⟨S_, .f32⟩ : BufTy).Contents (Elt F) → (⟨S_, .f32⟩ : BufTy).Contents (Elt F)),
    StableHlo.unary main_v109 main_v110 (broadcastInDim S80000x64 ![] bcast_S_S80000x64 : (⟨S_, .f32⟩ : BufTy).Contents (Elt F) → (⟨S80000x64, .f32⟩ : BufTy).Contents (Elt F)),
    StableHlo.binary main_v110 main_v94 main_v111 (mulf : (⟨S80000x64, .f32⟩ : BufTy).Contents (Elt F) → (⟨S80000x64, .f32⟩ : BufTy).Contents (Elt F) → (⟨S80000x64, .f32⟩ : BufTy).Contents (Elt F)),
    StableHlo.binary main_v111 main_v106 main_v112 (addf : (⟨S80000x64, .f32⟩ : BufTy).Contents (Elt F) → (⟨S80000x64, .f32⟩ : BufTy).Contents (Elt F) → (⟨S80000x64, .f32⟩ : BufTy).Contents (Elt F)) ]

abbrev sA1_W : List (Ref sig .tc) :=
  [main_c_10, main_v95, main_v96, main_c_11, main_v97, main_v98, main_v99, main_v100, main_v101, main_v102, main_call7_cst, main_call7_v0, main_v103, main_cst_12, main_v104, main_v105, main_v106, main_v107, main_v108, main_cst_13, main_v109, main_v110, main_v111, main_v112]

set_option maxRecDepth 8192 in
theorem sA1_writes : (sA1 : List (HloOp τ sig (Elt F))).Forall fun op =>
    op.writes ⊆ (sA1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sA1_main_v112 (V : Valuation τ sig (Elt F)) :
    after sA1 V (Proc.devRef .tc main_v112) = aggregate (V (Proc.devRef .tc main_v94)) (V (Proc.devRef .tc main_v9)) (V (Proc.devRef .tc main_v11)) (V (Proc.devRef .tc main_v13)) (shapeCast S_ (extractStridedSlice S1 ![1] (V (Proc.devRef .tc main_arg13)) slices_S4_S1_1) shapeCasts_S1_S_) := by
  simp only [sA1]
  after_results_simp <;> rfl

/-- Operations 185 … 192 of 583. -/
abbrev sB1 : List (HloOp τ sig (Elt F)) :=
  [ StableHlo.unary main_arg7 main_v113 ((extractStridedSlice S1x64x128 ![1, 0, 0] · slices_S4x64x128_S1x64x128_1_0_0) : (⟨S4x64x128, .f32⟩ : BufTy).Contents (Elt F) → (⟨S1x64x128, .f32⟩ : BufTy).Contents (Elt F)),
    StableHlo.reshape main_v113 main_v114 rfl shapeCasts_S1x64x128_S64x128,
    StableHlo.binary main_v112 main_v114 main_v115 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v116 ((extractStridedSlice S1x128 ![1, 0] · slices_S4x128_S1x128_1_0) : (⟨S4x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S80000x128 ![0, 1] bcast_S1x128_S80000x128_0_1 : (⟨S1x128, .f32⟩ : BufTy).Contents (Elt F) → (⟨S80000x128, .f32⟩ : BufTy).Contents (Elt F)),
    StableHlo.binary main_v115 main_v119 main_v120 (addf : (⟨S80000x128, .f32⟩ : BufTy).Contents (Elt F) → (⟨S80000x128, .f32⟩ : BufTy).Contents (Elt F) → (⟨S80000x128, .f32⟩ : BufTy).Contents (Elt F)) ]

abbrev sB1_W : List (Ref sig .tc) :=
  [main_v113, main_v114, main_v115, main_v116, main_v117, main_v118, main_v119, main_v120]

set_option maxRecDepth 8192 in
theorem sB1_writes : (sB1 : List (HloOp τ sig (Elt F))).Forall fun op =>
    op.writes ⊆ (sB1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sB1_main_v120 (V : Valuation τ sig (Elt F)) :
    after sB1 V (Proc.devRef .tc main_v120) = linear1 (V (Proc.devRef .tc main_v112)) (shapeCast S64x128 (extractStridedSlice S1x64x128 ![1, 0, 0] (V (Proc.devRef .tc main_arg7)) slices_S4x64x128_S1x64x128_1_0_0) shapeCasts_S1x64x128_S64x128) (shapeCast S128 (extractStridedSlice S1x128 ![1, 0] (V (Proc.devRef .tc main_arg8)) slices_S4x128_S1x128_1_0) shapeCasts_S1x128_S128) := by
  simp only [sB1]
  after_results_simp <;> rfl

/-- Operations 193 … 243 of 583. -/
abbrev sC1 : List (HloOp τ sig (Elt F)) :=
  [ StableHlo.nullary main_cst_14 (constant S_ .f32 0x00000000#32),
    StableHlo.binary main_v120 main_cst_14 main_v121 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_15 (constant S_ .f32 0x479C4000#32),
    StableHlo.unary main_cst_15 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.nullary main_call8_cst (constant S_ .f32 0x00000000#32),
    StableHlo.binary main_v120 main_call8_cst main_call8_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call8_v0 main_call8_v1 (broadcastInDim S1x128 ![1] bcast_S128_S1x128_1 : (⟨S128, .f32⟩ : BufTy).Contents (Elt F) → (⟨S1x128, .f32⟩ : BufTy).Contents (Elt F)),
    StableHlo.nullary main_call8_cst_0 (constant S_ .f32 0x479C4000#32),
    StableHlo.unary main_call8_cst_0 main_call8_v2 (broadcastInDim S1x128 ![] bcast_S_S1x128 : (⟨S_, .f32⟩ : BufTy).Contents (Elt F) → (⟨S1x128, .f32⟩ : BufTy).Contents (Elt F)),
    StableHlo.binary main_call8_v1 main_call8_v2 main_call8_v3 (Host.divf : (⟨S1x128, .f32⟩ : BufTy).Contents (Elt F) → (⟨S1x128, .f32⟩ : BufTy).Contents (Elt F) → (⟨S1x128, .f32⟩ : BufTy).Contents (Elt F)),
    StableHlo.unary main_call8_v3 main_call8_v4 (broadcastInDim S80000x128 ![0, 1] bcast_S1x128_S80000x128_0_1 : (⟨S1x128, .f32⟩ : BufTy).Contents (Elt F) → (⟨S80000x128, .f32⟩ : BufTy).Contents (Elt F)),
    StableHlo.binary main_v120 main_call8_v4 main_call8_v5 (subf : (⟨S80000x128, .f32⟩ : BufTy).Contents (Elt F) → (⟨S80000x128, .f32⟩ : BufTy).Contents (Elt F) → (⟨S80000x128, .f32⟩ : BufTy).Contents (Elt F)),
    StableHlo.binary main_call8_v5 main_call8_v5 main_call8_v6 (mulf : (⟨S80000x128, .f32⟩ : BufTy).Contents (Elt F) → (⟨S80000x128, .f32⟩ : BufTy).Contents (Elt F) → (⟨S80000x128, .f32⟩ : BufTy).Contents (Elt F)),
    StableHlo.unary main_c_16 main_call8_v7 (sitofp .f32 : (⟨S_, .i32⟩ : BufTy).Contents (Elt F) → (⟨S_, .f32⟩ : BufTy).Contents (Elt F)),
    StableHlo.nullary main_call8_cst_1 (constant S_ .f32 0x479C4000#32),
    StableHlo.binary main_call8_cst_1 main_call8_v7 main_call8_v8 (subf : (⟨S_, .f32⟩ : BufTy).Contents (Elt F) → (⟨S_, .f32⟩ : BufTy).Contents (Elt F) → (⟨S_, .f32⟩ : BufTy).Contents (Elt F)),
    StableHlo.nullary main_call8_cst_2 (constant S_ .f32 0x00000000#32),
    StableHlo.binary main_call8_v6 main_call8_cst_2 main_call8_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call8_v8 main_call8_v10 (broadcastInDim S128 ![] bcast_S_S128 : (⟨S_, .f32⟩ : BufTy).Contents (Elt F) → (⟨S128, .f32⟩ : BufTy).Contents (Elt F)),
    StableHlo.binary main_call8_v9 main_call8_v10 main_call8_v11 (Host.divf : (⟨S128, .f32⟩ : BufTy).Contents (Elt F) → (⟨S128, .f32⟩ : BufTy).Contents (Elt F) → (⟨S128, .f32⟩ : BufTy).Contents (Elt F)),
    StableHlo.nullary main_call8_cst_3 (constant S_ .f32 0x00000000#32),
    StableHlo.binary main_call8_v8 main_call8_cst_3 main_call8_v12 (cmpf .ogt : (⟨S_, .f32⟩ : BufTy).Contents (Elt F) → (⟨S_, .f32⟩ : BufTy).Contents (Elt F) → (⟨S_, .i1⟩ : BufTy).Contents (Elt F)),
    StableHlo.nullary main_call8_cst_4 (constant S_ .f32 0x7FC00000#32),
    StableHlo.unary main_call8_cst_4 main_call8_call0_v0 (id : (⟨S_, .f32⟩ : BufTy).Contents (Elt F) → (⟨S_, .f32⟩ : BufTy).Contents (Elt F)),
    StableHlo.unary main_call8_call0_v0 main_call8_call0_v1 (broadcastInDim S128 ![] bcast_S_S128 : (⟨S_, .f32⟩ : BufTy).Contents (Elt F) → (⟨S128, .f32⟩ : BufTy).Contents (Elt F)),
    StableHlo.ternary main_call8_v12 main_call8_v11 main_call8_call0_v1 main_v124 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v123 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S80000x128 ![0, 1] bcast_S1x128_S80000x128_0_1 : (⟨S1x128, .f32⟩ : BufTy).Contents (Elt F) → (⟨S80000x128, .f32⟩ : BufTy).Contents (Elt F)),
    StableHlo.binary main_v120 main_v126 main_v127 (subf : (⟨S80000x128, .f32⟩ : BufTy).Contents (Elt F) → (⟨S80000x128, .f32⟩ : BufTy).Contents (Elt F) → (⟨S80000x128, .f32⟩ : BufTy).Contents (Elt F)),
    StableHlo.nullary main_cst_17 (constant S_ .f32 0x3727C5AC#32),
    StableHlo.unary main_cst_17 main_v128 (broadcastInDim S128 ![] bcast_S_S128 : (⟨S_, .f32⟩ : BufTy).Contents (Elt F) → (⟨S128, .f32⟩ : BufTy).Contents (Elt F)),
    StableHlo.binary main_v124 main_v128 main_v129 (addf : (⟨S128, .f32⟩ : BufTy).Contents (Elt F) → (⟨S128, .f32⟩ : BufTy).Contents (Elt F) → (⟨S128, .f32⟩ : BufTy).Contents (Elt F)),
    StableHlo.unary main_v129 main_v130 (Host.rsqrt : (⟨S128, .f32⟩ : BufTy).Contents (Elt F) → (⟨S128, .f32⟩ : BufTy).Contents (Elt F)),
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S80000x128 ![0, 1] bcast_S1x128_S80000x128_0_1 : (⟨S1x128, .f32⟩ : BufTy).Contents (Elt F) → (⟨S80000x128, .f32⟩ : BufTy).Contents (Elt F)),
    StableHlo.binary main_v127 main_v132 main_v133 (mulf : (⟨S80000x128, .f32⟩ : BufTy).Contents (Elt F) → (⟨S80000x128, .f32⟩ : BufTy).Contents (Elt F) → (⟨S80000x128, .f32⟩ : BufTy).Contents (Elt F)),
    StableHlo.unary main_arg9 main_v134 ((extractStridedSlice S1x128 ![1, 0] · slices_S4x128_S1x128_1_0) : (⟨S4x128, .f32⟩ : BufTy).Contents (Elt F) → (⟨S1x128, .f32⟩ : BufTy).Contents (Elt F)),
    StableHlo.reshape main_v134 main_v135 rfl shapeCasts_S1x128_S128,
    StableHlo.unary main_v135 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S80000x128 ![0, 1] bcast_S1x128_S80000x128_0_1 : (⟨S1x128, .f32⟩ : BufTy).Contents (Elt F) → (⟨S80000x128, .f32⟩ : BufTy).Contents (Elt F)),
    StableHlo.binary main_v133 main_v137 main_v138 (mulf : (⟨S80000x128, .f32⟩ : BufTy).Contents (Elt F) → (⟨S80000x128, .f32⟩ : BufTy).Contents (Elt F) → (⟨S80000x128, .f32⟩ : BufTy).Contents (Elt F)),
    StableHlo.unary main_arg10 main_v139 ((extractStridedSlice S1x128 ![1, 0] · slices_S4x128_S1x128_1_0) : (⟨S4x128, .f32⟩ : BufTy).Contents (Elt F) → (⟨S1x128, .f32⟩ : BufTy).Contents (Elt F)),
    StableHlo.reshape main_v139 main_v140 rfl shapeCasts_S1x128_S128,
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S80000x128 ![0, 1] bcast_S1x128_S80000x128_0_1 : (⟨S1x128, .f32⟩ : BufTy).Contents (Elt F) → (⟨S80000x128, .f32⟩ : BufTy).Contents (Elt F)),
    StableHlo.binary main_v138 main_v142 main_v143 (addf : (⟨S80000x128, .f32⟩ : BufTy).Contents (Elt F) → (⟨S80000x128, .f32⟩ : BufTy).Contents (Elt F) → (⟨S80000x128, .f32⟩ : BufTy).Contents (Elt F)),
    StableHlo.nullary main_call9_cst (constant S_ .f32 0x00000000#32),
    StableHlo.unary main_call9_cst main_call9_v0 (broadcastInDim S80000x128 ![] bcast_S_S80000x128 : (⟨S_, .f32⟩ : BufTy).Contents (Elt F) → (⟨S80000x128, .f32⟩ : BufTy).Contents (Elt F)),
    StableHlo.binary main_v143 main_call9_v0 main_v144 (maximumf : (⟨S80000x128, .f32⟩ : BufTy).Contents (Elt F) → (⟨S80000x128, .f32⟩ : BufTy).Contents (Elt F) → (⟨S80000x128, .f32⟩ : BufTy).Contents (Elt F)) ]

abbrev sC1_W : List (Ref sig .tc) :=
  [main_cst_14, main_v121, main_cst_15, main_v122, main_v123, main_c_16, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v124, main_v125, main_v126, main_v127, main_cst_17, main_v128, main_v129, main_v130, main_v131, main_v132, main_v133, main_v134, main_v135, main_v136, main_v137, main_v138, main_v139, main_v140, main_v141, main_v142, main_v143, main_call9_cst, main_call9_v0, main_v144]

set_option maxRecDepth 8192 in
theorem sC1_writes : (sC1 : List (HloOp τ sig (Elt F))).Forall fun op =>
    op.writes ⊆ (sC1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sC1_main_v144 (V : Valuation τ sig (Elt F)) :
    after sC1 V (Proc.devRef .tc main_v144) = relu128 (batchNorm (V (Proc.devRef .tc main_v120)) (shapeCast S128 (extractStridedSlice S1x128 ![1, 0] (V (Proc.devRef .tc main_arg9)) slices_S4x128_S1x128_1_0) shapeCasts_S1x128_S128) (shapeCast S128 (extractStridedSlice S1x128 ![1, 0] (V (Proc.devRef .tc main_arg10)) slices_S4x128_S1x128_1_0) shapeCasts_S1x128_S128)) := by
  simp only [sC1]
  after_results_simp <;> rfl

/-- Operations 244 … 251 of 583. -/
abbrev sD1 : List (HloOp τ sig (Elt F)) :=
  [ StableHlo.unary main_arg11 main_v145 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v145 main_v146 rfl shapeCasts_S1x128x64_S128x64,
    StableHlo.binary main_v144 main_v146 main_v147 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v148 ((extractStridedSlice S1x64 ![1, 0] · slices_S4x64_S1x64_1_0) : (⟨S4x64, .f32⟩ : BufTy).Contents (Elt F) → (⟨S1x64, .f32⟩ : BufTy).Contents (Elt F)),
    StableHlo.reshape main_v148 main_v149 rfl shapeCasts_S1x64_S64,
    StableHlo.unary main_v149 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S80000x64 ![0, 1] bcast_S1x64_S80000x64_0_1 : (⟨S1x64, .f32⟩ : BufTy).Contents (Elt F) → (⟨S80000x64, .f32⟩ : BufTy).Contents (Elt F)),
    StableHlo.binary main_v147 main_v151 main_v152 (addf : (⟨S80000x64, .f32⟩ : BufTy).Contents (Elt F) → (⟨S80000x64, .f32⟩ : BufTy).Contents (Elt F) → (⟨S80000x64, .f32⟩ : BufTy).Contents (Elt F)) ]

abbrev sD1_W : List (Ref sig .tc) :=
  [main_v145, main_v146, main_v147, main_v148, main_v149, main_v150, main_v151, main_v152]

set_option maxRecDepth 8192 in
theorem sD1_writes : (sD1 : List (HloOp τ sig (Elt F))).Forall fun op =>
    op.writes ⊆ (sD1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sD1_main_v152 (V : Valuation τ sig (Elt F)) :
    after sD1 V (Proc.devRef .tc main_v152) = linear2 (V (Proc.devRef .tc main_v144)) (shapeCast S128x64 (extractStridedSlice S1x128x64 ![1, 0, 0] (V (Proc.devRef .tc main_arg11)) slices_S4x128x64_S1x128x64_1_0_0) shapeCasts_S1x128x64_S128x64) (shapeCast S64 (extractStridedSlice S1x64 ![1, 0] (V (Proc.devRef .tc main_arg12)) slices_S4x64_S1x64_1_0) shapeCasts_S1x64_S64) := by
  simp only [sD1]
  after_results_simp <;> rfl

/-- Operations 252 … 302 of 583. -/
abbrev sE1 : List (HloOp τ sig (Elt F)) :=
  [ StableHlo.nullary main_cst_18 (constant S_ .f32 0x00000000#32),
    StableHlo.binary main_v152 main_cst_18 main_v153 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v153 main_v154 (broadcastInDim S80000x1 ![0] bcast_S80000_S80000x1_0 : (⟨S80000, .f32⟩ : BufTy).Contents (Elt F) → (⟨S80000x1, .f32⟩ : BufTy).Contents (Elt F)),
    StableHlo.nullary main_cst_19 (constant S_ .f32 0x42800000#32),
    StableHlo.unary main_cst_19 main_v155 (broadcastInDim S80000x1 ![] bcast_S_S80000x1 : (⟨S_, .f32⟩ : BufTy).Contents (Elt F) → (⟨S80000x1, .f32⟩ : BufTy).Contents (Elt F)),
    StableHlo.binary main_v154 main_v155 main_v156 (Host.divf : (⟨S80000x1, .f32⟩ : BufTy).Contents (Elt F) → (⟨S80000x1, .f32⟩ : BufTy).Contents (Elt F) → (⟨S80000x1, .f32⟩ : BufTy).Contents (Elt F)),
    StableHlo.nullary main_c_20 (constantI S_ 32 0#32),
    StableHlo.nullary main_call10_cst (constant S_ .f32 0x00000000#32),
    StableHlo.binary main_v152 main_call10_cst main_call10_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call10_v0 main_call10_v1 (broadcastInDim S80000x1 ![0] bcast_S80000_S80000x1_0 : (⟨S80000, .f32⟩ : BufTy).Contents (Elt F) → (⟨S80000x1, .f32⟩ : BufTy).Contents (Elt F)),
    StableHlo.nullary main_call10_cst_0 (constant S_ .f32 0x42800000#32),
    StableHlo.unary main_call10_cst_0 main_call10_v2 (broadcastInDim S80000x1 ![] bcast_S_S80000x1 : (⟨S_, .f32⟩ : BufTy).Contents (Elt F) → (⟨S80000x1, .f32⟩ : BufTy).Contents (Elt F)),
    StableHlo.binary main_call10_v1 main_call10_v2 main_call10_v3 (Host.divf : (⟨S80000x1, .f32⟩ : BufTy).Contents (Elt F) → (⟨S80000x1, .f32⟩ : BufTy).Contents (Elt F) → (⟨S80000x1, .f32⟩ : BufTy).Contents (Elt F)),
    StableHlo.unary main_call10_v3 main_call10_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v152 main_call10_v4 main_call10_v5 (subf : (⟨S80000x64, .f32⟩ : BufTy).Contents (Elt F) → (⟨S80000x64, .f32⟩ : BufTy).Contents (Elt F) → (⟨S80000x64, .f32⟩ : BufTy).Contents (Elt F)),
    StableHlo.binary main_call10_v5 main_call10_v5 main_call10_v6 (mulf : (⟨S80000x64, .f32⟩ : BufTy).Contents (Elt F) → (⟨S80000x64, .f32⟩ : BufTy).Contents (Elt F) → (⟨S80000x64, .f32⟩ : BufTy).Contents (Elt F)),
    StableHlo.unary main_c_20 main_call10_v7 (sitofp .f32 : (⟨S_, .i32⟩ : BufTy).Contents (Elt F) → (⟨S_, .f32⟩ : BufTy).Contents (Elt F)),
    StableHlo.nullary main_call10_cst_1 (constant S_ .f32 0x42800000#32),
    StableHlo.binary main_call10_cst_1 main_call10_v7 main_call10_v8 (subf : (⟨S_, .f32⟩ : BufTy).Contents (Elt F) → (⟨S_, .f32⟩ : BufTy).Contents (Elt F) → (⟨S_, .f32⟩ : BufTy).Contents (Elt F)),
    StableHlo.nullary main_call10_cst_2 (constant S_ .f32 0x00000000#32),
    StableHlo.binary main_call10_v6 main_call10_cst_2 main_call10_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call10_v9 main_call10_v10 (broadcastInDim S80000x1 ![0] bcast_S80000_S80000x1_0 : (⟨S80000, .f32⟩ : BufTy).Contents (Elt F) → (⟨S80000x1, .f32⟩ : BufTy).Contents (Elt F)),
    StableHlo.unary main_call10_v8 main_call10_v11 (broadcastInDim S80000x1 ![] bcast_S_S80000x1 : (⟨S_, .f32⟩ : BufTy).Contents (Elt F) → (⟨S80000x1, .f32⟩ : BufTy).Contents (Elt F)),
    StableHlo.binary main_call10_v10 main_call10_v11 main_call10_v12 (Host.divf : (⟨S80000x1, .f32⟩ : BufTy).Contents (Elt F) → (⟨S80000x1, .f32⟩ : BufTy).Contents (Elt F) → (⟨S80000x1, .f32⟩ : BufTy).Contents (Elt F)),
    StableHlo.nullary main_call10_cst_3 (constant S_ .f32 0x00000000#32),
    StableHlo.binary main_call10_v8 main_call10_cst_3 main_call10_v13 (cmpf .ogt : (⟨S_, .f32⟩ : BufTy).Contents (Elt F) → (⟨S_, .f32⟩ : BufTy).Contents (Elt F) → (⟨S_, .i1⟩ : BufTy).Contents (Elt F)),
    StableHlo.nullary main_call10_cst_4 (constant S_ .f32 0x7FC00000#32),
    StableHlo.unary main_call10_cst_4 main_call10_call0_v0 (id : (⟨S_, .f32⟩ : BufTy).Contents (Elt F) → (⟨S_, .f32⟩ : BufTy).Contents (Elt F)),
    StableHlo.unary main_call10_call0_v0 main_call10_call0_v1 (broadcastInDim S80000x1 ![] bcast_S_S80000x1 : (⟨S_, .f32⟩ : BufTy).Contents (Elt F) → (⟨S80000x1, .f32⟩ : BufTy).Contents (Elt F)),
    StableHlo.ternary main_call10_v13 main_call10_v12 main_call10_call0_v1 main_v157 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v156 main_v158 (broadcastInDim S80000x64 ![0, 1] bcast_S80000x1_S80000x64_0_1 : (⟨S80000x1, .f32⟩ : BufTy).Contents (Elt F) → (⟨S80000x64, .f32⟩ : BufTy).Contents (Elt F)),
    StableHlo.binary main_v152 main_v158 main_v159 (subf : (⟨S80000x64, .f32⟩ : BufTy).Contents (Elt F) → (⟨S80000x64, .f32⟩ : BufTy).Contents (Elt F) → (⟨S80000x64, .f32⟩ : BufTy).Contents (Elt F)),
    StableHlo.nullary main_cst_21 (constant S_ .f32 0x3727C5AC#32),
    StableHlo.unary main_cst_21 main_v160 (broadcastInDim S80000x1 ![] bcast_S_S80000x1 : (⟨S_, .f32⟩ : BufTy).Contents (Elt F) → (⟨S80000x1, .f32⟩ : BufTy).Contents (Elt F)),
    StableHlo.binary main_v157 main_v160 main_v161 (addf : (⟨S80000x1, .f32⟩ : BufTy).Contents (Elt F) → (⟨S80000x1, .f32⟩ : BufTy).Contents (Elt F) → (⟨S80000x1, .f32⟩ : BufTy).Contents (Elt F)),
    StableHlo.unary main_v161 main_v162 (Host.rsqrt : (⟨S80000x1, .f32⟩ : BufTy).Contents (Elt F) → (⟨S80000x1, .f32⟩ : BufTy).Contents (Elt F)),
    StableHlo.unary main_v162 main_v163 (broadcastInDim S80000x64 ![0, 1] bcast_S80000x1_S80000x64_0_1 : (⟨S80000x1, .f32⟩ : BufTy).Contents (Elt F) → (⟨S80000x64, .f32⟩ : BufTy).Contents (Elt F)),
    StableHlo.binary main_v159 main_v163 main_v164 (mulf : (⟨S80000x64, .f32⟩ : BufTy).Contents (Elt F) → (⟨S80000x64, .f32⟩ : BufTy).Contents (Elt F) → (⟨S80000x64, .f32⟩ : BufTy).Contents (Elt F)),
    StableHlo.unary main_arg14 main_v165 ((extractStridedSlice S1x64 ![1, 0] · slices_S4x64_S1x64_1_0) : (⟨S4x64, .f32⟩ : BufTy).Contents (Elt F) → (⟨S1x64, .f32⟩ : BufTy).Contents (Elt F)),
    StableHlo.reshape main_v165 main_v166 rfl shapeCasts_S1x64_S64,
    StableHlo.unary main_v166 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S80000x64 ![0, 1] bcast_S1x64_S80000x64_0_1 : (⟨S1x64, .f32⟩ : BufTy).Contents (Elt F) → (⟨S80000x64, .f32⟩ : BufTy).Contents (Elt F)),
    StableHlo.binary main_v164 main_v168 main_v169 (mulf : (⟨S80000x64, .f32⟩ : BufTy).Contents (Elt F) → (⟨S80000x64, .f32⟩ : BufTy).Contents (Elt F) → (⟨S80000x64, .f32⟩ : BufTy).Contents (Elt F)),
    StableHlo.unary main_arg15 main_v170 ((extractStridedSlice S1x64 ![1, 0] · slices_S4x64_S1x64_1_0) : (⟨S4x64, .f32⟩ : BufTy).Contents (Elt F) → (⟨S1x64, .f32⟩ : BufTy).Contents (Elt F)),
    StableHlo.reshape main_v170 main_v171 rfl shapeCasts_S1x64_S64,
    StableHlo.unary main_v171 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S80000x64 ![0, 1] bcast_S1x64_S80000x64_0_1 : (⟨S1x64, .f32⟩ : BufTy).Contents (Elt F) → (⟨S80000x64, .f32⟩ : BufTy).Contents (Elt F)),
    StableHlo.binary main_v169 main_v173 main_v174 (addf : (⟨S80000x64, .f32⟩ : BufTy).Contents (Elt F) → (⟨S80000x64, .f32⟩ : BufTy).Contents (Elt F) → (⟨S80000x64, .f32⟩ : BufTy).Contents (Elt F)),
    StableHlo.nullary main_call11_cst (constant S_ .f32 0x00000000#32),
    StableHlo.unary main_call11_cst main_call11_v0 (broadcastInDim S80000x64 ![] bcast_S_S80000x64 : (⟨S_, .f32⟩ : BufTy).Contents (Elt F) → (⟨S80000x64, .f32⟩ : BufTy).Contents (Elt F)),
    StableHlo.binary main_v174 main_call11_v0 main_v175 (maximumf : (⟨S80000x64, .f32⟩ : BufTy).Contents (Elt F) → (⟨S80000x64, .f32⟩ : BufTy).Contents (Elt F) → (⟨S80000x64, .f32⟩ : BufTy).Contents (Elt F)) ]

abbrev sE1_W : List (Ref sig .tc) :=
  [main_cst_18, main_v153, main_v154, main_cst_19, main_v155, main_v156, main_c_20, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v157, main_v158, main_v159, main_cst_21, main_v160, main_v161, main_v162, main_v163, main_v164, main_v165, main_v166, main_v167, main_v168, main_v169, main_v170, main_v171, main_v172, main_v173, main_v174, main_call11_cst, main_call11_v0, main_v175]

set_option maxRecDepth 8192 in
theorem sE1_writes : (sE1 : List (HloOp τ sig (Elt F))).Forall fun op =>
    op.writes ⊆ (sE1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sE1_main_v175 (V : Valuation τ sig (Elt F)) :
    after sE1 V (Proc.devRef .tc main_v175) = relu64 (layerNorm (V (Proc.devRef .tc main_v152)) (shapeCast S64 (extractStridedSlice S1x64 ![1, 0] (V (Proc.devRef .tc main_arg14)) slices_S4x64_S1x64_1_0) shapeCasts_S1x64_S64) (shapeCast S64 (extractStridedSlice S1x64 ![1, 0] (V (Proc.devRef .tc main_arg15)) slices_S4x64_S1x64_1_0) shapeCasts_S1x64_S64)) := by
  simp only [sE1]
  after_results_simp <;> rfl

end Cert.ReferenceIdeal.RefRun

end
-- ==== Proof.RefRunStage2.lean ====
/-
  Layer 2 of the reference program, stage by stage: the operations between two points where one array is
  handed on, as a list; what the list writes; and the handed-on array after the list, from ANY contents `V` of the
  device's buffers, as the stage's function (Proof/RefRunLayers.lean) of the contents `V` has at the stage's inputs —
  each operation's result read at its own buffer is its function of its operands' contents, and at any other buffer
  what was there, so the list's last result is the functions composed in program order.
-/
import proofs.«178590_j59433757442359_2_alg».proof.Proof.RefRunLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 303 … 326 of 583. -/
abbrev sA2 : List (HloOp τ sig (Elt F)) :=
  [ StableHlo.nullary main_c_22 (constantI S_ 32 0#32),
    StableHlo.unary main_c_22 main_v176 (broadcastInDim S1280000 ![] bcast_S_S1280000 : (⟨S_, .i32⟩ : BufTy).Contents (Elt F) → (⟨S1280000, .i32⟩ : BufTy).Contents (Elt F)),
    StableHlo.binary main_v11 main_v176 main_v177 (cmpi .slt : (⟨S1280000, .i32⟩ : BufTy).Contents (Elt F) → (⟨S1280000, .i32⟩ : BufTy).Contents (Elt F) → (⟨S1280000, .i1⟩ : BufTy).Contents (Elt F)),
    StableHlo.nullary main_c_23 (constantI S_ 32 80000#32),
    StableHlo.unary main_c_23 main_v178 (broadcastInDim S1280000 ![] bcast_S_S1280000 : (⟨S_, .i32⟩ : BufTy).Contents (Elt F) → (⟨S1280000, .i32⟩ : BufTy).Contents (Elt F)),
    StableHlo.binary main_v11 main_v178 main_v179 (addi : (⟨S1280000, .i32⟩ : BufTy).Contents (Elt F) → (⟨S1280000, .i32⟩ : BufTy).Contents (Elt F) → (⟨S1280000, .i32⟩ : BufTy).Contents (Elt F)),
    StableHlo.ternary main_v177 main_v179 main_v11 main_v180 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v180 main_v181 (broadcastInDim S1280000x1 ![0] bcast_S1280000_S1280000x1_0 : (⟨S1280000, .i32⟩ : BufTy).Contents (Elt F) → (⟨S1280000x1, .i32⟩ : BufTy).Contents (Elt F)),
    StableHlo.binary main_v175 main_v181 main_v182 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v182 main_v9 main_v183 (addf : (⟨S1280000x64, .f32⟩ : BufTy).Contents (Elt F) → (⟨S1280000x64, .f32⟩ : BufTy).Contents (Elt F) → (⟨S1280000x64, .f32⟩ : BufTy).Contents (Elt F)),
    StableHlo.nullary main_call12_cst (constant S_ .f32 0x00000000#32),
    StableHlo.unary main_call12_cst main_call12_v0 (broadcastInDim S1280000x64 ![] bcast_S_S1280000x64 : (⟨S_, .f32⟩ : BufTy).Contents (Elt F) → (⟨S1280000x64, .f32⟩ : BufTy).Contents (Elt F)),
    StableHlo.binary main_v183 main_call12_v0 main_v184 (maximumf : (⟨S1280000x64, .f32⟩ : BufTy).Contents (Elt F) → (⟨S1280000x64, .f32⟩ : BufTy).Contents (Elt F) → (⟨S1280000x64, .f32⟩ : BufTy).Contents (Elt F)),
    StableHlo.nullary main_cst_24 (constant S_ .f32 0x00000000#32),
    StableHlo.unary main_cst_24 main_v185 (broadcastInDim S80000x64 ![] bcast_S_S80000x64 : (⟨S_, .f32⟩ : BufTy).Contents (Elt F) → (⟨S80000x64, .f32⟩ : BufTy).Contents (Elt F)),
    StableHlo.unary main_v13 main_v186 (broadcastInDim S1280000x1 ![0] bcast_S1280000_S1280000x1_0 : (⟨S1280000, .i32⟩ : BufTy).Contents (Elt F) → (⟨S1280000x1, .i32⟩ : BufTy).Contents (Elt F)),
    StableHlo.ternary main_v185 main_v186 main_v184 main_v187 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v188 ((extractStridedSlice S1 ![2] · slices_S4_S1_2) : (⟨S4, .f32⟩ : BufTy).Contents (Elt F) → (⟨S1, .f32⟩ : BufTy).Contents (Elt F)),
    StableHlo.reshape main_v188 main_v189 rfl shapeCasts_S1_S_,
    StableHlo.nullary main_cst_25 (constant S_ .f32 0x3F800000#32),
    StableHlo.binary main_cst_25 main_v189 main_v190 (addf : (⟨S_, .f32⟩ : BufTy).Contents (Elt F) → (⟨S_, .f32⟩ : BufTy).Contents (Elt F) → (⟨S_, .f32⟩ : BufTy).Contents (Elt F)),
    StableHlo.unary main_v190 main_v191 (broadcastInDim S80000x64 ![] bcast_S_S80000x64 : (⟨S_, .f32⟩ : BufTy).Contents (Elt F) → (⟨S80000x64, .f32⟩ : BufTy).Contents (Elt F)),
    StableHlo.binary main_v191 main_v175 main_v192 (mulf : (⟨S80000x64, .f32⟩ : BufTy).Contents (Elt F) → (⟨S80000x64, .f32⟩ : BufTy).Contents (Elt F) → (⟨S80000x64, .f32⟩ : BufTy).Contents (Elt F)),
    StableHlo.binary main_v192 main_v187 main_v193 (addf : (⟨S80000x64, .f32⟩ : BufTy).Contents (Elt F) → (⟨S80000x64, .f32⟩ : BufTy).Contents (Elt F) → (⟨S80000x64, .f32⟩ : BufTy).Contents (Elt F)) ]

abbrev sA2_W : List (Ref sig .tc) :=
  [main_c_22, main_v176, main_v177, main_c_23, main_v178, main_v179, main_v180, main_v181, main_v182, main_v183, main_call12_cst, main_call12_v0, main_v184, main_cst_24, main_v185, main_v186, main_v187, main_v188, main_v189, main_cst_25, main_v190, main_v191, main_v192, main_v193]

set_option maxRecDepth 8192 in
theorem sA2_writes : (sA2 : List (HloOp τ sig (Elt F))).Forall fun op =>
    op.writes ⊆ (sA2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sA2_main_v193 (V : Valuation τ sig (Elt F)) :
    after sA2 V (Proc.devRef .tc main_v193) = aggregate (V (Proc.devRef .tc main_v175)) (V (Proc.devRef .tc main_v9)) (V (Proc.devRef .tc main_v11)) (V (Proc.devRef .tc main_v13)) (shapeCast S_ (extractStridedSlice S1 ![2] (V (Proc.devRef .tc main_arg13)) slices_S4_S1_2) shapeCasts_S1_S_) := by
  simp only [sA2]
  after_results_simp <;> rfl

/-- Operations 327 … 334 of 583. -/
abbrev sB2 : List (HloOp τ sig (Elt F)) :=
  [ StableHlo.unary main_arg7 main_v194 ((extractStridedSlice S1x64x128 ![2, 0, 0] · slices_S4x64x128_S1x64x128_2_0_0) : (⟨S4x64x128, .f32⟩ : BufTy).Contents (Elt F) → (⟨S1x64x128, .f32⟩ : BufTy).Contents (Elt F)),
    StableHlo.reshape main_v194 main_v195 rfl shapeCasts_S1x64x128_S64x128,
    StableHlo.binary main_v193 main_v195 main_v196 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v197 ((extractStridedSlice S1x128 ![2, 0] · slices_S4x128_S1x128_2_0) : (⟨S4x128, .f32⟩ : BufTy).Contents (Elt F) → (⟨S1x128, .f32⟩ : BufTy).Contents (Elt F)),
    StableHlo.reshape main_v197 main_v198 rfl shapeCasts_S1x128_S128,
    StableHlo.unary main_v198 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S80000x128 ![0, 1] bcast_S1x128_S80000x128_0_1 : (⟨S1x128, .f32⟩ : BufTy).Contents (Elt F) → (⟨S80000x128, .f32⟩ : BufTy).Contents (Elt F)),
    StableHlo.binary main_v196 main_v200 main_v201 (addf : (⟨S80000x128, .f32⟩ : BufTy).Contents (Elt F) → (⟨S80000x128, .f32⟩ : BufTy).Contents (Elt F) → (⟨S80000x128, .f32⟩ : BufTy).Contents (Elt F)) ]

abbrev sB2_W : List (Ref sig .tc) :=
  [main_v194, main_v195, main_v196, main_v197, main_v198, main_v199, main_v200, main_v201]

set_option maxRecDepth 8192 in
theorem sB2_writes : (sB2 : List (HloOp τ sig (Elt F))).Forall fun op =>
    op.writes ⊆ (sB2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sB2_main_v201 (V : Valuation τ sig (Elt F)) :
    after sB2 V (Proc.devRef .tc main_v201) = linear1 (V (Proc.devRef .tc main_v193)) (shapeCast S64x128 (extractStridedSlice S1x64x128 ![2, 0, 0] (V (Proc.devRef .tc main_arg7)) slices_S4x64x128_S1x64x128_2_0_0) shapeCasts_S1x64x128_S64x128) (shapeCast S128 (extractStridedSlice S1x128 ![2, 0] (V (Proc.devRef .tc main_arg8)) slices_S4x128_S1x128_2_0) shapeCasts_S1x128_S128) := by
  simp only [sB2]
  after_results_simp <;> rfl

/-- Operations 335 … 385 of 583. -/
abbrev sC2 : List (HloOp τ sig (Elt F)) :=
  [ StableHlo.nullary main_cst_26 (constant S_ .f32 0x00000000#32),
    StableHlo.binary main_v201 main_cst_26 main_v202 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_27 (constant S_ .f32 0x479C4000#32),
    StableHlo.unary main_cst_27 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.nullary main_call13_cst (constant S_ .f32 0x00000000#32),
    StableHlo.binary main_v201 main_call13_cst main_call13_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call13_v0 main_call13_v1 (broadcastInDim S1x128 ![1] bcast_S128_S1x128_1 : (⟨S128, .f32⟩ : BufTy).Contents (Elt F) → (⟨S1x128, .f32⟩ : BufTy).Contents (Elt F)),
    StableHlo.nullary main_call13_cst_0 (constant S_ .f32 0x479C4000#32),
    StableHlo.unary main_call13_cst_0 main_call13_v2 (broadcastInDim S1x128 ![] bcast_S_S1x128 : (⟨S_, .f32⟩ : BufTy).Contents (Elt F) → (⟨S1x128, .f32⟩ : BufTy).Contents (Elt F)),
    StableHlo.binary main_call13_v1 main_call13_v2 main_call13_v3 (Host.divf : (⟨S1x128, .f32⟩ : BufTy).Contents (Elt F) → (⟨S1x128, .f32⟩ : BufTy).Contents (Elt F) → (⟨S1x128, .f32⟩ : BufTy).Contents (Elt F)),
    StableHlo.unary main_call13_v3 main_call13_v4 (broadcastInDim S80000x128 ![0, 1] bcast_S1x128_S80000x128_0_1 : (⟨S1x128, .f32⟩ : BufTy).Contents (Elt F) → (⟨S80000x128, .f32⟩ : BufTy).Contents (Elt F)),
    StableHlo.binary main_v201 main_call13_v4 main_call13_v5 (subf : (⟨S80000x128, .f32⟩ : BufTy).Contents (Elt F) → (⟨S80000x128, .f32⟩ : BufTy).Contents (Elt F) → (⟨S80000x128, .f32⟩ : BufTy).Contents (Elt F)),
    StableHlo.binary main_call13_v5 main_call13_v5 main_call13_v6 (mulf : (⟨S80000x128, .f32⟩ : BufTy).Contents (Elt F) → (⟨S80000x128, .f32⟩ : BufTy).Contents (Elt F) → (⟨S80000x128, .f32⟩ : BufTy).Contents (Elt F)),
    StableHlo.unary main_c_28 main_call13_v7 (sitofp .f32 : (⟨S_, .i32⟩ : BufTy).Contents (Elt F) → (⟨S_, .f32⟩ : BufTy).Contents (Elt F)),
    StableHlo.nullary main_call13_cst_1 (constant S_ .f32 0x479C4000#32),
    StableHlo.binary main_call13_cst_1 main_call13_v7 main_call13_v8 (subf : (⟨S_, .f32⟩ : BufTy).Contents (Elt F) → (⟨S_, .f32⟩ : BufTy).Contents (Elt F) → (⟨S_, .f32⟩ : BufTy).Contents (Elt F)),
    StableHlo.nullary main_call13_cst_2 (constant S_ .f32 0x00000000#32),
    StableHlo.binary main_call13_v6 main_call13_cst_2 main_call13_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call13_v8 main_call13_v10 (broadcastInDim S128 ![] bcast_S_S128 : (⟨S_, .f32⟩ : BufTy).Contents (Elt F) → (⟨S128, .f32⟩ : BufTy).Contents (Elt F)),
    StableHlo.binary main_call13_v9 main_call13_v10 main_call13_v11 (Host.divf : (⟨S128, .f32⟩ : BufTy).Contents (Elt F) → (⟨S128, .f32⟩ : BufTy).Contents (Elt F) → (⟨S128, .f32⟩ : BufTy).Contents (Elt F)),
    StableHlo.nullary main_call13_cst_3 (constant S_ .f32 0x00000000#32),
    StableHlo.binary main_call13_v8 main_call13_cst_3 main_call13_v12 (cmpf .ogt : (⟨S_, .f32⟩ : BufTy).Contents (Elt F) → (⟨S_, .f32⟩ : BufTy).Contents (Elt F) → (⟨S_, .i1⟩ : BufTy).Contents (Elt F)),
    StableHlo.nullary main_call13_cst_4 (constant S_ .f32 0x7FC00000#32),
    StableHlo.unary main_call13_cst_4 main_call13_call0_v0 (id : (⟨S_, .f32⟩ : BufTy).Contents (Elt F) → (⟨S_, .f32⟩ : BufTy).Contents (Elt F)),
    StableHlo.unary main_call13_call0_v0 main_call13_call0_v1 (broadcastInDim S128 ![] bcast_S_S128 : (⟨S_, .f32⟩ : BufTy).Contents (Elt F) → (⟨S128, .f32⟩ : BufTy).Contents (Elt F)),
    StableHlo.ternary main_call13_v12 main_call13_v11 main_call13_call0_v1 main_v205 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S80000x128 ![0, 1] bcast_S1x128_S80000x128_0_1 : (⟨S1x128, .f32⟩ : BufTy).Contents (Elt F) → (⟨S80000x128, .f32⟩ : BufTy).Contents (Elt F)),
    StableHlo.binary main_v201 main_v207 main_v208 (subf : (⟨S80000x128, .f32⟩ : BufTy).Contents (Elt F) → (⟨S80000x128, .f32⟩ : BufTy).Contents (Elt F) → (⟨S80000x128, .f32⟩ : BufTy).Contents (Elt F)),
    StableHlo.nullary main_cst_29 (constant S_ .f32 0x3727C5AC#32),
    StableHlo.unary main_cst_29 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S80000x128 ![0, 1] bcast_S1x128_S80000x128_0_1 : (⟨S1x128, .f32⟩ : BufTy).Contents (Elt F) → (⟨S80000x128, .f32⟩ : BufTy).Contents (Elt F)),
    StableHlo.binary main_v208 main_v213 main_v214 (mulf : (⟨S80000x128, .f32⟩ : BufTy).Contents (Elt F) → (⟨S80000x128, .f32⟩ : BufTy).Contents (Elt F) → (⟨S80000x128, .f32⟩ : BufTy).Contents (Elt F)),
    StableHlo.unary main_arg9 main_v215 ((extractStridedSlice S1x128 ![2, 0] · slices_S4x128_S1x128_2_0) : (⟨S4x128, .f32⟩ : BufTy).Contents (Elt F) → (⟨S1x128, .f32⟩ : BufTy).Contents (Elt F)),
    StableHlo.reshape main_v215 main_v216 rfl shapeCasts_S1x128_S128,
    StableHlo.unary main_v216 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S80000x128 ![0, 1] bcast_S1x128_S80000x128_0_1 : (⟨S1x128, .f32⟩ : BufTy).Contents (Elt F) → (⟨S80000x128, .f32⟩ : BufTy).Contents (Elt F)),
    StableHlo.binary main_v214 main_v218 main_v219 (mulf : (⟨S80000x128, .f32⟩ : BufTy).Contents (Elt F) → (⟨S80000x128, .f32⟩ : BufTy).Contents (Elt F) → (⟨S80000x128, .f32⟩ : BufTy).Contents (Elt F)),
    StableHlo.unary main_arg10 main_v220 ((extractStridedSlice S1x128 ![2, 0] · slices_S4x128_S1x128_2_0) : (⟨S4x128, .f32⟩ : BufTy).Contents (Elt F) → (⟨S1x128, .f32⟩ : BufTy).Contents (Elt F)),
    StableHlo.reshape main_v220 main_v221 rfl shapeCasts_S1x128_S128,
    StableHlo.unary main_v221 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S80000x128 ![0, 1] bcast_S1x128_S80000x128_0_1 : (⟨S1x128, .f32⟩ : BufTy).Contents (Elt F) → (⟨S80000x128, .f32⟩ : BufTy).Contents (Elt F)),
    StableHlo.binary main_v219 main_v223 main_v224 (addf : (⟨S80000x128, .f32⟩ : BufTy).Contents (Elt F) → (⟨S80000x128, .f32⟩ : BufTy).Contents (Elt F) → (⟨S80000x128, .f32⟩ : BufTy).Contents (Elt F)),
    StableHlo.nullary main_call14_cst (constant S_ .f32 0x00000000#32),
    StableHlo.unary main_call14_cst main_call14_v0 (broadcastInDim S80000x128 ![] bcast_S_S80000x128 : (⟨S_, .f32⟩ : BufTy).Contents (Elt F) → (⟨S80000x128, .f32⟩ : BufTy).Contents (Elt F)),
    StableHlo.binary main_v224 main_call14_v0 main_v225 (maximumf : (⟨S80000x128, .f32⟩ : BufTy).Contents (Elt F) → (⟨S80000x128, .f32⟩ : BufTy).Contents (Elt F) → (⟨S80000x128, .f32⟩ : BufTy).Contents (Elt F)) ]

abbrev sC2_W : List (Ref sig .tc) :=
  [main_cst_26, main_v202, main_cst_27, main_v203, main_v204, main_c_28, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v205, main_v206, main_v207, main_v208, main_cst_29, main_v209, main_v210, main_v211, main_v212, main_v213, main_v214, main_v215, main_v216, main_v217, main_v218, main_v219, main_v220, main_v221, main_v222, main_v223, main_v224, main_call14_cst, main_call14_v0, main_v225]

set_option maxRecDepth 8192 in
theorem sC2_writes : (sC2 : List (HloOp τ sig (Elt F))).Forall fun op =>
    op.writes ⊆ (sC2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sC2_main_v225 (V : Valuation τ sig (Elt F)) :
    after sC2 V (Proc.devRef .tc main_v225) = relu128 (batchNorm (V (Proc.devRef .tc main_v201)) (shapeCast S128 (extractStridedSlice S1x128 ![2, 0] (V (Proc.devRef .tc main_arg9)) slices_S4x128_S1x128_2_0) shapeCasts_S1x128_S128) (shapeCast S128 (extractStridedSlice S1x128 ![2, 0] (V (Proc.devRef .tc main_arg10)) slices_S4x128_S1x128_2_0) shapeCasts_S1x128_S128)) := by
  simp only [sC2]
  after_results_simp <;> rfl

/-- Operations 386 … 393 of 583. -/
abbrev sD2 : List (HloOp τ sig (Elt F)) :=
  [ StableHlo.unary main_arg11 main_v226 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v226 main_v227 rfl shapeCasts_S1x128x64_S128x64,
    StableHlo.binary main_v225 main_v227 main_v228 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v229 ((extractStridedSlice S1x64 ![2, 0] · slices_S4x64_S1x64_2_0) : (⟨S4x64, .f32⟩ : BufTy).Contents (Elt F) → (⟨S1x64, .f32⟩ : BufTy).Contents (Elt F)),
    StableHlo.reshape main_v229 main_v230 rfl shapeCasts_S1x64_S64,
    StableHlo.unary main_v230 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S80000x64 ![0, 1] bcast_S1x64_S80000x64_0_1 : (⟨S1x64, .f32⟩ : BufTy).Contents (Elt F) → (⟨S80000x64, .f32⟩ : BufTy).Contents (Elt F)),
    StableHlo.binary main_v228 main_v232 main_v233 (addf : (⟨S80000x64, .f32⟩ : BufTy).Contents (Elt F) → (⟨S80000x64, .f32⟩ : BufTy).Contents (Elt F) → (⟨S80000x64, .f32⟩ : BufTy).Contents (Elt F)) ]

abbrev sD2_W : List (Ref sig .tc) :=
  [main_v226, main_v227, main_v228, main_v229, main_v230, main_v231, main_v232, main_v233]

set_option maxRecDepth 8192 in
theorem sD2_writes : (sD2 : List (HloOp τ sig (Elt F))).Forall fun op =>
    op.writes ⊆ (sD2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sD2_main_v233 (V : Valuation τ sig (Elt F)) :
    after sD2 V (Proc.devRef .tc main_v233) = linear2 (V (Proc.devRef .tc main_v225)) (shapeCast S128x64 (extractStridedSlice S1x128x64 ![2, 0, 0] (V (Proc.devRef .tc main_arg11)) slices_S4x128x64_S1x128x64_2_0_0) shapeCasts_S1x128x64_S128x64) (shapeCast S64 (extractStridedSlice S1x64 ![2, 0] (V (Proc.devRef .tc main_arg12)) slices_S4x64_S1x64_2_0) shapeCasts_S1x64_S64) := by
  simp only [sD2]
  after_results_simp <;> rfl

/-- Operations 394 … 444 of 583. -/
abbrev sE2 : List (HloOp τ sig (Elt F)) :=
  [ StableHlo.nullary main_cst_30 (constant S_ .f32 0x00000000#32),
    StableHlo.binary main_v233 main_cst_30 main_v234 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v234 main_v235 (broadcastInDim S80000x1 ![0] bcast_S80000_S80000x1_0 : (⟨S80000, .f32⟩ : BufTy).Contents (Elt F) → (⟨S80000x1, .f32⟩ : BufTy).Contents (Elt F)),
    StableHlo.nullary main_cst_31 (constant S_ .f32 0x42800000#32),
    StableHlo.unary main_cst_31 main_v236 (broadcastInDim S80000x1 ![] bcast_S_S80000x1 : (⟨S_, .f32⟩ : BufTy).Contents (Elt F) → (⟨S80000x1, .f32⟩ : BufTy).Contents (Elt F)),
    StableHlo.binary main_v235 main_v236 main_v237 (Host.divf : (⟨S80000x1, .f32⟩ : BufTy).Contents (Elt F) → (⟨S80000x1, .f32⟩ : BufTy).Contents (Elt F) → (⟨S80000x1, .f32⟩ : BufTy).Contents (Elt F)),
    StableHlo.nullary main_c_32 (constantI S_ 32 0#32),
    StableHlo.nullary main_call15_cst (constant S_ .f32 0x00000000#32),
    StableHlo.binary main_v233 main_call15_cst main_call15_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call15_v0 main_call15_v1 (broadcastInDim S80000x1 ![0] bcast_S80000_S80000x1_0 : (⟨S80000, .f32⟩ : BufTy).Contents (Elt F) → (⟨S80000x1, .f32⟩ : BufTy).Contents (Elt F)),
    StableHlo.nullary main_call15_cst_0 (constant S_ .f32 0x42800000#32),
    StableHlo.unary main_call15_cst_0 main_call15_v2 (broadcastInDim S80000x1 ![] bcast_S_S80000x1 : (⟨S_, .f32⟩ : BufTy).Contents (Elt F) → (⟨S80000x1, .f32⟩ : BufTy).Contents (Elt F)),
    StableHlo.binary main_call15_v1 main_call15_v2 main_call15_v3 (Host.divf : (⟨S80000x1, .f32⟩ : BufTy).Contents (Elt F) → (⟨S80000x1, .f32⟩ : BufTy).Contents (Elt F) → (⟨S80000x1, .f32⟩ : BufTy).Contents (Elt F)),
    StableHlo.unary main_call15_v3 main_call15_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v233 main_call15_v4 main_call15_v5 (subf : (⟨S80000x64, .f32⟩ : BufTy).Contents (Elt F) → (⟨S80000x64, .f32⟩ : BufTy).Contents (Elt F) → (⟨S80000x64, .f32⟩ : BufTy).Contents (Elt F)),
    StableHlo.binary main_call15_v5 main_call15_v5 main_call15_v6 (mulf : (⟨S80000x64, .f32⟩ : BufTy).Contents (Elt F) → (⟨S80000x64, .f32⟩ : BufTy).Contents (Elt F) → (⟨S80000x64, .f32⟩ : BufTy).Contents (Elt F)),
    StableHlo.unary main_c_32 main_call15_v7 (sitofp .f32 : (⟨S_, .i32⟩ : BufTy).Contents (Elt F) → (⟨S_, .f32⟩ : BufTy).Contents (Elt F)),
    StableHlo.nullary main_call15_cst_1 (constant S_ .f32 0x42800000#32),
    StableHlo.binary main_call15_cst_1 main_call15_v7 main_call15_v8 (subf : (⟨S_, .f32⟩ : BufTy).Contents (Elt F) → (⟨S_, .f32⟩ : BufTy).Contents (Elt F) → (⟨S_, .f32⟩ : BufTy).Contents (Elt F)),
    StableHlo.nullary main_call15_cst_2 (constant S_ .f32 0x00000000#32),
    StableHlo.binary main_call15_v6 main_call15_cst_2 main_call15_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call15_v9 main_call15_v10 (broadcastInDim S80000x1 ![0] bcast_S80000_S80000x1_0 : (⟨S80000, .f32⟩ : BufTy).Contents (Elt F) → (⟨S80000x1, .f32⟩ : BufTy).Contents (Elt F)),
    StableHlo.unary main_call15_v8 main_call15_v11 (broadcastInDim S80000x1 ![] bcast_S_S80000x1 : (⟨S_, .f32⟩ : BufTy).Contents (Elt F) → (⟨S80000x1, .f32⟩ : BufTy).Contents (Elt F)),
    StableHlo.binary main_call15_v10 main_call15_v11 main_call15_v12 (Host.divf : (⟨S80000x1, .f32⟩ : BufTy).Contents (Elt F) → (⟨S80000x1, .f32⟩ : BufTy).Contents (Elt F) → (⟨S80000x1, .f32⟩ : BufTy).Contents (Elt F)),
    StableHlo.nullary main_call15_cst_3 (constant S_ .f32 0x00000000#32),
    StableHlo.binary main_call15_v8 main_call15_cst_3 main_call15_v13 (cmpf .ogt : (⟨S_, .f32⟩ : BufTy).Contents (Elt F) → (⟨S_, .f32⟩ : BufTy).Contents (Elt F) → (⟨S_, .i1⟩ : BufTy).Contents (Elt F)),
    StableHlo.nullary main_call15_cst_4 (constant S_ .f32 0x7FC00000#32),
    StableHlo.unary main_call15_cst_4 main_call15_call0_v0 (id : (⟨S_, .f32⟩ : BufTy).Contents (Elt F) → (⟨S_, .f32⟩ : BufTy).Contents (Elt F)),
    StableHlo.unary main_call15_call0_v0 main_call15_call0_v1 (broadcastInDim S80000x1 ![] bcast_S_S80000x1 : (⟨S_, .f32⟩ : BufTy).Contents (Elt F) → (⟨S80000x1, .f32⟩ : BufTy).Contents (Elt F)),
    StableHlo.ternary main_call15_v13 main_call15_v12 main_call15_call0_v1 main_v238 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v237 main_v239 (broadcastInDim S80000x64 ![0, 1] bcast_S80000x1_S80000x64_0_1 : (⟨S80000x1, .f32⟩ : BufTy).Contents (Elt F) → (⟨S80000x64, .f32⟩ : BufTy).Contents (Elt F)),
    StableHlo.binary main_v233 main_v239 main_v240 (subf : (⟨S80000x64, .f32⟩ : BufTy).Contents (Elt F) → (⟨S80000x64, .f32⟩ : BufTy).Contents (Elt F) → (⟨S80000x64, .f32⟩ : BufTy).Contents (Elt F)),
    StableHlo.nullary main_cst_33 (constant S_ .f32 0x3727C5AC#32),
    StableHlo.unary main_cst_33 main_v241 (broadcastInDim S80000x1 ![] bcast_S_S80000x1 : (⟨S_, .f32⟩ : BufTy).Contents (Elt F) → (⟨S80000x1, .f32⟩ : BufTy).Contents (Elt F)),
    StableHlo.binary main_v238 main_v241 main_v242 (addf : (⟨S80000x1, .f32⟩ : BufTy).Contents (Elt F) → (⟨S80000x1, .f32⟩ : BufTy).Contents (Elt F) → (⟨S80000x1, .f32⟩ : BufTy).Contents (Elt F)),
    StableHlo.unary main_v242 main_v243 (Host.rsqrt : (⟨S80000x1, .f32⟩ : BufTy).Contents (Elt F) → (⟨S80000x1, .f32⟩ : BufTy).Contents (Elt F)),
    StableHlo.unary main_v243 main_v244 (broadcastInDim S80000x64 ![0, 1] bcast_S80000x1_S80000x64_0_1 : (⟨S80000x1, .f32⟩ : BufTy).Contents (Elt F) → (⟨S80000x64, .f32⟩ : BufTy).Contents (Elt F)),
    StableHlo.binary main_v240 main_v244 main_v245 (mulf : (⟨S80000x64, .f32⟩ : BufTy).Contents (Elt F) → (⟨S80000x64, .f32⟩ : BufTy).Contents (Elt F) → (⟨S80000x64, .f32⟩ : BufTy).Contents (Elt F)),
    StableHlo.unary main_arg14 main_v246 ((extractStridedSlice S1x64 ![2, 0] · slices_S4x64_S1x64_2_0) : (⟨S4x64, .f32⟩ : BufTy).Contents (Elt F) → (⟨S1x64, .f32⟩ : BufTy).Contents (Elt F)),
    StableHlo.reshape main_v246 main_v247 rfl shapeCasts_S1x64_S64,
    StableHlo.unary main_v247 main_v248 (broadcastInDim S1x64 ![1] bcast_S64_S1x64_1 : (⟨S64, .f32⟩ : BufTy).Contents (Elt F) → (⟨S1x64, .f32⟩ : BufTy).Contents (Elt F)),
    StableHlo.unary main_v248 main_v249 (broadcastInDim S80000x64 ![0, 1] bcast_S1x64_S80000x64_0_1 : (⟨S1x64, .f32⟩ : BufTy).Contents (Elt F) → (⟨S80000x64, .f32⟩ : BufTy).Contents (Elt F)),
    StableHlo.binary main_v245 main_v249 main_v250 (mulf : (⟨S80000x64, .f32⟩ : BufTy).Contents (Elt F) → (⟨S80000x64, .f32⟩ : BufTy).Contents (Elt F) → (⟨S80000x64, .f32⟩ : BufTy).Contents (Elt F)),
    StableHlo.unary main_arg15 main_v251 ((extractStridedSlice S1x64 ![2, 0] · slices_S4x64_S1x64_2_0) : (⟨S4x64, .f32⟩ : BufTy).Contents (Elt F) → (⟨S1x64, .f32⟩ : BufTy).Contents (Elt F)),
    StableHlo.reshape main_v251 main_v252 rfl shapeCasts_S1x64_S64,
    StableHlo.unary main_v252 main_v253 (broadcastInDim S1x64 ![1] bcast_S64_S1x64_1 : (⟨S64, .f32⟩ : BufTy).Contents (Elt F) → (⟨S1x64, .f32⟩ : BufTy).Contents (Elt F)),
    StableHlo.unary main_v253 main_v254 (broadcastInDim S80000x64 ![0, 1] bcast_S1x64_S80000x64_0_1 : (⟨S1x64, .f32⟩ : BufTy).Contents (Elt F) → (⟨S80000x64, .f32⟩ : BufTy).Contents (Elt F)),
    StableHlo.binary main_v250 main_v254 main_v255 (addf : (⟨S80000x64, .f32⟩ : BufTy).Contents (Elt F) → (⟨S80000x64, .f32⟩ : BufTy).Contents (Elt F) → (⟨S80000x64, .f32⟩ : BufTy).Contents (Elt F)),
    StableHlo.nullary main_call16_cst (constant S_ .f32 0x00000000#32),
    StableHlo.unary main_call16_cst main_call16_v0 (broadcastInDim S80000x64 ![] bcast_S_S80000x64 : (⟨S_, .f32⟩ : BufTy).Contents (Elt F) → (⟨S80000x64, .f32⟩ : BufTy).Contents (Elt F)),
    StableHlo.binary main_v255 main_call16_v0 main_v256 (maximumf : (⟨S80000x64, .f32⟩ : BufTy).Contents (Elt F) → (⟨S80000x64, .f32⟩ : BufTy).Contents (Elt F) → (⟨S80000x64, .f32⟩ : BufTy).Contents (Elt F)) ]

abbrev sE2_W : List (Ref sig .tc) :=
  [main_cst_30, main_v234, main_v235, main_cst_31, main_v236, main_v237, main_c_32, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_v12, main_call15_cst_3, main_call15_v13, main_call15_cst_4, main_call15_call0_v0, main_call15_call0_v1, main_v238, main_v239, main_v240, main_cst_33, main_v241, main_v242, main_v243, main_v244, main_v245, main_v246, main_v247, main_v248, main_v249, main_v250, main_v251, main_v252, main_v253, main_v254, main_v255, main_call16_cst, main_call16_v0, main_v256]

set_option maxRecDepth 8192 in
theorem sE2_writes : (sE2 : List (HloOp τ sig (Elt F))).Forall fun op =>
    op.writes ⊆ (sE2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sE2_main_v256 (V : Valuation τ sig (Elt F)) :
    after sE2 V (Proc.devRef .tc main_v256) = relu64 (layerNorm (V (Proc.devRef .tc main_v233)) (shapeCast S64 (extractStridedSlice S1x64 ![2, 0] (V (Proc.devRef .tc main_arg14)) slices_S4x64_S1x64_2_0) shapeCasts_S1x64_S64) (shapeCast S64 (extractStridedSlice S1x64 ![2, 0] (V (Proc.devRef .tc main_arg15)) slices_S4x64_S1x64_2_0) shapeCasts_S1x64_S64)) := by
  simp only [sE2]
  after_results_simp <;> rfl

end Cert.ReferenceIdeal.RefRun

end
-- ==== Proof.RefRunStage3.lean ====
/-
  Layer 3 of the reference program, stage by stage: the operations between two points where one array is
  handed on, as a list; what the list writes; and the handed-on array after the list, from ANY contents `V` of the
  device's buffers, as the stage's function (Proof/RefRunLayers.lean) of the contents `V` has at the stage's inputs —
  each operation's result read at its own buffer is its function of its operands' contents, and at any other buffer
  what was there, so the list's last result is the functions composed in program order.
-/
import proofs.«178590_j59433757442359_2_alg».proof.Proof.RefRunLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 445 … 468 of 583. -/
abbrev sA3 : List (HloOp τ sig (Elt F)) :=
  [ StableHlo.nullary main_c_34 (constantI S_ 32 0#32),
    StableHlo.unary main_c_34 main_v257 (broadcastInDim S1280000 ![] bcast_S_S1280000 : (⟨S_, .i32⟩ : BufTy).Contents (Elt F) → (⟨S1280000, .i32⟩ : BufTy).Contents (Elt F)),
    StableHlo.binary main_v11 main_v257 main_v258 (cmpi .slt : (⟨S1280000, .i32⟩ : BufTy).Contents (Elt F) → (⟨S1280000, .i32⟩ : BufTy).Contents (Elt F) → (⟨S1280000, .i1⟩ : BufTy).Contents (Elt F)),
    StableHlo.nullary main_c_35 (constantI S_ 32 80000#32),
    StableHlo.unary main_c_35 main_v259 (broadcastInDim S1280000 ![] bcast_S_S1280000 : (⟨S_, .i32⟩ : BufTy).Contents (Elt F) → (⟨S1280000, .i32⟩ : BufTy).Contents (Elt F)),
    StableHlo.binary main_v11 main_v259 main_v260 (addi : (⟨S1280000, .i32⟩ : BufTy).Contents (Elt F) → (⟨S1280000, .i32⟩ : BufTy).Contents (Elt F) → (⟨S1280000, .i32⟩ : BufTy).Contents (Elt F)),
    StableHlo.ternary main_v258 main_v260 main_v11 main_v261 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v261 main_v262 (broadcastInDim S1280000x1 ![0] bcast_S1280000_S1280000x1_0 : (⟨S1280000, .i32⟩ : BufTy).Contents (Elt F) → (⟨S1280000x1, .i32⟩ : BufTy).Contents (Elt F)),
    StableHlo.binary main_v256 main_v262 main_v263 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.binary main_v263 main_v9 main_v264 (addf : (⟨S1280000x64, .f32⟩ : BufTy).Contents (Elt F) → (⟨S1280000x64, .f32⟩ : BufTy).Contents (Elt F) → (⟨S1280000x64, .f32⟩ : BufTy).Contents (Elt F)),
    StableHlo.nullary main_call17_cst (constant S_ .f32 0x00000000#32),
    StableHlo.unary main_call17_cst main_call17_v0 (broadcastInDim S1280000x64 ![] bcast_S_S1280000x64 : (⟨S_, .f32⟩ : BufTy).Contents (Elt F) → (⟨S1280000x64, .f32⟩ : BufTy).Contents (Elt F)),
    StableHlo.binary main_v264 main_call17_v0 main_v265 (maximumf : (⟨S1280000x64, .f32⟩ : BufTy).Contents (Elt F) → (⟨S1280000x64, .f32⟩ : BufTy).Contents (Elt F) → (⟨S1280000x64, .f32⟩ : BufTy).Contents (Elt F)),
    StableHlo.nullary main_cst_36 (constant S_ .f32 0x00000000#32),
    StableHlo.unary main_cst_36 main_v266 (broadcastInDim S80000x64 ![] bcast_S_S80000x64 : (⟨S_, .f32⟩ : BufTy).Contents (Elt F) → (⟨S80000x64, .f32⟩ : BufTy).Contents (Elt F)),
    StableHlo.unary main_v13 main_v267 (broadcastInDim S1280000x1 ![0] bcast_S1280000_S1280000x1_0 : (⟨S1280000, .i32⟩ : BufTy).Contents (Elt F) → (⟨S1280000x1, .i32⟩ : BufTy).Contents (Elt F)),
    StableHlo.ternary main_v266 main_v267 main_v265 main_v268 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.unary main_arg13 main_v269 ((extractStridedSlice S1 ![3] · slices_S4_S1_3) : (⟨S4, .f32⟩ : BufTy).Contents (Elt F) → (⟨S1, .f32⟩ : BufTy).Contents (Elt F)),
    StableHlo.reshape main_v269 main_v270 rfl shapeCasts_S1_S_,
    StableHlo.nullary main_cst_37 (constant S_ .f32 0x3F800000#32),
    StableHlo.binary main_cst_37 main_v270 main_v271 (addf : (⟨S_, .f32⟩ : BufTy).Contents (Elt F) → (⟨S_, .f32⟩ : BufTy).Contents (Elt F) → (⟨S_, .f32⟩ : BufTy).Contents (Elt F)),
    StableHlo.unary main_v271 main_v272 (broadcastInDim S80000x64 ![] bcast_S_S80000x64 : (⟨S_, .f32⟩ : BufTy).Contents (Elt F) → (⟨S80000x64, .f32⟩ : BufTy).Contents (Elt F)),
    StableHlo.binary main_v272 main_v256 main_v273 (mulf : (⟨S80000x64, .f32⟩ : BufTy).Contents (Elt F) → (⟨S80000x64, .f32⟩ : BufTy).Contents (Elt F) → (⟨S80000x64, .f32⟩ : BufTy).Contents (Elt F)),
    StableHlo.binary main_v273 main_v268 main_v274 (addf : (⟨S80000x64, .f32⟩ : BufTy).Contents (Elt F) → (⟨S80000x64, .f32⟩ : BufTy).Contents (Elt F) → (⟨S80000x64, .f32⟩ : BufTy).Contents (Elt F)) ]

abbrev sA3_W : List (Ref sig .tc) :=
  [main_c_34, main_v257, main_v258, main_c_35, main_v259, main_v260, main_v261, main_v262, main_v263, main_v264, main_call17_cst, main_call17_v0, main_v265, main_cst_36, main_v266, main_v267, main_v268, main_v269, main_v270, main_cst_37, main_v271, main_v272, main_v273, main_v274]

set_option maxRecDepth 8192 in
theorem sA3_writes : (sA3 : List (HloOp τ sig (Elt F))).Forall fun op =>
    op.writes ⊆ (sA3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sA3_main_v274 (V : Valuation τ sig (Elt F)) :
    after sA3 V (Proc.devRef .tc main_v274) = aggregate (V (Proc.devRef .tc main_v256)) (V (Proc.devRef .tc main_v9)) (V (Proc.devRef .tc main_v11)) (V (Proc.devRef .tc main_v13)) (shapeCast S_ (extractStridedSlice S1 ![3] (V (Proc.devRef .tc main_arg13)) slices_S4_S1_3) shapeCasts_S1_S_) := by
  simp only [sA3]
  after_results_simp <;> rfl

/-- Operations 469 … 476 of 583. -/
abbrev sB3 : List (HloOp τ sig (Elt F)) :=
  [ StableHlo.unary main_arg7 main_v275 ((extractStridedSlice S1x64x128 ![3, 0, 0] · slices_S4x64x128_S1x64x128_3_0_0) : (⟨S4x64x128, .f32⟩ : BufTy).Contents (Elt F) → (⟨S1x64x128, .f32⟩ : BufTy).Contents (Elt F)),
    StableHlo.reshape main_v275 main_v276 rfl shapeCasts_S1x64x128_S64x128,
    StableHlo.binary main_v274 main_v276 main_v277 ((fun l r => Host.dotGeneral dot_S80000x64_S64x128_S80000x128_1_0_0_1_n_n none l r) : (⟨S80000x64, .f32⟩ : BufTy).Contents (Elt F) → (⟨S64x128, .f32⟩ : BufTy).Contents (Elt F) → (⟨S80000x128, .f32⟩ : BufTy).Contents (Elt F)),
    StableHlo.unary main_arg8 main_v278 ((extractStridedSlice S1x128 ![3, 0] · slices_S4x128_S1x128_3_0) : (⟨S4x128, .f32⟩ : BufTy).Contents (Elt F) → (⟨S1x128, .f32⟩ : BufTy).Contents (Elt F)),
    StableHlo.reshape main_v278 main_v279 rfl shapeCasts_S1x128_S128,
    StableHlo.unary main_v279 main_v280 (broadcastInDim S1x128 ![1] bcast_S128_S1x128_1 : (⟨S128, .f32⟩ : BufTy).Contents (Elt F) → (⟨S1x128, .f32⟩ : BufTy).Contents (Elt F)),
    StableHlo.unary main_v280 main_v281 (broadcastInDim S80000x128 ![0, 1] bcast_S1x128_S80000x128_0_1 : (⟨S1x128, .f32⟩ : BufTy).Contents (Elt F) → (⟨S80000x128, .f32⟩ : BufTy).Contents (Elt F)),
    StableHlo.binary main_v277 main_v281 main_v282 (addf : (⟨S80000x128, .f32⟩ : BufTy).Contents (Elt F) → (⟨S80000x128, .f32⟩ : BufTy).Contents (Elt F) → (⟨S80000x128, .f32⟩ : BufTy).Contents (Elt F)) ]

abbrev sB3_W : List (Ref sig .tc) :=
  [main_v275, main_v276, main_v277, main_v278, main_v279, main_v280, main_v281, main_v282]

set_option maxRecDepth 8192 in
theorem sB3_writes : (sB3 : List (HloOp τ sig (Elt F))).Forall fun op =>
    op.writes ⊆ (sB3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sB3_main_v282 (V : Valuation τ sig (Elt F)) :
    after sB3 V (Proc.devRef .tc main_v282) = linear1 (V (Proc.devRef .tc main_v274)) (shapeCast S64x128 (extractStridedSlice S1x64x128 ![3, 0, 0] (V (Proc.devRef .tc main_arg7)) slices_S4x64x128_S1x64x128_3_0_0) shapeCasts_S1x64x128_S64x128) (shapeCast S128 (extractStridedSlice S1x128 ![3, 0] (V (Proc.devRef .tc main_arg8)) slices_S4x128_S1x128_3_0) shapeCasts_S1x128_S128) := by
  simp only [sB3]
  after_results_simp <;> rfl

/-- Operations 477 … 527 of 583. -/
abbrev sC3 : List (HloOp τ sig (Elt F)) :=
  [ StableHlo.nullary main_cst_38 (constant S_ .f32 0x00000000#32),
    StableHlo.binary main_v282 main_cst_38 main_v283 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_39 (constant S_ .f32 0x479C4000#32),
    StableHlo.unary main_cst_39 main_v284 (broadcastInDim S128 ![] bcast_S_S128 : (⟨S_, .f32⟩ : BufTy).Contents (Elt F) → (⟨S128, .f32⟩ : BufTy).Contents (Elt F)),
    StableHlo.binary main_v283 main_v284 main_v285 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.nullary main_call18_cst (constant S_ .f32 0x00000000#32),
    StableHlo.binary main_v282 main_call18_cst main_call18_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call18_v0 main_call18_v1 (broadcastInDim S1x128 ![1] bcast_S128_S1x128_1 : (⟨S128, .f32⟩ : BufTy).Contents (Elt F) → (⟨S1x128, .f32⟩ : BufTy).Contents (Elt F)),
    StableHlo.nullary main_call18_cst_0 (constant S_ .f32 0x479C4000#32),
    StableHlo.unary main_call18_cst_0 main_call18_v2 (broadcastInDim S1x128 ![] bcast_S_S1x128 : (⟨S_, .f32⟩ : BufTy).Contents (Elt F) → (⟨S1x128, .f32⟩ : BufTy).Contents (Elt F)),
    StableHlo.binary main_call18_v1 main_call18_v2 main_call18_v3 (Host.divf : (⟨S1x128, .f32⟩ : BufTy).Contents (Elt F) → (⟨S1x128, .f32⟩ : BufTy).Contents (Elt F) → (⟨S1x128, .f32⟩ : BufTy).Contents (Elt F)),
    StableHlo.unary main_call18_v3 main_call18_v4 (broadcastInDim S80000x128 ![0, 1] bcast_S1x128_S80000x128_0_1 : (⟨S1x128, .f32⟩ : BufTy).Contents (Elt F) → (⟨S80000x128, .f32⟩ : BufTy).Contents (Elt F)),
    StableHlo.binary main_v282 main_call18_v4 main_call18_v5 (subf : (⟨S80000x128, .f32⟩ : BufTy).Contents (Elt F) → (⟨S80000x128, .f32⟩ : BufTy).Contents (Elt F) → (⟨S80000x128, .f32⟩ : BufTy).Contents (Elt F)),
    StableHlo.binary main_call18_v5 main_call18_v5 main_call18_v6 (mulf : (⟨S80000x128, .f32⟩ : BufTy).Contents (Elt F) → (⟨S80000x128, .f32⟩ : BufTy).Contents (Elt F) → (⟨S80000x128, .f32⟩ : BufTy).Contents (Elt F)),
    StableHlo.unary main_c_40 main_call18_v7 (sitofp .f32 : (⟨S_, .i32⟩ : BufTy).Contents (Elt F) → (⟨S_, .f32⟩ : BufTy).Contents (Elt F)),
    StableHlo.nullary main_call18_cst_1 (constant S_ .f32 0x479C4000#32),
    StableHlo.binary main_call18_cst_1 main_call18_v7 main_call18_v8 (subf : (⟨S_, .f32⟩ : BufTy).Contents (Elt F) → (⟨S_, .f32⟩ : BufTy).Contents (Elt F) → (⟨S_, .f32⟩ : BufTy).Contents (Elt F)),
    StableHlo.nullary main_call18_cst_2 (constant S_ .f32 0x00000000#32),
    StableHlo.binary main_call18_v6 main_call18_cst_2 main_call18_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call18_v8 main_call18_v10 (broadcastInDim S128 ![] bcast_S_S128 : (⟨S_, .f32⟩ : BufTy).Contents (Elt F) → (⟨S128, .f32⟩ : BufTy).Contents (Elt F)),
    StableHlo.binary main_call18_v9 main_call18_v10 main_call18_v11 (Host.divf : (⟨S128, .f32⟩ : BufTy).Contents (Elt F) → (⟨S128, .f32⟩ : BufTy).Contents (Elt F) → (⟨S128, .f32⟩ : BufTy).Contents (Elt F)),
    StableHlo.nullary main_call18_cst_3 (constant S_ .f32 0x00000000#32),
    StableHlo.binary main_call18_v8 main_call18_cst_3 main_call18_v12 (cmpf .ogt : (⟨S_, .f32⟩ : BufTy).Contents (Elt F) → (⟨S_, .f32⟩ : BufTy).Contents (Elt F) → (⟨S_, .i1⟩ : BufTy).Contents (Elt F)),
    StableHlo.nullary main_call18_cst_4 (constant S_ .f32 0x7FC00000#32),
    StableHlo.unary main_call18_cst_4 main_call18_call0_v0 (id : (⟨S_, .f32⟩ : BufTy).Contents (Elt F) → (⟨S_, .f32⟩ : BufTy).Contents (Elt F)),
    StableHlo.unary main_call18_call0_v0 main_call18_call0_v1 (broadcastInDim S128 ![] bcast_S_S128 : (⟨S_, .f32⟩ : BufTy).Contents (Elt F) → (⟨S128, .f32⟩ : BufTy).Contents (Elt F)),
    StableHlo.ternary main_call18_v12 main_call18_v11 main_call18_call0_v1 main_v286 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v285 main_v287 (broadcastInDim S1x128 ![1] bcast_S128_S1x128_1 : (⟨S128, .f32⟩ : BufTy).Contents (Elt F) → (⟨S1x128, .f32⟩ : BufTy).Contents (Elt F)),
    StableHlo.unary main_v287 main_v288 (broadcastInDim S80000x128 ![0, 1] bcast_S1x128_S80000x128_0_1 : (⟨S1x128, .f32⟩ : BufTy).Contents (Elt F) → (⟨S80000x128, .f32⟩ : BufTy).Contents (Elt F)),
    StableHlo.binary main_v282 main_v288 main_v289 (subf : (⟨S80000x128, .f32⟩ : BufTy).Contents (Elt F) → (⟨S80000x128, .f32⟩ : BufTy).Contents (Elt F) → (⟨S80000x128, .f32⟩ : BufTy).Contents (Elt F)),
    StableHlo.nullary main_cst_41 (constant S_ .f32 0x3727C5AC#32),
    StableHlo.unary main_cst_41 main_v290 (broadcastInDim S128 ![] bcast_S_S128 : (⟨S_, .f32⟩ : BufTy).Contents (Elt F) → (⟨S128, .f32⟩ : BufTy).Contents (Elt F)),
    StableHlo.binary main_v286 main_v290 main_v291 (addf : (⟨S128, .f32⟩ : BufTy).Contents (Elt F) → (⟨S128, .f32⟩ : BufTy).Contents (Elt F) → (⟨S128, .f32⟩ : BufTy).Contents (Elt F)),
    StableHlo.unary main_v291 main_v292 (Host.rsqrt : (⟨S128, .f32⟩ : BufTy).Contents (Elt F) → (⟨S128, .f32⟩ : BufTy).Contents (Elt F)),
    StableHlo.unary main_v292 main_v293 (broadcastInDim S1x128 ![1] bcast_S128_S1x128_1 : (⟨S128, .f32⟩ : BufTy).Contents (Elt F) → (⟨S1x128, .f32⟩ : BufTy).Contents (Elt F)),
    StableHlo.unary main_v293 main_v294 (broadcastInDim S80000x128 ![0, 1] bcast_S1x128_S80000x128_0_1 : (⟨S1x128, .f32⟩ : BufTy).Contents (Elt F) → (⟨S80000x128, .f32⟩ : BufTy).Contents (Elt F)),
    StableHlo.binary main_v289 main_v294 main_v295 (mulf : (⟨S80000x128, .f32⟩ : BufTy).Contents (Elt F) → (⟨S80000x128, .f32⟩ : BufTy).Contents (Elt F) → (⟨S80000x128, .f32⟩ : BufTy).Contents (Elt F)),
    StableHlo.unary main_arg9 main_v296 ((extractStridedSlice S1x128 ![3, 0] · slices_S4x128_S1x128_3_0) : (⟨S4x128, .f32⟩ : BufTy).Contents (Elt F) → (⟨S1x128, .f32⟩ : BufTy).Contents (Elt F)),
    StableHlo.reshape main_v296 main_v297 rfl shapeCasts_S1x128_S128,
    StableHlo.unary main_v297 main_v298 (broadcastInDim S1x128 ![1] bcast_S128_S1x128_1 : (⟨S128, .f32⟩ : BufTy).Contents (Elt F) → (⟨S1x128, .f32⟩ : BufTy).Contents (Elt F)),
    StableHlo.unary main_v298 main_v299 (broadcastInDim S80000x128 ![0, 1] bcast_S1x128_S80000x128_0_1 : (⟨S1x128, .f32⟩ : BufTy).Contents (Elt F) → (⟨S80000x128, .f32⟩ : BufTy).Contents (Elt F)),
    StableHlo.binary main_v295 main_v299 main_v300 (mulf : (⟨S80000x128, .f32⟩ : BufTy).Contents (Elt F) → (⟨S80000x128, .f32⟩ : BufTy).Contents (Elt F) → (⟨S80000x128, .f32⟩ : BufTy).Contents (Elt F)),
    StableHlo.unary main_arg10 main_v301 ((extractStridedSlice S1x128 ![3, 0] · slices_S4x128_S1x128_3_0) : (⟨S4x128, .f32⟩ : BufTy).Contents (Elt F) → (⟨S1x128, .f32⟩ : BufTy).Contents (Elt F)),
    StableHlo.reshape main_v301 main_v302 rfl shapeCasts_S1x128_S128,
    StableHlo.unary main_v302 main_v303 (broadcastInDim S1x128 ![1] bcast_S128_S1x128_1 : (⟨S128, .f32⟩ : BufTy).Contents (Elt F) → (⟨S1x128, .f32⟩ : BufTy).Contents (Elt F)),
    StableHlo.unary main_v303 main_v304 (broadcastInDim S80000x128 ![0, 1] bcast_S1x128_S80000x128_0_1 : (⟨S1x128, .f32⟩ : BufTy).Contents (Elt F) → (⟨S80000x128, .f32⟩ : BufTy).Contents (Elt F)),
    StableHlo.binary main_v300 main_v304 main_v305 (addf : (⟨S80000x128, .f32⟩ : BufTy).Contents (Elt F) → (⟨S80000x128, .f32⟩ : BufTy).Contents (Elt F) → (⟨S80000x128, .f32⟩ : BufTy).Contents (Elt F)),
    StableHlo.nullary main_call19_cst (constant S_ .f32 0x00000000#32),
    StableHlo.unary main_call19_cst main_call19_v0 (broadcastInDim S80000x128 ![] bcast_S_S80000x128 : (⟨S_, .f32⟩ : BufTy).Contents (Elt F) → (⟨S80000x128, .f32⟩ : BufTy).Contents (Elt F)),
    StableHlo.binary main_v305 main_call19_v0 main_v306 (maximumf : (⟨S80000x128, .f32⟩ : BufTy).Contents (Elt F) → (⟨S80000x128, .f32⟩ : BufTy).Contents (Elt F) → (⟨S80000x128, .f32⟩ : BufTy).Contents (Elt F)) ]

abbrev sC3_W : List (Ref sig .tc) :=
  [main_cst_38, main_v283, main_cst_39, main_v284, main_v285, main_c_40, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v286, main_v287, main_v288, main_v289, main_cst_41, main_v290, main_v291, main_v292, main_v293, main_v294, main_v295, main_v296, main_v297, main_v298, main_v299, main_v300, main_v301, main_v302, main_v303, main_v304, main_v305, main_call19_cst, main_call19_v0, main_v306]

set_option maxRecDepth 8192 in
theorem sC3_writes : (sC3 : List (HloOp τ sig (Elt F))).Forall fun op =>
    op.writes ⊆ (sC3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sC3_main_v306 (V : Valuation τ sig (Elt F)) :
    after sC3 V (Proc.devRef .tc main_v306) = relu128 (batchNorm (V (Proc.devRef .tc main_v282)) (shapeCast S128 (extractStridedSlice S1x128 ![3, 0] (V (Proc.devRef .tc main_arg9)) slices_S4x128_S1x128_3_0) shapeCasts_S1x128_S128) (shapeCast S128 (extractStridedSlice S1x128 ![3, 0] (V (Proc.devRef .tc main_arg10)) slices_S4x128_S1x128_3_0) shapeCasts_S1x128_S128)) := by
  simp only [sC3]
  after_results_simp <;> rfl

/-- Operations 528 … 535 of 583. -/
abbrev sD3 : List (HloOp τ sig (Elt F)) :=
  [ StableHlo.unary main_arg11 main_v307 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v307 main_v308 rfl shapeCasts_S1x128x64_S128x64,
    StableHlo.binary main_v306 main_v308 main_v309 ((fun l r => Host.dotGeneral dot_S80000x128_S128x64_S80000x64_1_0_0_1_n_n none l r) : (⟨S80000x128, .f32⟩ : BufTy).Contents (Elt F) → (⟨S128x64, .f32⟩ : BufTy).Contents (Elt F) → (⟨S80000x64, .f32⟩ : BufTy).Contents (Elt F)),
    StableHlo.unary main_arg12 main_v310 ((extractStridedSlice S1x64 ![3, 0] · slices_S4x64_S1x64_3_0) : (⟨S4x64, .f32⟩ : BufTy).Contents (Elt F) → (⟨S1x64, .f32⟩ : BufTy).Contents (Elt F)),
    StableHlo.reshape main_v310 main_v311 rfl shapeCasts_S1x64_S64,
    StableHlo.unary main_v311 main_v312 (broadcastInDim S1x64 ![1] bcast_S64_S1x64_1 : (⟨S64, .f32⟩ : BufTy).Contents (Elt F) → (⟨S1x64, .f32⟩ : BufTy).Contents (Elt F)),
    StableHlo.unary main_v312 main_v313 (broadcastInDim S80000x64 ![0, 1] bcast_S1x64_S80000x64_0_1 : (⟨S1x64, .f32⟩ : BufTy).Contents (Elt F) → (⟨S80000x64, .f32⟩ : BufTy).Contents (Elt F)),
    StableHlo.binary main_v309 main_v313 main_v314 (addf : (⟨S80000x64, .f32⟩ : BufTy).Contents (Elt F) → (⟨S80000x64, .f32⟩ : BufTy).Contents (Elt F) → (⟨S80000x64, .f32⟩ : BufTy).Contents (Elt F)) ]

abbrev sD3_W : List (Ref sig .tc) :=
  [main_v307, main_v308, main_v309, main_v310, main_v311, main_v312, main_v313, main_v314]

set_option maxRecDepth 8192 in
theorem sD3_writes : (sD3 : List (HloOp τ sig (Elt F))).Forall fun op =>
    op.writes ⊆ (sD3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem sD3_main_v314 (V : Valuation τ sig (Elt F)) :
    after sD3 V (Proc.devRef .tc main_v314) = linear2 (V (Proc.devRef .tc main_v306)) (shapeCast S128x64 (extractStridedSlice S1x128x64 ![3, 0, 0] (V (Proc.devRef .tc main_arg11)) slices_S4x128x64_S1x128x64_3_0_0) shapeCasts_S1x128x64_S128x64) (shapeCast S64 (extractStridedSlice S1x64 ![3, 0] (V (Proc.devRef .tc main_arg12)) slices_S4x64_S1x64_3_0) shapeCasts_S1x64_S64) := by
  simp only [sD3]
  after_results_simp <;> rfl

/-- Operations 536 … 583 of 583. -/
abbrev sE3 : List (HloOp τ sig (Elt F)) :=
  [ StableHlo.nullary main_cst_42 (constant S_ .f32 0x00000000#32),
    StableHlo.binary main_v314 main_cst_42 main_v315 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_v315 main_v316 (broadcastInDim S80000x1 ![0] bcast_S80000_S80000x1_0 : (⟨S80000, .f32⟩ : BufTy).Contents (Elt F) → (⟨S80000x1, .f32⟩ : BufTy).Contents (Elt F)),
    StableHlo.nullary main_cst_43 (constant S_ .f32 0x42800000#32),
    StableHlo.unary main_cst_43 main_v317 (broadcastInDim S80000x1 ![] bcast_S_S80000x1 : (⟨S_, .f32⟩ : BufTy).Contents (Elt F) → (⟨S80000x1, .f32⟩ : BufTy).Contents (Elt F)),
    StableHlo.binary main_v316 main_v317 main_v318 (Host.divf : (⟨S80000x1, .f32⟩ : BufTy).Contents (Elt F) → (⟨S80000x1, .f32⟩ : BufTy).Contents (Elt F) → (⟨S80000x1, .f32⟩ : BufTy).Contents (Elt F)),
    StableHlo.nullary main_c_44 (constantI S_ 32 0#32),
    StableHlo.nullary main_call20_cst (constant S_ .f32 0x00000000#32),
    StableHlo.binary main_v314 main_call20_cst main_call20_v0 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call20_v0 main_call20_v1 (broadcastInDim S80000x1 ![0] bcast_S80000_S80000x1_0 : (⟨S80000, .f32⟩ : BufTy).Contents (Elt F) → (⟨S80000x1, .f32⟩ : BufTy).Contents (Elt F)),
    StableHlo.nullary main_call20_cst_0 (constant S_ .f32 0x42800000#32),
    StableHlo.unary main_call20_cst_0 main_call20_v2 (broadcastInDim S80000x1 ![] bcast_S_S80000x1 : (⟨S_, .f32⟩ : BufTy).Contents (Elt F) → (⟨S80000x1, .f32⟩ : BufTy).Contents (Elt F)),
    StableHlo.binary main_call20_v1 main_call20_v2 main_call20_v3 (Host.divf : (⟨S80000x1, .f32⟩ : BufTy).Contents (Elt F) → (⟨S80000x1, .f32⟩ : BufTy).Contents (Elt F) → (⟨S80000x1, .f32⟩ : BufTy).Contents (Elt F)),
    StableHlo.unary main_call20_v3 main_call20_v4 (broadcastInDim S80000x64 ![0, 1] bcast_S80000x1_S80000x64_0_1 : (⟨S80000x1, .f32⟩ : BufTy).Contents (Elt F) → (⟨S80000x64, .f32⟩ : BufTy).Contents (Elt F)),
    StableHlo.binary main_v314 main_call20_v4 main_call20_v5 (subf : (⟨S80000x64, .f32⟩ : BufTy).Contents (Elt F) → (⟨S80000x64, .f32⟩ : BufTy).Contents (Elt F) → (⟨S80000x64, .f32⟩ : BufTy).Contents (Elt F)),
    StableHlo.binary main_call20_v5 main_call20_v5 main_call20_v6 (mulf : (⟨S80000x64, .f32⟩ : BufTy).Contents (Elt F) → (⟨S80000x64, .f32⟩ : BufTy).Contents (Elt F) → (⟨S80000x64, .f32⟩ : BufTy).Contents (Elt F)),
    StableHlo.unary main_c_44 main_call20_v7 (sitofp .f32 : (⟨S_, .i32⟩ : BufTy).Contents (Elt F) → (⟨S_, .f32⟩ : BufTy).Contents (Elt F)),
    StableHlo.nullary main_call20_cst_1 (constant S_ .f32 0x42800000#32),
    StableHlo.binary main_call20_cst_1 main_call20_v7 main_call20_v8 (subf : (⟨S_, .f32⟩ : BufTy).Contents (Elt F) → (⟨S_, .f32⟩ : BufTy).Contents (Elt F) → (⟨S_, .f32⟩ : BufTy).Contents (Elt F)),
    StableHlo.nullary main_call20_cst_2 (constant S_ .f32 0x00000000#32),
    StableHlo.binary main_call20_v6 main_call20_cst_2 main_call20_v9 ((fun x v => Host.reduceAdd x v reducesTo_S80000x64_S80000_d1 h_S_) : (⟨S80000x64, .f32⟩ : BufTy).Contents (Elt F) → (⟨S_, .f32⟩ : BufTy).Contents (Elt F) → (⟨S80000, .f32⟩ : BufTy).Contents (Elt F)),
    StableHlo.unary main_call20_v9 main_call20_v10 (broadcastInDim S80000x1 ![0] bcast_S80000_S80000x1_0 : (⟨S80000, .f32⟩ : BufTy).Contents (Elt F) → (⟨S80000x1, .f32⟩ : BufTy).Contents (Elt F)),
    StableHlo.unary main_call20_v8 main_call20_v11 (broadcastInDim S80000x1 ![] bcast_S_S80000x1 : (⟨S_, .f32⟩ : BufTy).Contents (Elt F) → (⟨S80000x1, .f32⟩ : BufTy).Contents (Elt F)),
    StableHlo.binary main_call20_v10 main_call20_v11 main_call20_v12 (Host.divf : (⟨S80000x1, .f32⟩ : BufTy).Contents (Elt F) → (⟨S80000x1, .f32⟩ : BufTy).Contents (Elt F) → (⟨S80000x1, .f32⟩ : BufTy).Contents (Elt F)),
    StableHlo.nullary main_call20_cst_3 (constant S_ .f32 0x00000000#32),
    StableHlo.binary main_call20_v8 main_call20_cst_3 main_call20_v13 (cmpf .ogt : (⟨S_, .f32⟩ : BufTy).Contents (Elt F) → (⟨S_, .f32⟩ : BufTy).Contents (Elt F) → (⟨S_, .i1⟩ : BufTy).Contents (Elt F)),
    StableHlo.nullary main_call20_cst_4 (constant S_ .f32 0x7FC00000#32),
    StableHlo.unary main_call20_cst_4 main_call20_call0_v0 (id : (⟨S_, .f32⟩ : BufTy).Contents (Elt F) → (⟨S_, .f32⟩ : BufTy).Contents (Elt F)),
    StableHlo.unary main_call20_call0_v0 main_call20_call0_v1 (broadcastInDim S80000x1 ![] bcast_S_S80000x1 : (⟨S_, .f32⟩ : BufTy).Contents (Elt F) → (⟨S80000x1, .f32⟩ : BufTy).Contents (Elt F)),
    StableHlo.ternary main_call20_v13 main_call20_v12 main_call20_call0_v1 main_v319 ((fun p a b => select (broadcastInDim S80000x1 ![] bcast_S_S80000x1 p) a b) : (⟨S_, .i1⟩ : BufTy).Contents (Elt F) → (⟨S80000x1, .f32⟩ : BufTy).Contents (Elt F) → (⟨S80000x1, .f32⟩ : BufTy).Contents (Elt F) → (⟨S80000x1, .f32⟩ : BufTy).Contents (Elt F)),
    StableHlo.unary main_v318 main_v320 (broadcastInDim S80000x64 ![0, 1] bcast_S80000x1_S80000x64_0_1 : (⟨S80000x1, .f32⟩ : BufTy).Contents (Elt F) → (⟨S80000x64, .f32⟩ : BufTy).Contents (Elt F)),
    StableHlo.binary main_v314 main_v320 main_v321 (subf : (⟨S80000x64, .f32⟩ : BufTy).Contents (Elt F) → (⟨S80000x64, .f32⟩ : BufTy).Contents (Elt F) → (⟨S80000x64, .f32⟩ : BufTy).Contents (Elt F)),
    StableHlo.nullary main_cst_45 (constant S_ .f32 0x3727C5AC#32),
    StableHlo.unary main_cst_45 main_v322 (broadcastInDim S80000x1 ![] bcast_S_S80000x1 : (⟨S_, .f32⟩ : BufTy).Contents (Elt F) → (⟨S80000x1, .f32⟩ : BufTy).Contents (Elt F)),
    StableHlo.binary main_v319 main_v322 main_v323 (addf : (⟨S80000x1, .f32⟩ : BufTy).Contents (Elt F) → (⟨S80000x1, .f32⟩ : BufTy).Contents (Elt F) → (⟨S80000x1, .f32⟩ : BufTy).Contents (Elt F)),
    StableHlo.unary main_v323 main_v324 (Host.rsqrt : (⟨S80000x1, .f32⟩ : BufTy).Contents (Elt F) → (⟨S80000x1, .f32⟩ : BufTy).Contents (Elt F)),
    StableHlo.unary main_v324 main_v325 (broadcastInDim S80000x64 ![0, 1] bcast_S80000x1_S80000x64_0_1 : (⟨S80000x1, .f32⟩ : BufTy).Contents (Elt F) → (⟨S80000x64, .f32⟩ : BufTy).Contents (Elt F)),
    StableHlo.binary main_v321 main_v325 main_v326 (mulf : (⟨S80000x64, .f32⟩ : BufTy).Contents (Elt F) → (⟨S80000x64, .f32⟩ : BufTy).Contents (Elt F) → (⟨S80000x64, .f32⟩ : BufTy).Contents (Elt F)),
    StableHlo.unary main_arg14 main_v327 ((extractStridedSlice S1x64 ![3, 0] · slices_S4x64_S1x64_3_0) : (⟨S4x64, .f32⟩ : BufTy).Contents (Elt F) → (⟨S1x64, .f32⟩ : BufTy).Contents (Elt F)),
    StableHlo.reshape main_v327 main_v328 rfl shapeCasts_S1x64_S64,
    StableHlo.unary main_v328 main_v329 (broadcastInDim S1x64 ![1] bcast_S64_S1x64_1 : (⟨S64, .f32⟩ : BufTy).Contents (Elt F) → (⟨S1x64, .f32⟩ : BufTy).Contents (Elt F)),
    StableHlo.unary main_v329 main_v330 (broadcastInDim S80000x64 ![0, 1] bcast_S1x64_S80000x64_0_1 : (⟨S1x64, .f32⟩ : BufTy).Contents (Elt F) → (⟨S80000x64, .f32⟩ : BufTy).Contents (Elt F)),
    StableHlo.binary main_v326 main_v330 main_v331 (mulf : (⟨S80000x64, .f32⟩ : BufTy).Contents (Elt F) → (⟨S80000x64, .f32⟩ : BufTy).Contents (Elt F) → (⟨S80000x64, .f32⟩ : BufTy).Contents (Elt F)),
    StableHlo.unary main_arg15 main_v332 ((extractStridedSlice S1x64 ![3, 0] · slices_S4x64_S1x64_3_0) : (⟨S4x64, .f32⟩ : BufTy).Contents (Elt F) → (⟨S1x64, .f32⟩ : BufTy).Contents (Elt F)),
    StableHlo.reshape main_v332 main_v333 rfl shapeCasts_S1x64_S64,
    StableHlo.unary main_v333 main_v334 (broadcastInDim S1x64 ![1] bcast_S64_S1x64_1 : (⟨S64, .f32⟩ : BufTy).Contents (Elt F) → (⟨S1x64, .f32⟩ : BufTy).Contents (Elt F)),
    StableHlo.unary main_v334 main_v335 (broadcastInDim S80000x64 ![0, 1] bcast_S1x64_S80000x64_0_1 : (⟨S1x64, .f32⟩ : BufTy).Contents (Elt F) → (⟨S80000x64, .f32⟩ : BufTy).Contents (Elt F)),
    StableHlo.binary main_v331 main_v335 main_v336 (addf : (⟨S80000x64, .f32⟩ : BufTy).Contents (Elt F) → (⟨S80000x64, .f32⟩ : BufTy).Contents (Elt F) → (⟨S80000x64, .f32⟩ : BufTy).Contents (Elt F)) ]

abbrev sE3_W : List (Ref sig .tc) :=
  [main_cst_42, main_v315, main_v316, main_cst_43, main_v317, main_v318, main_c_44, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_v12, main_call20_cst_3, main_call20_v13, main_call20_cst_4, main_call20_call0_v0, main_call20_call0_v1, main_v319, main_v320, main_v321, main_cst_45, main_v322, main_v323, main_v324, main_v325, main_v326, main_v327, main_v328, main_v329, main_v330, main_v331, main_v332, main_v333, main_v334, main_v335, main_v336]

set_option maxRecDepth 8192 in
theorem sE3_writes : (sE3 : List (HloOp τ sig (Elt F))).Forall fun op =>
    op.writes ⊆ (sE3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
theorem sE3_main_v336 (V : Valuation τ sig (Elt F)) :
    after sE3 V (Proc.devRef .tc main_v336) = layerNorm (V (Proc.devRef .tc main_v314)) (shapeCast S64 (extractStridedSlice S1x64 ![3, 0] (V (Proc.devRef .tc main_arg14)) slices_S4x64_S1x64_3_0) shapeCasts_S1x64_S64) (shapeCast S64 (extractStridedSlice S1x64 ![3, 0] (V (Proc.devRef .tc main_arg15)) slices_S4x64_S1x64_3_0) shapeCasts_S1x64_S64) := by
  simp only [sE3]
  after_results_simp <;> rfl

end Cert.ReferenceIdeal.RefRun

end
-- ==== Proof.RefRunValue.lean ====
/-
  The reference program's result as the layered function of its sixteen argument arrays:
  `res m c = forward (m at main_arg0) … (m at main_arg15)` (Proof/RefRunLayers.lean).
  The 583 operations, joined window by window in Proof/RefRunMain.lean, are the same list joined stage by stage
  (`ops_stages`), so the fold over them is the stages' folds in order (`val k V0`: the contents after the first k
  stages). After a stage, its handed-on array is the stage's function of the contents before it (`val‹k›_‹buffer›`), and
  a buffer the stage does not write holds what it held before (`val‹k›_keep`); reading the result buffer after the
  last stage and following each input back to the stage that wrote it — or to the launch contents, for an argument —
  composes the stage functions into `forward`.
-/
import proofs.«178590_j59433757442359_2_alg».proof.Proof.RefRun
import proofs.«178590_j59433757442359_2_alg».proof.Proof.RefRunStage0
import proofs.«178590_j59433757442359_2_alg».proof.Proof.RefRunStage1
import proofs.«178590_j59433757442359_2_alg».proof.Proof.RefRunStage2
import proofs.«178590_j59433757442359_2_alg».proof.Proof.RefRunStage3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- two spellings of one list of 583 literal entries: the concatenations are computed entry by entry
set_option maxRecDepth 100000 in
set_option maxHeartbeats 4000000 in
/-- The operations joined window by window are the operations joined stage by stage. -/
theorem ops_stages : (ops : List (HloOp τ sig (Elt F))) = sStem ++ (sA0 ++ (sB0 ++ (sC0 ++ (sD0 ++ (sE0 ++ (sA1 ++ (sB1 ++ (sC1 ++ (sD1 ++ (sE1 ++ (sA2 ++ (sB2 ++ (sC2 ++ (sD2 ++ (sE2 ++ (sA3 ++ (sB3 ++ (sC3 ++ (sD3 ++ (sE3)))))))))))))))))))) := rfl

/-- The contents before the first stage. -/
def val0 (V0 : Valuation τ sig (Elt F)) : Valuation τ sig (Elt F) := V0

/-- The contents after the first 1 stage. -/
def val1 (V0 : Valuation τ sig (Elt F)) : Valuation τ sig (Elt F) := after sStem (val0 V0)
theorem val1_keep (V0 : Valuation τ sig (Elt F)) (r : Ref sig .tc) (h : r ∉ sStem_W) :
    val1 V0 (no_index (Proc.devRef .tc r)) = val0 V0 (Proc.devRef .tc r) :=
  after_of_writes_sub sStem _ sStem_writes h
theorem val1_main_v4 (V0 : Valuation τ sig (Elt F)) :
    val1 V0 (no_index (Proc.devRef .tc main_v4)) = h0 (val0 V0 (Proc.devRef .tc main_arg0)) (val0 V0 (Proc.devRef .tc main_arg3)) (val0 V0 (Proc.devRef .tc main_arg4)) :=
  sStem_main_v4 (val0 V0)
theorem val1_main_v9 (V0 : Valuation τ sig (Elt F)) :
    val1 V0 (no_index (Proc.devRef .tc main_v9)) = ea (val0 V0 (Proc.devRef .tc main_arg2)) (val0 V0 (Proc.devRef .tc main_arg5)) (val0 V0 (Proc.devRef .tc main_arg6)) :=
  sStem_main_v9 (val0 V0)
theorem val1_main_v11 (V0 : Valuation τ sig (Elt F)) :
    val1 V0 (no_index (Proc.devRef .tc main_v11)) = srcCol (val0 V0 (Proc.devRef .tc main_arg1)) :=
  sStem_main_v11 (val0 V0)
theorem val1_main_v13 (V0 : Valuation τ sig (Elt F)) :
    val1 V0 (no_index (Proc.devRef .tc main_v13)) = dstCol (val0 V0 (Proc.devRef .tc main_arg1)) :=
  sStem_main_v13 (val0 V0)

/-- The contents after the first 2 stages. -/
def val2 (V0 : Valuation τ sig (Elt F)) : Valuation τ sig (Elt F) := after sA0 (val1 V0)
theorem val2_keep (V0 : Valuation τ sig (Elt F)) (r : Ref sig .tc) (h : r ∉ sA0_W) :
    val2 V0 (no_index (Proc.devRef .tc r)) = val1 V0 (Proc.devRef .tc r) :=
  after_of_writes_sub sA0 _ sA0_writes h
theorem val2_main_v31 (V0 : Valuation τ sig (Elt F)) :
    val2 V0 (no_index (Proc.devRef .tc main_v31)) = aggregate (val1 V0 (Proc.devRef .tc main_v4)) (val1 V0 (Proc.devRef .tc main_v9)) (val1 V0 (Proc.devRef .tc main_v11)) (val1 V0 (Proc.devRef .tc main_v13)) (shapeCast S_ (extractStridedSlice S1 ![0] (val1 V0 (Proc.devRef .tc main_arg13)) slices_S4_S1_0) shapeCasts_S1_S_) :=
  sA0_main_v31 (val1 V0)

/-- The contents after the first 3 stages. -/
def val3 (V0 : Valuation τ sig (Elt F)) : Valuation τ sig (Elt F) := after sB0 (val2 V0)
theorem val3_keep (V0 : Valuation τ sig (Elt F)) (r : Ref sig .tc) (h : r ∉ sB0_W) :
    val3 V0 (no_index (Proc.devRef .tc r)) = val2 V0 (Proc.devRef .tc r) :=
  after_of_writes_sub sB0 _ sB0_writes h
theorem val3_main_v39 (V0 : Valuation τ sig (Elt F)) :
    val3 V0 (no_index (Proc.devRef .tc main_v39)) = linear1 (val2 V0 (Proc.devRef .tc main_v31)) (shapeCast S64x128 (extractStridedSlice S1x64x128 ![0, 0, 0] (val2 V0 (Proc.devRef .tc main_arg7)) slices_S4x64x128_S1x64x128_0_0_0) shapeCasts_S1x64x128_S64x128) (shapeCast S128 (extractStridedSlice S1x128 ![0, 0] (val2 V0 (Proc.devRef .tc main_arg8)) slices_S4x128_S1x128_0_0) shapeCasts_S1x128_S128) :=
  sB0_main_v39 (val2 V0)

/-- The contents after the first 4 stages. -/
def val4 (V0 : Valuation τ sig (Elt F)) : Valuation τ sig (Elt F) := after sC0 (val3 V0)
theorem val4_keep (V0 : Valuation τ sig (Elt F)) (r : Ref sig .tc) (h : r ∉ sC0_W) :
    val4 V0 (no_index (Proc.devRef .tc r)) = val3 V0 (Proc.devRef .tc r) :=
  after_of_writes_sub sC0 _ sC0_writes h
theorem val4_main_v63 (V0 : Valuation τ sig (Elt F)) :
    val4 V0 (no_index (Proc.devRef .tc main_v63)) = relu128 (batchNorm (val3 V0 (Proc.devRef .tc main_v39)) (shapeCast S128 (extractStridedSlice S1x128 ![0, 0] (val3 V0 (Proc.devRef .tc main_arg9)) slices_S4x128_S1x128_0_0) shapeCasts_S1x128_S128) (shapeCast S128 (extractStridedSlice S1x128 ![0, 0] (val3 V0 (Proc.devRef .tc main_arg10)) slices_S4x128_S1x128_0_0) shapeCasts_S1x128_S128)) :=
  sC0_main_v63 (val3 V0)

/-- The contents after the first 5 stages. -/
def val5 (V0 : Valuation τ sig (Elt F)) : Valuation τ sig (Elt F) := after sD0 (val4 V0)
theorem val5_keep (V0 : Valuation τ sig (Elt F)) (r : Ref sig .tc) (h : r ∉ sD0_W) :
    val5 V0 (no_index (Proc.devRef .tc r)) = val4 V0 (Proc.devRef .tc r) :=
  after_of_writes_sub sD0 _ sD0_writes h
theorem val5_main_v71 (V0 : Valuation τ sig (Elt F)) :
    val5 V0 (no_index (Proc.devRef .tc main_v71)) = linear2 (val4 V0 (Proc.devRef .tc main_v63)) (shapeCast S128x64 (extractStridedSlice S1x128x64 ![0, 0, 0] (val4 V0 (Proc.devRef .tc main_arg11)) slices_S4x128x64_S1x128x64_0_0_0) shapeCasts_S1x128x64_S128x64) (shapeCast S64 (extractStridedSlice S1x64 ![0, 0] (val4 V0 (Proc.devRef .tc main_arg12)) slices_S4x64_S1x64_0_0) shapeCasts_S1x64_S64) :=
  sD0_main_v71 (val4 V0)

/-- The contents after the first 6 stages. -/
def val6 (V0 : Valuation τ sig (Elt F)) : Valuation τ sig (Elt F) := after sE0 (val5 V0)
theorem val6_keep (V0 : Valuation τ sig (Elt F)) (r : Ref sig .tc) (h : r ∉ sE0_W) :
    val6 V0 (no_index (Proc.devRef .tc r)) = val5 V0 (Proc.devRef .tc r) :=
  after_of_writes_sub sE0 _ sE0_writes h
theorem val6_main_v94 (V0 : Valuation τ sig (Elt F)) :
    val6 V0 (no_index (Proc.devRef .tc main_v94)) = relu64 (layerNorm (val5 V0 (Proc.devRef .tc main_v71)) (shapeCast S64 (extractStridedSlice S1x64 ![0, 0] (val5 V0 (Proc.devRef .tc main_arg14)) slices_S4x64_S1x64_0_0) shapeCasts_S1x64_S64) (shapeCast S64 (extractStridedSlice S1x64 ![0, 0] (val5 V0 (Proc.devRef .tc main_arg15)) slices_S4x64_S1x64_0_0) shapeCasts_S1x64_S64)) :=
  sE0_main_v94 (val5 V0)

/-- The contents after the first 7 stages. -/
def val7 (V0 : Valuation τ sig (Elt F)) : Valuation τ sig (Elt F) := after sA1 (val6 V0)
theorem val7_keep (V0 : Valuation τ sig (Elt F)) (r : Ref sig .tc) (h : r ∉ sA1_W) :
    val7 V0 (no_index (Proc.devRef .tc r)) = val6 V0 (Proc.devRef .tc r) :=
  after_of_writes_sub sA1 _ sA1_writes h
theorem val7_main_v112 (V0 : Valuation τ sig (Elt F)) :
    val7 V0 (no_index (Proc.devRef .tc main_v112)) = aggregate (val6 V0 (Proc.devRef .tc main_v94)) (val6 V0 (Proc.devRef .tc main_v9)) (val6 V0 (Proc.devRef .tc main_v11)) (val6 V0 (Proc.devRef .tc main_v13)) (shapeCast S_ (extractStridedSlice S1 ![1] (val6 V0 (Proc.devRef .tc main_arg13)) slices_S4_S1_1) shapeCasts_S1_S_) :=
  sA1_main_v112 (val6 V0)

/-- The contents after the first 8 stages. -/
def val8 (V0 : Valuation τ sig (Elt F)) : Valuation τ sig (Elt F) := after sB1 (val7 V0)
theorem val8_keep (V0 : Valuation τ sig (Elt F)) (r : Ref sig .tc) (h : r ∉ sB1_W) :
    val8 V0 (no_index (Proc.devRef .tc r)) = val7 V0 (Proc.devRef .tc r) :=
  after_of_writes_sub sB1 _ sB1_writes h
theorem val8_main_v120 (V0 : Valuation τ sig (Elt F)) :
    val8 V0 (no_index (Proc.devRef .tc main_v120)) = linear1 (val7 V0 (Proc.devRef .tc main_v112)) (shapeCast S64x128 (extractStridedSlice S1x64x128 ![1, 0, 0] (val7 V0 (Proc.devRef .tc main_arg7)) slices_S4x64x128_S1x64x128_1_0_0) shapeCasts_S1x64x128_S64x128) (shapeCast S128 (extractStridedSlice S1x128 ![1, 0] (val7 V0 (Proc.devRef .tc main_arg8)) slices_S4x128_S1x128_1_0) shapeCasts_S1x128_S128) :=
  sB1_main_v120 (val7 V0)

/-- The contents after the first 9 stages. -/
def val9 (V0 : Valuation τ sig (Elt F)) : Valuation τ sig (Elt F) := after sC1 (val8 V0)
theorem val9_keep (V0 : Valuation τ sig (Elt F)) (r : Ref sig .tc) (h : r ∉ sC1_W) :
    val9 V0 (no_index (Proc.devRef .tc r)) = val8 V0 (Proc.devRef .tc r) :=
  after_of_writes_sub sC1 _ sC1_writes h
theorem val9_main_v144 (V0 : Valuation τ sig (Elt F)) :
    val9 V0 (no_index (Proc.devRef .tc main_v144)) = relu128 (batchNorm (val8 V0 (Proc.devRef .tc main_v120)) (shapeCast S128 (extractStridedSlice S1x128 ![1, 0] (val8 V0 (Proc.devRef .tc main_arg9)) slices_S4x128_S1x128_1_0) shapeCasts_S1x128_S128) (shapeCast S128 (extractStridedSlice S1x128 ![1, 0] (val8 V0 (Proc.devRef .tc main_arg10)) slices_S4x128_S1x128_1_0) shapeCasts_S1x128_S128)) :=
  sC1_main_v144 (val8 V0)

/-- The contents after the first 10 stages. -/
def val10 (V0 : Valuation τ sig (Elt F)) : Valuation τ sig (Elt F) := after sD1 (val9 V0)
theorem val10_keep (V0 : Valuation τ sig (Elt F)) (r : Ref sig .tc) (h : r ∉ sD1_W) :
    val10 V0 (no_index (Proc.devRef .tc r)) = val9 V0 (Proc.devRef .tc r) :=
  after_of_writes_sub sD1 _ sD1_writes h
theorem val10_main_v152 (V0 : Valuation τ sig (Elt F)) :
    val10 V0 (no_index (Proc.devRef .tc main_v152)) = linear2 (val9 V0 (Proc.devRef .tc main_v144)) (shapeCast S128x64 (extractStridedSlice S1x128x64 ![1, 0, 0] (val9 V0 (Proc.devRef .tc main_arg11)) slices_S4x128x64_S1x128x64_1_0_0) shapeCasts_S1x128x64_S128x64) (shapeCast S64 (extractStridedSlice S1x64 ![1, 0] (val9 V0 (Proc.devRef .tc main_arg12)) slices_S4x64_S1x64_1_0) shapeCasts_S1x64_S64) :=
  sD1_main_v152 (val9 V0)

/-- The contents after the first 11 stages. -/
def val11 (V0 : Valuation τ sig (Elt F)) : Valuation τ sig (Elt F) := after sE1 (val10 V0)
theorem val11_keep (V0 : Valuation τ sig (Elt F)) (r : Ref sig .tc) (h : r ∉ sE1_W) :
    val11 V0 (no_index (Proc.devRef .tc r)) = val10 V0 (Proc.devRef .tc r) :=
  after_of_writes_sub sE1 _ sE1_writes h
theorem val11_main_v175 (V0 : Valuation τ sig (Elt F)) :
    val11 V0 (no_index (Proc.devRef .tc main_v175)) = relu64 (layerNorm (val10 V0 (Proc.devRef .tc main_v152)) (shapeCast S64 (extractStridedSlice S1x64 ![1, 0] (val10 V0 (Proc.devRef .tc main_arg14)) slices_S4x64_S1x64_1_0) shapeCasts_S1x64_S64) (shapeCast S64 (extractStridedSlice S1x64 ![1, 0] (val10 V0 (Proc.devRef .tc main_arg15)) slices_S4x64_S1x64_1_0) shapeCasts_S1x64_S64)) :=
  sE1_main_v175 (val10 V0)

/-- The contents after the first 12 stages. -/
def val12 (V0 : Valuation τ sig (Elt F)) : Valuation τ sig (Elt F) := after sA2 (val11 V0)
theorem val12_keep (V0 : Valuation τ sig (Elt F)) (r : Ref sig .tc) (h : r ∉ sA2_W) :
    val12 V0 (no_index (Proc.devRef .tc r)) = val11 V0 (Proc.devRef .tc r) :=
  after_of_writes_sub sA2 _ sA2_writes h
theorem val12_main_v193 (V0 : Valuation τ sig (Elt F)) :
    val12 V0 (no_index (Proc.devRef .tc main_v193)) = aggregate (val11 V0 (Proc.devRef .tc main_v175)) (val11 V0 (Proc.devRef .tc main_v9)) (val11 V0 (Proc.devRef .tc main_v11)) (val11 V0 (Proc.devRef .tc main_v13)) (shapeCast S_ (extractStridedSlice S1 ![2] (val11 V0 (Proc.devRef .tc main_arg13)) slices_S4_S1_2) shapeCasts_S1_S_) :=
  sA2_main_v193 (val11 V0)

/-- The contents after the first 13 stages. -/
def val13 (V0 : Valuation τ sig (Elt F)) : Valuation τ sig (Elt F) := after sB2 (val12 V0)
theorem val13_keep (V0 : Valuation τ sig (Elt F)) (r : Ref sig .tc) (h : r ∉ sB2_W) :
    val13 V0 (no_index (Proc.devRef .tc r)) = val12 V0 (Proc.devRef .tc r) :=
  after_of_writes_sub sB2 _ sB2_writes h
theorem val13_main_v201 (V0 : Valuation τ sig (Elt F)) :
    val13 V0 (no_index (Proc.devRef .tc main_v201)) = linear1 (val12 V0 (Proc.devRef .tc main_v193)) (shapeCast S64x128 (extractStridedSlice S1x64x128 ![2, 0, 0] (val12 V0 (Proc.devRef .tc main_arg7)) slices_S4x64x128_S1x64x128_2_0_0) shapeCasts_S1x64x128_S64x128) (shapeCast S128 (extractStridedSlice S1x128 ![2, 0] (val12 V0 (Proc.devRef .tc main_arg8)) slices_S4x128_S1x128_2_0) shapeCasts_S1x128_S128) :=
  sB2_main_v201 (val12 V0)

/-- The contents after the first 14 stages. -/
def val14 (V0 : Valuation τ sig (Elt F)) : Valuation τ sig (Elt F) := after sC2 (val13 V0)
theorem val14_keep (V0 : Valuation τ sig (Elt F)) (r : Ref sig .tc) (h : r ∉ sC2_W) :
    val14 V0 (no_index (Proc.devRef .tc r)) = val13 V0 (Proc.devRef .tc r) :=
  after_of_writes_sub sC2 _ sC2_writes h
theorem val14_main_v225 (V0 : Valuation τ sig (Elt F)) :
    val14 V0 (no_index (Proc.devRef .tc main_v225)) = relu128 (batchNorm (val13 V0 (Proc.devRef .tc main_v201)) (shapeCast S128 (extractStridedSlice S1x128 ![2, 0] (val13 V0 (Proc.devRef .tc main_arg9)) slices_S4x128_S1x128_2_0) shapeCasts_S1x128_S128) (shapeCast S128 (extractStridedSlice S1x128 ![2, 0] (val13 V0 (Proc.devRef .tc main_arg10)) slices_S4x128_S1x128_2_0) shapeCasts_S1x128_S128)) :=
  sC2_main_v225 (val13 V0)

/-- The contents after the first 15 stages. -/
def val15 (V0 : Valuation τ sig (Elt F)) : Valuation τ sig (Elt F) := after sD2 (val14 V0)
theorem val15_keep (V0 : Valuation τ sig (Elt F)) (r : Ref sig .tc) (h : r ∉ sD2_W) :
    val15 V0 (no_index (Proc.devRef .tc r)) = val14 V0 (Proc.devRef .tc r) :=
  after_of_writes_sub sD2 _ sD2_writes h
theorem val15_main_v233 (V0 : Valuation τ sig (Elt F)) :
    val15 V0 (no_index (Proc.devRef .tc main_v233)) = linear2 (val14 V0 (Proc.devRef .tc main_v225)) (shapeCast S128x64 (extractStridedSlice S1x128x64 ![2, 0, 0] (val14 V0 (Proc.devRef .tc main_arg11)) slices_S4x128x64_S1x128x64_2_0_0) shapeCasts_S1x128x64_S128x64) (shapeCast S64 (extractStridedSlice S1x64 ![2, 0] (val14 V0 (Proc.devRef .tc main_arg12)) slices_S4x64_S1x64_2_0) shapeCasts_S1x64_S64) :=
  sD2_main_v233 (val14 V0)

/-- The contents after the first 16 stages. -/
def val16 (V0 : Valuation τ sig (Elt F)) : Valuation τ sig (Elt F) := after sE2 (val15 V0)
theorem val16_keep (V0 : Valuation τ sig (Elt F)) (r : Ref sig .tc) (h : r ∉ sE2_W) :
    val16 V0 (no_index (Proc.devRef .tc r)) = val15 V0 (Proc.devRef .tc r) :=
  after_of_writes_sub sE2 _ sE2_writes h
theorem val16_main_v256 (V0 : Valuation τ sig (Elt F)) :
    val16 V0 (no_index (Proc.devRef .tc main_v256)) = relu64 (layerNorm (val15 V0 (Proc.devRef .tc main_v233)) (shapeCast S64 (extractStridedSlice S1x64 ![2, 0] (val15 V0 (Proc.devRef .tc main_arg14)) slices_S4x64_S1x64_2_0) shapeCasts_S1x64_S64) (shapeCast S64 (extractStridedSlice S1x64 ![2, 0] (val15 V0 (Proc.devRef .tc main_arg15)) slices_S4x64_S1x64_2_0) shapeCasts_S1x64_S64)) :=
  sE2_main_v256 (val15 V0)

/-- The contents after the first 17 stages. -/
def val17 (V0 : Valuation τ sig (Elt F)) : Valuation τ sig (Elt F) := after sA3 (val16 V0)
theorem val17_keep (V0 : Valuation τ sig (Elt F)) (r : Ref sig .tc) (h : r ∉ sA3_W) :
    val17 V0 (no_index (Proc.devRef .tc r)) = val16 V0 (Proc.devRef .tc r) :=
  after_of_writes_sub sA3 _ sA3_writes h
theorem val17_main_v274 (V0 : Valuation τ sig (Elt F)) :
    val17 V0 (no_index (Proc.devRef .tc main_v274)) = aggregate (val16 V0 (Proc.devRef .tc main_v256)) (val16 V0 (Proc.devRef .tc main_v9)) (val16 V0 (Proc.devRef .tc main_v11)) (val16 V0 (Proc.devRef .tc main_v13)) (shapeCast S_ (extractStridedSlice S1 ![3] (val16 V0 (Proc.devRef .tc main_arg13)) slices_S4_S1_3) shapeCasts_S1_S_) :=
  sA3_main_v274 (val16 V0)

/-- The contents after the first 18 stages. -/
def val18 (V0 : Valuation τ sig (Elt F)) : Valuation τ sig (Elt F) := after sB3 (val17 V0)
theorem val18_keep (V0 : Valuation τ sig (Elt F)) (r : Ref sig .tc) (h : r ∉ sB3_W) :
    val18 V0 (no_index (Proc.devRef .tc r)) = val17 V0 (Proc.devRef .tc r) :=
  after_of_writes_sub sB3 _ sB3_writes h
theorem val18_main_v282 (V0 : Valuation τ sig (Elt F)) :
    val18 V0 (no_index (Proc.devRef .tc main_v282)) = linear1 (val17 V0 (Proc.devRef .tc main_v274)) (shapeCast S64x128 (extractStridedSlice S1x64x128 ![3, 0, 0] (val17 V0 (Proc.devRef .tc main_arg7)) slices_S4x64x128_S1x64x128_3_0_0) shapeCasts_S1x64x128_S64x128) (shapeCast S128 (extractStridedSlice S1x128 ![3, 0] (val17 V0 (Proc.devRef .tc main_arg8)) slices_S4x128_S1x128_3_0) shapeCasts_S1x128_S128) :=
  sB3_main_v282 (val17 V0)

/-- The contents after the first 19 stages. -/
def val19 (V0 : Valuation τ sig (Elt F)) : Valuation τ sig (Elt F) := after sC3 (val18 V0)
theorem val19_keep (V0 : Valuation τ sig (Elt F)) (r : Ref sig .tc) (h : r ∉ sC3_W) :
    val19 V0 (no_index (Proc.devRef .tc r)) = val18 V0 (Proc.devRef .tc r) :=
  after_of_writes_sub sC3 _ sC3_writes h
theorem val19_main_v306 (V0 : Valuation τ sig (Elt F)) :
    val19 V0 (no_index (Proc.devRef .tc main_v306)) = relu128 (batchNorm (val18 V0 (Proc.devRef .tc main_v282)) (shapeCast S128 (extractStridedSlice S1x128 ![3, 0] (val18 V0 (Proc.devRef .tc main_arg9)) slices_S4x128_S1x128_3_0) shapeCasts_S1x128_S128) (shapeCast S128 (extractStridedSlice S1x128 ![3, 0] (val18 V0 (Proc.devRef .tc main_arg10)) slices_S4x128_S1x128_3_0) shapeCasts_S1x128_S128)) :=
  sC3_main_v306 (val18 V0)

/-- The contents after the first 20 stages. -/
def val20 (V0 : Valuation τ sig (Elt F)) : Valuation τ sig (Elt F) := after sD3 (val19 V0)
theorem val20_keep (V0 : Valuation τ sig (Elt F)) (r : Ref sig .tc) (h : r ∉ sD3_W) :
    val20 V0 (no_index (Proc.devRef .tc r)) = val19 V0 (Proc.devRef .tc r) :=
  after_of_writes_sub sD3 _ sD3_writes h
theorem val20_main_v314 (V0 : Valuation τ sig (Elt F)) :
    val20 V0 (no_index (Proc.devRef .tc main_v314)) = linear2 (val19 V0 (Proc.devRef .tc main_v306)) (shapeCast S128x64 (extractStridedSlice S1x128x64 ![3, 0, 0] (val19 V0 (Proc.devRef .tc main_arg11)) slices_S4x128x64_S1x128x64_3_0_0) shapeCasts_S1x128x64_S128x64) (shapeCast S64 (extractStridedSlice S1x64 ![3, 0] (val19 V0 (Proc.devRef .tc main_arg12)) slices_S4x64_S1x64_3_0) shapeCasts_S1x64_S64) :=
  sD3_main_v314 (val19 V0)

/-- The contents after the first 21 stages. -/
def val21 (V0 : Valuation τ sig (Elt F)) : Valuation τ sig (Elt F) := after sE3 (val20 V0)
theorem val21_keep (V0 : Valuation τ sig (Elt F)) (r : Ref sig .tc) (h : r ∉ sE3_W) :
    val21 V0 (no_index (Proc.devRef .tc r)) = val20 V0 (Proc.devRef .tc r) :=
  after_of_writes_sub sE3 _ sE3_writes h
theorem val21_main_v336 (V0 : Valuation τ sig (Elt F)) :
    val21 V0 (no_index (Proc.devRef .tc main_v336)) = layerNorm (val20 V0 (Proc.devRef .tc main_v314)) (shapeCast S64 (extractStridedSlice S1x64 ![3, 0] (val20 V0 (Proc.devRef .tc main_arg14)) slices_S4x64_S1x64_3_0) shapeCasts_S1x64_S64) (shapeCast S64 (extractStridedSlice S1x64 ![3, 0] (val20 V0 (Proc.devRef .tc main_arg15)) slices_S4x64_S1x64_3_0) shapeCasts_S1x64_S64) :=
  sE3_main_v336 (val20 V0)

/-- The fold over all the operations is the contents after the last stage. -/
theorem after_ops_val (V0 : Valuation τ sig (Elt F)) : after ops V0 = val21 V0 := by
  rw [ops_stages]
  simp only [after_app]
  rfl

set_option maxRecDepth 8192 in
set_option maxHeartbeats 2000000 in
/-- The result is the layered function of the argument arrays. -/
theorem res_eq (m : (ℓ : Loc nD τ sig) → Buf (Elt F) ℓ) (c : Dev nD) :
    res m c = forward (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15)) := by
  unfold res
  rw [after_ops_val]
  simp (disch := decide) only [val1_keep, val1_main_v4, val1_main_v9, val1_main_v11, val1_main_v13, val2_keep, val2_main_v31, val3_keep, val3_main_v39, val4_keep, val4_main_v63, val5_keep, val5_main_v71, val6_keep, val6_main_v94, val7_keep, val7_main_v112, val8_keep, val8_main_v120, val9_keep, val9_main_v144, val10_keep, val10_main_v152, val11_keep, val11_main_v175, val12_keep, val12_main_v193, val13_keep, val13_main_v201, val14_keep, val14_main_v225, val15_keep, val15_main_v233, val16_keep, val16_main_v256, val17_keep, val17_main_v274, val18_keep, val18_main_v282, val19_keep, val19_main_v306, val20_keep, val20_main_v314, val21_keep, val21_main_v336, val0]
  rfl

/-- The run with the result in its layered form. -/
theorem run_forward (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v336) = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1.trans (res_eq m c), (h c).2⟩) (run m ρ)

end Cert.ReferenceIdeal.RefRun

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Math.LinRelu.lean ====
/-
  The two dense embeddings and the message step, read at an entry on the extended reals.

  A dense layer's block is max (x · w + b, 0): at row p and column q it is the maximum with zero of the sum over the
  contracted coordinate k of x (p, k) · w (k, q), plus the bias at q (the change of float format before the product is
  the identity here). The message block is max (h + e, 0) entry by entry.
-/
import proofs.«178590_j59433757442359_2_alg».proof.Proof.Gen.KernelIdeal.Skeleton
import proofs.«178590_j59433757442359_2_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen

/-- A bias row [b] cast to [1, b] and spread over a rows reads, at (p, q), the bias at q. -/
theorem biasRow_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The node embedding's block at (p, q). -/
theorem k0_pay1_apply (x : Vec Ideal S8000x32 .f32) (w : Vec Ideal S32x64 .f32) (b : Vec Ideal S64 .f32)
    (p : Fin 8000) (q : Fin 64) :
    k0_pay1 (F := Ideal) x w b (ix2 p q) = max (∑ k : Fin 32, x (ix2 p k) * w (ix2 k q) + b (ix1 q)) 0 := by
  unfold k0_pay1
  refine (congrArg₂ max (congrArg₂ (· + ·) ?_ ?_) Ideal.ofBits_zero_f32 : _)
  · exact Cert.Lib.PlainDot.matmul_zero_apply (M := 8000) (K := 32) (N := 64) none _ _ p q
  · exact biasRow_apply b _ _ p q

/-- The edge embedding's block at (p, q). -/
theorem k1_pay1_apply (x : Vec Ideal S8000x16 .f32) (w : Vec Ideal S16x64 .f32) (b : Vec Ideal S64 .f32)
    (p : Fin 8000) (q : Fin 64) :
    k1_pay1 (F := Ideal) x w b (ix2 p q) = max (∑ k : Fin 16, x (ix2 p k) * w (ix2 k q) + b (ix1 q)) 0 := by
  unfold k1_pay1
  refine (congrArg₂ max (congrArg₂ (· + ·) ?_ ?_) Ideal.ofBits_zero_f32 : _)
  · exact Cert.Lib.PlainDot.matmul_zero_apply (M := 8000) (K := 16) (N := 64) none _ _ p q
  · exact biasRow_apply b _ _ p q

/-- The message block at (p, q). -/
theorem k2_pay1_apply (h e : Vec Ideal S8000x64 .f32) (p : Fin 8000) (q : Fin 64) :
    k2_pay1 (F := Ideal) h e (ix2 p q) = max (h (ix2 p q) + e (ix2 p q)) 0 := by
  unfold k2_pay1
  rw [shapeCast_self, shapeCast_self]
  exact congrArg (max _) Ideal.ofBits_zero_f32

theorem k5_pay1_apply (h e : Vec Ideal S8000x64 .f32) (p : Fin 8000) (q : Fin 64) :
    k5_pay1 (F := Ideal) h e (ix2 p q) = max (h (ix2 p q) + e (ix2 p q)) 0 := by
  unfold k5_pay1
  rw [shapeCast_self, shapeCast_self]
  exact congrArg (max _) Ideal.ofBits_zero_f32

theorem k8_pay1_apply (h e : Vec Ideal S8000x64 .f32) (p : Fin 8000) (q : Fin 64) :
    k8_pay1 (F := Ideal) h e (ix2 p q) = max (h (ix2 p q) + e (ix2 p q)) 0 := by
  unfold k8_pay1
  rw [shapeCast_self, shapeCast_self]
  exact congrArg (max _) Ideal.ofBits_zero_f32

theorem k11_pay1_apply (h e : Vec Ideal S8000x64 .f32) (p : Fin 8000) (q : Fin 64) :
    k11_pay1 (F := Ideal) h e (ix2 p q) = max (h (ix2 p q) + e (ix2 p q)) 0 := by
  unfold k11_pay1
  rw [shapeCast_self, shapeCast_self]
  exact congrArg (max _) Ideal.ofBits_zero_f32

end Cert.Bridge

end
-- ==== Proof.KI.Val2.lean ====
import proofs.«178590_j59433757442359_2_alg».proof.Proof.KI.Reg2
import proofs.«178590_j59433757442359_2_alg».proof.Proof.Math.LinRelu
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 2, from blocks to the array: after the last grid point the output array is, entry by entry,
    max (h + e, 0) of the two arrays the region was entered with. -/

theorem zero2_2 : (![0, 0] : Fin 2 → Nat) = fun _ => 0 := funext fun a => by fin_cases a <;> rfl

/-- The operand arrays as the region finds them, and the output array after its last point, as functions on
    their index type. -/
abbrev ain2_0 (c : Dev nD) : S1280000x64.Idx → EReal := V c (Pipeline.arrRef spec2 0)
abbrev ain2_1 (c : Dev nD) : S1280000x64.Idx → EReal := V c (Pipeline.arrRef spec2 1)
abbrev aout2 (c : Dev nD) : S1280000x64.Idx → EReal := (dat2 V c).arrAt 2 cfg2.N

/-- The array the region leaves: entry by entry the maximum with zero of the sum of its two operands. -/
def msgArr2 (a0 a1 : S1280000x64.Idx → EReal) : S1280000x64.Idx → EReal := fun i => max (a0 i + a1 i) 0

theorem msgArr2_apply (a0 a1 : S1280000x64.Idx → EReal) (i : S1280000x64.Idx) : msgArr2 a0 a1 i = max (a0 i + a1 i) 0 := rfl

/-- One entry of a block: if the two loaded blocks hold, at `j`, the operands' entries at `i`, the stored block
    holds the array's entry at `i`. -/
theorem msg_entry2 (x0 x1 : Vec Ideal S8000x64 .f32) (a0 a1 : S1280000x64.Idx → EReal) (j : S8000x64.Idx) (i : S1280000x64.Idx)
    (h0 : x0 j = a0 i) (h1 : x1 j = a1 i) : k2_pay1 (F := Ideal) x0 x1 j = msgArr2 a0 a1 i := by
  obtain ⟨p, q, rfl⟩ : ∃ (p : Fin 8000) (q : Fin 64), j = ix2 p q := ⟨j 0, j 1, eq_ix2 j⟩
  rw [Cert.Bridge.k2_pay1_apply, h0, h1]
  rfl

/-- The index maps over the grid: the three windows move together, block `t` of the rows at point `t`. -/
theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point `t` writes back is block `t` of that array. -/
theorem flushed2_eq (c : Dev nD) (t : Fin cfg2.N) :
    (dat2 V c).flushed 2 t = ((cfg2.win 2).blk t).view.read (Elt Ideal) (msgArr2 (V c (Pipeline.arrRef spec2 0)) (V c (Pipeline.arrRef spec2 1))) := by
  show (cfg2.win 2).cut (grid2.coords t) ((dat2 V c).after 2 t) = _
  rw [after2_2]
  unfold out2_2
  rw [View.canon_unit_zero zero2_2]
  simp only [View.ld_unit_zero (S := S8000x64) zero2_2]
  obtain ⟨e0, e1, e2, e3, e4, e5⟩ := idx_facts2 t
  funext j
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 64 + 1 * (j 1).val = win2_2.index t (1 : Fin 2) * 64 + 1 * (j 1).val; omega
  exact msg_entry2 (iblk2 V c 0 t) (iblk2 V c 1 t) (V c (Pipeline.arrRef spec2 0)) (V c (Pipeline.arrRef spec2 1)) j (((cfg2.win 2).blk t).view.emb j)
    (show V c (Pipeline.arrRef spec2 0) (((cfg2.win 0).blk t).view.emb j) = _ by rw [h0])
    (show V c (Pipeline.arrRef spec2 1) (((cfg2.win 1).blk t).view.emb j) = _ by rw [h1])

/-- An index of the array is in point `t`'s block iff each coordinate is in the block's range on its axis. -/
theorem mem_blk2 (t : Fin cfg2.N) (i : S1280000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v13).slice (win2_2.rect t)).set ↔ _
  rw [View.set_slice_whole, Rect.mem_set_unit]
  exact Iff.rfl

/-- Every row of the array is in some point's block: row `r` in block `r / 8000`. -/
theorem cover2 (i : S1280000x64.Idx) : ∃ t : Fin cfg2.N, (cfg2.win 2).flush t = true ∧ i ∈ ((cfg2.win 2).blk t).view.set := by
  have hi0 : (i 0).val < 1280000 := (i 0).isLt
  have hi1 : (i 1).val < 64 := (i 1).isLt
  have hN : cfg2.N = 160 := N_2
  refine ⟨⟨(i 0).val / 8000, by rw [hN]; omega⟩, flush2_2 _, ?_⟩
  rw [mem_blk2]
  obtain ⟨-, -, -, -, e4, e5⟩ := idx_facts2 ⟨(i 0).val / 8000, by rw [hN]; omega⟩
  intro a
  match a with
  | ⟨0, _⟩ => show win2_2.index _ (0 : Fin 2) * 8000 ≤ (i 0).val ∧ (i 0).val < win2_2.index _ (0 : Fin 2) * 8000 + 8000; rw [e4]; show (i 0).val / 8000 * 8000 ≤ (i 0).val ∧ (i 0).val < (i 0).val / 8000 * 8000 + 8000; omega
  | ⟨1, _⟩ => show win2_2.index _ (1 : Fin 2) * 64 ≤ (i 1).val ∧ (i 1).val < win2_2.index _ (1 : Fin 2) * 64 + 64; rw [e5]; omega

/-- THE ARRAY after the region: entry by entry max (h + e, 0) of the arrays it was entered with. -/
theorem arr2 (c : Dev nD) : aout2 V c = msgArr2 (ain2_0 V c) (ain2_1 V c) :=
  (dat2 V c).arrAt_eq_of_cover 2 _ (fun t _ => flushed2_eq V c t) (cover2)

/-- The same, read at an entry. -/
theorem arr2_apply (c : Dev nD) (e : Fin 1280000) (q : Fin 64) :
    aout2 V c (ix2 e q) = max (ain2_0 V c (ix2 e q) + ain2_1 V c (ix2 e q)) 0 := by
  rw [arr2]; rfl

end Cert.KernelIdeal.Reg
-- ==== Proof.KI.Pieces3.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Reg3
import Idealize.ShloMosaic.Lib.Pipeline.Value
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: what its found stores read as, in the payloads' terms -/

theorem hz2 : (![0, 0] : Fin 2 → Nat) = fun _ => 0 := funext fun a => by fin_cases a <;> rfl
theorem hz1 : (![0] : Fin 1 → Nat) = fun _ => 0 := funext fun a => by fin_cases a; rfl

/-- A load of a whole buffer after stores whose LAST is of the whole buffer reads that store's payload. -/
theorem readCov_cons_unit_zero {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem out3_A_3_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    out3_A_3 c i arg1 harg1 arg2 harg2 arg3 harg3 arg4 harg4 arg5 harg5 arg6 harg6 arg7 harg7 arg8 harg8 hc x1 x2 x3 = k3_pay3 x1 x2 x3 := by
  unfold out3_A_3
  rw [View.read_writes_eq_canon _ _ _ (cover3_A_3 c i arg1 harg1 arg2 harg2 arg3 harg3 arg4 harg4 arg5 harg5 arg6 harg6 arg7 harg7 arg8 harg8 hc x1 x2 x3)]
  unfold kernelRun3_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout3_A_0_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    sout3_A_0 c i arg1 harg1 arg2 harg2 arg3 harg3 arg4 harg4 arg5 harg5 arg6 harg6 arg7 harg7 arg8 harg8 hc x1 x2 x3 = k3_pay4 x1 x2 x3 k3_pay1 := by
  unfold sout3_A_0
  rw [View.read_writes_eq_canon _ _ _ (scover3_A_0 c i arg1 harg1 arg2 harg2 arg3 harg3 arg4 harg4 arg5 harg5 arg6 harg6 arg7 harg7 arg8 harg8 hc x1 x2 x3)]
  unfold kernelRun3_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout3_A_1_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    sout3_A_1 c i arg1 harg1 arg2 harg2 arg3 harg3 arg4 harg4 arg5 harg5 arg6 harg6 arg7 harg7 arg8 harg8 hc x1 x2 x3 = k3_pay5 x1 x2 x3 k3_pay2 := by
  unfold sout3_A_1
  rw [View.read_writes_eq_canon _ _ _ (scover3_A_1 c i arg1 harg1 arg2 harg2 arg3 harg3 arg4 harg4 arg5 harg5 arg6 harg6 arg7 harg7 arg8 harg8 hc x1 x2 x3)]
  unfold kernelRun3_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out3_A_4_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    out3_A_4 c i arg1 harg1 arg2 harg2 arg3 harg3 arg4 harg4 arg5 harg5 arg6 harg6 arg7 harg7 arg8 harg8 hc x1 x2 x3 = k3_pay4 x1 x2 x3 k3_pay1 := by
  unfold out3_A_4
  rw [View.read_writes_eq_canon _ _ _ (cover3_A_4 c i arg1 harg1 arg2 harg2 arg3 harg3 arg4 harg4 arg5 harg5 arg6 harg6 arg7 harg7 arg8 harg8 hc x1 x2 x3)]
  unfold kernelRun3_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out3_A_5_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond3 i) (x1 : Vec F S8000x64 .f32) (x2 : Vec F S64x128 .f32) (x3 : Vec F S128 .f32) :
    out3_A_5 c i arg1 harg1 arg2 harg2 arg3 harg3 arg4 harg4 arg5 harg5 arg6 harg6 arg7 harg7 arg8 harg8 hc x1 x2 x3 = k3_pay5 x1 x2 x3 k3_pay2 := by
  unfold out3_A_5
  rw [View.read_writes_eq_canon _ _ _ (cover3_A_5 c i arg1 harg1 arg2 harg2 arg3 harg3 arg4 harg4 arg5 harg5 arg6 harg6 arg7 harg7 arg8 harg8 hc x1 x2 x3)]
  unfold kernelRun3_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out3_B_3_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    out3_B_3 c i arg1 harg1 arg2 harg2 arg3 harg3 arg4 harg4 arg5 harg5 arg6 harg6 arg7 harg7 arg8 harg8 hc x1 x2 x3 xs7 xs8 = k3_pay3 x1 x2 x3 := by
  unfold out3_B_3
  rw [View.read_writes_eq_canon _ _ _ (cover3_B_3 c i arg1 harg1 arg2 harg2 arg3 harg3 arg4 harg4 arg5 harg5 arg6 harg6 arg7 harg7 arg8 harg8 hc x1 x2 x3 xs7 xs8)]
  unfold kernelRun3_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout3_B_0_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    sout3_B_0 c i arg1 harg1 arg2 harg2 arg3 harg3 arg4 harg4 arg5 harg5 arg6 harg6 arg7 harg7 arg8 harg8 hc x1 x2 x3 xs7 xs8 = k3_pay4 x1 x2 x3 xs7 := by
  unfold sout3_B_0
  rw [View.read_writes_eq_canon _ _ _ (scover3_B_0 c i arg1 harg1 arg2 harg2 arg3 harg3 arg4 harg4 arg5 harg5 arg6 harg6 arg7 harg7 arg8 harg8 hc x1 x2 x3 xs7 xs8)]
  unfold kernelRun3_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout3_B_1_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    sout3_B_1 c i arg1 harg1 arg2 harg2 arg3 harg3 arg4 harg4 arg5 harg5 arg6 harg6 arg7 harg7 arg8 harg8 hc x1 x2 x3 xs7 xs8 = k3_pay5 x1 x2 x3 xs8 := by
  unfold sout3_B_1
  rw [View.read_writes_eq_canon _ _ _ (scover3_B_1 c i arg1 harg1 arg2 harg2 arg3 harg3 arg4 harg4 arg5 harg5 arg6 harg6 arg7 harg7 arg8 harg8 hc x1 x2 x3 xs7 xs8)]
  unfold kernelRun3_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out3_B_4_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    out3_B_4 c i arg1 harg1 arg2 harg2 arg3 harg3 arg4 harg4 arg5 harg5 arg6 harg6 arg7 harg7 arg8 harg8 hc x1 x2 x3 xs7 xs8 = k3_pay4 x1 x2 x3 xs7 := by
  unfold out3_B_4
  rw [View.read_writes_eq_canon _ _ _ (cover3_B_4 c i arg1 harg1 arg2 harg2 arg3 harg3 arg4 harg4 arg5 harg5 arg6 harg6 arg7 harg7 arg8 harg8 hc x1 x2 x3 xs7 xs8)]
  unfold kernelRun3_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out3_B_5_eq (c : Dev nD) (i : grid3.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond3 i) (x1 : Vec F S8000x64 .f32) (x2 : Vec F S64x128 .f32) (x3 : Vec F S128 .f32) (xs7 : Vec F S1x128 .f32) (xs8 : Vec F S1x128 .f32) :
    out3_B_5 c i arg1 harg1 arg2 harg2 arg3 harg3 arg4 harg4 arg5 harg5 arg6 harg6 arg7 harg7 arg8 harg8 hc x1 x2 x3 xs7 xs8 = k3_pay5 x1 x2 x3 xs8 := by
  unfold out3_B_5
  rw [View.read_writes_eq_canon _ _ _ (cover3_B_5 c i arg1 harg1 arg2 harg2 arg3 harg3 arg4 harg4 arg5 harg5 arg6 harg6 arg7 harg7 arg8 harg8 hc x1 x2 x3 xs7 xs8)]
  unfold kernelRun3_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

end Cert.KernelIdeal.Reg

end
-- ==== Proof.KI.Rows3.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Pieces3
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the two kept rows after each block, as a plain recursion over the payloads -/

section
variable (V : (c : Dev nD) → (b : Ref sig .tc) → Buf (Elt F) ((c : Thread nD τ).loc b))

/-- After block `n`: (the running column sums of Z, the running column sums of Z·Z), started from the zero rows. -/
def rows3 (c : Dev nD) : (n : ℕ) → n < cfg3.N → Vec F S1x128 .f32 × Vec F S1x128 .f32
  | 0, hn => (k3_pay4 (iblk3 V c 0 ⟨0, hn⟩) (iblk3 V c 1 ⟨0, hn⟩) (iblk3 V c 2 ⟨0, hn⟩) k3_pay1, k3_pay5 (iblk3 V c 0 ⟨0, hn⟩) (iblk3 V c 1 ⟨0, hn⟩) (iblk3 V c 2 ⟨0, hn⟩) k3_pay2)
  | n + 1, hn => (k3_pay4 (iblk3 V c 0 ⟨n + 1, hn⟩) (iblk3 V c 1 ⟨n + 1, hn⟩) (iblk3 V c 2 ⟨n + 1, hn⟩) (rows3 c n (Nat.lt_of_succ_lt hn)).1,
      k3_pay5 (iblk3 V c 0 ⟨n + 1, hn⟩) (iblk3 V c 1 ⟨n + 1, hn⟩) (iblk3 V c 2 ⟨n + 1, hn⟩) (rows3 c n (Nat.lt_of_succ_lt hn)).2)

/-- What the region's proof data hold after block `n`: the block of Z, the two rows copied out, the two rows kept. -/
theorem outsAt3_eq (c : Dev nD) : ∀ (n : ℕ) (hn : n < cfg3.N),
    outsAt3 V c n hn = (k3_pay3 (iblk3 V c 0 ⟨n, hn⟩) (iblk3 V c 1 ⟨n, hn⟩) (iblk3 V c 2 ⟨n, hn⟩), (rows3 V c n hn).1, (rows3 V c n hn).2, (rows3 V c n hn).1, (rows3 V c n hn).2)
  | 0, hn => by
    simp only [outsAt3, rows3, out3_A_3_eq, out3_A_4_eq, out3_A_5_eq, sout3_A_0_eq, sout3_A_1_eq]
  | n + 1, hn => by
    simp only [outsAt3, rows3, out3_B_3_eq, out3_B_4_eq, out3_B_5_eq, sout3_B_0_eq, sout3_B_1_eq,
      outsAt3_eq c n (Nat.lt_of_succ_lt hn)]

theorem after3_3_eq (c : Dev nD) (t : Fin cfg3.N) : (dat3 V c).after 3 t = k3_pay3 (iblk3 V c 0 t) (iblk3 V c 1 t) (iblk3 V c 2 t) := by
  rw [after3_3, outsAt3_eq]
theorem after3_4_eq (c : Dev nD) (t : Fin cfg3.N) : (dat3 V c).after 4 t = (rows3 V c t.val t.isLt).1 := by
  rw [after3_4, outsAt3_eq]
theorem after3_5_eq (c : Dev nD) (t : Fin cfg3.N) : (dat3 V c).after 5 t = (rows3 V c t.val t.isLt).2 := by
  rw [after3_5, outsAt3_eq]

end

end Cert.KernelIdeal.Reg

end
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.Math.Gin1.lean ====
/-
  The first dense layer of the node update with its running column sums, read at an entry on the extended reals.

  The block Z = zin · W + b at row p and column q is the sum over the contracted coordinate k of zin (p, k) · W (k, q)
  plus the bias at q. The running column sum after a block is what it was before plus the sum over the block's rows of
  Z at that column; the running sum of squares likewise with Z · Z. The rows stored at the first grid point are zero.
  The four layers' blocks are the same terms.
-/
import proofs.«178590_j59433757442359_2_alg».proof.Proof.Gen.KernelIdeal.Skeleton
import proofs.«178590_j59433757442359_2_alg».proof.Proof.LibPlainDot
import proofs.«178590_j59433757442359_2_alg».proof.Proof.LibColumnSum
import proofs.«178590_j59433757442359_2_alg».proof.Proof.Math.LinRelu
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen

open Idealize.ShloMosaic.ValueKeepdims

/-- The block Z at (p, q). -/
theorem k3_pay3_apply (zin : Vec Ideal S8000x64 .f32) (w : Vec Ideal S64x128 .f32) (b : Vec Ideal S128 .f32)
    (p : Fin 8000) (q : Fin 128) :
    k3_pay3 (F := Ideal) zin w b (ix2 p q) = ∑ k : Fin 64, zin (ix2 p k) * w (ix2 k q) + b (ix1 q) := by
  unfold k3_pay3
  rw [shapeCast_self, shapeCast_self, shapeCast_self]
  refine congrArg₂ (fun a c : EReal => a + c) ?_ ?_
  · exact Cert.Lib.PlainDot.matmul_zero_apply (M := 8000) (K := 64) (N := 128) none _ _ p q
  · exact biasRow_apply b _ _ p q

/-- A column sum of an [8000, 128] block kept as a row [1, 128], at (u, q). -/
theorem colSumRow_apply (src : FVec Ideal S8000x128 .f32) (hc : S128.ShapeCasts S1x128) (u : Fin 1) (q : Fin 128) :
    shapeCast S1x128 (multiReduction .add [0] S128 src 0x00000000#32 reduces_S8000x128_S128 (.inl rfl) rfl) hc (ix2 u q)
      = ∑ p : Fin 8000, src (ix2 p q) :=
  (shapeCast_a_1a_apply _ hc u q).trans (colSum_at (a := 8000) (b := 128) src reduces_S8000x128_S128 (.inl rfl) rfl q)

/-- The running column sum after a block, at (u, q). -/
theorem k3_pay4_apply (zin : Vec Ideal S8000x64 .f32) (w : Vec Ideal S64x128 .f32) (b : Vec Ideal S128 .f32)
    (acc : Vec Ideal S1x128 .f32) (u : Fin 1) (q : Fin 128) :
    k3_pay4 (F := Ideal) zin w b acc (ix2 u q) = acc (ix2 u q) + ∑ p : Fin 8000, k3_pay3 (F := Ideal) zin w b (ix2 p q) := by
  unfold k3_pay4
  refine (congrFun (shapeCast_self _ _) _).trans ?_
  exact congrArg (fun a : EReal => acc (ix2 u q) + a) (colSumRow_apply _ _ u q)

/-- The running column sum of squares after a block, at (u, q). -/
theorem k3_pay5_apply (zin : Vec Ideal S8000x64 .f32) (w : Vec Ideal S64x128 .f32) (b : Vec Ideal S128 .f32)
    (acc : Vec Ideal S1x128 .f32) (u : Fin 1) (q : Fin 128) :
    k3_pay5 (F := Ideal) zin w b acc (ix2 u q)
      = acc (ix2 u q) + ∑ p : Fin 8000, k3_pay3 (F := Ideal) zin w b (ix2 p q) * k3_pay3 (F := Ideal) zin w b (ix2 p q) := by
  unfold k3_pay5
  refine (congrFun (shapeCast_self _ _) _).trans ?_
  exact congrArg (fun a : EReal => acc (ix2 u q) + a) (colSumRow_apply _ _ u q)

/-- The rows stored at the first grid point are zero. -/
theorem k3_pay1_eq : k3_pay1 (F := Ideal) = fun _ => 0 :=
  (shapeCast_self (broadcast S1x128 (Scalar.ofBits (F := Ideal) .f32 0x00000000#32)) shapeCasts_S1x128_S1x128).trans
    (funext fun _ => Ideal.ofBits_zero_f32)

theorem k3_pay2_eq : k3_pay2 (F := Ideal) = fun _ => 0 :=
  (shapeCast_self (broadcast S1x128 (Scalar.ofBits (F := Ideal) .f32 0x00000000#32)) shapeCasts_S1x128_S1x128).trans
    (funext fun _ => Ideal.ofBits_zero_f32)

/-! The later layers' blocks are the same terms. -/

theorem k6_pay3_eq (zin : Vec Ideal S8000x64 .f32) (w : Vec Ideal S64x128 .f32) (b : Vec Ideal S128 .f32) :
    k6_pay3 (F := Ideal) zin w b = k3_pay3 (F := Ideal) zin w b := rfl
theorem k9_pay3_eq (zin : Vec Ideal S8000x64 .f32) (w : Vec Ideal S64x128 .f32) (b : Vec Ideal S128 .f32) :
    k9_pay3 (F := Ideal) zin w b = k3_pay3 (F := Ideal) zin w b := rfl
theorem k12_pay3_eq (zin : Vec Ideal S8000x64 .f32) (w : Vec Ideal S64x128 .f32) (b : Vec Ideal S128 .f32) :
    k12_pay3 (F := Ideal) zin w b = k3_pay3 (F := Ideal) zin w b := rfl
theorem k6_pay4_eq (zin : Vec Ideal S8000x64 .f32) (w : Vec Ideal S64x128 .f32) (b : Vec Ideal S128 .f32) (acc : Vec Ideal S1x128 .f32) :
    k6_pay4 (F := Ideal) zin w b acc = k3_pay4 (F := Ideal) zin w b acc := rfl
theorem k9_pay4_eq (zin : Vec Ideal S8000x64 .f32) (w : Vec Ideal S64x128 .f32) (b : Vec Ideal S128 .f32) (acc : Vec Ideal S1x128 .f32) :
    k9_pay4 (F := Ideal) zin w b acc = k3_pay4 (F := Ideal) zin w b acc := rfl
theorem k12_pay4_eq (zin : Vec Ideal S8000x64 .f32) (w : Vec Ideal S64x128 .f32) (b : Vec Ideal S128 .f32) (acc : Vec Ideal S1x128 .f32) :
    k12_pay4 (F := Ideal) zin w b acc = k3_pay4 (F := Ideal) zin w b acc := rfl
theorem k6_pay5_eq (zin : Vec Ideal S8000x64 .f32) (w : Vec Ideal S64x128 .f32) (b : Vec Ideal S128 .f32) (acc : Vec Ideal S1x128 .f32) :
    k6_pay5 (F := Ideal) zin w b acc = k3_pay5 (F := Ideal) zin w b acc := rfl
theorem k9_pay5_eq (zin : Vec Ideal S8000x64 .f32) (w : Vec Ideal S64x128 .f32) (b : Vec Ideal S128 .f32) (acc : Vec Ideal S1x128 .f32) :
    k9_pay5 (F := Ideal) zin w b acc = k3_pay5 (F := Ideal) zin w b acc := rfl
theorem k12_pay5_eq (zin : Vec Ideal S8000x64 .f32) (w : Vec Ideal S64x128 .f32) (b : Vec Ideal S128 .f32) (acc : Vec Ideal S1x128 .f32) :
    k12_pay5 (F := Ideal) zin w b acc = k3_pay5 (F := Ideal) zin w b acc := rfl
theorem k6_pay1_eq : k6_pay1 (F := Ideal) = fun _ => 0 := k3_pay1_eq
theorem k6_pay2_eq : k6_pay2 (F := Ideal) = fun _ => 0 := k3_pay2_eq
theorem k9_pay1_eq : k9_pay1 (F := Ideal) = fun _ => 0 := k3_pay1_eq
theorem k9_pay2_eq : k9_pay2 (F := Ideal) = fun _ => 0 := k3_pay2_eq
theorem k12_pay1_eq : k12_pay1 (F := Ideal) = fun _ => 0 := k3_pay1_eq
theorem k12_pay2_eq : k12_pay2 (F := Ideal) = fun _ => 0 := k3_pay2_eq

end Cert.Bridge

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Math.Gin2.lean ====
/-
  The second half of the node update, read at an entry on the extended reals.

  The hidden activation is the batch-normalised, rectified entry
      a = max ((z − mean) · rsqrt (max (var, 0) + ε) · γ + β, 0),
  the block Y = a · W₂ + b₂ at row p and column q is the sum over k of a (p, k) · W₂ (k, q) plus the bias at q, the row
  mean is the quotient by 64 of the row's sum, spread back over the row, and the output is the layer normalisation
      (Y − μ) · rsqrt (mean of (Y − μ)² over the row + ε) · g + b,
  rectified in all layers but the last.
-/
import proofs.«178590_j59433757442359_2_alg».proof.Proof.Gen.KernelIdeal.Skeleton
import proofs.«178590_j59433757442359_2_alg».proof.Proof.LibPlainDot
import proofs.«178590_j59433757442359_2_alg».proof.Proof.LibKeepdims
import proofs.«178590_j59433757442359_2_alg».proof.Proof.Math.LinRelu
import Idealize.ShloMosaic.PureOps.Ideal.Laws
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx Cert.KernelIdeal Cert.KernelIdeal.Gen

open Idealize.ShloMosaic.ValueKeepdims

/-- The batch-normalised, rectified entry. -/
def bnAct (z mean var g bt : EReal) : EReal :=
  max ((z - mean) * Ideal.rsqrt (max var 0 + Ideal.ofBits .f32 0x3727C5AC#32) * g + bt) 0

/-- The layer normalisation of an entry y of a row with mean m and mean squared deviation v. -/
def lnOut (y m v g b : EReal) : EReal :=
  (y - m) * Ideal.rsqrt (v + Ideal.ofBits .f32 0x3727C5AC#32) * g + b

/-- The hidden activation at (p, k), as the kernel writes it. -/
theorem bnAct_apply (z : Vec Ideal S8000x128 .f32) (var mean g bt : Vec Ideal S1x128 .f32) (p : Fin 8000) (k : Fin 128) :
    maximumf (F := Ideal)
        (addf
          (mulf
            (mulf (subf z (broadcastTo S8000x128 mean broadcasts_S1x128_S8000x128))
              (broadcastTo S8000x128
                (rsqrt (addf (maximumf var (broadcast S1x128 (Scalar.ofBits .f32 0x00000000#32)))
                  (broadcast S1x128 (Scalar.ofBits .f32 0x3727C5AC#32))))
                broadcasts_S1x128_S8000x128))
            (broadcastTo S8000x128 g broadcasts_S1x128_S8000x128))
          (broadcastTo S8000x128 bt broadcasts_S1x128_S8000x128))
        (broadcast S8000x128 (Scalar.ofBits .f32 0x00000000#32)) (ix2 p k)
      = bnAct (z (ix2 p k)) (mean (ix2 0 k)) (var (ix2 0 k)) (g (ix2 0 k)) (bt (ix2 0 k)) := by
  show max ((z (ix2 p k) - broadcastTo S8000x128 mean broadcasts_S1x128_S8000x128 (ix2 p k))
        * broadcastTo S8000x128 _ broadcasts_S1x128_S8000x128 (ix2 p k)
        * broadcastTo S8000x128 g broadcasts_S1x128_S8000x128 (ix2 p k)
        + broadcastTo S8000x128 bt broadcasts_S1x128_S8000x128 (ix2 p k)) (Ideal.ofBits .f32 0x00000000#32) = _
  rw [broadcastTo_1b_ab_apply, broadcastTo_1b_ab_apply, broadcastTo_1b_ab_apply, broadcastTo_1b_ab_apply,
    Ideal.ofBits_zero_f32]
  show max ((z (ix2 p k) - mean (ix2 0 k))
        * Ideal.rsqrt (max (var (ix2 0 k)) (Ideal.ofBits .f32 0x00000000#32) + Ideal.ofBits .f32 0x3727C5AC#32)
        * g (ix2 0 k) + bt (ix2 0 k)) 0 = _
  rw [Ideal.ofBits_zero_f32]
  rfl

/-- The block Y at (p, q). -/
theorem k4_pay2_apply (z : Vec Ideal S8000x128 .f32) (var mean g bt : Vec Ideal S1x128 .f32) (w : Vec Ideal S128x64 .f32)
    (b : Vec Ideal S64 .f32) (p : Fin 8000) (q : Fin 64) :
    k4_pay2 (F := Ideal) z var mean g bt w b (ix2 p q)
      = ∑ k : Fin 128, bnAct (z (ix2 p k)) (mean (ix2 0 k)) (var (ix2 0 k)) (g (ix2 0 k)) (bt (ix2 0 k)) * w (ix2 k q)
        + b (ix1 q) := by
  unfold k4_pay2
  simp only [shapeCast_self]
  refine (congrArg₂ (· + ·) ?_ (biasRow_apply b _ _ p q) : _)
  refine (Cert.Lib.PlainDot.matmul_zero_apply (M := 8000) (K := 128) (N := 64) none _ _ p q).trans ?_
  exact Finset.sum_congr rfl fun k _ => congrArg (· * w (ix2 k q)) (bnAct_apply z var mean g bt p k)

/-- The row mean, spread over the row, at (p, q). -/
theorem k4_pay3_apply (z : Vec Ideal S8000x128 .f32) (var mean g bt : Vec Ideal S1x128 .f32) (w : Vec Ideal S128x64 .f32)
    (b : Vec Ideal S64 .f32) (p : Fin 8000) (q : Fin 64) :
    k4_pay3 (F := Ideal) z var mean g bt w b (ix2 p q)
      = Ideal.div (∑ c : Fin 64, k4_pay2 (F := Ideal) z var mean g bt w b (ix2 p c)) (Ideal.ofBits .f32 0x42800000#32) := by
  unfold k4_pay3
  refine (broadcastTo_a1_ab_apply _ _ p q).trans ?_
  exact congrArg (Ideal.div · (Ideal.ofBits .f32 0x42800000#32))
    ((shapeCast_a_a1_apply _ _ p 0).trans (multiReduction_add_row (a := 8000) (b := 64) _ _ reduces_S8000x64_S8000 (.inl rfl) rfl p))

/-- The layer normalisation before the rectifier, as the kernel writes it, at (p, q). -/
theorem lnOut_apply (y m : FVec Ideal S8000x64 .f32) (g b : Vec Ideal S1x64 .f32) (p : Fin 8000) (q : Fin 64) :
    k13_pay1 (F := Ideal) y m g b (ix2 p q)
      = lnOut (y (ix2 p q)) (m (ix2 p q))
          (Ideal.div (∑ c : Fin 64, (y (ix2 p c) - m (ix2 p c)) * (y (ix2 p c) - m (ix2 p c))) (Ideal.ofBits .f32 0x42800000#32))
          (g (ix2 0 q)) (b (ix2 0 q)) := by
  unfold k13_pay1
  simp only [shapeCast_self]
  show (y (ix2 p q) - m (ix2 p q)) * broadcastTo S8000x64 _ broadcasts_S8000x1_S8000x64 (ix2 p q)
        * broadcastTo S8000x64 g broadcasts_S1x64_S8000x64 (ix2 p q)
        + broadcastTo S8000x64 b broadcasts_S1x64_S8000x64 (ix2 p q) = _
  rw [broadcastTo_1b_ab_apply, broadcastTo_1b_ab_apply, broadcastTo_a1_ab_apply]
  show (y (ix2 p q) - m (ix2 p q))
        * Ideal.rsqrt (Ideal.div (shapeCast S8000x1 _ shapeCasts_S8000_S8000x1 (ix2 p 0)) (Ideal.ofBits .f32 0x42800000#32)
            + Ideal.ofBits .f32 0x3727C5AC#32)
        * g (ix2 0 q) + b (ix2 0 q) = _
  rw [shapeCast_a_a1_apply]
  exact congrArg
    (fun v : EReal => (y (ix2 p q) - m (ix2 p q))
      * Ideal.rsqrt (Ideal.div v (Ideal.ofBits .f32 0x42800000#32) + Ideal.ofBits .f32 0x3727C5AC#32)
      * g (ix2 0 q) + b (ix2 0 q))
    (multiReduction_add_row (a := 8000) (b := 64) _ _ reduces_S8000x64_S8000 (.inl rfl) rfl p)

/-- The output block of the last layer at (p, q). -/
theorem k13_pay1_apply (y m : FVec Ideal S8000x64 .f32) (g b : Vec Ideal S1x64 .f32) (p : Fin 8000) (q : Fin 64) :
    k13_pay1 (F := Ideal) y m g b (ix2 p q)
      = lnOut (y (ix2 p q)) (m (ix2 p q))
          (Ideal.div (∑ c : Fin 64, (y (ix2 p c) - m (ix2 p c)) * (y (ix2 p c) - m (ix2 p c))) (Ideal.ofBits .f32 0x42800000#32))
          (g (ix2 0 q)) (b (ix2 0 q)) :=
  lnOut_apply y m g b p q

/-- The output block of the first three layers is the last layer's, rectified. -/
theorem k4_pay1_eq_max (y m : FVec Ideal S8000x64 .f32) (g b : Vec Ideal S1x64 .f32) (j : S8000x64.Idx) :
    k4_pay1 (F := Ideal) y m g b j = max (k13_pay1 (F := Ideal) y m g b j) 0 :=
  congrArg (max _) Ideal.ofBits_zero_f32

/-- The output block of the first three layers at (p, q). -/
theorem k4_pay1_apply (y m : FVec Ideal S8000x64 .f32) (g b : Vec Ideal S1x64 .f32) (p : Fin 8000) (q : Fin 64) :
    k4_pay1 (F := Ideal) y m g b (ix2 p q)
      = max (lnOut (y (ix2 p q)) (m (ix2 p q))
          (Ideal.div (∑ c : Fin 64, (y (ix2 p c) - m (ix2 p c)) * (y (ix2 p c) - m (ix2 p c))) (Ideal.ofBits .f32 0x42800000#32))
          (g (ix2 0 q)) (b (ix2 0 q))) 0 := by
  rw [k4_pay1_eq_max, lnOut_apply]

/-! The later layers' blocks are the same terms. -/

theorem k7_pay1_eq (y m : FVec Ideal S8000x64 .f32) (g b : Vec Ideal S1x64 .f32) :
    k7_pay1 (F := Ideal) y m g b = k4_pay1 (F := Ideal) y m g b := rfl
theorem k10_pay1_eq (y m : FVec Ideal S8000x64 .f32) (g b : Vec Ideal S1x64 .f32) :
    k10_pay1 (F := Ideal) y m g b = k4_pay1 (F := Ideal) y m g b := rfl
theorem k7_pay2_eq (z : Vec Ideal S8000x128 .f32) (var mean g bt : Vec Ideal S1x128 .f32) (w : Vec Ideal S128x64 .f32)
    (b : Vec Ideal S64 .f32) :
    k7_pay2 (F := Ideal) z var mean g bt w b = k4_pay2 (F := Ideal) z var mean g bt w b := rfl
theorem k10_pay2_eq (z : Vec Ideal S8000x128 .f32) (var mean g bt : Vec Ideal S1x128 .f32) (w : Vec Ideal S128x64 .f32)
    (b : Vec Ideal S64 .f32) :
    k10_pay2 (F := Ideal) z var mean g bt w b = k4_pay2 (F := Ideal) z var mean g bt w b := rfl
theorem k13_pay2_eq (z : Vec Ideal S8000x128 .f32) (var mean g bt : Vec Ideal S1x128 .f32) (w : Vec Ideal S128x64 .f32)
    (b : Vec Ideal S64 .f32) :
    k13_pay2 (F := Ideal) z var mean g bt w b = k4_pay2 (F := Ideal) z var mean g bt w b := rfl
theorem k7_pay3_eq (z : Vec Ideal S8000x128 .f32) (var mean g bt : Vec Ideal S1x128 .f32) (w : Vec Ideal S128x64 .f32)
    (b : Vec Ideal S64 .f32) :
    k7_pay3 (F := Ideal) z var mean g bt w b = k4_pay3 (F := Ideal) z var mean g bt w b := rfl
theorem k10_pay3_eq (z : Vec Ideal S8000x128 .f32) (var mean g bt : Vec Ideal S1x128 .f32) (w : Vec Ideal S128x64 .f32)
    (b : Vec Ideal S64 .f32) :
    k10_pay3 (F := Ideal) z var mean g bt w b = k4_pay3 (F := Ideal) z var mean g bt w b := rfl
theorem k13_pay3_eq (z : Vec Ideal S8000x128 .f32) (var mean g bt : Vec Ideal S1x128 .f32) (w : Vec Ideal S128x64 .f32)
    (b : Vec Ideal S64 .f32) :
    k13_pay3 (F := Ideal) z var mean g bt w b = k4_pay3 (F := Ideal) z var mean g bt w b := rfl

end Cert.Bridge

end
-- ==== Proof.LibBatchVar.lean ====
/-
  The two-pass and the one-pass batch variance agree.

  For real numbers x₁ … x_N (N > 0) with s = ∑ xᵢ and q = ∑ xᵢ², the one-pass form

      max (q · (1/N) − (s · (1/N))², 0)

  and the two-pass form

      (∑ (xᵢ − s / N)²) / N

  are the same real number: expanding the square, ∑ (xᵢ − μ)² = q − 2 μ s + N μ² with μ = s / N, which is q − s² / N;
  and the common value is a mean of squares, hence non-negative, so the clamp at 0 is the identity. The identity uses
  cancellation, which fails at the infinities: it is stated for real numbers read in the extended reals. The mean
  itself, s · (1/N) against s / N, needs nothing (`Ideal.div_coe`).
-/
import Idealize.ShloMosaic.PureOps.Ideal
import Mathlib.Algebra.BigOperators.Ring.Finset
import Mathlib.Algebra.Order.BigOperators.Ring.Finset
import Mathlib.Tactic.Ring
import Mathlib.Tactic.FieldSimp
import Mathlib.Tactic.Positivity

open Idealize.ShloMosaic

namespace Cert.Lib.BatchVar

variable {ι : Type*} [Fintype ι]

/-- The coercion of a finite real sum is the sum of the coercions. -/
theorem coe_sum' (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- ∑ (xᵢ − μ)² = q − 2 μ s + N μ², for any μ. -/
theorem sum_sq_dev (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    nsmul_eq_mul]
  ring

/-- The one-pass variance is the two-pass variance, on the reals. -/
theorem var_real (x : ι → ℝ) (n : ℝ) (hcard : (Fintype.card ι : ℝ) = n) (hn : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, hcard]
  field_simp
  ring

/-- The two-pass variance is non-negative. -/
theorem var_nonneg (x : ι → ℝ) (μ n : ℝ) (hn : 0 < n) : 0 ≤ (∑ i, (x i - μ) * (x i - μ)) * (1 / n) :=
  mul_nonneg (Finset.sum_nonneg fun i _ => mul_self_nonneg _) (by positivity)

/-- The mean: a real sum times the reciprocal of the count is the quotient by the count, on the extended reals. -/
theorem mean_eq (s : EReal) (n : ℝ) (hn : n ≠ 0) : s * ((1 / n : ℝ) : EReal) = Ideal.div s (n : EReal) :=
  (Ideal.div_coe hn s).symm

/-- The batch variance on the extended reals, for real entries: the one-pass form clamped at zero, over the sums
    `s = ∑ xᵢ` and `q = ∑ xᵢ²` taken in the extended reals, is the two-pass form about the quotient mean. -/
theorem var_eq (x : ι → ℝ) (n : ℝ) (hcard : (Fintype.card ι : ℝ) = n) (hn : 0 < n) :
    max ((∑ i, (x i : EReal) * (x i : EReal)) * ((1 / n : ℝ) : EReal)
          - ((∑ i, (x i : EReal)) * ((1 / n : ℝ) : EReal)) * ((∑ i, (x i : EReal)) * ((1 / n : ℝ) : EReal))) 0
      = Ideal.div (∑ i, ((x i : EReal) - Ideal.div (∑ i, (x i : EReal)) (n : EReal))
          * ((x i : EReal) - Ideal.div (∑ i, (x i : EReal)) (n : EReal))) (n : EReal) := by
  have hn0 : n ≠ 0 := ne_of_gt hn
  rw [Ideal.div_coe hn0, Ideal.div_coe hn0]
  simp only [← EReal.coe_mul, ← coe_sum', ← EReal.coe_sub]
  rw [var_real x n hcard hn0]
  exact max_eq_left (EReal.coe_nonneg.mpr (var_nonneg x _ n hn))

end Cert.Lib.BatchVar
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.Math.BatchVarLaw.lean ====
/-
  The batch variance, one pass against two, on the extended reals for real data; and the float words of the constants.

  For a column x₁ … x_N of REAL numbers (N = 80000) with s = ∑ xᵢ and q = ∑ xᵢ², all sums and quotients taken in the
  extended reals,

      max (q / N − (s / N) · (s / N), 0)  =  (∑ (xᵢ − s / N) · (xᵢ − s / N)) / N :

  both are the variance of the column, which is a mean of squares and so not negative. Cancellation is used, so the
  entries must be real. The eighty thousand rows are ten blocks of eight thousand: a sum over all rows is the sum over
  the blocks of each block's sum.
-/
import proofs.«178590_j59433757442359_2_alg».proof.Proof.LibBatchVar
import proofs.«178590_j59433757442359_2_alg».proof.Proof.LibBlockSum
import Idealize.ShloMosaic.PureOps.Ideal.Laws

noncomputable section

namespace Cert.Bridge

open Idealize.ShloMosaic

/-! ## The words of the constants -/

/-- The f32 word 0x479C4000 is 80000. -/
theorem ofBits_80000 : Ideal.ofBits .f32 0x479C4000#32 = ((80000 : ℝ) : EReal) := by
  simp [Ideal.ofBits, Ideal.ieee, -EReal.coe_mul]
  norm_num

/-- The f32 word 0x42800000 is 64. -/
theorem ofBits_64 : Ideal.ofBits .f32 0x42800000#32 = ((64 : ℝ) : EReal) := by
  simp [Ideal.ofBits, Ideal.ieee, -EReal.coe_mul]
  norm_num

/-- The f32 word 0x3F800000 is 1. -/
theorem ofBits_one : Ideal.ofBits .f32 0x3F800000#32 = ((1 : ℝ) : EReal) := by
  simp [Ideal.ofBits, Ideal.ieee, -EReal.coe_mul]
  norm_num

/-- The f32 word 0x3727C5AC (the normalisations' epsilon) is a positive real. -/
theorem ofBits_eps : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-! ## The variance law -/

/-- The coercion of a maximum of reals is the maximum of the coercions. -/
theorem coe_max_real (a b : ℝ) : ((max a b : ℝ) : EReal) = max (a : EReal) (b : EReal) :=
  EReal.coe_strictMono.monotone.map_max

/-- A family of extended reals each of which is real is the coercion of a real family. -/
theorem exists_real_family {ι : Type*} (x : ι → EReal) (hx : ∀ i, ∃ r : ℝ, x i = (r : EReal)) :
    ∃ r : ι → ℝ, x = fun i => (r i : EReal) := by
  choose r hr using hx
  exact ⟨r, funext hr⟩

/-- One pass against two, for a real column of 80000 entries, with the count as the float word of 80000.0. -/
theorem batchVar_eq (x : Fin 80000 → EReal) (hx : ∀ i, ∃ r : ℝ, x i = (r : EReal)) :
    max (Ideal.div (∑ i, x i * x i) (Ideal.ofBits .f32 0x479C4000#32)
          - Ideal.div (∑ i, x i) (Ideal.ofBits .f32 0x479C4000#32) * Ideal.div (∑ i, x i) (Ideal.ofBits .f32 0x479C4000#32)) 0
      = Ideal.div (∑ i, (x i - Ideal.div (∑ i, x i) (Ideal.ofBits .f32 0x479C4000#32))
          * (x i - Ideal.div (∑ i, x i) (Ideal.ofBits .f32 0x479C4000#32))) (Ideal.ofBits .f32 0x479C4000#32) := by
  obtain ⟨r, rfl⟩ := exists_real_family x hx
  rw [ofBits_80000]
  have h := Cert.Lib.BatchVar.var_eq r (80000 : ℝ) (by simp) (by norm_num)
  rw [Cert.Lib.BatchVar.mean_eq _ _ (by norm_num : (80000 : ℝ) ≠ 0),
    Cert.Lib.BatchVar.mean_eq _ _ (by norm_num : (80000 : ℝ) ≠ 0)] at h
  exact h

/-- The one-pass variance of a real column is a real number that is not negative. -/
theorem batchVar_real (x : Fin 80000 → EReal) (hx : ∀ i, ∃ r : ℝ, x i = (r : EReal)) :
    ∃ v : ℝ, 0 ≤ v ∧ max (Ideal.div (∑ i, x i * x i) (Ideal.ofBits .f32 0x479C4000#32)
          - Ideal.div (∑ i, x i) (Ideal.ofBits .f32 0x479C4000#32) * Ideal.div (∑ i, x i) (Ideal.ofBits .f32 0x479C4000#32)) 0
        = (v : EReal) := by
  obtain ⟨r, rfl⟩ := exists_real_family x hx
  rw [ofBits_80000, Ideal.div_coe (by norm_num : (80000 : ℝ) ≠ 0), Ideal.div_coe (by norm_num : (80000 : ℝ) ≠ 0)]
  simp only [← EReal.coe_mul, ← Cert.Lib.BatchVar.coe_sum', ← EReal.coe_sub]
  rw [← EReal.coe_zero, ← coe_max_real]
  exact ⟨_, le_max_right _ _, rfl⟩

/-! ## Ten blocks of eight thousand rows -/

/-- A sum over the 80000 rows is the sum over the ten blocks of the sums over each block's 8000 rows. -/
theorem sum_rows_blocks {β : Type*} [AddCommMonoid β] (H : Fin 80000 → β) :
    ∑ i, H i = ∑ t : Fin 10, ∑ p : Fin 8000, H (Cert.Lib.BlockSum.at_ (K := 10) (n := 8000) t p) :=
  Cert.Lib.BlockSum.sum_blocks 10 8000 H

/-- The same with the blocks counted by naturals below ten, the form a fold over grid points leaves. -/
theorem sum_rows_blocks_range {β : Type*} [AddCommMonoid β] (H : Fin 80000 → β) :
    ∑ i, H i = ∑ t ∈ Finset.range 10, ∑ p : Fin 8000,
      (if h : t < 10 then H (Cert.Lib.BlockSum.at_ (K := 10) (n := 8000) ⟨t, h⟩ p) else 0) := by
  rw [sum_rows_blocks, Finset.sum_range]
  exact Finset.sum_congr rfl fun t _ => Finset.sum_congr rfl fun p _ => by rw [dif_pos t.isLt]

end Cert.Bridge

end
-- ==== Proof.LibNormLaw.lean ====
/-
  Batch normalisation on the extended reals: multiplying by the reciprocal square root against dividing by the
  square root.

  For an extended real `v` with `0 < v` (the value `+∞` allowed) and ANY extended real `a`,
  `a · rsqrt v = a / √v`: at a positive real both are `a · (√v)⁻¹`; at `+∞` both are `a · 0 = 0`.  (At `v ≤ 0` the two
  conventions part: `rsqrt 0 = +∞` while `a / 0` is the infinity of `a`'s sign, and below zero both roots are the
  junk value `-∞`, which the quotient sends to `0` and the product does not.)

  A variance computed as a sum of squares over a positive real count is never negative, whatever the entries are —
  a square `x · x` of an extended real is in `[0, +∞]`, and so is a finite sum of such and its quotient by a positive
  real —, so `variance + ε` with `ε` a positive real always meets the law's hypothesis.  No finiteness of the data
  is used anywhere.
-/
import Idealize.ShloMosaic.PureOps.Ideal
import Mathlib.Data.EReal.Inv
import Mathlib.Algebra.BigOperators.Group.Finset.Basic

noncomputable section

namespace Cert.Lib.NormLaw

open Idealize.ShloMosaic

/-- `a · rsqrt v = a / √v` for `0 < v ≤ +∞` and any `a`. -/
theorem mul_rsqrt_eq_div_sqrt (a v : EReal) (hv : 0 < v) : a * Ideal.rsqrt v = Ideal.div a (Ideal.sqrt v) := by
  induction v using EReal.rec with
  | bot => exact absurd hv (by simp)
  | top =>
    have h0 : (⊤ : EReal) ≠ 0 := by simp
    simp [Ideal.div, h0]
  | coe r =>
    have hr : 0 < r := by exact_mod_cast hv
    have hs : 0 < Real.sqrt r := Real.sqrt_pos.mpr hr
    have hne : ((Real.sqrt r : ℝ) : EReal) ≠ 0 := by exact_mod_cast hs.ne'
    rw [Ideal.rsqrt_coe, Ideal.sqrt_coe, if_neg (not_lt.mpr hr.le), if_neg (not_lt.mpr hr.le), if_neg hr.ne']
    unfold Ideal.div
    rw [if_neg hne, EReal.coe_inv]

/-- A square of an extended real is not negative. -/
theorem mul_self_nonneg (x : EReal) : 0 ≤ x * x := by
  rcases le_total 0 x with h | h
  · exact mul_nonneg h h
  · have : x * x = (-x) * (-x) := by rw [neg_mul_neg]
    rw [this]; exact mul_nonneg (EReal.neg_nonneg.mpr h) (EReal.neg_nonneg.mpr h)

/-- A finite sum, from zero, of extended reals none of which is negative is not negative. -/
theorem zero_add_sum_nonneg {ι : Type} (s : Finset ι) (f : ι → EReal) (hf : ∀ i ∈ s, 0 ≤ f i) : 0 ≤ (0 : EReal) + ∑ i ∈ s, f i := by
  rw [zero_add]; exact Finset.sum_nonneg hf

/-- The quotient of a non-negative extended real by a positive real is not negative. -/
theorem div_pos_real_nonneg (x : EReal) (n : ℝ) (hx : 0 ≤ x) (hn : 0 < n) : 0 ≤ Ideal.div x (n : EReal) := by
  rw [Ideal.div_coe hn.ne']
  exact mul_nonneg hx (by exact_mod_cast (one_div_pos.mpr hn).le)

/-- A non-negative extended real plus a positive real is positive. -/
theorem add_pos_real (x : EReal) (e : ℝ) (hx : 0 ≤ x) (he : 0 < e) : 0 < x + (e : EReal) :=
  lt_of_lt_of_le (by exact_mod_cast he) (le_add_of_nonneg_left hx)

end Cert.Lib.NormLaw

end
-- ==== Proof.Math.Real.lean ====
/-
  Real numbers inside the extended reals: closure of "is a real number" under the operations the network uses.

  Sums, differences, products and finite sums of reals are real; so is the maximum of two reals, the quotient of a
  real by the float word of a non-zero real, and the reciprocal square root of a positive real. A square of a real and a
  finite sum of squares are not negative, which is what keeps the normalisations' radicands positive.
-/
import Idealize.ShloMosaic.PureOps.Ideal.Laws
import proofs.«178590_j59433757442359_2_alg».proof.Proof.LibNormLaw
import proofs.«178590_j59433757442359_2_alg».proof.Proof.Math.BatchVarLaw

noncomputable section

namespace Cert.Bridge

open Idealize.ShloMosaic

/-- An extended real that is a real number. -/
def IsReal (x : EReal) : Prop := ∃ r : ℝ, x = (r : EReal)

namespace IsReal

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy; exact ⟨Max.max a b, (coe_max_real a b).symm⟩

theorem sum {ι : Type*} (S : Finset ι) (f : ι → EReal) (hf : ∀ i ∈ S, IsReal (f i)) : IsReal (∑ i ∈ S, f i) := by
  classical
  induction S using Finset.induction_on with
  | empty => exact ⟨0, by simp⟩
  | insert a S ha ih =>
    rw [Finset.sum_insert ha]
    exact add (hf a (Finset.mem_insert_self a S)) (ih fun i hi => hf i (Finset.mem_insert_of_mem hi))

/-- The quotient of a real by a non-zero real. -/
theorem div_real {x : EReal} (hx : IsReal x) {n : ℝ} (hn : n ≠ 0) : IsReal (Ideal.div x (n : EReal)) := by
  rw [Ideal.div_coe hn]; exact mul hx (coe _)

/-- The quotient by the float word of 80000.0. -/
theorem div_80000 {x : EReal} (hx : IsReal x) : IsReal (Ideal.div x (Ideal.ofBits .f32 0x479C4000#32)) := by
  rw [ofBits_80000]; exact div_real hx (by norm_num)

/-- The quotient by the float word of 64.0. -/
theorem div_64 {x : EReal} (hx : IsReal x) : IsReal (Ideal.div x (Ideal.ofBits .f32 0x42800000#32)) := by
  rw [ofBits_64]; exact div_real hx (by norm_num)

/-- The reciprocal square root of a positive real. -/
theorem rsqrt_pos {x : EReal} (hx : IsReal x) (h0 : 0 < x) : IsReal (Ideal.rsqrt x) := by
  obtain ⟨a, rfl⟩ := hx
  have ha : 0 < a := by exact_mod_cast h0
  rw [Ideal.rsqrt_coe, if_neg (not_lt.mpr ha.le), if_neg ha.ne']
  exact coe _

/-- The normalisations' epsilon is real. -/
theorem eps : IsReal (Ideal.ofBits .f32 0x3727C5AC#32) := by
  obtain ⟨e, _, he⟩ := ofBits_eps; exact ⟨e, he⟩

/-- The float word of zero is real. -/
theorem zeroWord : IsReal (Ideal.ofBits .f32 0x00000000#32) := by
  rw [Ideal.ofBits_zero_f32]; exact zero

end IsReal

/-- A non-negative extended real plus the normalisations' epsilon is positive. -/
theorem add_eps_pos {x : EReal} (hx : 0 ≤ x) : 0 < x + Ideal.ofBits .f32 0x3727C5AC#32 := by
  obtain ⟨e, he0, he⟩ := ofBits_eps
  rw [he]; exact Cert.Lib.NormLaw.add_pos_real x e hx he0

/-- The radicand of the batch normalisation, max (var, 0) + epsilon, is a positive real when var is real. -/
theorem bnRadicand {v : EReal} (hv : IsReal v) :
    IsReal (max v 0 + Ideal.ofBits .f32 0x3727C5AC#32) ∧ 0 < max v 0 + Ideal.ofBits .f32 0x3727C5AC#32 :=
  ⟨(hv.max IsReal.zero).add IsReal.eps, add_eps_pos (le_max_right _ _)⟩

/-- A mean of squares over 64 entries is not negative. -/
theorem meanSq64_nonneg (f : Fin 64 → EReal) : 0 ≤ Ideal.div (∑ c, f c * f c) (Ideal.ofBits .f32 0x42800000#32) := by
  rw [ofBits_64]
  exact Cert.Lib.NormLaw.div_pos_real_nonneg _ 64 (Finset.sum_nonneg fun c _ => Cert.Lib.NormLaw.mul_self_nonneg (f c)) (by norm_num)

/-- The radicand of the layer normalisation, a mean of squares over 64 entries plus epsilon, is a positive real when
    the entries are real. -/
theorem lnRadicand (f : Fin 64 → EReal) (hf : ∀ c, IsReal (f c)) :
    IsReal (Ideal.div (∑ c, f c * f c) (Ideal.ofBits .f32 0x42800000#32) + Ideal.ofBits .f32 0x3727C5AC#32)
      ∧ 0 < Ideal.div (∑ c, f c * f c) (Ideal.ofBits .f32 0x42800000#32) + Ideal.ofBits .f32 0x3727C5AC#32 :=
  ⟨(IsReal.div_64 (IsReal.sum _ _ fun c _ => (hf c).mul (hf c))).add IsReal.eps, add_eps_pos (meanSq64_nonneg f)⟩

end Cert.Bridge

end
-- ==== Proof.Math.LayerLaw.lean ====
/-
  The batch normalisation with one-pass statistics is the batch normalisation with two-pass statistics, for a real
  column.

  With s = ∑ xᵢ and q = ∑ xᵢ² over the column's 80000 real entries, the activation computed from mean = s / N and
  var = q / N − mean · mean (clamped at zero inside the activation) is the activation computed from the same mean and the
  two-pass variance (∑ (xᵢ − mean)²) / N with no clamp.
-/
import proofs.«178590_j59433757442359_2_alg».proof.Proof.Math.Gin2
import proofs.«178590_j59433757442359_2_alg».proof.Proof.Math.BatchVarLaw
import proofs.«178590_j59433757442359_2_alg».proof.Proof.Math.Real

noncomputable section

namespace Cert.Bridge

open Idealize.ShloMosaic

/-- The batch-normalised, rectified entry with the variance not clamped. -/
def bnAct2 (z mean var g bt : EReal) : EReal :=
  max ((z - mean) * Ideal.rsqrt (var + Ideal.ofBits .f32 0x3727C5AC#32) * g + bt) 0

/-- One-pass statistics of a real column give the two-pass activation. -/
theorem bnAct_stats_eq (x : Fin 80000 → EReal) (hx : ∀ i, IsReal (x i)) (z g bt : EReal) :
    bnAct z (Ideal.div (∑ i, x i) (Ideal.ofBits .f32 0x479C4000#32))
        (Ideal.div (∑ i, x i * x i) (Ideal.ofBits .f32 0x479C4000#32)
          - Ideal.div (∑ i, x i) (Ideal.ofBits .f32 0x479C4000#32) * Ideal.div (∑ i, x i) (Ideal.ofBits .f32 0x479C4000#32))
        g bt
      = bnAct2 z (Ideal.div (∑ i, x i) (Ideal.ofBits .f32 0x479C4000#32))
          (Ideal.div (∑ i, (x i - Ideal.div (∑ i, x i) (Ideal.ofBits .f32 0x479C4000#32))
            * (x i - Ideal.div (∑ i, x i) (Ideal.ofBits .f32 0x479C4000#32))) (Ideal.ofBits .f32 0x479C4000#32))
          g bt := by
  unfold bnAct bnAct2
  rw [batchVar_eq x hx]

/-- The one-pass mean and variance of a real column are real. -/
theorem stats_real (x : Fin 80000 → EReal) (hx : ∀ i, IsReal (x i)) :
    IsReal (Ideal.div (∑ i, x i) (Ideal.ofBits .f32 0x479C4000#32))
      ∧ IsReal (Ideal.div (∑ i, x i * x i) (Ideal.ofBits .f32 0x479C4000#32)
          - Ideal.div (∑ i, x i) (Ideal.ofBits .f32 0x479C4000#32) * Ideal.div (∑ i, x i) (Ideal.ofBits .f32 0x479C4000#32)) := by
  have hs : IsReal (Ideal.div (∑ i, x i) (Ideal.ofBits .f32 0x479C4000#32)) :=
    IsReal.div_80000 (IsReal.sum _ _ fun i _ => hx i)
  exact ⟨hs, (IsReal.div_80000 (IsReal.sum _ _ fun i _ => (hx i).mul (hx i))).sub (hs.mul hs)⟩

end Cert.Bridge

end
-- ==== Proof.Math.Spec.lean ====
/-
  One layer of the network as a function of entries, on the extended reals, in the two spellings.

  Over plain index types (80000 nodes, 64 hidden columns, 128 inner columns): the dense embeddings, the message, the
  combination (1 + eps) · h + agg, the first dense layer Z, the column statistics of Z (sum, sum of squares, mean, the
  one-pass variance q / N − mean · mean and the two-pass variance (∑ (Zᵢ − mean)²) / N), and the tail: batch
  normalisation, rectifier, second dense layer, layer normalisation over the 64 columns, rectifier in all layers but
  the last. The tail is stated twice: with the variance clamped at zero inside the activation (one-pass statistics
  feed it) and with no clamp (two-pass statistics feed it).
-/
import proofs.«178590_j59433757442359_2_alg».proof.Proof.Math.Gin2
import proofs.«178590_j59433757442359_2_alg».proof.Proof.Math.LayerLaw

noncomputable section

namespace Cert.Bridge

open Idealize.ShloMosaic

/-- A dense embedding, rectified: max (x · w + b, 0) at row i, column q. -/
def specEmbed {R K : ℕ} (x : Fin R → Fin K → EReal) (w : Fin K → Fin 64 → EReal) (b : Fin 64 → EReal) (i : Fin R)
    (q : Fin 64) : EReal :=
  max (∑ k, x i k * w k q + b q) 0

/-- The message: max (h + e, 0) entry by entry. -/
def specMsg {R : ℕ} (h e : Fin R → Fin 64 → EReal) (i : Fin R) (q : Fin 64) : EReal :=
  max (h i q + e i q) 0

/-- The combination (1 + eps) · h + agg, with 1 the float word of 1.0. -/
def specZin (eps : EReal) (h agg : Fin 80000 → Fin 64 → EReal) (i : Fin 80000) (q : Fin 64) : EReal :=
  (Ideal.ofBits .f32 0x3F800000#32 + eps) * h i q + agg i q

/-- The first dense layer: Z = zin · w1 + b1 at row i, column j. -/
def specZ (zin : Fin 80000 → Fin 64 → EReal) (w1 : Fin 64 → Fin 128 → EReal) (b1 : Fin 128 → EReal) (i : Fin 80000)
    (j : Fin 128) : EReal :=
  ∑ k, zin i k * w1 k j + b1 j

/-- The column sum of Z. -/
def colSum (Z : Fin 80000 → Fin 128 → EReal) (j : Fin 128) : EReal := ∑ i, Z i j

/-- The column sum of squares of Z. -/
def colSq (Z : Fin 80000 → Fin 128 → EReal) (j : Fin 128) : EReal := ∑ i, Z i j * Z i j

/-- The column mean: the sum over the float word of 80000.0. -/
def meanOf (Z : Fin 80000 → Fin 128 → EReal) (j : Fin 128) : EReal :=
  Ideal.div (colSum Z j) (Ideal.ofBits .f32 0x479C4000#32)

/-- The one-pass variance q / N − mean · mean (not clamped). -/
def varOnePass (Z : Fin 80000 → Fin 128 → EReal) (j : Fin 128) : EReal :=
  Ideal.div (colSq Z j) (Ideal.ofBits .f32 0x479C4000#32) - meanOf Z j * meanOf Z j

/-- The two-pass variance (∑ (Zᵢ − mean)²) / N. -/
def varTwoPass (Z : Fin 80000 → Fin 128 → EReal) (j : Fin 128) : EReal :=
  Ideal.div (∑ i, (Z i j - meanOf Z j) * (Z i j - meanOf Z j)) (Ideal.ofBits .f32 0x479C4000#32)

/-- The second dense layer over an activation act of (z, mean, var, gamma, beta): Y at row i, column q. -/
def specY (act : EReal → EReal → EReal → EReal → EReal → EReal) (Z : Fin 80000 → Fin 128 → EReal)
    (mean var g1 bt1 : Fin 128 → EReal) (w2 : Fin 128 → Fin 64 → EReal) (b2 : Fin 64 → EReal) (i : Fin 80000) (q : Fin 64) :
    EReal :=
  ∑ j, act (Z i j) (mean j) (var j) (g1 j) (bt1 j) * w2 j q + b2 q

/-- The mean of a row of Y over its 64 columns: the sum over the float word of 64.0. -/
def rowMean (y : Fin 80000 → Fin 64 → EReal) (i : Fin 80000) : EReal :=
  Ideal.div (∑ c, y i c) (Ideal.ofBits .f32 0x42800000#32)

/-- The two-pass variance of a row of Y about a given row mean m. -/
def rowVarAbout (y : Fin 80000 → Fin 64 → EReal) (m : Fin 80000 → EReal) (i : Fin 80000) : EReal :=
  Ideal.div (∑ c, (y i c - m i) * (y i c - m i)) (Ideal.ofBits .f32 0x42800000#32)

/-- The layer normalisation of Y, rectified or not. -/
def specLN (relu : Bool) (y : Fin 80000 → Fin 64 → EReal) (lng lnb : Fin 64 → EReal) (i : Fin 80000) (q : Fin 64) : EReal :=
  if relu then max (lnOut (y i q) (rowMean y i) (rowVarAbout y (rowMean y) i) (lng q) (lnb q)) 0
  else lnOut (y i q) (rowMean y i) (rowVarAbout y (rowMean y) i) (lng q) (lnb q)

/-- The tail with the variance clamped at zero inside the activation. -/
def specTail (relu : Bool) (Z : Fin 80000 → Fin 128 → EReal) (mean var g1 bt1 : Fin 128 → EReal)
    (w2 : Fin 128 → Fin 64 → EReal) (b2 lng lnb : Fin 64 → EReal) : Fin 80000 → Fin 64 → EReal :=
  specLN relu (specY bnAct Z mean var g1 bt1 w2 b2) lng lnb

/-- The tail with no clamp. -/
def specTailRef (relu : Bool) (Z : Fin 80000 → Fin 128 → EReal) (mean var g1 bt1 : Fin 128 → EReal)
    (w2 : Fin 128 → Fin 64 → EReal) (b2 lng lnb : Fin 64 → EReal) : Fin 80000 → Fin 64 → EReal :=
  specLN relu (specY bnAct2 Z mean var g1 bt1 w2 b2) lng lnb

/-- The running sum left by n blocks, each added to what the blocks before left, from zero. -/
def foldBlocks {β : Type*} [AddCommMonoid β] (B : ℕ → β) : ℕ → β
  | 0 => 0
  | n + 1 => foldBlocks B n + B n

/-- The sum over block t's 8000 rows of column j of H (zero past the tenth block). -/
def blockSum {β : Type*} [AddCommMonoid β] (H : Fin 80000 → β) (t : ℕ) : β :=
  if h : t < 10 then ∑ p : Fin 8000, H (Cert.Lib.BlockSum.at_ (K := 10) (n := 8000) ⟨t, h⟩ p) else 0

end Cert.Bridge

end
-- ==== Proof.Math.RealPayload.lean ====
/-
  Realness carried through the network's blocks: every block's entries are real numbers when its inputs' entries are.

  Sums and products of reals, the rectifier, a quotient by 64, and the reciprocal square root of a positive real are
  real; the radicands of the two normalisations are positive (a clamped variance, or a mean of squares, plus a positive
  epsilon), so no block produces an infinity from real inputs.
-/
import proofs.«178590_j59433757442359_2_alg».proof.Proof.Math.LinRelu
import proofs.«178590_j59433757442359_2_alg».proof.Proof.Math.Gin1
import proofs.«178590_j59433757442359_2_alg».proof.Proof.Math.Gin2
import proofs.«178590_j59433757442359_2_alg».proof.Proof.Math.Real

noncomputable section

namespace Cert.Bridge

open Idealize.ShloMosaic Idealize.ShloMosaic.ValueIdx Cert.KernelIdeal Cert.KernelIdeal.Gen

/-- The batch-normalised, rectified entry is real when its five inputs are. -/
theorem bnAct_real {z mean var g bt : EReal} (hz : IsReal z) (hm : IsReal mean) (hv : IsReal var) (hg : IsReal g)
    (hbt : IsReal bt) : IsReal (bnAct z mean var g bt) :=
  ((((hz.sub hm).mul (IsReal.rsqrt_pos (bnRadicand hv).1 (bnRadicand hv).2)).mul hg).add hbt).max IsReal.zero

/-- The layer normalisation of an entry is real when its inputs are and the radicand is a positive real. -/
theorem lnOut_real {y m v g b : EReal} (hy : IsReal y) (hm : IsReal m)
    (hv : IsReal (v + Ideal.ofBits .f32 0x3727C5AC#32)) (hv0 : 0 < v + Ideal.ofBits .f32 0x3727C5AC#32) (hg : IsReal g)
    (hb : IsReal b) : IsReal (lnOut y m v g b) :=
  (((hy.sub hm).mul (IsReal.rsqrt_pos hv hv0)).mul hg).add hb

theorem k0_pay1_real (x : Vec Ideal S8000x32 .f32) (w : Vec Ideal S32x64 .f32) (b : Vec Ideal S64 .f32)
    (hx : ∀ i, IsReal (x i)) (hw : ∀ i, IsReal (w i)) (hb : ∀ i, IsReal (b i)) (j : S8000x64.Idx) :
    IsReal (k0_pay1 (F := Ideal) x w b j) := by
  obtain ⟨p, q, rfl⟩ : ∃ (p : Fin 8000) (q : Fin 64), j = ix2 p q := ⟨j 0, j 1, eq_ix2 j⟩
  rw [k0_pay1_apply]
  exact ((IsReal.sum _ _ fun k _ => (hx _).mul (hw _)).add (hb _)).max IsReal.zero

theorem k1_pay1_real (x : Vec Ideal S8000x16 .f32) (w : Vec Ideal S16x64 .f32) (b : Vec Ideal S64 .f32)
    (hx : ∀ i, IsReal (x i)) (hw : ∀ i, IsReal (w i)) (hb : ∀ i, IsReal (b i)) (j : S8000x64.Idx) :
    IsReal (k1_pay1 (F := Ideal) x w b j) := by
  obtain ⟨p, q, rfl⟩ : ∃ (p : Fin 8000) (q : Fin 64), j = ix2 p q := ⟨j 0, j 1, eq_ix2 j⟩
  rw [k1_pay1_apply]
  exact ((IsReal.sum _ _ fun k _ => (hx _).mul (hw _)).add (hb _)).max IsReal.zero

theorem k2_pay1_real (h e : Vec Ideal S8000x64 .f32) (hh : ∀ i, IsReal (h i)) (he : ∀ i, IsReal (e i)) (j : S8000x64.Idx) :
    IsReal (k2_pay1 (F := Ideal) h e j) := by
  obtain ⟨p, q, rfl⟩ : ∃ (p : Fin 8000) (q : Fin 64), j = ix2 p q := ⟨j 0, j 1, eq_ix2 j⟩
  rw [k2_pay1_apply]
  exact ((hh _).add (he _)).max IsReal.zero

theorem k3_pay3_real (zin : Vec Ideal S8000x64 .f32) (w : Vec Ideal S64x128 .f32) (b : Vec Ideal S128 .f32)
    (hz : ∀ i, IsReal (zin i)) (hw : ∀ i, IsReal (w i)) (hb : ∀ i, IsReal (b i)) (j : S8000x128.Idx) :
    IsReal (k3_pay3 (F := Ideal) zin w b j) := by
  obtain ⟨p, q, rfl⟩ : ∃ (p : Fin 8000) (q : Fin 128), j = ix2 p q := ⟨j 0, j 1, eq_ix2 j⟩
  rw [k3_pay3_apply]
  exact (IsReal.sum _ _ fun k _ => (hz _).mul (hw _)).add (hb _)

theorem k3_pay4_real (zin : Vec Ideal S8000x64 .f32) (w : Vec Ideal S64x128 .f32) (b : Vec Ideal S128 .f32)
    (acc : Vec Ideal S1x128 .f32) (hz : ∀ i, IsReal (zin i)) (hw : ∀ i, IsReal (w i)) (hb : ∀ i, IsReal (b i))
    (ha : ∀ i, IsReal (acc i)) (j : S1x128.Idx) : IsReal (k3_pay4 (F := Ideal) zin w b acc j) := by
  obtain ⟨u, q, rfl⟩ : ∃ (u : Fin 1) (q : Fin 128), j = ix2 u q := ⟨j 0, j 1, eq_ix2 j⟩
  rw [k3_pay4_apply]
  exact (ha _).add (IsReal.sum _ _ fun p _ => k3_pay3_real zin w b hz hw hb _)

theorem k3_pay5_real (zin : Vec Ideal S8000x64 .f32) (w : Vec Ideal S64x128 .f32) (b : Vec Ideal S128 .f32)
    (acc : Vec Ideal S1x128 .f32) (hz : ∀ i, IsReal (zin i)) (hw : ∀ i, IsReal (w i)) (hb : ∀ i, IsReal (b i))
    (ha : ∀ i, IsReal (acc i)) (j : S1x128.Idx) : IsReal (k3_pay5 (F := Ideal) zin w b acc j) := by
  obtain ⟨u, q, rfl⟩ : ∃ (u : Fin 1) (q : Fin 128), j = ix2 u q := ⟨j 0, j 1, eq_ix2 j⟩
  rw [k3_pay5_apply]
  exact (ha _).add (IsReal.sum _ _ fun p _ =>
    (k3_pay3_real zin w b hz hw hb _).mul (k3_pay3_real zin w b hz hw hb _))

theorem k4_pay2_real (z : Vec Ideal S8000x128 .f32) (var mean g bt : Vec Ideal S1x128 .f32) (w : Vec Ideal S128x64 .f32)
    (b : Vec Ideal S64 .f32) (hz : ∀ i, IsReal (z i)) (hv : ∀ i, IsReal (var i)) (hm : ∀ i, IsReal (mean i))
    (hg : ∀ i, IsReal (g i)) (hbt : ∀ i, IsReal (bt i)) (hw : ∀ i, IsReal (w i)) (hb : ∀ i, IsReal (b i))
    (j : S8000x64.Idx) : IsReal (k4_pay2 (F := Ideal) z var mean g bt w b j) := by
  obtain ⟨p, q, rfl⟩ : ∃ (p : Fin 8000) (q : Fin 64), j = ix2 p q := ⟨j 0, j 1, eq_ix2 j⟩
  rw [k4_pay2_apply]
  exact (IsReal.sum _ _ fun k _ => (bnAct_real (hz _) (hm _) (hv _) (hg _) (hbt _)).mul (hw _)).add (hb _)

theorem k4_pay3_real (z : Vec Ideal S8000x128 .f32) (var mean g bt : Vec Ideal S1x128 .f32) (w : Vec Ideal S128x64 .f32)
    (b : Vec Ideal S64 .f32) (hz : ∀ i, IsReal (z i)) (hv : ∀ i, IsReal (var i)) (hm : ∀ i, IsReal (mean i))
    (hg : ∀ i, IsReal (g i)) (hbt : ∀ i, IsReal (bt i)) (hw : ∀ i, IsReal (w i)) (hb : ∀ i, IsReal (b i))
    (j : S8000x64.Idx) : IsReal (k4_pay3 (F := Ideal) z var mean g bt w b j) := by
  obtain ⟨p, q, rfl⟩ : ∃ (p : Fin 8000) (q : Fin 64), j = ix2 p q := ⟨j 0, j 1, eq_ix2 j⟩
  rw [k4_pay3_apply]
  exact IsReal.div_64 (IsReal.sum _ _ fun c _ => k4_pay2_real z var mean g bt w b hz hv hm hg hbt hw hb _)

theorem k13_pay1_real (y m : FVec Ideal S8000x64 .f32) (g b : Vec Ideal S1x64 .f32) (hy : ∀ i, IsReal (y i))
    (hm : ∀ i, IsReal (m i)) (hg : ∀ i, IsReal (g i)) (hb : ∀ i, IsReal (b i)) (j : S8000x64.Idx) :
    IsReal (k13_pay1 (F := Ideal) y m g b j) := by
  obtain ⟨p, q, rfl⟩ : ∃ (p : Fin 8000) (q : Fin 64), j = ix2 p q := ⟨j 0, j 1, eq_ix2 j⟩
  rw [k13_pay1_apply]
  have hr := lnRadicand (fun c : Fin 64 => y (ix2 p c) - m (ix2 p c)) fun c => (hy _).sub (hm _)
  exact lnOut_real (hy _) (hm _) hr.1 hr.2 (hg _) (hb _)

theorem k4_pay1_real (y m : FVec Ideal S8000x64 .f32) (g b : Vec Ideal S1x64 .f32) (hy : ∀ i, IsReal (y i))
    (hm : ∀ i, IsReal (m i)) (hg : ∀ i, IsReal (g i)) (hb : ∀ i, IsReal (b i)) (j : S8000x64.Idx) :
    IsReal (k4_pay1 (F := Ideal) y m g b j) := by
  rw [k4_pay1_eq_max]
  exact (k13_pay1_real y m g b hy hm hg hb j).max IsReal.zero

end Cert.Bridge

end
-- ==== Proof.Math.SpecLaw.lean ====
/-
  The layer's two spellings agree on real data, real data stays real, and ten block sums make a column sum.

  For Z with every entry real the tail fed the one-pass statistics (variance clamped inside) is the tail fed the
  two-pass statistics (no clamp): column by column the clamped one-pass variance is the two-pass variance. Every stage
  of the layer maps real entries to real entries, the radicands of both normalisations being positive reals. The
  running sums accumulated block by block from zero are the column sums, for any entries.
-/
import proofs.«178590_j59433757442359_2_alg».proof.Proof.Math.Spec
import proofs.«178590_j59433757442359_2_alg».proof.Proof.Math.RealPayload

noncomputable section

namespace Cert.Bridge

open Idealize.ShloMosaic

/-! ## The two spellings agree -/

/-- Column by column: the activation with one-pass statistics is the activation with two-pass statistics. -/
theorem specY_stats_eq (Z : Fin 80000 → Fin 128 → EReal) (hZ : ∀ i j, IsReal (Z i j)) (g1 bt1 : Fin 128 → EReal)
    (w2 : Fin 128 → Fin 64 → EReal) (b2 : Fin 64 → EReal) :
    specY bnAct Z (meanOf Z) (varOnePass Z) g1 bt1 w2 b2 = specY bnAct2 Z (meanOf Z) (varTwoPass Z) g1 bt1 w2 b2 := by
  funext i q
  unfold specY
  refine congrArg (fun a : EReal => a + b2 q) (Finset.sum_congr rfl fun j _ => congrArg (fun a : EReal => a * w2 j q) ?_)
  exact bnAct_stats_eq (fun i => Z i j) (fun i => hZ i j) (Z i j) (g1 j) (bt1 j)

/-- (T1) The tail fed the one-pass statistics is the tail fed the two-pass statistics, for real Z. -/
theorem specTail_eq_ref (relu : Bool) (Z : Fin 80000 → Fin 128 → EReal) (hZ : ∀ i j, IsReal (Z i j))
    (g1 bt1 : Fin 128 → EReal) (w2 : Fin 128 → Fin 64 → EReal) (b2 lng lnb : Fin 64 → EReal) :
    specTail relu Z (meanOf Z) (varOnePass Z) g1 bt1 w2 b2 lng lnb
      = specTailRef relu Z (meanOf Z) (varTwoPass Z) g1 bt1 w2 b2 lng lnb := by
  unfold specTail specTailRef
  rw [specY_stats_eq Z hZ]

/-! ## Real data stays real -/

theorem specEmbed_real {R K : ℕ} (x : Fin R → Fin K → EReal) (w : Fin K → Fin 64 → EReal) (b : Fin 64 → EReal)
    (hx : ∀ i k, IsReal (x i k)) (hw : ∀ k q, IsReal (w k q)) (hb : ∀ q, IsReal (b q)) (i : Fin R) (q : Fin 64) :
    IsReal (specEmbed x w b i q) :=
  ((IsReal.sum _ _ fun k _ => (hx i k).mul (hw k q)).add (hb q)).max IsReal.zero

theorem specMsg_real {R : ℕ} (h e : Fin R → Fin 64 → EReal) (hh : ∀ i q, IsReal (h i q)) (he : ∀ i q, IsReal (e i q))
    (i : Fin R) (q : Fin 64) : IsReal (specMsg h e i q) :=
  ((hh i q).add (he i q)).max IsReal.zero

/-- The float word of 1.0 is real. -/
theorem IsReal.oneWord : IsReal (Ideal.ofBits .f32 0x3F800000#32) := ⟨1, ofBits_one⟩

theorem specZin_real (eps : EReal) (h agg : Fin 80000 → Fin 64 → EReal) (he : IsReal eps) (hh : ∀ i q, IsReal (h i q))
    (ha : ∀ i q, IsReal (agg i q)) (i : Fin 80000) (q : Fin 64) : IsReal (specZin eps h agg i q) :=
  ((IsReal.oneWord.add he).mul (hh i q)).add (ha i q)

theorem specZ_real (zin : Fin 80000 → Fin 64 → EReal) (w1 : Fin 64 → Fin 128 → EReal) (b1 : Fin 128 → EReal)
    (hz : ∀ i k, IsReal (zin i k)) (hw : ∀ k j, IsReal (w1 k j)) (hb : ∀ j, IsReal (b1 j)) (i : Fin 80000) (j : Fin 128) :
    IsReal (specZ zin w1 b1 i j) :=
  (IsReal.sum _ _ fun k _ => (hz i k).mul (hw k j)).add (hb j)

theorem meanOf_real (Z : Fin 80000 → Fin 128 → EReal) (hZ : ∀ i j, IsReal (Z i j)) (j : Fin 128) : IsReal (meanOf Z j) :=
  (stats_real (fun i => Z i j) fun i => hZ i j).1

theorem varOnePass_real (Z : Fin 80000 → Fin 128 → EReal) (hZ : ∀ i j, IsReal (Z i j)) (j : Fin 128) :
    IsReal (varOnePass Z j) :=
  (stats_real (fun i => Z i j) fun i => hZ i j).2

/-- The clamped one-pass variance is the two-pass variance, for a real column. -/
theorem max_varOnePass_eq (Z : Fin 80000 → Fin 128 → EReal) (hZ : ∀ i j, IsReal (Z i j)) (j : Fin 128) :
    max (varOnePass Z j) 0 = varTwoPass Z j :=
  batchVar_eq (fun i => Z i j) fun i => hZ i j

/-- The two-pass variance of a real column is a real number that is not negative. -/
theorem varTwoPass_real (Z : Fin 80000 → Fin 128 → EReal) (hZ : ∀ i j, IsReal (Z i j)) (j : Fin 128) :
    IsReal (varTwoPass Z j) ∧ 0 ≤ varTwoPass Z j := by
  rw [← max_varOnePass_eq Z hZ j]
  exact ⟨(varOnePass_real Z hZ j).max IsReal.zero, le_max_right _ _⟩

/-- The second dense layer over the clamped activation is real for real inputs. -/
theorem specY_real (Z : Fin 80000 → Fin 128 → EReal) (mean var g1 bt1 : Fin 128 → EReal) (w2 : Fin 128 → Fin 64 → EReal)
    (b2 : Fin 64 → EReal) (hZ : ∀ i j, IsReal (Z i j)) (hm : ∀ j, IsReal (mean j)) (hv : ∀ j, IsReal (var j))
    (hg : ∀ j, IsReal (g1 j)) (hbt : ∀ j, IsReal (bt1 j)) (hw : ∀ j q, IsReal (w2 j q)) (hb : ∀ q, IsReal (b2 q))
    (i : Fin 80000) (q : Fin 64) : IsReal (specY bnAct Z mean var g1 bt1 w2 b2 i q) :=
  (IsReal.sum _ _ fun j _ => (bnAct_real (hZ i j) (hm j) (hv j) (hg j) (hbt j)).mul (hw j q)).add (hb q)

/-- The layer normalisation of a real Y is real. -/
theorem specLN_real (relu : Bool) (y : Fin 80000 → Fin 64 → EReal) (lng lnb : Fin 64 → EReal) (hy : ∀ i q, IsReal (y i q))
    (hg : ∀ q, IsReal (lng q)) (hb : ∀ q, IsReal (lnb q)) (i : Fin 80000) (q : Fin 64) : IsReal (specLN relu y lng lnb i q) := by
  have hm : IsReal (rowMean y i) := IsReal.div_64 (IsReal.sum _ _ fun c _ => hy i c)
  have hr := lnRadicand (fun c : Fin 64 => y i c - rowMean y i) fun c => (hy i c).sub hm
  have ho : IsReal (lnOut (y i q) (rowMean y i) (rowVarAbout y (rowMean y) i) (lng q) (lnb q)) :=
    lnOut_real (hy i q) hm hr.1 hr.2 (hg q) (hb q)
  unfold specLN
  cases relu
  · exact ho
  · exact ho.max IsReal.zero

/-- (T2) The tail's output is real when Z and every parameter are real (any real mean and variance fed in). -/
theorem specTail_real (relu : Bool) (Z : Fin 80000 → Fin 128 → EReal) (mean var g1 bt1 : Fin 128 → EReal)
    (w2 : Fin 128 → Fin 64 → EReal) (b2 lng lnb : Fin 64 → EReal) (hZ : ∀ i j, IsReal (Z i j)) (hm : ∀ j, IsReal (mean j))
    (hv : ∀ j, IsReal (var j)) (hg : ∀ j, IsReal (g1 j)) (hbt : ∀ j, IsReal (bt1 j)) (hw : ∀ j q, IsReal (w2 j q))
    (hb : ∀ q, IsReal (b2 q)) (hlg : ∀ q, IsReal (lng q)) (hlb : ∀ q, IsReal (lnb q)) (i : Fin 80000) (q : Fin 64) :
    IsReal (specTail relu Z mean var g1 bt1 w2 b2 lng lnb i q) :=
  specLN_real relu _ lng lnb (specY_real Z mean var g1 bt1 w2 b2 hZ hm hv hg hbt hw hb) hlg hlb i q

/-- The tail fed the one-pass statistics of a real Z is real. -/
theorem specTail_stats_real (relu : Bool) (Z : Fin 80000 → Fin 128 → EReal) (g1 bt1 : Fin 128 → EReal)
    (w2 : Fin 128 → Fin 64 → EReal) (b2 lng lnb : Fin 64 → EReal) (hZ : ∀ i j, IsReal (Z i j)) (hg : ∀ j, IsReal (g1 j))
    (hbt : ∀ j, IsReal (bt1 j)) (hw : ∀ j q, IsReal (w2 j q)) (hb : ∀ q, IsReal (b2 q)) (hlg : ∀ q, IsReal (lng q))
    (hlb : ∀ q, IsReal (lnb q)) (i : Fin 80000) (q : Fin 64) :
    IsReal (specTail relu Z (meanOf Z) (varOnePass Z) g1 bt1 w2 b2 lng lnb i q) :=
  specTail_real relu Z _ _ g1 bt1 w2 b2 lng lnb hZ (meanOf_real Z hZ) (varOnePass_real Z hZ) hg hbt hw hb hlg hlb i q

/-! ## Ten block sums make a column sum -/

/-- The running sum left by n blocks is the sum of the first n block sums. -/
theorem foldBlocks_eq_sum {β : Type*} [AddCommMonoid β] (B : ℕ → β) (n : ℕ) :
    foldBlocks B n = ∑ t ∈ Finset.range n, B t := by
  induction n with
  | zero => rfl
  | succ n ih => rw [Finset.sum_range_succ, ← ih]; rfl

/-- (T3) Ten blocks of 8000 rows, each block's sum added to what the blocks before left, from zero: the sum over all
    80000 rows. -/
theorem foldBlocks_rows {β : Type*} [AddCommMonoid β] (H : Fin 80000 → β) : foldBlocks (blockSum H) 10 = ∑ i, H i := by
  rw [foldBlocks_eq_sum, sum_rows_blocks_range]
  exact Finset.sum_congr rfl fun t ht => by
    unfold blockSum
    have h : t < 10 := Finset.mem_range.mp ht
    rw [dif_pos h]
    exact Finset.sum_congr rfl fun p _ => by rw [dif_pos h]

/-- The kernel's running column sum after the ten blocks is the column sum of Z. -/
theorem foldBlocks_colSum (Z : Fin 80000 → Fin 128 → EReal) (j : Fin 128) :
    foldBlocks (blockSum fun i => Z i j) 10 = colSum Z j :=
  foldBlocks_rows fun i => Z i j

/-- The kernel's running column sum of squares after the ten blocks is the column sum of squares of Z. -/
theorem foldBlocks_colSq (Z : Fin 80000 → Fin 128 → EReal) (j : Fin 128) :
    foldBlocks (blockSum fun i => Z i j * Z i j) 10 = colSq Z j :=
  foldBlocks_rows fun i => Z i j * Z i j

/-- The same written out: ((((0 + B₀) + B₁) + …) + B₉. -/
theorem foldBlocks_ten {β : Type*} [AddCommMonoid β] (B : ℕ → β) :
    foldBlocks B 10 = 0 + B 0 + B 1 + B 2 + B 3 + B 4 + B 5 + B 6 + B 7 + B 8 + B 9 := rfl

end Cert.Bridge

end
-- ==== Proof.KI.Val3.lean ====
import proofs.«178590_j59433757442359_2_alg».proof.Proof.KI.Rows3
import proofs.«178590_j59433757442359_2_alg».proof.Proof.Math.Gin1
import proofs.«178590_j59433757442359_2_alg».proof.Proof.Math.Spec
import proofs.«178590_j59433757442359_2_alg».proof.Proof.Math.SpecLaw
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 3, from blocks to the arrays: after the last grid point the first output array is Z = zin·W1 + b1 at every
    row, and the two one-row outputs are the ten block sums of Z's columns (and of their squares) added up from zero. -/

abbrev ain3_0 (c : Dev nD) : S80000x64.Idx → EReal := V c (Pipeline.arrRef spec3 0)
abbrev ain3_1 (c : Dev nD) : S64x128.Idx → EReal := V c (Pipeline.arrRef spec3 1)
abbrev ain3_2 (c : Dev nD) : S128.Idx → EReal := V c (Pipeline.arrRef spec3 2)
abbrev aoutZ3 (c : Dev nD) : S80000x128.Idx → EReal := (dat3 V c).arrAt 3 cfg3.N
abbrev aoutS3 (c : Dev nD) : S1x128.Idx → EReal := (dat3 V c).arrAt 4 cfg3.N
abbrev aoutQ3 (c : Dev nD) : S1x128.Idx → EReal := (dat3 V c).arrAt 5 cfg3.N

/-- One entry of Z. -/
def zEntry3 (a0 : S80000x64.Idx → EReal) (a1 : S64x128.Idx → EReal) (a2 : S128.Idx → EReal) (r : Fin 80000) (j : Fin 128) : EReal :=
  ∑ k : Fin 64, a0 (ix2 r k) * a1 (ix2 k j) + a2 (ix1 j)
def zArr3 (a0 : S80000x64.Idx → EReal) (a1 : S64x128.Idx → EReal) (a2 : S128.Idx → EReal) : S80000x128.Idx → EReal :=
  fun i => zEntry3 a0 a1 a2 (i 0) (i 1)
theorem zArr3_apply (a0 : S80000x64.Idx → EReal) (a1 : S64x128.Idx → EReal) (a2 : S128.Idx → EReal) (r : Fin 80000) (j : Fin 128) :
    zArr3 a0 a1 a2 (ix2 r j) = zEntry3 a0 a1 a2 r j := rfl
/-- The column sums of Z (of its squares), as the kernel adds them: block by block from zero. -/
def sArr3 (a0 : S80000x64.Idx → EReal) (a1 : S64x128.Idx → EReal) (a2 : S128.Idx → EReal) : S1x128.Idx → EReal :=
  fun i => Cert.Bridge.foldBlocks (Cert.Bridge.blockSum fun r => zEntry3 a0 a1 a2 r (i 1)) 10
def qArr3 (a0 : S80000x64.Idx → EReal) (a1 : S64x128.Idx → EReal) (a2 : S128.Idx → EReal) : S1x128.Idx → EReal :=
  fun i => Cert.Bridge.foldBlocks (Cert.Bridge.blockSum fun r => zEntry3 a0 a1 a2 r (i 1) * zEntry3 a0 a1 a2 r (i 1)) 10

/-- One entry of a block of Z, when the loaded row block holds rows `o · 8000 …` of the first operand. -/
theorem z_entry3 (x : Vec Ideal S8000x64 .f32) (w : Vec Ideal S64x128 .f32) (b : Vec Ideal S128 .f32)
    (a0 : S80000x64.Idx → EReal) (a1 : S64x128.Idx → EReal) (a2 : S128.Idx → EReal) (o : ℕ)
    (hx : ∀ (p : Fin 8000) (k : Fin 64) (r : Fin 80000), r.val = o * 8000 + p.val → x (ix2 p k) = a0 (ix2 r k))
    (hw : w = a1) (hb : b = a2) (p : Fin 8000) (j : Fin 128) (r : Fin 80000) (hr : r.val = o * 8000 + p.val) :
    k3_pay3 (F := Ideal) x w b (ix2 p j) = zEntry3 a0 a1 a2 r j := by
  subst hw hb
  rw [Cert.Bridge.k3_pay3_apply]
  unfold zEntry3
  refine congrArg (fun s => s + b (ix1 j)) (Finset.sum_congr rfl fun k _ => ?_)
  rw [hx p k r hr]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The row block at point `t` holds rows `t · 8000 …` of the first operand; the other two blocks are the whole arrays. -/
theorem blk3_0 (c : Dev nD) (t : Fin cfg3.N) (p : Fin 8000) (k : Fin 64) (r : Fin 80000) (hr : r.val = t.val * 8000 + p.val) :
    iblk3 V c 0 t (ix2 p k) = ain3_0 V c (ix2 r k) := by
  obtain ⟨e0, e1, -⟩ := idx_facts3 t
  show V c (Pipeline.arrRef spec3 0) (((cfg3.win 0).blk t).view.emb (ix2 p k)) = V c (Pipeline.arrRef spec3 0) (ix2 r k)
  have h : ((cfg3.win 0).blk t).view.emb (ix2 p k) = (ix2 r k : S80000x64.Idx) := by
    funext a; apply Fin.ext
    match a with
    | ⟨0, _⟩ => show win3_0.index t (0 : Fin 2) * 8000 + 1 * p.val = r.val; omega
    | ⟨1, _⟩ => show win3_0.index t (1 : Fin 2) * 64 + 1 * k.val = k.val; omega
  rw [h]
theorem blk3_1 (c : Dev nD) (t : Fin cfg3.N) : iblk3 V c 1 t = ain3_1 V c := by
  obtain ⟨-, -, e2, e3, -⟩ := idx_facts3 t
  funext y
  show V c (Pipeline.arrRef spec3 1) (((cfg3.win 1).blk t).view.emb y) = V c (Pipeline.arrRef spec3 1) y
  have h : ((cfg3.win 1).blk t).view.emb y = y := by
    funext a; apply Fin.ext
    match a with
    | ⟨0, _⟩ => show win3_1.index t (0 : Fin 2) * 64 + 1 * (y 0).val = (y 0).val; omega
    | ⟨1, _⟩ => show win3_1.index t (1 : Fin 2) * 128 + 1 * (y 1).val = (y 1).val; omega
  rw [h]
theorem blk3_2 (c : Dev nD) (t : Fin cfg3.N) : iblk3 V c 2 t = ain3_2 V c := by
  obtain ⟨-, -, -, -, e4, -⟩ := idx_facts3 t
  funext y
  show V c (Pipeline.arrRef spec3 2) (((cfg3.win 2).blk t).view.emb y) = V c (Pipeline.arrRef spec3 2) y
  have h : ((cfg3.win 2).blk t).view.emb y = y := by
    funext a; apply Fin.ext
    match a with
    | ⟨0, _⟩ => show win3_2.index t (0 : Fin 1) * 128 + 1 * (y 0).val = (y 0).val; omega
  rw [h]

/-- An entry of the block of Z at point `t` is Z's entry at row `t · 8000 + p`. -/
theorem zblock3 (c : Dev nD) (t : Fin cfg3.N) (p : Fin 8000) (j : Fin 128) (r : Fin 80000) (hr : r.val = t.val * 8000 + p.val) :
    k3_pay3 (F := Ideal) (iblk3 V c 0 t) (iblk3 V c 1 t) (iblk3 V c 2 t) (ix2 p j)
      = zEntry3 (ain3_0 V c) (ain3_1 V c) (ain3_2 V c) r j :=
  z_entry3 (iblk3 V c 0 t) (iblk3 V c 1 t) (iblk3 V c 2 t) (ain3_0 V c) (ain3_1 V c) (ain3_2 V c) t.val
    (fun p k r hr => blk3_0 V c t p k r hr) (blk3_1 V c t) (blk3_2 V c t) p j r hr

/-! ## The first output: Z -/

theorem flushedZ3_eq (c : Dev nD) (t : Fin cfg3.N) :
    (dat3 V c).flushed 3 t = ((cfg3.win 3).blk t).view.read (Elt Ideal) (zArr3 (ain3_0 V c) (ain3_1 V c) (ain3_2 V c)) := by
  show (cfg3.win 3).cut (grid3.coords t) ((dat3 V c).after 3 t) = _
  rw [after3_3_eq]
  obtain ⟨-, -, -, -, -, e5, e6, -⟩ := idx_facts3 t
  funext j
  obtain ⟨p, q, rfl⟩ : ∃ (p : Fin 8000) (q : Fin 128), j = ix2 p q := ⟨j 0, j 1, eq_ix2 j⟩
  have hlt : t.val * 8000 + p.val < 80000 := by
    have hN : cfg3.N = 10 := N_3
    have := t.isLt; have := p.isLt; omega
  have hemb : ((cfg3.win 3).blk t).view.emb (ix2 p q) = (ix2 (⟨t.val * 8000 + p.val, hlt⟩ : Fin 80000) q : S80000x128.Idx) := by
    funext a; apply Fin.ext
    match a with
    | ⟨0, _⟩ => show win3_3.index t (0 : Fin 2) * 8000 + 1 * p.val = t.val * 8000 + p.val; omega
    | ⟨1, _⟩ => show win3_3.index t (1 : Fin 2) * 128 + 1 * q.val = q.val; omega
  show k3_pay3 (F := Ideal) (iblk3 V c 0 t) (iblk3 V c 1 t) (iblk3 V c 2 t) (ix2 p q)
    = zArr3 (ain3_0 V c) (ain3_1 V c) (ain3_2 V c) (((cfg3.win 3).blk t).view.emb (ix2 p q))
  rw [hemb, zArr3_apply]
  exact zblock3 V c t p q _ rfl

theorem mem_blkZ3 (t : Fin cfg3.N) (i : S80000x128.Idx) :
    i ∈ ((cfg3.win 3).blk t).view.set ↔ ∀ a : Fin 2, win3_3.index t a * S8000x128.size a ≤ (i a).val ∧ (i a).val < win3_3.index t a * S8000x128.size a + S8000x128.size a := by
  show i ∈ ((View.whole main_v27_0).slice (win3_3.rect t)).set ↔ _
  rw [View.set_slice_whole, Rect.mem_set_unit]
  exact Iff.rfl

theorem coverZ3 (i : S80000x128.Idx) : ∃ t : Fin cfg3.N, (cfg3.win 3).flush t = true ∧ i ∈ ((cfg3.win 3).blk t).view.set := by
  have hi0 : (i 0).val < 80000 := (i 0).isLt
  have hi1 : (i 1).val < 128 := (i 1).isLt
  have hN : cfg3.N = 10 := N_3
  refine ⟨⟨(i 0).val / 8000, by rw [hN]; omega⟩, flush3_3 _, ?_⟩
  rw [mem_blkZ3]
  obtain ⟨-, -, -, -, -, e5, e6, -⟩ := idx_facts3 ⟨(i 0).val / 8000, by rw [hN]; omega⟩
  intro a
  match a with
  | ⟨0, _⟩ => show win3_3.index _ (0 : Fin 2) * 8000 ≤ (i 0).val ∧ (i 0).val < win3_3.index _ (0 : Fin 2) * 8000 + 8000; rw [e5]; show (i 0).val / 8000 * 8000 ≤ (i 0).val ∧ (i 0).val < (i 0).val / 8000 * 8000 + 8000; omega
  | ⟨1, _⟩ => show win3_3.index _ (1 : Fin 2) * 128 ≤ (i 1).val ∧ (i 1).val < win3_3.index _ (1 : Fin 2) * 128 + 128; rw [e6]; omega

/-- THE FIRST OUTPUT ARRAY after the region. -/
theorem arrZ3 (c : Dev nD) : aoutZ3 V c = zArr3 (ain3_0 V c) (ain3_1 V c) (ain3_2 V c) :=
  (dat3 V c).arrAt_eq_of_cover 3 _ (fun t _ => flushedZ3_eq V c t) (coverZ3)

/-! ## The two one-row outputs: the block sums added up -/

/-- The sum over block `t`'s rows of column `j` of the block of Z is Z's block sum. -/
theorem bsum3 (c : Dev nD) (t : Fin cfg3.N) (j : Fin 128) :
    ∑ p : Fin 8000, k3_pay3 (F := Ideal) (iblk3 V c 0 t) (iblk3 V c 1 t) (iblk3 V c 2 t) (ix2 p j)
      = Cert.Bridge.blockSum (fun r => zEntry3 (ain3_0 V c) (ain3_1 V c) (ain3_2 V c) r j) t.val := by
  have ht : t.val < 10 := lt_of_lt_of_eq t.isLt N_3
  unfold Cert.Bridge.blockSum
  rw [dif_pos ht]
  exact Finset.sum_congr rfl fun p _ => zblock3 V c t p j (Cert.Lib.BlockSum.at_ (K := 10) (n := 8000) ⟨t.val, ht⟩ p) rfl
theorem bsq3 (c : Dev nD) (t : Fin cfg3.N) (j : Fin 128) :
    ∑ p : Fin 8000, k3_pay3 (F := Ideal) (iblk3 V c 0 t) (iblk3 V c 1 t) (iblk3 V c 2 t) (ix2 p j)
        * k3_pay3 (F := Ideal) (iblk3 V c 0 t) (iblk3 V c 1 t) (iblk3 V c 2 t) (ix2 p j)
      = Cert.Bridge.blockSum (fun r => zEntry3 (ain3_0 V c) (ain3_1 V c) (ain3_2 V c) r j * zEntry3 (ain3_0 V c) (ain3_1 V c) (ain3_2 V c) r j) t.val := by
  have ht : t.val < 10 := lt_of_lt_of_eq t.isLt N_3
  unfold Cert.Bridge.blockSum
  rw [dif_pos ht]
  exact Finset.sum_congr rfl fun p _ => by rw [zblock3 V c t p j (Cert.Lib.BlockSum.at_ (K := 10) (n := 8000) ⟨t.val, ht⟩ p) rfl]

/-- The kept rows after block `n`: the first `n + 1` block sums added up from zero. -/
theorem rowsS3_apply (c : Dev nD) (j : Fin 128) : ∀ (n : ℕ) (hn : n < cfg3.N),
    (rows3 V c n hn).1 (ix2 (0 : Fin 1) j)
      = Cert.Bridge.foldBlocks (Cert.Bridge.blockSum fun r => zEntry3 (ain3_0 V c) (ain3_1 V c) (ain3_2 V c) r j) (n + 1)
  | 0, hn => by
    show k3_pay4 (F := Ideal) _ _ _ (k3_pay1 (F := Ideal)) (ix2 (0 : Fin 1) j) = _
    rw [Cert.Bridge.k3_pay4_apply, Cert.Bridge.k3_pay1_eq, bsum3 V c ⟨0, hn⟩ j]
    rfl
  | n + 1, hn => by
    show k3_pay4 (F := Ideal) _ _ _ (rows3 V c n (Nat.lt_of_succ_lt hn)).1 (ix2 (0 : Fin 1) j) = _
    rw [Cert.Bridge.k3_pay4_apply, rowsS3_apply c j n (Nat.lt_of_succ_lt hn), bsum3 V c ⟨n + 1, hn⟩ j]
    rfl
theorem rowsQ3_apply (c : Dev nD) (j : Fin 128) : ∀ (n : ℕ) (hn : n < cfg3.N),
    (rows3 V c n hn).2 (ix2 (0 : Fin 1) j)
      = Cert.Bridge.foldBlocks (Cert.Bridge.blockSum fun r => zEntry3 (ain3_0 V c) (ain3_1 V c) (ain3_2 V c) r j * zEntry3 (ain3_0 V c) (ain3_1 V c) (ain3_2 V c) r j) (n + 1)
  | 0, hn => by
    show k3_pay5 (F := Ideal) _ _ _ (k3_pay2 (F := Ideal)) (ix2 (0 : Fin 1) j) = _
    rw [Cert.Bridge.k3_pay5_apply, Cert.Bridge.k3_pay2_eq, bsq3 V c ⟨0, hn⟩ j]
    rfl
  | n + 1, hn => by
    show k3_pay5 (F := Ideal) _ _ _ (rows3 V c n (Nat.lt_of_succ_lt hn)).2 (ix2 (0 : Fin 1) j) = _
    rw [Cert.Bridge.k3_pay5_apply, rowsQ3_apply c j n (Nat.lt_of_succ_lt hn), bsq3 V c ⟨n + 1, hn⟩ j]
    rfl

/-! ## The arrays of the two one-row outputs: written back once, after the last block -/

theorem flushedS3_eq (c : Dev nD) (t : Fin cfg3.N) (hf : (cfg3.win 4).flush t = true) :
    (dat3 V c).flushed 4 t = ((cfg3.win 4).blk t).view.read (Elt Ideal) (sArr3 (ain3_0 V c) (ain3_1 V c) (ain3_2 V c)) := by
  show (cfg3.win 4).cut (grid3.coords t) ((dat3 V c).after 4 t) = _
  rw [after3_4_eq]
  obtain ⟨-, -, -, -, -, -, -, e7, e8, e9, e10⟩ := idx_facts3 t
  have h9 : t.val = 9 := by
    have h := (flush3_4 t).mp hf; have := t.isLt; have hN : cfg3.N = 10 := N_3; omega
  funext y
  obtain ⟨u, q, rfl⟩ : ∃ (u : Fin 1) (q : Fin 128), y = ix2 u q := ⟨y 0, y 1, eq_ix2 y⟩
  obtain rfl : u = 0 := Subsingleton.elim _ _
  have hemb : ((cfg3.win 4).blk t).view.emb (ix2 (0 : Fin 1) q) = (ix2 (0 : Fin 1) q : S1x128.Idx) := by
    funext a; apply Fin.ext
    match a with
    | ⟨0, _⟩ => show win3_4.index t (0 : Fin 2) * 1 + 1 * 0 = 0; omega
    | ⟨1, _⟩ => show win3_4.index t (1 : Fin 2) * 128 + 1 * q.val = q.val; omega
  show (rows3 V c t.val t.isLt).1 (ix2 (0 : Fin 1) q)
    = sArr3 (ain3_0 V c) (ain3_1 V c) (ain3_2 V c) (((cfg3.win 4).blk t).view.emb (ix2 (0 : Fin 1) q))
  rw [hemb, rowsS3_apply V c q t.val t.isLt]
  show Cert.Bridge.foldBlocks _ (t.val + 1) = Cert.Bridge.foldBlocks _ 10
  rw [h9]

theorem mem_blkS3 (t : Fin cfg3.N) (i : S1x128.Idx) :
    i ∈ ((cfg3.win 4).blk t).view.set ↔ ∀ a : Fin 2, win3_4.index t a * S1x128.size a ≤ (i a).val ∧ (i a).val < win3_4.index t a * S1x128.size a + S1x128.size a := by
  show i ∈ ((View.whole main_v27_1).slice (win3_4.rect t)).set ↔ _
  rw [View.set_slice_whole, Rect.mem_set_unit]
  exact Iff.rfl

theorem coverS3 (i : S1x128.Idx) : ∃ t : Fin cfg3.N, (cfg3.win 4).flush t = true ∧ i ∈ ((cfg3.win 4).blk t).view.set := by
  have hi0 : (i 0).val < 1 := (i 0).isLt
  have hi1 : (i 1).val < 128 := (i 1).isLt
  have hN : cfg3.N = 10 := N_3
  refine ⟨⟨9, by rw [hN]; omega⟩, (flush3_4 _).mpr rfl, ?_⟩
  rw [mem_blkS3]
  obtain ⟨-, -, -, -, -, -, -, e7, e8, e9, e10⟩ := idx_facts3 ⟨9, by rw [hN]; omega⟩
  intro a
  match a with
  | ⟨0, _⟩ => show win3_4.index _ (0 : Fin 2) * 1 ≤ (i 0).val ∧ (i 0).val < win3_4.index _ (0 : Fin 2) * 1 + 1; omega
  | ⟨1, _⟩ => show win3_4.index _ (1 : Fin 2) * 128 ≤ (i 1).val ∧ (i 1).val < win3_4.index _ (1 : Fin 2) * 128 + 128; omega

theorem arrS3 (c : Dev nD) : aoutS3 V c = sArr3 (ain3_0 V c) (ain3_1 V c) (ain3_2 V c) :=
  (dat3 V c).arrAt_eq_of_cover 4 _ (fun t hf => flushedS3_eq V c t hf) (coverS3)

theorem flushedQ3_eq (c : Dev nD) (t : Fin cfg3.N) (hf : (cfg3.win 5).flush t = true) :
    (dat3 V c).flushed 5 t = ((cfg3.win 5).blk t).view.read (Elt Ideal) (qArr3 (ain3_0 V c) (ain3_1 V c) (ain3_2 V c)) := by
  show (cfg3.win 5).cut (grid3.coords t) ((dat3 V c).after 5 t) = _
  rw [after3_5_eq]
  obtain ⟨-, -, -, -, -, -, -, e7, e8, e9, e10⟩ := idx_facts3 t
  have h9 : t.val = 9 := by
    have h := (flush3_5 t).mp hf; have := t.isLt; have hN : cfg3.N = 10 := N_3; omega
  funext y
  obtain ⟨u, q, rfl⟩ : ∃ (u : Fin 1) (q : Fin 128), y = ix2 u q := ⟨y 0, y 1, eq_ix2 y⟩
  obtain rfl : u = 0 := Subsingleton.elim _ _
  have hemb : ((cfg3.win 5).blk t).view.emb (ix2 (0 : Fin 1) q) = (ix2 (0 : Fin 1) q : S1x128.Idx) := by
    funext a; apply Fin.ext
    match a with
    | ⟨0, _⟩ => show win3_5.index t (0 : Fin 2) * 1 + 1 * 0 = 0; omega
    | ⟨1, _⟩ => show win3_5.index t (1 : Fin 2) * 128 + 1 * q.val = q.val; omega
  show (rows3 V c t.val t.isLt).2 (ix2 (0 : Fin 1) q)
    = qArr3 (ain3_0 V c) (ain3_1 V c) (ain3_2 V c) (((cfg3.win 5).blk t).view.emb (ix2 (0 : Fin 1) q))
  rw [hemb, rowsQ3_apply V c q t.val t.isLt]
  show Cert.Bridge.foldBlocks _ (t.val + 1) = Cert.Bridge.foldBlocks _ 10
  rw [h9]

theorem mem_blkQ3 (t : Fin cfg3.N) (i : S1x128.Idx) :
    i ∈ ((cfg3.win 5).blk t).view.set ↔ ∀ a : Fin 2, win3_5.index t a * S1x128.size a ≤ (i a).val ∧ (i a).val < win3_5.index t a * S1x128.size a + S1x128.size a := by
  show i ∈ ((View.whole main_v27_2).slice (win3_5.rect t)).set ↔ _
  rw [View.set_slice_whole, Rect.mem_set_unit]
  exact Iff.rfl

theorem coverQ3 (i : S1x128.Idx) : ∃ t : Fin cfg3.N, (cfg3.win 5).flush t = true ∧ i ∈ ((cfg3.win 5).blk t).view.set := by
  have hi0 : (i 0).val < 1 := (i 0).isLt
  have hi1 : (i 1).val < 128 := (i 1).isLt
  have hN : cfg3.N = 10 := N_3
  refine ⟨⟨9, by rw [hN]; omega⟩, (flush3_5 _).mpr rfl, ?_⟩
  rw [mem_blkQ3]
  obtain ⟨-, -, -, -, -, -, -, e7, e8, e9, e10⟩ := idx_facts3 ⟨9, by rw [hN]; omega⟩
  intro a
  match a with
  | ⟨0, _⟩ => show win3_5.index _ (0 : Fin 2) * 1 ≤ (i 0).val ∧ (i 0).val < win3_5.index _ (0 : Fin 2) * 1 + 1; omega
  | ⟨1, _⟩ => show win3_5.index _ (1 : Fin 2) * 128 ≤ (i 1).val ∧ (i 1).val < win3_5.index _ (1 : Fin 2) * 128 + 128; omega

theorem arrQ3 (c : Dev nD) : aoutQ3 V c = qArr3 (ain3_0 V c) (ain3_1 V c) (ain3_2 V c) :=
  (dat3 V c).arrAt_eq_of_cover 5 _ (fun t hf => flushedQ3_eq V c t hf) (coverQ3)

/-- Read at a column: the column sum of Z, and of its squares. -/
theorem arrS3_apply (c : Dev nD) (q : Fin 128) :
    aoutS3 V c (ix2 (0 : Fin 1) q) = Cert.Bridge.colSum (fun r j => zEntry3 (ain3_0 V c) (ain3_1 V c) (ain3_2 V c) r j) q := by
  rw [arrS3]; exact Cert.Bridge.foldBlocks_colSum (fun r j => zEntry3 (ain3_0 V c) (ain3_1 V c) (ain3_2 V c) r j) q
theorem arrQ3_apply (c : Dev nD) (q : Fin 128) :
    aoutQ3 V c (ix2 (0 : Fin 1) q) = Cert.Bridge.colSq (fun r j => zEntry3 (ain3_0 V c) (ain3_1 V c) (ain3_2 V c) r j) q := by
  rw [arrQ3]; exact Cert.Bridge.foldBlocks_colSq (fun r j => zEntry3 (ain3_0 V c) (ain3_1 V c) (ain3_2 V c) r j) q
theorem arrZ3_apply (c : Dev nD) (r : Fin 80000) (j : Fin 128) :
    aoutZ3 V c (ix2 r j) = zEntry3 (ain3_0 V c) (ain3_1 V c) (ain3_2 V c) r j := by
  rw [arrZ3]; rfl

end Cert.KernelIdeal.Reg

end
-- ==== Proof.KI.ValGin.lean ====
import proofs.«178590_j59433757442359_2_alg».proof.Proof.Gen.KernelIdeal.Skeleton
import proofs.«178590_j59433757442359_2_alg».proof.Proof.Math.Gin2
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.ValueIdx
open Cert.Bridge (bnAct lnOut)

/-! # The second half of a GIN layer as one function of its nine operand arrays

    Operands: a0 the hidden rows [80000, 128]; a1, a2 the batch mean and variance [1, 128]; a3, a4 the batch
    normalisation's scale and shift [1, 128]; a5 the weight [128, 64]; a6 the bias [64]; a7, a8 the layer
    normalisation's scale and shift [1, 64]. -/

/-- Row r of Y = act · W + b at column q, act the batch-normalised, rectified hidden row. -/
def ginY (a0 : S80000x128.Idx → EReal) (a1 a2 a3 a4 : S1x128.Idx → EReal) (a5 : S128x64.Idx → EReal) (a6 : S64.Idx → EReal) (r : Fin 80000) (q : Fin 64) : EReal :=
  ∑ k : Fin 128, bnAct (a0 (ix2 r k)) (a1 (ix2 0 k)) (a2 (ix2 0 k)) (a3 (ix2 0 k)) (a4 (ix2 0 k)) * a5 (ix2 k q) + a6 (ix1 q)

/-- The mean of row r of Y. -/
def ginM (a0 : S80000x128.Idx → EReal) (a1 a2 a3 a4 : S1x128.Idx → EReal) (a5 : S128x64.Idx → EReal) (a6 : S64.Idx → EReal) (r : Fin 80000) : EReal :=
  Ideal.div (∑ c : Fin 64, ginY a0 a1 a2 a3 a4 a5 a6 r c) (Ideal.ofBits .f32 0x42800000#32)

/-- The mean squared deviation of row r of Y. -/
def ginV (a0 : S80000x128.Idx → EReal) (a1 a2 a3 a4 : S1x128.Idx → EReal) (a5 : S128x64.Idx → EReal) (a6 : S64.Idx → EReal) (r : Fin 80000) : EReal :=
  Ideal.div (∑ c : Fin 64, (ginY a0 a1 a2 a3 a4 a5 a6 r c - ginM a0 a1 a2 a3 a4 a5 a6 r) * (ginY a0 a1 a2 a3 a4 a5 a6 r c - ginM a0 a1 a2 a3 a4 a5 a6 r)) (Ideal.ofBits .f32 0x42800000#32)

/-- The layer-normalised entry (r, q), before any rectifier. -/
def ginPre (a0 : S80000x128.Idx → EReal) (a1 a2 a3 a4 : S1x128.Idx → EReal) (a5 : S128x64.Idx → EReal) (a6 : S64.Idx → EReal) (a7 a8 : S1x64.Idx → EReal) (r : Fin 80000) (q : Fin 64) : EReal :=
  lnOut (ginY a0 a1 a2 a3 a4 a5 a6 r q) (ginM a0 a1 a2 a3 a4 a5 a6 r) (ginV a0 a1 a2 a3 a4 a5 a6 r) (a7 (ix2 0 q)) (a8 (ix2 0 q))

/-- The output array of a layer that ends with a rectifier. -/
def ginArrRelu (a0 : S80000x128.Idx → EReal) (a1 a2 a3 a4 : S1x128.Idx → EReal) (a5 : S128x64.Idx → EReal) (a6 : S64.Idx → EReal) (a7 a8 : S1x64.Idx → EReal) : S80000x64.Idx → EReal :=
  fun i => max (ginPre a0 a1 a2 a3 a4 a5 a6 a7 a8 (i 0) (i 1)) 0

/-- The output array of the last layer (no rectifier). -/
def ginArrLast (a0 : S80000x128.Idx → EReal) (a1 a2 a3 a4 : S1x128.Idx → EReal) (a5 : S128x64.Idx → EReal) (a6 : S64.Idx → EReal) (a7 a8 : S1x64.Idx → EReal) : S80000x64.Idx → EReal :=
  fun i => ginPre a0 a1 a2 a3 a4 a5 a6 a7 a8 (i 0) (i 1)

theorem ginArrRelu_apply (a0 : S80000x128.Idx → EReal) (a1 a2 a3 a4 : S1x128.Idx → EReal) (a5 : S128x64.Idx → EReal) (a6 : S64.Idx → EReal) (a7 a8 : S1x64.Idx → EReal) (r : Fin 80000) (q : Fin 64) :
    ginArrRelu a0 a1 a2 a3 a4 a5 a6 a7 a8 (ix2 r q) = max (ginPre a0 a1 a2 a3 a4 a5 a6 a7 a8 r q) 0 := rfl

theorem ginArrLast_apply (a0 : S80000x128.Idx → EReal) (a1 a2 a3 a4 : S1x128.Idx → EReal) (a5 : S128x64.Idx → EReal) (a6 : S64.Idx → EReal) (a7 a8 : S1x64.Idx → EReal) (r : Fin 80000) (q : Fin 64) :
    ginArrLast a0 a1 a2 a3 a4 a5 a6 a7 a8 (ix2 r q) = ginPre a0 a1 a2 a3 a4 a5 a6 a7 a8 r q := rfl

/-! ## One block of rows -/

section Block

variable (z : Vec Ideal S8000x128 .f32) (w : Vec Ideal S128x64 .f32) (b : Vec Ideal S64 .f32)
  (a0 : S80000x128.Idx → EReal) (a1 a2 a3 a4 : S1x128.Idx → EReal) (a5 : S128x64.Idx → EReal) (a6 : S64.Idx → EReal) (a7 a8 : S1x64.Idx → EReal) (o : ℕ)
  (hz : ∀ (p : Fin 8000) (k : Fin 128) (r : Fin 80000), r.val = o * 8000 + p.val → z (ix2 p k) = a0 (ix2 r k))

include hz in
/-- Y on the block: the loaded block holds rows `o · 8000 …` of a0, the other loaded blocks are whole arrays. -/
theorem blockY (p : Fin 8000) (q : Fin 64) (r : Fin 80000) (hr : r.val = o * 8000 + p.val) :
    k4_pay2 (F := Ideal) z a2 a1 a3 a4 a5 a6 (ix2 p q) = ginY a0 a1 a2 a3 a4 a5 a6 r q := by
  rw [Cert.Bridge.k4_pay2_apply]
  unfold ginY
  refine congrArg (· + a6 (ix1 q)) (Finset.sum_congr rfl fun k _ => ?_)
  rw [hz p k r hr]

include hz in
/-- The row mean on the block. -/
theorem blockM (p : Fin 8000) (q : Fin 64) (r : Fin 80000) (hr : r.val = o * 8000 + p.val) :
    k4_pay3 (F := Ideal) z a2 a1 a3 a4 a5 a6 (ix2 p q) = ginM a0 a1 a2 a3 a4 a5 a6 r := by
  rw [Cert.Bridge.k4_pay3_apply]
  unfold ginM
  refine congrArg (Ideal.div · (Ideal.ofBits .f32 0x42800000#32)) (Finset.sum_congr rfl fun c _ => ?_)
  exact blockY z a0 a1 a2 a3 a4 a5 a6 o hz p c r hr

include hz in
/-- The layer-normalised entry on the block, before any rectifier. -/
theorem blockPre (p : Fin 8000) (q : Fin 64) (r : Fin 80000) (hr : r.val = o * 8000 + p.val) :
    k13_pay1 (F := Ideal) (k4_pay2 z a2 a1 a3 a4 a5 a6) (k4_pay3 z a2 a1 a3 a4 a5 a6) a7 a8 (ix2 p q) = ginPre a0 a1 a2 a3 a4 a5 a6 a7 a8 r q := by
  rw [Cert.Bridge.k13_pay1_apply]
  unfold ginPre ginV
  rw [blockY z a0 a1 a2 a3 a4 a5 a6 o hz p q r hr, blockM z a0 a1 a2 a3 a4 a5 a6 o hz p q r hr]
  refine congrArg (fun s => lnOut _ _ (Ideal.div s (Ideal.ofBits .f32 0x42800000#32)) _ _) (Finset.sum_congr rfl fun c _ => ?_)
  rw [blockY z a0 a1 a2 a3 a4 a5 a6 o hz p c r hr, blockM z a0 a1 a2 a3 a4 a5 a6 o hz p c r hr]

include hz in
/-- One entry of the stored block of a layer that ends with a rectifier. -/
theorem gin_entry_relu (j : S8000x64.Idx) (i : S80000x64.Idx) (hi0 : (i 0).val = o * 8000 + (j 0).val) (hi1 : (i 1).val = (j 1).val) :
    k4_pay1 (F := Ideal) (k4_pay2 z a2 a1 a3 a4 a5 a6) (k4_pay3 z a2 a1 a3 a4 a5 a6) a7 a8 j = ginArrRelu a0 a1 a2 a3 a4 a5 a6 a7 a8 i := by
  obtain ⟨p, q, rfl⟩ : ∃ (p : Fin 8000) (q : Fin 64), j = ix2 p q := ⟨j 0, j 1, eq_ix2 j⟩
  obtain ⟨r, q', rfl⟩ : ∃ (r : Fin 80000) (q' : Fin 64), i = ix2 r q' := ⟨i 0, i 1, eq_ix2 i⟩
  have hr : r.val = o * 8000 + p.val := hi0
  obtain rfl : q' = q := Fin.ext hi1
  rw [Cert.Bridge.k4_pay1_eq_max, ginArrRelu_apply, blockPre z a0 a1 a2 a3 a4 a5 a6 a7 a8 o hz p q' r hr]

include hz in
/-- One entry of the stored block of the last layer. -/
theorem gin_entry_last (j : S8000x64.Idx) (i : S80000x64.Idx) (hi0 : (i 0).val = o * 8000 + (j 0).val) (hi1 : (i 1).val = (j 1).val) :
    k13_pay1 (F := Ideal) (k4_pay2 z a2 a1 a3 a4 a5 a6) (k4_pay3 z a2 a1 a3 a4 a5 a6) a7 a8 j = ginArrLast a0 a1 a2 a3 a4 a5 a6 a7 a8 i := by
  obtain ⟨p, q, rfl⟩ : ∃ (p : Fin 8000) (q : Fin 64), j = ix2 p q := ⟨j 0, j 1, eq_ix2 j⟩
  obtain ⟨r, q', rfl⟩ : ∃ (r : Fin 80000) (q' : Fin 64), i = ix2 r q' := ⟨i 0, i 1, eq_ix2 i⟩
  have hr : r.val = o * 8000 + p.val := hi0
  obtain rfl : q' = q := Fin.ext hi1
  rw [ginArrLast_apply, blockPre z a0 a1 a2 a3 a4 a5 a6 a7 a8 o hz p q' r hr]

end Block

end Cert.KernelIdeal.Reg
-- ==== Proof.RefRunPieces.lean ====
/-
  The layer's first stage in finer pieces, and the parameter slices by name — the same operations' functions as
  Proof/RefRunLayers.lean's, cut at more points, so that a program which runs part of a layer elsewhere can be stated
  over the same names:
    `wrapIdx src`         a negative index counted from the end (`src + 80000` where `src < 0`)
    `gatherRows h src`    row `wrapIdx src e` of `h` for each edge `e`
    `messages h ea src`   `relu (gatherRows h src + ea)`
    `scatterSum dst msg`  at each node, the sum of `msg`'s rows over the edges whose destination it is, onto zeros
    `selfPlusAgg h agg eps`  `(1 + eps) · h + agg`
  and `aggregate = selfPlusAgg h (scatterSum dst (messages h ea src)) eps` by definition. `eps_l … lnb_l`: slice `l` of
  each parameter array, reshaped to drop the sliced axis; `layer_l` is the layer at those, by definition.
-/
import proofs.«178590_j59433757442359_2_alg».proof.Proof.RefRunLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def wrapIdx (src : (⟨S1280000, .i32⟩ : BufTy).Contents (Elt F)) : (⟨S1280000, .i32⟩ : BufTy).Contents (Elt F) :=
  select (cmpi .slt (src) (broadcastInDim S1280000 ![] bcast_S_S1280000 (constantI S_ 32 0#32))) (addi (src) (broadcastInDim S1280000 ![] bcast_S_S1280000 (constantI S_ 32 80000#32))) (src)

def gatherRows (h : (⟨S80000x64, .f32⟩ : BufTy).Contents (Elt F)) (src : (⟨S1280000, .i32⟩ : BufTy).Contents (Elt F)) : (⟨S1280000x64, .f32⟩ : BufTy).Contents (Elt F) :=
  Host.gather gather_S80000x64_S1280000x1_S1280000x64_1_0_n_n_0_1_164 (h) (broadcastInDim S1280000x1 ![0] bcast_S1280000_S1280000x1_0 (wrapIdx src))

def messages (h : (⟨S80000x64, .f32⟩ : BufTy).Contents (Elt F)) (ea : (⟨S1280000x64, .f32⟩ : BufTy).Contents (Elt F)) (src : (⟨S1280000, .i32⟩ : BufTy).Contents (Elt F)) : (⟨S1280000x64, .f32⟩ : BufTy).Contents (Elt F) :=
  maximumf (addf (gatherRows h src) (ea)) (broadcastInDim S1280000x64 ![] bcast_S_S1280000x64 (constant S_ .f32 0x00000000#32))

def scatterSum (dst : (⟨S1280000, .i32⟩ : BufTy).Contents (Elt F)) (msg : (⟨S1280000x64, .f32⟩ : BufTy).Contents (Elt F)) : (⟨S80000x64, .f32⟩ : BufTy).Contents (Elt F) :=
  Host.scatterAdd scatter_S80000x64_S1280000x1_S1280000x64_1_0_0_1 (broadcastInDim S80000x64 ![] bcast_S_S80000x64 (constant S_ .f32 0x00000000#32)) (broadcastInDim S1280000x1 ![0] bcast_S1280000_S1280000x1_0 (dst)) (msg)

def selfPlusAgg (h : (⟨S80000x64, .f32⟩ : BufTy).Contents (Elt F)) (agg : (⟨S80000x64, .f32⟩ : BufTy).Contents (Elt F)) (eps : (⟨S_, .f32⟩ : BufTy).Contents (Elt F)) : (⟨S80000x64, .f32⟩ : BufTy).Contents (Elt F) :=
  addf (mulf (broadcastInDim S80000x64 ![] bcast_S_S80000x64 (addf (constant S_ .f32 0x3F800000#32) (eps))) (h)) (agg)

theorem aggregate_eq (h : (⟨S80000x64, .f32⟩ : BufTy).Contents (Elt F)) (ea : (⟨S1280000x64, .f32⟩ : BufTy).Contents (Elt F)) (src dst : (⟨S1280000, .i32⟩ : BufTy).Contents (Elt F)) (eps : (⟨S_, .f32⟩ : BufTy).Contents (Elt F)) :
    aggregate h ea src dst eps = selfPlusAgg h (scatterSum dst (messages h ea src)) eps := rfl

/-- Slice 0 of `main_arg13`: the layer's scalar `eps` in layer 0. -/
def eps_0 (a13 : (⟨S4, .f32⟩ : BufTy).Contents (Elt F)) : (⟨S_, .f32⟩ : BufTy).Contents (Elt F) :=
  shapeCast S_ (extractStridedSlice S1 ![0] (a13) slices_S4_S1_0) shapeCasts_S1_S_

/-- Slice 0 of `main_arg7`: the first linear map's matrix in layer 0. -/
def W1_0 (a7 : (⟨S4x64x128, .f32⟩ : BufTy).Contents (Elt F)) : (⟨S64x128, .f32⟩ : BufTy).Contents (Elt F) :=
  shapeCast S64x128 (extractStridedSlice S1x64x128 ![0, 0, 0] (a7) slices_S4x64x128_S1x64x128_0_0_0) shapeCasts_S1x64x128_S64x128

/-- Slice 0 of `main_arg8`: the first linear map's bias in layer 0. -/
def b1_0 (a8 : (⟨S4x128, .f32⟩ : BufTy).Contents (Elt F)) : (⟨S128, .f32⟩ : BufTy).Contents (Elt F) :=
  shapeCast S128 (extractStridedSlice S1x128 ![0, 0] (a8) slices_S4x128_S1x128_0_0) shapeCasts_S1x128_S128

/-- Slice 0 of `main_arg9`: the batch norm's scale in layer 0. -/
def g1_0 (a9 : (⟨S4x128, .f32⟩ : BufTy).Contents (Elt F)) : (⟨S128, .f32⟩ : BufTy).Contents (Elt F) :=
  shapeCast S128 (extractStridedSlice S1x128 ![0, 0] (a9) slices_S4x128_S1x128_0_0) shapeCasts_S1x128_S128

/-- Slice 0 of `main_arg10`: the batch norm's shift in layer 0. -/
def bt1_0 (a10 : (⟨S4x128, .f32⟩ : BufTy).Contents (Elt F)) : (⟨S128, .f32⟩ : BufTy).Contents (Elt F) :=
  shapeCast S128 (extractStridedSlice S1x128 ![0, 0] (a10) slices_S4x128_S1x128_0_0) shapeCasts_S1x128_S128

/-- Slice 0 of `main_arg11`: the second linear map's matrix in layer 0. -/
def W2_0 (a11 : (⟨S4x128x64, .f32⟩ : BufTy).Contents (Elt F)) : (⟨S128x64, .f32⟩ : BufTy).Contents (Elt F) :=
  shapeCast S128x64 (extractStridedSlice S1x128x64 ![0, 0, 0] (a11) slices_S4x128x64_S1x128x64_0_0_0) shapeCasts_S1x128x64_S128x64

/-- Slice 0 of `main_arg12`: the second linear map's bias in layer 0. -/
def b2_0 (a12 : (⟨S4x64, .f32⟩ : BufTy).Contents (Elt F)) : (⟨S64, .f32⟩ : BufTy).Contents (Elt F) :=
  shapeCast S64 (extractStridedSlice S1x64 ![0, 0] (a12) slices_S4x64_S1x64_0_0) shapeCasts_S1x64_S64

/-- Slice 0 of `main_arg14`: the layer norm's scale in layer 0. -/
def lng_0 (a14 : (⟨S4x64, .f32⟩ : BufTy).Contents (Elt F)) : (⟨S64, .f32⟩ : BufTy).Contents (Elt F) :=
  shapeCast S64 (extractStridedSlice S1x64 ![0, 0] (a14) slices_S4x64_S1x64_0_0) shapeCasts_S1x64_S64

/-- Slice 0 of `main_arg15`: the layer norm's shift in layer 0. -/
def lnb_0 (a15 : (⟨S4x64, .f32⟩ : BufTy).Contents (Elt F)) : (⟨S64, .f32⟩ : BufTy).Contents (Elt F) :=
  shapeCast S64 (extractStridedSlice S1x64 ![0, 0] (a15) slices_S4x64_S1x64_0_0) shapeCasts_S1x64_S64

/-- Slice 1 of `main_arg13`: the layer's scalar `eps` in layer 1. -/
def eps_1 (a13 : (⟨S4, .f32⟩ : BufTy).Contents (Elt F)) : (⟨S_, .f32⟩ : BufTy).Contents (Elt F) :=
  shapeCast S_ (extractStridedSlice S1 ![1] (a13) slices_S4_S1_1) shapeCasts_S1_S_

/-- Slice 1 of `main_arg7`: the first linear map's matrix in layer 1. -/
def W1_1 (a7 : (⟨S4x64x128, .f32⟩ : BufTy).Contents (Elt F)) : (⟨S64x128, .f32⟩ : BufTy).Contents (Elt F) :=
  shapeCast S64x128 (extractStridedSlice S1x64x128 ![1, 0, 0] (a7) slices_S4x64x128_S1x64x128_1_0_0) shapeCasts_S1x64x128_S64x128

/-- Slice 1 of `main_arg8`: the first linear map's bias in layer 1. -/
def b1_1 (a8 : (⟨S4x128, .f32⟩ : BufTy).Contents (Elt F)) : (⟨S128, .f32⟩ : BufTy).Contents (Elt F) :=
  shapeCast S128 (extractStridedSlice S1x128 ![1, 0] (a8) slices_S4x128_S1x128_1_0) shapeCasts_S1x128_S128

/-- Slice 1 of `main_arg9`: the batch norm's scale in layer 1. -/
def g1_1 (a9 : (⟨S4x128, .f32⟩ : BufTy).Contents (Elt F)) : (⟨S128, .f32⟩ : BufTy).Contents (Elt F) :=
  shapeCast S128 (extractStridedSlice S1x128 ![1, 0] (a9) slices_S4x128_S1x128_1_0) shapeCasts_S1x128_S128

/-- Slice 1 of `main_arg10`: the batch norm's shift in layer 1. -/
def bt1_1 (a10 : (⟨S4x128, .f32⟩ : BufTy).Contents (Elt F)) : (⟨S128, .f32⟩ : BufTy).Contents (Elt F) :=
  shapeCast S128 (extractStridedSlice S1x128 ![1, 0] (a10) slices_S4x128_S1x128_1_0) shapeCasts_S1x128_S128

/-- Slice 1 of `main_arg11`: the second linear map's matrix in layer 1. -/
def W2_1 (a11 : (⟨S4x128x64, .f32⟩ : BufTy).Contents (Elt F)) : (⟨S128x64, .f32⟩ : BufTy).Contents (Elt F) :=
  shapeCast S128x64 (extractStridedSlice S1x128x64 ![1, 0, 0] (a11) slices_S4x128x64_S1x128x64_1_0_0) shapeCasts_S1x128x64_S128x64

/-- Slice 1 of `main_arg12`: the second linear map's bias in layer 1. -/
def b2_1 (a12 : (⟨S4x64, .f32⟩ : BufTy).Contents (Elt F)) : (⟨S64, .f32⟩ : BufTy).Contents (Elt F) :=
  shapeCast S64 (extractStridedSlice S1x64 ![1, 0] (a12) slices_S4x64_S1x64_1_0) shapeCasts_S1x64_S64

/-- Slice 1 of `main_arg14`: the layer norm's scale in layer 1. -/
def lng_1 (a14 : (⟨S4x64, .f32⟩ : BufTy).Contents (Elt F)) : (⟨S64, .f32⟩ : BufTy).Contents (Elt F) :=
  shapeCast S64 (extractStridedSlice S1x64 ![1, 0] (a14) slices_S4x64_S1x64_1_0) shapeCasts_S1x64_S64

/-- Slice 1 of `main_arg15`: the layer norm's shift in layer 1. -/
def lnb_1 (a15 : (⟨S4x64, .f32⟩ : BufTy).Contents (Elt F)) : (⟨S64, .f32⟩ : BufTy).Contents (Elt F) :=
  shapeCast S64 (extractStridedSlice S1x64 ![1, 0] (a15) slices_S4x64_S1x64_1_0) shapeCasts_S1x64_S64

/-- Slice 2 of `main_arg13`: the layer's scalar `eps` in layer 2. -/
def eps_2 (a13 : (⟨S4, .f32⟩ : BufTy).Contents (Elt F)) : (⟨S_, .f32⟩ : BufTy).Contents (Elt F) :=
  shapeCast S_ (extractStridedSlice S1 ![2] (a13) slices_S4_S1_2) shapeCasts_S1_S_

/-- Slice 2 of `main_arg7`: the first linear map's matrix in layer 2. -/
def W1_2 (a7 : (⟨S4x64x128, .f32⟩ : BufTy).Contents (Elt F)) : (⟨S64x128, .f32⟩ : BufTy).Contents (Elt F) :=
  shapeCast S64x128 (extractStridedSlice S1x64x128 ![2, 0, 0] (a7) slices_S4x64x128_S1x64x128_2_0_0) shapeCasts_S1x64x128_S64x128

/-- Slice 2 of `main_arg8`: the first linear map's bias in layer 2. -/
def b1_2 (a8 : (⟨S4x128, .f32⟩ : BufTy).Contents (Elt F)) : (⟨S128, .f32⟩ : BufTy).Contents (Elt F) :=
  shapeCast S128 (extractStridedSlice S1x128 ![2, 0] (a8) slices_S4x128_S1x128_2_0) shapeCasts_S1x128_S128

/-- Slice 2 of `main_arg9`: the batch norm's scale in layer 2. -/
def g1_2 (a9 : (⟨S4x128, .f32⟩ : BufTy).Contents (Elt F)) : (⟨S128, .f32⟩ : BufTy).Contents (Elt F) :=
  shapeCast S128 (extractStridedSlice S1x128 ![2, 0] (a9) slices_S4x128_S1x128_2_0) shapeCasts_S1x128_S128

/-- Slice 2 of `main_arg10`: the batch norm's shift in layer 2. -/
def bt1_2 (a10 : (⟨S4x128, .f32⟩ : BufTy).Contents (Elt F)) : (⟨S128, .f32⟩ : BufTy).Contents (Elt F) :=
  shapeCast S128 (extractStridedSlice S1x128 ![2, 0] (a10) slices_S4x128_S1x128_2_0) shapeCasts_S1x128_S128

/-- Slice 2 of `main_arg11`: the second linear map's matrix in layer 2. -/
def W2_2 (a11 : (⟨S4x128x64, .f32⟩ : BufTy).Contents (Elt F)) : (⟨S128x64, .f32⟩ : BufTy).Contents (Elt F) :=
  shapeCast S128x64 (extractStridedSlice S1x128x64 ![2, 0, 0] (a11) slices_S4x128x64_S1x128x64_2_0_0) shapeCasts_S1x128x64_S128x64

/-- Slice 2 of `main_arg12`: the second linear map's bias in layer 2. -/
def b2_2 (a12 : (⟨S4x64, .f32⟩ : BufTy).Contents (Elt F)) : (⟨S64, .f32⟩ : BufTy).Contents (Elt F) :=
  shapeCast S64 (extractStridedSlice S1x64 ![2, 0] (a12) slices_S4x64_S1x64_2_0) shapeCasts_S1x64_S64

/-- Slice 2 of `main_arg14`: the layer norm's scale in layer 2. -/
def lng_2 (a14 : (⟨S4x64, .f32⟩ : BufTy).Contents (Elt F)) : (⟨S64, .f32⟩ : BufTy).Contents (Elt F) :=
  shapeCast S64 (extractStridedSlice S1x64 ![2, 0] (a14) slices_S4x64_S1x64_2_0) shapeCasts_S1x64_S64

/-- Slice 2 of `main_arg15`: the layer norm's shift in layer 2. -/
def lnb_2 (a15 : (⟨S4x64, .f32⟩ : BufTy).Contents (Elt F)) : (⟨S64, .f32⟩ : BufTy).Contents (Elt F) :=
  shapeCast S64 (extractStridedSlice S1x64 ![2, 0] (a15) slices_S4x64_S1x64_2_0) shapeCasts_S1x64_S64

/-- Slice 3 of `main_arg13`: the layer's scalar `eps` in layer 3. -/
def eps_3 (a13 : (⟨S4, .f32⟩ : BufTy).Contents (Elt F)) : (⟨S_, .f32⟩ : BufTy).Contents (Elt F) :=
  shapeCast S_ (extractStridedSlice S1 ![3] (a13) slices_S4_S1_3) shapeCasts_S1_S_

/-- Slice 3 of `main_arg7`: the first linear map's matrix in layer 3. -/
def W1_3 (a7 : (⟨S4x64x128, .f32⟩ : BufTy).Contents (Elt F)) : (⟨S64x128, .f32⟩ : BufTy).Contents (Elt F) :=
  shapeCast S64x128 (extractStridedSlice S1x64x128 ![3, 0, 0] (a7) slices_S4x64x128_S1x64x128_3_0_0) shapeCasts_S1x64x128_S64x128

/-- Slice 3 of `main_arg8`: the first linear map's bias in layer 3. -/
def b1_3 (a8 : (⟨S4x128, .f32⟩ : BufTy).Contents (Elt F)) : (⟨S128, .f32⟩ : BufTy).Contents (Elt F) :=
  shapeCast S128 (extractStridedSlice S1x128 ![3, 0] (a8) slices_S4x128_S1x128_3_0) shapeCasts_S1x128_S128

/-- Slice 3 of `main_arg9`: the batch norm's scale in layer 3. -/
def g1_3 (a9 : (⟨S4x128, .f32⟩ : BufTy).Contents (Elt F)) : (⟨S128, .f32⟩ : BufTy).Contents (Elt F) :=
  shapeCast S128 (extractStridedSlice S1x128 ![3, 0] (a9) slices_S4x128_S1x128_3_0) shapeCasts_S1x128_S128

/-- Slice 3 of `main_arg10`: the batch norm's shift in layer 3. -/
def bt1_3 (a10 : (⟨S4x128, .f32⟩ : BufTy).Contents (Elt F)) : (⟨S128, .f32⟩ : BufTy).Contents (Elt F) :=
  shapeCast S128 (extractStridedSlice S1x128 ![3, 0] (a10) slices_S4x128_S1x128_3_0) shapeCasts_S1x128_S128

/-- Slice 3 of `main_arg11`: the second linear map's matrix in layer 3. -/
def W2_3 (a11 : (⟨S4x128x64, .f32⟩ : BufTy).Contents (Elt F)) : (⟨S128x64, .f32⟩ : BufTy).Contents (Elt F) :=
  shapeCast S128x64 (extractStridedSlice S1x128x64 ![3, 0, 0] (a11) slices_S4x128x64_S1x128x64_3_0_0) shapeCasts_S1x128x64_S128x64

/-- Slice 3 of `main_arg12`: the second linear map's bias in layer 3. -/
def b2_3 (a12 : (⟨S4x64, .f32⟩ : BufTy).Contents (Elt F)) : (⟨S64, .f32⟩ : BufTy).Contents (Elt F) :=
  shapeCast S64 (extractStridedSlice S1x64 ![3, 0] (a12) slices_S4x64_S1x64_3_0) shapeCasts_S1x64_S64

/-- Slice 3 of `main_arg14`: the layer norm's scale in layer 3. -/
def lng_3 (a14 : (⟨S4x64, .f32⟩ : BufTy).Contents (Elt F)) : (⟨S64, .f32⟩ : BufTy).Contents (Elt F) :=
  shapeCast S64 (extractStridedSlice S1x64 ![3, 0] (a14) slices_S4x64_S1x64_3_0) shapeCasts_S1x64_S64

/-- Slice 3 of `main_arg15`: the layer norm's shift in layer 3. -/
def lnb_3 (a15 : (⟨S4x64, .f32⟩ : BufTy).Contents (Elt F)) : (⟨S64, .f32⟩ : BufTy).Contents (Elt F) :=
  shapeCast S64 (extractStridedSlice S1x64 ![3, 0] (a15) slices_S4x64_S1x64_3_0) shapeCasts_S1x64_S64

theorem layer_0_eq (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) :
    layer_0 h ea src dst a7 a8 a9 a10 a11 a12 a13 a14 a15 = layer h ea src dst (eps_0 a13) (W1_0 a7) (b1_0 a8) (g1_0 a9) (bt1_0 a10) (W2_0 a11) (b2_0 a12) (lng_0 a14) (lnb_0 a15) := rfl

theorem layer_1_eq (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) :
    layer_1 h ea src dst a7 a8 a9 a10 a11 a12 a13 a14 a15 = layer h ea src dst (eps_1 a13) (W1_1 a7) (b1_1 a8) (g1_1 a9) (bt1_1 a10) (W2_1 a11) (b2_1 a12) (lng_1 a14) (lnb_1 a15) := rfl

theorem layer_2_eq (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) :
    layer_2 h ea src dst a7 a8 a9 a10 a11 a12 a13 a14 a15 = layer h ea src dst (eps_2 a13) (W1_2 a7) (b1_2 a8) (g1_2 a9) (bt1_2 a10) (W2_2 a11) (b2_2 a12) (lng_2 a14) (lnb_2 a15) := rfl

theorem layer_3_eq (h : (⟨S80000x64, .f32⟩ : BufTy).Contents (Elt F)) (ea : (⟨S1280000x64, .f32⟩ : BufTy).Contents (Elt F)) (src dst : (⟨S1280000, .i32⟩ : BufTy).Contents (Elt F)) (a7 : (⟨S4x64x128, .f32⟩ : BufTy).Contents (Elt F)) (a8 : (⟨S4x128, .f32⟩ : BufTy).Contents (Elt F)) (a9 : (⟨S4x128, .f32⟩ : BufTy).Contents (Elt F)) (a10 : (⟨S4x128, .f32⟩ : BufTy).Contents (Elt F)) (a11 : (⟨S4x128x64, .f32⟩ : BufTy).Contents (Elt F)) (a12 : (⟨S4x64, .f32⟩ : BufTy).Contents (Elt F)) (a13 : (⟨S4, .f32⟩ : BufTy).Contents (Elt F)) (a14 : (⟨S4x64, .f32⟩ : BufTy).Contents (Elt F)) (a15 : (⟨S4x64, .f32⟩ : BufTy).Contents (Elt F)) :
    layer_3 h ea src dst a7 a8 a9 a10 a11 a12 a13 a14 a15 = lastLayer h ea src dst (eps_3 a13) (W1_3 a7) (b1_3 a8) (g1_3 a9) (bt1_3 a10) (W2_3 a11) (b2_3 a12) (lng_3 a14) (lnb_3 a15) := rfl

end Cert.ReferenceIdeal.RefRun

end
-- ==== Proof.KI.HostDefs.lean ====
/-
  What the kernel program's host stretches compute that the reference function spells differently:
    `meanOfSum s`       the column mean from the column sum accumulated elsewhere: `s / 80000`
    `varOnePass s ss`   the column variance in one pass, from the column sum and the column sum of squares:
                        `ss / 80000 − (s / 80000) · (s / 80000)`
    `asRow128 v`, `asRow64 v`   a vector as a one-row matrix (same elements, row-major)
  Everything else a host stretch computes is stated over the reference function's own pieces (Proof/RefRunPieces.lean).
-/
import proofs.«178590_j59433757442359_2_alg».proof.Proof.Gen.KernelIdeal
import proofs.«178590_j59433757442359_2_alg».proof.Proof.RefRunPieces

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable {F : FTy → Type} [FloatOps F]

def meanOfSum (s : (⟨S1x128, .f32⟩ : BufTy).Contents (Elt F)) : (⟨S1x128, .f32⟩ : BufTy).Contents (Elt F) :=
  Host.divf s (broadcastInDim S1x128 ![] bcast_S_S1x128 (constant S_ .f32 0x479C4000#32))

def varOnePass (s ss : (⟨S1x128, .f32⟩ : BufTy).Contents (Elt F)) : (⟨S1x128, .f32⟩ : BufTy).Contents (Elt F) :=
  subf (Host.divf ss (broadcastInDim S1x128 ![] bcast_S_S1x128 (constant S_ .f32 0x479C4000#32))) (mulf (meanOfSum s) (meanOfSum s))

def asRow128 (v : (⟨S128, .f32⟩ : BufTy).Contents (Elt F)) : (⟨S1x128, .f32⟩ : BufTy).Contents (Elt F) := shapeCast S1x128 v shapeCasts_S128_S1x128

def asRow64 (v : (⟨S64, .f32⟩ : BufTy).Contents (Elt F)) : (⟨S1x64, .f32⟩ : BufTy).Contents (Elt F) := shapeCast S1x64 v shapeCasts_S64_S1x64

end Cert.KernelIdeal.HostSide

end
-- ==== Proof.KI.ChainDefs.lean ====
/-
  One layer of the kernel program as a function of arrays (extended reals): the host stretches in the reference
  function's own pieces (Proof/RefRunPieces.lean; the mean and one-pass variance from KI/HostDefs.lean), the regions by
  the array functions their write-backs fold to (KI/Val2.lean `msgArr2`, KI/Val3.lean `zArr3` / `sArr3` / `qArr3`,
  KI/ValGin.lean `ginArrRelu` / `ginArrLast`):
    `kX`      (1 + eps) · h + Σ over edges into a node of max (h[src] + ea, 0)
    `kLayer`  the layer's second half applied to Z = kX · W1 + b1, its column mean from the column sums and its
              one-pass column variance from the column sums of squares, then relu; `kLastLayer` without the relu.
-/
import proofs.«178590_j59433757442359_2_alg».proof.Proof.KI.Val2
import proofs.«178590_j59433757442359_2_alg».proof.Proof.KI.Val3
import proofs.«178590_j59433757442359_2_alg».proof.Proof.KI.ValGin
import proofs.«178590_j59433757442359_2_alg».proof.Proof.KI.HostDefs

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

def kX (h : (S80000x64.Idx → EReal)) (ea : (S1280000x64.Idx → EReal)) (src dst : ((⟨S1280000, .i32⟩ : BufTy).Contents (Elt Ideal))) (eps : (S_.Idx → EReal)) : (S80000x64.Idx → EReal) :=
  selfPlusAgg (F := Ideal) h (scatterSum (F := Ideal) dst (msgArr2 (gatherRows (F := Ideal) h src) ea)) eps

def kLayer (h : (S80000x64.Idx → EReal)) (ea : (S1280000x64.Idx → EReal)) (src dst : ((⟨S1280000, .i32⟩ : BufTy).Contents (Elt Ideal))) (eps : (S_.Idx → EReal)) (W1 : (S64x128.Idx → EReal)) (b1 : (S128.Idx → EReal)) (g1 bt1 : (S128.Idx → EReal)) (W2 : (S128x64.Idx → EReal)) (b2 : (S64.Idx → EReal)) (lng lnb : (S64.Idx → EReal)) : (S80000x64.Idx → EReal) :=
  ginArrRelu (zArr3 (kX h ea src dst eps) W1 b1) (meanOfSum (F := Ideal) (sArr3 (kX h ea src dst eps) W1 b1))
    (varOnePass (F := Ideal) (sArr3 (kX h ea src dst eps) W1 b1) (qArr3 (kX h ea src dst eps) W1 b1))
    (asRow128 (F := Ideal) g1) (asRow128 (F := Ideal) bt1) W2 b2 (asRow64 (F := Ideal) lng) (asRow64 (F := Ideal) lnb)

def kLastLayer (h : (S80000x64.Idx → EReal)) (ea : (S1280000x64.Idx → EReal)) (src dst : ((⟨S1280000, .i32⟩ : BufTy).Contents (Elt Ideal))) (eps : (S_.Idx → EReal)) (W1 : (S64x128.Idx → EReal)) (b1 : (S128.Idx → EReal)) (g1 bt1 : (S128.Idx → EReal)) (W2 : (S128x64.Idx → EReal)) (b2 : (S64.Idx → EReal)) (lng lnb : (S64.Idx → EReal)) : (S80000x64.Idx → EReal) :=
  ginArrLast (zArr3 (kX h ea src dst eps) W1 b1) (meanOfSum (F := Ideal) (sArr3 (kX h ea src dst eps) W1 b1))
    (varOnePass (F := Ideal) (sArr3 (kX h ea src dst eps) W1 b1) (qArr3 (kX h ea src dst eps) W1 b1))
    (asRow128 (F := Ideal) g1) (asRow128 (F := Ideal) bt1) W2 b2 (asRow64 (F := Ideal) lng) (asRow64 (F := Ideal) lnb)

end Cert.KernelIdeal.Chain

end
-- ==== Proof.KI.HostL0.lean ====
/-
  Layer 0's three host stretches of the kernel program (`hostOps2`, `hostOps3`, `hostOps4`), read from ANY contents `W` of
  the device's buffers: each buffer a stretch hands on — to a later region's window or a later stretch — holds, after the
  stretch, the named function of the contents `W` has at the stretch's inputs. The names are the reference function's
  own pieces (Proof/RefRunPieces.lean) wherever the operations are the same ones; `meanOfSum`, `varOnePass`, `asRow128`,
  `asRow64` (KI/HostDefs.lean) where the kernel program computes from sums accumulated in a region.
-/
import proofs.«178590_j59433757442359_2_alg».proof.Proof.Gen.KernelIdeal.Launch
import proofs.«178590_j59433757442359_2_alg».proof.Proof.KI.HostDefs

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable {F : FTy → Type} [FloatOps F]

set_option maxRecDepth 8192 in
set_option maxHeartbeats 1300000 in
theorem hostOps2_main_v3 (W : Valuation τ sig (Elt F)) :
    after hostOps2 W (Proc.devRef .tc main_v3) = srcCol (W (Proc.devRef .tc main_arg1)) := by
  simp only [hostOps2]
  after_results_simp <;> rfl

set_option maxRecDepth 8192 in
set_option maxHeartbeats 1300000 in
theorem hostOps2_main_v5 (W : Valuation τ sig (Elt F)) :
    after hostOps2 W (Proc.devRef .tc main_v5) = dstCol (W (Proc.devRef .tc main_arg1)) := by
  simp only [hostOps2]
  after_results_simp <;> rfl

set_option maxRecDepth 8192 in
set_option maxHeartbeats 1300000 in
theorem hostOps2_main_v12 (W : Valuation τ sig (Elt F)) :
    after hostOps2 W (Proc.devRef .tc main_v12) = gatherRows (W (Proc.devRef .tc main_v0)) (srcCol (W (Proc.devRef .tc main_arg1))) := by
  simp only [hostOps2]
  after_results_simp <;> rfl

set_option maxRecDepth 8192 in
set_option maxHeartbeats 1500000 in
theorem hostOps3_main_v22 (W : Valuation τ sig (Elt F)) :
    after hostOps3 W (Proc.devRef .tc main_v22) = selfPlusAgg (W (Proc.devRef .tc main_v0)) (scatterSum (W (Proc.devRef .tc main_v5)) (W (Proc.devRef .tc main_v13))) (eps_0 (W (Proc.devRef .tc main_arg13))) := by
  simp only [hostOps3]
  after_results_simp <;> rfl

set_option maxRecDepth 8192 in
set_option maxHeartbeats 1500000 in
theorem hostOps3_main_v24 (W : Valuation τ sig (Elt F)) :
    after hostOps3 W (Proc.devRef .tc main_v24) = W1_0 (W (Proc.devRef .tc main_arg7)) := by
  simp only [hostOps3]
  after_results_simp <;> rfl

set_option maxRecDepth 8192 in
set_option maxHeartbeats 1500000 in
theorem hostOps3_main_v26 (W : Valuation τ sig (Elt F)) :
    after hostOps3 W (Proc.devRef .tc main_v26) = b1_0 (W (Proc.devRef .tc main_arg8)) := by
  simp only [hostOps3]
  after_results_simp <;> rfl

set_option maxRecDepth 8192 in
set_option maxHeartbeats 2400000 in
theorem hostOps4_main_v29 (W : Valuation τ sig (Elt F)) :
    after hostOps4 W (Proc.devRef .tc main_v29) = meanOfSum (W (Proc.devRef .tc main_v27_1)) := by
  simp only [hostOps4]
  after_results_simp <;> rfl

set_option maxRecDepth 8192 in
set_option maxHeartbeats 2400000 in
theorem hostOps4_main_v33 (W : Valuation τ sig (Elt F)) :
    after hostOps4 W (Proc.devRef .tc main_v33) = varOnePass (W (Proc.devRef .tc main_v27_1)) (W (Proc.devRef .tc main_v27_2)) := by
  simp only [hostOps4]
  after_results_simp <;> rfl

set_option maxRecDepth 8192 in
set_option maxHeartbeats 2400000 in
theorem hostOps4_main_v36 (W : Valuation τ sig (Elt F)) :
    after hostOps4 W (Proc.devRef .tc main_v36) = asRow128 (g1_0 (W (Proc.devRef .tc main_arg9))) := by
  simp only [hostOps4]
  after_results_simp <;> rfl

set_option maxRecDepth 8192 in
set_option maxHeartbeats 2400000 in
theorem hostOps4_main_v39 (W : Valuation τ sig (Elt F)) :
    after hostOps4 W (Proc.devRef .tc main_v39) = asRow128 (bt1_0 (W (Proc.devRef .tc main_arg10))) := by
  simp only [hostOps4]
  after_results_simp <;> rfl

set_option maxRecDepth 8192 in
set_option maxHeartbeats 2400000 in
theorem hostOps4_main_v41 (W : Valuation τ sig (Elt F)) :
    after hostOps4 W (Proc.devRef .tc main_v41) = W2_0 (W (Proc.devRef .tc main_arg11)) := by
  simp only [hostOps4]
  after_results_simp <;> rfl

set_option maxRecDepth 8192 in
set_option maxHeartbeats 2400000 in
theorem hostOps4_main_v43 (W : Valuation τ sig (Elt F)) :
    after hostOps4 W (Proc.devRef .tc main_v43) = b2_0 (W (Proc.devRef .tc main_arg12)) := by
  simp only [hostOps4]
  after_results_simp <;> rfl

set_option maxRecDepth 8192 in
set_option maxHeartbeats 2400000 in
theorem hostOps4_main_v46 (W : Valuation τ sig (Elt F)) :
    after hostOps4 W (Proc.devRef .tc main_v46) = asRow64 (lng_0 (W (Proc.devRef .tc main_arg14))) := by
  simp only [hostOps4]
  after_results_simp <;> rfl

set_option maxRecDepth 8192 in
set_option maxHeartbeats 2400000 in
theorem hostOps4_main_v49 (W : Valuation τ sig (Elt F)) :
    after hostOps4 W (Proc.devRef .tc main_v49) = asRow64 (lnb_0 (W (Proc.devRef .tc main_arg15))) := by
  simp only [hostOps4]
  after_results_simp <;> rfl

end Cert.KernelIdeal.HostSide

end
-- ==== Proof.KI.ChainArgs.lean ====
/-
  What the fold of KI/RunFold.lean holds, at each boundary where it is read, in the buffers that are written once and
  read by later items: the arguments the layers slice (as launched: no stretch and no region writes one), the two index
  columns (as the first stretch computes them from the index table), and the edge features (as region 1 leaves them: a
  message region reads them through an input window, left as entered). One step per item: a stretch leaves a buffer it
  does not write, a region leaves a buffer that is none of its windows' arrays, and an input window's array.
-/
import proofs.«178590_j59433757442359_2_alg».proof.Proof.KI.RunFold
import proofs.«178590_j59433757442359_2_alg».proof.Proof.KI.HostL0

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable {F : FTy → Type} [FloatOps F]
variable (D : Data F) (m : (ℓ : Loc nD τ sig) → Buf (Elt F) ℓ)

theorem W0_arg1 (c : Dev nD) : W0 m c (Proc.devRef .tc main_arg1) = (m ((c : Thread nD τ).loc main_arg1)) := rfl
theorem W1_arg1 (c : Dev nD) : W1 D m c (Proc.devRef .tc main_arg1) = (m ((c : Thread nD τ).loc main_arg1)) :=
  (W1_of_ne D m c main_arg1 (by decide)).trans (W0_arg1 m c)
theorem W2_arg1 (c : Dev nD) : W2 D m c (Proc.devRef .tc main_arg1) = (m ((c : Thread nD τ).loc main_arg1)) :=
  (W2_of_ne D m c main_arg1 (by decide)).trans (W1_arg1 D m c)

theorem W0_arg7 (c : Dev nD) : W0 m c (Proc.devRef .tc main_arg7) = (m ((c : Thread nD τ).loc main_arg7)) := rfl
theorem W1_arg7 (c : Dev nD) : W1 D m c (Proc.devRef .tc main_arg7) = (m ((c : Thread nD τ).loc main_arg7)) :=
  (W1_of_ne D m c main_arg7 (by decide)).trans (W0_arg7 m c)
theorem W2_arg7 (c : Dev nD) : W2 D m c (Proc.devRef .tc main_arg7) = (m ((c : Thread nD τ).loc main_arg7)) :=
  (W2_of_ne D m c main_arg7 (by decide)).trans (W1_arg7 D m c)
theorem W3_arg7 (c : Dev nD) : W3 D m c (Proc.devRef .tc main_arg7) = (m ((c : Thread nD τ).loc main_arg7)) :=
  (W3_of D m c main_arg7 (by decide)).trans (W2_arg7 D m c)
theorem W4_arg7 (c : Dev nD) : W4 D m c (Proc.devRef .tc main_arg7) = (m ((c : Thread nD τ).loc main_arg7)) :=
  (W4_of_ne D m c main_arg7 (by decide)).trans (W3_arg7 D m c)
theorem W5_arg7 (c : Dev nD) : W5 D m c (Proc.devRef .tc main_arg7) = (m ((c : Thread nD τ).loc main_arg7)) :=
  (W5_of D m c main_arg7 (by decide)).trans (W4_arg7 D m c)
theorem W6_arg7 (c : Dev nD) : W6 D m c (Proc.devRef .tc main_arg7) = (m ((c : Thread nD τ).loc main_arg7)) :=
  (W6_of_ne D m c main_arg7 (by decide)).trans (W5_arg7 D m c)
theorem W7_arg7 (c : Dev nD) : W7 D m c (Proc.devRef .tc main_arg7) = (m ((c : Thread nD τ).loc main_arg7)) :=
  (W7_of D m c main_arg7 (by decide)).trans (W6_arg7 D m c)
theorem W8_arg7 (c : Dev nD) : W8 D m c (Proc.devRef .tc main_arg7) = (m ((c : Thread nD τ).loc main_arg7)) :=
  (W8_of_ne D m c main_arg7 (by decide)).trans (W7_arg7 D m c)
theorem W9_arg7 (c : Dev nD) : W9 D m c (Proc.devRef .tc main_arg7) = (m ((c : Thread nD τ).loc main_arg7)) :=
  (W9_of D m c main_arg7 (by decide)).trans (W8_arg7 D m c)
theorem W10_arg7 (c : Dev nD) : W10 D m c (Proc.devRef .tc main_arg7) = (m ((c : Thread nD τ).loc main_arg7)) :=
  (W10_of_ne D m c main_arg7 (by decide)).trans (W9_arg7 D m c)
theorem W11_arg7 (c : Dev nD) : W11 D m c (Proc.devRef .tc main_arg7) = (m ((c : Thread nD τ).loc main_arg7)) :=
  (W11_of D m c main_arg7 (by decide)).trans (W10_arg7 D m c)
theorem W12_arg7 (c : Dev nD) : W12 D m c (Proc.devRef .tc main_arg7) = (m ((c : Thread nD τ).loc main_arg7)) :=
  (W12_of_ne D m c main_arg7 (by decide)).trans (W11_arg7 D m c)
theorem W13_arg7 (c : Dev nD) : W13 D m c (Proc.devRef .tc main_arg7) = (m ((c : Thread nD τ).loc main_arg7)) :=
  (W13_of D m c main_arg7 (by decide)).trans (W12_arg7 D m c)
theorem W14_arg7 (c : Dev nD) : W14 D m c (Proc.devRef .tc main_arg7) = (m ((c : Thread nD τ).loc main_arg7)) :=
  (W14_of_ne D m c main_arg7 (by decide)).trans (W13_arg7 D m c)
theorem W15_arg7 (c : Dev nD) : W15 D m c (Proc.devRef .tc main_arg7) = (m ((c : Thread nD τ).loc main_arg7)) :=
  (W15_of D m c main_arg7 (by decide)).trans (W14_arg7 D m c)
theorem W16_arg7 (c : Dev nD) : W16 D m c (Proc.devRef .tc main_arg7) = (m ((c : Thread nD τ).loc main_arg7)) :=
  (W16_of_ne D m c main_arg7 (by decide)).trans (W15_arg7 D m c)
theorem W17_arg7 (c : Dev nD) : W17 D m c (Proc.devRef .tc main_arg7) = (m ((c : Thread nD τ).loc main_arg7)) :=
  (W17_of D m c main_arg7 (by decide)).trans (W16_arg7 D m c)
theorem W18_arg7 (c : Dev nD) : W18 D m c (Proc.devRef .tc main_arg7) = (m ((c : Thread nD τ).loc main_arg7)) :=
  (W18_of_ne D m c main_arg7 (by decide)).trans (W17_arg7 D m c)
theorem W19_arg7 (c : Dev nD) : W19 D m c (Proc.devRef .tc main_arg7) = (m ((c : Thread nD τ).loc main_arg7)) :=
  (W19_of D m c main_arg7 (by decide)).trans (W18_arg7 D m c)
theorem W20_arg7 (c : Dev nD) : W20 D m c (Proc.devRef .tc main_arg7) = (m ((c : Thread nD τ).loc main_arg7)) :=
  (W20_of_ne D m c main_arg7 (by decide)).trans (W19_arg7 D m c)
theorem W21_arg7 (c : Dev nD) : W21 D m c (Proc.devRef .tc main_arg7) = (m ((c : Thread nD τ).loc main_arg7)) :=
  (W21_of D m c main_arg7 (by decide)).trans (W20_arg7 D m c)
theorem W22_arg7 (c : Dev nD) : W22 D m c (Proc.devRef .tc main_arg7) = (m ((c : Thread nD τ).loc main_arg7)) :=
  (W22_of_ne D m c main_arg7 (by decide)).trans (W21_arg7 D m c)

theorem W0_arg8 (c : Dev nD) : W0 m c (Proc.devRef .tc main_arg8) = (m ((c : Thread nD τ).loc main_arg8)) := rfl
theorem W1_arg8 (c : Dev nD) : W1 D m c (Proc.devRef .tc main_arg8) = (m ((c : Thread nD τ).loc main_arg8)) :=
  (W1_of_ne D m c main_arg8 (by decide)).trans (W0_arg8 m c)
theorem W2_arg8 (c : Dev nD) : W2 D m c (Proc.devRef .tc main_arg8) = (m ((c : Thread nD τ).loc main_arg8)) :=
  (W2_of_ne D m c main_arg8 (by decide)).trans (W1_arg8 D m c)
theorem W3_arg8 (c : Dev nD) : W3 D m c (Proc.devRef .tc main_arg8) = (m ((c : Thread nD τ).loc main_arg8)) :=
  (W3_of D m c main_arg8 (by decide)).trans (W2_arg8 D m c)
theorem W4_arg8 (c : Dev nD) : W4 D m c (Proc.devRef .tc main_arg8) = (m ((c : Thread nD τ).loc main_arg8)) :=
  (W4_of_ne D m c main_arg8 (by decide)).trans (W3_arg8 D m c)
theorem W5_arg8 (c : Dev nD) : W5 D m c (Proc.devRef .tc main_arg8) = (m ((c : Thread nD τ).loc main_arg8)) :=
  (W5_of D m c main_arg8 (by decide)).trans (W4_arg8 D m c)
theorem W6_arg8 (c : Dev nD) : W6 D m c (Proc.devRef .tc main_arg8) = (m ((c : Thread nD τ).loc main_arg8)) :=
  (W6_of_ne D m c main_arg8 (by decide)).trans (W5_arg8 D m c)
theorem W7_arg8 (c : Dev nD) : W7 D m c (Proc.devRef .tc main_arg8) = (m ((c : Thread nD τ).loc main_arg8)) :=
  (W7_of D m c main_arg8 (by decide)).trans (W6_arg8 D m c)
theorem W8_arg8 (c : Dev nD) : W8 D m c (Proc.devRef .tc main_arg8) = (m ((c : Thread nD τ).loc main_arg8)) :=
  (W8_of_ne D m c main_arg8 (by decide)).trans (W7_arg8 D m c)
theorem W9_arg8 (c : Dev nD) : W9 D m c (Proc.devRef .tc main_arg8) = (m ((c : Thread nD τ).loc main_arg8)) :=
  (W9_of D m c main_arg8 (by decide)).trans (W8_arg8 D m c)
theorem W10_arg8 (c : Dev nD) : W10 D m c (Proc.devRef .tc main_arg8) = (m ((c : Thread nD τ).loc main_arg8)) :=
  (W10_of_ne D m c main_arg8 (by decide)).trans (W9_arg8 D m c)
theorem W11_arg8 (c : Dev nD) : W11 D m c (Proc.devRef .tc main_arg8) = (m ((c : Thread nD τ).loc main_arg8)) :=
  (W11_of D m c main_arg8 (by decide)).trans (W10_arg8 D m c)
theorem W12_arg8 (c : Dev nD) : W12 D m c (Proc.devRef .tc main_arg8) = (m ((c : Thread nD τ).loc main_arg8)) :=
  (W12_of_ne D m c main_arg8 (by decide)).trans (W11_arg8 D m c)
theorem W13_arg8 (c : Dev nD) : W13 D m c (Proc.devRef .tc main_arg8) = (m ((c : Thread nD τ).loc main_arg8)) :=
  (W13_of D m c main_arg8 (by decide)).trans (W12_arg8 D m c)
theorem W14_arg8 (c : Dev nD) : W14 D m c (Proc.devRef .tc main_arg8) = (m ((c : Thread nD τ).loc main_arg8)) :=
  (W14_of_ne D m c main_arg8 (by decide)).trans (W13_arg8 D m c)
theorem W15_arg8 (c : Dev nD) : W15 D m c (Proc.devRef .tc main_arg8) = (m ((c : Thread nD τ).loc main_arg8)) :=
  (W15_of D m c main_arg8 (by decide)).trans (W14_arg8 D m c)
theorem W16_arg8 (c : Dev nD) : W16 D m c (Proc.devRef .tc main_arg8) = (m ((c : Thread nD τ).loc main_arg8)) :=
  (W16_of_ne D m c main_arg8 (by decide)).trans (W15_arg8 D m c)
theorem W17_arg8 (c : Dev nD) : W17 D m c (Proc.devRef .tc main_arg8) = (m ((c : Thread nD τ).loc main_arg8)) :=
  (W17_of D m c main_arg8 (by decide)).trans (W16_arg8 D m c)
theorem W18_arg8 (c : Dev nD) : W18 D m c (Proc.devRef .tc main_arg8) = (m ((c : Thread nD τ).loc main_arg8)) :=
  (W18_of_ne D m c main_arg8 (by decide)).trans (W17_arg8 D m c)
theorem W19_arg8 (c : Dev nD) : W19 D m c (Proc.devRef .tc main_arg8) = (m ((c : Thread nD τ).loc main_arg8)) :=
  (W19_of D m c main_arg8 (by decide)).trans (W18_arg8 D m c)
theorem W20_arg8 (c : Dev nD) : W20 D m c (Proc.devRef .tc main_arg8) = (m ((c : Thread nD τ).loc main_arg8)) :=
  (W20_of_ne D m c main_arg8 (by decide)).trans (W19_arg8 D m c)
theorem W21_arg8 (c : Dev nD) : W21 D m c (Proc.devRef .tc main_arg8) = (m ((c : Thread nD τ).loc main_arg8)) :=
  (W21_of D m c main_arg8 (by decide)).trans (W20_arg8 D m c)
theorem W22_arg8 (c : Dev nD) : W22 D m c (Proc.devRef .tc main_arg8) = (m ((c : Thread nD τ).loc main_arg8)) :=
  (W22_of_ne D m c main_arg8 (by decide)).trans (W21_arg8 D m c)

theorem W0_arg9 (c : Dev nD) : W0 m c (Proc.devRef .tc main_arg9) = (m ((c : Thread nD τ).loc main_arg9)) := rfl
theorem W1_arg9 (c : Dev nD) : W1 D m c (Proc.devRef .tc main_arg9) = (m ((c : Thread nD τ).loc main_arg9)) :=
  (W1_of_ne D m c main_arg9 (by decide)).trans (W0_arg9 m c)
theorem W2_arg9 (c : Dev nD) : W2 D m c (Proc.devRef .tc main_arg9) = (m ((c : Thread nD τ).loc main_arg9)) :=
  (W2_of_ne D m c main_arg9 (by decide)).trans (W1_arg9 D m c)
theorem W3_arg9 (c : Dev nD) : W3 D m c (Proc.devRef .tc main_arg9) = (m ((c : Thread nD τ).loc main_arg9)) :=
  (W3_of D m c main_arg9 (by decide)).trans (W2_arg9 D m c)
theorem W4_arg9 (c : Dev nD) : W4 D m c (Proc.devRef .tc main_arg9) = (m ((c : Thread nD τ).loc main_arg9)) :=
  (W4_of_ne D m c main_arg9 (by decide)).trans (W3_arg9 D m c)
theorem W5_arg9 (c : Dev nD) : W5 D m c (Proc.devRef .tc main_arg9) = (m ((c : Thread nD τ).loc main_arg9)) :=
  (W5_of D m c main_arg9 (by decide)).trans (W4_arg9 D m c)
theorem W6_arg9 (c : Dev nD) : W6 D m c (Proc.devRef .tc main_arg9) = (m ((c : Thread nD τ).loc main_arg9)) :=
  (W6_of_ne D m c main_arg9 (by decide)).trans (W5_arg9 D m c)
theorem W7_arg9 (c : Dev nD) : W7 D m c (Proc.devRef .tc main_arg9) = (m ((c : Thread nD τ).loc main_arg9)) :=
  (W7_of D m c main_arg9 (by decide)).trans (W6_arg9 D m c)
theorem W8_arg9 (c : Dev nD) : W8 D m c (Proc.devRef .tc main_arg9) = (m ((c : Thread nD τ).loc main_arg9)) :=
  (W8_of_ne D m c main_arg9 (by decide)).trans (W7_arg9 D m c)
theorem W9_arg9 (c : Dev nD) : W9 D m c (Proc.devRef .tc main_arg9) = (m ((c : Thread nD τ).loc main_arg9)) :=
  (W9_of D m c main_arg9 (by decide)).trans (W8_arg9 D m c)
theorem W10_arg9 (c : Dev nD) : W10 D m c (Proc.devRef .tc main_arg9) = (m ((c : Thread nD τ).loc main_arg9)) :=
  (W10_of_ne D m c main_arg9 (by decide)).trans (W9_arg9 D m c)
theorem W11_arg9 (c : Dev nD) : W11 D m c (Proc.devRef .tc main_arg9) = (m ((c : Thread nD τ).loc main_arg9)) :=
  (W11_of D m c main_arg9 (by decide)).trans (W10_arg9 D m c)
theorem W12_arg9 (c : Dev nD) : W12 D m c (Proc.devRef .tc main_arg9) = (m ((c : Thread nD τ).loc main_arg9)) :=
  (W12_of_ne D m c main_arg9 (by decide)).trans (W11_arg9 D m c)
theorem W13_arg9 (c : Dev nD) : W13 D m c (Proc.devRef .tc main_arg9) = (m ((c : Thread nD τ).loc main_arg9)) :=
  (W13_of D m c main_arg9 (by decide)).trans (W12_arg9 D m c)
theorem W14_arg9 (c : Dev nD) : W14 D m c (Proc.devRef .tc main_arg9) = (m ((c : Thread nD τ).loc main_arg9)) :=
  (W14_of_ne D m c main_arg9 (by decide)).trans (W13_arg9 D m c)
theorem W15_arg9 (c : Dev nD) : W15 D m c (Proc.devRef .tc main_arg9) = (m ((c : Thread nD τ).loc main_arg9)) :=
  (W15_of D m c main_arg9 (by decide)).trans (W14_arg9 D m c)
theorem W16_arg9 (c : Dev nD) : W16 D m c (Proc.devRef .tc main_arg9) = (m ((c : Thread nD τ).loc main_arg9)) :=
  (W16_of_ne D m c main_arg9 (by decide)).trans (W15_arg9 D m c)
theorem W17_arg9 (c : Dev nD) : W17 D m c (Proc.devRef .tc main_arg9) = (m ((c : Thread nD τ).loc main_arg9)) :=
  (W17_of D m c main_arg9 (by decide)).trans (W16_arg9 D m c)
theorem W18_arg9 (c : Dev nD) : W18 D m c (Proc.devRef .tc main_arg9) = (m ((c : Thread nD τ).loc main_arg9)) :=
  (W18_of_ne D m c main_arg9 (by decide)).trans (W17_arg9 D m c)
theorem W19_arg9 (c : Dev nD) : W19 D m c (Proc.devRef .tc main_arg9) = (m ((c : Thread nD τ).loc main_arg9)) :=
  (W19_of D m c main_arg9 (by decide)).trans (W18_arg9 D m c)
theorem W20_arg9 (c : Dev nD) : W20 D m c (Proc.devRef .tc main_arg9) = (m ((c : Thread nD τ).loc main_arg9)) :=
  (W20_of_ne D m c main_arg9 (by decide)).trans (W19_arg9 D m c)
theorem W21_arg9 (c : Dev nD) : W21 D m c (Proc.devRef .tc main_arg9) = (m ((c : Thread nD τ).loc main_arg9)) :=
  (W21_of D m c main_arg9 (by decide)).trans (W20_arg9 D m c)
theorem W22_arg9 (c : Dev nD) : W22 D m c (Proc.devRef .tc main_arg9) = (m ((c : Thread nD τ).loc main_arg9)) :=
  (W22_of_ne D m c main_arg9 (by decide)).trans (W21_arg9 D m c)
theorem W23_arg9 (c : Dev nD) : W23 D m c (Proc.devRef .tc main_arg9) = (m ((c : Thread nD τ).loc main_arg9)) :=
  (W23_of D m c main_arg9 (by decide)).trans (W22_arg9 D m c)
theorem W24_arg9 (c : Dev nD) : W24 D m c (Proc.devRef .tc main_arg9) = (m ((c : Thread nD τ).loc main_arg9)) :=
  (W24_of_ne D m c main_arg9 (by decide)).trans (W23_arg9 D m c)

theorem W0_arg10 (c : Dev nD) : W0 m c (Proc.devRef .tc main_arg10) = (m ((c : Thread nD τ).loc main_arg10)) := rfl
theorem W1_arg10 (c : Dev nD) : W1 D m c (Proc.devRef .tc main_arg10) = (m ((c : Thread nD τ).loc main_arg10)) :=
  (W1_of_ne D m c main_arg10 (by decide)).trans (W0_arg10 m c)
theorem W2_arg10 (c : Dev nD) : W2 D m c (Proc.devRef .tc main_arg10) = (m ((c : Thread nD τ).loc main_arg10)) :=
  (W2_of_ne D m c main_arg10 (by decide)).trans (W1_arg10 D m c)
theorem W3_arg10 (c : Dev nD) : W3 D m c (Proc.devRef .tc main_arg10) = (m ((c : Thread nD τ).loc main_arg10)) :=
  (W3_of D m c main_arg10 (by decide)).trans (W2_arg10 D m c)
theorem W4_arg10 (c : Dev nD) : W4 D m c (Proc.devRef .tc main_arg10) = (m ((c : Thread nD τ).loc main_arg10)) :=
  (W4_of_ne D m c main_arg10 (by decide)).trans (W3_arg10 D m c)
theorem W5_arg10 (c : Dev nD) : W5 D m c (Proc.devRef .tc main_arg10) = (m ((c : Thread nD τ).loc main_arg10)) :=
  (W5_of D m c main_arg10 (by decide)).trans (W4_arg10 D m c)
theorem W6_arg10 (c : Dev nD) : W6 D m c (Proc.devRef .tc main_arg10) = (m ((c : Thread nD τ).loc main_arg10)) :=
  (W6_of_ne D m c main_arg10 (by decide)).trans (W5_arg10 D m c)
theorem W7_arg10 (c : Dev nD) : W7 D m c (Proc.devRef .tc main_arg10) = (m ((c : Thread nD τ).loc main_arg10)) :=
  (W7_of D m c main_arg10 (by decide)).trans (W6_arg10 D m c)
theorem W8_arg10 (c : Dev nD) : W8 D m c (Proc.devRef .tc main_arg10) = (m ((c : Thread nD τ).loc main_arg10)) :=
  (W8_of_ne D m c main_arg10 (by decide)).trans (W7_arg10 D m c)
theorem W9_arg10 (c : Dev nD) : W9 D m c (Proc.devRef .tc main_arg10) = (m ((c : Thread nD τ).loc main_arg10)) :=
  (W9_of D m c main_arg10 (by decide)).trans (W8_arg10 D m c)
theorem W10_arg10 (c : Dev nD) : W10 D m c (Proc.devRef .tc main_arg10) = (m ((c : Thread nD τ).loc main_arg10)) :=
  (W10_of_ne D m c main_arg10 (by decide)).trans (W9_arg10 D m c)
theorem W11_arg10 (c : Dev nD) : W11 D m c (Proc.devRef .tc main_arg10) = (m ((c : Thread nD τ).loc main_arg10)) :=
  (W11_of D m c main_arg10 (by decide)).trans (W10_arg10 D m c)
theorem W12_arg10 (c : Dev nD) : W12 D m c (Proc.devRef .tc main_arg10) = (m ((c : Thread nD τ).loc main_arg10)) :=
  (W12_of_ne D m c main_arg10 (by decide)).trans (W11_arg10 D m c)
theorem W13_arg10 (c : Dev nD) : W13 D m c (Proc.devRef .tc main_arg10) = (m ((c : Thread nD τ).loc main_arg10)) :=
  (W13_of D m c main_arg10 (by decide)).trans (W12_arg10 D m c)
theorem W14_arg10 (c : Dev nD) : W14 D m c (Proc.devRef .tc main_arg10) = (m ((c : Thread nD τ).loc main_arg10)) :=
  (W14_of_ne D m c main_arg10 (by decide)).trans (W13_arg10 D m c)
theorem W15_arg10 (c : Dev nD) : W15 D m c (Proc.devRef .tc main_arg10) = (m ((c : Thread nD τ).loc main_arg10)) :=
  (W15_of D m c main_arg10 (by decide)).trans (W14_arg10 D m c)
theorem W16_arg10 (c : Dev nD) : W16 D m c (Proc.devRef .tc main_arg10) = (m ((c : Thread nD τ).loc main_arg10)) :=
  (W16_of_ne D m c main_arg10 (by decide)).trans (W15_arg10 D m c)
theorem W17_arg10 (c : Dev nD) : W17 D m c (Proc.devRef .tc main_arg10) = (m ((c : Thread nD τ).loc main_arg10)) :=
  (W17_of D m c main_arg10 (by decide)).trans (W16_arg10 D m c)
theorem W18_arg10 (c : Dev nD) : W18 D m c (Proc.devRef .tc main_arg10) = (m ((c : Thread nD τ).loc main_arg10)) :=
  (W18_of_ne D m c main_arg10 (by decide)).trans (W17_arg10 D m c)
theorem W19_arg10 (c : Dev nD) : W19 D m c (Proc.devRef .tc main_arg10) = (m ((c : Thread nD τ).loc main_arg10)) :=
  (W19_of D m c main_arg10 (by decide)).trans (W18_arg10 D m c)
theorem W20_arg10 (c : Dev nD) : W20 D m c (Proc.devRef .tc main_arg10) = (m ((c : Thread nD τ).loc main_arg10)) :=
  (W20_of_ne D m c main_arg10 (by decide)).trans (W19_arg10 D m c)
theorem W21_arg10 (c : Dev nD) : W21 D m c (Proc.devRef .tc main_arg10) = (m ((c : Thread nD τ).loc main_arg10)) :=
  (W21_of D m c main_arg10 (by decide)).trans (W20_arg10 D m c)
theorem W22_arg10 (c : Dev nD) : W22 D m c (Proc.devRef .tc main_arg10) = (m ((c : Thread nD τ).loc main_arg10)) :=
  (W22_of_ne D m c main_arg10 (by decide)).trans (W21_arg10 D m c)
theorem W23_arg10 (c : Dev nD) : W23 D m c (Proc.devRef .tc main_arg10) = (m ((c : Thread nD τ).loc main_arg10)) :=
  (W23_of D m c main_arg10 (by decide)).trans (W22_arg10 D m c)
theorem W24_arg10 (c : Dev nD) : W24 D m c (Proc.devRef .tc main_arg10) = (m ((c : Thread nD τ).loc main_arg10)) :=
  (W24_of_ne D m c main_arg10 (by decide)).trans (W23_arg10 D m c)

theorem W0_arg11 (c : Dev nD) : W0 m c (Proc.devRef .tc main_arg11) = (m ((c : Thread nD τ).loc main_arg11)) := rfl
theorem W1_arg11 (c : Dev nD) : W1 D m c (Proc.devRef .tc main_arg11) = (m ((c : Thread nD τ).loc main_arg11)) :=
  (W1_of_ne D m c main_arg11 (by decide)).trans (W0_arg11 m c)
theorem W2_arg11 (c : Dev nD) : W2 D m c (Proc.devRef .tc main_arg11) = (m ((c : Thread nD τ).loc main_arg11)) :=
  (W2_of_ne D m c main_arg11 (by decide)).trans (W1_arg11 D m c)
theorem W3_arg11 (c : Dev nD) : W3 D m c (Proc.devRef .tc main_arg11) = (m ((c : Thread nD τ).loc main_arg11)) :=
  (W3_of D m c main_arg11 (by decide)).trans (W2_arg11 D m c)
theorem W4_arg11 (c : Dev nD) : W4 D m c (Proc.devRef .tc main_arg11) = (m ((c : Thread nD τ).loc main_arg11)) :=
  (W4_of_ne D m c main_arg11 (by decide)).trans (W3_arg11 D m c)
theorem W5_arg11 (c : Dev nD) : W5 D m c (Proc.devRef .tc main_arg11) = (m ((c : Thread nD τ).loc main_arg11)) :=
  (W5_of D m c main_arg11 (by decide)).trans (W4_arg11 D m c)
theorem W6_arg11 (c : Dev nD) : W6 D m c (Proc.devRef .tc main_arg11) = (m ((c : Thread nD τ).loc main_arg11)) :=
  (W6_of_ne D m c main_arg11 (by decide)).trans (W5_arg11 D m c)
theorem W7_arg11 (c : Dev nD) : W7 D m c (Proc.devRef .tc main_arg11) = (m ((c : Thread nD τ).loc main_arg11)) :=
  (W7_of D m c main_arg11 (by decide)).trans (W6_arg11 D m c)
theorem W8_arg11 (c : Dev nD) : W8 D m c (Proc.devRef .tc main_arg11) = (m ((c : Thread nD τ).loc main_arg11)) :=
  (W8_of_ne D m c main_arg11 (by decide)).trans (W7_arg11 D m c)
theorem W9_arg11 (c : Dev nD) : W9 D m c (Proc.devRef .tc main_arg11) = (m ((c : Thread nD τ).loc main_arg11)) :=
  (W9_of D m c main_arg11 (by decide)).trans (W8_arg11 D m c)
theorem W10_arg11 (c : Dev nD) : W10 D m c (Proc.devRef .tc main_arg11) = (m ((c : Thread nD τ).loc main_arg11)) :=
  (W10_of_ne D m c main_arg11 (by decide)).trans (W9_arg11 D m c)
theorem W11_arg11 (c : Dev nD) : W11 D m c (Proc.devRef .tc main_arg11) = (m ((c : Thread nD τ).loc main_arg11)) :=
  (W11_of D m c main_arg11 (by decide)).trans (W10_arg11 D m c)
theorem W12_arg11 (c : Dev nD) : W12 D m c (Proc.devRef .tc main_arg11) = (m ((c : Thread nD τ).loc main_arg11)) :=
  (W12_of_ne D m c main_arg11 (by decide)).trans (W11_arg11 D m c)
theorem W13_arg11 (c : Dev nD) : W13 D m c (Proc.devRef .tc main_arg11) = (m ((c : Thread nD τ).loc main_arg11)) :=
  (W13_of D m c main_arg11 (by decide)).trans (W12_arg11 D m c)
theorem W14_arg11 (c : Dev nD) : W14 D m c (Proc.devRef .tc main_arg11) = (m ((c : Thread nD τ).loc main_arg11)) :=
  (W14_of_ne D m c main_arg11 (by decide)).trans (W13_arg11 D m c)
theorem W15_arg11 (c : Dev nD) : W15 D m c (Proc.devRef .tc main_arg11) = (m ((c : Thread nD τ).loc main_arg11)) :=
  (W15_of D m c main_arg11 (by decide)).trans (W14_arg11 D m c)
theorem W16_arg11 (c : Dev nD) : W16 D m c (Proc.devRef .tc main_arg11) = (m ((c : Thread nD τ).loc main_arg11)) :=
  (W16_of_ne D m c main_arg11 (by decide)).trans (W15_arg11 D m c)
theorem W17_arg11 (c : Dev nD) : W17 D m c (Proc.devRef .tc main_arg11) = (m ((c : Thread nD τ).loc main_arg11)) :=
  (W17_of D m c main_arg11 (by decide)).trans (W16_arg11 D m c)
theorem W18_arg11 (c : Dev nD) : W18 D m c (Proc.devRef .tc main_arg11) = (m ((c : Thread nD τ).loc main_arg11)) :=
  (W18_of_ne D m c main_arg11 (by decide)).trans (W17_arg11 D m c)
theorem W19_arg11 (c : Dev nD) : W19 D m c (Proc.devRef .tc main_arg11) = (m ((c : Thread nD τ).loc main_arg11)) :=
  (W19_of D m c main_arg11 (by decide)).trans (W18_arg11 D m c)
theorem W20_arg11 (c : Dev nD) : W20 D m c (Proc.devRef .tc main_arg11) = (m ((c : Thread nD τ).loc main_arg11)) :=
  (W20_of_ne D m c main_arg11 (by decide)).trans (W19_arg11 D m c)
theorem W21_arg11 (c : Dev nD) : W21 D m c (Proc.devRef .tc main_arg11) = (m ((c : Thread nD τ).loc main_arg11)) :=
  (W21_of D m c main_arg11 (by decide)).trans (W20_arg11 D m c)
theorem W22_arg11 (c : Dev nD) : W22 D m c (Proc.devRef .tc main_arg11) = (m ((c : Thread nD τ).loc main_arg11)) :=
  (W22_of_ne D m c main_arg11 (by decide)).trans (W21_arg11 D m c)
theorem W23_arg11 (c : Dev nD) : W23 D m c (Proc.devRef .tc main_arg11) = (m ((c : Thread nD τ).loc main_arg11)) :=
  (W23_of D m c main_arg11 (by decide)).trans (W22_arg11 D m c)
theorem W24_arg11 (c : Dev nD) : W24 D m c (Proc.devRef .tc main_arg11) = (m ((c : Thread nD τ).loc main_arg11)) :=
  (W24_of_ne D m c main_arg11 (by decide)).trans (W23_arg11 D m c)

theorem W0_arg12 (c : Dev nD) : W0 m c (Proc.devRef .tc main_arg12) = (m ((c : Thread nD τ).loc main_arg12)) := rfl
theorem W1_arg12 (c : Dev nD) : W1 D m c (Proc.devRef .tc main_arg12) = (m ((c : Thread nD τ).loc main_arg12)) :=
  (W1_of_ne D m c main_arg12 (by decide)).trans (W0_arg12 m c)
theorem W2_arg12 (c : Dev nD) : W2 D m c (Proc.devRef .tc main_arg12) = (m ((c : Thread nD τ).loc main_arg12)) :=
  (W2_of_ne D m c main_arg12 (by decide)).trans (W1_arg12 D m c)
theorem W3_arg12 (c : Dev nD) : W3 D m c (Proc.devRef .tc main_arg12) = (m ((c : Thread nD τ).loc main_arg12)) :=
  (W3_of D m c main_arg12 (by decide)).trans (W2_arg12 D m c)
theorem W4_arg12 (c : Dev nD) : W4 D m c (Proc.devRef .tc main_arg12) = (m ((c : Thread nD τ).loc main_arg12)) :=
  (W4_of_ne D m c main_arg12 (by decide)).trans (W3_arg12 D m c)
theorem W5_arg12 (c : Dev nD) : W5 D m c (Proc.devRef .tc main_arg12) = (m ((c : Thread nD τ).loc main_arg12)) :=
  (W5_of D m c main_arg12 (by decide)).trans (W4_arg12 D m c)
theorem W6_arg12 (c : Dev nD) : W6 D m c (Proc.devRef .tc main_arg12) = (m ((c : Thread nD τ).loc main_arg12)) :=
  (W6_of_ne D m c main_arg12 (by decide)).trans (W5_arg12 D m c)
theorem W7_arg12 (c : Dev nD) : W7 D m c (Proc.devRef .tc main_arg12) = (m ((c : Thread nD τ).loc main_arg12)) :=
  (W7_of D m c main_arg12 (by decide)).trans (W6_arg12 D m c)
theorem W8_arg12 (c : Dev nD) : W8 D m c (Proc.devRef .tc main_arg12) = (m ((c : Thread nD τ).loc main_arg12)) :=
  (W8_of_ne D m c main_arg12 (by decide)).trans (W7_arg12 D m c)
theorem W9_arg12 (c : Dev nD) : W9 D m c (Proc.devRef .tc main_arg12) = (m ((c : Thread nD τ).loc main_arg12)) :=
  (W9_of D m c main_arg12 (by decide)).trans (W8_arg12 D m c)
theorem W10_arg12 (c : Dev nD) : W10 D m c (Proc.devRef .tc main_arg12) = (m ((c : Thread nD τ).loc main_arg12)) :=
  (W10_of_ne D m c main_arg12 (by decide)).trans (W9_arg12 D m c)
theorem W11_arg12 (c : Dev nD) : W11 D m c (Proc.devRef .tc main_arg12) = (m ((c : Thread nD τ).loc main_arg12)) :=
  (W11_of D m c main_arg12 (by decide)).trans (W10_arg12 D m c)
theorem W12_arg12 (c : Dev nD) : W12 D m c (Proc.devRef .tc main_arg12) = (m ((c : Thread nD τ).loc main_arg12)) :=
  (W12_of_ne D m c main_arg12 (by decide)).trans (W11_arg12 D m c)
theorem W13_arg12 (c : Dev nD) : W13 D m c (Proc.devRef .tc main_arg12) = (m ((c : Thread nD τ).loc main_arg12)) :=
  (W13_of D m c main_arg12 (by decide)).trans (W12_arg12 D m c)
theorem W14_arg12 (c : Dev nD) : W14 D m c (Proc.devRef .tc main_arg12) = (m ((c : Thread nD τ).loc main_arg12)) :=
  (W14_of_ne D m c main_arg12 (by decide)).trans (W13_arg12 D m c)
theorem W15_arg12 (c : Dev nD) : W15 D m c (Proc.devRef .tc main_arg12) = (m ((c : Thread nD τ).loc main_arg12)) :=
  (W15_of D m c main_arg12 (by decide)).trans (W14_arg12 D m c)
theorem W16_arg12 (c : Dev nD) : W16 D m c (Proc.devRef .tc main_arg12) = (m ((c : Thread nD τ).loc main_arg12)) :=
  (W16_of_ne D m c main_arg12 (by decide)).trans (W15_arg12 D m c)
theorem W17_arg12 (c : Dev nD) : W17 D m c (Proc.devRef .tc main_arg12) = (m ((c : Thread nD τ).loc main_arg12)) :=
  (W17_of D m c main_arg12 (by decide)).trans (W16_arg12 D m c)
theorem W18_arg12 (c : Dev nD) : W18 D m c (Proc.devRef .tc main_arg12) = (m ((c : Thread nD τ).loc main_arg12)) :=
  (W18_of_ne D m c main_arg12 (by decide)).trans (W17_arg12 D m c)
theorem W19_arg12 (c : Dev nD) : W19 D m c (Proc.devRef .tc main_arg12) = (m ((c : Thread nD τ).loc main_arg12)) :=
  (W19_of D m c main_arg12 (by decide)).trans (W18_arg12 D m c)
theorem W20_arg12 (c : Dev nD) : W20 D m c (Proc.devRef .tc main_arg12) = (m ((c : Thread nD τ).loc main_arg12)) :=
  (W20_of_ne D m c main_arg12 (by decide)).trans (W19_arg12 D m c)
theorem W21_arg12 (c : Dev nD) : W21 D m c (Proc.devRef .tc main_arg12) = (m ((c : Thread nD τ).loc main_arg12)) :=
  (W21_of D m c main_arg12 (by decide)).trans (W20_arg12 D m c)
theorem W22_arg12 (c : Dev nD) : W22 D m c (Proc.devRef .tc main_arg12) = (m ((c : Thread nD τ).loc main_arg12)) :=
  (W22_of_ne D m c main_arg12 (by decide)).trans (W21_arg12 D m c)
theorem W23_arg12 (c : Dev nD) : W23 D m c (Proc.devRef .tc main_arg12) = (m ((c : Thread nD τ).loc main_arg12)) :=
  (W23_of D m c main_arg12 (by decide)).trans (W22_arg12 D m c)
theorem W24_arg12 (c : Dev nD) : W24 D m c (Proc.devRef .tc main_arg12) = (m ((c : Thread nD τ).loc main_arg12)) :=
  (W24_of_ne D m c main_arg12 (by decide)).trans (W23_arg12 D m c)

theorem W0_arg13 (c : Dev nD) : W0 m c (Proc.devRef .tc main_arg13) = (m ((c : Thread nD τ).loc main_arg13)) := rfl
theorem W1_arg13 (c : Dev nD) : W1 D m c (Proc.devRef .tc main_arg13) = (m ((c : Thread nD τ).loc main_arg13)) :=
  (W1_of_ne D m c main_arg13 (by decide)).trans (W0_arg13 m c)
theorem W2_arg13 (c : Dev nD) : W2 D m c (Proc.devRef .tc main_arg13) = (m ((c : Thread nD τ).loc main_arg13)) :=
  (W2_of_ne D m c main_arg13 (by decide)).trans (W1_arg13 D m c)
theorem W3_arg13 (c : Dev nD) : W3 D m c (Proc.devRef .tc main_arg13) = (m ((c : Thread nD τ).loc main_arg13)) :=
  (W3_of D m c main_arg13 (by decide)).trans (W2_arg13 D m c)
theorem W4_arg13 (c : Dev nD) : W4 D m c (Proc.devRef .tc main_arg13) = (m ((c : Thread nD τ).loc main_arg13)) :=
  (W4_of_ne D m c main_arg13 (by decide)).trans (W3_arg13 D m c)
theorem W5_arg13 (c : Dev nD) : W5 D m c (Proc.devRef .tc main_arg13) = (m ((c : Thread nD τ).loc main_arg13)) :=
  (W5_of D m c main_arg13 (by decide)).trans (W4_arg13 D m c)
theorem W6_arg13 (c : Dev nD) : W6 D m c (Proc.devRef .tc main_arg13) = (m ((c : Thread nD τ).loc main_arg13)) :=
  (W6_of_ne D m c main_arg13 (by decide)).trans (W5_arg13 D m c)
theorem W7_arg13 (c : Dev nD) : W7 D m c (Proc.devRef .tc main_arg13) = (m ((c : Thread nD τ).loc main_arg13)) :=
  (W7_of D m c main_arg13 (by decide)).trans (W6_arg13 D m c)
theorem W8_arg13 (c : Dev nD) : W8 D m c (Proc.devRef .tc main_arg13) = (m ((c : Thread nD τ).loc main_arg13)) :=
  (W8_of_ne D m c main_arg13 (by decide)).trans (W7_arg13 D m c)
theorem W9_arg13 (c : Dev nD) : W9 D m c (Proc.devRef .tc main_arg13) = (m ((c : Thread nD τ).loc main_arg13)) :=
  (W9_of D m c main_arg13 (by decide)).trans (W8_arg13 D m c)
theorem W10_arg13 (c : Dev nD) : W10 D m c (Proc.devRef .tc main_arg13) = (m ((c : Thread nD τ).loc main_arg13)) :=
  (W10_of_ne D m c main_arg13 (by decide)).trans (W9_arg13 D m c)
theorem W11_arg13 (c : Dev nD) : W11 D m c (Proc.devRef .tc main_arg13) = (m ((c : Thread nD τ).loc main_arg13)) :=
  (W11_of D m c main_arg13 (by decide)).trans (W10_arg13 D m c)
theorem W12_arg13 (c : Dev nD) : W12 D m c (Proc.devRef .tc main_arg13) = (m ((c : Thread nD τ).loc main_arg13)) :=
  (W12_of_ne D m c main_arg13 (by decide)).trans (W11_arg13 D m c)
theorem W13_arg13 (c : Dev nD) : W13 D m c (Proc.devRef .tc main_arg13) = (m ((c : Thread nD τ).loc main_arg13)) :=
  (W13_of D m c main_arg13 (by decide)).trans (W12_arg13 D m c)
theorem W14_arg13 (c : Dev nD) : W14 D m c (Proc.devRef .tc main_arg13) = (m ((c : Thread nD τ).loc main_arg13)) :=
  (W14_of_ne D m c main_arg13 (by decide)).trans (W13_arg13 D m c)
theorem W15_arg13 (c : Dev nD) : W15 D m c (Proc.devRef .tc main_arg13) = (m ((c : Thread nD τ).loc main_arg13)) :=
  (W15_of D m c main_arg13 (by decide)).trans (W14_arg13 D m c)
theorem W16_arg13 (c : Dev nD) : W16 D m c (Proc.devRef .tc main_arg13) = (m ((c : Thread nD τ).loc main_arg13)) :=
  (W16_of_ne D m c main_arg13 (by decide)).trans (W15_arg13 D m c)
theorem W17_arg13 (c : Dev nD) : W17 D m c (Proc.devRef .tc main_arg13) = (m ((c : Thread nD τ).loc main_arg13)) :=
  (W17_of D m c main_arg13 (by decide)).trans (W16_arg13 D m c)
theorem W18_arg13 (c : Dev nD) : W18 D m c (Proc.devRef .tc main_arg13) = (m ((c : Thread nD τ).loc main_arg13)) :=
  (W18_of_ne D m c main_arg13 (by decide)).trans (W17_arg13 D m c)
theorem W19_arg13 (c : Dev nD) : W19 D m c (Proc.devRef .tc main_arg13) = (m ((c : Thread nD τ).loc main_arg13)) :=
  (W19_of D m c main_arg13 (by decide)).trans (W18_arg13 D m c)
theorem W20_arg13 (c : Dev nD) : W20 D m c (Proc.devRef .tc main_arg13) = (m ((c : Thread nD τ).loc main_arg13)) :=
  (W20_of_ne D m c main_arg13 (by decide)).trans (W19_arg13 D m c)
theorem W21_arg13 (c : Dev nD) : W21 D m c (Proc.devRef .tc main_arg13) = (m ((c : Thread nD τ).loc main_arg13)) :=
  (W21_of D m c main_arg13 (by decide)).trans (W20_arg13 D m c)
theorem W22_arg13 (c : Dev nD) : W22 D m c (Proc.devRef .tc main_arg13) = (m ((c : Thread nD τ).loc main_arg13)) :=
  (W22_of_ne D m c main_arg13 (by decide)).trans (W21_arg13 D m c)

theorem W0_arg14 (c : Dev nD) : W0 m c (Proc.devRef .tc main_arg14) = (m ((c : Thread nD τ).loc main_arg14)) := rfl
theorem W1_arg14 (c : Dev nD) : W1 D m c (Proc.devRef .tc main_arg14) = (m ((c : Thread nD τ).loc main_arg14)) :=
  (W1_of_ne D m c main_arg14 (by decide)).trans (W0_arg14 m c)
theorem W2_arg14 (c : Dev nD) : W2 D m c (Proc.devRef .tc main_arg14) = (m ((c : Thread nD τ).loc main_arg14)) :=
  (W2_of_ne D m c main_arg14 (by decide)).trans (W1_arg14 D m c)
theorem W3_arg14 (c : Dev nD) : W3 D m c (Proc.devRef .tc main_arg14) = (m ((c : Thread nD τ).loc main_arg14)) :=
  (W3_of D m c main_arg14 (by decide)).trans (W2_arg14 D m c)
theorem W4_arg14 (c : Dev nD) : W4 D m c (Proc.devRef .tc main_arg14) = (m ((c : Thread nD τ).loc main_arg14)) :=
  (W4_of_ne D m c main_arg14 (by decide)).trans (W3_arg14 D m c)
theorem W5_arg14 (c : Dev nD) : W5 D m c (Proc.devRef .tc main_arg14) = (m ((c : Thread nD τ).loc main_arg14)) :=
  (W5_of D m c main_arg14 (by decide)).trans (W4_arg14 D m c)
theorem W6_arg14 (c : Dev nD) : W6 D m c (Proc.devRef .tc main_arg14) = (m ((c : Thread nD τ).loc main_arg14)) :=
  (W6_of_ne D m c main_arg14 (by decide)).trans (W5_arg14 D m c)
theorem W7_arg14 (c : Dev nD) : W7 D m c (Proc.devRef .tc main_arg14) = (m ((c : Thread nD τ).loc main_arg14)) :=
  (W7_of D m c main_arg14 (by decide)).trans (W6_arg14 D m c)
theorem W8_arg14 (c : Dev nD) : W8 D m c (Proc.devRef .tc main_arg14) = (m ((c : Thread nD τ).loc main_arg14)) :=
  (W8_of_ne D m c main_arg14 (by decide)).trans (W7_arg14 D m c)
theorem W9_arg14 (c : Dev nD) : W9 D m c (Proc.devRef .tc main_arg14) = (m ((c : Thread nD τ).loc main_arg14)) :=
  (W9_of D m c main_arg14 (by decide)).trans (W8_arg14 D m c)
theorem W10_arg14 (c : Dev nD) : W10 D m c (Proc.devRef .tc main_arg14) = (m ((c : Thread nD τ).loc main_arg14)) :=
  (W10_of_ne D m c main_arg14 (by decide)).trans (W9_arg14 D m c)
theorem W11_arg14 (c : Dev nD) : W11 D m c (Proc.devRef .tc main_arg14) = (m ((c : Thread nD τ).loc main_arg14)) :=
  (W11_of D m c main_arg14 (by decide)).trans (W10_arg14 D m c)
theorem W12_arg14 (c : Dev nD) : W12 D m c (Proc.devRef .tc main_arg14) = (m ((c : Thread nD τ).loc main_arg14)) :=
  (W12_of_ne D m c main_arg14 (by decide)).trans (W11_arg14 D m c)
theorem W13_arg14 (c : Dev nD) : W13 D m c (Proc.devRef .tc main_arg14) = (m ((c : Thread nD τ).loc main_arg14)) :=
  (W13_of D m c main_arg14 (by decide)).trans (W12_arg14 D m c)
theorem W14_arg14 (c : Dev nD) : W14 D m c (Proc.devRef .tc main_arg14) = (m ((c : Thread nD τ).loc main_arg14)) :=
  (W14_of_ne D m c main_arg14 (by decide)).trans (W13_arg14 D m c)
theorem W15_arg14 (c : Dev nD) : W15 D m c (Proc.devRef .tc main_arg14) = (m ((c : Thread nD τ).loc main_arg14)) :=
  (W15_of D m c main_arg14 (by decide)).trans (W14_arg14 D m c)
theorem W16_arg14 (c : Dev nD) : W16 D m c (Proc.devRef .tc main_arg14) = (m ((c : Thread nD τ).loc main_arg14)) :=
  (W16_of_ne D m c main_arg14 (by decide)).trans (W15_arg14 D m c)
theorem W17_arg14 (c : Dev nD) : W17 D m c (Proc.devRef .tc main_arg14) = (m ((c : Thread nD τ).loc main_arg14)) :=
  (W17_of D m c main_arg14 (by decide)).trans (W16_arg14 D m c)
theorem W18_arg14 (c : Dev nD) : W18 D m c (Proc.devRef .tc main_arg14) = (m ((c : Thread nD τ).loc main_arg14)) :=
  (W18_of_ne D m c main_arg14 (by decide)).trans (W17_arg14 D m c)
theorem W19_arg14 (c : Dev nD) : W19 D m c (Proc.devRef .tc main_arg14) = (m ((c : Thread nD τ).loc main_arg14)) :=
  (W19_of D m c main_arg14 (by decide)).trans (W18_arg14 D m c)
theorem W20_arg14 (c : Dev nD) : W20 D m c (Proc.devRef .tc main_arg14) = (m ((c : Thread nD τ).loc main_arg14)) :=
  (W20_of_ne D m c main_arg14 (by decide)).trans (W19_arg14 D m c)
theorem W21_arg14 (c : Dev nD) : W21 D m c (Proc.devRef .tc main_arg14) = (m ((c : Thread nD τ).loc main_arg14)) :=
  (W21_of D m c main_arg14 (by decide)).trans (W20_arg14 D m c)
theorem W22_arg14 (c : Dev nD) : W22 D m c (Proc.devRef .tc main_arg14) = (m ((c : Thread nD τ).loc main_arg14)) :=
  (W22_of_ne D m c main_arg14 (by decide)).trans (W21_arg14 D m c)
theorem W23_arg14 (c : Dev nD) : W23 D m c (Proc.devRef .tc main_arg14) = (m ((c : Thread nD τ).loc main_arg14)) :=
  (W23_of D m c main_arg14 (by decide)).trans (W22_arg14 D m c)
theorem W24_arg14 (c : Dev nD) : W24 D m c (Proc.devRef .tc main_arg14) = (m ((c : Thread nD τ).loc main_arg14)) :=
  (W24_of_ne D m c main_arg14 (by decide)).trans (W23_arg14 D m c)

theorem W0_arg15 (c : Dev nD) : W0 m c (Proc.devRef .tc main_arg15) = (m ((c : Thread nD τ).loc main_arg15)) := rfl
theorem W1_arg15 (c : Dev nD) : W1 D m c (Proc.devRef .tc main_arg15) = (m ((c : Thread nD τ).loc main_arg15)) :=
  (W1_of_ne D m c main_arg15 (by decide)).trans (W0_arg15 m c)
theorem W2_arg15 (c : Dev nD) : W2 D m c (Proc.devRef .tc main_arg15) = (m ((c : Thread nD τ).loc main_arg15)) :=
  (W2_of_ne D m c main_arg15 (by decide)).trans (W1_arg15 D m c)
theorem W3_arg15 (c : Dev nD) : W3 D m c (Proc.devRef .tc main_arg15) = (m ((c : Thread nD τ).loc main_arg15)) :=
  (W3_of D m c main_arg15 (by decide)).trans (W2_arg15 D m c)
theorem W4_arg15 (c : Dev nD) : W4 D m c (Proc.devRef .tc main_arg15) = (m ((c : Thread nD τ).loc main_arg15)) :=
  (W4_of_ne D m c main_arg15 (by decide)).trans (W3_arg15 D m c)
theorem W5_arg15 (c : Dev nD) : W5 D m c (Proc.devRef .tc main_arg15) = (m ((c : Thread nD τ).loc main_arg15)) :=
  (W5_of D m c main_arg15 (by decide)).trans (W4_arg15 D m c)
theorem W6_arg15 (c : Dev nD) : W6 D m c (Proc.devRef .tc main_arg15) = (m ((c : Thread nD τ).loc main_arg15)) :=
  (W6_of_ne D m c main_arg15 (by decide)).trans (W5_arg15 D m c)
theorem W7_arg15 (c : Dev nD) : W7 D m c (Proc.devRef .tc main_arg15) = (m ((c : Thread nD τ).loc main_arg15)) :=
  (W7_of D m c main_arg15 (by decide)).trans (W6_arg15 D m c)
theorem W8_arg15 (c : Dev nD) : W8 D m c (Proc.devRef .tc main_arg15) = (m ((c : Thread nD τ).loc main_arg15)) :=
  (W8_of_ne D m c main_arg15 (by decide)).trans (W7_arg15 D m c)
theorem W9_arg15 (c : Dev nD) : W9 D m c (Proc.devRef .tc main_arg15) = (m ((c : Thread nD τ).loc main_arg15)) :=
  (W9_of D m c main_arg15 (by decide)).trans (W8_arg15 D m c)
theorem W10_arg15 (c : Dev nD) : W10 D m c (Proc.devRef .tc main_arg15) = (m ((c : Thread nD τ).loc main_arg15)) :=
  (W10_of_ne D m c main_arg15 (by decide)).trans (W9_arg15 D m c)
theorem W11_arg15 (c : Dev nD) : W11 D m c (Proc.devRef .tc main_arg15) = (m ((c : Thread nD τ).loc main_arg15)) :=
  (W11_of D m c main_arg15 (by decide)).trans (W10_arg15 D m c)
theorem W12_arg15 (c : Dev nD) : W12 D m c (Proc.devRef .tc main_arg15) = (m ((c : Thread nD τ).loc main_arg15)) :=
  (W12_of_ne D m c main_arg15 (by decide)).trans (W11_arg15 D m c)
theorem W13_arg15 (c : Dev nD) : W13 D m c (Proc.devRef .tc main_arg15) = (m ((c : Thread nD τ).loc main_arg15)) :=
  (W13_of D m c main_arg15 (by decide)).trans (W12_arg15 D m c)
theorem W14_arg15 (c : Dev nD) : W14 D m c (Proc.devRef .tc main_arg15) = (m ((c : Thread nD τ).loc main_arg15)) :=
  (W14_of_ne D m c main_arg15 (by decide)).trans (W13_arg15 D m c)
theorem W15_arg15 (c : Dev nD) : W15 D m c (Proc.devRef .tc main_arg15) = (m ((c : Thread nD τ).loc main_arg15)) :=
  (W15_of D m c main_arg15 (by decide)).trans (W14_arg15 D m c)
theorem W16_arg15 (c : Dev nD) : W16 D m c (Proc.devRef .tc main_arg15) = (m ((c : Thread nD τ).loc main_arg15)) :=
  (W16_of_ne D m c main_arg15 (by decide)).trans (W15_arg15 D m c)
theorem W17_arg15 (c : Dev nD) : W17 D m c (Proc.devRef .tc main_arg15) = (m ((c : Thread nD τ).loc main_arg15)) :=
  (W17_of D m c main_arg15 (by decide)).trans (W16_arg15 D m c)
theorem W18_arg15 (c : Dev nD) : W18 D m c (Proc.devRef .tc main_arg15) = (m ((c : Thread nD τ).loc main_arg15)) :=
  (W18_of_ne D m c main_arg15 (by decide)).trans (W17_arg15 D m c)
theorem W19_arg15 (c : Dev nD) : W19 D m c (Proc.devRef .tc main_arg15) = (m ((c : Thread nD τ).loc main_arg15)) :=
  (W19_of D m c main_arg15 (by decide)).trans (W18_arg15 D m c)
theorem W20_arg15 (c : Dev nD) : W20 D m c (Proc.devRef .tc main_arg15) = (m ((c : Thread nD τ).loc main_arg15)) :=
  (W20_of_ne D m c main_arg15 (by decide)).trans (W19_arg15 D m c)
theorem W21_arg15 (c : Dev nD) : W21 D m c (Proc.devRef .tc main_arg15) = (m ((c : Thread nD τ).loc main_arg15)) :=
  (W21_of D m c main_arg15 (by decide)).trans (W20_arg15 D m c)
theorem W22_arg15 (c : Dev nD) : W22 D m c (Proc.devRef .tc main_arg15) = (m ((c : Thread nD τ).loc main_arg15)) :=
  (W22_of_ne D m c main_arg15 (by decide)).trans (W21_arg15 D m c)
theorem W23_arg15 (c : Dev nD) : W23 D m c (Proc.devRef .tc main_arg15) = (m ((c : Thread nD τ).loc main_arg15)) :=
  (W23_of D m c main_arg15 (by decide)).trans (W22_arg15 D m c)
theorem W24_arg15 (c : Dev nD) : W24 D m c (Proc.devRef .tc main_arg15) = (m ((c : Thread nD τ).loc main_arg15)) :=
  (W24_of_ne D m c main_arg15 (by decide)).trans (W23_arg15 D m c)

/-- The source column, from the stretch that computes it on. -/
theorem W3_v3 (c : Dev nD) : W3 D m c (Proc.devRef .tc main_v3) = srcCol (m ((c : Thread nD τ).loc main_arg1)) :=
  (hostOps2_main_v3 (W2 D m c)).trans (congrArg srcCol (W2_arg1 D m c))
theorem W4_v3 (c : Dev nD) : W4 D m c (Proc.devRef .tc main_v3) = srcCol (m ((c : Thread nD τ).loc main_arg1)) :=
  (W4_of_ne D m c main_v3 (by decide)).trans (W3_v3 D m c)
theorem W5_v3 (c : Dev nD) : W5 D m c (Proc.devRef .tc main_v3) = srcCol (m ((c : Thread nD τ).loc main_arg1)) :=
  (W5_of D m c main_v3 (by decide)).trans (W4_v3 D m c)
theorem W6_v3 (c : Dev nD) : W6 D m c (Proc.devRef .tc main_v3) = srcCol (m ((c : Thread nD τ).loc main_arg1)) :=
  (W6_of_ne D m c main_v3 (by decide)).trans (W5_v3 D m c)
theorem W7_v3 (c : Dev nD) : W7 D m c (Proc.devRef .tc main_v3) = srcCol (m ((c : Thread nD τ).loc main_arg1)) :=
  (W7_of D m c main_v3 (by decide)).trans (W6_v3 D m c)
theorem W8_v3 (c : Dev nD) : W8 D m c (Proc.devRef .tc main_v3) = srcCol (m ((c : Thread nD τ).loc main_arg1)) :=
  (W8_of_ne D m c main_v3 (by decide)).trans (W7_v3 D m c)
theorem W9_v3 (c : Dev nD) : W9 D m c (Proc.devRef .tc main_v3) = srcCol (m ((c : Thread nD τ).loc main_arg1)) :=
  (W9_of D m c main_v3 (by decide)).trans (W8_v3 D m c)
theorem W10_v3 (c : Dev nD) : W10 D m c (Proc.devRef .tc main_v3) = srcCol (m ((c : Thread nD τ).loc main_arg1)) :=
  (W10_of_ne D m c main_v3 (by decide)).trans (W9_v3 D m c)
theorem W11_v3 (c : Dev nD) : W11 D m c (Proc.devRef .tc main_v3) = srcCol (m ((c : Thread nD τ).loc main_arg1)) :=
  (W11_of D m c main_v3 (by decide)).trans (W10_v3 D m c)
theorem W12_v3 (c : Dev nD) : W12 D m c (Proc.devRef .tc main_v3) = srcCol (m ((c : Thread nD τ).loc main_arg1)) :=
  (W12_of_ne D m c main_v3 (by decide)).trans (W11_v3 D m c)
theorem W13_v3 (c : Dev nD) : W13 D m c (Proc.devRef .tc main_v3) = srcCol (m ((c : Thread nD τ).loc main_arg1)) :=
  (W13_of D m c main_v3 (by decide)).trans (W12_v3 D m c)
theorem W14_v3 (c : Dev nD) : W14 D m c (Proc.devRef .tc main_v3) = srcCol (m ((c : Thread nD τ).loc main_arg1)) :=
  (W14_of_ne D m c main_v3 (by decide)).trans (W13_v3 D m c)
theorem W15_v3 (c : Dev nD) : W15 D m c (Proc.devRef .tc main_v3) = srcCol (m ((c : Thread nD τ).loc main_arg1)) :=
  (W15_of D m c main_v3 (by decide)).trans (W14_v3 D m c)
theorem W16_v3 (c : Dev nD) : W16 D m c (Proc.devRef .tc main_v3) = srcCol (m ((c : Thread nD τ).loc main_arg1)) :=
  (W16_of_ne D m c main_v3 (by decide)).trans (W15_v3 D m c)
theorem W17_v3 (c : Dev nD) : W17 D m c (Proc.devRef .tc main_v3) = srcCol (m ((c : Thread nD τ).loc main_arg1)) :=
  (W17_of D m c main_v3 (by decide)).trans (W16_v3 D m c)
theorem W18_v3 (c : Dev nD) : W18 D m c (Proc.devRef .tc main_v3) = srcCol (m ((c : Thread nD τ).loc main_arg1)) :=
  (W18_of_ne D m c main_v3 (by decide)).trans (W17_v3 D m c)
theorem W19_v3 (c : Dev nD) : W19 D m c (Proc.devRef .tc main_v3) = srcCol (m ((c : Thread nD τ).loc main_arg1)) :=
  (W19_of D m c main_v3 (by decide)).trans (W18_v3 D m c)
theorem W20_v3 (c : Dev nD) : W20 D m c (Proc.devRef .tc main_v3) = srcCol (m ((c : Thread nD τ).loc main_arg1)) :=
  (W20_of_ne D m c main_v3 (by decide)).trans (W19_v3 D m c)

/-- The destination column, from the stretch that computes it on. -/
theorem W3_v5 (c : Dev nD) : W3 D m c (Proc.devRef .tc main_v5) = dstCol (m ((c : Thread nD τ).loc main_arg1)) :=
  (hostOps2_main_v5 (W2 D m c)).trans (congrArg dstCol (W2_arg1 D m c))
theorem W4_v5 (c : Dev nD) : W4 D m c (Proc.devRef .tc main_v5) = dstCol (m ((c : Thread nD τ).loc main_arg1)) :=
  (W4_of_ne D m c main_v5 (by decide)).trans (W3_v5 D m c)
theorem W5_v5 (c : Dev nD) : W5 D m c (Proc.devRef .tc main_v5) = dstCol (m ((c : Thread nD τ).loc main_arg1)) :=
  (W5_of D m c main_v5 (by decide)).trans (W4_v5 D m c)
theorem W6_v5 (c : Dev nD) : W6 D m c (Proc.devRef .tc main_v5) = dstCol (m ((c : Thread nD τ).loc main_arg1)) :=
  (W6_of_ne D m c main_v5 (by decide)).trans (W5_v5 D m c)
theorem W7_v5 (c : Dev nD) : W7 D m c (Proc.devRef .tc main_v5) = dstCol (m ((c : Thread nD τ).loc main_arg1)) :=
  (W7_of D m c main_v5 (by decide)).trans (W6_v5 D m c)
theorem W8_v5 (c : Dev nD) : W8 D m c (Proc.devRef .tc main_v5) = dstCol (m ((c : Thread nD τ).loc main_arg1)) :=
  (W8_of_ne D m c main_v5 (by decide)).trans (W7_v5 D m c)
theorem W9_v5 (c : Dev nD) : W9 D m c (Proc.devRef .tc main_v5) = dstCol (m ((c : Thread nD τ).loc main_arg1)) :=
  (W9_of D m c main_v5 (by decide)).trans (W8_v5 D m c)
theorem W10_v5 (c : Dev nD) : W10 D m c (Proc.devRef .tc main_v5) = dstCol (m ((c : Thread nD τ).loc main_arg1)) :=
  (W10_of_ne D m c main_v5 (by decide)).trans (W9_v5 D m c)
theorem W11_v5 (c : Dev nD) : W11 D m c (Proc.devRef .tc main_v5) = dstCol (m ((c : Thread nD τ).loc main_arg1)) :=
  (W11_of D m c main_v5 (by decide)).trans (W10_v5 D m c)
theorem W12_v5 (c : Dev nD) : W12 D m c (Proc.devRef .tc main_v5) = dstCol (m ((c : Thread nD τ).loc main_arg1)) :=
  (W12_of_ne D m c main_v5 (by decide)).trans (W11_v5 D m c)
theorem W13_v5 (c : Dev nD) : W13 D m c (Proc.devRef .tc main_v5) = dstCol (m ((c : Thread nD τ).loc main_arg1)) :=
  (W13_of D m c main_v5 (by decide)).trans (W12_v5 D m c)
theorem W14_v5 (c : Dev nD) : W14 D m c (Proc.devRef .tc main_v5) = dstCol (m ((c : Thread nD τ).loc main_arg1)) :=
  (W14_of_ne D m c main_v5 (by decide)).trans (W13_v5 D m c)
theorem W15_v5 (c : Dev nD) : W15 D m c (Proc.devRef .tc main_v5) = dstCol (m ((c : Thread nD τ).loc main_arg1)) :=
  (W15_of D m c main_v5 (by decide)).trans (W14_v5 D m c)
theorem W16_v5 (c : Dev nD) : W16 D m c (Proc.devRef .tc main_v5) = dstCol (m ((c : Thread nD τ).loc main_arg1)) :=
  (W16_of_ne D m c main_v5 (by decide)).trans (W15_v5 D m c)
theorem W17_v5 (c : Dev nD) : W17 D m c (Proc.devRef .tc main_v5) = dstCol (m ((c : Thread nD τ).loc main_arg1)) :=
  (W17_of D m c main_v5 (by decide)).trans (W16_v5 D m c)
theorem W18_v5 (c : Dev nD) : W18 D m c (Proc.devRef .tc main_v5) = dstCol (m ((c : Thread nD τ).loc main_arg1)) :=
  (W18_of_ne D m c main_v5 (by decide)).trans (W17_v5 D m c)
theorem W19_v5 (c : Dev nD) : W19 D m c (Proc.devRef .tc main_v5) = dstCol (m ((c : Thread nD τ).loc main_arg1)) :=
  (W19_of D m c main_v5 (by decide)).trans (W18_v5 D m c)
theorem W20_v5 (c : Dev nD) : W20 D m c (Proc.devRef .tc main_v5) = dstCol (m ((c : Thread nD τ).loc main_arg1)) :=
  (W20_of_ne D m c main_v5 (by decide)).trans (W19_v5 D m c)
theorem W21_v5 (c : Dev nD) : W21 D m c (Proc.devRef .tc main_v5) = dstCol (m ((c : Thread nD τ).loc main_arg1)) :=
  (W21_of D m c main_v5 (by decide)).trans (W20_v5 D m c)
theorem W22_v5 (c : Dev nD) : W22 D m c (Proc.devRef .tc main_v5) = dstCol (m ((c : Thread nD τ).loc main_arg1)) :=
  (W22_of_ne D m c main_v5 (by decide)).trans (W21_v5 D m c)

/-- The edge features: an input window of each message region, written by none after region 1. -/
theorem W3_v1 (c : Dev nD) : W3 D m c (Proc.devRef .tc main_v1) = W2 D m c (Proc.devRef .tc main_v1) := (W3_of D m c main_v1 (by decide))
theorem W4_v1 (c : Dev nD) : W4 D m c (Proc.devRef .tc main_v1) = W2 D m c (Proc.devRef .tc main_v1) :=
  (W4_in D m c 1 rfl : W4 D m c (Proc.devRef .tc main_v1) = W3 D m c (Proc.devRef .tc main_v1)).trans (W3_v1 D m c)
theorem W5_v1 (c : Dev nD) : W5 D m c (Proc.devRef .tc main_v1) = W2 D m c (Proc.devRef .tc main_v1) :=
  (W5_of D m c main_v1 (by decide)).trans (W4_v1 D m c)
theorem W6_v1 (c : Dev nD) : W6 D m c (Proc.devRef .tc main_v1) = W2 D m c (Proc.devRef .tc main_v1) :=
  (W6_of_ne D m c main_v1 (by decide)).trans (W5_v1 D m c)
theorem W7_v1 (c : Dev nD) : W7 D m c (Proc.devRef .tc main_v1) = W2 D m c (Proc.devRef .tc main_v1) :=
  (W7_of D m c main_v1 (by decide)).trans (W6_v1 D m c)
theorem W8_v1 (c : Dev nD) : W8 D m c (Proc.devRef .tc main_v1) = W2 D m c (Proc.devRef .tc main_v1) :=
  (W8_of_ne D m c main_v1 (by decide)).trans (W7_v1 D m c)
theorem W9_v1 (c : Dev nD) : W9 D m c (Proc.devRef .tc main_v1) = W2 D m c (Proc.devRef .tc main_v1) :=
  (W9_of D m c main_v1 (by decide)).trans (W8_v1 D m c)
theorem W10_v1 (c : Dev nD) : W10 D m c (Proc.devRef .tc main_v1) = W2 D m c (Proc.devRef .tc main_v1) :=
  (W10_in D m c 1 rfl : W10 D m c (Proc.devRef .tc main_v1) = W9 D m c (Proc.devRef .tc main_v1)).trans (W9_v1 D m c)
theorem W11_v1 (c : Dev nD) : W11 D m c (Proc.devRef .tc main_v1) = W2 D m c (Proc.devRef .tc main_v1) :=
  (W11_of D m c main_v1 (by decide)).trans (W10_v1 D m c)
theorem W12_v1 (c : Dev nD) : W12 D m c (Proc.devRef .tc main_v1) = W2 D m c (Proc.devRef .tc main_v1) :=
  (W12_of_ne D m c main_v1 (by decide)).trans (W11_v1 D m c)
theorem W13_v1 (c : Dev nD) : W13 D m c (Proc.devRef .tc main_v1) = W2 D m c (Proc.devRef .tc main_v1) :=
  (W13_of D m c main_v1 (by decide)).trans (W12_v1 D m c)
theorem W14_v1 (c : Dev nD) : W14 D m c (Proc.devRef .tc main_v1) = W2 D m c (Proc.devRef .tc main_v1) :=
  (W14_of_ne D m c main_v1 (by decide)).trans (W13_v1 D m c)
theorem W15_v1 (c : Dev nD) : W15 D m c (Proc.devRef .tc main_v1) = W2 D m c (Proc.devRef .tc main_v1) :=
  (W15_of D m c main_v1 (by decide)).trans (W14_v1 D m c)
theorem W16_v1 (c : Dev nD) : W16 D m c (Proc.devRef .tc main_v1) = W2 D m c (Proc.devRef .tc main_v1) :=
  (W16_in D m c 1 rfl : W16 D m c (Proc.devRef .tc main_v1) = W15 D m c (Proc.devRef .tc main_v1)).trans (W15_v1 D m c)
theorem W17_v1 (c : Dev nD) : W17 D m c (Proc.devRef .tc main_v1) = W2 D m c (Proc.devRef .tc main_v1) :=
  (W17_of D m c main_v1 (by decide)).trans (W16_v1 D m c)
theorem W18_v1 (c : Dev nD) : W18 D m c (Proc.devRef .tc main_v1) = W2 D m c (Proc.devRef .tc main_v1) :=
  (W18_of_ne D m c main_v1 (by decide)).trans (W17_v1 D m c)
theorem W19_v1 (c : Dev nD) : W19 D m c (Proc.devRef .tc main_v1) = W2 D m c (Proc.devRef .tc main_v1) :=
  (W19_of D m c main_v1 (by decide)).trans (W18_v1 D m c)
theorem W20_v1 (c : Dev nD) : W20 D m c (Proc.devRef .tc main_v1) = W2 D m c (Proc.devRef .tc main_v1) :=
  (W20_of_ne D m c main_v1 (by decide)).trans (W19_v1 D m c)
theorem W21_v1 (c : Dev nD) : W21 D m c (Proc.devRef .tc main_v1) = W2 D m c (Proc.devRef .tc main_v1) :=
  (W21_of D m c main_v1 (by decide)).trans (W20_v1 D m c)

end Cert.KernelIdeal.Chain

end
-- ==== Proof.KI.ChainL0a.lean ====
/-
  Layer 0 of the kernel program along the fold (KI/RunFold.lean), item by item from boundary 2 to boundary 7: what
  each item hands on, as the named function of what it was handed — a host stretch by KI/HostL0.lean, a region by the
  array its write-backs fold to (its proof data being the region's own, a hypothesis here and `rfl` at the run's
  data) — with the arguments, the index columns and the edge features read back through KI/ChainArgs.lean.
-/
import proofs.«178590_j59433757442359_2_alg».proof.Proof.KI.ChainDefs
import proofs.«178590_j59433757442359_2_alg».proof.Proof.KI.ChainArgs
import proofs.«178590_j59433757442359_2_alg».proof.Proof.KI.HostL0
import proofs.«178590_j59433757442359_2_alg».proof.Proof.KI.Val2
import proofs.«178590_j59433757442359_2_alg».proof.Proof.KI.Val3

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Stretch 2: the rows of the node features at the edges' sources. -/
theorem L0_gather : W3 D m c (Proc.devRef .tc main_v12) = gatherRows (F := Ideal) (W2 D m c (Proc.devRef .tc main_v0)) (srcCol (m ((c : Thread nD τ).loc main_arg1))) := by
  have h := hostOps2_main_v12 (W2 D m c)
  rw [W2_arg1 D m c] at h
  exact h

/-- Region 2: max (gathered row + edge features, 0). -/
theorem L0_msg (h2 : D.r2.dat = dat2) : W4 D m c (Proc.devRef .tc main_v13) = msgArr2 (W3 D m c (Proc.devRef .tc main_v12)) (W3 D m c (Proc.devRef .tc main_v1)) :=
  (W4_arr D m c 2 : W4 D m c (Proc.devRef .tc main_v13) = _).trans (by rw [h2]; exact arr2 (V3 D m) c)

/-- Stretch 3: the scatter-add onto zeros, (1 + eps) · h + agg, and the first linear map's parameters. -/
theorem L0_x : W5 D m c (Proc.devRef .tc main_v22) = selfPlusAgg (F := Ideal) (W4 D m c (Proc.devRef .tc main_v0)) (scatterSum (F := Ideal) (W4 D m c (Proc.devRef .tc main_v5)) (W4 D m c (Proc.devRef .tc main_v13))) (eps_0 (W4 D m c (Proc.devRef .tc main_arg13))) :=
  hostOps3_main_v22 (W4 D m c)
theorem L0_w1 : W5 D m c (Proc.devRef .tc main_v24) = W1_0 (F := Ideal) (m ((c : Thread nD τ).loc main_arg7)) := by
  have h := hostOps3_main_v24 (W4 D m c)
  rw [W4_arg7 D m c] at h
  exact h
theorem L0_b1 : W5 D m c (Proc.devRef .tc main_v26) = b1_0 (F := Ideal) (m ((c : Thread nD τ).loc main_arg8)) := by
  have h := hostOps3_main_v26 (W4 D m c)
  rw [W4_arg8 D m c] at h
  exact h

theorem L0_h1 : W4 D m c (Proc.devRef .tc main_v0) = W2 D m c (Proc.devRef .tc main_v0) :=
  (W4_of_ne D m c main_v0 (by decide)).trans (W3_of D m c main_v0 (by decide))

theorem L0_Z (h3 : D.r3.dat = dat3) : W6 D m c (Proc.devRef .tc main_v27_0) = zArr3 (W5 D m c (Proc.devRef .tc main_v22)) (W5 D m c (Proc.devRef .tc main_v24)) (W5 D m c (Proc.devRef .tc main_v26)) :=
  (W6_arr D m c 3 : W6 D m c (Proc.devRef .tc main_v27_0) = _).trans (by rw [h3]; exact arrZ3 (V5 D m) c)
theorem L0_S (h3 : D.r3.dat = dat3) : W6 D m c (Proc.devRef .tc main_v27_1) = sArr3 (W5 D m c (Proc.devRef .tc main_v22)) (W5 D m c (Proc.devRef .tc main_v24)) (W5 D m c (Proc.devRef .tc main_v26)) :=
  (W6_arr D m c 4 : W6 D m c (Proc.devRef .tc main_v27_1) = _).trans (by rw [h3]; exact arrS3 (V5 D m) c)
theorem L0_Q (h3 : D.r3.dat = dat3) : W6 D m c (Proc.devRef .tc main_v27_2) = qArr3 (W5 D m c (Proc.devRef .tc main_v22)) (W5 D m c (Proc.devRef .tc main_v24)) (W5 D m c (Proc.devRef .tc main_v26)) :=
  (W6_arr D m c 5 : W6 D m c (Proc.devRef .tc main_v27_2) = _).trans (by rw [h3]; exact arrQ3 (V5 D m) c)

/-- Stretch 4: the mean and one-pass variance from the accumulated sums, and the remaining parameter slices. -/
theorem L0_mean : W7 D m c (Proc.devRef .tc main_v29) = meanOfSum (F := Ideal) (W6 D m c (Proc.devRef .tc main_v27_1)) := hostOps4_main_v29 (W6 D m c)
theorem L0_var : W7 D m c (Proc.devRef .tc main_v33) = varOnePass (F := Ideal) (W6 D m c (Proc.devRef .tc main_v27_1)) (W6 D m c (Proc.devRef .tc main_v27_2)) := hostOps4_main_v33 (W6 D m c)
theorem L0_gm : W7 D m c (Proc.devRef .tc main_v36) = asRow128 (F := Ideal) (g1_0 (F := Ideal) (m ((c : Thread nD τ).loc main_arg9))) := by
  have h := hostOps4_main_v36 (W6 D m c)
  rw [W6_arg9 D m c] at h
  exact h
theorem L0_bt : W7 D m c (Proc.devRef .tc main_v39) = asRow128 (F := Ideal) (bt1_0 (F := Ideal) (m ((c : Thread nD τ).loc main_arg10))) := by
  have h := hostOps4_main_v39 (W6 D m c)
  rw [W6_arg10 D m c] at h
  exact h
theorem L0_w2 : W7 D m c (Proc.devRef .tc main_v41) = W2_0 (F := Ideal) (m ((c : Thread nD τ).loc main_arg11)) := by
  have h := hostOps4_main_v41 (W6 D m c)
  rw [W6_arg11 D m c] at h
  exact h
theorem L0_b2 : W7 D m c (Proc.devRef .tc main_v43) = b2_0 (F := Ideal) (m ((c : Thread nD τ).loc main_arg12)) := by
  have h := hostOps4_main_v43 (W6 D m c)
  rw [W6_arg12 D m c] at h
  exact h
theorem L0_lg : W7 D m c (Proc.devRef .tc main_v46) = asRow64 (F := Ideal) (lng_0 (F := Ideal) (m ((c : Thread nD τ).loc main_arg14))) := by
  have h := hostOps4_main_v46 (W6 D m c)
  rw [W6_arg14 D m c] at h
  exact h
theorem L0_lb : W7 D m c (Proc.devRef .tc main_v49) = asRow64 (F := Ideal) (lnb_0 (F := Ideal) (m ((c : Thread nD τ).loc main_arg15))) := by
  have h := hostOps4_main_v49 (W6 D m c)
  rw [W6_arg15 D m c] at h
  exact h
theorem L0_Zkeep : W7 D m c (Proc.devRef .tc main_v27_0) = W6 D m c (Proc.devRef .tc main_v27_0) := (W7_of D m c main_v27_0 (by decide))

end Cert.KernelIdeal.Chain

end
-- ==== Proof.KI.Val4.lean ====
import proofs.«178590_j59433757442359_2_alg».proof.Proof.KI.Reg4
import proofs.«178590_j59433757442359_2_alg».proof.Proof.Math.Gin2
import proofs.«178590_j59433757442359_2_alg».proof.Proof.KI.ValGin
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 4, from blocks to the array: after the last grid point the output array is the second half of a GIN
    layer (`ginArrRelu`) of the nine arrays the region was entered with. -/

theorem zero2_4 : (![0, 0] : Fin 2 → Nat) = fun _ => 0 := funext fun a => by fin_cases a <;> rfl
theorem zero1_4 : (![0] : Fin 1 → Nat) = fun _ => 0 := funext fun a => by fin_cases a; rfl

/-- The operand arrays as the region finds them, and the output array after its last point, as functions on
    their index types. -/
abbrev ain4_0 (c : Dev nD) : S80000x128.Idx → EReal := V c (Pipeline.arrRef spec4 0)
abbrev ain4_1 (c : Dev nD) : S1x128.Idx → EReal := V c (Pipeline.arrRef spec4 1)
abbrev ain4_2 (c : Dev nD) : S1x128.Idx → EReal := V c (Pipeline.arrRef spec4 2)
abbrev ain4_3 (c : Dev nD) : S1x128.Idx → EReal := V c (Pipeline.arrRef spec4 3)
abbrev ain4_4 (c : Dev nD) : S1x128.Idx → EReal := V c (Pipeline.arrRef spec4 4)
abbrev ain4_5 (c : Dev nD) : S128x64.Idx → EReal := V c (Pipeline.arrRef spec4 5)
abbrev ain4_6 (c : Dev nD) : S64.Idx → EReal := V c (Pipeline.arrRef spec4 6)
abbrev ain4_7 (c : Dev nD) : S1x64.Idx → EReal := V c (Pipeline.arrRef spec4 7)
abbrev ain4_8 (c : Dev nD) : S1x64.Idx → EReal := V c (Pipeline.arrRef spec4 8)
abbrev aout4 (c : Dev nD) : S80000x64.Idx → EReal := (dat4 V c).arrAt 9 cfg4.N

/-- The index maps over the grid: the hidden rows' block and the output block move together, block `t` at point
    `t`; the eight resident windows' block index is constant. -/
theorem idx4_0 : ∀ t : Fin cfg4.N, win4_0.index t (0 : Fin 2) = win4_9.index t (0 : Fin 2) ∧ win4_0.index t (1 : Fin 2) = 0
    ∧ win4_9.index t (0 : Fin 2) = t.val ∧ win4_9.index t (1 : Fin 2) = 0 :=
  (by decide +kernel : ∀ t : Fin grid4.N, _)
theorem idx4_1 : ∀ (t : Fin cfg4.N) (a : Fin 2), win4_1.index t a = 0 :=
  (by decide +kernel : ∀ (t : Fin grid4.N) (a : Fin 2), win4_1.index t a = 0)
theorem idx4_2 : ∀ (t : Fin cfg4.N) (a : Fin 2), win4_2.index t a = 0 :=
  (by decide +kernel : ∀ (t : Fin grid4.N) (a : Fin 2), win4_2.index t a = 0)
theorem idx4_3 : ∀ (t : Fin cfg4.N) (a : Fin 2), win4_3.index t a = 0 :=
  (by decide +kernel : ∀ (t : Fin grid4.N) (a : Fin 2), win4_3.index t a = 0)
theorem idx4_4 : ∀ (t : Fin cfg4.N) (a : Fin 2), win4_4.index t a = 0 :=
  (by decide +kernel : ∀ (t : Fin grid4.N) (a : Fin 2), win4_4.index t a = 0)
theorem idx4_5 : ∀ (t : Fin cfg4.N) (a : Fin 2), win4_5.index t a = 0 :=
  (by decide +kernel : ∀ (t : Fin grid4.N) (a : Fin 2), win4_5.index t a = 0)
theorem idx4_6 : ∀ (t : Fin cfg4.N) (a : Fin 1), win4_6.index t a = 0 :=
  (by decide +kernel : ∀ (t : Fin grid4.N) (a : Fin 1), win4_6.index t a = 0)
theorem idx4_7 : ∀ (t : Fin cfg4.N) (a : Fin 2), win4_7.index t a = 0 :=
  (by decide +kernel : ∀ (t : Fin grid4.N) (a : Fin 2), win4_7.index t a = 0)
theorem idx4_8 : ∀ (t : Fin cfg4.N) (a : Fin 2), win4_8.index t a = 0 :=
  (by decide +kernel : ∀ (t : Fin grid4.N) (a : Fin 2), win4_8.index t a = 0)

/-- Resident window 1's block is its whole array at every point. -/
theorem blk4_1 (c : Dev nD) (t : Fin cfg4.N) : (iblk4 V c 1 t : Vec Ideal S1x128 .f32) = V c (Pipeline.arrRef spec4 1) := by
  funext y
  show V c (Pipeline.arrRef spec4 1) (((cfg4.win 1).blk t).view.emb y) = V c (Pipeline.arrRef spec4 1) y
  have h : ((cfg4.win 1).blk t).view.emb y = y := by
    funext a; apply Fin.ext
    match a with
    | ⟨0, _⟩ => show win4_1.index t (0 : Fin 2) * 1 + 1 * (y 0).val = (y 0).val; rw [idx4_1 t 0]; omega
    | ⟨1, _⟩ => show win4_1.index t (1 : Fin 2) * 128 + 1 * (y 1).val = (y 1).val; rw [idx4_1 t 1]; omega
  rw [h]

/-- Resident window 2's block is its whole array at every point. -/
theorem blk4_2 (c : Dev nD) (t : Fin cfg4.N) : (iblk4 V c 2 t : Vec Ideal S1x128 .f32) = V c (Pipeline.arrRef spec4 2) := by
  funext y
  show V c (Pipeline.arrRef spec4 2) (((cfg4.win 2).blk t).view.emb y) = V c (Pipeline.arrRef spec4 2) y
  have h : ((cfg4.win 2).blk t).view.emb y = y := by
    funext a; apply Fin.ext
    match a with
    | ⟨0, _⟩ => show win4_2.index t (0 : Fin 2) * 1 + 1 * (y 0).val = (y 0).val; rw [idx4_2 t 0]; omega
    | ⟨1, _⟩ => show win4_2.index t (1 : Fin 2) * 128 + 1 * (y 1).val = (y 1).val; rw [idx4_2 t 1]; omega
  rw [h]

/-- Resident window 3's block is its whole array at every point. -/
theorem blk4_3 (c : Dev nD) (t : Fin cfg4.N) : (iblk4 V c 3 t : Vec Ideal S1x128 .f32) = V c (Pipeline.arrRef spec4 3) := by
  funext y
  show V c (Pipeline.arrRef spec4 3) (((cfg4.win 3).blk t).view.emb y) = V c (Pipeline.arrRef spec4 3) y
  have h : ((cfg4.win 3).blk t).view.emb y = y := by
    funext a; apply Fin.ext
    match a with
    | ⟨0, _⟩ => show win4_3.index t (0 : Fin 2) * 1 + 1 * (y 0).val = (y 0).val; rw [idx4_3 t 0]; omega
    | ⟨1, _⟩ => show win4_3.index t (1 : Fin 2) * 128 + 1 * (y 1).val = (y 1).val; rw [idx4_3 t 1]; omega
  rw [h]

/-- Resident window 4's block is its whole array at every point. -/
theorem blk4_4 (c : Dev nD) (t : Fin cfg4.N) : (iblk4 V c 4 t : Vec Ideal S1x128 .f32) = V c (Pipeline.arrRef spec4 4) := by
  funext y
  show V c (Pipeline.arrRef spec4 4) (((cfg4.win 4).blk t).view.emb y) = V c (Pipeline.arrRef spec4 4) y
  have h : ((cfg4.win 4).blk t).view.emb y = y := by
    funext a; apply Fin.ext
    match a with
    | ⟨0, _⟩ => show win4_4.index t (0 : Fin 2) * 1 + 1 * (y 0).val = (y 0).val; rw [idx4_4 t 0]; omega
    | ⟨1, _⟩ => show win4_4.index t (1 : Fin 2) * 128 + 1 * (y 1).val = (y 1).val; rw [idx4_4 t 1]; omega
  rw [h]

/-- Resident window 5's block is its whole array at every point. -/
theorem blk4_5 (c : Dev nD) (t : Fin cfg4.N) : (iblk4 V c 5 t : Vec Ideal S128x64 .f32) = V c (Pipeline.arrRef spec4 5) := by
  funext y
  show V c (Pipeline.arrRef spec4 5) (((cfg4.win 5).blk t).view.emb y) = V c (Pipeline.arrRef spec4 5) y
  have h : ((cfg4.win 5).blk t).view.emb y = y := by
    funext a; apply Fin.ext
    match a with
    | ⟨0, _⟩ => show win4_5.index t (0 : Fin 2) * 128 + 1 * (y 0).val = (y 0).val; rw [idx4_5 t 0]; omega
    | ⟨1, _⟩ => show win4_5.index t (1 : Fin 2) * 64 + 1 * (y 1).val = (y 1).val; rw [idx4_5 t 1]; omega
  rw [h]

/-- Resident window 6's block is its whole array at every point. -/
theorem blk4_6 (c : Dev nD) (t : Fin cfg4.N) : (iblk4 V c 6 t : Vec Ideal S64 .f32) = V c (Pipeline.arrRef spec4 6) := by
  funext y
  show V c (Pipeline.arrRef spec4 6) (((cfg4.win 6).blk t).view.emb y) = V c (Pipeline.arrRef spec4 6) y
  have h : ((cfg4.win 6).blk t).view.emb y = y := by
    funext a; apply Fin.ext
    match a with
    | ⟨0, _⟩ => show win4_6.index t (0 : Fin 1) * 64 + 1 * (y 0).val = (y 0).val; rw [idx4_6 t 0]; omega
  rw [h]

/-- Resident window 7's block is its whole array at every point. -/
theorem blk4_7 (c : Dev nD) (t : Fin cfg4.N) : (iblk4 V c 7 t : Vec Ideal S1x64 .f32) = V c (Pipeline.arrRef spec4 7) := by
  funext y
  show V c (Pipeline.arrRef spec4 7) (((cfg4.win 7).blk t).view.emb y) = V c (Pipeline.arrRef spec4 7) y
  have h : ((cfg4.win 7).blk t).view.emb y = y := by
    funext a; apply Fin.ext
    match a with
    | ⟨0, _⟩ => show win4_7.index t (0 : Fin 2) * 1 + 1 * (y 0).val = (y 0).val; rw [idx4_7 t 0]; omega
    | ⟨1, _⟩ => show win4_7.index t (1 : Fin 2) * 64 + 1 * (y 1).val = (y 1).val; rw [idx4_7 t 1]; omega
  rw [h]

/-- Resident window 8's block is its whole array at every point. -/
theorem blk4_8 (c : Dev nD) (t : Fin cfg4.N) : (iblk4 V c 8 t : Vec Ideal S1x64 .f32) = V c (Pipeline.arrRef spec4 8) := by
  funext y
  show V c (Pipeline.arrRef spec4 8) (((cfg4.win 8).blk t).view.emb y) = V c (Pipeline.arrRef spec4 8) y
  have h : ((cfg4.win 8).blk t).view.emb y = y := by
    funext a; apply Fin.ext
    match a with
    | ⟨0, _⟩ => show win4_8.index t (0 : Fin 2) * 1 + 1 * (y 0).val = (y 0).val; rw [idx4_8 t 0]; omega
    | ⟨1, _⟩ => show win4_8.index t (1 : Fin 2) * 64 + 1 * (y 1).val = (y 1).val; rw [idx4_8 t 1]; omega
  rw [h]

set_option maxHeartbeats 1000000 in
/-- What point `t` writes back is block `t` of that array. -/
theorem flushed4_eq (c : Dev nD) (t : Fin cfg4.N) :
    (dat4 V c).flushed 9 t = ((cfg4.win 9).blk t).view.read (Elt Ideal) (ginArrRelu (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) := by
  show (cfg4.win 9).cut (grid4.coords t) ((dat4 V c).after 9 t) = _
  rw [after4_9]
  unfold out4_9
  rw [View.canon_unit_zero zero2_4]
  simp only [View.ld_unit_zero (S := S8000x128) zero2_4, View.ld_unit_zero (S := S1x128) zero2_4, View.ld_unit_zero (S := S128x64) zero2_4,
    View.ld_unit_zero (S := S64) zero1_4, View.ld_unit_zero (S := S1x64) zero2_4]
  obtain ⟨e0, e1, e2, e3⟩ := idx4_0 t
  rw [blk4_1 V c t, blk4_2 V c t, blk4_3 V c t, blk4_4 V c t, blk4_5 V c t, blk4_6 V c t, blk4_7 V c t, blk4_8 V c t]
  funext j
  refine gin_entry_relu (iblk4 V c 0 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (win4_9.index t (0 : Fin 2)) ?_ j (((cfg4.win 9).blk t).view.emb j) ?_ ?_
  · intro p k r hr
    show V c (Pipeline.arrRef spec4 0) (((cfg4.win 0).blk t).view.emb (ix2 p k)) = V c (Pipeline.arrRef spec4 0) (ix2 r k)
    have h : ((cfg4.win 0).blk t).view.emb (ix2 p k) = (ix2 r k : S80000x128.Idx) := by
      funext a; apply Fin.ext
      match a with
      | ⟨0, _⟩ => show win4_0.index t (0 : Fin 2) * 8000 + 1 * p.val = r.val; omega
      | ⟨1, _⟩ => show win4_0.index t (1 : Fin 2) * 128 + 1 * k.val = k.val; omega
    rw [h]
  · show win4_9.index t (0 : Fin 2) * 8000 + 1 * (j 0).val = win4_9.index t (0 : Fin 2) * 8000 + (j 0).val; omega
  · show win4_9.index t (1 : Fin 2) * 64 + 1 * (j 1).val = (j 1).val; omega

/-- An index of the array is in point `t`'s block iff each coordinate is in the block's range on its axis. -/
theorem mem_blk4 (t : Fin cfg4.N) (i : S80000x64.Idx) :
    i ∈ ((cfg4.win 9).blk t).view.set ↔ ∀ a : Fin 2, win4_9.index t a * S8000x64.size a ≤ (i a).val ∧ (i a).val < win4_9.index t a * S8000x64.size a + S8000x64.size a := by
  show i ∈ ((View.whole main_v50).slice (win4_9.rect t)).set ↔ _
  rw [View.set_slice_whole, Rect.mem_set_unit]
  exact Iff.rfl

/-- Every row of the array is in some point's block: row `r` in block `r / 8000`. -/
theorem cover4 (i : S80000x64.Idx) : ∃ t : Fin cfg4.N, (cfg4.win 9).flush t = true ∧ i ∈ ((cfg4.win 9).blk t).view.set := by
  have hi0 : (i 0).val < 80000 := (i 0).isLt
  have hi1 : (i 1).val < 64 := (i 1).isLt
  have hN : cfg4.N = 10 := N_4
  refine ⟨⟨(i 0).val / 8000, by rw [hN]; omega⟩, flush4_9 _, ?_⟩
  rw [mem_blk4]
  obtain ⟨-, -, e2, e3⟩ := idx4_0 ⟨(i 0).val / 8000, by rw [hN]; omega⟩
  intro a
  match a with
  | ⟨0, _⟩ => show win4_9.index _ (0 : Fin 2) * 8000 ≤ (i 0).val ∧ (i 0).val < win4_9.index _ (0 : Fin 2) * 8000 + 8000; rw [e2]; show (i 0).val / 8000 * 8000 ≤ (i 0).val ∧ (i 0).val < (i 0).val / 8000 * 8000 + 8000; omega
  | ⟨1, _⟩ => show win4_9.index _ (1 : Fin 2) * 64 ≤ (i 1).val ∧ (i 1).val < win4_9.index _ (1 : Fin 2) * 64 + 64; rw [e3]; omega

/-- THE ARRAY after the region: the layer's second half of the arrays it was entered with. -/
theorem arr4 (c : Dev nD) : aout4 V c = ginArrRelu (ain4_0 V c) (ain4_1 V c) (ain4_2 V c) (ain4_3 V c) (ain4_4 V c) (ain4_5 V c) (ain4_6 V c) (ain4_7 V c) (ain4_8 V c) :=
  (dat4 V c).arrAt_eq_of_cover 9 _ (fun t _ => flushed4_eq V c t) (cover4)

/-- The same, read at an entry. -/
theorem arr4_apply (c : Dev nD) (r : Fin 80000) (q : Fin 64) :
    aout4 V c (ix2 r q) = max (ginPre (ain4_0 V c) (ain4_1 V c) (ain4_2 V c) (ain4_3 V c) (ain4_4 V c) (ain4_5 V c) (ain4_6 V c) (ain4_7 V c) (ain4_8 V c) r q) 0 := by
  rw [arr4]; rfl

end Cert.KernelIdeal.Reg
-- ==== Proof.KI.ChainL0.lean ====
/-
  Layer 0 of the kernel program along the fold, assembled: the last region's array (KI/Val4.lean) of the nine arrays
  KI/ChainL0a.lean computes, which is the layer function `kLayer` (KI/ChainDefs.lean) by definition.
-/
import proofs.«178590_j59433757442359_2_alg».proof.Proof.KI.ChainL0a
import proofs.«178590_j59433757442359_2_alg».proof.Proof.KI.Val4

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Region 4: the layer's second half of its nine operand arrays. -/
theorem L0_out (h4 : D.r4.dat = dat4) : W8 D m c (Proc.devRef .tc main_v50) = ginArrRelu (W7 D m c (Proc.devRef .tc main_v27_0)) (W7 D m c (Proc.devRef .tc main_v29)) (W7 D m c (Proc.devRef .tc main_v33)) (W7 D m c (Proc.devRef .tc main_v36)) (W7 D m c (Proc.devRef .tc main_v39)) (W7 D m c (Proc.devRef .tc main_v41)) (W7 D m c (Proc.devRef .tc main_v43)) (W7 D m c (Proc.devRef .tc main_v46)) (W7 D m c (Proc.devRef .tc main_v49)) :=
  (W8_arr D m c 9 : W8 D m c (Proc.devRef .tc main_v50) = _).trans (by rw [h4]; exact arr4 (V7 D m) c)

/-- Layer 0 along the fold: the node features after it are the layer function of the node features before it, the edge
    features, the index columns and the layer's parameter slices. -/
theorem layer0 (h2 : D.r2.dat = dat2) (h3 : D.r3.dat = dat3) (h4 : D.r4.dat = dat4) :
    W8 D m c (Proc.devRef .tc main_v50) = kLayer (W2 D m c (Proc.devRef .tc main_v0)) (W2 D m c (Proc.devRef .tc main_v1)) (srcCol (m ((c : Thread nD τ).loc main_arg1))) (dstCol (m ((c : Thread nD τ).loc main_arg1)))
      (eps_0 (F := Ideal) (m ((c : Thread nD τ).loc main_arg13))) (W1_0 (F := Ideal) (m ((c : Thread nD τ).loc main_arg7))) (b1_0 (F := Ideal) (m ((c : Thread nD τ).loc main_arg8))) (g1_0 (F := Ideal) (m ((c : Thread nD τ).loc main_arg9))) (bt1_0 (F := Ideal) (m ((c : Thread nD τ).loc main_arg10)))
      (W2_0 (F := Ideal) (m ((c : Thread nD τ).loc main_arg11))) (b2_0 (F := Ideal) (m ((c : Thread nD τ).loc main_arg12))) (lng_0 (F := Ideal) (m ((c : Thread nD τ).loc main_arg14))) (lnb_0 (F := Ideal) (m ((c : Thread nD τ).loc main_arg15))) := by
  rw [L0_out D m c h4, L0_Zkeep D m c, L0_Z D m c h3, L0_mean D m c, L0_var D m c, L0_S D m c h3, L0_Q D m c h3,
    L0_gm D m c, L0_bt D m c, L0_w2 D m c, L0_b2 D m c, L0_lg D m c, L0_lb D m c, L0_x D m c, L0_w1 D m c, L0_b1 D m c,
    L0_h1 D m c, W4_v5 D m c, W4_arg13 D m c, L0_msg D m c h2, L0_gather D m c, W3_v1 D m c]
  rfl

end Cert.KernelIdeal.Chain

end
-- ==== Proof.KI.HostL1.lean ====
/-
  Layer 1's three host stretches of the kernel program (`hostOps5`, `hostOps6`, `hostOps7`), read from ANY contents `W` of
  the device's buffers: each buffer a stretch hands on — to a later region's window or a later stretch — holds, after the
  stretch, the named function of the contents `W` has at the stretch's inputs. The names are the reference function's
  own pieces (Proof/RefRunPieces.lean) wherever the operations are the same ones; `meanOfSum`, `varOnePass`, `asRow128`,
  `asRow64` (KI/HostDefs.lean) where the kernel program computes from sums accumulated in a region.
-/
import proofs.«178590_j59433757442359_2_alg».proof.Proof.Gen.KernelIdeal.Launch
import proofs.«178590_j59433757442359_2_alg».proof.Proof.KI.HostDefs

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable {F : FTy → Type} [FloatOps F]

set_option maxRecDepth 8192 in
set_option maxHeartbeats 900000 in
theorem hostOps5_main_v57 (W : Valuation τ sig (Elt F)) :
    after hostOps5 W (Proc.devRef .tc main_v57) = gatherRows (W (Proc.devRef .tc main_v50)) (W (Proc.devRef .tc main_v3)) := by
  simp only [hostOps5]
  after_results_simp <;> rfl

set_option maxRecDepth 8192 in
set_option maxHeartbeats 1500000 in
theorem hostOps6_main_v67 (W : Valuation τ sig (Elt F)) :
    after hostOps6 W (Proc.devRef .tc main_v67) = selfPlusAgg (W (Proc.devRef .tc main_v50)) (scatterSum (W (Proc.devRef .tc main_v5)) (W (Proc.devRef .tc main_v58))) (eps_1 (W (Proc.devRef .tc main_arg13))) := by
  simp only [hostOps6]
  after_results_simp <;> rfl

set_option maxRecDepth 8192 in
set_option maxHeartbeats 1500000 in
theorem hostOps6_main_v69 (W : Valuation τ sig (Elt F)) :
    after hostOps6 W (Proc.devRef .tc main_v69) = W1_1 (W (Proc.devRef .tc main_arg7)) := by
  simp only [hostOps6]
  after_results_simp <;> rfl

set_option maxRecDepth 8192 in
set_option maxHeartbeats 1500000 in
theorem hostOps6_main_v71 (W : Valuation τ sig (Elt F)) :
    after hostOps6 W (Proc.devRef .tc main_v71) = b1_1 (W (Proc.devRef .tc main_arg8)) := by
  simp only [hostOps6]
  after_results_simp <;> rfl

set_option maxRecDepth 8192 in
set_option maxHeartbeats 2400000 in
theorem hostOps7_main_v74 (W : Valuation τ sig (Elt F)) :
    after hostOps7 W (Proc.devRef .tc main_v74) = meanOfSum (W (Proc.devRef .tc main_v72_1)) := by
  simp only [hostOps7]
  after_results_simp <;> rfl

set_option maxRecDepth 8192 in
set_option maxHeartbeats 2400000 in
theorem hostOps7_main_v78 (W : Valuation τ sig (Elt F)) :
    after hostOps7 W (Proc.devRef .tc main_v78) = varOnePass (W (Proc.devRef .tc main_v72_1)) (W (Proc.devRef .tc main_v72_2)) := by
  simp only [hostOps7]
  after_results_simp <;> rfl

set_option maxRecDepth 8192 in
set_option maxHeartbeats 2400000 in
theorem hostOps7_main_v81 (W : Valuation τ sig (Elt F)) :
    after hostOps7 W (Proc.devRef .tc main_v81) = asRow128 (g1_1 (W (Proc.devRef .tc main_arg9))) := by
  simp only [hostOps7]
  after_results_simp <;> rfl

set_option maxRecDepth 8192 in
set_option maxHeartbeats 2400000 in
theorem hostOps7_main_v84 (W : Valuation τ sig (Elt F)) :
    after hostOps7 W (Proc.devRef .tc main_v84) = asRow128 (bt1_1 (W (Proc.devRef .tc main_arg10))) := by
  simp only [hostOps7]
  after_results_simp <;> rfl

set_option maxRecDepth 8192 in
set_option maxHeartbeats 2400000 in
theorem hostOps7_main_v86 (W : Valuation τ sig (Elt F)) :
    after hostOps7 W (Proc.devRef .tc main_v86) = W2_1 (W (Proc.devRef .tc main_arg11)) := by
  simp only [hostOps7]
  after_results_simp <;> rfl

set_option maxRecDepth 8192 in
set_option maxHeartbeats 2400000 in
theorem hostOps7_main_v88 (W : Valuation τ sig (Elt F)) :
    after hostOps7 W (Proc.devRef .tc main_v88) = b2_1 (W (Proc.devRef .tc main_arg12)) := by
  simp only [hostOps7]
  after_results_simp <;> rfl

set_option maxRecDepth 8192 in
set_option maxHeartbeats 2400000 in
theorem hostOps7_main_v91 (W : Valuation τ sig (Elt F)) :
    after hostOps7 W (Proc.devRef .tc main_v91) = asRow64 (lng_1 (W (Proc.devRef .tc main_arg14))) := by
  simp only [hostOps7]
  after_results_simp <;> rfl

set_option maxRecDepth 8192 in
set_option maxHeartbeats 2400000 in
theorem hostOps7_main_v94 (W : Valuation τ sig (Elt F)) :
    after hostOps7 W (Proc.devRef .tc main_v94) = asRow64 (lnb_1 (W (Proc.devRef .tc main_arg15))) := by
  simp only [hostOps7]
  after_results_simp <;> rfl

end Cert.KernelIdeal.HostSide

end
-- ==== Proof.KI.Val5.lean ====
import proofs.«178590_j59433757442359_2_alg».proof.Proof.KI.Reg5
import proofs.«178590_j59433757442359_2_alg».proof.Proof.Math.LinRelu
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 5, from blocks to the array: after the last grid point the output array is, entry by entry,
    max (h + e, 0) of the two arrays the region was entered with. -/

theorem zero2_5 : (![0, 0] : Fin 2 → Nat) = fun _ => 0 := funext fun a => by fin_cases a <;> rfl

/-- The operand arrays as the region finds them, and the output array after its last point, as functions on
    their index type. -/
abbrev ain5_0 (c : Dev nD) : S1280000x64.Idx → EReal := V c (Pipeline.arrRef spec5 0)
abbrev ain5_1 (c : Dev nD) : S1280000x64.Idx → EReal := V c (Pipeline.arrRef spec5 1)
abbrev aout5 (c : Dev nD) : S1280000x64.Idx → EReal := (dat5 V c).arrAt 2 cfg5.N

/-- The array the region leaves: entry by entry the maximum with zero of the sum of its two operands. -/
def msgArr5 (a0 a1 : S1280000x64.Idx → EReal) : S1280000x64.Idx → EReal := fun i => max (a0 i + a1 i) 0

theorem msgArr5_apply (a0 a1 : S1280000x64.Idx → EReal) (i : S1280000x64.Idx) : msgArr5 a0 a1 i = max (a0 i + a1 i) 0 := rfl

/-- One entry of a block: if the two loaded blocks hold, at `j`, the operands' entries at `i`, the stored block
    holds the array's entry at `i`. -/
theorem msg_entry5 (x0 x1 : Vec Ideal S8000x64 .f32) (a0 a1 : S1280000x64.Idx → EReal) (j : S8000x64.Idx) (i : S1280000x64.Idx)
    (h0 : x0 j = a0 i) (h1 : x1 j = a1 i) : k5_pay1 (F := Ideal) x0 x1 j = msgArr5 a0 a1 i := by
  obtain ⟨p, q, rfl⟩ : ∃ (p : Fin 8000) (q : Fin 64), j = ix2 p q := ⟨j 0, j 1, eq_ix2 j⟩
  rw [Cert.Bridge.k5_pay1_apply, h0, h1]
  rfl

/-- The index maps over the grid: the three windows move together, block `t` of the rows at point `t`. -/
theorem idx_facts5 : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val ∧ win5_2.index t (1 : Fin 2) = 0 :=
  (by decide +kernel : ∀ t : Fin grid5.N, _)

/-- What point `t` writes back is block `t` of that array. -/
theorem flushed5_eq (c : Dev nD) (t : Fin cfg5.N) :
    (dat5 V c).flushed 2 t = ((cfg5.win 2).blk t).view.read (Elt Ideal) (msgArr5 (V c (Pipeline.arrRef spec5 0)) (V c (Pipeline.arrRef spec5 1))) := by
  show (cfg5.win 2).cut (grid5.coords t) ((dat5 V c).after 2 t) = _
  rw [after5_2]
  unfold out5_2
  rw [View.canon_unit_zero zero2_5]
  simp only [View.ld_unit_zero (S := S8000x64) zero2_5]
  obtain ⟨e0, e1, e2, e3, e4, e5⟩ := idx_facts5 t
  funext j
  have h0 : ((cfg5.win 0).blk t).view.emb j = ((cfg5.win 2).blk t).view.emb j := by
    funext a; apply Fin.ext
    match a with
    | ⟨0, _⟩ => show win5_0.index t (0 : Fin 2) * 8000 + 1 * (j 0).val = win5_2.index t (0 : Fin 2) * 8000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 8000 + 1 * (j 0).val = win5_2.index t (0 : Fin 2) * 8000 + 1 * (j 0).val; omega
    | ⟨1, _⟩ => show win5_1.index t (1 : Fin 2) * 64 + 1 * (j 1).val = win5_2.index t (1 : Fin 2) * 64 + 1 * (j 1).val; omega
  exact msg_entry5 (iblk5 V c 0 t) (iblk5 V c 1 t) (V c (Pipeline.arrRef spec5 0)) (V c (Pipeline.arrRef spec5 1)) j (((cfg5.win 2).blk t).view.emb j)
    (show V c (Pipeline.arrRef spec5 0) (((cfg5.win 0).blk t).view.emb j) = _ by rw [h0])
    (show V c (Pipeline.arrRef spec5 1) (((cfg5.win 1).blk t).view.emb j) = _ by rw [h1])

/-- An index of the array is in point `t`'s block iff each coordinate is in the block's range on its axis. -/
theorem mem_blk5 (t : Fin cfg5.N) (i : S1280000x64.Idx) :
    i ∈ ((cfg5.win 2).blk t).view.set ↔ ∀ a : Fin 2, win5_2.index t a * S8000x64.size a ≤ (i a).val ∧ (i a).val < win5_2.index t a * S8000x64.size a + S8000x64.size a := by
  show i ∈ ((View.whole main_v58).slice (win5_2.rect t)).set ↔ _
  rw [View.set_slice_whole, Rect.mem_set_unit]
  exact Iff.rfl

/-- Every row of the array is in some point's block: row `r` in block `r / 8000`. -/
theorem cover5 (i : S1280000x64.Idx) : ∃ t : Fin cfg5.N, (cfg5.win 2).flush t = true ∧ i ∈ ((cfg5.win 2).blk t).view.set := by
  have hi0 : (i 0).val < 1280000 := (i 0).isLt
  have hi1 : (i 1).val < 64 := (i 1).isLt
  have hN : cfg5.N = 160 := N_5
  refine ⟨⟨(i 0).val / 8000, by rw [hN]; omega⟩, flush5_2 _, ?_⟩
  rw [mem_blk5]
  obtain ⟨-, -, -, -, e4, e5⟩ := idx_facts5 ⟨(i 0).val / 8000, by rw [hN]; omega⟩
  intro a
  match a with
  | ⟨0, _⟩ => show win5_2.index _ (0 : Fin 2) * 8000 ≤ (i 0).val ∧ (i 0).val < win5_2.index _ (0 : Fin 2) * 8000 + 8000; rw [e4]; show (i 0).val / 8000 * 8000 ≤ (i 0).val ∧ (i 0).val < (i 0).val / 8000 * 8000 + 8000; omega
  | ⟨1, _⟩ => show win5_2.index _ (1 : Fin 2) * 64 ≤ (i 1).val ∧ (i 1).val < win5_2.index _ (1 : Fin 2) * 64 + 64; rw [e5]; omega

/-- THE ARRAY after the region: entry by entry max (h + e, 0) of the arrays it was entered with. -/
theorem arr5 (c : Dev nD) : aout5 V c = msgArr5 (ain5_0 V c) (ain5_1 V c) :=
  (dat5 V c).arrAt_eq_of_cover 2 _ (fun t _ => flushed5_eq V c t) (cover5)

/-- The same, read at an entry. -/
theorem arr5_apply (c : Dev nD) (e : Fin 1280000) (q : Fin 64) :
    aout5 V c (ix2 e q) = max (ain5_0 V c (ix2 e q) + ain5_1 V c (ix2 e q)) 0 := by
  rw [arr5]; rfl

end Cert.KernelIdeal.Reg
-- ==== Proof.KI.Pieces6.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Reg6
import proofs.«178590_j59433757442359_2_alg».proof.Proof.KI.Pieces3
import Idealize.ShloMosaic.Lib.Pipeline.Value
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: what its found stores read as, in the payloads' terms -/
-- hz1, hz2 and readCov_cons_unit_zero come with region 3's module (imported below through the region modules' shared namespace)
theorem out6_A_3_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    out6_A_3 c i arg1 harg1 arg2 harg2 arg3 harg3 arg4 harg4 arg5 harg5 arg6 harg6 arg7 harg7 arg8 harg8 hc x1 x2 x3 = k6_pay3 x1 x2 x3 := by
  unfold out6_A_3
  rw [View.read_writes_eq_canon _ _ _ (cover6_A_3 c i arg1 harg1 arg2 harg2 arg3 harg3 arg4 harg4 arg5 harg5 arg6 harg6 arg7 harg7 arg8 harg8 hc x1 x2 x3)]
  unfold kernelRun6_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout6_A_0_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    sout6_A_0 c i arg1 harg1 arg2 harg2 arg3 harg3 arg4 harg4 arg5 harg5 arg6 harg6 arg7 harg7 arg8 harg8 hc x1 x2 x3 = k6_pay4 x1 x2 x3 k6_pay1 := by
  unfold sout6_A_0
  rw [View.read_writes_eq_canon _ _ _ (scover6_A_0 c i arg1 harg1 arg2 harg2 arg3 harg3 arg4 harg4 arg5 harg5 arg6 harg6 arg7 harg7 arg8 harg8 hc x1 x2 x3)]
  unfold kernelRun6_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout6_A_1_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    sout6_A_1 c i arg1 harg1 arg2 harg2 arg3 harg3 arg4 harg4 arg5 harg5 arg6 harg6 arg7 harg7 arg8 harg8 hc x1 x2 x3 = k6_pay5 x1 x2 x3 k6_pay2 := by
  unfold sout6_A_1
  rw [View.read_writes_eq_canon _ _ _ (scover6_A_1 c i arg1 harg1 arg2 harg2 arg3 harg3 arg4 harg4 arg5 harg5 arg6 harg6 arg7 harg7 arg8 harg8 hc x1 x2 x3)]
  unfold kernelRun6_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out6_A_4_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    out6_A_4 c i arg1 harg1 arg2 harg2 arg3 harg3 arg4 harg4 arg5 harg5 arg6 harg6 arg7 harg7 arg8 harg8 hc x1 x2 x3 = k6_pay4 x1 x2 x3 k6_pay1 := by
  unfold out6_A_4
  rw [View.read_writes_eq_canon _ _ _ (cover6_A_4 c i arg1 harg1 arg2 harg2 arg3 harg3 arg4 harg4 arg5 harg5 arg6 harg6 arg7 harg7 arg8 harg8 hc x1 x2 x3)]
  unfold kernelRun6_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out6_A_5_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond6 i) (x1 : Vec F S8000x64 .f32) (x2 : Vec F S64x128 .f32) (x3 : Vec F S128 .f32) :
    out6_A_5 c i arg1 harg1 arg2 harg2 arg3 harg3 arg4 harg4 arg5 harg5 arg6 harg6 arg7 harg7 arg8 harg8 hc x1 x2 x3 = k6_pay5 x1 x2 x3 k6_pay2 := by
  unfold out6_A_5
  rw [View.read_writes_eq_canon _ _ _ (cover6_A_5 c i arg1 harg1 arg2 harg2 arg3 harg3 arg4 harg4 arg5 harg5 arg6 harg6 arg7 harg7 arg8 harg8 hc x1 x2 x3)]
  unfold kernelRun6_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out6_B_3_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    out6_B_3 c i arg1 harg1 arg2 harg2 arg3 harg3 arg4 harg4 arg5 harg5 arg6 harg6 arg7 harg7 arg8 harg8 hc x1 x2 x3 xs7 xs8 = k6_pay3 x1 x2 x3 := by
  unfold out6_B_3
  rw [View.read_writes_eq_canon _ _ _ (cover6_B_3 c i arg1 harg1 arg2 harg2 arg3 harg3 arg4 harg4 arg5 harg5 arg6 harg6 arg7 harg7 arg8 harg8 hc x1 x2 x3 xs7 xs8)]
  unfold kernelRun6_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout6_B_0_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    sout6_B_0 c i arg1 harg1 arg2 harg2 arg3 harg3 arg4 harg4 arg5 harg5 arg6 harg6 arg7 harg7 arg8 harg8 hc x1 x2 x3 xs7 xs8 = k6_pay4 x1 x2 x3 xs7 := by
  unfold sout6_B_0
  rw [View.read_writes_eq_canon _ _ _ (scover6_B_0 c i arg1 harg1 arg2 harg2 arg3 harg3 arg4 harg4 arg5 harg5 arg6 harg6 arg7 harg7 arg8 harg8 hc x1 x2 x3 xs7 xs8)]
  unfold kernelRun6_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout6_B_1_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    sout6_B_1 c i arg1 harg1 arg2 harg2 arg3 harg3 arg4 harg4 arg5 harg5 arg6 harg6 arg7 harg7 arg8 harg8 hc x1 x2 x3 xs7 xs8 = k6_pay5 x1 x2 x3 xs8 := by
  unfold sout6_B_1
  rw [View.read_writes_eq_canon _ _ _ (scover6_B_1 c i arg1 harg1 arg2 harg2 arg3 harg3 arg4 harg4 arg5 harg5 arg6 harg6 arg7 harg7 arg8 harg8 hc x1 x2 x3 xs7 xs8)]
  unfold kernelRun6_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out6_B_4_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    out6_B_4 c i arg1 harg1 arg2 harg2 arg3 harg3 arg4 harg4 arg5 harg5 arg6 harg6 arg7 harg7 arg8 harg8 hc x1 x2 x3 xs7 xs8 = k6_pay4 x1 x2 x3 xs7 := by
  unfold out6_B_4
  rw [View.read_writes_eq_canon _ _ _ (cover6_B_4 c i arg1 harg1 arg2 harg2 arg3 harg3 arg4 harg4 arg5 harg5 arg6 harg6 arg7 harg7 arg8 harg8 hc x1 x2 x3 xs7 xs8)]
  unfold kernelRun6_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out6_B_5_eq (c : Dev nD) (i : grid6.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond6 i) (x1 : Vec F S8000x64 .f32) (x2 : Vec F S64x128 .f32) (x3 : Vec F S128 .f32) (xs7 : Vec F S1x128 .f32) (xs8 : Vec F S1x128 .f32) :
    out6_B_5 c i arg1 harg1 arg2 harg2 arg3 harg3 arg4 harg4 arg5 harg5 arg6 harg6 arg7 harg7 arg8 harg8 hc x1 x2 x3 xs7 xs8 = k6_pay5 x1 x2 x3 xs8 := by
  unfold out6_B_5
  rw [View.read_writes_eq_canon _ _ _ (cover6_B_5 c i arg1 harg1 arg2 harg2 arg3 harg3 arg4 harg4 arg5 harg5 arg6 harg6 arg7 harg7 arg8 harg8 hc x1 x2 x3 xs7 xs8)]
  unfold kernelRun6_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

end Cert.KernelIdeal.Reg

end
-- ==== Proof.KI.Rows6.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Pieces6
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 6: the two kept rows after each block, as a plain recursion over the payloads -/

section
variable (V : (c : Dev nD) → (b : Ref sig .tc) → Buf (Elt F) ((c : Thread nD τ).loc b))

/-- After block `n`: (the running column sums of Z, the running column sums of Z·Z), started from the zero rows. -/
def rows6 (c : Dev nD) : (n : ℕ) → n < cfg6.N → Vec F S1x128 .f32 × Vec F S1x128 .f32
  | 0, hn => (k6_pay4 (iblk6 V c 0 ⟨0, hn⟩) (iblk6 V c 1 ⟨0, hn⟩) (iblk6 V c 2 ⟨0, hn⟩) k6_pay1, k6_pay5 (iblk6 V c 0 ⟨0, hn⟩) (iblk6 V c 1 ⟨0, hn⟩) (iblk6 V c 2 ⟨0, hn⟩) k6_pay2)
  | n + 1, hn => (k6_pay4 (iblk6 V c 0 ⟨n + 1, hn⟩) (iblk6 V c 1 ⟨n + 1, hn⟩) (iblk6 V c 2 ⟨n + 1, hn⟩) (rows6 c n (Nat.lt_of_succ_lt hn)).1,
      k6_pay5 (iblk6 V c 0 ⟨n + 1, hn⟩) (iblk6 V c 1 ⟨n + 1, hn⟩) (iblk6 V c 2 ⟨n + 1, hn⟩) (rows6 c n (Nat.lt_of_succ_lt hn)).2)

/-- What the region's proof data hold after block `n`: the block of Z, the two rows copied out, the two rows kept. -/
theorem outsAt6_eq (c : Dev nD) : ∀ (n : ℕ) (hn : n < cfg6.N),
    outsAt6 V c n hn = (k6_pay3 (iblk6 V c 0 ⟨n, hn⟩) (iblk6 V c 1 ⟨n, hn⟩) (iblk6 V c 2 ⟨n, hn⟩), (rows6 V c n hn).1, (rows6 V c n hn).2, (rows6 V c n hn).1, (rows6 V c n hn).2)
  | 0, hn => by
    simp only [outsAt6, rows6, out6_A_3_eq, out6_A_4_eq, out6_A_5_eq, sout6_A_0_eq, sout6_A_1_eq]
  | n + 1, hn => by
    simp only [outsAt6, rows6, out6_B_3_eq, out6_B_4_eq, out6_B_5_eq, sout6_B_0_eq, sout6_B_1_eq,
      outsAt6_eq c n (Nat.lt_of_succ_lt hn)]

theorem after6_3_eq (c : Dev nD) (t : Fin cfg6.N) : (dat6 V c).after 3 t = k6_pay3 (iblk6 V c 0 t) (iblk6 V c 1 t) (iblk6 V c 2 t) := by
  rw [after6_3, outsAt6_eq]
theorem after6_4_eq (c : Dev nD) (t : Fin cfg6.N) : (dat6 V c).after 4 t = (rows6 V c t.val t.isLt).1 := by
  rw [after6_4, outsAt6_eq]
theorem after6_5_eq (c : Dev nD) (t : Fin cfg6.N) : (dat6 V c).after 5 t = (rows6 V c t.val t.isLt).2 := by
  rw [after6_5, outsAt6_eq]

end

end Cert.KernelIdeal.Reg

end
-- ==== Proof.KI.Val6.lean ====
import proofs.«178590_j59433757442359_2_alg».proof.Proof.KI.Rows6
import proofs.«178590_j59433757442359_2_alg».proof.Proof.Math.Gin1
import proofs.«178590_j59433757442359_2_alg».proof.Proof.Math.Spec
import proofs.«178590_j59433757442359_2_alg».proof.Proof.Math.SpecLaw
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 6, from blocks to the arrays: after the last grid point the first output array is Z = zin·W1 + b1 at every
    row, and the two one-row outputs are the ten block sums of Z's columns (and of their squares) added up from zero. -/

abbrev ain6_0 (c : Dev nD) : S80000x64.Idx → EReal := V c (Pipeline.arrRef spec6 0)
abbrev ain6_1 (c : Dev nD) : S64x128.Idx → EReal := V c (Pipeline.arrRef spec6 1)
abbrev ain6_2 (c : Dev nD) : S128.Idx → EReal := V c (Pipeline.arrRef spec6 2)
abbrev aoutZ6 (c : Dev nD) : S80000x128.Idx → EReal := (dat6 V c).arrAt 3 cfg6.N
abbrev aoutS6 (c : Dev nD) : S1x128.Idx → EReal := (dat6 V c).arrAt 4 cfg6.N
abbrev aoutQ6 (c : Dev nD) : S1x128.Idx → EReal := (dat6 V c).arrAt 5 cfg6.N

/-- One entry of Z. -/
def zEntry6 (a0 : S80000x64.Idx → EReal) (a1 : S64x128.Idx → EReal) (a2 : S128.Idx → EReal) (r : Fin 80000) (j : Fin 128) : EReal :=
  ∑ k : Fin 64, a0 (ix2 r k) * a1 (ix2 k j) + a2 (ix1 j)
def zArr6 (a0 : S80000x64.Idx → EReal) (a1 : S64x128.Idx → EReal) (a2 : S128.Idx → EReal) : S80000x128.Idx → EReal :=
  fun i => zEntry6 a0 a1 a2 (i 0) (i 1)
theorem zArr6_apply (a0 : S80000x64.Idx → EReal) (a1 : S64x128.Idx → EReal) (a2 : S128.Idx → EReal) (r : Fin 80000) (j : Fin 128) :
    zArr6 a0 a1 a2 (ix2 r j) = zEntry6 a0 a1 a2 r j := rfl
/-- The column sums of Z (of its squares), as the kernel adds them: block by block from zero. -/
def sArr6 (a0 : S80000x64.Idx → EReal) (a1 : S64x128.Idx → EReal) (a2 : S128.Idx → EReal) : S1x128.Idx → EReal :=
  fun i => Cert.Bridge.foldBlocks (Cert.Bridge.blockSum fun r => zEntry6 a0 a1 a2 r (i 1)) 10
def qArr6 (a0 : S80000x64.Idx → EReal) (a1 : S64x128.Idx → EReal) (a2 : S128.Idx → EReal) : S1x128.Idx → EReal :=
  fun i => Cert.Bridge.foldBlocks (Cert.Bridge.blockSum fun r => zEntry6 a0 a1 a2 r (i 1) * zEntry6 a0 a1 a2 r (i 1)) 10

/-- One entry of a block of Z, when the loaded row block holds rows `o · 8000 …` of the first operand. -/
theorem z_entry6 (x : Vec Ideal S8000x64 .f32) (w : Vec Ideal S64x128 .f32) (b : Vec Ideal S128 .f32)
    (a0 : S80000x64.Idx → EReal) (a1 : S64x128.Idx → EReal) (a2 : S128.Idx → EReal) (o : ℕ)
    (hx : ∀ (p : Fin 8000) (k : Fin 64) (r : Fin 80000), r.val = o * 8000 + p.val → x (ix2 p k) = a0 (ix2 r k))
    (hw : w = a1) (hb : b = a2) (p : Fin 8000) (j : Fin 128) (r : Fin 80000) (hr : r.val = o * 8000 + p.val) :
    k3_pay3 (F := Ideal) x w b (ix2 p j) = zEntry6 a0 a1 a2 r j := by
  subst hw hb
  rw [Cert.Bridge.k3_pay3_apply]
  unfold zEntry6
  refine congrArg (fun s => s + b (ix1 j)) (Finset.sum_congr rfl fun k _ => ?_)
  rw [hx p k r hr]

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The row block at point `t` holds rows `t · 8000 …` of the first operand; the other two blocks are the whole arrays. -/
theorem blk6_0 (c : Dev nD) (t : Fin cfg6.N) (p : Fin 8000) (k : Fin 64) (r : Fin 80000) (hr : r.val = t.val * 8000 + p.val) :
    iblk6 V c 0 t (ix2 p k) = ain6_0 V c (ix2 r k) := by
  obtain ⟨e0, e1, -⟩ := idx_facts6 t
  show V c (Pipeline.arrRef spec6 0) (((cfg6.win 0).blk t).view.emb (ix2 p k)) = V c (Pipeline.arrRef spec6 0) (ix2 r k)
  have h : ((cfg6.win 0).blk t).view.emb (ix2 p k) = (ix2 r k : S80000x64.Idx) := by
    funext a; apply Fin.ext
    match a with
    | ⟨0, _⟩ => show win6_0.index t (0 : Fin 2) * 8000 + 1 * p.val = r.val; omega
    | ⟨1, _⟩ => show win6_0.index t (1 : Fin 2) * 64 + 1 * k.val = k.val; omega
  rw [h]
theorem blk6_1 (c : Dev nD) (t : Fin cfg6.N) : iblk6 V c 1 t = ain6_1 V c := by
  obtain ⟨-, -, e2, e3, -⟩ := idx_facts6 t
  funext y
  show V c (Pipeline.arrRef spec6 1) (((cfg6.win 1).blk t).view.emb y) = V c (Pipeline.arrRef spec6 1) y
  have h : ((cfg6.win 1).blk t).view.emb y = y := by
    funext a; apply Fin.ext
    match a with
    | ⟨0, _⟩ => show win6_1.index t (0 : Fin 2) * 64 + 1 * (y 0).val = (y 0).val; omega
    | ⟨1, _⟩ => show win6_1.index t (1 : Fin 2) * 128 + 1 * (y 1).val = (y 1).val; omega
  rw [h]
theorem blk6_2 (c : Dev nD) (t : Fin cfg6.N) : iblk6 V c 2 t = ain6_2 V c := by
  obtain ⟨-, -, -, -, e4, -⟩ := idx_facts6 t
  funext y
  show V c (Pipeline.arrRef spec6 2) (((cfg6.win 2).blk t).view.emb y) = V c (Pipeline.arrRef spec6 2) y
  have h : ((cfg6.win 2).blk t).view.emb y = y := by
    funext a; apply Fin.ext
    match a with
    | ⟨0, _⟩ => show win6_2.index t (0 : Fin 1) * 128 + 1 * (y 0).val = (y 0).val; omega
  rw [h]

/-- An entry of the block of Z at point `t` is Z's entry at row `t · 8000 + p`. -/
theorem zblock6 (c : Dev nD) (t : Fin cfg6.N) (p : Fin 8000) (j : Fin 128) (r : Fin 80000) (hr : r.val = t.val * 8000 + p.val) :
    k3_pay3 (F := Ideal) (iblk6 V c 0 t) (iblk6 V c 1 t) (iblk6 V c 2 t) (ix2 p j)
      = zEntry6 (ain6_0 V c) (ain6_1 V c) (ain6_2 V c) r j :=
  z_entry6 (iblk6 V c 0 t) (iblk6 V c 1 t) (iblk6 V c 2 t) (ain6_0 V c) (ain6_1 V c) (ain6_2 V c) t.val
    (fun p k r hr => blk6_0 V c t p k r hr) (blk6_1 V c t) (blk6_2 V c t) p j r hr

/-! ## The first output: Z -/

theorem flushedZ6_eq (c : Dev nD) (t : Fin cfg6.N) :
    (dat6 V c).flushed 3 t = ((cfg6.win 3).blk t).view.read (Elt Ideal) (zArr6 (ain6_0 V c) (ain6_1 V c) (ain6_2 V c)) := by
  show (cfg6.win 3).cut (grid6.coords t) ((dat6 V c).after 3 t) = _
  rw [after6_3_eq]
  obtain ⟨-, -, -, -, -, e5, e6, -⟩ := idx_facts6 t
  funext j
  obtain ⟨p, q, rfl⟩ : ∃ (p : Fin 8000) (q : Fin 128), j = ix2 p q := ⟨j 0, j 1, eq_ix2 j⟩
  have hlt : t.val * 8000 + p.val < 80000 := by
    have hN : cfg6.N = 10 := N_6
    have := t.isLt; have := p.isLt; omega
  have hemb : ((cfg6.win 3).blk t).view.emb (ix2 p q) = (ix2 (⟨t.val * 8000 + p.val, hlt⟩ : Fin 80000) q : S80000x128.Idx) := by
    funext a; apply Fin.ext
    match a with
    | ⟨0, _⟩ => show win6_3.index t (0 : Fin 2) * 8000 + 1 * p.val = t.val * 8000 + p.val; omega
    | ⟨1, _⟩ => show win6_3.index t (1 : Fin 2) * 128 + 1 * q.val = q.val; omega
  show k3_pay3 (F := Ideal) (iblk6 V c 0 t) (iblk6 V c 1 t) (iblk6 V c 2 t) (ix2 p q)
    = zArr6 (ain6_0 V c) (ain6_1 V c) (ain6_2 V c) (((cfg6.win 3).blk t).view.emb (ix2 p q))
  rw [hemb, zArr6_apply]
  exact zblock6 V c t p q _ rfl

theorem mem_blkZ6 (t : Fin cfg6.N) (i : S80000x128.Idx) :
    i ∈ ((cfg6.win 3).blk t).view.set ↔ ∀ a : Fin 2, win6_3.index t a * S8000x128.size a ≤ (i a).val ∧ (i a).val < win6_3.index t a * S8000x128.size a + S8000x128.size a := by
  show i ∈ ((View.whole main_v72_0).slice (win6_3.rect t)).set ↔ _
  rw [View.set_slice_whole, Rect.mem_set_unit]
  exact Iff.rfl

theorem coverZ6 (i : S80000x128.Idx) : ∃ t : Fin cfg6.N, (cfg6.win 3).flush t = true ∧ i ∈ ((cfg6.win 3).blk t).view.set := by
  have hi0 : (i 0).val < 80000 := (i 0).isLt
  have hi1 : (i 1).val < 128 := (i 1).isLt
  have hN : cfg6.N = 10 := N_6
  refine ⟨⟨(i 0).val / 8000, by rw [hN]; omega⟩, flush6_3 _, ?_⟩
  rw [mem_blkZ6]
  obtain ⟨-, -, -, -, -, e5, e6, -⟩ := idx_facts6 ⟨(i 0).val / 8000, by rw [hN]; omega⟩
  intro a
  match a with
  | ⟨0, _⟩ => show win6_3.index _ (0 : Fin 2) * 8000 ≤ (i 0).val ∧ (i 0).val < win6_3.index _ (0 : Fin 2) * 8000 + 8000; rw [e5]; show (i 0).val / 8000 * 8000 ≤ (i 0).val ∧ (i 0).val < (i 0).val / 8000 * 8000 + 8000; omega
  | ⟨1, _⟩ => show win6_3.index _ (1 : Fin 2) * 128 ≤ (i 1).val ∧ (i 1).val < win6_3.index _ (1 : Fin 2) * 128 + 128; rw [e6]; omega

/-- THE FIRST OUTPUT ARRAY after the region. -/
theorem arrZ6 (c : Dev nD) : aoutZ6 V c = zArr6 (ain6_0 V c) (ain6_1 V c) (ain6_2 V c) :=
  (dat6 V c).arrAt_eq_of_cover 3 _ (fun t _ => flushedZ6_eq V c t) (coverZ6)

/-! ## The two one-row outputs: the block sums added up -/

/-- The sum over block `t`'s rows of column `j` of the block of Z is Z's block sum. -/
theorem bsum6 (c : Dev nD) (t : Fin cfg6.N) (j : Fin 128) :
    ∑ p : Fin 8000, k3_pay3 (F := Ideal) (iblk6 V c 0 t) (iblk6 V c 1 t) (iblk6 V c 2 t) (ix2 p j)
      = Cert.Bridge.blockSum (fun r => zEntry6 (ain6_0 V c) (ain6_1 V c) (ain6_2 V c) r j) t.val := by
  have ht : t.val < 10 := lt_of_lt_of_eq t.isLt N_6
  unfold Cert.Bridge.blockSum
  rw [dif_pos ht]
  exact Finset.sum_congr rfl fun p _ => zblock6 V c t p j (Cert.Lib.BlockSum.at_ (K := 10) (n := 8000) ⟨t.val, ht⟩ p) rfl
theorem bsq6 (c : Dev nD) (t : Fin cfg6.N) (j : Fin 128) :
    ∑ p : Fin 8000, k3_pay3 (F := Ideal) (iblk6 V c 0 t) (iblk6 V c 1 t) (iblk6 V c 2 t) (ix2 p j)
        * k3_pay3 (F := Ideal) (iblk6 V c 0 t) (iblk6 V c 1 t) (iblk6 V c 2 t) (ix2 p j)
      = Cert.Bridge.blockSum (fun r => zEntry6 (ain6_0 V c) (ain6_1 V c) (ain6_2 V c) r j * zEntry6 (ain6_0 V c) (ain6_1 V c) (ain6_2 V c) r j) t.val := by
  have ht : t.val < 10 := lt_of_lt_of_eq t.isLt N_6
  unfold Cert.Bridge.blockSum
  rw [dif_pos ht]
  exact Finset.sum_congr rfl fun p _ => by rw [zblock6 V c t p j (Cert.Lib.BlockSum.at_ (K := 10) (n := 8000) ⟨t.val, ht⟩ p) rfl]

/-- The kept rows after block `n`: the first `n + 1` block sums added up from zero. -/
theorem rowsS6_apply (c : Dev nD) (j : Fin 128) : ∀ (n : ℕ) (hn : n < cfg6.N),
    (rows6 V c n hn).1 (ix2 (0 : Fin 1) j)
      = Cert.Bridge.foldBlocks (Cert.Bridge.blockSum fun r => zEntry6 (ain6_0 V c) (ain6_1 V c) (ain6_2 V c) r j) (n + 1)
  | 0, hn => by
    show k3_pay4 (F := Ideal) _ _ _ (k3_pay1 (F := Ideal)) (ix2 (0 : Fin 1) j) = _
    rw [Cert.Bridge.k3_pay4_apply, Cert.Bridge.k3_pay1_eq, bsum6 V c ⟨0, hn⟩ j]
    rfl
  | n + 1, hn => by
    show k3_pay4 (F := Ideal) _ _ _ (rows6 V c n (Nat.lt_of_succ_lt hn)).1 (ix2 (0 : Fin 1) j) = _
    rw [Cert.Bridge.k3_pay4_apply, rowsS6_apply c j n (Nat.lt_of_succ_lt hn), bsum6 V c ⟨n + 1, hn⟩ j]
    rfl
theorem rowsQ6_apply (c : Dev nD) (j : Fin 128) : ∀ (n : ℕ) (hn : n < cfg6.N),
    (rows6 V c n hn).2 (ix2 (0 : Fin 1) j)
      = Cert.Bridge.foldBlocks (Cert.Bridge.blockSum fun r => zEntry6 (ain6_0 V c) (ain6_1 V c) (ain6_2 V c) r j * zEntry6 (ain6_0 V c) (ain6_1 V c) (ain6_2 V c) r j) (n + 1)
  | 0, hn => by
    show k3_pay5 (F := Ideal) _ _ _ (k3_pay2 (F := Ideal)) (ix2 (0 : Fin 1) j) = _
    rw [Cert.Bridge.k3_pay5_apply, Cert.Bridge.k3_pay2_eq, bsq6 V c ⟨0, hn⟩ j]
    rfl
  | n + 1, hn => by
    show k3_pay5 (F := Ideal) _ _ _ (rows6 V c n (Nat.lt_of_succ_lt hn)).2 (ix2 (0 : Fin 1) j) = _
    rw [Cert.Bridge.k3_pay5_apply, rowsQ6_apply c j n (Nat.lt_of_succ_lt hn), bsq6 V c ⟨n + 1, hn⟩ j]
    rfl

/-! ## The arrays of the two one-row outputs: written back once, after the last block -/

theorem flushedS6_eq (c : Dev nD) (t : Fin cfg6.N) (hf : (cfg6.win 4).flush t = true) :
    (dat6 V c).flushed 4 t = ((cfg6.win 4).blk t).view.read (Elt Ideal) (sArr6 (ain6_0 V c) (ain6_1 V c) (ain6_2 V c)) := by
  show (cfg6.win 4).cut (grid6.coords t) ((dat6 V c).after 4 t) = _
  rw [after6_4_eq]
  obtain ⟨-, -, -, -, -, -, -, e7, e8, e9, e10⟩ := idx_facts6 t
  have h9 : t.val = 9 := by
    have h := (flush6_4 t).mp hf; have := t.isLt; have hN : cfg6.N = 10 := N_6; omega
  funext y
  obtain ⟨u, q, rfl⟩ : ∃ (u : Fin 1) (q : Fin 128), y = ix2 u q := ⟨y 0, y 1, eq_ix2 y⟩
  obtain rfl : u = 0 := Subsingleton.elim _ _
  have hemb : ((cfg6.win 4).blk t).view.emb (ix2 (0 : Fin 1) q) = (ix2 (0 : Fin 1) q : S1x128.Idx) := by
    funext a; apply Fin.ext
    match a with
    | ⟨0, _⟩ => show win6_4.index t (0 : Fin 2) * 1 + 1 * 0 = 0; omega
    | ⟨1, _⟩ => show win6_4.index t (1 : Fin 2) * 128 + 1 * q.val = q.val; omega
  show (rows6 V c t.val t.isLt).1 (ix2 (0 : Fin 1) q)
    = sArr6 (ain6_0 V c) (ain6_1 V c) (ain6_2 V c) (((cfg6.win 4).blk t).view.emb (ix2 (0 : Fin 1) q))
  rw [hemb, rowsS6_apply V c q t.val t.isLt]
  show Cert.Bridge.foldBlocks _ (t.val + 1) = Cert.Bridge.foldBlocks _ 10
  rw [h9]

theorem mem_blkS6 (t : Fin cfg6.N) (i : S1x128.Idx) :
    i ∈ ((cfg6.win 4).blk t).view.set ↔ ∀ a : Fin 2, win6_4.index t a * S1x128.size a ≤ (i a).val ∧ (i a).val < win6_4.index t a * S1x128.size a + S1x128.size a := by
  show i ∈ ((View.whole main_v72_1).slice (win6_4.rect t)).set ↔ _
  rw [View.set_slice_whole, Rect.mem_set_unit]
  exact Iff.rfl

theorem coverS6 (i : S1x128.Idx) : ∃ t : Fin cfg6.N, (cfg6.win 4).flush t = true ∧ i ∈ ((cfg6.win 4).blk t).view.set := by
  have hi0 : (i 0).val < 1 := (i 0).isLt
  have hi1 : (i 1).val < 128 := (i 1).isLt
  have hN : cfg6.N = 10 := N_6
  refine ⟨⟨9, by rw [hN]; omega⟩, (flush6_4 _).mpr rfl, ?_⟩
  rw [mem_blkS6]
  obtain ⟨-, -, -, -, -, -, -, e7, e8, e9, e10⟩ := idx_facts6 ⟨9, by rw [hN]; omega⟩
  intro a
  match a with
  | ⟨0, _⟩ => show win6_4.index _ (0 : Fin 2) * 1 ≤ (i 0).val ∧ (i 0).val < win6_4.index _ (0 : Fin 2) * 1 + 1; omega
  | ⟨1, _⟩ => show win6_4.index _ (1 : Fin 2) * 128 ≤ (i 1).val ∧ (i 1).val < win6_4.index _ (1 : Fin 2) * 128 + 128; omega

theorem arrS6 (c : Dev nD) : aoutS6 V c = sArr6 (ain6_0 V c) (ain6_1 V c) (ain6_2 V c) :=
  (dat6 V c).arrAt_eq_of_cover 4 _ (fun t hf => flushedS6_eq V c t hf) (coverS6)

theorem flushedQ6_eq (c : Dev nD) (t : Fin cfg6.N) (hf : (cfg6.win 5).flush t = true) :
    (dat6 V c).flushed 5 t = ((cfg6.win 5).blk t).view.read (Elt Ideal) (qArr6 (ain6_0 V c) (ain6_1 V c) (ain6_2 V c)) := by
  show (cfg6.win 5).cut (grid6.coords t) ((dat6 V c).after 5 t) = _
  rw [after6_5_eq]
  obtain ⟨-, -, -, -, -, -, -, e7, e8, e9, e10⟩ := idx_facts6 t
  have h9 : t.val = 9 := by
    have h := (flush6_5 t).mp hf; have := t.isLt; have hN : cfg6.N = 10 := N_6; omega
  funext y
  obtain ⟨u, q, rfl⟩ : ∃ (u : Fin 1) (q : Fin 128), y = ix2 u q := ⟨y 0, y 1, eq_ix2 y⟩
  obtain rfl : u = 0 := Subsingleton.elim _ _
  have hemb : ((cfg6.win 5).blk t).view.emb (ix2 (0 : Fin 1) q) = (ix2 (0 : Fin 1) q : S1x128.Idx) := by
    funext a; apply Fin.ext
    match a with
    | ⟨0, _⟩ => show win6_5.index t (0 : Fin 2) * 1 + 1 * 0 = 0; omega
    | ⟨1, _⟩ => show win6_5.index t (1 : Fin 2) * 128 + 1 * q.val = q.val; omega
  show (rows6 V c t.val t.isLt).2 (ix2 (0 : Fin 1) q)
    = qArr6 (ain6_0 V c) (ain6_1 V c) (ain6_2 V c) (((cfg6.win 5).blk t).view.emb (ix2 (0 : Fin 1) q))
  rw [hemb, rowsQ6_apply V c q t.val t.isLt]
  show Cert.Bridge.foldBlocks _ (t.val + 1) = Cert.Bridge.foldBlocks _ 10
  rw [h9]

theorem mem_blkQ6 (t : Fin cfg6.N) (i : S1x128.Idx) :
    i ∈ ((cfg6.win 5).blk t).view.set ↔ ∀ a : Fin 2, win6_5.index t a * S1x128.size a ≤ (i a).val ∧ (i a).val < win6_5.index t a * S1x128.size a + S1x128.size a := by
  show i ∈ ((View.whole main_v72_2).slice (win6_5.rect t)).set ↔ _
  rw [View.set_slice_whole, Rect.mem_set_unit]
  exact Iff.rfl

theorem coverQ6 (i : S1x128.Idx) : ∃ t : Fin cfg6.N, (cfg6.win 5).flush t = true ∧ i ∈ ((cfg6.win 5).blk t).view.set := by
  have hi0 : (i 0).val < 1 := (i 0).isLt
  have hi1 : (i 1).val < 128 := (i 1).isLt
  have hN : cfg6.N = 10 := N_6
  refine ⟨⟨9, by rw [hN]; omega⟩, (flush6_5 _).mpr rfl, ?_⟩
  rw [mem_blkQ6]
  obtain ⟨-, -, -, -, -, -, -, e7, e8, e9, e10⟩ := idx_facts6 ⟨9, by rw [hN]; omega⟩
  intro a
  match a with
  | ⟨0, _⟩ => show win6_5.index _ (0 : Fin 2) * 1 ≤ (i 0).val ∧ (i 0).val < win6_5.index _ (0 : Fin 2) * 1 + 1; omega
  | ⟨1, _⟩ => show win6_5.index _ (1 : Fin 2) * 128 ≤ (i 1).val ∧ (i 1).val < win6_5.index _ (1 : Fin 2) * 128 + 128; omega

theorem arrQ6 (c : Dev nD) : aoutQ6 V c = qArr6 (ain6_0 V c) (ain6_1 V c) (ain6_2 V c) :=
  (dat6 V c).arrAt_eq_of_cover 5 _ (fun t hf => flushedQ6_eq V c t hf) (coverQ6)

/-- Read at a column: the column sum of Z, and of its squares. -/
theorem arrS6_apply (c : Dev nD) (q : Fin 128) :
    aoutS6 V c (ix2 (0 : Fin 1) q) = Cert.Bridge.colSum (fun r j => zEntry6 (ain6_0 V c) (ain6_1 V c) (ain6_2 V c) r j) q := by
  rw [arrS6]; exact Cert.Bridge.foldBlocks_colSum (fun r j => zEntry6 (ain6_0 V c) (ain6_1 V c) (ain6_2 V c) r j) q
theorem arrQ6_apply (c : Dev nD) (q : Fin 128) :
    aoutQ6 V c (ix2 (0 : Fin 1) q) = Cert.Bridge.colSq (fun r j => zEntry6 (ain6_0 V c) (ain6_1 V c) (ain6_2 V c) r j) q := by
  rw [arrQ6]; exact Cert.Bridge.foldBlocks_colSq (fun r j => zEntry6 (ain6_0 V c) (ain6_1 V c) (ain6_2 V c) r j) q
theorem arrZ6_apply (c : Dev nD) (r : Fin 80000) (j : Fin 128) :
    aoutZ6 V c (ix2 r j) = zEntry6 (ain6_0 V c) (ain6_1 V c) (ain6_2 V c) r j := by
  rw [arrZ6]; rfl

end Cert.KernelIdeal.Reg

end
-- ==== Proof.KI.ChainL1a.lean ====
/-
  Layer 1 of the kernel program along the fold (KI/RunFold.lean), item by item from boundary 8 to boundary 13: what
  each item hands on, as the named function of what it was handed — a host stretch by KI/HostL1.lean, a region by the
  array its write-backs fold to (its proof data being the region's own, a hypothesis here and `rfl` at the run's
  data) — with the arguments, the index columns and the edge features read back through KI/ChainArgs.lean.
-/
import proofs.«178590_j59433757442359_2_alg».proof.Proof.KI.ChainDefs
import proofs.«178590_j59433757442359_2_alg».proof.Proof.KI.ChainArgs
import proofs.«178590_j59433757442359_2_alg».proof.Proof.KI.HostL1
import proofs.«178590_j59433757442359_2_alg».proof.Proof.KI.Val5
import proofs.«178590_j59433757442359_2_alg».proof.Proof.KI.Val6

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Stretch 5: the rows of the node features at the edges' sources. -/
theorem L1_gather : W9 D m c (Proc.devRef .tc main_v57) = gatherRows (F := Ideal) (W8 D m c (Proc.devRef .tc main_v50)) (srcCol (m ((c : Thread nD τ).loc main_arg1))) := by
  have h := hostOps5_main_v57 (W8 D m c)
  rw [W8_v3 D m c] at h
  exact h

/-- Region 5: max (gathered row + edge features, 0). -/
theorem L1_msg (h5 : D.r5.dat = dat5) : W10 D m c (Proc.devRef .tc main_v58) = msgArr5 (W9 D m c (Proc.devRef .tc main_v57)) (W9 D m c (Proc.devRef .tc main_v1)) :=
  (W10_arr D m c 2 : W10 D m c (Proc.devRef .tc main_v58) = _).trans (by rw [h5]; exact arr5 (V9 D m) c)

/-- Stretch 6: the scatter-add onto zeros, (1 + eps) · h + agg, and the first linear map's parameters. -/
theorem L1_x : W11 D m c (Proc.devRef .tc main_v67) = selfPlusAgg (F := Ideal) (W10 D m c (Proc.devRef .tc main_v50)) (scatterSum (F := Ideal) (W10 D m c (Proc.devRef .tc main_v5)) (W10 D m c (Proc.devRef .tc main_v58))) (eps_1 (W10 D m c (Proc.devRef .tc main_arg13))) :=
  hostOps6_main_v67 (W10 D m c)
theorem L1_w1 : W11 D m c (Proc.devRef .tc main_v69) = W1_1 (F := Ideal) (m ((c : Thread nD τ).loc main_arg7)) := by
  have h := hostOps6_main_v69 (W10 D m c)
  rw [W10_arg7 D m c] at h
  exact h
theorem L1_b1 : W11 D m c (Proc.devRef .tc main_v71) = b1_1 (F := Ideal) (m ((c : Thread nD τ).loc main_arg8)) := by
  have h := hostOps6_main_v71 (W10 D m c)
  rw [W10_arg8 D m c] at h
  exact h

theorem L1_h1 : W10 D m c (Proc.devRef .tc main_v50) = W8 D m c (Proc.devRef .tc main_v50) :=
  (W10_of_ne D m c main_v50 (by decide)).trans (W9_of D m c main_v50 (by decide))

theorem L1_Z (h6 : D.r6.dat = dat6) : W12 D m c (Proc.devRef .tc main_v72_0) = zArr6 (W11 D m c (Proc.devRef .tc main_v67)) (W11 D m c (Proc.devRef .tc main_v69)) (W11 D m c (Proc.devRef .tc main_v71)) :=
  (W12_arr D m c 3 : W12 D m c (Proc.devRef .tc main_v72_0) = _).trans (by rw [h6]; exact arrZ6 (V11 D m) c)
theorem L1_S (h6 : D.r6.dat = dat6) : W12 D m c (Proc.devRef .tc main_v72_1) = sArr6 (W11 D m c (Proc.devRef .tc main_v67)) (W11 D m c (Proc.devRef .tc main_v69)) (W11 D m c (Proc.devRef .tc main_v71)) :=
  (W12_arr D m c 4 : W12 D m c (Proc.devRef .tc main_v72_1) = _).trans (by rw [h6]; exact arrS6 (V11 D m) c)
theorem L1_Q (h6 : D.r6.dat = dat6) : W12 D m c (Proc.devRef .tc main_v72_2) = qArr6 (W11 D m c (Proc.devRef .tc main_v67)) (W11 D m c (Proc.devRef .tc main_v69)) (W11 D m c (Proc.devRef .tc main_v71)) :=
  (W12_arr D m c 5 : W12 D m c (Proc.devRef .tc main_v72_2) = _).trans (by rw [h6]; exact arrQ6 (V11 D m) c)

/-- Stretch 7: the mean and one-pass variance from the accumulated sums, and the remaining parameter slices. -/
theorem L1_mean : W13 D m c (Proc.devRef .tc main_v74) = meanOfSum (F := Ideal) (W12 D m c (Proc.devRef .tc main_v72_1)) := hostOps7_main_v74 (W12 D m c)
theorem L1_var : W13 D m c (Proc.devRef .tc main_v78) = varOnePass (F := Ideal) (W12 D m c (Proc.devRef .tc main_v72_1)) (W12 D m c (Proc.devRef .tc main_v72_2)) := hostOps7_main_v78 (W12 D m c)
theorem L1_gm : W13 D m c (Proc.devRef .tc main_v81) = asRow128 (F := Ideal) (g1_1 (F := Ideal) (m ((c : Thread nD τ).loc main_arg9))) := by
  have h := hostOps7_main_v81 (W12 D m c)
  rw [W12_arg9 D m c] at h
  exact h
theorem L1_bt : W13 D m c (Proc.devRef .tc main_v84) = asRow128 (F := Ideal) (bt1_1 (F := Ideal) (m ((c : Thread nD τ).loc main_arg10))) := by
  have h := hostOps7_main_v84 (W12 D m c)
  rw [W12_arg10 D m c] at h
  exact h
theorem L1_w2 : W13 D m c (Proc.devRef .tc main_v86) = W2_1 (F := Ideal) (m ((c : Thread nD τ).loc main_arg11)) := by
  have h := hostOps7_main_v86 (W12 D m c)
  rw [W12_arg11 D m c] at h
  exact h
theorem L1_b2 : W13 D m c (Proc.devRef .tc main_v88) = b2_1 (F := Ideal) (m ((c : Thread nD τ).loc main_arg12)) := by
  have h := hostOps7_main_v88 (W12 D m c)
  rw [W12_arg12 D m c] at h
  exact h
theorem L1_lg : W13 D m c (Proc.devRef .tc main_v91) = asRow64 (F := Ideal) (lng_1 (F := Ideal) (m ((c : Thread nD τ).loc main_arg14))) := by
  have h := hostOps7_main_v91 (W12 D m c)
  rw [W12_arg14 D m c] at h
  exact h
theorem L1_lb : W13 D m c (Proc.devRef .tc main_v94) = asRow64 (F := Ideal) (lnb_1 (F := Ideal) (m ((c : Thread nD τ).loc main_arg15))) := by
  have h := hostOps7_main_v94 (W12 D m c)
  rw [W12_arg15 D m c] at h
  exact h
theorem L1_Zkeep : W13 D m c (Proc.devRef .tc main_v72_0) = W12 D m c (Proc.devRef .tc main_v72_0) := (W13_of D m c main_v72_0 (by decide))

end Cert.KernelIdeal.Chain

end
-- ==== Proof.KI.Val7.lean ====
import proofs.«178590_j59433757442359_2_alg».proof.Proof.KI.Reg7
import proofs.«178590_j59433757442359_2_alg».proof.Proof.Math.Gin2
import proofs.«178590_j59433757442359_2_alg».proof.Proof.KI.ValGin
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 7, from blocks to the array: after the last grid point the output array is the second half of a GIN
    layer (`ginArrRelu`) of the nine arrays the region was entered with. -/

theorem zero2_7 : (![0, 0] : Fin 2 → Nat) = fun _ => 0 := funext fun a => by fin_cases a <;> rfl
theorem zero1_7 : (![0] : Fin 1 → Nat) = fun _ => 0 := funext fun a => by fin_cases a; rfl

/-- The operand arrays as the region finds them, and the output array after its last point, as functions on
    their index types. -/
abbrev ain7_0 (c : Dev nD) : S80000x128.Idx → EReal := V c (Pipeline.arrRef spec7 0)
abbrev ain7_1 (c : Dev nD) : S1x128.Idx → EReal := V c (Pipeline.arrRef spec7 1)
abbrev ain7_2 (c : Dev nD) : S1x128.Idx → EReal := V c (Pipeline.arrRef spec7 2)
abbrev ain7_3 (c : Dev nD) : S1x128.Idx → EReal := V c (Pipeline.arrRef spec7 3)
abbrev ain7_4 (c : Dev nD) : S1x128.Idx → EReal := V c (Pipeline.arrRef spec7 4)
abbrev ain7_5 (c : Dev nD) : S128x64.Idx → EReal := V c (Pipeline.arrRef spec7 5)
abbrev ain7_6 (c : Dev nD) : S64.Idx → EReal := V c (Pipeline.arrRef spec7 6)
abbrev ain7_7 (c : Dev nD) : S1x64.Idx → EReal := V c (Pipeline.arrRef spec7 7)
abbrev ain7_8 (c : Dev nD) : S1x64.Idx → EReal := V c (Pipeline.arrRef spec7 8)
abbrev aout7 (c : Dev nD) : S80000x64.Idx → EReal := (dat7 V c).arrAt 9 cfg7.N

/-- The index maps over the grid: the hidden rows' block and the output block move together, block `t` at point
    `t`; the eight resident windows' block index is constant. -/
theorem idx7_0 : ∀ t : Fin cfg7.N, win7_0.index t (0 : Fin 2) = win7_9.index t (0 : Fin 2) ∧ win7_0.index t (1 : Fin 2) = 0
    ∧ win7_9.index t (0 : Fin 2) = t.val ∧ win7_9.index t (1 : Fin 2) = 0 :=
  (by decide +kernel : ∀ t : Fin grid7.N, _)
theorem idx7_1 : ∀ (t : Fin cfg7.N) (a : Fin 2), win7_1.index t a = 0 :=
  (by decide +kernel : ∀ (t : Fin grid7.N) (a : Fin 2), win7_1.index t a = 0)
theorem idx7_2 : ∀ (t : Fin cfg7.N) (a : Fin 2), win7_2.index t a = 0 :=
  (by decide +kernel : ∀ (t : Fin grid7.N) (a : Fin 2), win7_2.index t a = 0)
theorem idx7_3 : ∀ (t : Fin cfg7.N) (a : Fin 2), win7_3.index t a = 0 :=
  (by decide +kernel : ∀ (t : Fin grid7.N) (a : Fin 2), win7_3.index t a = 0)
theorem idx7_4 : ∀ (t : Fin cfg7.N) (a : Fin 2), win7_4.index t a = 0 :=
  (by decide +kernel : ∀ (t : Fin grid7.N) (a : Fin 2), win7_4.index t a = 0)
theorem idx7_5 : ∀ (t : Fin cfg7.N) (a : Fin 2), win7_5.index t a = 0 :=
  (by decide +kernel : ∀ (t : Fin grid7.N) (a : Fin 2), win7_5.index t a = 0)
theorem idx7_6 : ∀ (t : Fin cfg7.N) (a : Fin 1), win7_6.index t a = 0 :=
  (by decide +kernel : ∀ (t : Fin grid7.N) (a : Fin 1), win7_6.index t a = 0)
theorem idx7_7 : ∀ (t : Fin cfg7.N) (a : Fin 2), win7_7.index t a = 0 :=
  (by decide +kernel : ∀ (t : Fin grid7.N) (a : Fin 2), win7_7.index t a = 0)
theorem idx7_8 : ∀ (t : Fin cfg7.N) (a : Fin 2), win7_8.index t a = 0 :=
  (by decide +kernel : ∀ (t : Fin grid7.N) (a : Fin 2), win7_8.index t a = 0)

/-- Resident window 1's block is its whole array at every point. -/
theorem blk7_1 (c : Dev nD) (t : Fin cfg7.N) : (iblk7 V c 1 t : Vec Ideal S1x128 .f32) = V c (Pipeline.arrRef spec7 1) := by
  funext y
  show V c (Pipeline.arrRef spec7 1) (((cfg7.win 1).blk t).view.emb y) = V c (Pipeline.arrRef spec7 1) y
  have h : ((cfg7.win 1).blk t).view.emb y = y := by
    funext a; apply Fin.ext
    match a with
    | ⟨0, _⟩ => show win7_1.index t (0 : Fin 2) * 1 + 1 * (y 0).val = (y 0).val; rw [idx7_1 t 0]; omega
    | ⟨1, _⟩ => show win7_1.index t (1 : Fin 2) * 128 + 1 * (y 1).val = (y 1).val; rw [idx7_1 t 1]; omega
  rw [h]

/-- Resident window 2's block is its whole array at every point. -/
theorem blk7_2 (c : Dev nD) (t : Fin cfg7.N) : (iblk7 V c 2 t : Vec Ideal S1x128 .f32) = V c (Pipeline.arrRef spec7 2) := by
  funext y
  show V c (Pipeline.arrRef spec7 2) (((cfg7.win 2).blk t).view.emb y) = V c (Pipeline.arrRef spec7 2) y
  have h : ((cfg7.win 2).blk t).view.emb y = y := by
    funext a; apply Fin.ext
    match a with
    | ⟨0, _⟩ => show win7_2.index t (0 : Fin 2) * 1 + 1 * (y 0).val = (y 0).val; rw [idx7_2 t 0]; omega
    | ⟨1, _⟩ => show win7_2.index t (1 : Fin 2) * 128 + 1 * (y 1).val = (y 1).val; rw [idx7_2 t 1]; omega
  rw [h]

/-- Resident window 3's block is its whole array at every point. -/
theorem blk7_3 (c : Dev nD) (t : Fin cfg7.N) : (iblk7 V c 3 t : Vec Ideal S1x128 .f32) = V c (Pipeline.arrRef spec7 3) := by
  funext y
  show V c (Pipeline.arrRef spec7 3) (((cfg7.win 3).blk t).view.emb y) = V c (Pipeline.arrRef spec7 3) y
  have h : ((cfg7.win 3).blk t).view.emb y = y := by
    funext a; apply Fin.ext
    match a with
    | ⟨0, _⟩ => show win7_3.index t (0 : Fin 2) * 1 + 1 * (y 0).val = (y 0).val; rw [idx7_3 t 0]; omega
    | ⟨1, _⟩ => show win7_3.index t (1 : Fin 2) * 128 + 1 * (y 1).val = (y 1).val; rw [idx7_3 t 1]; omega
  rw [h]

/-- Resident window 4's block is its whole array at every point. -/
theorem blk7_4 (c : Dev nD) (t : Fin cfg7.N) : (iblk7 V c 4 t : Vec Ideal S1x128 .f32) = V c (Pipeline.arrRef spec7 4) := by
  funext y
  show V c (Pipeline.arrRef spec7 4) (((cfg7.win 4).blk t).view.emb y) = V c (Pipeline.arrRef spec7 4) y
  have h : ((cfg7.win 4).blk t).view.emb y = y := by
    funext a; apply Fin.ext
    match a with
    | ⟨0, _⟩ => show win7_4.index t (0 : Fin 2) * 1 + 1 * (y 0).val = (y 0).val; rw [idx7_4 t 0]; omega
    | ⟨1, _⟩ => show win7_4.index t (1 : Fin 2) * 128 + 1 * (y 1).val = (y 1).val; rw [idx7_4 t 1]; omega
  rw [h]

/-- Resident window 5's block is its whole array at every point. -/
theorem blk7_5 (c : Dev nD) (t : Fin cfg7.N) : (iblk7 V c 5 t : Vec Ideal S128x64 .f32) = V c (Pipeline.arrRef spec7 5) := by
  funext y
  show V c (Pipeline.arrRef spec7 5) (((cfg7.win 5).blk t).view.emb y) = V c (Pipeline.arrRef spec7 5) y
  have h : ((cfg7.win 5).blk t).view.emb y = y := by
    funext a; apply Fin.ext
    match a with
    | ⟨0, _⟩ => show win7_5.index t (0 : Fin 2) * 128 + 1 * (y 0).val = (y 0).val; rw [idx7_5 t 0]; omega
    | ⟨1, _⟩ => show win7_5.index t (1 : Fin 2) * 64 + 1 * (y 1).val = (y 1).val; rw [idx7_5 t 1]; omega
  rw [h]

/-- Resident window 6's block is its whole array at every point. -/
theorem blk7_6 (c : Dev nD) (t : Fin cfg7.N) : (iblk7 V c 6 t : Vec Ideal S64 .f32) = V c (Pipeline.arrRef spec7 6) := by
  funext y
  show V c (Pipeline.arrRef spec7 6) (((cfg7.win 6).blk t).view.emb y) = V c (Pipeline.arrRef spec7 6) y
  have h : ((cfg7.win 6).blk t).view.emb y = y := by
    funext a; apply Fin.ext
    match a with
    | ⟨0, _⟩ => show win7_6.index t (0 : Fin 1) * 64 + 1 * (y 0).val = (y 0).val; rw [idx7_6 t 0]; omega
  rw [h]

/-- Resident window 7's block is its whole array at every point. -/
theorem blk7_7 (c : Dev nD) (t : Fin cfg7.N) : (iblk7 V c 7 t : Vec Ideal S1x64 .f32) = V c (Pipeline.arrRef spec7 7) := by
  funext y
  show V c (Pipeline.arrRef spec7 7) (((cfg7.win 7).blk t).view.emb y) = V c (Pipeline.arrRef spec7 7) y
  have h : ((cfg7.win 7).blk t).view.emb y = y := by
    funext a; apply Fin.ext
    match a with
    | ⟨0, _⟩ => show win7_7.index t (0 : Fin 2) * 1 + 1 * (y 0).val = (y 0).val; rw [idx7_7 t 0]; omega
    | ⟨1, _⟩ => show win7_7.index t (1 : Fin 2) * 64 + 1 * (y 1).val = (y 1).val; rw [idx7_7 t 1]; omega
  rw [h]

/-- Resident window 8's block is its whole array at every point. -/
theorem blk7_8 (c : Dev nD) (t : Fin cfg7.N) : (iblk7 V c 8 t : Vec Ideal S1x64 .f32) = V c (Pipeline.arrRef spec7 8) := by
  funext y
  show V c (Pipeline.arrRef spec7 8) (((cfg7.win 8).blk t).view.emb y) = V c (Pipeline.arrRef spec7 8) y
  have h : ((cfg7.win 8).blk t).view.emb y = y := by
    funext a; apply Fin.ext
    match a with
    | ⟨0, _⟩ => show win7_8.index t (0 : Fin 2) * 1 + 1 * (y 0).val = (y 0).val; rw [idx7_8 t 0]; omega
    | ⟨1, _⟩ => show win7_8.index t (1 : Fin 2) * 64 + 1 * (y 1).val = (y 1).val; rw [idx7_8 t 1]; omega
  rw [h]

/-- `gin_entry_relu` with the resident blocks as variables of their own, equal to the operand arrays. -/
theorem gin_entry_relu_of_eq7 (z : Vec Ideal S8000x128 .f32) (x1 x2 x3 x4 : Vec Ideal S1x128 .f32) (x5 : Vec Ideal S128x64 .f32)
    (x6 : Vec Ideal S64 .f32) (x7 x8 : Vec Ideal S1x64 .f32) (a0 : S80000x128.Idx → EReal) (a1 a2 a3 a4 : S1x128.Idx → EReal) (a5 : S128x64.Idx → EReal) (a6 : S64.Idx → EReal) (a7 a8 : S1x64.Idx → EReal) (o : ℕ)
    (hz : ∀ (p : Fin 8000) (k : Fin 128) (r : Fin 80000), r.val = o * 8000 + p.val → z (ix2 p k) = a0 (ix2 r k))
    (h1 : x1 = a1) (h2 : x2 = a2) (h3 : x3 = a3) (h4 : x4 = a4) (h5 : x5 = a5) (h6 : x6 = a6) (h7 : x7 = a7) (h8 : x8 = a8)
    (j : S8000x64.Idx) (i : S80000x64.Idx) (hi0 : (i 0).val = o * 8000 + (j 0).val) (hi1 : (i 1).val = (j 1).val) :
    k4_pay1 (F := Ideal) (k4_pay2 z x2 x1 x3 x4 x5 x6) (k4_pay3 z x2 x1 x3 x4 x5 x6) x7 x8 j = ginArrRelu a0 a1 a2 a3 a4 a5 a6 a7 a8 i := by
  subst h1 h2 h3 h4 h5 h6 h7 h8
  exact gin_entry_relu z a0 x1 x2 x3 x4 x5 x6 x7 x8 o hz j i hi0 hi1

set_option maxHeartbeats 1000000 in
/-- What point `t` writes back is block `t` of that array. -/
theorem flushed7_eq (c : Dev nD) (t : Fin cfg7.N) :
    (dat7 V c).flushed 9 t = ((cfg7.win 9).blk t).view.read (Elt Ideal) (ginArrRelu (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))) := by
  show (cfg7.win 9).cut (grid7.coords t) ((dat7 V c).after 9 t) = _
  rw [after7_9]
  unfold out7_9
  rw [View.canon_unit_zero zero2_7]
  simp only [View.ld_unit_zero (S := S8000x128) zero2_7, View.ld_unit_zero (S := S1x128) zero2_7, View.ld_unit_zero (S := S128x64) zero2_7,
    View.ld_unit_zero (S := S64) zero1_7, View.ld_unit_zero (S := S1x64) zero2_7]
  rw [Cert.Bridge.k7_pay1_eq, Cert.Bridge.k7_pay2_eq, Cert.Bridge.k7_pay3_eq]
  obtain ⟨e0, e1, e2, e3⟩ := idx7_0 t
  funext j
  refine gin_entry_relu_of_eq7 (iblk7 V c 0 t) (iblk7 V c 1 t) (iblk7 V c 2 t) (iblk7 V c 3 t) (iblk7 V c 4 t) (iblk7 V c 5 t) (iblk7 V c 6 t) (iblk7 V c 7 t) (iblk7 V c 8 t)
    (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (win7_9.index t (0 : Fin 2)) ?_
    (blk7_1 V c t) (blk7_2 V c t) (blk7_3 V c t) (blk7_4 V c t) (blk7_5 V c t) (blk7_6 V c t) (blk7_7 V c t) (blk7_8 V c t)
    j (((cfg7.win 9).blk t).view.emb j) ?_ ?_
  · intro p k r hr
    show V c (Pipeline.arrRef spec7 0) (((cfg7.win 0).blk t).view.emb (ix2 p k)) = V c (Pipeline.arrRef spec7 0) (ix2 r k)
    have h : ((cfg7.win 0).blk t).view.emb (ix2 p k) = (ix2 r k : S80000x128.Idx) := by
      funext a; apply Fin.ext
      match a with
      | ⟨0, _⟩ => show win7_0.index t (0 : Fin 2) * 8000 + 1 * p.val = r.val; omega
      | ⟨1, _⟩ => show win7_0.index t (1 : Fin 2) * 128 + 1 * k.val = k.val; omega
    rw [h]
  · show win7_9.index t (0 : Fin 2) * 8000 + 1 * (j 0).val = win7_9.index t (0 : Fin 2) * 8000 + (j 0).val; omega
  · show win7_9.index t (1 : Fin 2) * 64 + 1 * (j 1).val = (j 1).val; omega

/-- An index of the array is in point `t`'s block iff each coordinate is in the block's range on its axis. -/
theorem mem_blk7 (t : Fin cfg7.N) (i : S80000x64.Idx) :
    i ∈ ((cfg7.win 9).blk t).view.set ↔ ∀ a : Fin 2, win7_9.index t a * S8000x64.size a ≤ (i a).val ∧ (i a).val < win7_9.index t a * S8000x64.size a + S8000x64.size a := by
  show i ∈ ((View.whole main_v95).slice (win7_9.rect t)).set ↔ _
  rw [View.set_slice_whole, Rect.mem_set_unit]
  exact Iff.rfl

/-- Every row of the array is in some point's block: row `r` in block `r / 8000`. -/
theorem cover7 (i : S80000x64.Idx) : ∃ t : Fin cfg7.N, (cfg7.win 9).flush t = true ∧ i ∈ ((cfg7.win 9).blk t).view.set := by
  have hi0 : (i 0).val < 80000 := (i 0).isLt
  have hi1 : (i 1).val < 64 := (i 1).isLt
  have hN : cfg7.N = 10 := N_7
  refine ⟨⟨(i 0).val / 8000, by rw [hN]; omega⟩, flush7_9 _, ?_⟩
  rw [mem_blk7]
  obtain ⟨-, -, e2, e3⟩ := idx7_0 ⟨(i 0).val / 8000, by rw [hN]; omega⟩
  intro a
  match a with
  | ⟨0, _⟩ => show win7_9.index _ (0 : Fin 2) * 8000 ≤ (i 0).val ∧ (i 0).val < win7_9.index _ (0 : Fin 2) * 8000 + 8000; rw [e2]; show (i 0).val / 8000 * 8000 ≤ (i 0).val ∧ (i 0).val < (i 0).val / 8000 * 8000 + 8000; omega
  | ⟨1, _⟩ => show win7_9.index _ (1 : Fin 2) * 64 ≤ (i 1).val ∧ (i 1).val < win7_9.index _ (1 : Fin 2) * 64 + 64; rw [e3]; omega

/-- THE ARRAY after the region: the layer's second half of the arrays it was entered with. -/
theorem arr7 (c : Dev nD) : aout7 V c = ginArrRelu (ain7_0 V c) (ain7_1 V c) (ain7_2 V c) (ain7_3 V c) (ain7_4 V c) (ain7_5 V c) (ain7_6 V c) (ain7_7 V c) (ain7_8 V c) :=
  (dat7 V c).arrAt_eq_of_cover 9 _ (fun t _ => flushed7_eq V c t) (cover7)

/-- The same, read at an entry. -/
theorem arr7_apply (c : Dev nD) (r : Fin 80000) (q : Fin 64) :
    aout7 V c (ix2 r q) = max (ginPre (ain7_0 V c) (ain7_1 V c) (ain7_2 V c) (ain7_3 V c) (ain7_4 V c) (ain7_5 V c) (ain7_6 V c) (ain7_7 V c) (ain7_8 V c) r q) 0 := by
  rw [arr7]; rfl

end Cert.KernelIdeal.Reg
-- ==== Proof.KI.ChainL1.lean ====
/-
  Layer 1 of the kernel program along the fold, assembled: the last region's array (KI/Val7.lean) of the nine arrays
  KI/ChainL1a.lean computes, which is the layer function `kLayer` (KI/ChainDefs.lean) by definition.
-/
import proofs.«178590_j59433757442359_2_alg».proof.Proof.KI.ChainL1a
import proofs.«178590_j59433757442359_2_alg».proof.Proof.KI.Val7

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Region 7: the layer's second half of its nine operand arrays. -/
theorem L1_out (h7 : D.r7.dat = dat7) : W14 D m c (Proc.devRef .tc main_v95) = ginArrRelu (W13 D m c (Proc.devRef .tc main_v72_0)) (W13 D m c (Proc.devRef .tc main_v74)) (W13 D m c (Proc.devRef .tc main_v78)) (W13 D m c (Proc.devRef .tc main_v81)) (W13 D m c (Proc.devRef .tc main_v84)) (W13 D m c (Proc.devRef .tc main_v86)) (W13 D m c (Proc.devRef .tc main_v88)) (W13 D m c (Proc.devRef .tc main_v91)) (W13 D m c (Proc.devRef .tc main_v94)) :=
  (W14_arr D m c 9 : W14 D m c (Proc.devRef .tc main_v95) = _).trans (by rw [h7]; exact arr7 (V13 D m) c)

/-- Layer 1 along the fold: the node features after it are the layer function of the node features before it, the edge
    features, the index columns and the layer's parameter slices. -/
theorem layer1 (h5 : D.r5.dat = dat5) (h6 : D.r6.dat = dat6) (h7 : D.r7.dat = dat7) :
    W14 D m c (Proc.devRef .tc main_v95) = kLayer (W8 D m c (Proc.devRef .tc main_v50)) (W2 D m c (Proc.devRef .tc main_v1)) (srcCol (m ((c : Thread nD τ).loc main_arg1))) (dstCol (m ((c : Thread nD τ).loc main_arg1)))
      (eps_1 (F := Ideal) (m ((c : Thread nD τ).loc main_arg13))) (W1_1 (F := Ideal) (m ((c : Thread nD τ).loc main_arg7))) (b1_1 (F := Ideal) (m ((c : Thread nD τ).loc main_arg8))) (g1_1 (F := Ideal) (m ((c : Thread nD τ).loc main_arg9))) (bt1_1 (F := Ideal) (m ((c : Thread nD τ).loc main_arg10)))
      (W2_1 (F := Ideal) (m ((c : Thread nD τ).loc main_arg11))) (b2_1 (F := Ideal) (m ((c : Thread nD τ).loc main_arg12))) (lng_1 (F := Ideal) (m ((c : Thread nD τ).loc main_arg14))) (lnb_1 (F := Ideal) (m ((c : Thread nD τ).loc main_arg15))) := by
  rw [L1_out D m c h7, L1_Zkeep D m c, L1_Z D m c h6, L1_mean D m c, L1_var D m c, L1_S D m c h6, L1_Q D m c h6,
    L1_gm D m c, L1_bt D m c, L1_w2 D m c, L1_b2 D m c, L1_lg D m c, L1_lb D m c, L1_x D m c, L1_w1 D m c, L1_b1 D m c,
    L1_h1 D m c, W10_v5 D m c, W10_arg13 D m c, L1_msg D m c h5, L1_gather D m c, W9_v1 D m c]
  rfl

end Cert.KernelIdeal.Chain

end
-- ==== Proof.KI.HostL2.lean ====
/-
  Layer 2's three host stretches of the kernel program (`hostOps8`, `hostOps9`, `hostOps10`), read from ANY contents `W` of
  the device's buffers: each buffer a stretch hands on — to a later region's window or a later stretch — holds, after the
  stretch, the named function of the contents `W` has at the stretch's inputs. The names are the reference function's
  own pieces (Proof/RefRunPieces.lean) wherever the operations are the same ones; `meanOfSum`, `varOnePass`, `asRow128`,
  `asRow64` (KI/HostDefs.lean) where the kernel program computes from sums accumulated in a region.
-/
import proofs.«178590_j59433757442359_2_alg».proof.Proof.Gen.KernelIdeal.Launch
import proofs.«178590_j59433757442359_2_alg».proof.Proof.KI.HostDefs

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable {F : FTy → Type} [FloatOps F]

set_option maxRecDepth 8192 in
set_option maxHeartbeats 900000 in
theorem hostOps8_main_v102 (W : Valuation τ sig (Elt F)) :
    after hostOps8 W (Proc.devRef .tc main_v102) = gatherRows (W (Proc.devRef .tc main_v95)) (W (Proc.devRef .tc main_v3)) := by
  simp only [hostOps8]
  after_results_simp <;> rfl

set_option maxRecDepth 8192 in
set_option maxHeartbeats 1500000 in
theorem hostOps9_main_v112 (W : Valuation τ sig (Elt F)) :
    after hostOps9 W (Proc.devRef .tc main_v112) = selfPlusAgg (W (Proc.devRef .tc main_v95)) (scatterSum (W (Proc.devRef .tc main_v5)) (W (Proc.devRef .tc main_v103))) (eps_2 (W (Proc.devRef .tc main_arg13))) := by
  simp only [hostOps9]
  after_results_simp <;> rfl

set_option maxRecDepth 8192 in
set_option maxHeartbeats 1500000 in
theorem hostOps9_main_v114 (W : Valuation τ sig (Elt F)) :
    after hostOps9 W (Proc.devRef .tc main_v114) = W1_2 (W (Proc.devRef .tc main_arg7)) := by
  simp only [hostOps9]
  after_results_simp <;> rfl

set_option maxRecDepth 8192 in
set_option maxHeartbeats 1500000 in
theorem hostOps9_main_v116 (W : Valuation τ sig (Elt F)) :
    after hostOps9 W (Proc.devRef .tc main_v116) = b1_2 (W (Proc.devRef .tc main_arg8)) := by
  simp only [hostOps9]
  after_results_simp <;> rfl

set_option maxRecDepth 8192 in
set_option maxHeartbeats 2400000 in
theorem hostOps10_main_v119 (W : Valuation τ sig (Elt F)) :
    after hostOps10 W (Proc.devRef .tc main_v119) = meanOfSum (W (Proc.devRef .tc main_v117_1)) := by
  simp only [hostOps10]
  after_results_simp <;> rfl

set_option maxRecDepth 8192 in
set_option maxHeartbeats 2400000 in
theorem hostOps10_main_v123 (W : Valuation τ sig (Elt F)) :
    after hostOps10 W (Proc.devRef .tc main_v123) = varOnePass (W (Proc.devRef .tc main_v117_1)) (W (Proc.devRef .tc main_v117_2)) := by
  simp only [hostOps10]
  after_results_simp <;> rfl

set_option maxRecDepth 8192 in
set_option maxHeartbeats 2400000 in
theorem hostOps10_main_v126 (W : Valuation τ sig (Elt F)) :
    after hostOps10 W (Proc.devRef .tc main_v126) = asRow128 (g1_2 (W (Proc.devRef .tc main_arg9))) := by
  simp only [hostOps10]
  after_results_simp <;> rfl

set_option maxRecDepth 8192 in
set_option maxHeartbeats 2400000 in
theorem hostOps10_main_v129 (W : Valuation τ sig (Elt F)) :
    after hostOps10 W (Proc.devRef .tc main_v129) = asRow128 (bt1_2 (W (Proc.devRef .tc main_arg10))) := by
  simp only [hostOps10]
  after_results_simp <;> rfl

set_option maxRecDepth 8192 in
set_option maxHeartbeats 2400000 in
theorem hostOps10_main_v131 (W : Valuation τ sig (Elt F)) :
    after hostOps10 W (Proc.devRef .tc main_v131) = W2_2 (W (Proc.devRef .tc main_arg11)) := by
  simp only [hostOps10]
  after_results_simp <;> rfl

set_option maxRecDepth 8192 in
set_option maxHeartbeats 2400000 in
theorem hostOps10_main_v133 (W : Valuation τ sig (Elt F)) :
    after hostOps10 W (Proc.devRef .tc main_v133) = b2_2 (W (Proc.devRef .tc main_arg12)) := by
  simp only [hostOps10]
  after_results_simp <;> rfl

set_option maxRecDepth 8192 in
set_option maxHeartbeats 2400000 in
theorem hostOps10_main_v136 (W : Valuation τ sig (Elt F)) :
    after hostOps10 W (Proc.devRef .tc main_v136) = asRow64 (lng_2 (W (Proc.devRef .tc main_arg14))) := by
  simp only [hostOps10]
  after_results_simp <;> rfl

set_option maxRecDepth 8192 in
set_option maxHeartbeats 2400000 in
theorem hostOps10_main_v139 (W : Valuation τ sig (Elt F)) :
    after hostOps10 W (Proc.devRef .tc main_v139) = asRow64 (lnb_2 (W (Proc.devRef .tc main_arg15))) := by
  simp only [hostOps10]
  after_results_simp <;> rfl

end Cert.KernelIdeal.HostSide

end
-- ==== Proof.KI.Val8.lean ====
import proofs.«178590_j59433757442359_2_alg».proof.Proof.KI.Reg8
import proofs.«178590_j59433757442359_2_alg».proof.Proof.Math.LinRelu
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 8, from blocks to the array: after the last grid point the output array is, entry by entry,
    max (h + e, 0) of the two arrays the region was entered with. -/

theorem zero2_8 : (![0, 0] : Fin 2 → Nat) = fun _ => 0 := funext fun a => by fin_cases a <;> rfl

/-- The operand arrays as the region finds them, and the output array after its last point, as functions on
    their index type. -/
abbrev ain8_0 (c : Dev nD) : S1280000x64.Idx → EReal := V c (Pipeline.arrRef spec8 0)
abbrev ain8_1 (c : Dev nD) : S1280000x64.Idx → EReal := V c (Pipeline.arrRef spec8 1)
abbrev aout8 (c : Dev nD) : S1280000x64.Idx → EReal := (dat8 V c).arrAt 2 cfg8.N

/-- The array the region leaves: entry by entry the maximum with zero of the sum of its two operands. -/
def msgArr8 (a0 a1 : S1280000x64.Idx → EReal) : S1280000x64.Idx → EReal := fun i => max (a0 i + a1 i) 0

theorem msgArr8_apply (a0 a1 : S1280000x64.Idx → EReal) (i : S1280000x64.Idx) : msgArr8 a0 a1 i = max (a0 i + a1 i) 0 := rfl

/-- One entry of a block: if the two loaded blocks hold, at `j`, the operands' entries at `i`, the stored block
    holds the array's entry at `i`. -/
theorem msg_entry8 (x0 x1 : Vec Ideal S8000x64 .f32) (a0 a1 : S1280000x64.Idx → EReal) (j : S8000x64.Idx) (i : S1280000x64.Idx)
    (h0 : x0 j = a0 i) (h1 : x1 j = a1 i) : k8_pay1 (F := Ideal) x0 x1 j = msgArr8 a0 a1 i := by
  obtain ⟨p, q, rfl⟩ : ∃ (p : Fin 8000) (q : Fin 64), j = ix2 p q := ⟨j 0, j 1, eq_ix2 j⟩
  rw [Cert.Bridge.k8_pay1_apply, h0, h1]
  rfl

/-- The index maps over the grid: the three windows move together, block `t` of the rows at point `t`. -/
theorem idx_facts8 : ∀ t : Fin cfg8.N, win8_0.index t (0 : Fin 2) = win8_2.index t (0 : Fin 2)
    ∧ win8_0.index t (1 : Fin 2) = win8_2.index t (1 : Fin 2)
    ∧ win8_1.index t (0 : Fin 2) = win8_2.index t (0 : Fin 2)
    ∧ win8_1.index t (1 : Fin 2) = win8_2.index t (1 : Fin 2)
    ∧ win8_2.index t (0 : Fin 2) = t.val ∧ win8_2.index t (1 : Fin 2) = 0 :=
  (by decide +kernel : ∀ t : Fin grid8.N, _)

/-- What point `t` writes back is block `t` of that array. -/
theorem flushed8_eq (c : Dev nD) (t : Fin cfg8.N) :
    (dat8 V c).flushed 2 t = ((cfg8.win 2).blk t).view.read (Elt Ideal) (msgArr8 (V c (Pipeline.arrRef spec8 0)) (V c (Pipeline.arrRef spec8 1))) := by
  show (cfg8.win 2).cut (grid8.coords t) ((dat8 V c).after 2 t) = _
  rw [after8_2]
  unfold out8_2
  rw [View.canon_unit_zero zero2_8]
  simp only [View.ld_unit_zero (S := S8000x64) zero2_8]
  obtain ⟨e0, e1, e2, e3, e4, e5⟩ := idx_facts8 t
  funext j
  have h0 : ((cfg8.win 0).blk t).view.emb j = ((cfg8.win 2).blk t).view.emb j := by
    funext a; apply Fin.ext
    match a with
    | ⟨0, _⟩ => show win8_0.index t (0 : Fin 2) * 8000 + 1 * (j 0).val = win8_2.index t (0 : Fin 2) * 8000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb j = ((cfg8.win 2).blk t).view.emb j := by
    funext a; apply Fin.ext
    match a with
    | ⟨0, _⟩ => show win8_1.index t (0 : Fin 2) * 8000 + 1 * (j 0).val = win8_2.index t (0 : Fin 2) * 8000 + 1 * (j 0).val; omega
    | ⟨1, _⟩ => show win8_1.index t (1 : Fin 2) * 64 + 1 * (j 1).val = win8_2.index t (1 : Fin 2) * 64 + 1 * (j 1).val; omega
  exact msg_entry8 (iblk8 V c 0 t) (iblk8 V c 1 t) (V c (Pipeline.arrRef spec8 0)) (V c (Pipeline.arrRef spec8 1)) j (((cfg8.win 2).blk t).view.emb j)
    (show V c (Pipeline.arrRef spec8 0) (((cfg8.win 0).blk t).view.emb j) = _ by rw [h0])
    (show V c (Pipeline.arrRef spec8 1) (((cfg8.win 1).blk t).view.emb j) = _ by rw [h1])

/-- An index of the array is in point `t`'s block iff each coordinate is in the block's range on its axis. -/
theorem mem_blk8 (t : Fin cfg8.N) (i : S1280000x64.Idx) :
    i ∈ ((cfg8.win 2).blk t).view.set ↔ ∀ a : Fin 2, win8_2.index t a * S8000x64.size a ≤ (i a).val ∧ (i a).val < win8_2.index t a * S8000x64.size a + S8000x64.size a := by
  show i ∈ ((View.whole main_v103).slice (win8_2.rect t)).set ↔ _
  rw [View.set_slice_whole, Rect.mem_set_unit]
  exact Iff.rfl

/-- Every row of the array is in some point's block: row `r` in block `r / 8000`. -/
theorem cover8 (i : S1280000x64.Idx) : ∃ t : Fin cfg8.N, (cfg8.win 2).flush t = true ∧ i ∈ ((cfg8.win 2).blk t).view.set := by
  have hi0 : (i 0).val < 1280000 := (i 0).isLt
  have hi1 : (i 1).val < 64 := (i 1).isLt
  have hN : cfg8.N = 160 := N_8
  refine ⟨⟨(i 0).val / 8000, by rw [hN]; omega⟩, flush8_2 _, ?_⟩
  rw [mem_blk8]
  obtain ⟨-, -, -, -, e4, e5⟩ := idx_facts8 ⟨(i 0).val / 8000, by rw [hN]; omega⟩
  intro a
  match a with
  | ⟨0, _⟩ => show win8_2.index _ (0 : Fin 2) * 8000 ≤ (i 0).val ∧ (i 0).val < win8_2.index _ (0 : Fin 2) * 8000 + 8000; rw [e4]; show (i 0).val / 8000 * 8000 ≤ (i 0).val ∧ (i 0).val < (i 0).val / 8000 * 8000 + 8000; omega
  | ⟨1, _⟩ => show win8_2.index _ (1 : Fin 2) * 64 ≤ (i 1).val ∧ (i 1).val < win8_2.index _ (1 : Fin 2) * 64 + 64; rw [e5]; omega

/-- THE ARRAY after the region: entry by entry max (h + e, 0) of the arrays it was entered with. -/
theorem arr8 (c : Dev nD) : aout8 V c = msgArr8 (ain8_0 V c) (ain8_1 V c) :=
  (dat8 V c).arrAt_eq_of_cover 2 _ (fun t _ => flushed8_eq V c t) (cover8)

/-- The same, read at an entry. -/
theorem arr8_apply (c : Dev nD) (e : Fin 1280000) (q : Fin 64) :
    aout8 V c (ix2 e q) = max (ain8_0 V c (ix2 e q) + ain8_1 V c (ix2 e q)) 0 := by
  rw [arr8]; rfl

end Cert.KernelIdeal.Reg
-- ==== Proof.KI.Pieces9.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Reg9
import proofs.«178590_j59433757442359_2_alg».proof.Proof.KI.Pieces3
import Idealize.ShloMosaic.Lib.Pipeline.Value
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: what its found stores read as, in the payloads' terms -/
-- hz1, hz2 and readCov_cons_unit_zero come with region 3's module (imported below through the region modules' shared namespace)
theorem out9_A_3_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    out9_A_3 c i arg1 harg1 arg2 harg2 arg3 harg3 arg4 harg4 arg5 harg5 arg6 harg6 arg7 harg7 arg8 harg8 hc x1 x2 x3 = k9_pay3 x1 x2 x3 := by
  unfold out9_A_3
  rw [View.read_writes_eq_canon _ _ _ (cover9_A_3 c i arg1 harg1 arg2 harg2 arg3 harg3 arg4 harg4 arg5 harg5 arg6 harg6 arg7 harg7 arg8 harg8 hc x1 x2 x3)]
  unfold kernelRun9_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout9_A_0_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    sout9_A_0 c i arg1 harg1 arg2 harg2 arg3 harg3 arg4 harg4 arg5 harg5 arg6 harg6 arg7 harg7 arg8 harg8 hc x1 x2 x3 = k9_pay4 x1 x2 x3 k9_pay1 := by
  unfold sout9_A_0
  rw [View.read_writes_eq_canon _ _ _ (scover9_A_0 c i arg1 harg1 arg2 harg2 arg3 harg3 arg4 harg4 arg5 harg5 arg6 harg6 arg7 harg7 arg8 harg8 hc x1 x2 x3)]
  unfold kernelRun9_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout9_A_1_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    sout9_A_1 c i arg1 harg1 arg2 harg2 arg3 harg3 arg4 harg4 arg5 harg5 arg6 harg6 arg7 harg7 arg8 harg8 hc x1 x2 x3 = k9_pay5 x1 x2 x3 k9_pay2 := by
  unfold sout9_A_1
  rw [View.read_writes_eq_canon _ _ _ (scover9_A_1 c i arg1 harg1 arg2 harg2 arg3 harg3 arg4 harg4 arg5 harg5 arg6 harg6 arg7 harg7 arg8 harg8 hc x1 x2 x3)]
  unfold kernelRun9_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out9_A_4_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    out9_A_4 c i arg1 harg1 arg2 harg2 arg3 harg3 arg4 harg4 arg5 harg5 arg6 harg6 arg7 harg7 arg8 harg8 hc x1 x2 x3 = k9_pay4 x1 x2 x3 k9_pay1 := by
  unfold out9_A_4
  rw [View.read_writes_eq_canon _ _ _ (cover9_A_4 c i arg1 harg1 arg2 harg2 arg3 harg3 arg4 harg4 arg5 harg5 arg6 harg6 arg7 harg7 arg8 harg8 hc x1 x2 x3)]
  unfold kernelRun9_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out9_A_5_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond9 i) (x1 : Vec F S8000x64 .f32) (x2 : Vec F S64x128 .f32) (x3 : Vec F S128 .f32) :
    out9_A_5 c i arg1 harg1 arg2 harg2 arg3 harg3 arg4 harg4 arg5 harg5 arg6 harg6 arg7 harg7 arg8 harg8 hc x1 x2 x3 = k9_pay5 x1 x2 x3 k9_pay2 := by
  unfold out9_A_5
  rw [View.read_writes_eq_canon _ _ _ (cover9_A_5 c i arg1 harg1 arg2 harg2 arg3 harg3 arg4 harg4 arg5 harg5 arg6 harg6 arg7 harg7 arg8 harg8 hc x1 x2 x3)]
  unfold kernelRun9_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out9_B_3_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    out9_B_3 c i arg1 harg1 arg2 harg2 arg3 harg3 arg4 harg4 arg5 harg5 arg6 harg6 arg7 harg7 arg8 harg8 hc x1 x2 x3 xs7 xs8 = k9_pay3 x1 x2 x3 := by
  unfold out9_B_3
  rw [View.read_writes_eq_canon _ _ _ (cover9_B_3 c i arg1 harg1 arg2 harg2 arg3 harg3 arg4 harg4 arg5 harg5 arg6 harg6 arg7 harg7 arg8 harg8 hc x1 x2 x3 xs7 xs8)]
  unfold kernelRun9_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout9_B_0_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    sout9_B_0 c i arg1 harg1 arg2 harg2 arg3 harg3 arg4 harg4 arg5 harg5 arg6 harg6 arg7 harg7 arg8 harg8 hc x1 x2 x3 xs7 xs8 = k9_pay4 x1 x2 x3 xs7 := by
  unfold sout9_B_0
  rw [View.read_writes_eq_canon _ _ _ (scover9_B_0 c i arg1 harg1 arg2 harg2 arg3 harg3 arg4 harg4 arg5 harg5 arg6 harg6 arg7 harg7 arg8 harg8 hc x1 x2 x3 xs7 xs8)]
  unfold kernelRun9_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout9_B_1_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    sout9_B_1 c i arg1 harg1 arg2 harg2 arg3 harg3 arg4 harg4 arg5 harg5 arg6 harg6 arg7 harg7 arg8 harg8 hc x1 x2 x3 xs7 xs8 = k9_pay5 x1 x2 x3 xs8 := by
  unfold sout9_B_1
  rw [View.read_writes_eq_canon _ _ _ (scover9_B_1 c i arg1 harg1 arg2 harg2 arg3 harg3 arg4 harg4 arg5 harg5 arg6 harg6 arg7 harg7 arg8 harg8 hc x1 x2 x3 xs7 xs8)]
  unfold kernelRun9_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out9_B_4_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    out9_B_4 c i arg1 harg1 arg2 harg2 arg3 harg3 arg4 harg4 arg5 harg5 arg6 harg6 arg7 harg7 arg8 harg8 hc x1 x2 x3 xs7 xs8 = k9_pay4 x1 x2 x3 xs7 := by
  unfold out9_B_4
  rw [View.read_writes_eq_canon _ _ _ (cover9_B_4 c i arg1 harg1 arg2 harg2 arg3 harg3 arg4 harg4 arg5 harg5 arg6 harg6 arg7 harg7 arg8 harg8 hc x1 x2 x3 xs7 xs8)]
  unfold kernelRun9_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out9_B_5_eq (c : Dev nD) (i : grid9.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond9 i) (x1 : Vec F S8000x64 .f32) (x2 : Vec F S64x128 .f32) (x3 : Vec F S128 .f32) (xs7 : Vec F S1x128 .f32) (xs8 : Vec F S1x128 .f32) :
    out9_B_5 c i arg1 harg1 arg2 harg2 arg3 harg3 arg4 harg4 arg5 harg5 arg6 harg6 arg7 harg7 arg8 harg8 hc x1 x2 x3 xs7 xs8 = k9_pay5 x1 x2 x3 xs8 := by
  unfold out9_B_5
  rw [View.read_writes_eq_canon _ _ _ (cover9_B_5 c i arg1 harg1 arg2 harg2 arg3 harg3 arg4 harg4 arg5 harg5 arg6 harg6 arg7 harg7 arg8 harg8 hc x1 x2 x3 xs7 xs8)]
  unfold kernelRun9_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

end Cert.KernelIdeal.Reg

end
-- ==== Proof.KI.Rows9.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Pieces9
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 9: the two kept rows after each block, as a plain recursion over the payloads -/

section
variable (V : (c : Dev nD) → (b : Ref sig .tc) → Buf (Elt F) ((c : Thread nD τ).loc b))

/-- After block `n`: (the running column sums of Z, the running column sums of Z·Z), started from the zero rows. -/
def rows9 (c : Dev nD) : (n : ℕ) → n < cfg9.N → Vec F S1x128 .f32 × Vec F S1x128 .f32
  | 0, hn => (k9_pay4 (iblk9 V c 0 ⟨0, hn⟩) (iblk9 V c 1 ⟨0, hn⟩) (iblk9 V c 2 ⟨0, hn⟩) k9_pay1, k9_pay5 (iblk9 V c 0 ⟨0, hn⟩) (iblk9 V c 1 ⟨0, hn⟩) (iblk9 V c 2 ⟨0, hn⟩) k9_pay2)
  | n + 1, hn => (k9_pay4 (iblk9 V c 0 ⟨n + 1, hn⟩) (iblk9 V c 1 ⟨n + 1, hn⟩) (iblk9 V c 2 ⟨n + 1, hn⟩) (rows9 c n (Nat.lt_of_succ_lt hn)).1,
      k9_pay5 (iblk9 V c 0 ⟨n + 1, hn⟩) (iblk9 V c 1 ⟨n + 1, hn⟩) (iblk9 V c 2 ⟨n + 1, hn⟩) (rows9 c n (Nat.lt_of_succ_lt hn)).2)

/-- What the region's proof data hold after block `n`: the block of Z, the two rows copied out, the two rows kept. -/
theorem outsAt9_eq (c : Dev nD) : ∀ (n : ℕ) (hn : n < cfg9.N),
    outsAt9 V c n hn = (k9_pay3 (iblk9 V c 0 ⟨n, hn⟩) (iblk9 V c 1 ⟨n, hn⟩) (iblk9 V c 2 ⟨n, hn⟩), (rows9 V c n hn).1, (rows9 V c n hn).2, (rows9 V c n hn).1, (rows9 V c n hn).2)
  | 0, hn => by
    simp only [outsAt9, rows9, out9_A_3_eq, out9_A_4_eq, out9_A_5_eq, sout9_A_0_eq, sout9_A_1_eq]
  | n + 1, hn => by
    simp only [outsAt9, rows9, out9_B_3_eq, out9_B_4_eq, out9_B_5_eq, sout9_B_0_eq, sout9_B_1_eq,
      outsAt9_eq c n (Nat.lt_of_succ_lt hn)]

theorem after9_3_eq (c : Dev nD) (t : Fin cfg9.N) : (dat9 V c).after 3 t = k9_pay3 (iblk9 V c 0 t) (iblk9 V c 1 t) (iblk9 V c 2 t) := by
  rw [after9_3, outsAt9_eq]
theorem after9_4_eq (c : Dev nD) (t : Fin cfg9.N) : (dat9 V c).after 4 t = (rows9 V c t.val t.isLt).1 := by
  rw [after9_4, outsAt9_eq]
theorem after9_5_eq (c : Dev nD) (t : Fin cfg9.N) : (dat9 V c).after 5 t = (rows9 V c t.val t.isLt).2 := by
  rw [after9_5, outsAt9_eq]

end

end Cert.KernelIdeal.Reg

end
-- ==== Proof.KI.Val9.lean ====
import proofs.«178590_j59433757442359_2_alg».proof.Proof.KI.Rows9
import proofs.«178590_j59433757442359_2_alg».proof.Proof.Math.Gin1
import proofs.«178590_j59433757442359_2_alg».proof.Proof.Math.Spec
import proofs.«178590_j59433757442359_2_alg».proof.Proof.Math.SpecLaw
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 9, from blocks to the arrays: after the last grid point the first output array is Z = zin·W1 + b1 at every
    row, and the two one-row outputs are the ten block sums of Z's columns (and of their squares) added up from zero. -/

abbrev ain9_0 (c : Dev nD) : S80000x64.Idx → EReal := V c (Pipeline.arrRef spec9 0)
abbrev ain9_1 (c : Dev nD) : S64x128.Idx → EReal := V c (Pipeline.arrRef spec9 1)
abbrev ain9_2 (c : Dev nD) : S128.Idx → EReal := V c (Pipeline.arrRef spec9 2)
abbrev aoutZ9 (c : Dev nD) : S80000x128.Idx → EReal := (dat9 V c).arrAt 3 cfg9.N
abbrev aoutS9 (c : Dev nD) : S1x128.Idx → EReal := (dat9 V c).arrAt 4 cfg9.N
abbrev aoutQ9 (c : Dev nD) : S1x128.Idx → EReal := (dat9 V c).arrAt 5 cfg9.N

/-- One entry of Z. -/
def zEntry9 (a0 : S80000x64.Idx → EReal) (a1 : S64x128.Idx → EReal) (a2 : S128.Idx → EReal) (r : Fin 80000) (j : Fin 128) : EReal :=
  ∑ k : Fin 64, a0 (ix2 r k) * a1 (ix2 k j) + a2 (ix1 j)
def zArr9 (a0 : S80000x64.Idx → EReal) (a1 : S64x128.Idx → EReal) (a2 : S128.Idx → EReal) : S80000x128.Idx → EReal :=
  fun i => zEntry9 a0 a1 a2 (i 0) (i 1)
theorem zArr9_apply (a0 : S80000x64.Idx → EReal) (a1 : S64x128.Idx → EReal) (a2 : S128.Idx → EReal) (r : Fin 80000) (j : Fin 128) :
    zArr9 a0 a1 a2 (ix2 r j) = zEntry9 a0 a1 a2 r j := rfl
/-- The column sums of Z (of its squares), as the kernel adds them: block by block from zero. -/
def sArr9 (a0 : S80000x64.Idx → EReal) (a1 : S64x128.Idx → EReal) (a2 : S128.Idx → EReal) : S1x128.Idx → EReal :=
  fun i => Cert.Bridge.foldBlocks (Cert.Bridge.blockSum fun r => zEntry9 a0 a1 a2 r (i 1)) 10
def qArr9 (a0 : S80000x64.Idx → EReal) (a1 : S64x128.Idx → EReal) (a2 : S128.Idx → EReal) : S1x128.Idx → EReal :=
  fun i => Cert.Bridge.foldBlocks (Cert.Bridge.blockSum fun r => zEntry9 a0 a1 a2 r (i 1) * zEntry9 a0 a1 a2 r (i 1)) 10

/-- One entry of a block of Z, when the loaded row block holds rows `o · 8000 …` of the first operand. -/
theorem z_entry9 (x : Vec Ideal S8000x64 .f32) (w : Vec Ideal S64x128 .f32) (b : Vec Ideal S128 .f32)
    (a0 : S80000x64.Idx → EReal) (a1 : S64x128.Idx → EReal) (a2 : S128.Idx → EReal) (o : ℕ)
    (hx : ∀ (p : Fin 8000) (k : Fin 64) (r : Fin 80000), r.val = o * 8000 + p.val → x (ix2 p k) = a0 (ix2 r k))
    (hw : w = a1) (hb : b = a2) (p : Fin 8000) (j : Fin 128) (r : Fin 80000) (hr : r.val = o * 8000 + p.val) :
    k3_pay3 (F := Ideal) x w b (ix2 p j) = zEntry9 a0 a1 a2 r j := by
  subst hw hb
  rw [Cert.Bridge.k3_pay3_apply]
  unfold zEntry9
  refine congrArg (fun s => s + b (ix1 j)) (Finset.sum_congr rfl fun k _ => ?_)
  rw [hx p k r hr]

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = t.val ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-- The row block at point `t` holds rows `t · 8000 …` of the first operand; the other two blocks are the whole arrays. -/
theorem blk9_0 (c : Dev nD) (t : Fin cfg9.N) (p : Fin 8000) (k : Fin 64) (r : Fin 80000) (hr : r.val = t.val * 8000 + p.val) :
    iblk9 V c 0 t (ix2 p k) = ain9_0 V c (ix2 r k) := by
  obtain ⟨e0, e1, -⟩ := idx_facts9 t
  show V c (Pipeline.arrRef spec9 0) (((cfg9.win 0).blk t).view.emb (ix2 p k)) = V c (Pipeline.arrRef spec9 0) (ix2 r k)
  have h : ((cfg9.win 0).blk t).view.emb (ix2 p k) = (ix2 r k : S80000x64.Idx) := by
    funext a; apply Fin.ext
    match a with
    | ⟨0, _⟩ => show win9_0.index t (0 : Fin 2) * 8000 + 1 * p.val = r.val; omega
    | ⟨1, _⟩ => show win9_0.index t (1 : Fin 2) * 64 + 1 * k.val = k.val; omega
  rw [h]
theorem blk9_1 (c : Dev nD) (t : Fin cfg9.N) : iblk9 V c 1 t = ain9_1 V c := by
  obtain ⟨-, -, e2, e3, -⟩ := idx_facts9 t
  funext y
  show V c (Pipeline.arrRef spec9 1) (((cfg9.win 1).blk t).view.emb y) = V c (Pipeline.arrRef spec9 1) y
  have h : ((cfg9.win 1).blk t).view.emb y = y := by
    funext a; apply Fin.ext
    match a with
    | ⟨0, _⟩ => show win9_1.index t (0 : Fin 2) * 64 + 1 * (y 0).val = (y 0).val; omega
    | ⟨1, _⟩ => show win9_1.index t (1 : Fin 2) * 128 + 1 * (y 1).val = (y 1).val; omega
  rw [h]
theorem blk9_2 (c : Dev nD) (t : Fin cfg9.N) : iblk9 V c 2 t = ain9_2 V c := by
  obtain ⟨-, -, -, -, e4, -⟩ := idx_facts9 t
  funext y
  show V c (Pipeline.arrRef spec9 2) (((cfg9.win 2).blk t).view.emb y) = V c (Pipeline.arrRef spec9 2) y
  have h : ((cfg9.win 2).blk t).view.emb y = y := by
    funext a; apply Fin.ext
    match a with
    | ⟨0, _⟩ => show win9_2.index t (0 : Fin 1) * 128 + 1 * (y 0).val = (y 0).val; omega
  rw [h]

/-- An entry of the block of Z at point `t` is Z's entry at row `t · 8000 + p`. -/
theorem zblock9 (c : Dev nD) (t : Fin cfg9.N) (p : Fin 8000) (j : Fin 128) (r : Fin 80000) (hr : r.val = t.val * 8000 + p.val) :
    k3_pay3 (F := Ideal) (iblk9 V c 0 t) (iblk9 V c 1 t) (iblk9 V c 2 t) (ix2 p j)
      = zEntry9 (ain9_0 V c) (ain9_1 V c) (ain9_2 V c) r j :=
  z_entry9 (iblk9 V c 0 t) (iblk9 V c 1 t) (iblk9 V c 2 t) (ain9_0 V c) (ain9_1 V c) (ain9_2 V c) t.val
    (fun p k r hr => blk9_0 V c t p k r hr) (blk9_1 V c t) (blk9_2 V c t) p j r hr

/-! ## The first output: Z -/

theorem flushedZ9_eq (c : Dev nD) (t : Fin cfg9.N) :
    (dat9 V c).flushed 3 t = ((cfg9.win 3).blk t).view.read (Elt Ideal) (zArr9 (ain9_0 V c) (ain9_1 V c) (ain9_2 V c)) := by
  show (cfg9.win 3).cut (grid9.coords t) ((dat9 V c).after 3 t) = _
  rw [after9_3_eq]
  obtain ⟨-, -, -, -, -, e5, e6, -⟩ := idx_facts9 t
  funext j
  obtain ⟨p, q, rfl⟩ : ∃ (p : Fin 8000) (q : Fin 128), j = ix2 p q := ⟨j 0, j 1, eq_ix2 j⟩
  have hlt : t.val * 8000 + p.val < 80000 := by
    have hN : cfg9.N = 10 := N_9
    have := t.isLt; have := p.isLt; omega
  have hemb : ((cfg9.win 3).blk t).view.emb (ix2 p q) = (ix2 (⟨t.val * 8000 + p.val, hlt⟩ : Fin 80000) q : S80000x128.Idx) := by
    funext a; apply Fin.ext
    match a with
    | ⟨0, _⟩ => show win9_3.index t (0 : Fin 2) * 8000 + 1 * p.val = t.val * 8000 + p.val; omega
    | ⟨1, _⟩ => show win9_3.index t (1 : Fin 2) * 128 + 1 * q.val = q.val; omega
  show k3_pay3 (F := Ideal) (iblk9 V c 0 t) (iblk9 V c 1 t) (iblk9 V c 2 t) (ix2 p q)
    = zArr9 (ain9_0 V c) (ain9_1 V c) (ain9_2 V c) (((cfg9.win 3).blk t).view.emb (ix2 p q))
  rw [hemb, zArr9_apply]
  exact zblock9 V c t p q _ rfl

theorem mem_blkZ9 (t : Fin cfg9.N) (i : S80000x128.Idx) :
    i ∈ ((cfg9.win 3).blk t).view.set ↔ ∀ a : Fin 2, win9_3.index t a * S8000x128.size a ≤ (i a).val ∧ (i a).val < win9_3.index t a * S8000x128.size a + S8000x128.size a := by
  show i ∈ ((View.whole main_v117_0).slice (win9_3.rect t)).set ↔ _
  rw [View.set_slice_whole, Rect.mem_set_unit]
  exact Iff.rfl

theorem coverZ9 (i : S80000x128.Idx) : ∃ t : Fin cfg9.N, (cfg9.win 3).flush t = true ∧ i ∈ ((cfg9.win 3).blk t).view.set := by
  have hi0 : (i 0).val < 80000 := (i 0).isLt
  have hi1 : (i 1).val < 128 := (i 1).isLt
  have hN : cfg9.N = 10 := N_9
  refine ⟨⟨(i 0).val / 8000, by rw [hN]; omega⟩, flush9_3 _, ?_⟩
  rw [mem_blkZ9]
  obtain ⟨-, -, -, -, -, e5, e6, -⟩ := idx_facts9 ⟨(i 0).val / 8000, by rw [hN]; omega⟩
  intro a
  match a with
  | ⟨0, _⟩ => show win9_3.index _ (0 : Fin 2) * 8000 ≤ (i 0).val ∧ (i 0).val < win9_3.index _ (0 : Fin 2) * 8000 + 8000; rw [e5]; show (i 0).val / 8000 * 8000 ≤ (i 0).val ∧ (i 0).val < (i 0).val / 8000 * 8000 + 8000; omega
  | ⟨1, _⟩ => show win9_3.index _ (1 : Fin 2) * 128 ≤ (i 1).val ∧ (i 1).val < win9_3.index _ (1 : Fin 2) * 128 + 128; rw [e6]; omega

/-- THE FIRST OUTPUT ARRAY after the region. -/
theorem arrZ9 (c : Dev nD) : aoutZ9 V c = zArr9 (ain9_0 V c) (ain9_1 V c) (ain9_2 V c) :=
  (dat9 V c).arrAt_eq_of_cover 3 _ (fun t _ => flushedZ9_eq V c t) (coverZ9)

/-! ## The two one-row outputs: the block sums added up -/

/-- The sum over block `t`'s rows of column `j` of the block of Z is Z's block sum. -/
theorem bsum9 (c : Dev nD) (t : Fin cfg9.N) (j : Fin 128) :
    ∑ p : Fin 8000, k3_pay3 (F := Ideal) (iblk9 V c 0 t) (iblk9 V c 1 t) (iblk9 V c 2 t) (ix2 p j)
      = Cert.Bridge.blockSum (fun r => zEntry9 (ain9_0 V c) (ain9_1 V c) (ain9_2 V c) r j) t.val := by
  have ht : t.val < 10 := lt_of_lt_of_eq t.isLt N_9
  unfold Cert.Bridge.blockSum
  rw [dif_pos ht]
  exact Finset.sum_congr rfl fun p _ => zblock9 V c t p j (Cert.Lib.BlockSum.at_ (K := 10) (n := 8000) ⟨t.val, ht⟩ p) rfl
theorem bsq9 (c : Dev nD) (t : Fin cfg9.N) (j : Fin 128) :
    ∑ p : Fin 8000, k3_pay3 (F := Ideal) (iblk9 V c 0 t) (iblk9 V c 1 t) (iblk9 V c 2 t) (ix2 p j)
        * k3_pay3 (F := Ideal) (iblk9 V c 0 t) (iblk9 V c 1 t) (iblk9 V c 2 t) (ix2 p j)
      = Cert.Bridge.blockSum (fun r => zEntry9 (ain9_0 V c) (ain9_1 V c) (ain9_2 V c) r j * zEntry9 (ain9_0 V c) (ain9_1 V c) (ain9_2 V c) r j) t.val := by
  have ht : t.val < 10 := lt_of_lt_of_eq t.isLt N_9
  unfold Cert.Bridge.blockSum
  rw [dif_pos ht]
  exact Finset.sum_congr rfl fun p _ => by rw [zblock9 V c t p j (Cert.Lib.BlockSum.at_ (K := 10) (n := 8000) ⟨t.val, ht⟩ p) rfl]

/-- The kept rows after block `n`: the first `n + 1` block sums added up from zero. -/
theorem rowsS9_apply (c : Dev nD) (j : Fin 128) : ∀ (n : ℕ) (hn : n < cfg9.N),
    (rows9 V c n hn).1 (ix2 (0 : Fin 1) j)
      = Cert.Bridge.foldBlocks (Cert.Bridge.blockSum fun r => zEntry9 (ain9_0 V c) (ain9_1 V c) (ain9_2 V c) r j) (n + 1)
  | 0, hn => by
    show k3_pay4 (F := Ideal) _ _ _ (k3_pay1 (F := Ideal)) (ix2 (0 : Fin 1) j) = _
    rw [Cert.Bridge.k3_pay4_apply, Cert.Bridge.k3_pay1_eq, bsum9 V c ⟨0, hn⟩ j]
    rfl
  | n + 1, hn => by
    show k3_pay4 (F := Ideal) _ _ _ (rows9 V c n (Nat.lt_of_succ_lt hn)).1 (ix2 (0 : Fin 1) j) = _
    rw [Cert.Bridge.k3_pay4_apply, rowsS9_apply c j n (Nat.lt_of_succ_lt hn), bsum9 V c ⟨n + 1, hn⟩ j]
    rfl
theorem rowsQ9_apply (c : Dev nD) (j : Fin 128) : ∀ (n : ℕ) (hn : n < cfg9.N),
    (rows9 V c n hn).2 (ix2 (0 : Fin 1) j)
      = Cert.Bridge.foldBlocks (Cert.Bridge.blockSum fun r => zEntry9 (ain9_0 V c) (ain9_1 V c) (ain9_2 V c) r j * zEntry9 (ain9_0 V c) (ain9_1 V c) (ain9_2 V c) r j) (n + 1)
  | 0, hn => by
    show k3_pay5 (F := Ideal) _ _ _ (k3_pay2 (F := Ideal)) (ix2 (0 : Fin 1) j) = _
    rw [Cert.Bridge.k3_pay5_apply, Cert.Bridge.k3_pay2_eq, bsq9 V c ⟨0, hn⟩ j]
    rfl
  | n + 1, hn => by
    show k3_pay5 (F := Ideal) _ _ _ (rows9 V c n (Nat.lt_of_succ_lt hn)).2 (ix2 (0 : Fin 1) j) = _
    rw [Cert.Bridge.k3_pay5_apply, rowsQ9_apply c j n (Nat.lt_of_succ_lt hn), bsq9 V c ⟨n + 1, hn⟩ j]
    rfl

/-! ## The arrays of the two one-row outputs: written back once, after the last block -/

theorem flushedS9_eq (c : Dev nD) (t : Fin cfg9.N) (hf : (cfg9.win 4).flush t = true) :
    (dat9 V c).flushed 4 t = ((cfg9.win 4).blk t).view.read (Elt Ideal) (sArr9 (ain9_0 V c) (ain9_1 V c) (ain9_2 V c)) := by
  show (cfg9.win 4).cut (grid9.coords t) ((dat9 V c).after 4 t) = _
  rw [after9_4_eq]
  obtain ⟨-, -, -, -, -, -, -, e7, e8, e9, e10⟩ := idx_facts9 t
  have h9 : t.val = 9 := by
    have h := (flush9_4 t).mp hf; have := t.isLt; have hN : cfg9.N = 10 := N_9; omega
  funext y
  obtain ⟨u, q, rfl⟩ : ∃ (u : Fin 1) (q : Fin 128), y = ix2 u q := ⟨y 0, y 1, eq_ix2 y⟩
  obtain rfl : u = 0 := Subsingleton.elim _ _
  have hemb : ((cfg9.win 4).blk t).view.emb (ix2 (0 : Fin 1) q) = (ix2 (0 : Fin 1) q : S1x128.Idx) := by
    funext a; apply Fin.ext
    match a with
    | ⟨0, _⟩ => show win9_4.index t (0 : Fin 2) * 1 + 1 * 0 = 0; omega
    | ⟨1, _⟩ => show win9_4.index t (1 : Fin 2) * 128 + 1 * q.val = q.val; omega
  show (rows9 V c t.val t.isLt).1 (ix2 (0 : Fin 1) q)
    = sArr9 (ain9_0 V c) (ain9_1 V c) (ain9_2 V c) (((cfg9.win 4).blk t).view.emb (ix2 (0 : Fin 1) q))
  rw [hemb, rowsS9_apply V c q t.val t.isLt]
  show Cert.Bridge.foldBlocks _ (t.val + 1) = Cert.Bridge.foldBlocks _ 10
  rw [h9]

theorem mem_blkS9 (t : Fin cfg9.N) (i : S1x128.Idx) :
    i ∈ ((cfg9.win 4).blk t).view.set ↔ ∀ a : Fin 2, win9_4.index t a * S1x128.size a ≤ (i a).val ∧ (i a).val < win9_4.index t a * S1x128.size a + S1x128.size a := by
  show i ∈ ((View.whole main_v117_1).slice (win9_4.rect t)).set ↔ _
  rw [View.set_slice_whole, Rect.mem_set_unit]
  exact Iff.rfl

theorem coverS9 (i : S1x128.Idx) : ∃ t : Fin cfg9.N, (cfg9.win 4).flush t = true ∧ i ∈ ((cfg9.win 4).blk t).view.set := by
  have hi0 : (i 0).val < 1 := (i 0).isLt
  have hi1 : (i 1).val < 128 := (i 1).isLt
  have hN : cfg9.N = 10 := N_9
  refine ⟨⟨9, by rw [hN]; omega⟩, (flush9_4 _).mpr rfl, ?_⟩
  rw [mem_blkS9]
  obtain ⟨-, -, -, -, -, -, -, e7, e8, e9, e10⟩ := idx_facts9 ⟨9, by rw [hN]; omega⟩
  intro a
  match a with
  | ⟨0, _⟩ => show win9_4.index _ (0 : Fin 2) * 1 ≤ (i 0).val ∧ (i 0).val < win9_4.index _ (0 : Fin 2) * 1 + 1; omega
  | ⟨1, _⟩ => show win9_4.index _ (1 : Fin 2) * 128 ≤ (i 1).val ∧ (i 1).val < win9_4.index _ (1 : Fin 2) * 128 + 128; omega

theorem arrS9 (c : Dev nD) : aoutS9 V c = sArr9 (ain9_0 V c) (ain9_1 V c) (ain9_2 V c) :=
  (dat9 V c).arrAt_eq_of_cover 4 _ (fun t hf => flushedS9_eq V c t hf) (coverS9)

theorem flushedQ9_eq (c : Dev nD) (t : Fin cfg9.N) (hf : (cfg9.win 5).flush t = true) :
    (dat9 V c).flushed 5 t = ((cfg9.win 5).blk t).view.read (Elt Ideal) (qArr9 (ain9_0 V c) (ain9_1 V c) (ain9_2 V c)) := by
  show (cfg9.win 5).cut (grid9.coords t) ((dat9 V c).after 5 t) = _
  rw [after9_5_eq]
  obtain ⟨-, -, -, -, -, -, -, e7, e8, e9, e10⟩ := idx_facts9 t
  have h9 : t.val = 9 := by
    have h := (flush9_5 t).mp hf; have := t.isLt; have hN : cfg9.N = 10 := N_9; omega
  funext y
  obtain ⟨u, q, rfl⟩ : ∃ (u : Fin 1) (q : Fin 128), y = ix2 u q := ⟨y 0, y 1, eq_ix2 y⟩
  obtain rfl : u = 0 := Subsingleton.elim _ _
  have hemb : ((cfg9.win 5).blk t).view.emb (ix2 (0 : Fin 1) q) = (ix2 (0 : Fin 1) q : S1x128.Idx) := by
    funext a; apply Fin.ext
    match a with
    | ⟨0, _⟩ => show win9_5.index t (0 : Fin 2) * 1 + 1 * 0 = 0; omega
    | ⟨1, _⟩ => show win9_5.index t (1 : Fin 2) * 128 + 1 * q.val = q.val; omega
  show (rows9 V c t.val t.isLt).2 (ix2 (0 : Fin 1) q)
    = qArr9 (ain9_0 V c) (ain9_1 V c) (ain9_2 V c) (((cfg9.win 5).blk t).view.emb (ix2 (0 : Fin 1) q))
  rw [hemb, rowsQ9_apply V c q t.val t.isLt]
  show Cert.Bridge.foldBlocks _ (t.val + 1) = Cert.Bridge.foldBlocks _ 10
  rw [h9]

theorem mem_blkQ9 (t : Fin cfg9.N) (i : S1x128.Idx) :
    i ∈ ((cfg9.win 5).blk t).view.set ↔ ∀ a : Fin 2, win9_5.index t a * S1x128.size a ≤ (i a).val ∧ (i a).val < win9_5.index t a * S1x128.size a + S1x128.size a := by
  show i ∈ ((View.whole main_v117_2).slice (win9_5.rect t)).set ↔ _
  rw [View.set_slice_whole, Rect.mem_set_unit]
  exact Iff.rfl

theorem coverQ9 (i : S1x128.Idx) : ∃ t : Fin cfg9.N, (cfg9.win 5).flush t = true ∧ i ∈ ((cfg9.win 5).blk t).view.set := by
  have hi0 : (i 0).val < 1 := (i 0).isLt
  have hi1 : (i 1).val < 128 := (i 1).isLt
  have hN : cfg9.N = 10 := N_9
  refine ⟨⟨9, by rw [hN]; omega⟩, (flush9_5 _).mpr rfl, ?_⟩
  rw [mem_blkQ9]
  obtain ⟨-, -, -, -, -, -, -, e7, e8, e9, e10⟩ := idx_facts9 ⟨9, by rw [hN]; omega⟩
  intro a
  match a with
  | ⟨0, _⟩ => show win9_5.index _ (0 : Fin 2) * 1 ≤ (i 0).val ∧ (i 0).val < win9_5.index _ (0 : Fin 2) * 1 + 1; omega
  | ⟨1, _⟩ => show win9_5.index _ (1 : Fin 2) * 128 ≤ (i 1).val ∧ (i 1).val < win9_5.index _ (1 : Fin 2) * 128 + 128; omega

theorem arrQ9 (c : Dev nD) : aoutQ9 V c = qArr9 (ain9_0 V c) (ain9_1 V c) (ain9_2 V c) :=
  (dat9 V c).arrAt_eq_of_cover 5 _ (fun t hf => flushedQ9_eq V c t hf) (coverQ9)

/-- Read at a column: the column sum of Z, and of its squares. -/
theorem arrS9_apply (c : Dev nD) (q : Fin 128) :
    aoutS9 V c (ix2 (0 : Fin 1) q) = Cert.Bridge.colSum (fun r j => zEntry9 (ain9_0 V c) (ain9_1 V c) (ain9_2 V c) r j) q := by
  rw [arrS9]; exact Cert.Bridge.foldBlocks_colSum (fun r j => zEntry9 (ain9_0 V c) (ain9_1 V c) (ain9_2 V c) r j) q
theorem arrQ9_apply (c : Dev nD) (q : Fin 128) :
    aoutQ9 V c (ix2 (0 : Fin 1) q) = Cert.Bridge.colSq (fun r j => zEntry9 (ain9_0 V c) (ain9_1 V c) (ain9_2 V c) r j) q := by
  rw [arrQ9]; exact Cert.Bridge.foldBlocks_colSq (fun r j => zEntry9 (ain9_0 V c) (ain9_1 V c) (ain9_2 V c) r j) q
theorem arrZ9_apply (c : Dev nD) (r : Fin 80000) (j : Fin 128) :
    aoutZ9 V c (ix2 r j) = zEntry9 (ain9_0 V c) (ain9_1 V c) (ain9_2 V c) r j := by
  rw [arrZ9]; rfl

end Cert.KernelIdeal.Reg

end
-- ==== Proof.KI.ChainL2a.lean ====
/-
  Layer 2 of the kernel program along the fold (KI/RunFold.lean), item by item from boundary 14 to boundary 19: what
  each item hands on, as the named function of what it was handed — a host stretch by KI/HostL2.lean, a region by the
  array its write-backs fold to (its proof data being the region's own, a hypothesis here and `rfl` at the run's
  data) — with the arguments, the index columns and the edge features read back through KI/ChainArgs.lean.
-/
import proofs.«178590_j59433757442359_2_alg».proof.Proof.KI.ChainDefs
import proofs.«178590_j59433757442359_2_alg».proof.Proof.KI.ChainArgs
import proofs.«178590_j59433757442359_2_alg».proof.Proof.KI.HostL2
import proofs.«178590_j59433757442359_2_alg».proof.Proof.KI.Val8
import proofs.«178590_j59433757442359_2_alg».proof.Proof.KI.Val9

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Stretch 8: the rows of the node features at the edges' sources. -/
theorem L2_gather : W15 D m c (Proc.devRef .tc main_v102) = gatherRows (F := Ideal) (W14 D m c (Proc.devRef .tc main_v95)) (srcCol (m ((c : Thread nD τ).loc main_arg1))) := by
  have h := hostOps8_main_v102 (W14 D m c)
  rw [W14_v3 D m c] at h
  exact h

/-- Region 8: max (gathered row + edge features, 0). -/
theorem L2_msg (h8 : D.r8.dat = dat8) : W16 D m c (Proc.devRef .tc main_v103) = msgArr8 (W15 D m c (Proc.devRef .tc main_v102)) (W15 D m c (Proc.devRef .tc main_v1)) :=
  (W16_arr D m c 2 : W16 D m c (Proc.devRef .tc main_v103) = _).trans (by rw [h8]; exact arr8 (V15 D m) c)

/-- Stretch 9: the scatter-add onto zeros, (1 + eps) · h + agg, and the first linear map's parameters. -/
theorem L2_x : W17 D m c (Proc.devRef .tc main_v112) = selfPlusAgg (F := Ideal) (W16 D m c (Proc.devRef .tc main_v95)) (scatterSum (F := Ideal) (W16 D m c (Proc.devRef .tc main_v5)) (W16 D m c (Proc.devRef .tc main_v103))) (eps_2 (W16 D m c (Proc.devRef .tc main_arg13))) :=
  hostOps9_main_v112 (W16 D m c)
theorem L2_w1 : W17 D m c (Proc.devRef .tc main_v114) = W1_2 (F := Ideal) (m ((c : Thread nD τ).loc main_arg7)) := by
  have h := hostOps9_main_v114 (W16 D m c)
  rw [W16_arg7 D m c] at h
  exact h
theorem L2_b1 : W17 D m c (Proc.devRef .tc main_v116) = b1_2 (F := Ideal) (m ((c : Thread nD τ).loc main_arg8)) := by
  have h := hostOps9_main_v116 (W16 D m c)
  rw [W16_arg8 D m c] at h
  exact h

theorem L2_h1 : W16 D m c (Proc.devRef .tc main_v95) = W14 D m c (Proc.devRef .tc main_v95) :=
  (W16_of_ne D m c main_v95 (by decide)).trans (W15_of D m c main_v95 (by decide))

theorem L2_Z (h9 : D.r9.dat = dat9) : W18 D m c (Proc.devRef .tc main_v117_0) = zArr9 (W17 D m c (Proc.devRef .tc main_v112)) (W17 D m c (Proc.devRef .tc main_v114)) (W17 D m c (Proc.devRef .tc main_v116)) :=
  (W18_arr D m c 3 : W18 D m c (Proc.devRef .tc main_v117_0) = _).trans (by rw [h9]; exact arrZ9 (V17 D m) c)
theorem L2_S (h9 : D.r9.dat = dat9) : W18 D m c (Proc.devRef .tc main_v117_1) = sArr9 (W17 D m c (Proc.devRef .tc main_v112)) (W17 D m c (Proc.devRef .tc main_v114)) (W17 D m c (Proc.devRef .tc main_v116)) :=
  (W18_arr D m c 4 : W18 D m c (Proc.devRef .tc main_v117_1) = _).trans (by rw [h9]; exact arrS9 (V17 D m) c)
theorem L2_Q (h9 : D.r9.dat = dat9) : W18 D m c (Proc.devRef .tc main_v117_2) = qArr9 (W17 D m c (Proc.devRef .tc main_v112)) (W17 D m c (Proc.devRef .tc main_v114)) (W17 D m c (Proc.devRef .tc main_v116)) :=
  (W18_arr D m c 5 : W18 D m c (Proc.devRef .tc main_v117_2) = _).trans (by rw [h9]; exact arrQ9 (V17 D m) c)

/-- Stretch 10: the mean and one-pass variance from the accumulated sums, and the remaining parameter slices. -/
theorem L2_mean : W19 D m c (Proc.devRef .tc main_v119) = meanOfSum (F := Ideal) (W18 D m c (Proc.devRef .tc main_v117_1)) := hostOps10_main_v119 (W18 D m c)
theorem L2_var : W19 D m c (Proc.devRef .tc main_v123) = varOnePass (F := Ideal) (W18 D m c (Proc.devRef .tc main_v117_1)) (W18 D m c (Proc.devRef .tc main_v117_2)) := hostOps10_main_v123 (W18 D m c)
theorem L2_gm : W19 D m c (Proc.devRef .tc main_v126) = asRow128 (F := Ideal) (g1_2 (F := Ideal) (m ((c : Thread nD τ).loc main_arg9))) := by
  have h := hostOps10_main_v126 (W18 D m c)
  rw [W18_arg9 D m c] at h
  exact h
theorem L2_bt : W19 D m c (Proc.devRef .tc main_v129) = asRow128 (F := Ideal) (bt1_2 (F := Ideal) (m ((c : Thread nD τ).loc main_arg10))) := by
  have h := hostOps10_main_v129 (W18 D m c)
  rw [W18_arg10 D m c] at h
  exact h
theorem L2_w2 : W19 D m c (Proc.devRef .tc main_v131) = W2_2 (F := Ideal) (m ((c : Thread nD τ).loc main_arg11)) := by
  have h := hostOps10_main_v131 (W18 D m c)
  rw [W18_arg11 D m c] at h
  exact h
theorem L2_b2 : W19 D m c (Proc.devRef .tc main_v133) = b2_2 (F := Ideal) (m ((c : Thread nD τ).loc main_arg12)) := by
  have h := hostOps10_main_v133 (W18 D m c)
  rw [W18_arg12 D m c] at h
  exact h
theorem L2_lg : W19 D m c (Proc.devRef .tc main_v136) = asRow64 (F := Ideal) (lng_2 (F := Ideal) (m ((c : Thread nD τ).loc main_arg14))) := by
  have h := hostOps10_main_v136 (W18 D m c)
  rw [W18_arg14 D m c] at h
  exact h
theorem L2_lb : W19 D m c (Proc.devRef .tc main_v139) = asRow64 (F := Ideal) (lnb_2 (F := Ideal) (m ((c : Thread nD τ).loc main_arg15))) := by
  have h := hostOps10_main_v139 (W18 D m c)
  rw [W18_arg15 D m c] at h
  exact h
theorem L2_Zkeep : W19 D m c (Proc.devRef .tc main_v117_0) = W18 D m c (Proc.devRef .tc main_v117_0) := (W19_of D m c main_v117_0 (by decide))

end Cert.KernelIdeal.Chain

end
-- ==== Proof.KI.Val10.lean ====
import proofs.«178590_j59433757442359_2_alg».proof.Proof.KI.Reg10
import proofs.«178590_j59433757442359_2_alg».proof.Proof.Math.Gin2
import proofs.«178590_j59433757442359_2_alg».proof.Proof.KI.ValGin
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 10, from blocks to the array: after the last grid point the output array is the second half of a GIN
    layer (`ginArrRelu`) of the nine arrays the region was entered with. -/

theorem zero2_10 : (![0, 0] : Fin 2 → Nat) = fun _ => 0 := funext fun a => by fin_cases a <;> rfl
theorem zero1_10 : (![0] : Fin 1 → Nat) = fun _ => 0 := funext fun a => by fin_cases a; rfl

/-- The operand arrays as the region finds them, and the output array after its last point, as functions on
    their index types. -/
abbrev ain10_0 (c : Dev nD) : S80000x128.Idx → EReal := V c (Pipeline.arrRef spec10 0)
abbrev ain10_1 (c : Dev nD) : S1x128.Idx → EReal := V c (Pipeline.arrRef spec10 1)
abbrev ain10_2 (c : Dev nD) : S1x128.Idx → EReal := V c (Pipeline.arrRef spec10 2)
abbrev ain10_3 (c : Dev nD) : S1x128.Idx → EReal := V c (Pipeline.arrRef spec10 3)
abbrev ain10_4 (c : Dev nD) : S1x128.Idx → EReal := V c (Pipeline.arrRef spec10 4)
abbrev ain10_5 (c : Dev nD) : S128x64.Idx → EReal := V c (Pipeline.arrRef spec10 5)
abbrev ain10_6 (c : Dev nD) : S64.Idx → EReal := V c (Pipeline.arrRef spec10 6)
abbrev ain10_7 (c : Dev nD) : S1x64.Idx → EReal := V c (Pipeline.arrRef spec10 7)
abbrev ain10_8 (c : Dev nD) : S1x64.Idx → EReal := V c (Pipeline.arrRef spec10 8)
abbrev aout10 (c : Dev nD) : S80000x64.Idx → EReal := (dat10 V c).arrAt 9 cfg10.N

/-- The index maps over the grid: the hidden rows' block and the output block move together, block `t` at point
    `t`; the eight resident windows' block index is constant. -/
theorem idx10_0 : ∀ t : Fin cfg10.N, win10_0.index t (0 : Fin 2) = win10_9.index t (0 : Fin 2) ∧ win10_0.index t (1 : Fin 2) = 0
    ∧ win10_9.index t (0 : Fin 2) = t.val ∧ win10_9.index t (1 : Fin 2) = 0 :=
  (by decide +kernel : ∀ t : Fin grid10.N, _)
theorem idx10_1 : ∀ (t : Fin cfg10.N) (a : Fin 2), win10_1.index t a = 0 :=
  (by decide +kernel : ∀ (t : Fin grid10.N) (a : Fin 2), win10_1.index t a = 0)
theorem idx10_2 : ∀ (t : Fin cfg10.N) (a : Fin 2), win10_2.index t a = 0 :=
  (by decide +kernel : ∀ (t : Fin grid10.N) (a : Fin 2), win10_2.index t a = 0)
theorem idx10_3 : ∀ (t : Fin cfg10.N) (a : Fin 2), win10_3.index t a = 0 :=
  (by decide +kernel : ∀ (t : Fin grid10.N) (a : Fin 2), win10_3.index t a = 0)
theorem idx10_4 : ∀ (t : Fin cfg10.N) (a : Fin 2), win10_4.index t a = 0 :=
  (by decide +kernel : ∀ (t : Fin grid10.N) (a : Fin 2), win10_4.index t a = 0)
theorem idx10_5 : ∀ (t : Fin cfg10.N) (a : Fin 2), win10_5.index t a = 0 :=
  (by decide +kernel : ∀ (t : Fin grid10.N) (a : Fin 2), win10_5.index t a = 0)
theorem idx10_6 : ∀ (t : Fin cfg10.N) (a : Fin 1), win10_6.index t a = 0 :=
  (by decide +kernel : ∀ (t : Fin grid10.N) (a : Fin 1), win10_6.index t a = 0)
theorem idx10_7 : ∀ (t : Fin cfg10.N) (a : Fin 2), win10_7.index t a = 0 :=
  (by decide +kernel : ∀ (t : Fin grid10.N) (a : Fin 2), win10_7.index t a = 0)
theorem idx10_8 : ∀ (t : Fin cfg10.N) (a : Fin 2), win10_8.index t a = 0 :=
  (by decide +kernel : ∀ (t : Fin grid10.N) (a : Fin 2), win10_8.index t a = 0)

/-- Resident window 1's block is its whole array at every point. -/
theorem blk10_1 (c : Dev nD) (t : Fin cfg10.N) : (iblk10 V c 1 t : Vec Ideal S1x128 .f32) = V c (Pipeline.arrRef spec10 1) := by
  funext y
  show V c (Pipeline.arrRef spec10 1) (((cfg10.win 1).blk t).view.emb y) = V c (Pipeline.arrRef spec10 1) y
  have h : ((cfg10.win 1).blk t).view.emb y = y := by
    funext a; apply Fin.ext
    match a with
    | ⟨0, _⟩ => show win10_1.index t (0 : Fin 2) * 1 + 1 * (y 0).val = (y 0).val; rw [idx10_1 t 0]; omega
    | ⟨1, _⟩ => show win10_1.index t (1 : Fin 2) * 128 + 1 * (y 1).val = (y 1).val; rw [idx10_1 t 1]; omega
  rw [h]

/-- Resident window 2's block is its whole array at every point. -/
theorem blk10_2 (c : Dev nD) (t : Fin cfg10.N) : (iblk10 V c 2 t : Vec Ideal S1x128 .f32) = V c (Pipeline.arrRef spec10 2) := by
  funext y
  show V c (Pipeline.arrRef spec10 2) (((cfg10.win 2).blk t).view.emb y) = V c (Pipeline.arrRef spec10 2) y
  have h : ((cfg10.win 2).blk t).view.emb y = y := by
    funext a; apply Fin.ext
    match a with
    | ⟨0, _⟩ => show win10_2.index t (0 : Fin 2) * 1 + 1 * (y 0).val = (y 0).val; rw [idx10_2 t 0]; omega
    | ⟨1, _⟩ => show win10_2.index t (1 : Fin 2) * 128 + 1 * (y 1).val = (y 1).val; rw [idx10_2 t 1]; omega
  rw [h]

/-- Resident window 3's block is its whole array at every point. -/
theorem blk10_3 (c : Dev nD) (t : Fin cfg10.N) : (iblk10 V c 3 t : Vec Ideal S1x128 .f32) = V c (Pipeline.arrRef spec10 3) := by
  funext y
  show V c (Pipeline.arrRef spec10 3) (((cfg10.win 3).blk t).view.emb y) = V c (Pipeline.arrRef spec10 3) y
  have h : ((cfg10.win 3).blk t).view.emb y = y := by
    funext a; apply Fin.ext
    match a with
    | ⟨0, _⟩ => show win10_3.index t (0 : Fin 2) * 1 + 1 * (y 0).val = (y 0).val; rw [idx10_3 t 0]; omega
    | ⟨1, _⟩ => show win10_3.index t (1 : Fin 2) * 128 + 1 * (y 1).val = (y 1).val; rw [idx10_3 t 1]; omega
  rw [h]

/-- Resident window 4's block is its whole array at every point. -/
theorem blk10_4 (c : Dev nD) (t : Fin cfg10.N) : (iblk10 V c 4 t : Vec Ideal S1x128 .f32) = V c (Pipeline.arrRef spec10 4) := by
  funext y
  show V c (Pipeline.arrRef spec10 4) (((cfg10.win 4).blk t).view.emb y) = V c (Pipeline.arrRef spec10 4) y
  have h : ((cfg10.win 4).blk t).view.emb y = y := by
    funext a; apply Fin.ext
    match a with
    | ⟨0, _⟩ => show win10_4.index t (0 : Fin 2) * 1 + 1 * (y 0).val = (y 0).val; rw [idx10_4 t 0]; omega
    | ⟨1, _⟩ => show win10_4.index t (1 : Fin 2) * 128 + 1 * (y 1).val = (y 1).val; rw [idx10_4 t 1]; omega
  rw [h]

/-- Resident window 5's block is its whole array at every point. -/
theorem blk10_5 (c : Dev nD) (t : Fin cfg10.N) : (iblk10 V c 5 t : Vec Ideal S128x64 .f32) = V c (Pipeline.arrRef spec10 5) := by
  funext y
  show V c (Pipeline.arrRef spec10 5) (((cfg10.win 5).blk t).view.emb y) = V c (Pipeline.arrRef spec10 5) y
  have h : ((cfg10.win 5).blk t).view.emb y = y := by
    funext a; apply Fin.ext
    match a with
    | ⟨0, _⟩ => show win10_5.index t (0 : Fin 2) * 128 + 1 * (y 0).val = (y 0).val; rw [idx10_5 t 0]; omega
    | ⟨1, _⟩ => show win10_5.index t (1 : Fin 2) * 64 + 1 * (y 1).val = (y 1).val; rw [idx10_5 t 1]; omega
  rw [h]

/-- Resident window 6's block is its whole array at every point. -/
theorem blk10_6 (c : Dev nD) (t : Fin cfg10.N) : (iblk10 V c 6 t : Vec Ideal S64 .f32) = V c (Pipeline.arrRef spec10 6) := by
  funext y
  show V c (Pipeline.arrRef spec10 6) (((cfg10.win 6).blk t).view.emb y) = V c (Pipeline.arrRef spec10 6) y
  have h : ((cfg10.win 6).blk t).view.emb y = y := by
    funext a; apply Fin.ext
    match a with
    | ⟨0, _⟩ => show win10_6.index t (0 : Fin 1) * 64 + 1 * (y 0).val = (y 0).val; rw [idx10_6 t 0]; omega
  rw [h]

/-- Resident window 7's block is its whole array at every point. -/
theorem blk10_7 (c : Dev nD) (t : Fin cfg10.N) : (iblk10 V c 7 t : Vec Ideal S1x64 .f32) = V c (Pipeline.arrRef spec10 7) := by
  funext y
  show V c (Pipeline.arrRef spec10 7) (((cfg10.win 7).blk t).view.emb y) = V c (Pipeline.arrRef spec10 7) y
  have h : ((cfg10.win 7).blk t).view.emb y = y := by
    funext a; apply Fin.ext
    match a with
    | ⟨0, _⟩ => show win10_7.index t (0 : Fin 2) * 1 + 1 * (y 0).val = (y 0).val; rw [idx10_7 t 0]; omega
    | ⟨1, _⟩ => show win10_7.index t (1 : Fin 2) * 64 + 1 * (y 1).val = (y 1).val; rw [idx10_7 t 1]; omega
  rw [h]

/-- Resident window 8's block is its whole array at every point. -/
theorem blk10_8 (c : Dev nD) (t : Fin cfg10.N) : (iblk10 V c 8 t : Vec Ideal S1x64 .f32) = V c (Pipeline.arrRef spec10 8) := by
  funext y
  show V c (Pipeline.arrRef spec10 8) (((cfg10.win 8).blk t).view.emb y) = V c (Pipeline.arrRef spec10 8) y
  have h : ((cfg10.win 8).blk t).view.emb y = y := by
    funext a; apply Fin.ext
    match a with
    | ⟨0, _⟩ => show win10_8.index t (0 : Fin 2) * 1 + 1 * (y 0).val = (y 0).val; rw [idx10_8 t 0]; omega
    | ⟨1, _⟩ => show win10_8.index t (1 : Fin 2) * 64 + 1 * (y 1).val = (y 1).val; rw [idx10_8 t 1]; omega
  rw [h]

set_option maxHeartbeats 1000000 in
/-- What point `t` writes back is block `t` of that array. -/
theorem flushed10_eq (c : Dev nD) (t : Fin cfg10.N) :
    (dat10 V c).flushed 9 t = ((cfg10.win 9).blk t).view.read (Elt Ideal) (ginArrRelu (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) (V c (Pipeline.arrRef spec10 7)) (V c (Pipeline.arrRef spec10 8))) := by
  show (cfg10.win 9).cut (grid10.coords t) ((dat10 V c).after 9 t) = _
  rw [after10_9]
  unfold out10_9
  rw [View.canon_unit_zero zero2_10]
  simp only [View.ld_unit_zero (S := S8000x128) zero2_10, View.ld_unit_zero (S := S1x128) zero2_10, View.ld_unit_zero (S := S128x64) zero2_10,
    View.ld_unit_zero (S := S64) zero1_10, View.ld_unit_zero (S := S1x64) zero2_10]
  rw [Cert.Bridge.k10_pay1_eq, Cert.Bridge.k10_pay2_eq, Cert.Bridge.k10_pay3_eq]
  obtain ⟨e0, e1, e2, e3⟩ := idx10_0 t
  rw [blk10_1 V c t, blk10_2 V c t, blk10_3 V c t, blk10_4 V c t, blk10_5 V c t, blk10_6 V c t, blk10_7 V c t, blk10_8 V c t]
  funext j
  refine gin_entry_relu (iblk10 V c 0 t) (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6)) (V c (Pipeline.arrRef spec10 7)) (V c (Pipeline.arrRef spec10 8)) (win10_9.index t (0 : Fin 2)) ?_ j (((cfg10.win 9).blk t).view.emb j) ?_ ?_
  · intro p k r hr
    show V c (Pipeline.arrRef spec10 0) (((cfg10.win 0).blk t).view.emb (ix2 p k)) = V c (Pipeline.arrRef spec10 0) (ix2 r k)
    have h : ((cfg10.win 0).blk t).view.emb (ix2 p k) = (ix2 r k : S80000x128.Idx) := by
      funext a; apply Fin.ext
      match a with
      | ⟨0, _⟩ => show win10_0.index t (0 : Fin 2) * 8000 + 1 * p.val = r.val; omega
      | ⟨1, _⟩ => show win10_0.index t (1 : Fin 2) * 128 + 1 * k.val = k.val; omega
    rw [h]
  · show win10_9.index t (0 : Fin 2) * 8000 + 1 * (j 0).val = win10_9.index t (0 : Fin 2) * 8000 + (j 0).val; omega
  · show win10_9.index t (1 : Fin 2) * 64 + 1 * (j 1).val = (j 1).val; omega

/-- An index of the array is in point `t`'s block iff each coordinate is in the block's range on its axis. -/
theorem mem_blk10 (t : Fin cfg10.N) (i : S80000x64.Idx) :
    i ∈ ((cfg10.win 9).blk t).view.set ↔ ∀ a : Fin 2, win10_9.index t a * S8000x64.size a ≤ (i a).val ∧ (i a).val < win10_9.index t a * S8000x64.size a + S8000x64.size a := by
  show i ∈ ((View.whole main_v140).slice (win10_9.rect t)).set ↔ _
  rw [View.set_slice_whole, Rect.mem_set_unit]
  exact Iff.rfl

/-- Every row of the array is in some point's block: row `r` in block `r / 8000`. -/
theorem cover10 (i : S80000x64.Idx) : ∃ t : Fin cfg10.N, (cfg10.win 9).flush t = true ∧ i ∈ ((cfg10.win 9).blk t).view.set := by
  have hi0 : (i 0).val < 80000 := (i 0).isLt
  have hi1 : (i 1).val < 64 := (i 1).isLt
  have hN : cfg10.N = 10 := N_10
  refine ⟨⟨(i 0).val / 8000, by rw [hN]; omega⟩, flush10_9 _, ?_⟩
  rw [mem_blk10]
  obtain ⟨-, -, e2, e3⟩ := idx10_0 ⟨(i 0).val / 8000, by rw [hN]; omega⟩
  intro a
  match a with
  | ⟨0, _⟩ => show win10_9.index _ (0 : Fin 2) * 8000 ≤ (i 0).val ∧ (i 0).val < win10_9.index _ (0 : Fin 2) * 8000 + 8000; rw [e2]; show (i 0).val / 8000 * 8000 ≤ (i 0).val ∧ (i 0).val < (i 0).val / 8000 * 8000 + 8000; omega
  | ⟨1, _⟩ => show win10_9.index _ (1 : Fin 2) * 64 ≤ (i 1).val ∧ (i 1).val < win10_9.index _ (1 : Fin 2) * 64 + 64; rw [e3]; omega

/-- THE ARRAY after the region: the layer's second half of the arrays it was entered with. -/
theorem arr10 (c : Dev nD) : aout10 V c = ginArrRelu (ain10_0 V c) (ain10_1 V c) (ain10_2 V c) (ain10_3 V c) (ain10_4 V c) (ain10_5 V c) (ain10_6 V c) (ain10_7 V c) (ain10_8 V c) :=
  (dat10 V c).arrAt_eq_of_cover 9 _ (fun t _ => flushed10_eq V c t) (cover10)

/-- The same, read at an entry. -/
theorem arr10_apply (c : Dev nD) (r : Fin 80000) (q : Fin 64) :
    aout10 V c (ix2 r q) = max (ginPre (ain10_0 V c) (ain10_1 V c) (ain10_2 V c) (ain10_3 V c) (ain10_4 V c) (ain10_5 V c) (ain10_6 V c) (ain10_7 V c) (ain10_8 V c) r q) 0 := by
  rw [arr10]; rfl

end Cert.KernelIdeal.Reg
-- ==== Proof.KI.ChainL2.lean ====
/-
  Layer 2 of the kernel program along the fold, assembled: the last region's array (KI/Val10.lean) of the nine arrays
  KI/ChainL2a.lean computes, which is the layer function `kLayer` (KI/ChainDefs.lean) by definition.
-/
import proofs.«178590_j59433757442359_2_alg».proof.Proof.KI.ChainL2a
import proofs.«178590_j59433757442359_2_alg».proof.Proof.KI.Val10

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Region 10: the layer's second half of its nine operand arrays. -/
theorem L2_out (h10 : D.r10.dat = dat10) : W20 D m c (Proc.devRef .tc main_v140) = ginArrRelu (W19 D m c (Proc.devRef .tc main_v117_0)) (W19 D m c (Proc.devRef .tc main_v119)) (W19 D m c (Proc.devRef .tc main_v123)) (W19 D m c (Proc.devRef .tc main_v126)) (W19 D m c (Proc.devRef .tc main_v129)) (W19 D m c (Proc.devRef .tc main_v131)) (W19 D m c (Proc.devRef .tc main_v133)) (W19 D m c (Proc.devRef .tc main_v136)) (W19 D m c (Proc.devRef .tc main_v139)) :=
  (W20_arr D m c 9 : W20 D m c (Proc.devRef .tc main_v140) = _).trans (by rw [h10]; exact arr10 (V19 D m) c)

/-- Layer 2 along the fold: the node features after it are the layer function of the node features before it, the edge
    features, the index columns and the layer's parameter slices. -/
theorem layer2 (h8 : D.r8.dat = dat8) (h9 : D.r9.dat = dat9) (h10 : D.r10.dat = dat10) :
    W20 D m c (Proc.devRef .tc main_v140) = kLayer (W14 D m c (Proc.devRef .tc main_v95)) (W2 D m c (Proc.devRef .tc main_v1)) (srcCol (m ((c : Thread nD τ).loc main_arg1))) (dstCol (m ((c : Thread nD τ).loc main_arg1)))
      (eps_2 (F := Ideal) (m ((c : Thread nD τ).loc main_arg13))) (W1_2 (F := Ideal) (m ((c : Thread nD τ).loc main_arg7))) (b1_2 (F := Ideal) (m ((c : Thread nD τ).loc main_arg8))) (g1_2 (F := Ideal) (m ((c : Thread nD τ).loc main_arg9))) (bt1_2 (F := Ideal) (m ((c : Thread nD τ).loc main_arg10)))
      (W2_2 (F := Ideal) (m ((c : Thread nD τ).loc main_arg11))) (b2_2 (F := Ideal) (m ((c : Thread nD τ).loc main_arg12))) (lng_2 (F := Ideal) (m ((c : Thread nD τ).loc main_arg14))) (lnb_2 (F := Ideal) (m ((c : Thread nD τ).loc main_arg15))) := by
  rw [L2_out D m c h10, L2_Zkeep D m c, L2_Z D m c h9, L2_mean D m c, L2_var D m c, L2_S D m c h9, L2_Q D m c h9,
    L2_gm D m c, L2_bt D m c, L2_w2 D m c, L2_b2 D m c, L2_lg D m c, L2_lb D m c, L2_x D m c, L2_w1 D m c, L2_b1 D m c,
    L2_h1 D m c, W16_v5 D m c, W16_arg13 D m c, L2_msg D m c h8, L2_gather D m c, W15_v1 D m c]
  rfl

end Cert.KernelIdeal.Chain

end
-- ==== Proof.KI.HostL3.lean ====
/-
  Layer 3's three host stretches of the kernel program (`hostOps11`, `hostOps12`, `hostOps13`), read from ANY contents `W` of
  the device's buffers: each buffer a stretch hands on — to a later region's window or a later stretch — holds, after the
  stretch, the named function of the contents `W` has at the stretch's inputs. The names are the reference function's
  own pieces (Proof/RefRunPieces.lean) wherever the operations are the same ones; `meanOfSum`, `varOnePass`, `asRow128`,
  `asRow64` (KI/HostDefs.lean) where the kernel program computes from sums accumulated in a region.
-/
import proofs.«178590_j59433757442359_2_alg».proof.Proof.Gen.KernelIdeal.Launch
import proofs.«178590_j59433757442359_2_alg».proof.Proof.KI.HostDefs

noncomputable section

namespace Cert.KernelIdeal.HostSide

open Cert.KernelIdeal Cert.KernelIdeal.Gen Idealize.ShloMosaic Idealize.ShloMosaic.TcCoe Idealize.SL.Sem Idealize.ShloMosaic.StableHlo
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable {F : FTy → Type} [FloatOps F]

set_option maxRecDepth 8192 in
set_option maxHeartbeats 900000 in
theorem hostOps11_main_v147 (W : Valuation τ sig (Elt F)) :
    after hostOps11 W (Proc.devRef .tc main_v147) = gatherRows (W (Proc.devRef .tc main_v140)) (W (Proc.devRef .tc main_v3)) := by
  simp only [hostOps11]
  after_results_simp <;> rfl

set_option maxRecDepth 8192 in
set_option maxHeartbeats 1500000 in
theorem hostOps12_main_v157 (W : Valuation τ sig (Elt F)) :
    after hostOps12 W (Proc.devRef .tc main_v157) = selfPlusAgg (W (Proc.devRef .tc main_v140)) (scatterSum (W (Proc.devRef .tc main_v5)) (W (Proc.devRef .tc main_v148))) (eps_3 (W (Proc.devRef .tc main_arg13))) := by
  simp only [hostOps12]
  after_results_simp <;> rfl

set_option maxRecDepth 8192 in
set_option maxHeartbeats 1500000 in
theorem hostOps12_main_v159 (W : Valuation τ sig (Elt F)) :
    after hostOps12 W (Proc.devRef .tc main_v159) = W1_3 (W (Proc.devRef .tc main_arg7)) := by
  simp only [hostOps12]
  after_results_simp <;> rfl

set_option maxRecDepth 8192 in
set_option maxHeartbeats 1500000 in
theorem hostOps12_main_v161 (W : Valuation τ sig (Elt F)) :
    after hostOps12 W (Proc.devRef .tc main_v161) = b1_3 (W (Proc.devRef .tc main_arg8)) := by
  simp only [hostOps12]
  after_results_simp <;> rfl

set_option maxRecDepth 8192 in
set_option maxHeartbeats 2400000 in
theorem hostOps13_main_v164 (W : Valuation τ sig (Elt F)) :
    after hostOps13 W (Proc.devRef .tc main_v164) = meanOfSum (W (Proc.devRef .tc main_v162_1)) := by
  simp only [hostOps13]
  after_results_simp <;> rfl

set_option maxRecDepth 8192 in
set_option maxHeartbeats 2400000 in
theorem hostOps13_main_v168 (W : Valuation τ sig (Elt F)) :
    after hostOps13 W (Proc.devRef .tc main_v168) = varOnePass (W (Proc.devRef .tc main_v162_1)) (W (Proc.devRef .tc main_v162_2)) := by
  simp only [hostOps13]
  after_results_simp <;> rfl

set_option maxRecDepth 8192 in
set_option maxHeartbeats 2400000 in
theorem hostOps13_main_v171 (W : Valuation τ sig (Elt F)) :
    after hostOps13 W (Proc.devRef .tc main_v171) = asRow128 (g1_3 (W (Proc.devRef .tc main_arg9))) := by
  simp only [hostOps13]
  after_results_simp <;> rfl

set_option maxRecDepth 8192 in
set_option maxHeartbeats 2400000 in
theorem hostOps13_main_v174 (W : Valuation τ sig (Elt F)) :
    after hostOps13 W (Proc.devRef .tc main_v174) = asRow128 (bt1_3 (W (Proc.devRef .tc main_arg10))) := by
  simp only [hostOps13]
  after_results_simp <;> rfl

set_option maxRecDepth 8192 in
set_option maxHeartbeats 2400000 in
theorem hostOps13_main_v176 (W : Valuation τ sig (Elt F)) :
    after hostOps13 W (Proc.devRef .tc main_v176) = W2_3 (W (Proc.devRef .tc main_arg11)) := by
  simp only [hostOps13]
  after_results_simp <;> rfl

set_option maxRecDepth 8192 in
set_option maxHeartbeats 2400000 in
theorem hostOps13_main_v178 (W : Valuation τ sig (Elt F)) :
    after hostOps13 W (Proc.devRef .tc main_v178) = b2_3 (W (Proc.devRef .tc main_arg12)) := by
  simp only [hostOps13]
  after_results_simp <;> rfl

set_option maxRecDepth 8192 in
set_option maxHeartbeats 2400000 in
theorem hostOps13_main_v181 (W : Valuation τ sig (Elt F)) :
    after hostOps13 W (Proc.devRef .tc main_v181) = asRow64 (lng_3 (W (Proc.devRef .tc main_arg14))) := by
  simp only [hostOps13]
  after_results_simp <;> rfl

set_option maxRecDepth 8192 in
set_option maxHeartbeats 2400000 in
theorem hostOps13_main_v184 (W : Valuation τ sig (Elt F)) :
    after hostOps13 W (Proc.devRef .tc main_v184) = asRow64 (lnb_3 (W (Proc.devRef .tc main_arg15))) := by
  simp only [hostOps13]
  after_results_simp <;> rfl

end Cert.KernelIdeal.HostSide

end
-- ==== Proof.KI.Val11.lean ====
import proofs.«178590_j59433757442359_2_alg».proof.Proof.KI.Reg11
import proofs.«178590_j59433757442359_2_alg».proof.Proof.Math.LinRelu
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 11, from blocks to the array: after the last grid point the output array is, entry by entry,
    max (h + e, 0) of the two arrays the region was entered with. -/

theorem zero2_11 : (![0, 0] : Fin 2 → Nat) = fun _ => 0 := funext fun a => by fin_cases a <;> rfl

/-- The operand arrays as the region finds them, and the output array after its last point, as functions on
    their index type. -/
abbrev ain11_0 (c : Dev nD) : S1280000x64.Idx → EReal := V c (Pipeline.arrRef spec11 0)
abbrev ain11_1 (c : Dev nD) : S1280000x64.Idx → EReal := V c (Pipeline.arrRef spec11 1)
abbrev aout11 (c : Dev nD) : S1280000x64.Idx → EReal := (dat11 V c).arrAt 2 cfg11.N

/-- The array the region leaves: entry by entry the maximum with zero of the sum of its two operands. -/
def msgArr11 (a0 a1 : S1280000x64.Idx → EReal) : S1280000x64.Idx → EReal := fun i => max (a0 i + a1 i) 0

theorem msgArr11_apply (a0 a1 : S1280000x64.Idx → EReal) (i : S1280000x64.Idx) : msgArr11 a0 a1 i = max (a0 i + a1 i) 0 := rfl

/-- One entry of a block: if the two loaded blocks hold, at `j`, the operands' entries at `i`, the stored block
    holds the array's entry at `i`. -/
theorem msg_entry11 (x0 x1 : Vec Ideal S8000x64 .f32) (a0 a1 : S1280000x64.Idx → EReal) (j : S8000x64.Idx) (i : S1280000x64.Idx)
    (h0 : x0 j = a0 i) (h1 : x1 j = a1 i) : k11_pay1 (F := Ideal) x0 x1 j = msgArr11 a0 a1 i := by
  obtain ⟨p, q, rfl⟩ : ∃ (p : Fin 8000) (q : Fin 64), j = ix2 p q := ⟨j 0, j 1, eq_ix2 j⟩
  rw [Cert.Bridge.k11_pay1_apply, h0, h1]
  rfl

/-- The index maps over the grid: the three windows move together, block `t` of the rows at point `t`. -/
theorem idx_facts11 : ∀ t : Fin cfg11.N, win11_0.index t (0 : Fin 2) = win11_2.index t (0 : Fin 2)
    ∧ win11_0.index t (1 : Fin 2) = win11_2.index t (1 : Fin 2)
    ∧ win11_1.index t (0 : Fin 2) = win11_2.index t (0 : Fin 2)
    ∧ win11_1.index t (1 : Fin 2) = win11_2.index t (1 : Fin 2)
    ∧ win11_2.index t (0 : Fin 2) = t.val ∧ win11_2.index t (1 : Fin 2) = 0 :=
  (by decide +kernel : ∀ t : Fin grid11.N, _)

/-- What point `t` writes back is block `t` of that array. -/
theorem flushed11_eq (c : Dev nD) (t : Fin cfg11.N) :
    (dat11 V c).flushed 2 t = ((cfg11.win 2).blk t).view.read (Elt Ideal) (msgArr11 (V c (Pipeline.arrRef spec11 0)) (V c (Pipeline.arrRef spec11 1))) := by
  show (cfg11.win 2).cut (grid11.coords t) ((dat11 V c).after 2 t) = _
  rw [after11_2]
  unfold out11_2
  rw [View.canon_unit_zero zero2_11]
  simp only [View.ld_unit_zero (S := S8000x64) zero2_11]
  obtain ⟨e0, e1, e2, e3, e4, e5⟩ := idx_facts11 t
  funext j
  have h0 : ((cfg11.win 0).blk t).view.emb j = ((cfg11.win 2).blk t).view.emb j := by
    funext a; apply Fin.ext
    match a with
    | ⟨0, _⟩ => show win11_0.index t (0 : Fin 2) * 8000 + 1 * (j 0).val = win11_2.index t (0 : Fin 2) * 8000 + 1 * (j 0).val; omega
    | ⟨1, _⟩ => show win11_0.index t (1 : Fin 2) * 64 + 1 * (j 1).val = win11_2.index t (1 : Fin 2) * 64 + 1 * (j 1).val; omega
  have h1 : ((cfg11.win 1).blk t).view.emb j = ((cfg11.win 2).blk t).view.emb j := by
    funext a; apply Fin.ext
    match a with
    | ⟨0, _⟩ => show win11_1.index t (0 : Fin 2) * 8000 + 1 * (j 0).val = win11_2.index t (0 : Fin 2) * 8000 + 1 * (j 0).val; omega
    | ⟨1, _⟩ => show win11_1.index t (1 : Fin 2) * 64 + 1 * (j 1).val = win11_2.index t (1 : Fin 2) * 64 + 1 * (j 1).val; omega
  exact msg_entry11 (iblk11 V c 0 t) (iblk11 V c 1 t) (V c (Pipeline.arrRef spec11 0)) (V c (Pipeline.arrRef spec11 1)) j (((cfg11.win 2).blk t).view.emb j)
    (show V c (Pipeline.arrRef spec11 0) (((cfg11.win 0).blk t).view.emb j) = _ by rw [h0])
    (show V c (Pipeline.arrRef spec11 1) (((cfg11.win 1).blk t).view.emb j) = _ by rw [h1])

/-- An index of the array is in point `t`'s block iff each coordinate is in the block's range on its axis. -/
theorem mem_blk11 (t : Fin cfg11.N) (i : S1280000x64.Idx) :
    i ∈ ((cfg11.win 2).blk t).view.set ↔ ∀ a : Fin 2, win11_2.index t a * S8000x64.size a ≤ (i a).val ∧ (i a).val < win11_2.index t a * S8000x64.size a + S8000x64.size a := by
  show i ∈ ((View.whole main_v148).slice (win11_2.rect t)).set ↔ _
  rw [View.set_slice_whole, Rect.mem_set_unit]
  exact Iff.rfl

/-- Every row of the array is in some point's block: row `r` in block `r / 8000`. -/
theorem cover11 (i : S1280000x64.Idx) : ∃ t : Fin cfg11.N, (cfg11.win 2).flush t = true ∧ i ∈ ((cfg11.win 2).blk t).view.set := by
  have hi0 : (i 0).val < 1280000 := (i 0).isLt
  have hi1 : (i 1).val < 64 := (i 1).isLt
  have hN : cfg11.N = 160 := N_11
  refine ⟨⟨(i 0).val / 8000, by rw [hN]; omega⟩, flush11_2 _, ?_⟩
  rw [mem_blk11]
  obtain ⟨-, -, -, -, e4, e5⟩ := idx_facts11 ⟨(i 0).val / 8000, by rw [hN]; omega⟩
  intro a
  match a with
  | ⟨0, _⟩ => show win11_2.index _ (0 : Fin 2) * 8000 ≤ (i 0).val ∧ (i 0).val < win11_2.index _ (0 : Fin 2) * 8000 + 8000; rw [e4]; show (i 0).val / 8000 * 8000 ≤ (i 0).val ∧ (i 0).val < (i 0).val / 8000 * 8000 + 8000; omega
  | ⟨1, _⟩ => show win11_2.index _ (1 : Fin 2) * 64 ≤ (i 1).val ∧ (i 1).val < win11_2.index _ (1 : Fin 2) * 64 + 64; rw [e5]; omega

/-- THE ARRAY after the region: entry by entry max (h + e, 0) of the arrays it was entered with. -/
theorem arr11 (c : Dev nD) : aout11 V c = msgArr11 (ain11_0 V c) (ain11_1 V c) :=
  (dat11 V c).arrAt_eq_of_cover 2 _ (fun t _ => flushed11_eq V c t) (cover11)

/-- The same, read at an entry. -/
theorem arr11_apply (c : Dev nD) (e : Fin 1280000) (q : Fin 64) :
    aout11 V c (ix2 e q) = max (ain11_0 V c (ix2 e q) + ain11_1 V c (ix2 e q)) 0 := by
  rw [arr11]; rfl

end Cert.KernelIdeal.Reg
-- ==== Proof.KI.Pieces12.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Reg12
import proofs.«178590_j59433757442359_2_alg».proof.Proof.KI.Pieces3
import Idealize.ShloMosaic.Lib.Pipeline.Value
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 12: what its found stores read as, in the payloads' terms -/
-- hz1, hz2 and readCov_cons_unit_zero come with region 3's module (imported below through the region modules' shared namespace)
theorem out12_A_3_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    out12_A_3 c i arg1 harg1 arg2 harg2 arg3 harg3 arg4 harg4 arg5 harg5 arg6 harg6 arg7 harg7 arg8 harg8 hc x1 x2 x3 = k12_pay3 x1 x2 x3 := by
  unfold out12_A_3
  rw [View.read_writes_eq_canon _ _ _ (cover12_A_3 c i arg1 harg1 arg2 harg2 arg3 harg3 arg4 harg4 arg5 harg5 arg6 harg6 arg7 harg7 arg8 harg8 hc x1 x2 x3)]
  unfold kernelRun12_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout12_A_0_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    sout12_A_0 c i arg1 harg1 arg2 harg2 arg3 harg3 arg4 harg4 arg5 harg5 arg6 harg6 arg7 harg7 arg8 harg8 hc x1 x2 x3 = k12_pay4 x1 x2 x3 k12_pay1 := by
  unfold sout12_A_0
  rw [View.read_writes_eq_canon _ _ _ (scover12_A_0 c i arg1 harg1 arg2 harg2 arg3 harg3 arg4 harg4 arg5 harg5 arg6 harg6 arg7 harg7 arg8 harg8 hc x1 x2 x3)]
  unfold kernelRun12_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem sout12_A_1_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    sout12_A_1 c i arg1 harg1 arg2 harg2 arg3 harg3 arg4 harg4 arg5 harg5 arg6 harg6 arg7 harg7 arg8 harg8 hc x1 x2 x3 = k12_pay5 x1 x2 x3 k12_pay2 := by
  unfold sout12_A_1
  rw [View.read_writes_eq_canon _ _ _ (scover12_A_1 c i arg1 harg1 arg2 harg2 arg3 harg3 arg4 harg4 arg5 harg5 arg6 harg6 arg7 harg7 arg8 harg8 hc x1 x2 x3)]
  unfold kernelRun12_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out12_A_4_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    out12_A_4 c i arg1 harg1 arg2 harg2 arg3 harg3 arg4 harg4 arg5 harg5 arg6 harg6 arg7 harg7 arg8 harg8 hc x1 x2 x3 = k12_pay4 x1 x2 x3 k12_pay1 := by
  unfold out12_A_4
  rw [View.read_writes_eq_canon _ _ _ (cover12_A_4 c i arg1 harg1 arg2 harg2 arg3 harg3 arg4 harg4 arg5 harg5 arg6 harg6 arg7 harg7 arg8 harg8 hc x1 x2 x3)]
  unfold kernelRun12_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out12_A_5_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : cond12 i) (x1 : Vec F S8000x64 .f32) (x2 : Vec F S64x128 .f32) (x3 : Vec F S128 .f32) :
    out12_A_5 c i arg1 harg1 arg2 harg2 arg3 harg3 arg4 harg4 arg5 harg5 arg6 harg6 arg7 harg7 arg8 harg8 hc x1 x2 x3 = k12_pay5 x1 x2 x3 k12_pay2 := by
  unfold out12_A_5
  rw [View.read_writes_eq_canon _ _ _ (cover12_A_5 c i arg1 harg1 arg2 harg2 arg3 harg3 arg4 harg4 arg5 harg5 arg6 harg6 arg7 harg7 arg8 harg8 hc x1 x2 x3)]
  unfold kernelRun12_A
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread,
    View.ld_unit_zero (S := S8000x64) hz2, View.ld_unit_zero (S := S64x128) hz2, View.ld_unit_zero (S := S128) hz1, View.ld_unit_zero (S := S1x128) hz2]

theorem out12_B_3_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    out12_B_3 c i arg1 harg1 arg2 harg2 arg3 harg3 arg4 harg4 arg5 harg5 arg6 harg6 arg7 harg7 arg8 harg8 hc x1 x2 x3 xs7 xs8 = k12_pay3 x1 x2 x3 := by
  unfold out12_B_3
  rw [View.read_writes_eq_canon _ _ _ (cover12_B_3 c i arg1 harg1 arg2 harg2 arg3 harg3 arg4 harg4 arg5 harg5 arg6 harg6 arg7 harg7 arg8 harg8 hc x1 x2 x3 xs7 xs8)]
  unfold kernelRun12_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout12_B_0_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    sout12_B_0 c i arg1 harg1 arg2 harg2 arg3 harg3 arg4 harg4 arg5 harg5 arg6 harg6 arg7 harg7 arg8 harg8 hc x1 x2 x3 xs7 xs8 = k12_pay4 x1 x2 x3 xs7 := by
  unfold sout12_B_0
  rw [View.read_writes_eq_canon _ _ _ (scover12_B_0 c i arg1 harg1 arg2 harg2 arg3 harg3 arg4 harg4 arg5 harg5 arg6 harg6 arg7 harg7 arg8 harg8 hc x1 x2 x3 xs7 xs8)]
  unfold kernelRun12_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem sout12_B_1_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    sout12_B_1 c i arg1 harg1 arg2 harg2 arg3 harg3 arg4 harg4 arg5 harg5 arg6 harg6 arg7 harg7 arg8 harg8 hc x1 x2 x3 xs7 xs8 = k12_pay5 x1 x2 x3 xs8 := by
  unfold sout12_B_1
  rw [View.read_writes_eq_canon _ _ _ (scover12_B_1 c i arg1 harg1 arg2 harg2 arg3 harg3 arg4 harg4 arg5 harg5 arg6 harg6 arg7 harg7 arg8 harg8 hc x1 x2 x3 xs7 xs8)]
  unfold kernelRun12_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out12_B_4_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    out12_B_4 c i arg1 harg1 arg2 harg2 arg3 harg3 arg4 harg4 arg5 harg5 arg6 harg6 arg7 harg7 arg8 harg8 hc x1 x2 x3 xs7 xs8 = k12_pay4 x1 x2 x3 xs7 := by
  unfold out12_B_4
  rw [View.read_writes_eq_canon _ _ _ (cover12_B_4 c i arg1 harg1 arg2 harg2 arg3 harg3 arg4 harg4 arg5 harg5 arg6 harg6 arg7 harg7 arg8 harg8 hc x1 x2 x3 xs7 xs8)]
  unfold kernelRun12_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

theorem out12_B_5_eq (c : Dev nD) (i : grid12.Coords) (arg1 : Memref sig .tc .vmem S8000x64 .f32) (harg1 : arg1.IsWhole) (arg2 : Memref sig .tc .vmem S64x128 .f32) (harg2 : arg2.IsWhole) (arg3 : Memref sig .tc .vmem S128 .f32) (harg3 : arg3.IsWhole) (arg4 : Memref sig .tc .vmem S8000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc : ¬cond12 i) (x1 : Vec F S8000x64 .f32) (x2 : Vec F S64x128 .f32) (x3 : Vec F S128 .f32) (xs7 : Vec F S1x128 .f32) (xs8 : Vec F S1x128 .f32) :
    out12_B_5 c i arg1 harg1 arg2 harg2 arg3 harg3 arg4 harg4 arg5 harg5 arg6 harg6 arg7 harg7 arg8 harg8 hc x1 x2 x3 xs7 xs8 = k12_pay5 x1 x2 x3 xs8 := by
  unfold out12_B_5
  rw [View.read_writes_eq_canon _ _ _ (cover12_B_5 c i arg1 harg1 arg2 harg2 arg3 harg3 arg4 harg4 arg5 harg5 arg6 harg6 arg7 harg7 arg8 harg8 hc x1 x2 x3 xs7 xs8)]
  unfold kernelRun12_B
  dsimp only
  sl_unfold_words
  simp only [View.canon_unit_zero (S := S8000x128) hz2, View.canon_cons_unit_zero (S := S1x128) hz2, View.canon_unit_zero (S := S1x128) hz2,
    readCov_cons_unit_zero (S := S1x128) _ hz2, View.readCov_unit_zero (S := S1x128) _ hz2,
    View.readAt_eq_ld, harg1.read_unread, harg2.read_unread, harg3.read_unread, harg7.read_unread, harg8.read_unread,
    View.ld_unit_zero (S := S8000x64) hz2, View.ld_unit_zero (S := S64x128) hz2, View.ld_unit_zero (S := S128) hz1, View.ld_unit_zero (S := S1x128) hz2]

end Cert.KernelIdeal.Reg

end
-- ==== Proof.KI.Rows12.lean ====
import proofs.«178590_j59433757442359_2_alg».proof.Proof.Gen.KernelIdeal.Launch
import proofs.«178590_j59433757442359_2_alg».proof.Proof.Gen.KernelIdeal.Skeleton
import proofs.«178590_j59433757442359_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«178590_j59433757442359_2_alg».proof.Proof.KI.Pieces12
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 12: the two kept rows after each block, as a plain recursion over the payloads -/

section
variable (V : (c : Dev nD) → (b : Ref sig .tc) → Buf (Elt F) ((c : Thread nD τ).loc b))

/-- After block `n`: (the running column sums of Z, the running column sums of Z·Z), started from the zero rows. -/
def rows12 (c : Dev nD) : (n : ℕ) → n < cfg12.N → Vec F S1x128 .f32 × Vec F S1x128 .f32
  | 0, hn => (k12_pay4 (iblk12 V c 0 ⟨0, hn⟩) (iblk12 V c 1 ⟨0, hn⟩) (iblk12 V c 2 ⟨0, hn⟩) k12_pay1, k12_pay5 (iblk12 V c 0 ⟨0, hn⟩) (iblk12 V c 1 ⟨0, hn⟩) (iblk12 V c 2 ⟨0, hn⟩) k12_pay2)
  | n + 1, hn => (k12_pay4 (iblk12 V c 0 ⟨n + 1, hn⟩) (iblk12 V c 1 ⟨n + 1, hn⟩) (iblk12 V c 2 ⟨n + 1, hn⟩) (rows12 c n (Nat.lt_of_succ_lt hn)).1,
      k12_pay5 (iblk12 V c 0 ⟨n + 1, hn⟩) (iblk12 V c 1 ⟨n + 1, hn⟩) (iblk12 V c 2 ⟨n + 1, hn⟩) (rows12 c n (Nat.lt_of_succ_lt hn)).2)

/-- What the region's proof data hold after block `n`: the block of Z, the two rows copied out, the two rows kept. -/
theorem outsAt12_eq (c : Dev nD) : ∀ (n : ℕ) (hn : n < cfg12.N),
    outsAt12 V c n hn = (k12_pay3 (iblk12 V c 0 ⟨n, hn⟩) (iblk12 V c 1 ⟨n, hn⟩) (iblk12 V c 2 ⟨n, hn⟩), (rows12 V c n hn).1, (rows12 V c n hn).2, (rows12 V c n hn).1, (rows12 V c n hn).2)
  | 0, hn => by
    simp only [outsAt12, rows12, out12_A_3_eq, out12_A_4_eq, out12_A_5_eq, sout12_A_0_eq, sout12_A_1_eq]
  | n + 1, hn => by
    simp only [outsAt12, rows12, out12_B_3_eq, out12_B_4_eq, out12_B_5_eq, sout12_B_0_eq, sout12_B_1_eq,
      outsAt12_eq c n (Nat.lt_of_succ_lt hn)]

theorem after12_3_eq (c : Dev nD) (t : Fin cfg12.N) : (dat12 V c).after 3 t = k12_pay3 (iblk12 V c 0 t) (iblk12 V c 1 t) (iblk12 V c 2 t) := by
  rw [after12_3, outsAt12_eq]
theorem after12_4_eq (c : Dev nD) (t : Fin cfg12.N) : (dat12 V c).after 4 t = (rows12 V c t.val t.isLt).1 := by
  rw [after12_4, outsAt12_eq]
theorem after12_5_eq (c : Dev nD) (t : Fin cfg12.N) : (dat12 V c).after 5 t = (rows12 V c t.val t.isLt).2 := by
  rw [after12_5, outsAt12_eq]

end

end Cert.KernelIdeal.Reg

end
-- ==== Proof.KI.Val12.lean ====
import proofs.«178590_j59433757442359_2_alg».proof.Proof.KI.Rows12
import proofs.«178590_j59433757442359_2_alg».proof.Proof.Math.Gin1
import proofs.«178590_j59433757442359_2_alg».proof.Proof.Math.Spec
import proofs.«178590_j59433757442359_2_alg».proof.Proof.Math.SpecLaw
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 12, from blocks to the arrays: after the last grid point the first output array is Z = zin·W1 + b1 at every
    row, and the two one-row outputs are the ten block sums of Z's columns (and of their squares) added up from zero. -/

abbrev ain12_0 (c : Dev nD) : S80000x64.Idx → EReal := V c (Pipeline.arrRef spec12 0)
abbrev ain12_1 (c : Dev nD) : S64x128.Idx → EReal := V c (Pipeline.arrRef spec12 1)
abbrev ain12_2 (c : Dev nD) : S128.Idx → EReal := V c (Pipeline.arrRef spec12 2)
abbrev aoutZ12 (c : Dev nD) : S80000x128.Idx → EReal := (dat12 V c).arrAt 3 cfg12.N
abbrev aoutS12 (c : Dev nD) : S1x128.Idx → EReal := (dat12 V c).arrAt 4 cfg12.N
abbrev aoutQ12 (c : Dev nD) : S1x128.Idx → EReal := (dat12 V c).arrAt 5 cfg12.N

/-- One entry of Z. -/
def zEntry12 (a0 : S80000x64.Idx → EReal) (a1 : S64x128.Idx → EReal) (a2 : S128.Idx → EReal) (r : Fin 80000) (j : Fin 128) : EReal :=
  ∑ k : Fin 64, a0 (ix2 r k) * a1 (ix2 k j) + a2 (ix1 j)
def zArr12 (a0 : S80000x64.Idx → EReal) (a1 : S64x128.Idx → EReal) (a2 : S128.Idx → EReal) : S80000x128.Idx → EReal :=
  fun i => zEntry12 a0 a1 a2 (i 0) (i 1)
theorem zArr12_apply (a0 : S80000x64.Idx → EReal) (a1 : S64x128.Idx → EReal) (a2 : S128.Idx → EReal) (r : Fin 80000) (j : Fin 128) :
    zArr12 a0 a1 a2 (ix2 r j) = zEntry12 a0 a1 a2 r j := rfl
/-- The column sums of Z (of its squares), as the kernel adds them: block by block from zero. -/
def sArr12 (a0 : S80000x64.Idx → EReal) (a1 : S64x128.Idx → EReal) (a2 : S128.Idx → EReal) : S1x128.Idx → EReal :=
  fun i => Cert.Bridge.foldBlocks (Cert.Bridge.blockSum fun r => zEntry12 a0 a1 a2 r (i 1)) 10
def qArr12 (a0 : S80000x64.Idx → EReal) (a1 : S64x128.Idx → EReal) (a2 : S128.Idx → EReal) : S1x128.Idx → EReal :=
  fun i => Cert.Bridge.foldBlocks (Cert.Bridge.blockSum fun r => zEntry12 a0 a1 a2 r (i 1) * zEntry12 a0 a1 a2 r (i 1)) 10

/-- One entry of a block of Z, when the loaded row block holds rows `o · 8000 …` of the first operand. -/
theorem z_entry12 (x : Vec Ideal S8000x64 .f32) (w : Vec Ideal S64x128 .f32) (b : Vec Ideal S128 .f32)
    (a0 : S80000x64.Idx → EReal) (a1 : S64x128.Idx → EReal) (a2 : S128.Idx → EReal) (o : ℕ)
    (hx : ∀ (p : Fin 8000) (k : Fin 64) (r : Fin 80000), r.val = o * 8000 + p.val → x (ix2 p k) = a0 (ix2 r k))
    (hw : w = a1) (hb : b = a2) (p : Fin 8000) (j : Fin 128) (r : Fin 80000) (hr : r.val = o * 8000 + p.val) :
    k3_pay3 (F := Ideal) x w b (ix2 p j) = zEntry12 a0 a1 a2 r j := by
  subst hw hb
  rw [Cert.Bridge.k3_pay3_apply]
  unfold zEntry12
  refine congrArg (fun s => s + b (ix1 j)) (Finset.sum_congr rfl fun k _ => ?_)
  rw [hx p k r hr]

theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 1) = 0
    ∧ win12_3.index t (0 : Fin 2) = t.val ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0 :=
  (by decide +kernel : ∀ t : Fin grid12.N, _)

/-- The row block at point `t` holds rows `t · 8000 …` of the first operand; the other two blocks are the whole arrays. -/
theorem blk12_0 (c : Dev nD) (t : Fin cfg12.N) (p : Fin 8000) (k : Fin 64) (r : Fin 80000) (hr : r.val = t.val * 8000 + p.val) :
    iblk12 V c 0 t (ix2 p k) = ain12_0 V c (ix2 r k) := by
  obtain ⟨e0, e1, -⟩ := idx_facts12 t
  show V c (Pipeline.arrRef spec12 0) (((cfg12.win 0).blk t).view.emb (ix2 p k)) = V c (Pipeline.arrRef spec12 0) (ix2 r k)
  have h : ((cfg12.win 0).blk t).view.emb (ix2 p k) = (ix2 r k : S80000x64.Idx) := by
    funext a; apply Fin.ext
    match a with
    | ⟨0, _⟩ => show win12_0.index t (0 : Fin 2) * 8000 + 1 * p.val = r.val; omega
    | ⟨1, _⟩ => show win12_0.index t (1 : Fin 2) * 64 + 1 * k.val = k.val; omega
  rw [h]
theorem blk12_1 (c : Dev nD) (t : Fin cfg12.N) : iblk12 V c 1 t = ain12_1 V c := by
  obtain ⟨-, -, e2, e3, -⟩ := idx_facts12 t
  funext y
  show V c (Pipeline.arrRef spec12 1) (((cfg12.win 1).blk t).view.emb y) = V c (Pipeline.arrRef spec12 1) y
  have h : ((cfg12.win 1).blk t).view.emb y = y := by
    funext a; apply Fin.ext
    match a with
    | ⟨0, _⟩ => show win12_1.index t (0 : Fin 2) * 64 + 1 * (y 0).val = (y 0).val; omega
    | ⟨1, _⟩ => show win12_1.index t (1 : Fin 2) * 128 + 1 * (y 1).val = (y 1).val; omega
  rw [h]
theorem blk12_2 (c : Dev nD) (t : Fin cfg12.N) : iblk12 V c 2 t = ain12_2 V c := by
  obtain ⟨-, -, -, -, e4, -⟩ := idx_facts12 t
  funext y
  show V c (Pipeline.arrRef spec12 2) (((cfg12.win 2).blk t).view.emb y) = V c (Pipeline.arrRef spec12 2) y
  have h : ((cfg12.win 2).blk t).view.emb y = y := by
    funext a; apply Fin.ext
    match a with
    | ⟨0, _⟩ => show win12_2.index t (0 : Fin 1) * 128 + 1 * (y 0).val = (y 0).val; omega
  rw [h]

/-- An entry of the block of Z at point `t` is Z's entry at row `t · 8000 + p`. -/
theorem zblock12 (c : Dev nD) (t : Fin cfg12.N) (p : Fin 8000) (j : Fin 128) (r : Fin 80000) (hr : r.val = t.val * 8000 + p.val) :
    k3_pay3 (F := Ideal) (iblk12 V c 0 t) (iblk12 V c 1 t) (iblk12 V c 2 t) (ix2 p j)
      = zEntry12 (ain12_0 V c) (ain12_1 V c) (ain12_2 V c) r j :=
  z_entry12 (iblk12 V c 0 t) (iblk12 V c 1 t) (iblk12 V c 2 t) (ain12_0 V c) (ain12_1 V c) (ain12_2 V c) t.val
    (fun p k r hr => blk12_0 V c t p k r hr) (blk12_1 V c t) (blk12_2 V c t) p j r hr

/-! ## The first output: Z -/

theorem flushedZ12_eq (c : Dev nD) (t : Fin cfg12.N) :
    (dat12 V c).flushed 3 t = ((cfg12.win 3).blk t).view.read (Elt Ideal) (zArr12 (ain12_0 V c) (ain12_1 V c) (ain12_2 V c)) := by
  show (cfg12.win 3).cut (grid12.coords t) ((dat12 V c).after 3 t) = _
  rw [after12_3_eq]
  obtain ⟨-, -, -, -, -, e5, e6, -⟩ := idx_facts12 t
  funext j
  obtain ⟨p, q, rfl⟩ : ∃ (p : Fin 8000) (q : Fin 128), j = ix2 p q := ⟨j 0, j 1, eq_ix2 j⟩
  have hlt : t.val * 8000 + p.val < 80000 := by
    have hN : cfg12.N = 10 := N_12
    have := t.isLt; have := p.isLt; omega
  have hemb : ((cfg12.win 3).blk t).view.emb (ix2 p q) = (ix2 (⟨t.val * 8000 + p.val, hlt⟩ : Fin 80000) q : S80000x128.Idx) := by
    funext a; apply Fin.ext
    match a with
    | ⟨0, _⟩ => show win12_3.index t (0 : Fin 2) * 8000 + 1 * p.val = t.val * 8000 + p.val; omega
    | ⟨1, _⟩ => show win12_3.index t (1 : Fin 2) * 128 + 1 * q.val = q.val; omega
  show k3_pay3 (F := Ideal) (iblk12 V c 0 t) (iblk12 V c 1 t) (iblk12 V c 2 t) (ix2 p q)
    = zArr12 (ain12_0 V c) (ain12_1 V c) (ain12_2 V c) (((cfg12.win 3).blk t).view.emb (ix2 p q))
  rw [hemb, zArr12_apply]
  exact zblock12 V c t p q _ rfl

theorem mem_blkZ12 (t : Fin cfg12.N) (i : S80000x128.Idx) :
    i ∈ ((cfg12.win 3).blk t).view.set ↔ ∀ a : Fin 2, win12_3.index t a * S8000x128.size a ≤ (i a).val ∧ (i a).val < win12_3.index t a * S8000x128.size a + S8000x128.size a := by
  show i ∈ ((View.whole main_v162_0).slice (win12_3.rect t)).set ↔ _
  rw [View.set_slice_whole, Rect.mem_set_unit]
  exact Iff.rfl

theorem coverZ12 (i : S80000x128.Idx) : ∃ t : Fin cfg12.N, (cfg12.win 3).flush t = true ∧ i ∈ ((cfg12.win 3).blk t).view.set := by
  have hi0 : (i 0).val < 80000 := (i 0).isLt
  have hi1 : (i 1).val < 128 := (i 1).isLt
  have hN : cfg12.N = 10 := N_12
  refine ⟨⟨(i 0).val / 8000, by rw [hN]; omega⟩, flush12_3 _, ?_⟩
  rw [mem_blkZ12]
  obtain ⟨-, -, -, -, -, e5, e6, -⟩ := idx_facts12 ⟨(i 0).val / 8000, by rw [hN]; omega⟩
  intro a
  match a with
  | ⟨0, _⟩ => show win12_3.index _ (0 : Fin 2) * 8000 ≤ (i 0).val ∧ (i 0).val < win12_3.index _ (0 : Fin 2) * 8000 + 8000; rw [e5]; show (i 0).val / 8000 * 8000 ≤ (i 0).val ∧ (i 0).val < (i 0).val / 8000 * 8000 + 8000; omega
  | ⟨1, _⟩ => show win12_3.index _ (1 : Fin 2) * 128 ≤ (i 1).val ∧ (i 1).val < win12_3.index _ (1 : Fin 2) * 128 + 128; rw [e6]; omega

/-- THE FIRST OUTPUT ARRAY after the region. -/
theorem arrZ12 (c : Dev nD) : aoutZ12 V c = zArr12 (ain12_0 V c) (ain12_1 V c) (ain12_2 V c) :=
  (dat12 V c).arrAt_eq_of_cover 3 _ (fun t _ => flushedZ12_eq V c t) (coverZ12)

/-! ## The two one-row outputs: the block sums added up -/

/-- The sum over block `t`'s rows of column `j` of the block of Z is Z's block sum. -/
theorem bsum12 (c : Dev nD) (t : Fin cfg12.N) (j : Fin 128) :
    ∑ p : Fin 8000, k3_pay3 (F := Ideal) (iblk12 V c 0 t) (iblk12 V c 1 t) (iblk12 V c 2 t) (ix2 p j)
      = Cert.Bridge.blockSum (fun r => zEntry12 (ain12_0 V c) (ain12_1 V c) (ain12_2 V c) r j) t.val := by
  have ht : t.val < 10 := lt_of_lt_of_eq t.isLt N_12
  unfold Cert.Bridge.blockSum
  rw [dif_pos ht]
  exact Finset.sum_congr rfl fun p _ => zblock12 V c t p j (Cert.Lib.BlockSum.at_ (K := 10) (n := 8000) ⟨t.val, ht⟩ p) rfl
theorem bsq12 (c : Dev nD) (t : Fin cfg12.N) (j : Fin 128) :
    ∑ p : Fin 8000, k3_pay3 (F := Ideal) (iblk12 V c 0 t) (iblk12 V c 1 t) (iblk12 V c 2 t) (ix2 p j)
        * k3_pay3 (F := Ideal) (iblk12 V c 0 t) (iblk12 V c 1 t) (iblk12 V c 2 t) (ix2 p j)
      = Cert.Bridge.blockSum (fun r => zEntry12 (ain12_0 V c) (ain12_1 V c) (ain12_2 V c) r j * zEntry12 (ain12_0 V c) (ain12_1 V c) (ain12_2 V c) r j) t.val := by
  have ht : t.val < 10 := lt_of_lt_of_eq t.isLt N_12
  unfold Cert.Bridge.blockSum
  rw [dif_pos ht]
  exact Finset.sum_congr rfl fun p _ => by rw [zblock12 V c t p j (Cert.Lib.BlockSum.at_ (K := 10) (n := 8000) ⟨t.val, ht⟩ p) rfl]

/-- The kept rows after block `n`: the first `n + 1` block sums added up from zero. -/
theorem rowsS12_apply (c : Dev nD) (j : Fin 128) : ∀ (n : ℕ) (hn : n < cfg12.N),
    (rows12 V c n hn).1 (ix2 (0 : Fin 1) j)
      = Cert.Bridge.foldBlocks (Cert.Bridge.blockSum fun r => zEntry12 (ain12_0 V c) (ain12_1 V c) (ain12_2 V c) r j) (n + 1)
  | 0, hn => by
    show k3_pay4 (F := Ideal) _ _ _ (k3_pay1 (F := Ideal)) (ix2 (0 : Fin 1) j) = _
    rw [Cert.Bridge.k3_pay4_apply, Cert.Bridge.k3_pay1_eq, bsum12 V c ⟨0, hn⟩ j]
    rfl
  | n + 1, hn => by
    show k3_pay4 (F := Ideal) _ _ _ (rows12 V c n (Nat.lt_of_succ_lt hn)).1 (ix2 (0 : Fin 1) j) = _
    rw [Cert.Bridge.k3_pay4_apply, rowsS12_apply c j n (Nat.lt_of_succ_lt hn), bsum12 V c ⟨n + 1, hn⟩ j]
    rfl
theorem rowsQ12_apply (c : Dev nD) (j : Fin 128) : ∀ (n : ℕ) (hn : n < cfg12.N),
    (rows12 V c n hn).2 (ix2 (0 : Fin 1) j)
      = Cert.Bridge.foldBlocks (Cert.Bridge.blockSum fun r => zEntry12 (ain12_0 V c) (ain12_1 V c) (ain12_2 V c) r j * zEntry12 (ain12_0 V c) (ain12_1 V c) (ain12_2 V c) r j) (n + 1)
  | 0, hn => by
    show k3_pay5 (F := Ideal) _ _ _ (k3_pay2 (F := Ideal)) (ix2 (0 : Fin 1) j) = _
    rw [Cert.Bridge.k3_pay5_apply, Cert.Bridge.k3_pay2_eq, bsq12 V c ⟨0, hn⟩ j]
    rfl
  | n + 1, hn => by
    show k3_pay5 (F := Ideal) _ _ _ (rows12 V c n (Nat.lt_of_succ_lt hn)).2 (ix2 (0 : Fin 1) j) = _
    rw [Cert.Bridge.k3_pay5_apply, rowsQ12_apply c j n (Nat.lt_of_succ_lt hn), bsq12 V c ⟨n + 1, hn⟩ j]
    rfl

/-! ## The arrays of the two one-row outputs: written back once, after the last block -/

theorem flushedS12_eq (c : Dev nD) (t : Fin cfg12.N) (hf : (cfg12.win 4).flush t = true) :
    (dat12 V c).flushed 4 t = ((cfg12.win 4).blk t).view.read (Elt Ideal) (sArr12 (ain12_0 V c) (ain12_1 V c) (ain12_2 V c)) := by
  show (cfg12.win 4).cut (grid12.coords t) ((dat12 V c).after 4 t) = _
  rw [after12_4_eq]
  obtain ⟨-, -, -, -, -, -, -, e7, e8, e9, e10⟩ := idx_facts12 t
  have h9 : t.val = 9 := by
    have h := (flush12_4 t).mp hf; have := t.isLt; have hN : cfg12.N = 10 := N_12; omega
  funext y
  obtain ⟨u, q, rfl⟩ : ∃ (u : Fin 1) (q : Fin 128), y = ix2 u q := ⟨y 0, y 1, eq_ix2 y⟩
  obtain rfl : u = 0 := Subsingleton.elim _ _
  have hemb : ((cfg12.win 4).blk t).view.emb (ix2 (0 : Fin 1) q) = (ix2 (0 : Fin 1) q : S1x128.Idx) := by
    funext a; apply Fin.ext
    match a with
    | ⟨0, _⟩ => show win12_4.index t (0 : Fin 2) * 1 + 1 * 0 = 0; omega
    | ⟨1, _⟩ => show win12_4.index t (1 : Fin 2) * 128 + 1 * q.val = q.val; omega
  show (rows12 V c t.val t.isLt).1 (ix2 (0 : Fin 1) q)
    = sArr12 (ain12_0 V c) (ain12_1 V c) (ain12_2 V c) (((cfg12.win 4).blk t).view.emb (ix2 (0 : Fin 1) q))
  rw [hemb, rowsS12_apply V c q t.val t.isLt]
  show Cert.Bridge.foldBlocks _ (t.val + 1) = Cert.Bridge.foldBlocks _ 10
  rw [h9]

theorem mem_blkS12 (t : Fin cfg12.N) (i : S1x128.Idx) :
    i ∈ ((cfg12.win 4).blk t).view.set ↔ ∀ a : Fin 2, win12_4.index t a * S1x128.size a ≤ (i a).val ∧ (i a).val < win12_4.index t a * S1x128.size a + S1x128.size a := by
  show i ∈ ((View.whole main_v162_1).slice (win12_4.rect t)).set ↔ _
  rw [View.set_slice_whole, Rect.mem_set_unit]
  exact Iff.rfl

theorem coverS12 (i : S1x128.Idx) : ∃ t : Fin cfg12.N, (cfg12.win 4).flush t = true ∧ i ∈ ((cfg12.win 4).blk t).view.set := by
  have hi0 : (i 0).val < 1 := (i 0).isLt
  have hi1 : (i 1).val < 128 := (i 1).isLt
  have hN : cfg12.N = 10 := N_12
  refine ⟨⟨9, by rw [hN]; omega⟩, (flush12_4 _).mpr rfl, ?_⟩
  rw [mem_blkS12]
  obtain ⟨-, -, -, -, -, -, -, e7, e8, e9, e10⟩ := idx_facts12 ⟨9, by rw [hN]; omega⟩
  intro a
  match a with
  | ⟨0, _⟩ => show win12_4.index _ (0 : Fin 2) * 1 ≤ (i 0).val ∧ (i 0).val < win12_4.index _ (0 : Fin 2) * 1 + 1; omega
  | ⟨1, _⟩ => show win12_4.index _ (1 : Fin 2) * 128 ≤ (i 1).val ∧ (i 1).val < win12_4.index _ (1 : Fin 2) * 128 + 128; omega

theorem arrS12 (c : Dev nD) : aoutS12 V c = sArr12 (ain12_0 V c) (ain12_1 V c) (ain12_2 V c) :=
  (dat12 V c).arrAt_eq_of_cover 4 _ (fun t hf => flushedS12_eq V c t hf) (coverS12)

theorem flushedQ12_eq (c : Dev nD) (t : Fin cfg12.N) (hf : (cfg12.win 5).flush t = true) :
    (dat12 V c).flushed 5 t = ((cfg12.win 5).blk t).view.read (Elt Ideal) (qArr12 (ain12_0 V c) (ain12_1 V c) (ain12_2 V c)) := by
  show (cfg12.win 5).cut (grid12.coords t) ((dat12 V c).after 5 t) = _
  rw [after12_5_eq]
  obtain ⟨-, -, -, -, -, -, -, e7, e8, e9, e10⟩ := idx_facts12 t
  have h9 : t.val = 9 := by
    have h := (flush12_5 t).mp hf; have := t.isLt; have hN : cfg12.N = 10 := N_12; omega
  funext y
  obtain ⟨u, q, rfl⟩ : ∃ (u : Fin 1) (q : Fin 128), y = ix2 u q := ⟨y 0, y 1, eq_ix2 y⟩
  obtain rfl : u = 0 := Subsingleton.elim _ _
  have hemb : ((cfg12.win 5).blk t).view.emb (ix2 (0 : Fin 1) q) = (ix2 (0 : Fin 1) q : S1x128.Idx) := by
    funext a; apply Fin.ext
    match a with
    | ⟨0, _⟩ => show win12_5.index t (0 : Fin 2) * 1 + 1 * 0 = 0; omega
    | ⟨1, _⟩ => show win12_5.index t (1 : Fin 2) * 128 + 1 * q.val = q.val; omega
  show (rows12 V c t.val t.isLt).2 (ix2 (0 : Fin 1) q)
    = qArr12 (ain12_0 V c) (ain12_1 V c) (ain12_2 V c) (((cfg12.win 5).blk t).view.emb (ix2 (0 : Fin 1) q))
  rw [hemb, rowsQ12_apply V c q t.val t.isLt]
  show Cert.Bridge.foldBlocks _ (t.val + 1) = Cert.Bridge.foldBlocks _ 10
  rw [h9]

theorem mem_blkQ12 (t : Fin cfg12.N) (i : S1x128.Idx) :
    i ∈ ((cfg12.win 5).blk t).view.set ↔ ∀ a : Fin 2, win12_5.index t a * S1x128.size a ≤ (i a).val ∧ (i a).val < win12_5.index t a * S1x128.size a + S1x128.size a := by
  show i ∈ ((View.whole main_v162_2).slice (win12_5.rect t)).set ↔ _
  rw [View.set_slice_whole, Rect.mem_set_unit]
  exact Iff.rfl

theorem coverQ12 (i : S1x128.Idx) : ∃ t : Fin cfg12.N, (cfg12.win 5).flush t = true ∧ i ∈ ((cfg12.win 5).blk t).view.set := by
  have hi0 : (i 0).val < 1 := (i 0).isLt
  have hi1 : (i 1).val < 128 := (i 1).isLt
  have hN : cfg12.N = 10 := N_12
  refine ⟨⟨9, by rw [hN]; omega⟩, (flush12_5 _).mpr rfl, ?_⟩
  rw [mem_blkQ12]
  obtain ⟨-, -, -, -, -, -, -, e7, e8, e9, e10⟩ := idx_facts12 ⟨9, by rw [hN]; omega⟩
  intro a
  match a with
  | ⟨0, _⟩ => show win12_5.index _ (0 : Fin 2) * 1 ≤ (i 0).val ∧ (i 0).val < win12_5.index _ (0 : Fin 2) * 1 + 1; omega
  | ⟨1, _⟩ => show win12_5.index _ (1 : Fin 2) * 128 ≤ (i 1).val ∧ (i 1).val < win12_5.index _ (1 : Fin 2) * 128 + 128; omega

theorem arrQ12 (c : Dev nD) : aoutQ12 V c = qArr12 (ain12_0 V c) (ain12_1 V c) (ain12_2 V c) :=
  (dat12 V c).arrAt_eq_of_cover 5 _ (fun t hf => flushedQ12_eq V c t hf) (coverQ12)

/-- Read at a column: the column sum of Z, and of its squares. -/
theorem arrS12_apply (c : Dev nD) (q : Fin 128) :
    aoutS12 V c (ix2 (0 : Fin 1) q) = Cert.Bridge.colSum (fun r j => zEntry12 (ain12_0 V c) (ain12_1 V c) (ain12_2 V c) r j) q := by
  rw [arrS12]; exact Cert.Bridge.foldBlocks_colSum (fun r j => zEntry12 (ain12_0 V c) (ain12_1 V c) (ain12_2 V c) r j) q
theorem arrQ12_apply (c : Dev nD) (q : Fin 128) :
    aoutQ12 V c (ix2 (0 : Fin 1) q) = Cert.Bridge.colSq (fun r j => zEntry12 (ain12_0 V c) (ain12_1 V c) (ain12_2 V c) r j) q := by
  rw [arrQ12]; exact Cert.Bridge.foldBlocks_colSq (fun r j => zEntry12 (ain12_0 V c) (ain12_1 V c) (ain12_2 V c) r j) q
theorem arrZ12_apply (c : Dev nD) (r : Fin 80000) (j : Fin 128) :
    aoutZ12 V c (ix2 r j) = zEntry12 (ain12_0 V c) (ain12_1 V c) (ain12_2 V c) r j := by
  rw [arrZ12]; rfl

end Cert.KernelIdeal.Reg

end
-- ==== Proof.KI.ChainL3a.lean ====
/-
  Layer 3 of the kernel program along the fold (KI/RunFold.lean), item by item from boundary 20 to boundary 25: what
  each item hands on, as the named function of what it was handed — a host stretch by KI/HostL3.lean, a region by the
  array its write-backs fold to (its proof data being the region's own, a hypothesis here and `rfl` at the run's
  data) — with the arguments, the index columns and the edge features read back through KI/ChainArgs.lean.
-/
import proofs.«178590_j59433757442359_2_alg».proof.Proof.KI.ChainDefs
import proofs.«178590_j59433757442359_2_alg».proof.Proof.KI.ChainArgs
import proofs.«178590_j59433757442359_2_alg».proof.Proof.KI.HostL3
import proofs.«178590_j59433757442359_2_alg».proof.Proof.KI.Val11
import proofs.«178590_j59433757442359_2_alg».proof.Proof.KI.Val12

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Stretch 11: the rows of the node features at the edges' sources. -/
theorem L3_gather : W21 D m c (Proc.devRef .tc main_v147) = gatherRows (F := Ideal) (W20 D m c (Proc.devRef .tc main_v140)) (srcCol (m ((c : Thread nD τ).loc main_arg1))) := by
  have h := hostOps11_main_v147 (W20 D m c)
  rw [W20_v3 D m c] at h
  exact h

/-- Region 11: max (gathered row + edge features, 0). -/
theorem L3_msg (h11 : D.r11.dat = dat11) : W22 D m c (Proc.devRef .tc main_v148) = msgArr11 (W21 D m c (Proc.devRef .tc main_v147)) (W21 D m c (Proc.devRef .tc main_v1)) :=
  (W22_arr D m c 2 : W22 D m c (Proc.devRef .tc main_v148) = _).trans (by rw [h11]; exact arr11 (V21 D m) c)

/-- Stretch 12: the scatter-add onto zeros, (1 + eps) · h + agg, and the first linear map's parameters. -/
theorem L3_x : W23 D m c (Proc.devRef .tc main_v157) = selfPlusAgg (F := Ideal) (W22 D m c (Proc.devRef .tc main_v140)) (scatterSum (F := Ideal) (W22 D m c (Proc.devRef .tc main_v5)) (W22 D m c (Proc.devRef .tc main_v148))) (eps_3 (W22 D m c (Proc.devRef .tc main_arg13))) :=
  hostOps12_main_v157 (W22 D m c)
theorem L3_w1 : W23 D m c (Proc.devRef .tc main_v159) = W1_3 (F := Ideal) (m ((c : Thread nD τ).loc main_arg7)) := by
  have h := hostOps12_main_v159 (W22 D m c)
  rw [W22_arg7 D m c] at h
  exact h
theorem L3_b1 : W23 D m c (Proc.devRef .tc main_v161) = b1_3 (F := Ideal) (m ((c : Thread nD τ).loc main_arg8)) := by
  have h := hostOps12_main_v161 (W22 D m c)
  rw [W22_arg8 D m c] at h
  exact h

theorem L3_h1 : W22 D m c (Proc.devRef .tc main_v140) = W20 D m c (Proc.devRef .tc main_v140) :=
  (W22_of_ne D m c main_v140 (by decide)).trans (W21_of D m c main_v140 (by decide))

theorem L3_Z (h12 : D.r12.dat = dat12) : W24 D m c (Proc.devRef .tc main_v162_0) = zArr12 (W23 D m c (Proc.devRef .tc main_v157)) (W23 D m c (Proc.devRef .tc main_v159)) (W23 D m c (Proc.devRef .tc main_v161)) :=
  (W24_arr D m c 3 : W24 D m c (Proc.devRef .tc main_v162_0) = _).trans (by rw [h12]; exact arrZ12 (V23 D m) c)
theorem L3_S (h12 : D.r12.dat = dat12) : W24 D m c (Proc.devRef .tc main_v162_1) = sArr12 (W23 D m c (Proc.devRef .tc main_v157)) (W23 D m c (Proc.devRef .tc main_v159)) (W23 D m c (Proc.devRef .tc main_v161)) :=
  (W24_arr D m c 4 : W24 D m c (Proc.devRef .tc main_v162_1) = _).trans (by rw [h12]; exact arrS12 (V23 D m) c)
theorem L3_Q (h12 : D.r12.dat = dat12) : W24 D m c (Proc.devRef .tc main_v162_2) = qArr12 (W23 D m c (Proc.devRef .tc main_v157)) (W23 D m c (Proc.devRef .tc main_v159)) (W23 D m c (Proc.devRef .tc main_v161)) :=
  (W24_arr D m c 5 : W24 D m c (Proc.devRef .tc main_v162_2) = _).trans (by rw [h12]; exact arrQ12 (V23 D m) c)

/-- Stretch 13: the mean and one-pass variance from the accumulated sums, and the remaining parameter slices. -/
theorem L3_mean : W25 D m c (Proc.devRef .tc main_v164) = meanOfSum (F := Ideal) (W24 D m c (Proc.devRef .tc main_v162_1)) := hostOps13_main_v164 (W24 D m c)
theorem L3_var : W25 D m c (Proc.devRef .tc main_v168) = varOnePass (F := Ideal) (W24 D m c (Proc.devRef .tc main_v162_1)) (W24 D m c (Proc.devRef .tc main_v162_2)) := hostOps13_main_v168 (W24 D m c)
theorem L3_gm : W25 D m c (Proc.devRef .tc main_v171) = asRow128 (F := Ideal) (g1_3 (F := Ideal) (m ((c : Thread nD τ).loc main_arg9))) := by
  have h := hostOps13_main_v171 (W24 D m c)
  rw [W24_arg9 D m c] at h
  exact h
theorem L3_bt : W25 D m c (Proc.devRef .tc main_v174) = asRow128 (F := Ideal) (bt1_3 (F := Ideal) (m ((c : Thread nD τ).loc main_arg10))) := by
  have h := hostOps13_main_v174 (W24 D m c)
  rw [W24_arg10 D m c] at h
  exact h
theorem L3_w2 : W25 D m c (Proc.devRef .tc main_v176) = W2_3 (F := Ideal) (m ((c : Thread nD τ).loc main_arg11)) := by
  have h := hostOps13_main_v176 (W24 D m c)
  rw [W24_arg11 D m c] at h
  exact h
theorem L3_b2 : W25 D m c (Proc.devRef .tc main_v178) = b2_3 (F := Ideal) (m ((c : Thread nD τ).loc main_arg12)) := by
  have h := hostOps13_main_v178 (W24 D m c)
  rw [W24_arg12 D m c] at h
  exact h
theorem L3_lg : W25 D m c (Proc.devRef .tc main_v181) = asRow64 (F := Ideal) (lng_3 (F := Ideal) (m ((c : Thread nD τ).loc main_arg14))) := by
  have h := hostOps13_main_v181 (W24 D m c)
  rw [W24_arg14 D m c] at h
  exact h
theorem L3_lb : W25 D m c (Proc.devRef .tc main_v184) = asRow64 (F := Ideal) (lnb_3 (F := Ideal) (m ((c : Thread nD τ).loc main_arg15))) := by
  have h := hostOps13_main_v184 (W24 D m c)
  rw [W24_arg15 D m c] at h
  exact h
theorem L3_Zkeep : W25 D m c (Proc.devRef .tc main_v162_0) = W24 D m c (Proc.devRef .tc main_v162_0) := (W25_of D m c main_v162_0 (by decide))

end Cert.KernelIdeal.Chain

end
-- ==== Proof.KI.Val13.lean ====
import proofs.«178590_j59433757442359_2_alg».proof.Proof.KI.Reg13
import proofs.«178590_j59433757442359_2_alg».proof.Proof.Math.Gin2
import proofs.«178590_j59433757442359_2_alg».proof.Proof.KI.ValGin
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 13, from blocks to the array: after the last grid point the output array is the second half of a GIN
    layer (`ginArrLast`) of the nine arrays the region was entered with. -/

theorem zero2_13 : (![0, 0] : Fin 2 → Nat) = fun _ => 0 := funext fun a => by fin_cases a <;> rfl
theorem zero1_13 : (![0] : Fin 1 → Nat) = fun _ => 0 := funext fun a => by fin_cases a; rfl

/-- The operand arrays as the region finds them, and the output array after its last point, as functions on
    their index types. -/
abbrev ain13_0 (c : Dev nD) : S80000x128.Idx → EReal := V c (Pipeline.arrRef spec13 0)
abbrev ain13_1 (c : Dev nD) : S1x128.Idx → EReal := V c (Pipeline.arrRef spec13 1)
abbrev ain13_2 (c : Dev nD) : S1x128.Idx → EReal := V c (Pipeline.arrRef spec13 2)
abbrev ain13_3 (c : Dev nD) : S1x128.Idx → EReal := V c (Pipeline.arrRef spec13 3)
abbrev ain13_4 (c : Dev nD) : S1x128.Idx → EReal := V c (Pipeline.arrRef spec13 4)
abbrev ain13_5 (c : Dev nD) : S128x64.Idx → EReal := V c (Pipeline.arrRef spec13 5)
abbrev ain13_6 (c : Dev nD) : S64.Idx → EReal := V c (Pipeline.arrRef spec13 6)
abbrev ain13_7 (c : Dev nD) : S1x64.Idx → EReal := V c (Pipeline.arrRef spec13 7)
abbrev ain13_8 (c : Dev nD) : S1x64.Idx → EReal := V c (Pipeline.arrRef spec13 8)
abbrev aout13 (c : Dev nD) : S80000x64.Idx → EReal := (dat13 V c).arrAt 9 cfg13.N

/-- The index maps over the grid: the hidden rows' block and the output block move together, block `t` at point
    `t`; the eight resident windows' block index is constant. -/
theorem idx13_0 : ∀ t : Fin cfg13.N, win13_0.index t (0 : Fin 2) = win13_9.index t (0 : Fin 2) ∧ win13_0.index t (1 : Fin 2) = 0
    ∧ win13_9.index t (0 : Fin 2) = t.val ∧ win13_9.index t (1 : Fin 2) = 0 :=
  (by decide +kernel : ∀ t : Fin grid13.N, _)
theorem idx13_1 : ∀ (t : Fin cfg13.N) (a : Fin 2), win13_1.index t a = 0 :=
  (by decide +kernel : ∀ (t : Fin grid13.N) (a : Fin 2), win13_1.index t a = 0)
theorem idx13_2 : ∀ (t : Fin cfg13.N) (a : Fin 2), win13_2.index t a = 0 :=
  (by decide +kernel : ∀ (t : Fin grid13.N) (a : Fin 2), win13_2.index t a = 0)
theorem idx13_3 : ∀ (t : Fin cfg13.N) (a : Fin 2), win13_3.index t a = 0 :=
  (by decide +kernel : ∀ (t : Fin grid13.N) (a : Fin 2), win13_3.index t a = 0)
theorem idx13_4 : ∀ (t : Fin cfg13.N) (a : Fin 2), win13_4.index t a = 0 :=
  (by decide +kernel : ∀ (t : Fin grid13.N) (a : Fin 2), win13_4.index t a = 0)
theorem idx13_5 : ∀ (t : Fin cfg13.N) (a : Fin 2), win13_5.index t a = 0 :=
  (by decide +kernel : ∀ (t : Fin grid13.N) (a : Fin 2), win13_5.index t a = 0)
theorem idx13_6 : ∀ (t : Fin cfg13.N) (a : Fin 1), win13_6.index t a = 0 :=
  (by decide +kernel : ∀ (t : Fin grid13.N) (a : Fin 1), win13_6.index t a = 0)
theorem idx13_7 : ∀ (t : Fin cfg13.N) (a : Fin 2), win13_7.index t a = 0 :=
  (by decide +kernel : ∀ (t : Fin grid13.N) (a : Fin 2), win13_7.index t a = 0)
theorem idx13_8 : ∀ (t : Fin cfg13.N) (a : Fin 2), win13_8.index t a = 0 :=
  (by decide +kernel : ∀ (t : Fin grid13.N) (a : Fin 2), win13_8.index t a = 0)

/-- Resident window 1's block is its whole array at every point. -/
theorem blk13_1 (c : Dev nD) (t : Fin cfg13.N) : (iblk13 V c 1 t : Vec Ideal S1x128 .f32) = V c (Pipeline.arrRef spec13 1) := by
  funext y
  show V c (Pipeline.arrRef spec13 1) (((cfg13.win 1).blk t).view.emb y) = V c (Pipeline.arrRef spec13 1) y
  have h : ((cfg13.win 1).blk t).view.emb y = y := by
    funext a; apply Fin.ext
    match a with
    | ⟨0, _⟩ => show win13_1.index t (0 : Fin 2) * 1 + 1 * (y 0).val = (y 0).val; rw [idx13_1 t 0]; omega
    | ⟨1, _⟩ => show win13_1.index t (1 : Fin 2) * 128 + 1 * (y 1).val = (y 1).val; rw [idx13_1 t 1]; omega
  rw [h]

/-- Resident window 2's block is its whole array at every point. -/
theorem blk13_2 (c : Dev nD) (t : Fin cfg13.N) : (iblk13 V c 2 t : Vec Ideal S1x128 .f32) = V c (Pipeline.arrRef spec13 2) := by
  funext y
  show V c (Pipeline.arrRef spec13 2) (((cfg13.win 2).blk t).view.emb y) = V c (Pipeline.arrRef spec13 2) y
  have h : ((cfg13.win 2).blk t).view.emb y = y := by
    funext a; apply Fin.ext
    match a with
    | ⟨0, _⟩ => show win13_2.index t (0 : Fin 2) * 1 + 1 * (y 0).val = (y 0).val; rw [idx13_2 t 0]; omega
    | ⟨1, _⟩ => show win13_2.index t (1 : Fin 2) * 128 + 1 * (y 1).val = (y 1).val; rw [idx13_2 t 1]; omega
  rw [h]

/-- Resident window 3's block is its whole array at every point. -/
theorem blk13_3 (c : Dev nD) (t : Fin cfg13.N) : (iblk13 V c 3 t : Vec Ideal S1x128 .f32) = V c (Pipeline.arrRef spec13 3) := by
  funext y
  show V c (Pipeline.arrRef spec13 3) (((cfg13.win 3).blk t).view.emb y) = V c (Pipeline.arrRef spec13 3) y
  have h : ((cfg13.win 3).blk t).view.emb y = y := by
    funext a; apply Fin.ext
    match a with
    | ⟨0, _⟩ => show win13_3.index t (0 : Fin 2) * 1 + 1 * (y 0).val = (y 0).val; rw [idx13_3 t 0]; omega
    | ⟨1, _⟩ => show win13_3.index t (1 : Fin 2) * 128 + 1 * (y 1).val = (y 1).val; rw [idx13_3 t 1]; omega
  rw [h]

/-- Resident window 4's block is its whole array at every point. -/
theorem blk13_4 (c : Dev nD) (t : Fin cfg13.N) : (iblk13 V c 4 t : Vec Ideal S1x128 .f32) = V c (Pipeline.arrRef spec13 4) := by
  funext y
  show V c (Pipeline.arrRef spec13 4) (((cfg13.win 4).blk t).view.emb y) = V c (Pipeline.arrRef spec13 4) y
  have h : ((cfg13.win 4).blk t).view.emb y = y := by
    funext a; apply Fin.ext
    match a with
    | ⟨0, _⟩ => show win13_4.index t (0 : Fin 2) * 1 + 1 * (y 0).val = (y 0).val; rw [idx13_4 t 0]; omega
    | ⟨1, _⟩ => show win13_4.index t (1 : Fin 2) * 128 + 1 * (y 1).val = (y 1).val; rw [idx13_4 t 1]; omega
  rw [h]

/-- Resident window 5's block is its whole array at every point. -/
theorem blk13_5 (c : Dev nD) (t : Fin cfg13.N) : (iblk13 V c 5 t : Vec Ideal S128x64 .f32) = V c (Pipeline.arrRef spec13 5) := by
  funext y
  show V c (Pipeline.arrRef spec13 5) (((cfg13.win 5).blk t).view.emb y) = V c (Pipeline.arrRef spec13 5) y
  have h : ((cfg13.win 5).blk t).view.emb y = y := by
    funext a; apply Fin.ext
    match a with
    | ⟨0, _⟩ => show win13_5.index t (0 : Fin 2) * 128 + 1 * (y 0).val = (y 0).val; rw [idx13_5 t 0]; omega
    | ⟨1, _⟩ => show win13_5.index t (1 : Fin 2) * 64 + 1 * (y 1).val = (y 1).val; rw [idx13_5 t 1]; omega
  rw [h]

/-- Resident window 6's block is its whole array at every point. -/
theorem blk13_6 (c : Dev nD) (t : Fin cfg13.N) : (iblk13 V c 6 t : Vec Ideal S64 .f32) = V c (Pipeline.arrRef spec13 6) := by
  funext y
  show V c (Pipeline.arrRef spec13 6) (((cfg13.win 6).blk t).view.emb y) = V c (Pipeline.arrRef spec13 6) y
  have h : ((cfg13.win 6).blk t).view.emb y = y := by
    funext a; apply Fin.ext
    match a with
    | ⟨0, _⟩ => show win13_6.index t (0 : Fin 1) * 64 + 1 * (y 0).val = (y 0).val; rw [idx13_6 t 0]; omega
  rw [h]

/-- Resident window 7's block is its whole array at every point. -/
theorem blk13_7 (c : Dev nD) (t : Fin cfg13.N) : (iblk13 V c 7 t : Vec Ideal S1x64 .f32) = V c (Pipeline.arrRef spec13 7) := by
  funext y
  show V c (Pipeline.arrRef spec13 7) (((cfg13.win 7).blk t).view.emb y) = V c (Pipeline.arrRef spec13 7) y
  have h : ((cfg13.win 7).blk t).view.emb y = y := by
    funext a; apply Fin.ext
    match a with
    | ⟨0, _⟩ => show win13_7.index t (0 : Fin 2) * 1 + 1 * (y 0).val = (y 0).val; rw [idx13_7 t 0]; omega
    | ⟨1, _⟩ => show win13_7.index t (1 : Fin 2) * 64 + 1 * (y 1).val = (y 1).val; rw [idx13_7 t 1]; omega
  rw [h]

/-- Resident window 8's block is its whole array at every point. -/
theorem blk13_8 (c : Dev nD) (t : Fin cfg13.N) : (iblk13 V c 8 t : Vec Ideal S1x64 .f32) = V c (Pipeline.arrRef spec13 8) := by
  funext y
  show V c (Pipeline.arrRef spec13 8) (((cfg13.win 8).blk t).view.emb y) = V c (Pipeline.arrRef spec13 8) y
  have h : ((cfg13.win 8).blk t).view.emb y = y := by
    funext a; apply Fin.ext
    match a with
    | ⟨0, _⟩ => show win13_8.index t (0 : Fin 2) * 1 + 1 * (y 0).val = (y 0).val; rw [idx13_8 t 0]; omega
    | ⟨1, _⟩ => show win13_8.index t (1 : Fin 2) * 64 + 1 * (y 1).val = (y 1).val; rw [idx13_8 t 1]; omega
  rw [h]

set_option maxHeartbeats 1000000 in
/-- What point `t` writes back is block `t` of that array. -/
theorem flushed13_eq (c : Dev nD) (t : Fin cfg13.N) :
    (dat13 V c).flushed 9 t = ((cfg13.win 9).blk t).view.read (Elt Ideal) (ginArrLast (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (V c (Pipeline.arrRef spec13 6)) (V c (Pipeline.arrRef spec13 7)) (V c (Pipeline.arrRef spec13 8))) := by
  show (cfg13.win 9).cut (grid13.coords t) ((dat13 V c).after 9 t) = _
  rw [after13_9]
  unfold out13_9
  rw [View.canon_unit_zero zero2_13]
  simp only [View.ld_unit_zero (S := S8000x128) zero2_13, View.ld_unit_zero (S := S1x128) zero2_13, View.ld_unit_zero (S := S128x64) zero2_13,
    View.ld_unit_zero (S := S64) zero1_13, View.ld_unit_zero (S := S1x64) zero2_13]
  rw [Cert.Bridge.k13_pay2_eq, Cert.Bridge.k13_pay3_eq]
  obtain ⟨e0, e1, e2, e3⟩ := idx13_0 t
  rw [blk13_1 V c t, blk13_2 V c t, blk13_3 V c t, blk13_4 V c t, blk13_5 V c t, blk13_6 V c t, blk13_7 V c t, blk13_8 V c t]
  funext j
  refine gin_entry_last (iblk13 V c 0 t) (V c (Pipeline.arrRef spec13 0)) (V c (Pipeline.arrRef spec13 1)) (V c (Pipeline.arrRef spec13 2)) (V c (Pipeline.arrRef spec13 3)) (V c (Pipeline.arrRef spec13 4)) (V c (Pipeline.arrRef spec13 5)) (V c (Pipeline.arrRef spec13 6)) (V c (Pipeline.arrRef spec13 7)) (V c (Pipeline.arrRef spec13 8)) (win13_9.index t (0 : Fin 2)) ?_ j (((cfg13.win 9).blk t).view.emb j) ?_ ?_
  · intro p k r hr
    show V c (Pipeline.arrRef spec13 0) (((cfg13.win 0).blk t).view.emb (ix2 p k)) = V c (Pipeline.arrRef spec13 0) (ix2 r k)
    have h : ((cfg13.win 0).blk t).view.emb (ix2 p k) = (ix2 r k : S80000x128.Idx) := by
      funext a; apply Fin.ext
      match a with
      | ⟨0, _⟩ => show win13_0.index t (0 : Fin 2) * 8000 + 1 * p.val = r.val; omega
      | ⟨1, _⟩ => show win13_0.index t (1 : Fin 2) * 128 + 1 * k.val = k.val; omega
    rw [h]
  · show win13_9.index t (0 : Fin 2) * 8000 + 1 * (j 0).val = win13_9.index t (0 : Fin 2) * 8000 + (j 0).val; omega
  · show win13_9.index t (1 : Fin 2) * 64 + 1 * (j 1).val = (j 1).val; omega

/-- An index of the array is in point `t`'s block iff each coordinate is in the block's range on its axis. -/
theorem mem_blk13 (t : Fin cfg13.N) (i : S80000x64.Idx) :
    i ∈ ((cfg13.win 9).blk t).view.set ↔ ∀ a : Fin 2, win13_9.index t a * S8000x64.size a ≤ (i a).val ∧ (i a).val < win13_9.index t a * S8000x64.size a + S8000x64.size a := by
  show i ∈ ((View.whole main_v185).slice (win13_9.rect t)).set ↔ _
  rw [View.set_slice_whole, Rect.mem_set_unit]
  exact Iff.rfl

/-- Every row of the array is in some point's block: row `r` in block `r / 8000`. -/
theorem cover13 (i : S80000x64.Idx) : ∃ t : Fin cfg13.N, (cfg13.win 9).flush t = true ∧ i ∈ ((cfg13.win 9).blk t).view.set := by
  have hi0 : (i 0).val < 80000 := (i 0).isLt
  have hi1 : (i 1).val < 64 := (i 1).isLt
  have hN : cfg13.N = 10 := N_13
  refine ⟨⟨(i 0).val / 8000, by rw [hN]; omega⟩, flush13_9 _, ?_⟩
  rw [mem_blk13]
  obtain ⟨-, -, e2, e3⟩ := idx13_0 ⟨(i 0).val / 8000, by rw [hN]; omega⟩
  intro a
  match a with
  | ⟨0, _⟩ => show win13_9.index _ (0 : Fin 2) * 8000 ≤ (i 0).val ∧ (i 0).val < win13_9.index _ (0 : Fin 2) * 8000 + 8000; rw [e2]; show (i 0).val / 8000 * 8000 ≤ (i 0).val ∧ (i 0).val < (i 0).val / 8000 * 8000 + 8000; omega
  | ⟨1, _⟩ => show win13_9.index _ (1 : Fin 2) * 64 ≤ (i 1).val ∧ (i 1).val < win13_9.index _ (1 : Fin 2) * 64 + 64; rw [e3]; omega

/-- THE ARRAY after the region: the layer's second half of the arrays it was entered with. -/
theorem arr13 (c : Dev nD) : aout13 V c = ginArrLast (ain13_0 V c) (ain13_1 V c) (ain13_2 V c) (ain13_3 V c) (ain13_4 V c) (ain13_5 V c) (ain13_6 V c) (ain13_7 V c) (ain13_8 V c) :=
  (dat13 V c).arrAt_eq_of_cover 9 _ (fun t _ => flushed13_eq V c t) (cover13)

/-- The same, read at an entry. -/
theorem arr13_apply (c : Dev nD) (r : Fin 80000) (q : Fin 64) :
    aout13 V c (ix2 r q) = ginPre (ain13_0 V c) (ain13_1 V c) (ain13_2 V c) (ain13_3 V c) (ain13_4 V c) (ain13_5 V c) (ain13_6 V c) (ain13_7 V c) (ain13_8 V c) r q := by
  rw [arr13]; rfl

end Cert.KernelIdeal.Reg
-- ==== Proof.KI.ChainL3.lean ====
/-
  Layer 3 of the kernel program along the fold, assembled: the last region's array (KI/Val13.lean) of the nine arrays
  KI/ChainL3a.lean computes, which is the layer function `kLastLayer` (KI/ChainDefs.lean) by definition.
-/
import proofs.«178590_j59433757442359_2_alg».proof.Proof.KI.ChainL3a
import proofs.«178590_j59433757442359_2_alg».proof.Proof.KI.Val13

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

variable (D : Data Ideal) (m : (ℓ : Loc nD τ sig) → Buf (Elt Ideal) ℓ) (c : Dev nD)

/-- Region 13: the layer's second half of its nine operand arrays. -/
theorem L3_out (h13 : D.r13.dat = dat13) : W26 D m c (Proc.devRef .tc main_v185) = ginArrLast (W25 D m c (Proc.devRef .tc main_v162_0)) (W25 D m c (Proc.devRef .tc main_v164)) (W25 D m c (Proc.devRef .tc main_v168)) (W25 D m c (Proc.devRef .tc main_v171)) (W25 D m c (Proc.devRef .tc main_v174)) (W25 D m c (Proc.devRef .tc main_v176)) (W25 D m c (Proc.devRef .tc main_v178)) (W25 D m c (Proc.devRef .tc main_v181)) (W25 D m c (Proc.devRef .tc main_v184)) :=
  (W26_arr D m c 9 : W26 D m c (Proc.devRef .tc main_v185) = _).trans (by rw [h13]; exact arr13 (V25 D m) c)

/-- Layer 3 along the fold: the node features after it are the layer function of the node features before it, the edge
    features, the index columns and the layer's parameter slices. -/
theorem layer3 (h11 : D.r11.dat = dat11) (h12 : D.r12.dat = dat12) (h13 : D.r13.dat = dat13) :
    W26 D m c (Proc.devRef .tc main_v185) = kLastLayer (W20 D m c (Proc.devRef .tc main_v140)) (W2 D m c (Proc.devRef .tc main_v1)) (srcCol (m ((c : Thread nD τ).loc main_arg1))) (dstCol (m ((c : Thread nD τ).loc main_arg1)))
      (eps_3 (F := Ideal) (m ((c : Thread nD τ).loc main_arg13))) (W1_3 (F := Ideal) (m ((c : Thread nD τ).loc main_arg7))) (b1_3 (F := Ideal) (m ((c : Thread nD τ).loc main_arg8))) (g1_3 (F := Ideal) (m ((c : Thread nD τ).loc main_arg9))) (bt1_3 (F := Ideal) (m ((c : Thread nD τ).loc main_arg10)))
      (W2_3 (F := Ideal) (m ((c : Thread nD τ).loc main_arg11))) (b2_3 (F := Ideal) (m ((c : Thread nD τ).loc main_arg12))) (lng_3 (F := Ideal) (m ((c : Thread nD τ).loc main_arg14))) (lnb_3 (F := Ideal) (m ((c : Thread nD τ).loc main_arg15))) := by
  rw [L3_out D m c h13, L3_Zkeep D m c, L3_Z D m c h12, L3_mean D m c, L3_var D m c, L3_S D m c h12, L3_Q D m c h12,
    L3_gm D m c, L3_bt D m c, L3_w2 D m c, L3_b2 D m c, L3_lg D m c, L3_lb D m c, L3_x D m c, L3_w1 D m c, L3_b1 D m c,
    L3_h1 D m c, W22_v5 D m c, W22_arg13 D m c, L3_msg D m c h11, L3_gather D m c, W21_v1 D m c]
  rfl

end Cert.KernelIdeal.Chain

end
-- ==== Proof.KI.Val0.lean ====
import proofs.«178590_j59433757442359_2_alg».proof.Proof.KI.Reg0
import proofs.«178590_j59433757442359_2_alg».proof.Proof.Math.LinRelu
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 0, from blocks to the array: after the last grid point the output array is, at row r and column q,
    max (∑ k, x (r, k) · w (k, q) + b q, 0) of the three arrays the region was entered with. -/

theorem zero2_0 : (![0, 0] : Fin 2 → Nat) = fun _ => 0 := funext fun a => by fin_cases a <;> rfl
theorem zero1_0 : (![0] : Fin 1 → Nat) = fun _ => 0 := funext fun a => by fin_cases a; rfl

/-- The operand arrays as the region finds them, and the output array after its last point, as functions on
    their index types. -/
abbrev ain0_0 (c : Dev nD) : S80000x32.Idx → EReal := V c (Pipeline.arrRef spec0 0)
abbrev ain0_1 (c : Dev nD) : S32x64.Idx → EReal := V c (Pipeline.arrRef spec0 1)
abbrev ain0_2 (c : Dev nD) : S64.Idx → EReal := V c (Pipeline.arrRef spec0 2)
abbrev aout0 (c : Dev nD) : S80000x64.Idx → EReal := (dat0 V c).arrAt 3 cfg0.N

/-- One entry of the dense layer: the rectified sum over the contracted coordinate, plus the bias. -/
def linEntry0 (a0 : S80000x32.Idx → EReal) (a1 : S32x64.Idx → EReal) (a2 : S64.Idx → EReal) (r : Fin 80000) (q : Fin 64) : EReal :=
  max (∑ k : Fin 32, a0 (ix2 r k) * a1 (ix2 k q) + a2 (ix1 q)) 0

/-- The array the region leaves. -/
def linArr0 (a0 : S80000x32.Idx → EReal) (a1 : S32x64.Idx → EReal) (a2 : S64.Idx → EReal) : S80000x64.Idx → EReal :=
  fun i => linEntry0 a0 a1 a2 (i 0) (i 1)

theorem linArr0_apply (a0 : S80000x32.Idx → EReal) (a1 : S32x64.Idx → EReal) (a2 : S64.Idx → EReal) (r : Fin 80000) (q : Fin 64) :
    linArr0 a0 a1 a2 (ix2 r q) = max (∑ k : Fin 32, a0 (ix2 r k) * a1 (ix2 k q) + a2 (ix1 q)) 0 := rfl

/-- One entry of a block: if the loaded row block holds rows `o · 8000 …` of the first operand and the resident
    blocks are the whole weight and bias, the stored block at `j` is the array's entry at row `o · 8000 + j 0`. -/
theorem lin_entry0 (x : Vec Ideal S8000x32 .f32) (w : Vec Ideal S32x64 .f32) (b : Vec Ideal S64 .f32)
    (a0 : S80000x32.Idx → EReal) (a1 : S32x64.Idx → EReal) (a2 : S64.Idx → EReal) (o : ℕ)
    (hx : ∀ (p : Fin 8000) (k : Fin 32) (r : Fin 80000), r.val = o * 8000 + p.val → x (ix2 p k) = a0 (ix2 r k))
    (hw : w = a1) (hb : b = a2)
    (j : S8000x64.Idx) (i : S80000x64.Idx) (hi0 : (i 0).val = o * 8000 + (j 0).val) (hi1 : (i 1).val = (j 1).val) :
    k0_pay1 (F := Ideal) x w b j = linArr0 a0 a1 a2 i := by
  obtain ⟨p, q, rfl⟩ : ∃ (p : Fin 8000) (q : Fin 64), j = ix2 p q := ⟨j 0, j 1, eq_ix2 j⟩
  obtain ⟨r, q', rfl⟩ : ∃ (r : Fin 80000) (q' : Fin 64), i = ix2 r q' := ⟨i 0, i 1, eq_ix2 i⟩
  have hr : r.val = o * 8000 + p.val := hi0
  obtain rfl : q' = q := Fin.ext hi1
  subst hw hb
  rw [Cert.Bridge.k0_pay1_apply, linArr0_apply]
  refine congrArg (fun s => max (s + b (ix1 q')) 0) (Finset.sum_congr rfl fun k _ => ?_)
  rw [hx p k r hr]

/-- The index maps over the grid: the row block and the output block move together, block `t` at point `t`; the
    weight's and the bias's block index is constant. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of that array. -/
theorem flushed0_eq (c : Dev nD) (t : Fin cfg0.N) :
    (dat0 V c).flushed 3 t = ((cfg0.win 3).blk t).view.read (Elt Ideal) (linArr0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero2_0]
  simp only [View.ld_unit_zero (S := S8000x32) zero2_0, View.ld_unit_zero (S := S32x64) zero2_0, View.ld_unit_zero (S := S64) zero1_0]
  obtain ⟨e0, e1, e2, e3, e4, e5, e6⟩ := idx_facts0 t
  funext j
  refine lin_entry0 (iblk0 V c 0 t) (iblk0 V c 1 t) (iblk0 V c 2 t) (V c (Pipeline.arrRef spec0 0)) (V c (Pipeline.arrRef spec0 1)) (V c (Pipeline.arrRef spec0 2))
    (win0_3.index t (0 : Fin 2)) ?_ ?_ ?_ j (((cfg0.win 3).blk t).view.emb j) ?_ ?_
  · intro p k r hr
    show V c (Pipeline.arrRef spec0 0) (((cfg0.win 0).blk t).view.emb (ix2 p k)) = V c (Pipeline.arrRef spec0 0) (ix2 r k)
    have h : ((cfg0.win 0).blk t).view.emb (ix2 p k) = (ix2 r k : S80000x32.Idx) := by
      funext a; apply Fin.ext
      match a with
      | ⟨0, _⟩ => show win0_0.index t (0 : Fin 2) * 8000 + 1 * p.val = r.val; omega
      | ⟨1, _⟩ => show win0_0.index t (1 : Fin 2) * 32 + 1 * k.val = k.val; omega
    rw [h]
  · funext y
    show V c (Pipeline.arrRef spec0 1) (((cfg0.win 1).blk t).view.emb y) = V c (Pipeline.arrRef spec0 1) y
    have h : ((cfg0.win 1).blk t).view.emb y = y := by
      funext a; apply Fin.ext
      match a with
      | ⟨0, _⟩ => show win0_1.index t (0 : Fin 2) * 32 + 1 * (y 0).val = (y 0).val; omega
      | ⟨1, _⟩ => show win0_1.index t (1 : Fin 2) * 64 + 1 * (y 1).val = (y 1).val; omega
    rw [h]
  · funext y
    show V c (Pipeline.arrRef spec0 2) (((cfg0.win 2).blk t).view.emb y) = V c (Pipeline.arrRef spec0 2) y
    have h : ((cfg0.win 2).blk t).view.emb y = y := by
      funext a; apply Fin.ext
      match a with
      | ⟨0, _⟩ => show win0_2.index t (0 : Fin 1) * 64 + 1 * (y 0).val = (y 0).val; omega
    rw [h]
  · show win0_3.index t (0 : Fin 2) * 8000 + 1 * (j 0).val = win0_3.index t (0 : Fin 2) * 8000 + (j 0).val; omega
  · show win0_3.index t (1 : Fin 2) * 64 + 1 * (j 1).val = (j 1).val; omega

/-- An index of the array is in point `t`'s block iff each coordinate is in the block's range on its axis. -/
theorem mem_blk0 (t : Fin cfg0.N) (i : S80000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v0).slice (win0_3.rect t)).set ↔ _
  rw [View.set_slice_whole, Rect.mem_set_unit]
  exact Iff.rfl

/-- Every row of the array is in some point's block: row `r` in block `r / 8000`. -/
theorem cover0 (i : S80000x64.Idx) : ∃ t : Fin cfg0.N, (cfg0.win 3).flush t = true ∧ i ∈ ((cfg0.win 3).blk t).view.set := by
  have hi0 : (i 0).val < 80000 := (i 0).isLt
  have hi1 : (i 1).val < 64 := (i 1).isLt
  have hN : cfg0.N = 10 := N_0
  refine ⟨⟨(i 0).val / 8000, by rw [hN]; omega⟩, flush0_3 _, ?_⟩
  rw [mem_blk0]
  obtain ⟨-, -, -, -, -, e5, e6⟩ := idx_facts0 ⟨(i 0).val / 8000, by rw [hN]; omega⟩
  intro a
  match a with
  | ⟨0, _⟩ => show win0_3.index _ (0 : Fin 2) * 8000 ≤ (i 0).val ∧ (i 0).val < win0_3.index _ (0 : Fin 2) * 8000 + 8000; rw [e5]; show (i 0).val / 8000 * 8000 ≤ (i 0).val ∧ (i 0).val < (i 0).val / 8000 * 8000 + 8000; omega
  | ⟨1, _⟩ => show win0_3.index _ (1 : Fin 2) * 64 ≤ (i 1).val ∧ (i 1).val < win0_3.index _ (1 : Fin 2) * 64 + 64; rw [e6]; omega

/-- THE ARRAY after the region: the dense layer of the arrays it was entered with. -/
theorem arr0 (c : Dev nD) : aout0 V c = linArr0 (ain0_0 V c) (ain0_1 V c) (ain0_2 V c) :=
  (dat0 V c).arrAt_eq_of_cover 3 _ (fun t _ => flushed0_eq V c t) (cover0)

/-- The same, read at an entry. -/
theorem arr0_apply (c : Dev nD) (r : Fin 80000) (q : Fin 64) :
    aout0 V c (ix2 r q) = max (∑ k : Fin 32, ain0_0 V c (ix2 r k) * ain0_1 V c (ix2 k q) + ain0_2 V c (ix1 q)) 0 := by
  rw [arr0]; rfl

end Cert.KernelIdeal.Reg
-- ==== Proof.KI.Val1.lean ====
import proofs.«178590_j59433757442359_2_alg».proof.Proof.KI.Reg1
import proofs.«178590_j59433757442359_2_alg».proof.Proof.Math.LinRelu
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, on the extended reals
variable (V : (c : Dev nD) → (b : Ref sig .tc) → Buf (Elt Ideal) ((c : Thread nD τ).loc b))

/-! # Region 1, from blocks to the array: after the last grid point the output array is, at row r and column q,
    max (∑ k, x (r, k) · w (k, q) + b q, 0) of the three arrays the region was entered with. -/

theorem zero2_1 : (![0, 0] : Fin 2 → Nat) = fun _ => 0 := funext fun a => by fin_cases a <;> rfl
theorem zero1_1 : (![0] : Fin 1 → Nat) = fun _ => 0 := funext fun a => by fin_cases a; rfl

/-- The operand arrays as the region finds them, and the output array after its last point, as functions on
    their index types. -/
abbrev ain1_0 (c : Dev nD) : S1280000x16.Idx → EReal := V c (Pipeline.arrRef spec1 0)
abbrev ain1_1 (c : Dev nD) : S16x64.Idx → EReal := V c (Pipeline.arrRef spec1 1)
abbrev ain1_2 (c : Dev nD) : S64.Idx → EReal := V c (Pipeline.arrRef spec1 2)
abbrev aout1 (c : Dev nD) : S1280000x64.Idx → EReal := (dat1 V c).arrAt 3 cfg1.N

/-- One entry of the dense layer: the rectified sum over the contracted coordinate, plus the bias. -/
def linEntry1 (a0 : S1280000x16.Idx → EReal) (a1 : S16x64.Idx → EReal) (a2 : S64.Idx → EReal) (r : Fin 1280000) (q : Fin 64) : EReal :=
  max (∑ k : Fin 16, a0 (ix2 r k) * a1 (ix2 k q) + a2 (ix1 q)) 0

/-- The array the region leaves. -/
def linArr1 (a0 : S1280000x16.Idx → EReal) (a1 : S16x64.Idx → EReal) (a2 : S64.Idx → EReal) : S1280000x64.Idx → EReal :=
  fun i => linEntry1 a0 a1 a2 (i 0) (i 1)

theorem linArr1_apply (a0 : S1280000x16.Idx → EReal) (a1 : S16x64.Idx → EReal) (a2 : S64.Idx → EReal) (r : Fin 1280000) (q : Fin 64) :
    linArr1 a0 a1 a2 (ix2 r q) = max (∑ k : Fin 16, a0 (ix2 r k) * a1 (ix2 k q) + a2 (ix1 q)) 0 := rfl

/-- One entry of a block: if the loaded row block holds rows `o · 8000 …` of the first operand and the resident
    blocks are the whole weight and bias, the stored block at `j` is the array's entry at row `o · 8000 + j 0`. -/
theorem lin_entry1 (x : Vec Ideal S8000x16 .f32) (w : Vec Ideal S16x64 .f32) (b : Vec Ideal S64 .f32)
    (a0 : S1280000x16.Idx → EReal) (a1 : S16x64.Idx → EReal) (a2 : S64.Idx → EReal) (o : ℕ)
    (hx : ∀ (p : Fin 8000) (k : Fin 16) (r : Fin 1280000), r.val = o * 8000 + p.val → x (ix2 p k) = a0 (ix2 r k))
    (hw : w = a1) (hb : b = a2)
    (j : S8000x64.Idx) (i : S1280000x64.Idx) (hi0 : (i 0).val = o * 8000 + (j 0).val) (hi1 : (i 1).val = (j 1).val) :
    k1_pay1 (F := Ideal) x w b j = linArr1 a0 a1 a2 i := by
  obtain ⟨p, q, rfl⟩ : ∃ (p : Fin 8000) (q : Fin 64), j = ix2 p q := ⟨j 0, j 1, eq_ix2 j⟩
  obtain ⟨r, q', rfl⟩ : ∃ (r : Fin 1280000) (q' : Fin 64), i = ix2 r q' := ⟨i 0, i 1, eq_ix2 i⟩
  have hr : r.val = o * 8000 + p.val := hi0
  obtain rfl : q' = q := Fin.ext hi1
  subst hw hb
  rw [Cert.Bridge.k1_pay1_apply, linArr1_apply]
  refine congrArg (fun s => max (s + b (ix1 q')) 0) (Finset.sum_congr rfl fun k _ => ?_)
  rw [hx p k r hr]

/-- The index maps over the grid: the row block and the output block move together, block `t` at point `t`; the
    weight's and the bias's block index is constant. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of that array. -/
theorem flushed1_eq (c : Dev nD) (t : Fin cfg1.N) :
    (dat1 V c).flushed 3 t = ((cfg1.win 3).blk t).view.read (Elt Ideal) (linArr1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero2_1]
  simp only [View.ld_unit_zero (S := S8000x16) zero2_1, View.ld_unit_zero (S := S16x64) zero2_1, View.ld_unit_zero (S := S64) zero1_1]
  obtain ⟨e0, e1, e2, e3, e4, e5, e6⟩ := idx_facts1 t
  funext j
  refine lin_entry1 (iblk1 V c 0 t) (iblk1 V c 1 t) (iblk1 V c 2 t) (V c (Pipeline.arrRef spec1 0)) (V c (Pipeline.arrRef spec1 1)) (V c (Pipeline.arrRef spec1 2))
    (win1_3.index t (0 : Fin 2)) ?_ ?_ ?_ j (((cfg1.win 3).blk t).view.emb j) ?_ ?_
  · intro p k r hr
    show V c (Pipeline.arrRef spec1 0) (((cfg1.win 0).blk t).view.emb (ix2 p k)) = V c (Pipeline.arrRef spec1 0) (ix2 r k)
    have h : ((cfg1.win 0).blk t).view.emb (ix2 p k) = (ix2 r k : S1280000x16.Idx) := by
      funext a; apply Fin.ext
      match a with
      | ⟨0, _⟩ => show win1_0.index t (0 : Fin 2) * 8000 + 1 * p.val = r.val; omega
      | ⟨1, _⟩ => show win1_0.index t (1 : Fin 2) * 16 + 1 * k.val = k.val; omega
    rw [h]
  · funext y
    show V c (Pipeline.arrRef spec1 1) (((cfg1.win 1).blk t).view.emb y) = V c (Pipeline.arrRef spec1 1) y
    have h : ((cfg1.win 1).blk t).view.emb y = y := by
      funext a; apply Fin.ext
      match a with
      | ⟨0, _⟩ => show win1_1.index t (0 : Fin 2) * 16 + 1 * (y 0).val = (y 0).val; omega
      | ⟨1, _⟩ => show win1_1.index t (1 : Fin 2) * 64 + 1 * (y 1).val = (y 1).val; omega
    rw [h]
  · funext y
    show V c (Pipeline.arrRef spec1 2) (((cfg1.win 2).blk t).view.emb y) = V c (Pipeline.arrRef spec1 2) y
    have h : ((cfg1.win 2).blk t).view.emb y = y := by
      funext a; apply Fin.ext
      match a with
      | ⟨0, _⟩ => show win1_2.index t (0 : Fin 1) * 64 + 1 * (y 0).val = (y 0).val; omega
    rw [h]
  · show win1_3.index t (0 : Fin 2) * 8000 + 1 * (j 0).val = win1_3.index t (0 : Fin 2) * 8000 + (j 0).val; omega
  · show win1_3.index t (1 : Fin 2) * 64 + 1 * (j 1).val = (j 1).val; omega

/-- An index of the array is in point `t`'s block iff each coordinate is in the block's range on its axis. -/
theorem mem_blk1 (t : Fin cfg1.N) (i : S1280000x64.Idx) :
    i ∈ ((cfg1.win 3).blk t).view.set ↔ ∀ a : Fin 2, win1_3.index t a * S8000x64.size a ≤ (i a).val ∧ (i a).val < win1_3.index t a * S8000x64.size a + S8000x64.size a := by
  show i ∈ ((View.whole main_v1).slice (win1_3.rect t)).set ↔ _
  rw [View.set_slice_whole, Rect.mem_set_unit]
  exact Iff.rfl

/-- Every row of the array is in some point's block: row `r` in block `r / 8000`. -/
theorem cover1 (i : S1280000x64.Idx) : ∃ t : Fin cfg1.N, (cfg1.win 3).flush t = true ∧ i ∈ ((cfg1.win 3).blk t).view.set := by
  have hi0 : (i 0).val < 1280000 := (i 0).isLt
  have hi1 : (i 1).val < 64 := (i 1).isLt
  have hN : cfg1.N = 160 := N_1
  refine ⟨⟨(i 0).val / 8000, by rw [hN]; omega⟩, flush1_3 _, ?_⟩
  rw [mem_blk1]
  obtain ⟨-, -, -, -, -, e5, e6⟩ := idx_facts1 ⟨(i 0).val / 8000, by rw [hN]; omega⟩
  intro a
  match a with
  | ⟨0, _⟩ => show win1_3.index _ (0 : Fin 2) * 8000 ≤ (i 0).val ∧ (i 0).val < win1_3.index _ (0 : Fin 2) * 8000 + 8000; rw [e5]; show (i 0).val / 8000 * 8000 ≤ (i 0).val ∧ (i 0).val < (i 0).val / 8000 * 8000 + 8000; omega
  | ⟨1, _⟩ => show win1_3.index _ (1 : Fin 2) * 64 ≤ (i 1).val ∧ (i 1).val < win1_3.index _ (1 : Fin 2) * 64 + 64; rw [e6]; omega

/-- THE ARRAY after the region: the dense layer of the arrays it was entered with. -/
theorem arr1 (c : Dev nD) : aout1 V c = linArr1 (ain1_0 V c) (ain1_1 V c) (ain1_2 V c) :=
  (dat1 V c).arrAt_eq_of_cover 3 _ (fun t _ => flushed1_eq V c t) (cover1)

/-- The same, read at an entry. -/
theorem arr1_apply (c : Dev nD) (r : Fin 1280000) (q : Fin 64) :
    aout1 V c (ix2 r q) = max (∑ k : Fin 16, ain1_0 V c (ix2 r k) * ain1_1 V c (ix2 k q) + ain1_2 V c (ix1 q)) 0 := by
  rw [arr1]; rfl

end Cert.KernelIdeal.Reg
-- ==== Proof.KI.ChainAll.lean ====
/-
  The kernel program's result along the fold, as one function of the sixteen argument arrays: the two stem regions'
  arrays (KI/Val0.lean, KI/Val1.lean), then the four layers (KI/ChainL0.lean … KI/ChainL3.lean) in order.
-/
import proofs.«178590_j59433757442359_2_alg».proof.Proof.KI.ChainL0
import proofs.«178590_j59433757442359_2_alg».proof.Proof.KI.ChainL1
import proofs.«178590_j59433757442359_2_alg».proof.Proof.KI.ChainL2
import proofs.«178590_j59433757442359_2_alg».proof.Proof.KI.ChainL3
import proofs.«178590_j59433757442359_2_alg».proof.Proof.KI.Val0
import proofs.«178590_j59433757442359_2_alg».proof.Proof.KI.Val1
import proofs.«178590_j59433757442359_2_alg».proof.Proof.KI.RunInst

-- memberships decided over the program's references recurse past the default depth
set_option maxRecDepth 16384

noncomputable section

namespace Cert.KernelIdeal.Chain

open Cert.KernelIdeal Cert.KernelIdeal.Gen Cert.KernelIdeal.Reg Cert.KernelIdeal.HostSide
open Idealize.ShloMosaic Idealize.ShloMosaic.TcCoe Idealize.ShloMosaic.StableHlo Idealize.SL.Sem
open Cert.ReferenceIdeal.RefRun (srcCol dstCol wrapIdx gatherRows scatterSum selfPlusAgg eps_0 W1_0 b1_0 g1_0 bt1_0 W2_0 b2_0 lng_0 lnb_0 eps_1 W1_1 b1_1 g1_1 bt1_1 W2_1 b2_1 lng_1 lnb_1 eps_2 W1_2 b1_2 g1_2 bt1_2 W2_2 b2_2 lng_2 lnb_2 eps_3 W1_3 b1_3 g1_3 bt1_3 W2_3 b2_3 lng_3 lnb_3)

/-- The kernel program's function of its sixteen argument arrays. -/
def kfwd (a0 : (S80000x32.Idx → EReal)) (a1 : (⟨S2x1280000, .i32⟩ : BufTy).Contents (Elt Ideal)) (a2 : (S1280000x16.Idx → EReal)) (a3 : (S32x64.Idx → EReal)) (a4 : (S64.Idx → EReal)) (a5 : (S16x64.Idx → EReal)) (a6 : (S64.Idx → EReal)) (a7 : (S4x64x128.Idx → EReal)) (a8 : (S4x128.Idx → EReal)) (a9 : (S4x128.Idx → EReal)) (a10 : (S4x128.Idx → EReal)) (a11 : (S4x128x64.Idx → EReal)) (a12 : (S4x64.Idx → EReal)) (a13 : (S4.Idx → EReal)) (a14 : (S4x64.Idx → EReal)) (a15 : (S4x64.Idx → EReal)) : (S80000x64.Idx → EReal) :=
  kLastLayer (kLayer (kLayer (kLayer (linArr0 a0 a3 a4) (linArr1 a2 a5 a6) (srcCol (F := Ideal) a1) (dstCol (F := Ideal) a1) (eps_0 (F := Ideal) a13) (W1_0 (F := Ideal) a7) (b1_0 (F := Ideal) a8) (g1_0 (F := Ideal) a9) (bt1_0 (F := Ideal) a10) (W2_0 (F := Ideal) a11) (b2_0 (F := Ideal) a12) (lng_0 (F := Ideal) a14) (lnb_0 (F := Ideal) a15)) (linArr1 a2 a5 a6) (srcCol (F := Ideal) a1) (dstCol (F := Ideal) a1) (eps_1 (F := Ideal) a13) (W1_1 (F := Ideal) a7) (b1_1 (F := Ideal) a8) (g1_1 (F := Ideal) a9) (bt1_1 (F := Ideal) a10) (W2_1 (F := Ideal) a11) (b2_1 (F := Ideal) a12) (lng_1 (F := Ideal) a14) (lnb_1 (F := Ideal) a15)) (linArr1 a2 a5 a6) (srcCol (F := Ideal) a1) (dstCol (F := Ideal) a1) (eps_2 (F := Ideal) a13) (W1_2 (F := Ideal) a7) (b1_2 (F := Ideal) a8) (g1_2 (F := Ideal) a9) (bt1_2 (F := Ideal) a10) (W2_2 (F := Ideal) a11) (b2_2 (F := Ideal) a12) (lng_2 (F := Ideal) a14) (lnb_2 (F := Ideal) a15)) (linArr1 a2 a5 a6) (srcCol (F := Ideal) a1) (dstCol (F := Ideal) a1) (eps_3 (F := Ideal) a13) (W1_3 (F := Ideal) a7) (b1_3 (F := Ideal) a8) (g1_3 (F := Ideal) a9) (bt1_3 (F := Ideal) a10) (W2_3 (F := Ideal) a11) (b2_3 (F := Ideal) a12) (lng_3 (F := Ideal) a14) (lnb_3 (F := Ideal) a15)

variable (D : Data Ideal) (m : (ℓ : Loc nD τ sig) → Buf (Elt Ideal) ℓ) (c : Dev nD)

/-- Region 0 leaves the node features entering layer 0. -/
theorem stem_h (h0 : D.r0.dat = dat0) : W2 D m c (Proc.devRef .tc main_v0) = linArr0 (m ((c : Thread nD τ).loc main_arg0)) (m ((c : Thread nD τ).loc main_arg3)) (m ((c : Thread nD τ).loc main_arg4)) :=
  (W2_of_ne D m c main_v0 (by decide)).trans ((W1_arr D m c 3 : W1 D m c (Proc.devRef .tc main_v0) = _).trans (by rw [h0]; exact arr0 (V0 m) c))

/-- Region 1 leaves the edge features; its three operands are arguments, as launched. -/
theorem stem_ea (h1 : D.r1.dat = dat1) : W2 D m c (Proc.devRef .tc main_v1) = linArr1 (m ((c : Thread nD τ).loc main_arg2)) (m ((c : Thread nD τ).loc main_arg5)) (m ((c : Thread nD τ).loc main_arg6)) := by
  have e : W2 D m c (Proc.devRef .tc main_v1) = linArr1 (W1 D m c (Proc.devRef .tc main_arg2)) (W1 D m c (Proc.devRef .tc main_arg5)) (W1 D m c (Proc.devRef .tc main_arg6)) :=
    (W2_arr D m c 3 : W2 D m c (Proc.devRef .tc main_v1) = _).trans (by rw [h1]; exact arr1 (V1 D m) c)
  rw [e, W1_of_ne D m c main_arg2 (by decide), W1_of_ne D m c main_arg5 (by decide), W1_of_ne D m c main_arg6 (by decide)]

/-- The kernel program's result buffer at the end of the fold is `kfwd` of the argument arrays. -/
theorem kernel_result (h0 : D.r0.dat = dat0) (h1 : D.r1.dat = dat1) (h2 : D.r2.dat = dat2) (h3 : D.r3.dat = dat3) (h4 : D.r4.dat = dat4) (h5 : D.r5.dat = dat5) (h6 : D.r6.dat = dat6) (h7 : D.r7.dat = dat7) (h8 : D.r8.dat = dat8) (h9 : D.r9.dat = dat9) (h10 : D.r10.dat = dat10) (h11 : D.r11.dat = dat11) (h12 : D.r12.dat = dat12) (h13 : D.r13.dat = dat13) :
    W26 D m c (Proc.devRef .tc main_v185) = kfwd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [layer3 D m c h11 h12 h13, layer2 D m c h8 h9 h10, layer1 D m c h5 h6 h7, layer0 D m c h2 h3 h4, stem_h D m c h0, stem_ea D m c h1]
  rfl

/-- The same at the run's own proof data: each region's data there are the region's, by definition. -/
theorem kernel_result_D (m : (ℓ : Loc nD τ sig) → Buf (Elt Ideal) ℓ) (c : Dev nD) :
    W26 (Cert.KernelIdeal.Reg.D (F := Ideal)) m c (Proc.devRef .tc main_v185)
      = kfwd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  kernel_result (Cert.KernelIdeal.Reg.D (F := Ideal)) m c rfl rfl rfl rfl rfl rfl rfl rfl rfl rfl rfl rfl rfl rfl

end Cert.KernelIdeal.Chain

end
-- ==== Proof.KI.LayerSpec.lean ====
import proofs.«178590_j59433757442359_2_alg».proof.Proof.KI.Val0
import proofs.«178590_j59433757442359_2_alg».proof.Proof.KI.Val1
import proofs.«178590_j59433757442359_2_alg».proof.Proof.KI.Val2
import proofs.«178590_j59433757442359_2_alg».proof.Proof.KI.Val5
import proofs.«178590_j59433757442359_2_alg».proof.Proof.KI.Val8
import proofs.«178590_j59433757442359_2_alg».proof.Proof.KI.Val11
import proofs.«178590_j59433757442359_2_alg».proof.Proof.KI.Val3
import proofs.«178590_j59433757442359_2_alg».proof.Proof.KI.Val6
import proofs.«178590_j59433757442359_2_alg».proof.Proof.KI.Val9
import proofs.«178590_j59433757442359_2_alg».proof.Proof.KI.Val12
import proofs.«178590_j59433757442359_2_alg».proof.Proof.KI.ValGin
import proofs.«178590_j59433757442359_2_alg».proof.Proof.Math.Spec

noncomputable section

namespace Cert.KernelIdeal.Reg

open Cert.KernelIdeal Cert.KernelIdeal.Gen
open Idealize.ShloMosaic Idealize.ShloMosaic.ValueIdx
open Cert.Bridge

/-! # The kernel regions' array functions are the layer's specification functions of their operands' entries

    An array is read as a function of its coordinates: `asMat` a rank-2 array, `asVec` a rank-1 array, `asRow` the
    one row of a [1, n] array. -/

/-- A rank-2 array as a function of its row and its column. -/
def asMat {R C : ℕ} (X : (⟨2, ![R, C]⟩ : Shape).Idx → EReal) : Fin R → Fin C → EReal := fun i q => X (ix2 i q)

/-- A rank-1 array as a function of its coordinate. -/
def asVec {C : ℕ} (b : (⟨1, ![C]⟩ : Shape).Idx → EReal) : Fin C → EReal := fun q => b (ix1 q)

/-- The one row of a [1, n] array as a function of its column. -/
def asRow {C : ℕ} (r : (⟨2, ![1, C]⟩ : Shape).Idx → EReal) : Fin C → EReal := fun q => r (ix2 (0 : Fin 1) q)

/-! ## The two embeddings -/

theorem linArr0_spec (a0 : S80000x32.Idx → EReal) (a1 : S32x64.Idx → EReal) (a2 : S64.Idx → EReal) (r : Fin 80000) (q : Fin 64) :
    linArr0 a0 a1 a2 (ix2 r q) = specEmbed (asMat a0) (asMat a1) (asVec a2) r q := rfl

theorem linArr1_spec (a0 : S1280000x16.Idx → EReal) (a1 : S16x64.Idx → EReal) (a2 : S64.Idx → EReal) (r : Fin 1280000) (q : Fin 64) :
    linArr1 a0 a1 a2 (ix2 r q) = specEmbed (asMat a0) (asMat a1) (asVec a2) r q := rfl

/-! ## The message, in each layer -/

theorem msgArr2_spec (a0 a1 : S1280000x64.Idx → EReal) (e : Fin 1280000) (q : Fin 64) :
    msgArr2 a0 a1 (ix2 e q) = specMsg (asMat a0) (asMat a1) e q := rfl

theorem msgArr5_spec (a0 a1 : S1280000x64.Idx → EReal) (e : Fin 1280000) (q : Fin 64) :
    msgArr5 a0 a1 (ix2 e q) = specMsg (asMat a0) (asMat a1) e q := rfl

theorem msgArr8_spec (a0 a1 : S1280000x64.Idx → EReal) (e : Fin 1280000) (q : Fin 64) :
    msgArr8 a0 a1 (ix2 e q) = specMsg (asMat a0) (asMat a1) e q := rfl

theorem msgArr11_spec (a0 a1 : S1280000x64.Idx → EReal) (e : Fin 1280000) (q : Fin 64) :
    msgArr11 a0 a1 (ix2 e q) = specMsg (asMat a0) (asMat a1) e q := rfl

/-! ## The first dense layer and its column sums, in each layer -/

theorem zEntry3_spec (a0 : S80000x64.Idx → EReal) (a1 : S64x128.Idx → EReal) (a2 : S128.Idx → EReal) :
    (fun r j => zEntry3 a0 a1 a2 r j) = specZ (asMat a0) (asMat a1) (asVec a2) := rfl

theorem zArr3_spec (a0 : S80000x64.Idx → EReal) (a1 : S64x128.Idx → EReal) (a2 : S128.Idx → EReal) (r : Fin 80000) (j : Fin 128) :
    zArr3 a0 a1 a2 (ix2 r j) = specZ (asMat a0) (asMat a1) (asVec a2) r j := rfl

theorem zEntry6_spec (a0 : S80000x64.Idx → EReal) (a1 : S64x128.Idx → EReal) (a2 : S128.Idx → EReal) :
    (fun r j => zEntry6 a0 a1 a2 r j) = specZ (asMat a0) (asMat a1) (asVec a2) := rfl

theorem zArr6_spec (a0 : S80000x64.Idx → EReal) (a1 : S64x128.Idx → EReal) (a2 : S128.Idx → EReal) (r : Fin 80000) (j : Fin 128) :
    zArr6 a0 a1 a2 (ix2 r j) = specZ (asMat a0) (asMat a1) (asVec a2) r j := rfl

theorem zEntry9_spec (a0 : S80000x64.Idx → EReal) (a1 : S64x128.Idx → EReal) (a2 : S128.Idx → EReal) :
    (fun r j => zEntry9 a0 a1 a2 r j) = specZ (asMat a0) (asMat a1) (asVec a2) := rfl

theorem zArr9_spec (a0 : S80000x64.Idx → EReal) (a1 : S64x128.Idx → EReal) (a2 : S128.Idx → EReal) (r : Fin 80000) (j : Fin 128) :
    zArr9 a0 a1 a2 (ix2 r j) = specZ (asMat a0) (asMat a1) (asVec a2) r j := rfl

theorem zEntry12_spec (a0 : S80000x64.Idx → EReal) (a1 : S64x128.Idx → EReal) (a2 : S128.Idx → EReal) :
    (fun r j => zEntry12 a0 a1 a2 r j) = specZ (asMat a0) (asMat a1) (asVec a2) := rfl

theorem zArr12_spec (a0 : S80000x64.Idx → EReal) (a1 : S64x128.Idx → EReal) (a2 : S128.Idx → EReal) (r : Fin 80000) (j : Fin 128) :
    zArr12 a0 a1 a2 (ix2 r j) = specZ (asMat a0) (asMat a1) (asVec a2) r j := rfl

/-! ## The second half of a layer -/

theorem ginY_spec (a0 : S80000x128.Idx → EReal) (a1 a2 a3 a4 : S1x128.Idx → EReal) (a5 : S128x64.Idx → EReal) (a6 : S64.Idx → EReal) :
    (fun r q => ginY a0 a1 a2 a3 a4 a5 a6 r q) = specY bnAct (asMat a0) (asRow a1) (asRow a2) (asRow a3) (asRow a4) (asMat a5) (asVec a6) := rfl

theorem ginPre_spec (a0 : S80000x128.Idx → EReal) (a1 a2 a3 a4 : S1x128.Idx → EReal) (a5 : S128x64.Idx → EReal) (a6 : S64.Idx → EReal) (a7 a8 : S1x64.Idx → EReal) (r : Fin 80000) (q : Fin 64) :
    ginPre a0 a1 a2 a3 a4 a5 a6 a7 a8 r q
      = specTail false (asMat a0) (asRow a1) (asRow a2) (asRow a3) (asRow a4) (asMat a5) (asVec a6) (asRow a7) (asRow a8) r q := by
  unfold specTail specLN
  rw [if_neg (by decide)]
  rfl

theorem ginArrLast_spec (a0 : S80000x128.Idx → EReal) (a1 a2 a3 a4 : S1x128.Idx → EReal) (a5 : S128x64.Idx → EReal) (a6 : S64.Idx → EReal) (a7 a8 : S1x64.Idx → EReal) (r : Fin 80000) (q : Fin 64) :
    ginArrLast a0 a1 a2 a3 a4 a5 a6 a7 a8 (ix2 r q)
      = specTail false (asMat a0) (asRow a1) (asRow a2) (asRow a3) (asRow a4) (asMat a5) (asVec a6) (asRow a7) (asRow a8) r q :=
  ginPre_spec a0 a1 a2 a3 a4 a5 a6 a7 a8 r q

theorem ginArrRelu_spec (a0 : S80000x128.Idx → EReal) (a1 a2 a3 a4 : S1x128.Idx → EReal) (a5 : S128x64.Idx → EReal) (a6 : S64.Idx → EReal) (a7 a8 : S1x64.Idx → EReal) (r : Fin 80000) (q : Fin 64) :
    ginArrRelu a0 a1 a2 a3 a4 a5 a6 a7 a8 (ix2 r q)
      = specTail true (asMat a0) (asRow a1) (asRow a2) (asRow a3) (asRow a4) (asMat a5) (asVec a6) (asRow a7) (asRow a8) r q := by
  unfold specTail specLN
  rw [if_pos rfl]
  rfl

end Cert.KernelIdeal.Reg
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«178590_j59433757442359_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.Math.Forward.lean ====
/-
  The whole network as a function of entries, in the two spellings, with the edge aggregation left abstract.

  Both programs embed the nodes and the edges, then four times: aggregate the messages over the edges (the same host
  operations in both, kept as a parameter aggOf of the node features and the edge features), combine, apply the first
  dense layer Z, take Z's column statistics, and apply the tail. One spelling feeds the tail the one-pass statistics
  (variance clamped inside), the other the two-pass statistics (no clamp). When every parameter and input entry is a
  real number and the aggregation maps real entries to real entries, every layer's output is real and the two
  spellings compute the same function.
-/
import proofs.«178590_j59433757442359_2_alg».proof.Proof.Math.Spec
import proofs.«178590_j59433757442359_2_alg».proof.Proof.Math.SpecLaw

noncomputable section

namespace Cert.Bridge

open Idealize.ShloMosaic

/-- The network's parameters, entry by entry. -/
structure Params where
  Wx : Fin 32 → Fin 64 → EReal
  bx : Fin 64 → EReal
  We : Fin 16 → Fin 64 → EReal
  be : Fin 64 → EReal
  W1 : Fin 4 → Fin 64 → Fin 128 → EReal
  b1 : Fin 4 → Fin 128 → EReal
  g1 : Fin 4 → Fin 128 → EReal
  bt1 : Fin 4 → Fin 128 → EReal
  W2 : Fin 4 → Fin 128 → Fin 64 → EReal
  b2 : Fin 4 → Fin 64 → EReal
  eps : Fin 4 → EReal
  lng : Fin 4 → Fin 64 → EReal
  lnb : Fin 4 → Fin 64 → EReal

/-- Every parameter entry is a real number. -/
structure Params.AllReal (P : Params) : Prop where
  Wx : ∀ k q, IsReal (P.Wx k q)
  bx : ∀ q, IsReal (P.bx q)
  We : ∀ k q, IsReal (P.We k q)
  be : ∀ q, IsReal (P.be q)
  W1 : ∀ l k j, IsReal (P.W1 l k j)
  b1 : ∀ l j, IsReal (P.b1 l j)
  g1 : ∀ l j, IsReal (P.g1 l j)
  bt1 : ∀ l j, IsReal (P.bt1 l j)
  W2 : ∀ l j q, IsReal (P.W2 l j q)
  b2 : ∀ l q, IsReal (P.b2 l q)
  eps : ∀ l, IsReal (P.eps l)
  lng : ∀ l q, IsReal (P.lng l q)
  lnb : ∀ l q, IsReal (P.lnb l q)

/-- The node features and the edge features. -/
abbrev Nodes : Type := Fin 80000 → Fin 64 → EReal
abbrev Edges : Type := Fin 1280000 → Fin 64 → EReal

/-- Z of layer l from the node features h and the edge features ea. -/
def layerZ (P : Params) (aggOf : Nodes → Edges → Nodes) (ea : Edges) (l : Fin 4) (h : Nodes) : Fin 80000 → Fin 128 → EReal :=
  specZ (specZin (P.eps l) h (aggOf h ea)) (P.W1 l) (P.b1 l)

/-- One layer, one-pass statistics with the variance clamped inside the activation. -/
def stepK (P : Params) (aggOf : Nodes → Edges → Nodes) (ea : Edges) (relu : Bool) (l : Fin 4) (h : Nodes) : Nodes :=
  specTail relu (layerZ P aggOf ea l h) (meanOf (layerZ P aggOf ea l h)) (varOnePass (layerZ P aggOf ea l h))
    (P.g1 l) (P.bt1 l) (P.W2 l) (P.b2 l) (P.lng l) (P.lnb l)

/-- One layer, two-pass statistics with no clamp. -/
def stepR (P : Params) (aggOf : Nodes → Edges → Nodes) (ea : Edges) (relu : Bool) (l : Fin 4) (h : Nodes) : Nodes :=
  specTailRef relu (layerZ P aggOf ea l h) (meanOf (layerZ P aggOf ea l h)) (varTwoPass (layerZ P aggOf ea l h))
    (P.g1 l) (P.bt1 l) (P.W2 l) (P.b2 l) (P.lng l) (P.lnb l)

/-- The node embedding and the edge embedding. -/
def nodeEmbed (P : Params) (X : Fin 80000 → Fin 32 → EReal) : Nodes := specEmbed X P.Wx P.bx
def edgeEmbed (P : Params) (EA : Fin 1280000 → Fin 16 → EReal) : Edges := specEmbed EA P.We P.be

/-- The network, one-pass spelling: four layers, the last without the final rectifier. -/
def fwdK (P : Params) (aggOf : Nodes → Edges → Nodes) (X : Fin 80000 → Fin 32 → EReal) (EA : Fin 1280000 → Fin 16 → EReal) :
    Nodes :=
  stepK P aggOf (edgeEmbed P EA) false 3 (stepK P aggOf (edgeEmbed P EA) true 2
    (stepK P aggOf (edgeEmbed P EA) true 1 (stepK P aggOf (edgeEmbed P EA) true 0 (nodeEmbed P X))))

/-- The network, two-pass spelling. -/
def fwdR (P : Params) (aggOf : Nodes → Edges → Nodes) (X : Fin 80000 → Fin 32 → EReal) (EA : Fin 1280000 → Fin 16 → EReal) :
    Nodes :=
  stepR P aggOf (edgeEmbed P EA) false 3 (stepR P aggOf (edgeEmbed P EA) true 2
    (stepR P aggOf (edgeEmbed P EA) true 1 (stepR P aggOf (edgeEmbed P EA) true 0 (nodeEmbed P X))))

/-- The aggregation maps real entries to real entries. -/
def AggReal (aggOf : Nodes → Edges → Nodes) : Prop :=
  ∀ (h : Nodes) (ea : Edges), (∀ i q, IsReal (h i q)) → (∀ e q, IsReal (ea e q)) → ∀ i q, IsReal (aggOf h ea i q)

section
variable (P : Params) (hP : P.AllReal) (aggOf : Nodes → Edges → Nodes) (hagg : AggReal aggOf)
include hP hagg

/-- Z of a layer is real for real features. -/
theorem layerZ_real (ea : Edges) (hea : ∀ e q, IsReal (ea e q)) (l : Fin 4) (h : Nodes) (hh : ∀ i q, IsReal (h i q))
    (i : Fin 80000) (j : Fin 128) : IsReal (layerZ P aggOf ea l h i j) :=
  specZ_real _ _ _ (specZin_real _ _ _ (hP.eps l) hh (hagg h ea hh hea)) (hP.W1 l) (hP.b1 l) i j

/-- One layer's two spellings agree on real features. -/
theorem stepK_eq_stepR (ea : Edges) (hea : ∀ e q, IsReal (ea e q)) (relu : Bool) (l : Fin 4) (h : Nodes)
    (hh : ∀ i q, IsReal (h i q)) : stepK P aggOf ea relu l h = stepR P aggOf ea relu l h :=
  specTail_eq_ref relu _ (layerZ_real P hP aggOf hagg ea hea l h hh) _ _ _ _ _ _

/-- One layer's output is real for real features. -/
theorem stepK_real (ea : Edges) (hea : ∀ e q, IsReal (ea e q)) (relu : Bool) (l : Fin 4) (h : Nodes)
    (hh : ∀ i q, IsReal (h i q)) (i : Fin 80000) (q : Fin 64) : IsReal (stepK P aggOf ea relu l h i q) :=
  specTail_stats_real relu _ _ _ _ _ _ _ (layerZ_real P hP aggOf hagg ea hea l h hh) (hP.g1 l) (hP.bt1 l) (hP.W2 l)
    (hP.b2 l) (hP.lng l) (hP.lnb l) i q

/-- The embeddings are real for real inputs. -/
theorem nodeEmbed_real (X : Fin 80000 → Fin 32 → EReal) (hX : ∀ i k, IsReal (X i k)) (i : Fin 80000) (q : Fin 64) :
    IsReal (nodeEmbed P X i q) :=
  specEmbed_real X P.Wx P.bx hX hP.Wx hP.bx i q

theorem edgeEmbed_real (EA : Fin 1280000 → Fin 16 → EReal) (hE : ∀ e k, IsReal (EA e k)) (e : Fin 1280000) (q : Fin 64) :
    IsReal (edgeEmbed P EA e q) :=
  specEmbed_real EA P.We P.be hE hP.We hP.be e q

/-- The two spellings of the network agree, and the output is real, for real inputs and parameters. -/
theorem forward_eq (X : Fin 80000 → Fin 32 → EReal) (EA : Fin 1280000 → Fin 16 → EReal) (hX : ∀ i k, IsReal (X i k))
    (hE : ∀ e k, IsReal (EA e k)) :
    fwdK P aggOf X EA = fwdR P aggOf X EA ∧ ∀ i q, IsReal (fwdK P aggOf X EA i q) := by
  have hea := edgeEmbed_real P hP aggOf hagg EA hE
  have h0 := nodeEmbed_real P hP aggOf hagg X hX
  have h1 := stepK_real P hP aggOf hagg _ hea true 0 _ h0
  have h2 := stepK_real P hP aggOf hagg _ hea true 1 _ h1
  have h3 := stepK_real P hP aggOf hagg _ hea true 2 _ h2
  have h4 := stepK_real P hP aggOf hagg _ hea false 3 _ h3
  refine ⟨?_, h4⟩
  unfold fwdK fwdR
  rw [← stepK_eq_stepR P hP aggOf hagg _ hea true 0 _ h0, ← stepK_eq_stepR P hP aggOf hagg _ hea true 1 _ h1,
    ← stepK_eq_stepR P hP aggOf hagg _ hea true 2 _ h2, ← stepK_eq_stepR P hP aggOf hagg _ hea false 3 _ h3]

end

end Cert.Bridge

end
-- ==== Proof.Math.Aggregate.lean ====
/-
  The edge aggregation, entry by entry, and its realness.

  Each edge e has a source node (a 32-bit index, a negative one counted from the end, then clamped into the node range)
  and a destination node. The rows of the node features are taken at the edges' sources; the message of edge e is
  max (h (source e) + ea e, 0); the aggregation at node i is zero plus the sum, over the edges whose destination is i, of
  their messages. Sums of real numbers being real, the aggregation maps real features to real features.
-/
import proofs.«178590_j59433757442359_2_alg».proof.Proof.LibRowGather
import proofs.«178590_j59433757442359_2_alg».proof.Proof.LibEdgeAggregate
import proofs.«178590_j59433757442359_2_alg».proof.Proof.Math.Forward

noncomputable section

namespace Cert.Bridge

open Idealize.ShloMosaic Idealize.ShloMosaic.ValueIdx Cert.Lib.Rows Cert.Lib.EdgeAggregate

/-- The rows of the node features taken at the edges' sources. -/
def gatherSpec (src : IVec ⟨1, ![1280000]⟩ 32) (h : Nodes) : Edges :=
  fun e q => h (srcRow 80000 (by decide) 80000#32 (src (ix1 e))) q

/-- Zero plus, at node i, the sum of the rows of the edges whose destination is i. -/
def scatterSpec (dst : IVec ⟨1, ![1280000]⟩ 32) (msg : Edges) : Nodes :=
  fun i q => 0 + ∑ e : Fin 1280000, if (dst (ix1 e)).toInt = (i.val : Int) then msg e q else 0

/-- The aggregation: gather, message, scatter-add. -/
def aggSpec (src dst : IVec ⟨1, ![1280000]⟩ 32) : Nodes → Edges → Nodes :=
  fun h ea => scatterSpec dst (specMsg (gatherSpec src h) ea)

theorem gatherSpec_real (src : IVec ⟨1, ![1280000]⟩ 32) (h : Nodes) (hh : ∀ i q, IsReal (h i q)) (e : Fin 1280000) (q : Fin 64) :
    IsReal (gatherSpec src h e q) :=
  hh _ q

theorem scatterSpec_real (dst : IVec ⟨1, ![1280000]⟩ 32) (msg : Edges) (hm : ∀ e q, IsReal (msg e q)) (i : Fin 80000)
    (q : Fin 64) : IsReal (scatterSpec dst msg i q) :=
  IsReal.zero.add (IsReal.sum _ _ fun e _ => by
    split
    · exact hm e q
    · exact IsReal.zero)

/-- The aggregation maps real features to real features. -/
theorem aggSpec_real (src dst : IVec ⟨1, ![1280000]⟩ 32) : AggReal (aggSpec src dst) :=
  fun h ea hh hea i q =>
    scatterSpec_real dst _ (specMsg_real _ ea (gatherSpec_real src h hh) hea) i q

/-- The host's row gather at the wrapped source column, read at an entry: the rows taken at the sources. -/
theorem gather_rows_apply
    (wfG : GatherDims.WF ⟨2, ![80000, 64]⟩ ⟨2, ![1280000, 1]⟩ ⟨2, ![1280000, 64]⟩ [1] [0] [] [0] [] 1 ![1, 64])
    (h0 : (⟨0, ![]⟩ : Shape).BroadcastsInDim ⟨1, ![1280000]⟩ ![])
    (hc : (⟨1, ![1280000]⟩ : Shape).BroadcastsInDim ⟨2, ![1280000, 1]⟩ ![0])
    (H : FVec Ideal ⟨2, ![80000, 64]⟩ .f32) (src : IVec ⟨1, ![1280000]⟩ 32) (e : Fin 1280000) (q : Fin 64) :
    Host.gather (rowGatherDims 80000 1280000 64 wfG) H
        (broadcastInDim ⟨2, ![1280000, 1]⟩ ![0] hc
          (select (cmpi .slt src (broadcastInDim ⟨1, ![1280000]⟩ ![] h0 (constantI ⟨0, ![]⟩ 32 0#32)))
            (addi src (broadcastInDim ⟨1, ![1280000]⟩ ![] h0 (constantI ⟨0, ![]⟩ 32 80000#32))) src)) (ix2 e q)
      = gatherSpec src (fun i q => H (ix2 i q)) e q := by
  rw [rowGather_apply (by decide : 0 < 80000), col_apply, wrap_apply]
  rfl

/-- The host's accumulating row scatter onto zeros at the destination column, read at an entry. -/
theorem scatter_rows_apply
    (wfS : ScatterDims.WF ⟨2, ![80000, 64]⟩ ⟨2, ![1280000, 1]⟩ ⟨2, ![1280000, 64]⟩ [1] [0] [0] 1)
    (hc : (⟨1, ![1280000]⟩ : Shape).BroadcastsInDim ⟨2, ![1280000, 1]⟩ ![0])
    (hz : (⟨0, ![]⟩ : Shape).BroadcastsInDim ⟨2, ![80000, 64]⟩ ![])
    (dst : IVec ⟨1, ![1280000]⟩ 32) (upd : FVec Ideal ⟨2, ![1280000, 64]⟩ .f32) (i : Fin 80000) (q : Fin 64) :
    Host.scatterAdd (rowScatterDims 80000 1280000 64 wfS)
        (broadcastInDim ⟨2, ![80000, 64]⟩ ![] hz (constant (F := Ideal) ⟨0, ![]⟩ .f32 0x00000000#32))
        (broadcastInDim ⟨2, ![1280000, 1]⟩ ![0] hc dst) upd (ix2 i q)
      = scatterSpec dst (fun e q => upd (ix2 e q)) i q := by
  rw [rowScatterAdd_apply, zeros_apply]
  unfold scatterSpec
  refine congrArg (fun a : EReal => 0 + a) (Finset.sum_congr rfl fun e _ => ?_)
  rw [col_apply]

/-- The reference's aggregation term (gather, add the edge features, rectify, scatter-add onto zeros), read at an entry. -/
theorem aggregate_apply
    (wfG : GatherDims.WF ⟨2, ![80000, 64]⟩ ⟨2, ![1280000, 1]⟩ ⟨2, ![1280000, 64]⟩ [1] [0] [] [0] [] 1 ![1, 64])
    (wfS : ScatterDims.WF ⟨2, ![80000, 64]⟩ ⟨2, ![1280000, 1]⟩ ⟨2, ![1280000, 64]⟩ [1] [0] [0] 1)
    (h0 : (⟨0, ![]⟩ : Shape).BroadcastsInDim ⟨1, ![1280000]⟩ ![])
    (hc : (⟨1, ![1280000]⟩ : Shape).BroadcastsInDim ⟨2, ![1280000, 1]⟩ ![0])
    (hz : (⟨0, ![]⟩ : Shape).BroadcastsInDim ⟨2, ![80000, 64]⟩ ![])
    (hzE : (⟨0, ![]⟩ : Shape).BroadcastsInDim ⟨2, ![1280000, 64]⟩ ![])
    (H : FVec Ideal ⟨2, ![80000, 64]⟩ .f32) (EAv : FVec Ideal ⟨2, ![1280000, 64]⟩ .f32) (src dst : IVec ⟨1, ![1280000]⟩ 32)
    (i : Fin 80000) (q : Fin 64) :
    Host.scatterAdd (rowScatterDims 80000 1280000 64 wfS)
        (broadcastInDim ⟨2, ![80000, 64]⟩ ![] hz (constant (F := Ideal) ⟨0, ![]⟩ .f32 0x00000000#32))
        (broadcastInDim ⟨2, ![1280000, 1]⟩ ![0] hc dst)
        (maximumf
          (addf
            (Host.gather (rowGatherDims 80000 1280000 64 wfG) H
              (broadcastInDim ⟨2, ![1280000, 1]⟩ ![0] hc
                (select (cmpi .slt src (broadcastInDim ⟨1, ![1280000]⟩ ![] h0 (constantI ⟨0, ![]⟩ 32 0#32)))
                  (addi src (broadcastInDim ⟨1, ![1280000]⟩ ![] h0 (constantI ⟨0, ![]⟩ 32 80000#32))) src)))
            EAv)
          (broadcastInDim ⟨2, ![1280000, 64]⟩ ![] hzE (constant (F := Ideal) ⟨0, ![]⟩ .f32 0x00000000#32)))
        (ix2 i q)
      = aggSpec src dst (fun i q => H (ix2 i q)) (fun e q => EAv (ix2 e q)) i q := by
  rw [scatter_rows_apply]
  unfold aggSpec
  refine congrFun (congrFun (congrArg (scatterSpec dst) (funext fun e => funext fun c => ?_)) i) q
  show max (Host.gather (rowGatherDims 80000 1280000 64 wfG) H _ (ix2 e c) + EAv (ix2 e c))
      (broadcastInDim ⟨2, ![1280000, 64]⟩ ![] hzE (constant (F := Ideal) ⟨0, ![]⟩ .f32 0x00000000#32) (ix2 e c)) = _
  rw [gather_rows_apply, zeros_apply]
  rfl

end Cert.Bridge

end
-- ==== Proof.KI.HostSpec.lean ====
import proofs.«178590_j59433757442359_2_alg».proof.Proof.KI.LayerSpec
import proofs.«178590_j59433757442359_2_alg».proof.Proof.KI.HostDefs
import proofs.«178590_j59433757442359_2_alg».proof.Proof.Math.Aggregate
import Idealize.ShloMosaic.Lib.IdealHost
import Idealize.ShloMosaic.Lib.ValueLayout
import Idealize.ShloMosaic.Lib.Pipeline.Value

noncomputable section

namespace Cert.KernelIdeal.Reg

open Idealize.ShloMosaic Idealize.ShloMosaic.ValueIdx
open Cert.Bridge (specZin specMsg gatherSpec scatterSpec aggSpec colSum colSq meanOf)
open Cert.ReferenceIdeal.RefRun (gatherRows messages scatterSum selfPlusAgg wrapIdx)

/-! # What the host stretches between the kernel regions compute, read at an entry -/

/-- (1 + eps) · h + agg at (i, q). -/
theorem selfPlusAgg_spec (h agg : (⟨2, ![80000, 64]⟩ : Shape).Idx → EReal) (eps : (⟨0, ![]⟩ : Shape).Idx → EReal)
    (i : Fin 80000) (q : Fin 64) :
    selfPlusAgg (F := Ideal) h agg eps (ix2 i q) = specZin (eps ix0) (asMat h) (asMat agg) i q := by
  unfold selfPlusAgg specZin asMat
  refine (congrArg₂ (fun a b : EReal => a + b) (congrArg (fun s : EReal => s * h (ix2 i q)) ?_) rfl : _)
  exact broadcastInDim_scalar_apply _ _ _

/-- The rows of the node features at the edges' sources, at (e, q). -/
theorem gatherRows_spec (h : (⟨2, ![80000, 64]⟩ : Shape).Idx → EReal) (src : IVec ⟨1, ![1280000]⟩ 32) (e : Fin 1280000) (q : Fin 64) :
    gatherRows (F := Ideal) h src (ix2 e q) = gatherSpec src (asMat h) e q := by
  unfold gatherRows wrapIdx
  exact Cert.Bridge.gather_rows_apply _ _ _ h src e q

/-- The sum, at each node, of the rows of the edges into it, at (i, q). -/
theorem scatterSum_spec (dst : IVec ⟨1, ![1280000]⟩ 32) (msg : (⟨2, ![1280000, 64]⟩ : Shape).Idx → EReal) (i : Fin 80000) (q : Fin 64) :
    scatterSum (F := Ideal) dst msg (ix2 i q) = scatterSpec dst (asMat msg) i q := by
  unfold scatterSum
  exact Cert.Bridge.scatter_rows_apply _ _ _ dst msg i q

/-- The aggregation with the messages computed by region 2. -/
theorem agg2_spec (h : (⟨2, ![80000, 64]⟩ : Shape).Idx → EReal) (ea : (⟨2, ![1280000, 64]⟩ : Shape).Idx → EReal)
    (src dst : IVec ⟨1, ![1280000]⟩ 32) (i : Fin 80000) (q : Fin 64) :
    scatterSum (F := Ideal) dst (msgArr2 (gatherRows (F := Ideal) h src) ea) (ix2 i q) = aggSpec src dst (asMat h) (asMat ea) i q := by
  rw [scatterSum_spec]
  unfold aggSpec
  refine congrFun (congrFun (congrArg (scatterSpec dst) (funext fun e => funext fun c => ?_)) i) q
  show msgArr2 (gatherRows (F := Ideal) h src) ea (ix2 e c) = specMsg (gatherSpec src (asMat h)) (asMat ea) e c
  rw [msgArr2_apply, gatherRows_spec]
  rfl

/-- The aggregation with the messages computed by region 5. -/
theorem agg5_spec (h : (⟨2, ![80000, 64]⟩ : Shape).Idx → EReal) (ea : (⟨2, ![1280000, 64]⟩ : Shape).Idx → EReal)
    (src dst : IVec ⟨1, ![1280000]⟩ 32) (i : Fin 80000) (q : Fin 64) :
    scatterSum (F := Ideal) dst (msgArr5 (gatherRows (F := Ideal) h src) ea) (ix2 i q) = aggSpec src dst (asMat h) (asMat ea) i q := by
  rw [scatterSum_spec]
  unfold aggSpec
  refine congrFun (congrFun (congrArg (scatterSpec dst) (funext fun e => funext fun c => ?_)) i) q
  show msgArr5 (gatherRows (F := Ideal) h src) ea (ix2 e c) = specMsg (gatherSpec src (asMat h)) (asMat ea) e c
  rw [msgArr5_apply, gatherRows_spec]
  rfl

/-- The aggregation with the messages computed by region 8. -/
theorem agg8_spec (h : (⟨2, ![80000, 64]⟩ : Shape).Idx → EReal) (ea : (⟨2, ![1280000, 64]⟩ : Shape).Idx → EReal)
    (src dst : IVec ⟨1, ![1280000]⟩ 32) (i : Fin 80000) (q : Fin 64) :
    scatterSum (F := Ideal) dst (msgArr8 (gatherRows (F := Ideal) h src) ea) (ix2 i q) = aggSpec src dst (asMat h) (asMat ea) i q := by
  rw [scatterSum_spec]
  unfold aggSpec
  refine congrFun (congrFun (congrArg (scatterSpec dst) (funext fun e => funext fun c => ?_)) i) q
  show msgArr8 (gatherRows (F := Ideal) h src) ea (ix2 e c) = specMsg (gatherSpec src (asMat h)) (asMat ea) e c
  rw [msgArr8_apply, gatherRows_spec]
  rfl

/-- The aggregation with the messages computed by region 11. -/
theorem agg11_spec (h : (⟨2, ![80000, 64]⟩ : Shape).Idx → EReal) (ea : (⟨2, ![1280000, 64]⟩ : Shape).Idx → EReal)
    (src dst : IVec ⟨1, ![1280000]⟩ 32) (i : Fin 80000) (q : Fin 64) :
    scatterSum (F := Ideal) dst (msgArr11 (gatherRows (F := Ideal) h src) ea) (ix2 i q) = aggSpec src dst (asMat h) (asMat ea) i q := by
  rw [scatterSum_spec]
  unfold aggSpec
  refine congrFun (congrFun (congrArg (scatterSpec dst) (funext fun e => funext fun c => ?_)) i) q
  show msgArr11 (gatherRows (F := Ideal) h src) ea (ix2 e c) = specMsg (gatherSpec src (asMat h)) (asMat ea) e c
  rw [msgArr11_apply, gatherRows_spec]
  rfl

/-! ## The column statistics from the accumulated sums -/

/-- The column mean from the column sum, at column j. -/
theorem meanOfSum_apply (s : (⟨2, ![1, 128]⟩ : Shape).Idx → EReal) (j : Fin 128) :
    Cert.KernelIdeal.HostSide.meanOfSum (F := Ideal) s (ix2 (0 : Fin 1) j)
      = Ideal.div (s (ix2 (0 : Fin 1) j)) (Ideal.ofBits .f32 0x479C4000#32) := by
  unfold Cert.KernelIdeal.HostSide.meanOfSum
  exact congrArg (Ideal.div (s (ix2 (0 : Fin 1) j))) (broadcastInDim_scalar_apply _ _ _)

/-- … which is the column mean of Z when the sum is Z's column sum. -/
theorem meanOfSum_spec (s : (⟨2, ![1, 128]⟩ : Shape).Idx → EReal) (Z : Fin 80000 → Fin 128 → EReal)
    (hs : ∀ j, s (ix2 (0 : Fin 1) j) = colSum Z j) (j : Fin 128) :
    Cert.KernelIdeal.HostSide.meanOfSum (F := Ideal) s (ix2 (0 : Fin 1) j) = meanOf Z j := by
  rw [meanOfSum_apply, hs]
  rfl

/-- The one-pass column variance from the column sum and the column sum of squares, at column j. -/
theorem varOnePass_spec (s ss : (⟨2, ![1, 128]⟩ : Shape).Idx → EReal) (Z : Fin 80000 → Fin 128 → EReal)
    (hs : ∀ j, s (ix2 (0 : Fin 1) j) = colSum Z j) (hq : ∀ j, ss (ix2 (0 : Fin 1) j) = colSq Z j) (j : Fin 128) :
    Cert.KernelIdeal.HostSide.varOnePass (F := Ideal) s ss (ix2 (0 : Fin 1) j) = Cert.Bridge.varOnePass Z j := by
  unfold Cert.KernelIdeal.HostSide.varOnePass Cert.Bridge.varOnePass
  refine (congrArg₂ (fun a b : EReal => a - b) ?_ (congrArg₂ (fun a b : EReal => a * b) (meanOfSum_spec s Z hs j) (meanOfSum_spec s Z hs j)) : _)
  refine (congrArg₂ Ideal.div (hq j) (broadcastInDim_scalar_apply _ _ _) : _)

/-- A vector as a one-row matrix, at (0, j). -/
theorem asRow128_apply (v : (⟨1, ![128]⟩ : Shape).Idx → EReal) (u : Fin 1) (j : Fin 128) :
    Cert.KernelIdeal.HostSide.asRow128 (F := Ideal) v (ix2 u j) = v (ix1 j) := by
  unfold Cert.KernelIdeal.HostSide.asRow128
  exact shapeCast_a_1a_apply v _ u j

theorem asRow64_apply (v : (⟨1, ![64]⟩ : Shape).Idx → EReal) (u : Fin 1) (j : Fin 64) :
    Cert.KernelIdeal.HostSide.asRow64 (F := Ideal) v (ix2 u j) = v (ix1 j) := by
  unfold Cert.KernelIdeal.HostSide.asRow64
  exact shapeCast_a_1a_apply v _ u j

theorem asRow_asRow128 (v : (⟨1, ![128]⟩ : Shape).Idx → EReal) : asRow (Cert.KernelIdeal.HostSide.asRow128 (F := Ideal) v) = asVec v :=
  funext fun j => asRow128_apply v 0 j

theorem asRow_asRow64 (v : (⟨1, ![64]⟩ : Shape).Idx → EReal) : asRow (Cert.KernelIdeal.HostSide.asRow64 (F := Ideal) v) = asVec v :=
  funext fun j => asRow64_apply v 0 j

end Cert.KernelIdeal.Reg
-- ==== Proof.JoinLayer.lean ====
/-
  One layer of the kernel program, as a function of arrays, is the specification's step with one-pass statistics.

  The layer's arrays — the combination (1 + eps) · h + aggregation, the first dense layer Z with its column sums added
  block by block, the column mean and the one-pass column variance computed from those sums, and the second half —
  read entry by entry as the specification's: the ten block sums make the column sums, so the statistics are Z's.
-/
import proofs.«178590_j59433757442359_2_alg».proof.Proof.KI.ChainDefs
import proofs.«178590_j59433757442359_2_alg».proof.Proof.KI.LayerSpec
import proofs.«178590_j59433757442359_2_alg».proof.Proof.KI.HostSpec
import proofs.«178590_j59433757442359_2_alg».proof.Proof.Math.Forward
import proofs.«178590_j59433757442359_2_alg».proof.Proof.Math.SpecLaw

noncomputable section

namespace Cert.Join

open Cert.KernelIdeal Cert.KernelIdeal.Reg Cert.KernelIdeal.Chain
open Idealize.ShloMosaic Idealize.ShloMosaic.ValueIdx
open Cert.Bridge

section Layer

variable (P : Params) (l : Fin 4)
  (h : S80000x64.Idx → EReal) (ea : S1280000x64.Idx → EReal) (src dst : IVec ⟨1, ![1280000]⟩ 32)
  (eps : S_.Idx → EReal) (W1 : S64x128.Idx → EReal) (b1 g1 bt1 : S128.Idx → EReal) (W2 : S128x64.Idx → EReal)
  (b2 lng lnb : S64.Idx → EReal)

/-- The combination, entry by entry. -/
theorem kX_mat (heps : eps ix0 = P.eps l) :
    asMat (kX h ea src dst eps) = specZin (P.eps l) (asMat h) (aggSpec src dst (asMat h) (asMat ea)) := by
  funext r c
  show Cert.ReferenceIdeal.RefRun.selfPlusAgg (F := Ideal) h _ eps (ix2 r c) = _
  rw [selfPlusAgg_spec, heps]
  exact congrArg (fun g : Fin 80000 → Fin 64 → EReal => specZin (P.eps l) (asMat h) g r c)
    (funext fun r' => funext fun c' => agg2_spec h ea src dst r' c')

/-- Z of the layer, entry by entry. -/
theorem kZ_mat (heps : eps ix0 = P.eps l) (hW1 : asMat W1 = P.W1 l) (hb1 : asVec b1 = P.b1 l) :
    asMat (zArr3 (kX h ea src dst eps) W1 b1) = layerZ P (aggSpec src dst) (asMat ea) l (asMat h) := by
  unfold layerZ
  rw [← kX_mat P l h ea src dst eps heps, ← hW1, ← hb1]
  rfl

/-- The running column sums after the ten blocks are Z's column sums. -/
theorem kS_apply (j : Fin 128) :
    sArr3 (kX h ea src dst eps) W1 b1 (ix2 (0 : Fin 1) j) = colSum (asMat (zArr3 (kX h ea src dst eps) W1 b1)) j :=
  foldBlocks_colSum (asMat (zArr3 (kX h ea src dst eps) W1 b1)) j

theorem kQ_apply (j : Fin 128) :
    qArr3 (kX h ea src dst eps) W1 b1 (ix2 (0 : Fin 1) j) = colSq (asMat (zArr3 (kX h ea src dst eps) W1 b1)) j :=
  foldBlocks_colSq (asMat (zArr3 (kX h ea src dst eps) W1 b1)) j

/-- The second half over the layer's arrays is the step, rectified or not. -/
theorem kTail_spec (relu : Bool) (heps : eps ix0 = P.eps l) (hW1 : asMat W1 = P.W1 l) (hb1 : asVec b1 = P.b1 l)
    (hg1 : asVec g1 = P.g1 l) (hbt1 : asVec bt1 = P.bt1 l) (hW2 : asMat W2 = P.W2 l) (hb2 : asVec b2 = P.b2 l)
    (hlng : asVec lng = P.lng l) (hlnb : asVec lnb = P.lnb l) (i : Fin 80000) (q : Fin 64) :
    specTail relu (asMat (zArr3 (kX h ea src dst eps) W1 b1))
        (asRow (Cert.KernelIdeal.HostSide.meanOfSum (F := Ideal) (sArr3 (kX h ea src dst eps) W1 b1)))
        (asRow (Cert.KernelIdeal.HostSide.varOnePass (F := Ideal) (sArr3 (kX h ea src dst eps) W1 b1)
          (qArr3 (kX h ea src dst eps) W1 b1)))
        (asRow (Cert.KernelIdeal.HostSide.asRow128 (F := Ideal) g1)) (asRow (Cert.KernelIdeal.HostSide.asRow128 (F := Ideal) bt1))
        (asMat W2) (asVec b2)
        (asRow (Cert.KernelIdeal.HostSide.asRow64 (F := Ideal) lng)) (asRow (Cert.KernelIdeal.HostSide.asRow64 (F := Ideal) lnb)) i q
      = stepK P (aggSpec src dst) (asMat ea) relu l (asMat h) i q := by
  have hmean : asRow (Cert.KernelIdeal.HostSide.meanOfSum (F := Ideal) (sArr3 (kX h ea src dst eps) W1 b1))
      = meanOf (asMat (zArr3 (kX h ea src dst eps) W1 b1)) :=
    funext fun j => meanOfSum_spec _ _ (kS_apply h ea src dst eps W1 b1) j
  have hvar : asRow (Cert.KernelIdeal.HostSide.varOnePass (F := Ideal) (sArr3 (kX h ea src dst eps) W1 b1)
        (qArr3 (kX h ea src dst eps) W1 b1))
      = varOnePass (asMat (zArr3 (kX h ea src dst eps) W1 b1)) :=
    funext fun j => varOnePass_spec _ _ _ (kS_apply h ea src dst eps W1 b1) (kQ_apply h ea src dst eps W1 b1) j
  unfold stepK
  rw [hmean, hvar, asRow_asRow128, asRow_asRow128, asRow_asRow64, asRow_asRow64, hg1, hbt1, hW2, hb2, hlng, hlnb,
    kZ_mat P l h ea src dst eps W1 b1 heps hW1 hb1]

/-- A layer followed by the rectifier. -/
theorem kLayer_spec (heps : eps ix0 = P.eps l) (hW1 : asMat W1 = P.W1 l) (hb1 : asVec b1 = P.b1 l)
    (hg1 : asVec g1 = P.g1 l) (hbt1 : asVec bt1 = P.bt1 l) (hW2 : asMat W2 = P.W2 l) (hb2 : asVec b2 = P.b2 l)
    (hlng : asVec lng = P.lng l) (hlnb : asVec lnb = P.lnb l) :
    asMat (kLayer h ea src dst eps W1 b1 g1 bt1 W2 b2 lng lnb) = stepK P (aggSpec src dst) (asMat ea) true l (asMat h) := by
  funext i q
  show ginArrRelu _ _ _ _ _ W2 b2 _ _ (ix2 i q) = _
  rw [ginArrRelu_spec]
  exact kTail_spec P l h ea src dst eps W1 b1 g1 bt1 W2 b2 lng lnb true heps hW1 hb1 hg1 hbt1 hW2 hb2 hlng hlnb i q

/-- The last layer (no rectifier). -/
theorem kLastLayer_spec (heps : eps ix0 = P.eps l) (hW1 : asMat W1 = P.W1 l) (hb1 : asVec b1 = P.b1 l)
    (hg1 : asVec g1 = P.g1 l) (hbt1 : asVec bt1 = P.bt1 l) (hW2 : asMat W2 = P.W2 l) (hb2 : asVec b2 = P.b2 l)
    (hlng : asVec lng = P.lng l) (hlnb : asVec lnb = P.lnb l) :
    asMat (kLastLayer h ea src dst eps W1 b1 g1 bt1 W2 b2 lng lnb) = stepK P (aggSpec src dst) (asMat ea) false l (asMat h) := by
  funext i q
  show ginArrLast _ _ _ _ _ W2 b2 _ _ (ix2 i q) = _
  rw [ginArrLast_spec]
  exact kTail_spec P l h ea src dst eps W1 b1 g1 bt1 W2 b2 lng lnb false heps hW1 hb1 hg1 hbt1 hW2 hb2 hlng hlnb i q

end Layer

end Cert.Join

end
-- ==== Proof.LibHostKeepdims.lean ====
/-
  The host's row reductions kept as a column, read at coordinates on the extended reals: the host's side of
  `max(x, axis=-1, keepdims=True)` and `sum(x, axis=-1, keepdims=True)` on an `[a, b]` matrix.

  * the host's `reduce` with a maximum body over the second axis, from −∞, at row `i`: the fold of `max` from −∞ over
    the row's entries `(i, k)` — and −∞ is neutral for `max`;
  * the host's float sum over the second axis, from an initial value that is zero, at row `i`: the sum of the row's entries;
  * an `[a]` vector broadcast to the column `[a, 1]` along axis 0, at `(i, u)`: the vector at `i`;
  * an `[a, 1]` column broadcast to `[a, b]` along axes `[0, 1]`, at `(i, j)`: the column at `(i, 0)`;
  * an `[n]` vector reshaped to the one-row matrix `[1, n]` is the vector broadcast there along axis 1.
-/
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.Lib.HostKeepdims

open Idealize.ShloMosaic Idealize.ShloMosaic.ValueIdx

variable {α : Type}

/-- Row `i` with column `k` put back on the reduced second axis is `(i, k)`. -/
theorem lift_axis1 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The float word of −∞ is the least extended real: the maximum with it changes nothing. -/
theorem max_negInf (y : Ideal .f32) : max (Ideal.ofBits .f32 0xFF800000#32) y = y := by
  simp [Ideal.ofBits, Ideal.ieee]

/-- The host's `reduce` with a maximum body over the second axis, from −∞, at row `i`. -/
theorem reduce_maximumf_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduce FloatOps.maximumf x (constant (⟨0, ![]⟩ : Shape) .f32 0xFF800000#32) h' hu (ix1 i)
      = (Finset.univ : Finset (Fin b)).fold max (Ideal.ofBits .f32 0xFF800000#32) (fun k => x (ix2 i k)) := by
  have h : (⟨2, ![a, b]⟩ : Shape).Reduces [1] (⟨1, ![a]⟩ : Shape) := ⟨h'.1, Nat.one_pos, h'.2⟩
  rw [Host.reduce_eq_fold_single FloatOps.maximumf x _ h' h hu]
  have hf : (x ∘ h.lift (ix1 i)) = fun k : Fin b => x (ix2 i k) := funext fun k => congrArg x (lift_axis1 h i k)
  exact congrArg (fun f => Finset.fold max (Ideal.ofBits .f32 0xFF800000#32) f (Finset.univ : Finset (Fin b))) hf

/-- The host's float sum over the second axis, from zero, at row `i`: the sum of the row's entries. -/
theorem reduceAdd_row {a b : ℕ} (x : FVec Ideal ⟨2, ![a, b]⟩ .f32)
    (h' : (⟨2, ![a, b]⟩ : Shape).ReducesTo [1] (⟨1, ![a]⟩ : Shape)) (hu : 0 < (⟨0, ![]⟩ : Shape).numel) (i : Fin a) :
    Host.reduceAdd x (constant (⟨0, ![]⟩ : Shape) .f32 0x00000000#32) h' hu (ix1 i) = ∑ k : Fin b, x (ix2 i k) := by
  have h : (⟨2, ![a, b]⟩ : Shape).Reduces [1] (⟨1, ![a]⟩ : Shape) := ⟨h'.1, Nat.one_pos, h'.2⟩
  show Ideal.hostReduceAdd h' x _ (ix1 i) = _
  rw [Ideal.hostReduceAdd_single h' h]
  show Ideal.ofBits .f32 0x00000000#32 + _ = _
  rw [Ideal.ofBits_zero_f32, zero_add]
  exact Finset.sum_congr rfl fun k _ => congrArg x (lift_axis1 h i k)

/-- An `[a]` vector broadcast to the column `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column broadcast to `[a, b]` along axes `[0, 1]` reads, at `(i, j)`, the column at `(i, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[n]` vector reshaped to one row is the vector broadcast to `[1, n]` along axis 1. -/
theorem shapeCast_row_eq_broadcastInDim {n : ℕ} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have e2 := shapeCast_apply x h1 i (ix1 (i 1 : Fin n)) (by
    have h0 : (i 0).val = 0 := by have := (i 0).isLt; have e : (i 0).val < 1 := this; omega
    rw [Shape.rowMajor_val_two, Shape.rowMajor_val_one]; show (i 1).val = (i 0).val * n + (i 1).val; rw [h0]; omega)
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Cert.Lib.HostKeepdims

end
-- ==== Proof.RefSpecBase.lean ====
import proofs.«178590_j59433757442359_2_alg».proof.Proof.RefRunLayers
import proofs.«178590_j59433757442359_2_alg».proof.Proof.Math.Spec
import proofs.«178590_j59433757442359_2_alg».proof.Proof.LibPlainDot
import proofs.«178590_j59433757442359_2_alg».proof.Proof.LibHostKeepdims
import proofs.«178590_j59433757442359_2_alg».proof.Proof.LibColumnSum
import Idealize.ShloMosaic.Lib.IdealHost
import Idealize.ShloMosaic.Lib.KernelVsHost
import Idealize.ShloMosaic.Lib.ValueIdx
import Idealize.ShloMosaic.Lib.Pipeline.Value

noncomputable section

namespace Cert.ReferenceIdeal.RefSpec

open Cert.ReferenceIdeal Cert.ReferenceIdeal.Gen Cert.ReferenceIdeal.RefRun
open Idealize.ShloMosaic Idealize.ShloMosaic.ValueIdx
open Cert.Bridge

/-! # Arrays as functions of their coordinates, and the layout operations of the reference read at an index -/

/-- A rank-2 array as a function of its row and its column. -/
def mat {R C : ℕ} (X : (⟨2, ![R, C]⟩ : Shape).Idx → EReal) : Fin R → Fin C → EReal := fun i q => X (ix2 i q)

/-- A rank-1 array as a function of its coordinate. -/
def vec {C : ℕ} (b : (⟨1, ![C]⟩ : Shape).Idx → EReal) : Fin C → EReal := fun q => b (ix1 q)

/-- A rank-0 array's one value. -/
def scal (x : (⟨0, ![]⟩ : Shape).Idx → EReal) : EReal := x ix0

variable {α : Type}

/-- An [n] vector laid out as the one row [1, n], at (0, t). -/
theorem bcast_n_1n_apply {n : ℕ} (x : (⟨1, ![n]⟩ : Shape).Idx → α)
    (h : (⟨1, ![n]⟩ : Shape).BroadcastsInDim ⟨2, ![1, n]⟩ ![1]) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- A bias [n] spread over `a` rows through the one-row layout reads, at (i, q), the bias at q. -/
theorem biasRows_apply {a n : ℕ} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (i : Fin a) (q : Fin n) :
    broadcastInDim ⟨2, ![a, n]⟩ ![0, 1] h2 (broadcastInDim ⟨2, ![1, n]⟩ ![1] h1 b) (ix2 i q) = b (ix1 q) :=
  (broadcastInDim_oneRow_apply h2 _ i q).trans (bcast_n_1n_apply b h1 0 q)

/-- A scalar constant spread over any shape reads the constant's value. -/
theorem splat_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w :=
  broadcastInDim_scalar_apply h _ j

/-- The zero constant spread over any shape reads 0. -/
theorem splat_zero_apply {T : Shape} (h : (⟨0, ![]⟩ : Shape).BroadcastsInDim T ![]) (j : T.Idx) :
    broadcastInDim T ![] h (constant (F := Ideal) (⟨0, ![]⟩ : Shape) .f32 0x00000000#32) j = 0 :=
  (splat_apply h _ j).trans Ideal.ofBits_zero_f32

/-! # The dense stages -/

/-- The node embedding, read at (i, q). -/
theorem h0_apply (x : S80000x32.Idx → EReal) (Wx : S32x64.Idx → EReal) (bx : S64.Idx → EReal) (i : Fin 80000) (q : Fin 64) :
    h0 (F := Ideal) x Wx bx (ix2 i q) = specEmbed (mat x) (mat Wx) (vec bx) i q := by
  unfold h0 specEmbed mat vec
  refine (congrArg₂ (max : EReal → EReal → EReal) (congrArg₂ (fun a b : EReal => a + b) ?_ ?_) ?_ : _)
  · exact Cert.Lib.PlainDot.dotGeneral_apply (M := 80000) (K := 32) (N := 64) none .single x Wx i q
  · exact biasRows_apply bx _ _ i q
  · exact splat_zero_apply _ _

/-- The edge embedding, read at (e, q). -/
theorem ea_apply (x : S1280000x16.Idx → EReal) (We : S16x64.Idx → EReal) (be : S64.Idx → EReal) (e : Fin 1280000) (q : Fin 64) :
    ea (F := Ideal) x We be (ix2 e q) = specEmbed (mat x) (mat We) (vec be) e q := by
  unfold ea specEmbed mat vec
  refine (congrArg₂ (max : EReal → EReal → EReal) (congrArg₂ (fun a b : EReal => a + b) ?_ ?_) ?_ : _)
  · exact Cert.Lib.PlainDot.dotGeneral_apply (M := 1280000) (K := 16) (N := 64) none .single x We e q
  · exact biasRows_apply be _ _ e q
  · exact splat_zero_apply _ _

/-- The first dense layer, read at (i, j). -/
theorem linear1_apply (x : S80000x64.Idx → EReal) (W : S64x128.Idx → EReal) (b : S128.Idx → EReal) (i : Fin 80000) (j : Fin 128) :
    linear1 (F := Ideal) x W b (ix2 i j) = specZ (mat x) (mat W) (vec b) i j := by
  unfold linear1 specZ mat vec
  refine (congrArg₂ (fun a b : EReal => a + b) ?_ ?_ : _)
  · exact Cert.Lib.PlainDot.dotGeneral_apply (M := 80000) (K := 64) (N := 128) none .single x W i j
  · exact biasRows_apply b _ _ i j

/-- The second dense layer, read at (i, q): the sum over the 128 inner columns, plus the bias. -/
theorem linear2_apply (a : S80000x128.Idx → EReal) (W : S128x64.Idx → EReal) (b : S64.Idx → EReal) (i : Fin 80000) (q : Fin 64) :
    linear2 (F := Ideal) a W b (ix2 i q) = ∑ j : Fin 128, a (ix2 i j) * W (ix2 j q) + b (ix1 q) := by
  unfold linear2
  refine (congrArg₂ (fun a b : EReal => a + b) ?_ ?_ : _)
  · exact Cert.Lib.PlainDot.dotGeneral_apply (M := 80000) (K := 128) (N := 64) none .single a W i q
  · exact biasRows_apply b _ _ i q

/-- The rectifier on the inner block, read at an index. -/
theorem relu128_apply (x : S80000x128.Idx → EReal) (j : S80000x128.Idx) : relu128 (F := Ideal) x j = max (x j) 0 := by
  unfold relu128
  exact congrArg (max (x j)) (splat_zero_apply _ _)

/-- The rectifier on the node features, read at an index. -/
theorem relu64_apply (x : S80000x64.Idx → EReal) (j : S80000x64.Idx) : relu64 (F := Ideal) x j = max (x j) 0 := by
  unfold relu64
  exact congrArg (max (x j)) (splat_zero_apply _ _)

end Cert.ReferenceIdeal.RefSpec
-- ==== Proof.RefSpecStats.lean ====
/-
  The reference's statistics read at an index: the column mean and the two-pass column variance of Z, the row mean and
  the two-pass row variance of Y.

  The host's sum down a column from zero is the column's sum; the mean is its quotient by the float word of the count.
  The variance divides the sum of squared differences from the mean by "count − 0", guarded by "count − 0 > 0": the
  integer zero converted is the float zero, a real minus zero is itself, and the counts (80000, 64) are positive, so
  the guard holds and the value is the quotient by the count.
-/
import proofs.«178590_j59433757442359_2_alg».proof.Proof.RefSpecBase
import proofs.«178590_j59433757442359_2_alg».proof.Proof.Math.BatchVarLaw
import Idealize.ShloMosaic.Lib.IdealHost
import Idealize.ShloMosaic.Lib.KernelVsHost

noncomputable section

namespace Cert.ReferenceIdeal.RefSpec

open Cert.ReferenceIdeal Cert.ReferenceIdeal.Gen
open Idealize.ShloMosaic Idealize.ShloMosaic.ValueIdx
open Cert.Bridge (specZ meanOf varTwoPass colSum rowVarAbout ofBits_80000 ofBits_64)

/-! ## Sums and guards -/

/-- The host's float sum over the first axis, from zero, at column j: the sum of the column's entries. -/
theorem reduceAdd_col {a b : ℕ} (x : FVec Ideal ⟨2, ![a, b]⟩ .f32)
    (h' : (⟨2, ![a, b]⟩ : Shape).ReducesTo [0] (⟨1, ![b]⟩ : Shape)) (hu : 0 < (⟨0, ![]⟩ : Shape).numel) (j : Fin b) :
    Host.reduceAdd x (constant (⟨0, ![]⟩ : Shape) .f32 0x00000000#32) h' hu (ix1 j) = ∑ i : Fin a, x (ix2 i j) := by
  have h : (⟨2, ![a, b]⟩ : Shape).Reduces [0] (⟨1, ![b]⟩ : Shape) := ⟨h'.1, Nat.one_pos, h'.2⟩
  show Ideal.hostReduceAdd h' x _ (ix1 j) = _
  rw [Ideal.hostReduceAdd_single h' h]
  show Ideal.ofBits .f32 0x00000000#32 + _ = _
  rw [Ideal.ofBits_zero_f32, zero_add]
  exact Finset.sum_congr rfl fun k _ => congrArg x (Idealize.ShloMosaic.ValueKeepdims.lift_axis0_ix2 h j k)

/-- "count − 0" is the count: the integer zero converted is the float zero. -/
theorem count_sub_zero (w : BitVec 32) (j : (⟨0, ![]⟩ : Shape).Idx) :
    subf (constant (F := Ideal) (⟨0, ![]⟩ : Shape) .f32 w) (sitofp .f32 (constantI (⟨0, ![]⟩ : Shape) 32 0#32)) j
      = Ideal.ofBits .f32 w := by
  show Ideal.ofBits .f32 w - (Scalar.sitofp .f32 0#32 : Ideal .f32) = _
  rw [sitofp_zero, sub_zero]

/-- The guard "count − 0 > 0" holds for a count whose word is a positive extended real. -/
theorem guard_one (w : BitVec 32) (hw : 0 < Ideal.ofBits .f32 w) (j : (⟨0, ![]⟩ : Shape).Idx) :
    cmpf .ogt (subf (constant (F := Ideal) (⟨0, ![]⟩ : Shape) .f32 w) (sitofp .f32 (constantI (⟨0, ![]⟩ : Shape) 32 0#32)))
      (constant (F := Ideal) (⟨0, ![]⟩ : Shape) .f32 0x00000000#32) j = 1#1 := by
  show Ideal.cmp .ogt (subf (constant (F := Ideal) (⟨0, ![]⟩ : Shape) .f32 w) (sitofp .f32 (constantI (⟨0, ![]⟩ : Shape) 32 0#32)) j)
    (Ideal.ofBits .f32 0x00000000#32) = 1#1
  rw [count_sub_zero, Ideal.ofBits_zero_f32]
  unfold Ideal.cmp
  simp [hw]

theorem pos_80000 : 0 < Ideal.ofBits .f32 0x479C4000#32 := by
  rw [ofBits_80000]; exact_mod_cast (by norm_num : (0 : ℝ) < 80000)

theorem pos_64 : 0 < Ideal.ofBits .f32 0x42800000#32 := by
  rw [ofBits_64]; exact_mod_cast (by norm_num : (0 : ℝ) < 64)

/-! ## The column statistics of Z -/

/-- The column mean at j. -/
theorem colMean_apply (y : S80000x128.Idx → EReal) (j : Fin 128) :
    RefRun.colMean (F := Ideal) y (ix1 j) = meanOf (mat y) j := by
  unfold RefRun.colMean meanOf colSum mat
  show Ideal.div _ _ = _
  rw [reduceAdd_col (a := 80000) (b := 128), splat_apply]

/-- The column mean in its one-row layout, spread over the rows, at (i, j). -/
theorem colMeanRows_apply (y : S80000x128.Idx → EReal) (i : Fin 80000) (j : Fin 128) :
    broadcastInDim S80000x128 ![0, 1] bcast_S1x128_S80000x128_0_1
        (Host.divf (broadcastInDim S1x128 ![1] bcast_S128_S1x128_1
            (Host.reduceAdd (y) (constant (F := Ideal) S_ .f32 0x00000000#32) reducesTo_S80000x128_S128_d0 h_S_))
          (broadcastInDim S1x128 ![] bcast_S_S1x128 (constant (F := Ideal) S_ .f32 0x479C4000#32))) (ix2 i j)
      = meanOf (mat y) j := by
  rw [broadcastInDim_oneRow_apply]
  unfold meanOf colSum mat
  show Ideal.div _ _ = _
  rw [bcast_n_1n_apply, reduceAdd_col (a := 80000) (b := 128), splat_apply]

/-- The two-pass column variance at j. -/
theorem colVar_apply (y : S80000x128.Idx → EReal) (j : Fin 128) :
    RefRun.colVar (F := Ideal) y (ix1 j) = varTwoPass (mat y) j := by
  unfold RefRun.colVar
  rw [select_apply, broadcastInDim_scalar_apply, guard_one _ pos_80000, select_one]
  unfold varTwoPass
  show Ideal.div _ _ = _
  rw [reduceAdd_col (a := 80000) (b := 128), broadcastInDim_scalar_apply, count_sub_zero]
  refine congrArg (fun s : EReal => Ideal.div s (Ideal.ofBits .f32 0x479C4000#32)) (Finset.sum_congr rfl fun i _ => ?_)
  show (y (ix2 i j) - _) * (y (ix2 i j) - _) = _
  rw [colMeanRows_apply]
  rfl

end Cert.ReferenceIdeal.RefSpec

end
-- ==== Proof.RefSpecNorm.lean ====
/-
  The reference's two normalisations read at an index.

  The batch normalisation of Z followed by the rectifier is, at (i, j), the activation with no clamp at Z's column mean
  and two-pass column variance; the second dense layer over it is Y. The layer normalisation of Y is, at (i, q), the
  normalised entry about the row's mean with the row's two-pass variance; with the rectifier after it in all layers but
  the last.
-/
import proofs.«178590_j59433757442359_2_alg».proof.Proof.RefSpecStats
import proofs.«178590_j59433757442359_2_alg».proof.Proof.Math.LayerLaw

noncomputable section

namespace Cert.ReferenceIdeal.RefSpec

open Cert.ReferenceIdeal Cert.ReferenceIdeal.Gen
open Idealize.ShloMosaic Idealize.ShloMosaic.ValueIdx
open Cert.Bridge (specZ meanOf varTwoPass colSum rowVarAbout bnAct2 lnOut specY specLN)

/-! ## Batch normalisation, rectifier, second dense layer -/

/-- A [128] vector in its one-row layout spread over the rows, at (i, j): the vector at j. -/
theorem vecRows128_apply (v : S128.Idx → EReal) (i : Fin 80000) (j : Fin 128) :
    broadcastInDim S80000x128 ![0, 1] bcast_S1x128_S80000x128_0_1 (broadcastInDim S1x128 ![1] bcast_S128_S1x128_1 v) (ix2 i j)
      = v (ix1 j) :=
  biasRows_apply v _ _ i j

/-- The batch normalisation followed by the rectifier, at (i, j). -/
theorem bnRelu_apply (y : S80000x128.Idx → EReal) (γ β : S128.Idx → EReal) (i : Fin 80000) (j : Fin 128) :
    RefRun.relu128 (F := Ideal) (RefRun.batchNorm (F := Ideal) y γ β) (ix2 i j)
      = bnAct2 (mat y i j) (meanOf (mat y) j) (varTwoPass (mat y) j) (vec γ j) (vec β j) := by
  rw [relu128_apply]
  unfold RefRun.batchNorm bnAct2
  show max ((y (ix2 i j) - _) * _ * _ + _) 0 = _
  rw [vecRows128_apply, vecRows128_apply, vecRows128_apply, vecRows128_apply, colMean_apply]
  show max ((y (ix2 i j) - meanOf (mat y) j)
      * Ideal.rsqrt (RefRun.colVar (F := Ideal) y (ix1 j) + broadcastInDim S128 ![] bcast_S_S128 (constant (F := Ideal) S_ .f32 0x3727C5AC#32) (ix1 j))
      * γ (ix1 j) + β (ix1 j)) 0 = _
  rw [colVar_apply, splat_apply]
  rfl

/-- Y: the second dense layer over the rectified batch normalisation of Z, at (i, q). -/
theorem linear2_bn_apply (y : S80000x128.Idx → EReal) (γ β : S128.Idx → EReal) (W : S128x64.Idx → EReal) (b : S64.Idx → EReal)
    (i : Fin 80000) (q : Fin 64) :
    RefRun.linear2 (F := Ideal) (RefRun.relu128 (F := Ideal) (RefRun.batchNorm (F := Ideal) y γ β)) W b (ix2 i q)
      = specY bnAct2 (mat y) (meanOf (mat y)) (varTwoPass (mat y)) (vec γ) (vec β) (mat W) (vec b) i q := by
  rw [linear2_apply]
  unfold specY
  exact congrArg (fun a : EReal => a + b (ix1 q)) (Finset.sum_congr rfl fun j _ => by rw [bnRelu_apply]; rfl)

/-! ## Layer normalisation -/

/-- The row mean (kept as a column) at (i, u). -/
theorem rowMean_apply (z : S80000x64.Idx → EReal) (i : Fin 80000) (u : Fin 1) :
    RefRun.rowMean (F := Ideal) z (ix2 i u) = Cert.Bridge.rowMean (mat z) i := by
  unfold RefRun.rowMean Cert.Bridge.rowMean mat
  show Ideal.div _ _ = _
  rw [Cert.Lib.HostKeepdims.broadcastInDim_a_a1_apply, Cert.Lib.HostKeepdims.reduceAdd_row (a := 80000) (b := 64), splat_apply]

/-- The two-pass row variance (kept as a column) at (i, u). -/
theorem rowVar_apply (z : S80000x64.Idx → EReal) (i : Fin 80000) (u : Fin 1) :
    RefRun.rowVar (F := Ideal) z (ix2 i u) = rowVarAbout (mat z) (Cert.Bridge.rowMean (mat z)) i := by
  unfold RefRun.rowVar
  rw [select_apply, broadcastInDim_scalar_apply, guard_one _ pos_64, select_one]
  unfold rowVarAbout
  show Ideal.div _ _ = _
  rw [Cert.Lib.HostKeepdims.broadcastInDim_a_a1_apply, Cert.Lib.HostKeepdims.reduceAdd_row (a := 80000) (b := 64),
    broadcastInDim_scalar_apply, count_sub_zero]
  refine congrArg (fun s : EReal => Ideal.div s (Ideal.ofBits .f32 0x42800000#32)) (Finset.sum_congr rfl fun c _ => ?_)
  show (z (ix2 i c) - _) * (z (ix2 i c) - _) = _
  rw [Cert.Lib.HostKeepdims.broadcastInDim_a1_ab_apply]
  have hm : Host.divf (broadcastInDim S80000x1 ![0] bcast_S80000_S80000x1_0
        (Host.reduceAdd (z) (constant (F := Ideal) S_ .f32 0x00000000#32) reducesTo_S80000x64_S80000_d1 h_S_))
      (broadcastInDim S80000x1 ![] bcast_S_S80000x1 (constant (F := Ideal) S_ .f32 0x42800000#32)) (ix2 i (0 : Fin 1))
      = Cert.Bridge.rowMean (mat z) i := rowMean_apply z i 0
  rw [hm]
  rfl

/-- The layer normalisation at (i, q). -/
theorem layerNorm_apply (z : S80000x64.Idx → EReal) (g b : S64.Idx → EReal) (i : Fin 80000) (q : Fin 64) :
    RefRun.layerNorm (F := Ideal) z g b (ix2 i q) = specLN false (mat z) (vec g) (vec b) i q := by
  unfold RefRun.layerNorm specLN
  rw [if_neg (by decide)]
  unfold lnOut
  show (z (ix2 i q) - _) * _ * _ + _ = _
  rw [Cert.Lib.HostKeepdims.broadcastInDim_a1_ab_apply, Cert.Lib.HostKeepdims.broadcastInDim_a1_ab_apply, biasRows_apply,
    biasRows_apply, rowMean_apply]
  show (z (ix2 i q) - Cert.Bridge.rowMean (mat z) i)
      * Ideal.rsqrt (RefRun.rowVar (F := Ideal) z (ix2 i (0 : Fin 1))
          + broadcastInDim S80000x1 ![] bcast_S_S80000x1 (constant (F := Ideal) S_ .f32 0x3727C5AC#32) (ix2 i (0 : Fin 1)))
      * g (ix1 q) + b (ix1 q) = _
  rw [rowVar_apply, splat_apply]
  rfl

/-- The layer normalisation followed by the rectifier at (i, q). -/
theorem layerNormRelu_apply (z : S80000x64.Idx → EReal) (g b : S64.Idx → EReal) (i : Fin 80000) (q : Fin 64) :
    RefRun.relu64 (F := Ideal) (RefRun.layerNorm (F := Ideal) z g b) (ix2 i q) = specLN true (mat z) (vec g) (vec b) i q := by
  rw [relu64_apply, layerNorm_apply]
  unfold specLN
  rw [if_neg (by decide), if_pos rfl]

end Cert.ReferenceIdeal.RefSpec

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Math.Finite.lean ====
/-
  The precondition "every float input is finite", read at an entry on the extended reals.

  The precondition tests each of the fifteen float arguments x by all (|x| < +inf) and takes the conjunction. When it
  holds, every entry of every float argument is a real number: the conjunction gives each argument's test, the
  reduction by "and" gives the test at each entry, and |a| < +inf excludes both infinities.
-/
import proofs.«178590_j59433757442359_2_alg».proof.Pre_finite_inputs
import proofs.«178590_j59433757442359_2_alg».proof.Proof.LibFiniteEntry
import proofs.«178590_j59433757442359_2_alg».proof.Proof.Math.Real
import Idealize.ShloMosaic.Lib.ReduceAll
import Idealize.ShloMosaic.Lib.ValueIdx

noncomputable section

namespace Cert.Bridge

open Idealize.ShloMosaic Cert.Pre_finite_inputs

/-- One argument's test all (|x| < +inf), equal to one: every entry of the argument is a real number. -/
theorem real_of_allFinite {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : IsReal (x i) :=
  Cert.Lib.FiniteEntry.entry_real hb x i (Host.reduce_andi_all _ _ hr hu ValueIdx.ix0 e i)

/-- The whole precondition: every entry of each of the fifteen float arguments is a real number. -/
theorem finite_inputs_real [Cert.Pre_finite_inputs.Facts] (a0 : FVec Ideal S80000x32 .f32) (a1 : IVec S2x1280000 32) (a2 : FVec Ideal S1280000x16 .f32) (a3 : FVec Ideal S32x64 .f32) (a4 : FVec Ideal S64 .f32) (a5 : FVec Ideal S16x64 .f32) (a6 : FVec Ideal S64 .f32) (a7 : FVec Ideal S4x64x128 .f32) (a8 : FVec Ideal S4x128 .f32) (a9 : FVec Ideal S4x128 .f32) (a10 : FVec Ideal S4x128 .f32) (a11 : FVec Ideal S4x128x64 .f32) (a12 : FVec Ideal S4x64 .f32) (a13 : FVec Ideal S4 .f32) (a14 : FVec Ideal S4x64 .f32) (a15 : FVec Ideal S4x64 .f32)
    (h : Cert.Pre_finite_inputs.fn (F := Ideal) a0 a1 a2 a3 a4 a5 a6 a7 a8 a9 a10 a11 a12 a13 a14 a15 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) := by
  have h0 : Cert.Pre_finite_inputs.fn (F := Ideal) a0 a1 a2 a3 a4 a5 a6 a7 a8 a9 a10 a11 a12 a13 a14 a15 ValueIdx.ix0 = 1#1 := congrFun h _
  obtain ⟨h15, e15⟩ := IntOp.andi_eq_one.1 h0
  obtain ⟨h14, e14⟩ := IntOp.andi_eq_one.1 h15
  obtain ⟨h13, e13⟩ := IntOp.andi_eq_one.1 h14
  obtain ⟨h12, e12⟩ := IntOp.andi_eq_one.1 h13
  obtain ⟨h11, e11⟩ := IntOp.andi_eq_one.1 h12
  obtain ⟨h10, e10⟩ := IntOp.andi_eq_one.1 h11
  obtain ⟨h9, e9⟩ := IntOp.andi_eq_one.1 h10
  obtain ⟨h8, e8⟩ := IntOp.andi_eq_one.1 h9
  obtain ⟨h7, e7⟩ := IntOp.andi_eq_one.1 h8
  obtain ⟨h6, e6⟩ := IntOp.andi_eq_one.1 h7
  obtain ⟨h5, e5⟩ := IntOp.andi_eq_one.1 h6
  obtain ⟨h4, e4⟩ := IntOp.andi_eq_one.1 h5
  obtain ⟨h3, e3⟩ := IntOp.andi_eq_one.1 h4
  obtain ⟨e0, e2⟩ := IntOp.andi_eq_one.1 h3
  exact ⟨real_of_allFinite _ _ _ a0 e0, real_of_allFinite _ _ _ a2 e2, real_of_allFinite _ _ _ a3 e3, real_of_allFinite _ _ _ a4 e4, real_of_allFinite _ _ _ a5 e5, real_of_allFinite _ _ _ a6 e6, real_of_allFinite _ _ _ a7 e7, real_of_allFinite _ _ _ a8 e8, real_of_allFinite _ _ _ a9 e9, real_of_allFinite _ _ _ a10 e10, real_of_allFinite _ _ _ a11 e11, real_of_allFinite _ _ _ a12 e12, real_of_allFinite _ _ _ a13 e13, real_of_allFinite _ _ _ a14 e14, real_of_allFinite _ _ _ a15 e15⟩

end Cert.Bridge

end
-- ==== Proof.Math.ParamsOf.lean ====
/-
  From the sixteen argument arrays to the network's entries, and the two spellings joined.

  The node inputs, the edge inputs, the two index rows (sources, destinations) and the thirteen parameter arrays, read
  entry by entry; every float entry is a real number when the precondition "every float input is finite" holds; and
  then the network with one-pass statistics is the network with two-pass statistics.
-/
import proofs.«178590_j59433757442359_2_alg».proof.Proof.Math.Forward
import proofs.«178590_j59433757442359_2_alg».proof.Proof.Math.Aggregate
import proofs.«178590_j59433757442359_2_alg».proof.Proof.Math.Finite

noncomputable section

namespace Cert.Bridge

open Idealize.ShloMosaic Idealize.ShloMosaic.ValueIdx

/-- The node inputs, entry by entry. -/
def nodesOf (a0 : FVec Ideal ⟨2, ![80000, 32]⟩ .f32) : Fin 80000 → Fin 32 → EReal := fun i k => a0 (ix2 i k)

/-- The edge inputs, entry by entry. -/
def edgesOf (a2 : FVec Ideal ⟨2, ![1280000, 16]⟩ .f32) : Fin 1280000 → Fin 16 → EReal := fun e k => a2 (ix2 e k)

/-- Row 0 of the index table: each edge's source node, as stored (a negative one is counted from the end where it is
    used). -/
def srcOf (a1 : IVec ⟨2, ![2, 1280000]⟩ 32) : IVec ⟨1, ![1280000]⟩ 32 := fun j => a1 (ix2 (0 : Fin 2) (j 0))

/-- Row 1 of the index table: each edge's destination node. -/
def dstOf (a1 : IVec ⟨2, ![2, 1280000]⟩ 32) : IVec ⟨1, ![1280000]⟩ 32 := fun j => a1 (ix2 (1 : Fin 2) (j 0))

/-- The parameters, entry by entry. -/
def paramsOf (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32) : Params where
  Wx k q := a3 (ix2 k q)
  bx q := a4 (ix1 q)
  We k q := a5 (ix2 k q)
  be q := a6 (ix1 q)
  W1 l k j := a7 (ix3 l k j)
  b1 l j := a8 (ix2 l j)
  g1 l j := a9 (ix2 l j)
  bt1 l j := a10 (ix2 l j)
  W2 l j q := a11 (ix3 l j q)
  b2 l q := a12 (ix2 l q)
  eps l := a13 (ix1 l)
  lng l q := a14 (ix2 l q)
  lnb l q := a15 (ix2 l q)

theorem nodesOf_real (a0 : FVec Ideal ⟨2, ![80000, 32]⟩ .f32) (h : ∀ i, IsReal (a0 i)) (i : Fin 80000) (k : Fin 32) :
    IsReal (nodesOf a0 i k) := h _

theorem edgesOf_real (a2 : FVec Ideal ⟨2, ![1280000, 16]⟩ .f32) (h : ∀ i, IsReal (a2 i)) (e : Fin 1280000) (k : Fin 16) :
    IsReal (edgesOf a2 e k) := h _

theorem paramsOf_real (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32)
    (h3 : ∀ i, IsReal (a3 i)) (h4 : ∀ i, IsReal (a4 i)) (h5 : ∀ i, IsReal (a5 i)) (h6 : ∀ i, IsReal (a6 i)) (h7 : ∀ i, IsReal (a7 i)) (h8 : ∀ i, IsReal (a8 i)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (h15 : ∀ i, IsReal (a15 i)) :
    (paramsOf a3 a4 a5 a6 a7 a8 a9 a10 a11 a12 a13 a14 a15).AllReal where
  Wx _ _ := h3 _
  bx _ := h4 _
  We _ _ := h5 _
  be _ := h6 _
  W1 _ _ _ := h7 _
  b1 _ _ := h8 _
  g1 _ _ := h9 _
  bt1 _ _ := h10 _
  W2 _ _ _ := h11 _
  b2 _ _ := h12 _
  eps _ := h13 _
  lng _ _ := h14 _
  lnb _ _ := h15 _

/-- Under the precondition the parameters, the node inputs and the edge inputs are real. -/
theorem reals_of_pre [Cert.Pre_finite_inputs.Facts] (a0 : FVec Ideal ⟨2, ![80000, 32]⟩ .f32) (a1 : IVec ⟨2, ![2, 1280000]⟩ 32) (a2 : FVec Ideal ⟨2, ![1280000, 16]⟩ .f32) (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32)
    (h : Cert.Pre_finite_inputs.fn (F := Ideal) a0 a1 a2 a3 a4 a5 a6 a7 a8 a9 a10 a11 a12 a13 a14 a15 = fun _ => 1#1) :
    (paramsOf a3 a4 a5 a6 a7 a8 a9 a10 a11 a12 a13 a14 a15).AllReal ∧ (∀ i k, IsReal (nodesOf a0 i k)) ∧ (∀ e k, IsReal (edgesOf a2 e k)) := by
  obtain ⟨r0, r2, r3, r4, r5, r6, r7, r8, r9, r10, r11, r12, r13, r14, r15⟩ := finite_inputs_real a0 a1 a2 a3 a4 a5 a6 a7 a8 a9 a10 a11 a12 a13 a14 a15 h
  exact ⟨paramsOf_real a3 a4 a5 a6 a7 a8 a9 a10 a11 a12 a13 a14 a15 r3 r4 r5 r6 r7 r8 r9 r10 r11 r12 r13 r14 r15, nodesOf_real a0 r0, edgesOf_real a2 r2⟩

/-- THE JOIN: under the precondition, the network with one-pass statistics is the network with two-pass statistics. -/
theorem spec_join [Cert.Pre_finite_inputs.Facts] (a0 : FVec Ideal ⟨2, ![80000, 32]⟩ .f32) (a1 : IVec ⟨2, ![2, 1280000]⟩ 32) (a2 : FVec Ideal ⟨2, ![1280000, 16]⟩ .f32) (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32)
    (h : Cert.Pre_finite_inputs.fn (F := Ideal) a0 a1 a2 a3 a4 a5 a6 a7 a8 a9 a10 a11 a12 a13 a14 a15 = fun _ => 1#1) :
    fwdK (paramsOf a3 a4 a5 a6 a7 a8 a9 a10 a11 a12 a13 a14 a15) (aggSpec (srcOf a1) (dstOf a1)) (nodesOf a0) (edgesOf a2)
      = fwdR (paramsOf a3 a4 a5 a6 a7 a8 a9 a10 a11 a12 a13 a14 a15) (aggSpec (srcOf a1) (dstOf a1)) (nodesOf a0) (edgesOf a2) := by
  obtain ⟨hP, hX, hE⟩ := reals_of_pre a0 a1 a2 a3 a4 a5 a6 a7 a8 a9 a10 a11 a12 a13 a14 a15 h
  exact (forward_eq _ hP _ (aggSpec_real _ _) _ _ hX hE).1

/-- … and its output is real. -/
theorem spec_real [Cert.Pre_finite_inputs.Facts] (a0 : FVec Ideal ⟨2, ![80000, 32]⟩ .f32) (a1 : IVec ⟨2, ![2, 1280000]⟩ 32) (a2 : FVec Ideal ⟨2, ![1280000, 16]⟩ .f32) (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32)
    (h : Cert.Pre_finite_inputs.fn (F := Ideal) a0 a1 a2 a3 a4 a5 a6 a7 a8 a9 a10 a11 a12 a13 a14 a15 = fun _ => 1#1) (i : Fin 80000) (q : Fin 64) :
    IsReal (fwdK (paramsOf a3 a4 a5 a6 a7 a8 a9 a10 a11 a12 a13 a14 a15) (aggSpec (srcOf a1) (dstOf a1)) (nodesOf a0) (edgesOf a2) i q) := by
  obtain ⟨hP, hX, hE⟩ := reals_of_pre a0 a1 a2 a3 a4 a5 a6 a7 a8 a9 a10 a11 a12 a13 a14 a15 h
  exact (forward_eq _ hP _ (aggSpec_real _ _) _ _ hX hE).2 i q

end Cert.Bridge

end
-- ==== Proof.RefSpecLayer.lean ====
/-
  One layer of the reference and the parameter slices, read at an index, against the layer's specification.

  The aggregation (1 + eps) · h + (sum over the edges into a node of the rectified h[source] + ea) is the specified
  combination of the specified aggregation; slice l of each parameter array is the parameters' entry at l; a layer of
  the reference is the specification's step with the two-pass statistics.
-/
import proofs.«178590_j59433757442359_2_alg».proof.Proof.RefSpecNorm
import proofs.«178590_j59433757442359_2_alg».proof.Proof.RefRunPieces
import proofs.«178590_j59433757442359_2_alg».proof.Proof.Math.ParamsOf

noncomputable section

namespace Cert.ReferenceIdeal.RefSpec

open Cert.ReferenceIdeal Cert.ReferenceIdeal.Gen
open Idealize.ShloMosaic Idealize.ShloMosaic.ValueIdx
open Cert.Bridge (specZ specZin meanOf varTwoPass specY specLN specTailRef bnAct2 aggSpec Nodes Edges)

variable {α : Type}

/-! ## The aggregation -/

/-- The aggregation at (i, q). -/
theorem aggregate_spec (h : S80000x64.Idx → EReal) (ea : S1280000x64.Idx → EReal) (src dst : S1280000.Idx → BitVec 32)
    (eps : S_.Idx → EReal) (i : Fin 80000) (q : Fin 64) :
    RefRun.aggregate (F := Ideal) h ea src dst eps (ix2 i q)
      = specZin (scal eps) (mat h) (aggSpec src dst (mat h) (mat ea)) i q := by
  unfold RefRun.aggregate specZin scal
  refine (congrArg₂ (fun a b : EReal => a + b)
    (congrArg (fun a : EReal => a * h (ix2 i q)) (broadcastInDim_scalar_apply _ _ _)) ?_ : _)
  exact Cert.Bridge.aggregate_apply _ _ _ _ _ _ h ea src dst i q

/-- The aggregation as a function of the node and the column. -/
theorem aggregate_mat (h : S80000x64.Idx → EReal) (ea : S1280000x64.Idx → EReal) (src dst : S1280000.Idx → BitVec 32)
    (eps : S_.Idx → EReal) :
    mat (RefRun.aggregate (F := Ideal) h ea src dst eps) = specZin (scal eps) (mat h) (aggSpec src dst (mat h) (mat ea)) :=
  funext fun i => funext fun q => aggregate_spec h ea src dst eps i q

/-! ## One layer -/

/-- Z of a layer as a function of the node and the column. -/
theorem linear1_mat (x : S80000x64.Idx → EReal) (W : S64x128.Idx → EReal) (b : S128.Idx → EReal) :
    mat (RefRun.linear1 (F := Ideal) x W b) = specZ (mat x) (mat W) (vec b) :=
  funext fun i => funext fun j => linear1_apply x W b i j

/-- Y of a layer as a function of the node and the column. -/
theorem linear2_bn_mat (y : S80000x128.Idx → EReal) (γ β : S128.Idx → EReal) (W : S128x64.Idx → EReal) (b : S64.Idx → EReal) :
    mat (RefRun.linear2 (F := Ideal) (RefRun.relu128 (F := Ideal) (RefRun.batchNorm (F := Ideal) y γ β)) W b)
      = specY bnAct2 (mat y) (meanOf (mat y)) (varTwoPass (mat y)) (vec γ) (vec β) (mat W) (vec b) :=
  funext fun i => funext fun q => linear2_bn_apply y γ β W b i q

/-- The last layer (no rectifier after it) is the tail with two-pass statistics over the layer's Z. -/
theorem lastLayer_mat (h : S80000x64.Idx → EReal) (ea : S1280000x64.Idx → EReal) (src dst : S1280000.Idx → BitVec 32)
    (eps : S_.Idx → EReal) (W1 : S64x128.Idx → EReal) (b1 γ β : S128.Idx → EReal) (W2 : S128x64.Idx → EReal)
    (b2 g bb : S64.Idx → EReal) :
    mat (RefRun.lastLayer (F := Ideal) h ea src dst eps W1 b1 γ β W2 b2 g bb)
      = specTailRef false
          (specZ (specZin (scal eps) (mat h) (aggSpec src dst (mat h) (mat ea))) (mat W1) (vec b1))
          (meanOf (specZ (specZin (scal eps) (mat h) (aggSpec src dst (mat h) (mat ea))) (mat W1) (vec b1)))
          (varTwoPass (specZ (specZin (scal eps) (mat h) (aggSpec src dst (mat h) (mat ea))) (mat W1) (vec b1)))
          (vec γ) (vec β) (mat W2) (vec b2) (vec g) (vec bb) := by
  unfold RefRun.lastLayer specTailRef
  funext i q
  show RefRun.layerNorm (F := Ideal) _ g bb (ix2 i q) = _
  rw [layerNorm_apply, linear2_bn_mat, linear1_mat, aggregate_mat]

/-- A layer followed by the rectifier likewise. -/
theorem layer_mat (h : S80000x64.Idx → EReal) (ea : S1280000x64.Idx → EReal) (src dst : S1280000.Idx → BitVec 32)
    (eps : S_.Idx → EReal) (W1 : S64x128.Idx → EReal) (b1 γ β : S128.Idx → EReal) (W2 : S128x64.Idx → EReal)
    (b2 g bb : S64.Idx → EReal) :
    mat (RefRun.layer (F := Ideal) h ea src dst eps W1 b1 γ β W2 b2 g bb)
      = specTailRef true
          (specZ (specZin (scal eps) (mat h) (aggSpec src dst (mat h) (mat ea))) (mat W1) (vec b1))
          (meanOf (specZ (specZin (scal eps) (mat h) (aggSpec src dst (mat h) (mat ea))) (mat W1) (vec b1)))
          (varTwoPass (specZ (specZin (scal eps) (mat h) (aggSpec src dst (mat h) (mat ea))) (mat W1) (vec b1)))
          (vec γ) (vec β) (mat W2) (vec b2) (vec g) (vec bb) := by
  unfold RefRun.layer RefRun.lastLayer specTailRef
  funext i q
  show RefRun.relu64 (F := Ideal) (RefRun.layerNorm (F := Ideal) _ g bb) (ix2 i q) = _
  rw [layerNormRelu_apply, linear2_bn_mat, linear1_mat, aggregate_mat]

end Cert.ReferenceIdeal.RefSpec

end
-- ==== Proof.RefSpecForward.lean ====
/-
  The reference function is the network's specification with two-pass statistics.

  Slice l of each parameter array, reshaped to drop the sliced axis, is the parameter's entries at l; the two rows of
  the index table are the source and destination columns; the stem is the two embeddings; each layer is the
  specification's step; and so the reference function of the sixteen argument arrays, read at (i, q), is the
  specification's network with two-pass statistics at (i, q).
-/
import proofs.«178590_j59433757442359_2_alg».proof.Proof.RefSpecLayer
import proofs.«178590_j59433757442359_2_alg».proof.Proof.RefRunPieces
import proofs.«178590_j59433757442359_2_alg».proof.Proof.Math.ParamsOf

noncomputable section

namespace Cert.ReferenceIdeal.RefSpec

open Cert.ReferenceIdeal Cert.ReferenceIdeal.Gen
open Idealize.ShloMosaic Idealize.ShloMosaic.ValueIdx
open Cert.Bridge (aggSpec stepR fwdR paramsOf nodesOf edgesOf srcOf dstOf nodeEmbed edgeEmbed specEmbed)

variable {α : Type}

/-! ## A slice of a stacked parameter array, the sliced axis dropped -/

/-- Entry l of a [4] vector, sliced out and reshaped to a scalar. -/
theorem sliceScal_apply (o : ℕ) (a : (⟨1, ![4]⟩ : Shape).Idx → α) (hs : (⟨1, ![4]⟩ : Shape).Slices ![o] ⟨1, ![1]⟩)
    (hc : (⟨1, ![1]⟩ : Shape).ShapeCasts ⟨0, ![]⟩) (l : Fin 4) (hl : l.val = o) :
    shapeCast ⟨0, ![]⟩ (extractStridedSlice ⟨1, ![1]⟩ ![o] a hs) hc ix0 = a (ix1 l) := by
  refine (shapeCast_apply _ hc ix0 (ix1 (0 : Fin 1)) ?_).trans ?_
  · have h1 : (⟨0, ![]⟩ : Shape).numel = 1 := rfl
    have h2 := ((⟨0, ![]⟩ : Shape).rowMajor ix0).isLt
    rw [Shape.rowMajor_val_one]
    show (0 : ℕ) = _
    omega
  · exact extractStridedSlice_apply _ a hs (ix1 (0 : Fin 1)) (ix1 l) fun ax => by
      match ax with
      | ⟨0, _⟩ => show l.val = o + 0; omega

/-- Row l of a [4, n] matrix, sliced out and reshaped to a vector, at j. -/
theorem sliceVec_apply {n : ℕ} (o : ℕ) (a : (⟨2, ![4, n]⟩ : Shape).Idx → α)
    (hs : (⟨2, ![4, n]⟩ : Shape).Slices ![o, 0] ⟨2, ![1, n]⟩) (hc : (⟨2, ![1, n]⟩ : Shape).ShapeCasts ⟨1, ![n]⟩)
    (l : Fin 4) (hl : l.val = o) (j : Fin n) :
    shapeCast ⟨1, ![n]⟩ (extractStridedSlice ⟨2, ![1, n]⟩ ![o, 0] a hs) hc (ix1 j) = a (ix2 l j) :=
  (shapeCast_1a_a_apply _ hc j).trans (slice2_axis0_apply o a hs (0 : Fin 1) j l (by show l.val = o + 0; omega))

/-- Slab l of a [4, m, n] array, sliced out and reshaped to a matrix, at (k, j). -/
theorem sliceMat_apply {m n : ℕ} (o : ℕ) (a : (⟨3, ![4, m, n]⟩ : Shape).Idx → α)
    (hs : (⟨3, ![4, m, n]⟩ : Shape).Slices ![o, 0, 0] ⟨3, ![1, m, n]⟩)
    (hc : (⟨3, ![1, m, n]⟩ : Shape).ShapeCasts ⟨2, ![m, n]⟩) (l : Fin 4) (hl : l.val = o) (k : Fin m) (j : Fin n) :
    shapeCast ⟨2, ![m, n]⟩ (extractStridedSlice ⟨3, ![1, m, n]⟩ ![o, 0, 0] a hs) hc (ix2 k j) = a (ix3 l k j) :=
  (shapeCast_1ab_ab_apply _ hc k j).trans
    (extractStridedSlice_apply _ a hs (ix3 (0 : Fin 1) k j) (ix3 l k j) fun ax => by
      match ax with
      | ⟨0, _⟩ => show l.val = o + 0; omega
      | ⟨1, _⟩ => exact (Nat.zero_add _).symm
      | ⟨2, _⟩ => exact (Nat.zero_add _).symm)

/-! ## The thirty-six slices -/

theorem eps_0_scal (a13 : S4.Idx → EReal) : scal (RefRun.eps_0 (F := Ideal) a13) = a13 (ix1 (0 : Fin 4)) := by
  unfold RefRun.eps_0 scal
  exact sliceScal_apply 0 a13 _ _ 0 rfl
theorem W1_0_mat (a7 : S4x64x128.Idx → EReal) : mat (RefRun.W1_0 (F := Ideal) a7) = fun k j => a7 (ix3 (0 : Fin 4) k j) := by
  unfold RefRun.W1_0 mat
  exact funext fun k => funext fun j => sliceMat_apply 0 a7 _ _ 0 rfl k j
theorem b1_0_vec (a8 : S4x128.Idx → EReal) : vec (RefRun.b1_0 (F := Ideal) a8) = fun j => a8 (ix2 (0 : Fin 4) j) := by
  unfold RefRun.b1_0 vec
  exact funext fun j => sliceVec_apply 0 a8 _ _ 0 rfl j
theorem g1_0_vec (a9 : S4x128.Idx → EReal) : vec (RefRun.g1_0 (F := Ideal) a9) = fun j => a9 (ix2 (0 : Fin 4) j) := by
  unfold RefRun.g1_0 vec
  exact funext fun j => sliceVec_apply 0 a9 _ _ 0 rfl j
theorem bt1_0_vec (a10 : S4x128.Idx → EReal) : vec (RefRun.bt1_0 (F := Ideal) a10) = fun j => a10 (ix2 (0 : Fin 4) j) := by
  unfold RefRun.bt1_0 vec
  exact funext fun j => sliceVec_apply 0 a10 _ _ 0 rfl j
theorem W2_0_mat (a11 : S4x128x64.Idx → EReal) : mat (RefRun.W2_0 (F := Ideal) a11) = fun j q => a11 (ix3 (0 : Fin 4) j q) := by
  unfold RefRun.W2_0 mat
  exact funext fun k => funext fun j => sliceMat_apply 0 a11 _ _ 0 rfl k j
theorem b2_0_vec (a12 : S4x64.Idx → EReal) : vec (RefRun.b2_0 (F := Ideal) a12) = fun q => a12 (ix2 (0 : Fin 4) q) := by
  unfold RefRun.b2_0 vec
  exact funext fun j => sliceVec_apply 0 a12 _ _ 0 rfl j
theorem lng_0_vec (a14 : S4x64.Idx → EReal) : vec (RefRun.lng_0 (F := Ideal) a14) = fun q => a14 (ix2 (0 : Fin 4) q) := by
  unfold RefRun.lng_0 vec
  exact funext fun j => sliceVec_apply 0 a14 _ _ 0 rfl j
theorem lnb_0_vec (a15 : S4x64.Idx → EReal) : vec (RefRun.lnb_0 (F := Ideal) a15) = fun q => a15 (ix2 (0 : Fin 4) q) := by
  unfold RefRun.lnb_0 vec
  exact funext fun j => sliceVec_apply 0 a15 _ _ 0 rfl j
theorem eps_1_scal (a13 : S4.Idx → EReal) : scal (RefRun.eps_1 (F := Ideal) a13) = a13 (ix1 (1 : Fin 4)) := by
  unfold RefRun.eps_1 scal
  exact sliceScal_apply 1 a13 _ _ 1 rfl
theorem W1_1_mat (a7 : S4x64x128.Idx → EReal) : mat (RefRun.W1_1 (F := Ideal) a7) = fun k j => a7 (ix3 (1 : Fin 4) k j) := by
  unfold RefRun.W1_1 mat
  exact funext fun k => funext fun j => sliceMat_apply 1 a7 _ _ 1 rfl k j
theorem b1_1_vec (a8 : S4x128.Idx → EReal) : vec (RefRun.b1_1 (F := Ideal) a8) = fun j => a8 (ix2 (1 : Fin 4) j) := by
  unfold RefRun.b1_1 vec
  exact funext fun j => sliceVec_apply 1 a8 _ _ 1 rfl j
theorem g1_1_vec (a9 : S4x128.Idx → EReal) : vec (RefRun.g1_1 (F := Ideal) a9) = fun j => a9 (ix2 (1 : Fin 4) j) := by
  unfold RefRun.g1_1 vec
  exact funext fun j => sliceVec_apply 1 a9 _ _ 1 rfl j
theorem bt1_1_vec (a10 : S4x128.Idx → EReal) : vec (RefRun.bt1_1 (F := Ideal) a10) = fun j => a10 (ix2 (1 : Fin 4) j) := by
  unfold RefRun.bt1_1 vec
  exact funext fun j => sliceVec_apply 1 a10 _ _ 1 rfl j
theorem W2_1_mat (a11 : S4x128x64.Idx → EReal) : mat (RefRun.W2_1 (F := Ideal) a11) = fun j q => a11 (ix3 (1 : Fin 4) j q) := by
  unfold RefRun.W2_1 mat
  exact funext fun k => funext fun j => sliceMat_apply 1 a11 _ _ 1 rfl k j
theorem b2_1_vec (a12 : S4x64.Idx → EReal) : vec (RefRun.b2_1 (F := Ideal) a12) = fun q => a12 (ix2 (1 : Fin 4) q) := by
  unfold RefRun.b2_1 vec
  exact funext fun j => sliceVec_apply 1 a12 _ _ 1 rfl j
theorem lng_1_vec (a14 : S4x64.Idx → EReal) : vec (RefRun.lng_1 (F := Ideal) a14) = fun q => a14 (ix2 (1 : Fin 4) q) := by
  unfold RefRun.lng_1 vec
  exact funext fun j => sliceVec_apply 1 a14 _ _ 1 rfl j
theorem lnb_1_vec (a15 : S4x64.Idx → EReal) : vec (RefRun.lnb_1 (F := Ideal) a15) = fun q => a15 (ix2 (1 : Fin 4) q) := by
  unfold RefRun.lnb_1 vec
  exact funext fun j => sliceVec_apply 1 a15 _ _ 1 rfl j
theorem eps_2_scal (a13 : S4.Idx → EReal) : scal (RefRun.eps_2 (F := Ideal) a13) = a13 (ix1 (2 : Fin 4)) := by
  unfold RefRun.eps_2 scal
  exact sliceScal_apply 2 a13 _ _ 2 rfl
theorem W1_2_mat (a7 : S4x64x128.Idx → EReal) : mat (RefRun.W1_2 (F := Ideal) a7) = fun k j => a7 (ix3 (2 : Fin 4) k j) := by
  unfold RefRun.W1_2 mat
  exact funext fun k => funext fun j => sliceMat_apply 2 a7 _ _ 2 rfl k j
theorem b1_2_vec (a8 : S4x128.Idx → EReal) : vec (RefRun.b1_2 (F := Ideal) a8) = fun j => a8 (ix2 (2 : Fin 4) j) := by
  unfold RefRun.b1_2 vec
  exact funext fun j => sliceVec_apply 2 a8 _ _ 2 rfl j
theorem g1_2_vec (a9 : S4x128.Idx → EReal) : vec (RefRun.g1_2 (F := Ideal) a9) = fun j => a9 (ix2 (2 : Fin 4) j) := by
  unfold RefRun.g1_2 vec
  exact funext fun j => sliceVec_apply 2 a9 _ _ 2 rfl j
theorem bt1_2_vec (a10 : S4x128.Idx → EReal) : vec (RefRun.bt1_2 (F := Ideal) a10) = fun j => a10 (ix2 (2 : Fin 4) j) := by
  unfold RefRun.bt1_2 vec
  exact funext fun j => sliceVec_apply 2 a10 _ _ 2 rfl j
theorem W2_2_mat (a11 : S4x128x64.Idx → EReal) : mat (RefRun.W2_2 (F := Ideal) a11) = fun j q => a11 (ix3 (2 : Fin 4) j q) := by
  unfold RefRun.W2_2 mat
  exact funext fun k => funext fun j => sliceMat_apply 2 a11 _ _ 2 rfl k j
theorem b2_2_vec (a12 : S4x64.Idx → EReal) : vec (RefRun.b2_2 (F := Ideal) a12) = fun q => a12 (ix2 (2 : Fin 4) q) := by
  unfold RefRun.b2_2 vec
  exact funext fun j => sliceVec_apply 2 a12 _ _ 2 rfl j
theorem lng_2_vec (a14 : S4x64.Idx → EReal) : vec (RefRun.lng_2 (F := Ideal) a14) = fun q => a14 (ix2 (2 : Fin 4) q) := by
  unfold RefRun.lng_2 vec
  exact funext fun j => sliceVec_apply 2 a14 _ _ 2 rfl j
theorem lnb_2_vec (a15 : S4x64.Idx → EReal) : vec (RefRun.lnb_2 (F := Ideal) a15) = fun q => a15 (ix2 (2 : Fin 4) q) := by
  unfold RefRun.lnb_2 vec
  exact funext fun j => sliceVec_apply 2 a15 _ _ 2 rfl j
theorem eps_3_scal (a13 : S4.Idx → EReal) : scal (RefRun.eps_3 (F := Ideal) a13) = a13 (ix1 (3 : Fin 4)) := by
  unfold RefRun.eps_3 scal
  exact sliceScal_apply 3 a13 _ _ 3 rfl
theorem W1_3_mat (a7 : S4x64x128.Idx → EReal) : mat (RefRun.W1_3 (F := Ideal) a7) = fun k j => a7 (ix3 (3 : Fin 4) k j) := by
  unfold RefRun.W1_3 mat
  exact funext fun k => funext fun j => sliceMat_apply 3 a7 _ _ 3 rfl k j
theorem b1_3_vec (a8 : S4x128.Idx → EReal) : vec (RefRun.b1_3 (F := Ideal) a8) = fun j => a8 (ix2 (3 : Fin 4) j) := by
  unfold RefRun.b1_3 vec
  exact funext fun j => sliceVec_apply 3 a8 _ _ 3 rfl j
theorem g1_3_vec (a9 : S4x128.Idx → EReal) : vec (RefRun.g1_3 (F := Ideal) a9) = fun j => a9 (ix2 (3 : Fin 4) j) := by
  unfold RefRun.g1_3 vec
  exact funext fun j => sliceVec_apply 3 a9 _ _ 3 rfl j
theorem bt1_3_vec (a10 : S4x128.Idx → EReal) : vec (RefRun.bt1_3 (F := Ideal) a10) = fun j => a10 (ix2 (3 : Fin 4) j) := by
  unfold RefRun.bt1_3 vec
  exact funext fun j => sliceVec_apply 3 a10 _ _ 3 rfl j
theorem W2_3_mat (a11 : S4x128x64.Idx → EReal) : mat (RefRun.W2_3 (F := Ideal) a11) = fun j q => a11 (ix3 (3 : Fin 4) j q) := by
  unfold RefRun.W2_3 mat
  exact funext fun k => funext fun j => sliceMat_apply 3 a11 _ _ 3 rfl k j
theorem b2_3_vec (a12 : S4x64.Idx → EReal) : vec (RefRun.b2_3 (F := Ideal) a12) = fun q => a12 (ix2 (3 : Fin 4) q) := by
  unfold RefRun.b2_3 vec
  exact funext fun j => sliceVec_apply 3 a12 _ _ 3 rfl j
theorem lng_3_vec (a14 : S4x64.Idx → EReal) : vec (RefRun.lng_3 (F := Ideal) a14) = fun q => a14 (ix2 (3 : Fin 4) q) := by
  unfold RefRun.lng_3 vec
  exact funext fun j => sliceVec_apply 3 a14 _ _ 3 rfl j
theorem lnb_3_vec (a15 : S4x64.Idx → EReal) : vec (RefRun.lnb_3 (F := Ideal) a15) = fun q => a15 (ix2 (3 : Fin 4) q) := by
  unfold RefRun.lnb_3 vec
  exact funext fun j => sliceVec_apply 3 a15 _ _ 3 rfl j

/-! ## The index table's two rows -/

theorem srcCol_eq (a1 : S2x1280000.Idx → BitVec 32) : RefRun.srcCol (F := Ideal) a1 = srcOf a1 := by
  funext j
  obtain ⟨e, rfl⟩ : ∃ e : Fin 1280000, j = ix1 e := ⟨j 0, eq_ix1 j⟩
  unfold RefRun.srcCol
  exact (shapeCast_1a_a_apply _ _ e).trans (slice2_axis0_apply 0 a1 _ (0 : Fin 1) e (0 : Fin 2) rfl)

theorem dstCol_eq (a1 : S2x1280000.Idx → BitVec 32) : RefRun.dstCol (F := Ideal) a1 = dstOf a1 := by
  funext j
  obtain ⟨e, rfl⟩ : ∃ e : Fin 1280000, j = ix1 e := ⟨j 0, eq_ix1 j⟩
  unfold RefRun.dstCol
  exact (shapeCast_1a_a_apply _ _ e).trans (slice2_axis0_apply 1 a1 _ (0 : Fin 1) e (1 : Fin 2) rfl)

/-! ## The stem -/

theorem h0_mat (a0 : S80000x32.Idx → EReal) (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.h0 (F := Ideal) a0 a3 a4) = nodeEmbed (paramsOf a3 a4 a5 a6 a7 a8 a9 a10 a11 a12 a13 a14 a15) (nodesOf a0) :=
  funext fun i => funext fun q => h0_apply a0 a3 a4 i q

theorem ea_mat (a2 : S1280000x16.Idx → EReal) (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.ea (F := Ideal) a2 a5 a6) = edgeEmbed (paramsOf a3 a4 a5 a6 a7 a8 a9 a10 a11 a12 a13 a14 a15) (edgesOf a2) :=
  funext fun e => funext fun q => ea_apply a2 a5 a6 e q

/-! ## The four layers -/

/-- Layer 0 of the reference is the specification's step 0 with two-pass statistics. -/
theorem layer_0_mat (h : S80000x64.Idx → EReal) (ea : S1280000x64.Idx → EReal) (src dst : S1280000.Idx → BitVec 32)
    (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.layer_0 (F := Ideal) h ea src dst a7 a8 a9 a10 a11 a12 a13 a14 a15)
      = stepR (paramsOf a3 a4 a5 a6 a7 a8 a9 a10 a11 a12 a13 a14 a15) (aggSpec src dst) (mat ea) true 0 (mat h) := by
  rw [RefRun.layer_0_eq, layer_mat, eps_0_scal, W1_0_mat, b1_0_vec, g1_0_vec, bt1_0_vec, W2_0_mat, b2_0_vec,
    lng_0_vec, lnb_0_vec]
  rfl

/-- Layer 1 of the reference is the specification's step 1 with two-pass statistics. -/
theorem layer_1_mat (h : S80000x64.Idx → EReal) (ea : S1280000x64.Idx → EReal) (src dst : S1280000.Idx → BitVec 32)
    (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.layer_1 (F := Ideal) h ea src dst a7 a8 a9 a10 a11 a12 a13 a14 a15)
      = stepR (paramsOf a3 a4 a5 a6 a7 a8 a9 a10 a11 a12 a13 a14 a15) (aggSpec src dst) (mat ea) true 1 (mat h) := by
  rw [RefRun.layer_1_eq, layer_mat, eps_1_scal, W1_1_mat, b1_1_vec, g1_1_vec, bt1_1_vec, W2_1_mat, b2_1_vec,
    lng_1_vec, lnb_1_vec]
  rfl

/-- Layer 2 of the reference is the specification's step 2 with two-pass statistics. -/
theorem layer_2_mat (h : S80000x64.Idx → EReal) (ea : S1280000x64.Idx → EReal) (src dst : S1280000.Idx → BitVec 32)
    (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.layer_2 (F := Ideal) h ea src dst a7 a8 a9 a10 a11 a12 a13 a14 a15)
      = stepR (paramsOf a3 a4 a5 a6 a7 a8 a9 a10 a11 a12 a13 a14 a15) (aggSpec src dst) (mat ea) true 2 (mat h) := by
  rw [RefRun.layer_2_eq, layer_mat, eps_2_scal, W1_2_mat, b1_2_vec, g1_2_vec, bt1_2_vec, W2_2_mat, b2_2_vec,
    lng_2_vec, lnb_2_vec]
  rfl

/-- Layer 3 of the reference is the specification's step 3 with two-pass statistics. -/
theorem layer_3_mat (h : S80000x64.Idx → EReal) (ea : S1280000x64.Idx → EReal) (src dst : S1280000.Idx → BitVec 32)
    (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.layer_3 (F := Ideal) h ea src dst a7 a8 a9 a10 a11 a12 a13 a14 a15)
      = stepR (paramsOf a3 a4 a5 a6 a7 a8 a9 a10 a11 a12 a13 a14 a15) (aggSpec src dst) (mat ea) false 3 (mat h) := by
  rw [RefRun.layer_3_eq, lastLayer_mat, eps_3_scal, W1_3_mat, b1_3_vec, g1_3_vec, bt1_3_vec, W2_3_mat, b2_3_vec,
    lng_3_vec, lnb_3_vec]
  rfl

/-! ## The whole function -/

/-- The reference function as a function of the node and the column. -/
theorem forward_mat (a0 : S80000x32.Idx → EReal) (a1 : S2x1280000.Idx → BitVec 32) (a2 : S1280000x16.Idx → EReal) (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal) :
    mat (RefRun.forward (F := Ideal) a0 a1 a2 a3 a4 a5 a6 a7 a8 a9 a10 a11 a12 a13 a14 a15)
      = fwdR (paramsOf a3 a4 a5 a6 a7 a8 a9 a10 a11 a12 a13 a14 a15) (aggSpec (srcOf a1) (dstOf a1)) (nodesOf a0) (edgesOf a2) := by
  unfold RefRun.forward fwdR
  rw [layer_3_mat _ _ _ _ a3 a4 a5 a6 a7 a8 a9 a10 a11 a12 a13 a14 a15, layer_2_mat _ _ _ _ a3 a4 a5 a6 a7 a8 a9 a10 a11 a12 a13 a14 a15, layer_1_mat _ _ _ _ a3 a4 a5 a6 a7 a8 a9 a10 a11 a12 a13 a14 a15,
    layer_0_mat _ _ _ _ a3 a4 a5 a6 a7 a8 a9 a10 a11 a12 a13 a14 a15, srcCol_eq, dstCol_eq, h0_mat a0 a3 a4 a5 a6 a7 a8 a9 a10 a11 a12 a13 a14 a15, ea_mat a2 a3 a4 a5 a6 a7 a8 a9 a10 a11 a12 a13 a14 a15]

/-- THE REFERENCE SIDE: the reference function read at (i, q) is the network's specification with two-pass statistics. -/
theorem forward_spec (a0 : S80000x32.Idx → EReal) (a1 : S2x1280000.Idx → BitVec 32) (a2 : S1280000x16.Idx → EReal) (a3 : S32x64.Idx → EReal) (a4 : S64.Idx → EReal) (a5 : S16x64.Idx → EReal) (a6 : S64.Idx → EReal) (a7 : S4x64x128.Idx → EReal) (a8 a9 a10 : S4x128.Idx → EReal) (a11 : S4x128x64.Idx → EReal) (a12 : S4x64.Idx → EReal) (a13 : S4.Idx → EReal) (a14 a15 : S4x64.Idx → EReal)
    (i : Fin 80000) (q : Fin 64) :
    RefRun.forward (F := Ideal) a0 a1 a2 a3 a4 a5 a6 a7 a8 a9 a10 a11 a12 a13 a14 a15 (ix2 i q)
      = fwdR (paramsOf a3 a4 a5 a6 a7 a8 a9 a10 a11 a12 a13 a14 a15) (aggSpec (srcOf a1) (dstOf a1)) (nodesOf a0) (edgesOf a2) i q :=
  congrFun (congrFun (forward_mat a0 a1 a2 a3 a4 a5 a6 a7 a8 a9 a10 a11 a12 a13 a14 a15) i) q

end Cert.ReferenceIdeal.RefSpec

end
-- ==== Proof.Join.lean ====
/-
  The kernel program's function of its sixteen argument arrays is the reference function, under the precondition.

  The kernel program's function is the specification's network with one-pass statistics (each layer is the
  specification's step; the stem is the two embeddings); the reference function is the specification's network with
  two-pass statistics; under the precondition every input entry is real, and then the two networks are one function.
-/
import proofs.«178590_j59433757442359_2_alg».proof.Proof.KI.ChainAll
import proofs.«178590_j59433757442359_2_alg».proof.Proof.JoinLayer
import proofs.«178590_j59433757442359_2_alg».proof.Proof.RefSpecForward
import proofs.«178590_j59433757442359_2_alg».proof.Proof.Math.ParamsOf

set_option maxRecDepth 16384

noncomputable section

namespace Cert.Join

open Cert.KernelIdeal.Reg Cert.KernelIdeal.Chain
open Idealize.ShloMosaic Idealize.ShloMosaic.ValueIdx
open Cert.Bridge
open Cert.ReferenceIdeal.RefSpec (eps_0_scal W1_0_mat b1_0_vec g1_0_vec bt1_0_vec W2_0_mat b2_0_vec lng_0_vec lnb_0_vec
  eps_1_scal W1_1_mat b1_1_vec g1_1_vec bt1_1_vec W2_1_mat b2_1_vec lng_1_vec lnb_1_vec
  eps_2_scal W1_2_mat b1_2_vec g1_2_vec bt1_2_vec W2_2_mat b2_2_vec lng_2_vec lnb_2_vec
  eps_3_scal W1_3_mat b1_3_vec g1_3_vec bt1_3_vec W2_3_mat b2_3_vec lng_3_vec lnb_3_vec srcCol_eq dstCol_eq forward_spec)

/-- The kernel program's function, as a function of the node and the column, is the specification's network with
    one-pass statistics. -/
theorem kfwd_mat (a0 : FVec Ideal ⟨2, ![80000, 32]⟩ .f32) (a1 : IVec ⟨2, ![2, 1280000]⟩ 32) (a2 : FVec Ideal ⟨2, ![1280000, 16]⟩ .f32) (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32) :
    asMat (kfwd a0 a1 a2 a3 a4 a5 a6 a7 a8 a9 a10 a11 a12 a13 a14 a15)
      = fwdK (paramsOf a3 a4 a5 a6 a7 a8 a9 a10 a11 a12 a13 a14 a15) (aggSpec (srcOf a1) (dstOf a1)) (nodesOf a0) (edgesOf a2) := by
  unfold kfwd fwdK
  rw [kLastLayer_spec (paramsOf a3 a4 a5 a6 a7 a8 a9 a10 a11 a12 a13 a14 a15) 3 _ _ _ _ _ _ _ _ _ _ _ _ _ (eps_3_scal a13) (W1_3_mat a7) (b1_3_vec a8) (g1_3_vec a9) (bt1_3_vec a10) (W2_3_mat a11) (b2_3_vec a12) (lng_3_vec a14) (lnb_3_vec a15),
    kLayer_spec (paramsOf a3 a4 a5 a6 a7 a8 a9 a10 a11 a12 a13 a14 a15) 2 _ _ _ _ _ _ _ _ _ _ _ _ _ (eps_2_scal a13) (W1_2_mat a7) (b1_2_vec a8) (g1_2_vec a9) (bt1_2_vec a10) (W2_2_mat a11) (b2_2_vec a12) (lng_2_vec a14) (lnb_2_vec a15),
    kLayer_spec (paramsOf a3 a4 a5 a6 a7 a8 a9 a10 a11 a12 a13 a14 a15) 1 _ _ _ _ _ _ _ _ _ _ _ _ _ (eps_1_scal a13) (W1_1_mat a7) (b1_1_vec a8) (g1_1_vec a9) (bt1_1_vec a10) (W2_1_mat a11) (b2_1_vec a12) (lng_1_vec a14) (lnb_1_vec a15),
    kLayer_spec (paramsOf a3 a4 a5 a6 a7 a8 a9 a10 a11 a12 a13 a14 a15) 0 _ _ _ _ _ _ _ _ _ _ _ _ _ (eps_0_scal a13) (W1_0_mat a7) (b1_0_vec a8) (g1_0_vec a9) (bt1_0_vec a10) (W2_0_mat a11) (b2_0_vec a12) (lng_0_vec a14) (lnb_0_vec a15),
    srcCol_eq, dstCol_eq]
  rfl

/-- THE KERNEL SIDE: the kernel program's function read at (i, q). -/
theorem kfwd_spec (a0 : FVec Ideal ⟨2, ![80000, 32]⟩ .f32) (a1 : IVec ⟨2, ![2, 1280000]⟩ 32) (a2 : FVec Ideal ⟨2, ![1280000, 16]⟩ .f32) (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32) (i : Fin 80000) (q : Fin 64) :
    kfwd a0 a1 a2 a3 a4 a5 a6 a7 a8 a9 a10 a11 a12 a13 a14 a15 (ix2 i q)
      = fwdK (paramsOf a3 a4 a5 a6 a7 a8 a9 a10 a11 a12 a13 a14 a15) (aggSpec (srcOf a1) (dstOf a1)) (nodesOf a0) (edgesOf a2) i q :=
  congrFun (congrFun (kfwd_mat a0 a1 a2 a3 a4 a5 a6 a7 a8 a9 a10 a11 a12 a13 a14 a15) i) q

/-- THE JOIN: under the precondition "every float input is finite", the kernel program's function of the sixteen
    argument arrays is the reference function. -/
theorem kernel_eq_reference [Cert.Pre_finite_inputs.Facts] (a0 : FVec Ideal ⟨2, ![80000, 32]⟩ .f32) (a1 : IVec ⟨2, ![2, 1280000]⟩ 32) (a2 : FVec Ideal ⟨2, ![1280000, 16]⟩ .f32) (a3 : FVec Ideal ⟨2, ![32, 64]⟩ .f32) (a4 : FVec Ideal ⟨1, ![64]⟩ .f32) (a5 : FVec Ideal ⟨2, ![16, 64]⟩ .f32) (a6 : FVec Ideal ⟨1, ![64]⟩ .f32) (a7 : FVec Ideal ⟨3, ![4, 64, 128]⟩ .f32) (a8 : FVec Ideal ⟨2, ![4, 128]⟩ .f32) (a9 : FVec Ideal ⟨2, ![4, 128]⟩ .f32) (a10 : FVec Ideal ⟨2, ![4, 128]⟩ .f32) (a11 : FVec Ideal ⟨3, ![4, 128, 64]⟩ .f32) (a12 : FVec Ideal ⟨2, ![4, 64]⟩ .f32) (a13 : FVec Ideal ⟨1, ![4]⟩ .f32) (a14 : FVec Ideal ⟨2, ![4, 64]⟩ .f32) (a15 : FVec Ideal ⟨2, ![4, 64]⟩ .f32)
    (h : Cert.Pre_finite_inputs.fn (F := Ideal) a0 a1 a2 a3 a4 a5 a6 a7 a8 a9 a10 a11 a12 a13 a14 a15 = fun _ => 1#1) :
    kfwd a0 a1 a2 a3 a4 a5 a6 a7 a8 a9 a10 a11 a12 a13 a14 a15 = Cert.ReferenceIdeal.RefRun.forward (F := Ideal) a0 a1 a2 a3 a4 a5 a6 a7 a8 a9 a10 a11 a12 a13 a14 a15 := by
  funext j
  obtain ⟨i, q, rfl⟩ : ∃ (i : Fin 80000) (q : Fin 64), j = ix2 i q := ⟨j 0, j 1, eq_ix2 j⟩
  rw [forward_spec, ← spec_join a0 a1 a2 a3 a4 a5 a6 a7 a8 a9 a10 a11 a12 a13 a14 a15 h]
  exact kfwd_spec a0 a1 a2 a3 a4 a5 a6 a7 a8 a9 a10 a11 a12 a13 a14 a15 i q

end Cert.Join

end
-- ==== Proof.lean ====
/- The five claims of this certificate.
   The kernel program is fourteen pipelined regions among stretches of host operations; its frame (at both instances) is the run of
   those items one after another, each region entered with the buffers as the items before it left them. The reference is a host
   program; its run is its operations' composition. At the ideal instance the kernel's result array, read region by region and
   stretch by stretch down to the argument arrays, and the reference's are the same network: embeddings, then four layers of
   edge aggregation, a dense layer, batch normalisation over the node axis, a dense layer and layer normalisation. They differ in
   one place only, the batch variance — column sums of z and z² accumulated block by block, then max(q/N − (s/N)², 0), against
   (Σ(z − μ)²)/N — and for real data the two agree; that every intermediate is real follows, layer by layer, from the
   precondition that every float input is finite. -/
import proofs.«178590_j59433757442359_2_alg».proof.Defs
import proofs.«178590_j59433757442359_2_alg».proof.Proof.Gen.Kernel
import proofs.«178590_j59433757442359_2_alg».proof.Proof.Gen.KernelIdeal
import proofs.«178590_j59433757442359_2_alg».proof.Proof.Gen.ReferenceIdeal
import proofs.«178590_j59433757442359_2_alg».proof.Proof.Gen.Pre_finite_inputs
import proofs.«178590_j59433757442359_2_alg».proof.Proof.K.RunInst
import proofs.«178590_j59433757442359_2_alg».proof.Proof.KI.RunInst
import proofs.«178590_j59433757442359_2_alg».proof.Proof.RefRunValue
import proofs.«178590_j59433757442359_2_alg».proof.Proof.KI.ChainAll
import proofs.«178590_j59433757442359_2_alg».proof.Proof.Join

noncomputable section

namespace Cert.Proof

open Idealize.ShloMosaic Idealize.SL.Sem

theorem frame_K : Cert.frame_Kernel := fun m ρ _ => Cert.Kernel.Reg.frame_D m ρ
theorem frame_KI : Cert.frame_KernelIdeal := fun m ρ _ => Cert.KernelIdeal.Reg.frame_D m ρ
theorem frame_R : Cert.frame_ReferenceIdeal := fun m ρ _ =>
  (θ_run Cert.ReferenceIdeal.defs _ _).mono (fun _ h c => (h c).2) (Cert.ReferenceIdeal.RefRun.run (F := Ideal) m ρ)

/-- Both programs end at the reference's network of the argument arrays. -/
theorem algebraic : Cert.algebraic_KernelIdeal_ReferenceIdeal := by
  intro m ρ m' ρ' hpre hagree
  refine ⟨fun c => Cert.ReferenceIdeal.RefRun.forward (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩) (Cert.KernelIdeal.Reg.run_result_D (F := Ideal) m ρ)
    exact (Cert.KernelIdeal.Chain.kernel_result_D m c).trans (Cert.Join.kernel_eq_reference _ _ _ _ _ _ _ _ _ _ _ _ _ _ _ _ (hpre c))
  · refine (θ_run Cert.ReferenceIdeal.defs _ _).mono (fun r h c => ⟨(h c).1.trans ?_, (h c).2⟩) (Cert.ReferenceIdeal.RefRun.run_forward (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
